-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S4x64 : Shape := ⟨2, ![4, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg8 : FVec F S4x64 .f32) (main_arg9 : FVec F S4x64 .f32) (main_v33 : IVec S_ 1) : IVec S_ 1 :=
  let main_v34 : FVec F S4x64 .f32 := Host.absf main_arg8
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S4x64 .f32 := Host.absf main_arg9
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  main_v43

def fn_part1 {F : FTy → Type} [FloatOps F] (main_arg5 : FVec F S3x64 .f32) (main_arg6 : FVec F S64x40 .f32) (main_arg7 : FVec F S40 .f32) (main_arg8 : FVec F S4x64 .f32) (main_arg9 : FVec F S4x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S3x64x64 .f32) (main_arg5 : FVec F S3x64 .f32) (main_arg6 : FVec F S64x40 .f32) (main_arg7 : FVec F S40 .f32) (main_arg8 : FVec F S4x64 .f32) (main_arg9 : FVec F S4x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S4x64 : Shape := ⟨2, ![4, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x64x64 : Shape := ⟨3, ![1, 64, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 137
  | .vmem => 88
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S3x64x64, .f32⟩
  | 5 => ⟨S3x64, .f32⟩
  | 6 => ⟨S64x40, .f32⟩
  | 7 => ⟨S40, .f32⟩
  | 8 => ⟨S4x64, .f32⟩
  | 9 => ⟨S4x64, .f32⟩
  | 10 => ⟨S1x1600000, .i32⟩
  | 11 => ⟨S1600000, .i32⟩
  | 12 => ⟨S1x1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S1x64, .f32⟩
  | 28 => ⟨S100000x64, .f32⟩
  | 29 => ⟨S1x64, .f32⟩
  | 30 => ⟨S1x64, .f32⟩
  | 31 => ⟨S1x64, .f32⟩
  | 32 => ⟨S64, .f32⟩
  | 33 => ⟨S1x64, .f32⟩
  | 34 => ⟨S64, .f32⟩
  | 35 => ⟨S1x64, .f32⟩
  | 36 => ⟨S1x64, .f32⟩
  | 37 => ⟨S100000x64, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x64, .f32⟩
  | 47 => ⟨S_, .f32⟩
  | 48 => ⟨S100000x64, .f32⟩
  | 49 => ⟨S1600000x1, .i32⟩
  | 50 => ⟨S100000x64, .f32⟩
  | 51 => ⟨S1x64x64, .f32⟩
  | 52 => ⟨S64x64, .f32⟩
  | 53 => ⟨S1x64, .f32⟩
  | 54 => ⟨S64, .f32⟩
  | 55 => ⟨S1x64, .f32⟩
  | 56 => ⟨S100000x64, .f32⟩
  | 57 => ⟨S1x64, .f32⟩
  | 58 => ⟨S1x64, .f32⟩
  | 59 => ⟨S1x64, .f32⟩
  | 60 => ⟨S64, .f32⟩
  | 61 => ⟨S1x64, .f32⟩
  | 62 => ⟨S64, .f32⟩
  | 63 => ⟨S1x64, .f32⟩
  | 64 => ⟨S1x64, .f32⟩
  | 65 => ⟨S100000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S1x64x64, .f32⟩
  | 80 => ⟨S64x64, .f32⟩
  | 81 => ⟨S1x64, .f32⟩
  | 82 => ⟨S64, .f32⟩
  | 83 => ⟨S1x64, .f32⟩
  | 84 => ⟨S100000x64, .f32⟩
  | 85 => ⟨S1x64, .f32⟩
  | 86 => ⟨S1x64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S1x64, .f32⟩
  | 93 => ⟨S100000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S1x64x64, .f32⟩
  | 108 => ⟨S64x64, .f32⟩
  | 109 => ⟨S1x64, .f32⟩
  | 110 => ⟨S64, .f32⟩
  | 111 => ⟨S1x64, .f32⟩
  | 112 => ⟨S100000x64, .f32⟩
  | 113 => ⟨S1x64, .f32⟩
  | 114 => ⟨S1x64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S1x64, .f32⟩
  | 121 => ⟨S100000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x64, .f32⟩

abbrev hbmTy0_1 (i : Nat) : BufTy := match i % 128 with
  | 0 => ⟨S1600000, .i32⟩
  | 1 => ⟨S1600000x1, .i32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S1x40, .f32⟩
  | 8 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S64x64, .f32⟩
  | .local _ .vmem, ⟨65, _⟩ => ⟨S1x64, .f32⟩
  | .local _ .vmem, ⟨66, _⟩ => ⟨S5000x64, .f32⟩
  | .local _ .vmem, ⟨67, _⟩ => ⟨S5000x64, .f32⟩
  | .local _ .vmem, ⟨68, _⟩ => ⟨S1x64, .f32⟩
  | .local _ .vmem, ⟨69, _⟩ => ⟨S1x64, .f32⟩
  | .local _ .vmem, ⟨70, _⟩ => ⟨S1x64, .f32⟩
  | .local _ .vmem, ⟨71, _⟩ => ⟨S1x64, .f32⟩
  | .local _ .vmem, ⟨72, _⟩ => ⟨S5000x64, .f32⟩
  | .local _ .vmem, ⟨73, _⟩ => ⟨S5000x64, .f32⟩
  | .local _ .vmem, ⟨74, _⟩ => ⟨S1x64, .f32⟩
  | .local _ .vmem, ⟨75, _⟩ => ⟨S1x64, .f32⟩
  | .local _ .vmem, ⟨76, _⟩ => ⟨S1x64, .f32⟩
  | .local _ .vmem, ⟨77, _⟩ => ⟨S1x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S5000x64, .f32⟩
  | .local _ .vmem, ⟨83, _⟩ => ⟨S5000x64, .f32⟩
  | .local _ .vmem, ⟨84, _⟩ => ⟨S64x40, .f32⟩
  | .local _ .vmem, ⟨85, _⟩ => ⟨S1x40, .f32⟩
  | .local _ .vmem, ⟨86, _⟩ => ⟨S5000x40, .f32⟩
  | .local _ .vmem, ⟨87, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38_0 : Ref sig .tc := ⟨.hbm, 56, rfl⟩
abbrev main_v38_1 : Ref sig .tc := ⟨.hbm, 57, rfl⟩
abbrev main_v38_2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_4 : Ref sig .tc := ⟨.hbm, 66, rfl⟩
abbrev main_v46 : Ref sig .tc := ⟨.hbm, 67, rfl⟩
abbrev main_v47 : Ref sig .tc := ⟨.hbm, 68, rfl⟩
abbrev main_c_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61_0 : Ref sig .tc := ⟨.hbm, 84, rfl⟩
abbrev main_v61_1 : Ref sig .tc := ⟨.hbm, 85, rfl⟩
abbrev main_v61_2 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_7 : Ref sig .tc := ⟨.hbm, 94, rfl⟩
abbrev main_v69 : Ref sig .tc := ⟨.hbm, 95, rfl⟩
abbrev main_v70 : Ref sig .tc := ⟨.hbm, 96, rfl⟩
abbrev main_c_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84_0 : Ref sig .tc := ⟨.hbm, 112, rfl⟩
abbrev main_v84_1 : Ref sig .tc := ⟨.hbm, 113, rfl⟩
abbrev main_v84_2 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_10 : Ref sig .tc := ⟨.hbm, 122, rfl⟩
abbrev main_v92 : Ref sig .tc := ⟨.hbm, 123, rfl⟩
abbrev main_v93 : Ref sig .tc := ⟨.hbm, 124, rfl⟩
abbrev main_c_11 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_12 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg6_0 : Ref sig .tc := ⟨.vmem, 69, rfl⟩
abbrev cc6_scratch0 : Ref sig .tc := ⟨.vmem, 70, rfl⟩
abbrev cc6_scratch1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg4_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem4_1 : DmaSem sig := 61
abbrev cc6_sem5_0 : DmaSem sig := 62
abbrev cc6_sem6_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem4_1 : DmaSem sig := 79

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v33 : BitVec 1 := Scalar.cmpi .eq arg0 c19_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_21 : BitVec 32 := 0#32
  let v37 : BitVec 1 := Scalar.cmpi .ne v36 c0_i32_21
  v37

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_21 : BitVec 32 := 0#32
  let v37 : BitVec 1 := Scalar.cmpi .ne v36 c0_i32_21
  v37

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_21 : BitVec 32 := 0#32
  let v37 : BitVec 1 := Scalar.cmpi .ne v36 c0_i32_21
  v37

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x40 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x40 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x40 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S5000x64 : S1x64.Broadcasts S5000x64
  reduces_S5000x64_S64 : S5000x64.Reduces [0] S64
  slices_S4x64_S1x64_0_0 : S4x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S64x64_S64x64 : S64x64.ShapeCasts S64x64
  slices_S4x64_S1x64_1_0 : S4x64.Slices ![1, 0] S1x64
  slices_S3x64x64_S1x64x64_1_0_0 : S3x64x64.Slices ![1, 0, 0] S1x64x64
  slices_S3x64_S1x64_1_0 : S3x64.Slices ![1, 0] S1x64
  slices_S4x64_S1x64_2_0 : S4x64.Slices ![2, 0] S1x64
  slices_S3x64x64_S1x64x64_2_0_0 : S3x64x64.Slices ![2, 0, 0] S1x64x64
  slices_S3x64_S1x64_2_0 : S3x64.Slices ![2, 0] S1x64
  slices_S4x64_S1x64_3_0 : S4x64.Slices ![3, 0] S1x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x40.size a ≤ S64x40.size a
  hwx8_2 : ∀ i : grid8.Coords, EltTy.bits .f32 = 32 ∨ (Rect.block (s := S64x40) S64x40.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x40.size a ≤ S1x40.size a
  hwx8_3 : ∀ i : grid8.Coords, EltTy.bits .f32 = 32 ∨ (Rect.block (s := S1x40) S1x40.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x40.size a ≤ S100000x40.size a
  hwx8_4 : ∀ i : grid8.Coords, EltTy.bits .f32 = 32 ∨ (Rect.block (s := S100000x40) S5000x40.size (cc8_transform_4 i) (hinb8_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v15_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_1) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15_2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v38_1) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38_2) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v38_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38_1) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38_2) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v45) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v61_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v61_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61_1) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61_2) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v68) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v68) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v80) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84_0) S5000x64.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v84_1) S1x64.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v84_2) S1x64.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun i => !(k6_cond2 i == 1#1) | 6 => fun i => !(k6_cond2 i == 1#1) | ⟨_ + 7, h⟩ => absurd h (Nat.not_lt.2 (Nat.le_add_left _ _))

abbrev win7_0 : Pipeline.Window sig grid7 :=
  Pipeline.Window.ofSpec (Memref.whole main_v84_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84_1) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v84_2) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v89) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v90) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v91) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v91) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg6) S64x40.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v102) S1x40.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v103) S5000x40.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S4x64 : Shape := ⟨2, ![4, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x64x64 : Shape := ⟨3, ![1, 64, 64]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 335
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S3x64x64, .f32⟩
  | 5 => ⟨S3x64, .f32⟩
  | 6 => ⟨S64x40, .f32⟩
  | 7 => ⟨S40, .f32⟩
  | 8 => ⟨S4x64, .f32⟩
  | 9 => ⟨S4x64, .f32⟩
  | 10 => ⟨S1x1600000, .i32⟩
  | 11 => ⟨S1600000, .i32⟩
  | 12 => ⟨S1x1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S1x64, .f32⟩
  | 36 => ⟨S64, .f32⟩
  | 37 => ⟨S1x64, .f32⟩
  | 38 => ⟨S64, .f32⟩
  | 39 => ⟨S_, .f32⟩
  | 40 => ⟨S64, .f32⟩
  | 41 => ⟨S_, .f32⟩
  | 42 => ⟨S64, .f32⟩
  | 43 => ⟨S64, .f32⟩
  | 44 => ⟨S_, .i32⟩
  | 45 => ⟨S_, .f32⟩
  | 46 => ⟨S64, .f32⟩
  | 47 => ⟨S1x64, .f32⟩
  | 48 => ⟨S_, .f32⟩
  | 49 => ⟨S1x64, .f32⟩
  | 50 => ⟨S1x64, .f32⟩
  | 51 => ⟨S100000x64, .f32⟩
  | 52 => ⟨S100000x64, .f32⟩
  | 53 => ⟨S100000x64, .f32⟩
  | 54 => ⟨S_, .f32⟩
  | 55 => ⟨S_, .f32⟩
  | 56 => ⟨S_, .f32⟩
  | 57 => ⟨S_, .f32⟩
  | 58 => ⟨S64, .f32⟩
  | 59 => ⟨S64, .f32⟩
  | 60 => ⟨S64, .f32⟩
  | 61 => ⟨S_, .f32⟩
  | 62 => ⟨S_, .i1⟩
  | 63 => ⟨S_, .f32⟩
  | 64 => ⟨S_, .f32⟩
  | 65 => ⟨S64, .f32⟩
  | 66 => ⟨S64, .f32⟩
  | 67 => ⟨S1x64, .f32⟩
  | 68 => ⟨S100000x64, .f32⟩
  | 69 => ⟨S100000x64, .f32⟩
  | 70 => ⟨S_, .f32⟩
  | 71 => ⟨S64, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S1x64x64, .f32⟩
  | 84 => ⟨S64x64, .f32⟩
  | 85 => ⟨S1x64, .f32⟩
  | 86 => ⟨S64, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S1x64, .f32⟩
  | 109 => ⟨S64, .f32⟩
  | 110 => ⟨S1x64, .f32⟩
  | 111 => ⟨S64, .f32⟩
  | 112 => ⟨S_, .f32⟩
  | 113 => ⟨S64, .f32⟩
  | 114 => ⟨S_, .f32⟩
  | 115 => ⟨S64, .f32⟩
  | 116 => ⟨S64, .f32⟩
  | 117 => ⟨S_, .i32⟩
  | 118 => ⟨S_, .f32⟩
  | 119 => ⟨S64, .f32⟩
  | 120 => ⟨S1x64, .f32⟩
  | 121 => ⟨S_, .f32⟩
  | 122 => ⟨S1x64, .f32⟩
  | 123 => ⟨S1x64, .f32⟩
  | 124 => ⟨S100000x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S_, .f32⟩
  | 3 => ⟨S64, .f32⟩
  | 4 => ⟨S64, .f32⟩
  | 5 => ⟨S64, .f32⟩
  | 6 => ⟨S_, .f32⟩
  | 7 => ⟨S_, .i1⟩
  | 8 => ⟨S_, .f32⟩
  | 9 => ⟨S_, .f32⟩
  | 10 => ⟨S64, .f32⟩
  | 11 => ⟨S64, .f32⟩
  | 12 => ⟨S1x64, .f32⟩
  | 13 => ⟨S100000x64, .f32⟩
  | 14 => ⟨S100000x64, .f32⟩
  | 15 => ⟨S_, .f32⟩
  | 16 => ⟨S64, .f32⟩
  | 17 => ⟨S64, .f32⟩
  | 18 => ⟨S64, .f32⟩
  | 19 => ⟨S1x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S1x64x64, .f32⟩
  | 29 => ⟨S64x64, .f32⟩
  | 30 => ⟨S1x64, .f32⟩
  | 31 => ⟨S64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S_, .f32⟩
  | 42 => ⟨S100000x64, .f32⟩
  | 43 => ⟨S1600000x1, .i32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S1x64, .f32⟩
  | 54 => ⟨S64, .f32⟩
  | 55 => ⟨S1x64, .f32⟩
  | 56 => ⟨S64, .f32⟩
  | 57 => ⟨S_, .f32⟩
  | 58 => ⟨S64, .f32⟩
  | 59 => ⟨S_, .f32⟩
  | 60 => ⟨S64, .f32⟩
  | 61 => ⟨S64, .f32⟩
  | 62 => ⟨S_, .i32⟩
  | 63 => ⟨S_, .f32⟩
  | 64 => ⟨S64, .f32⟩
  | 65 => ⟨S1x64, .f32⟩
  | 66 => ⟨S_, .f32⟩
  | 67 => ⟨S1x64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S_, .f32⟩
  | 74 => ⟨S_, .f32⟩
  | 75 => ⟨S_, .f32⟩
  | 76 => ⟨S64, .f32⟩
  | 77 => ⟨S64, .f32⟩
  | 78 => ⟨S64, .f32⟩
  | 79 => ⟨S_, .f32⟩
  | 80 => ⟨S_, .i1⟩
  | 81 => ⟨S_, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64x64, .f32⟩
  | 102 => ⟨S64x64, .f32⟩
  | 103 => ⟨S1x64, .f32⟩
  | 104 => ⟨S64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S1x64, .f32⟩
  | 127 => ⟨S64, .f32⟩
  | _ => ⟨S100000x64, .f32⟩

abbrev hbmTy0_2 (i : Nat) : BufTy := match i % 128 with
  | 0 => ⟨S1x64, .f32⟩
  | 1 => ⟨S64, .f32⟩
  | 2 => ⟨S_, .f32⟩
  | 3 => ⟨S64, .f32⟩
  | 4 => ⟨S_, .f32⟩
  | 5 => ⟨S64, .f32⟩
  | 6 => ⟨S64, .f32⟩
  | 7 => ⟨S_, .i32⟩
  | 8 => ⟨S_, .f32⟩
  | 9 => ⟨S64, .f32⟩
  | 10 => ⟨S1x64, .f32⟩
  | 11 => ⟨S_, .f32⟩
  | 12 => ⟨S1x64, .f32⟩
  | 13 => ⟨S1x64, .f32⟩
  | 14 => ⟨S100000x64, .f32⟩
  | 15 => ⟨S100000x64, .f32⟩
  | 16 => ⟨S100000x64, .f32⟩
  | 17 => ⟨S_, .f32⟩
  | 18 => ⟨S_, .f32⟩
  | 19 => ⟨S_, .f32⟩
  | 20 => ⟨S_, .f32⟩
  | 21 => ⟨S64, .f32⟩
  | 22 => ⟨S64, .f32⟩
  | 23 => ⟨S64, .f32⟩
  | 24 => ⟨S_, .f32⟩
  | 25 => ⟨S_, .i1⟩
  | 26 => ⟨S_, .f32⟩
  | 27 => ⟨S_, .f32⟩
  | 28 => ⟨S64, .f32⟩
  | 29 => ⟨S64, .f32⟩
  | 30 => ⟨S1x64, .f32⟩
  | 31 => ⟨S100000x64, .f32⟩
  | 32 => ⟨S100000x64, .f32⟩
  | 33 => ⟨S_, .f32⟩
  | 34 => ⟨S64, .f32⟩
  | 35 => ⟨S64, .f32⟩
  | 36 => ⟨S64, .f32⟩
  | 37 => ⟨S1x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000x64, .f32⟩
  | 60 => ⟨S100000x40, .f32⟩
  | 61 => ⟨S1x40, .f32⟩
  | 62 => ⟨S100000x40, .f32⟩
  | 63 => ⟨S100000x40, .f32⟩
  | 64 => ⟨S_, .f32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x40, .f32⟩
  | 71 => ⟨S100000x40, .f32⟩
  | 72 => ⟨S100000x40, .f32⟩
  | 73 => ⟨S_, .f32⟩
  | 74 => ⟨S100000, .f32⟩
  | 75 => ⟨S100000x1, .f32⟩
  | 76 => ⟨S100000x1, .f32⟩
  | 77 => ⟨S100000x40, .f32⟩
  | 78 => ⟨S100000x40, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_cst_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_cst_1 : Ref sig .tc := ⟨.hbm, 55, rfl⟩
abbrev main_call1_v8 : Ref sig .tc := ⟨.hbm, 56, rfl⟩
abbrev main_call1_cst_2 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_cst_3 : Ref sig .tc := ⟨.hbm, 61, rfl⟩
abbrev main_call1_v12 : Ref sig .tc := ⟨.hbm, 62, rfl⟩
abbrev main_call1_cst_4 : Ref sig .tc := ⟨.hbm, 63, rfl⟩
abbrev main_call1_call0_v0 : Ref sig .tc := ⟨.hbm, 64, rfl⟩
abbrev main_call1_call0_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_4 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_5 : Ref sig .tc := ⟨.hbm, 87, rfl⟩
abbrev main_v47 : Ref sig .tc := ⟨.hbm, 88, rfl⟩
abbrev main_v48 : Ref sig .tc := ⟨.hbm, 89, rfl⟩
abbrev main_c_6 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_7 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_call2_cst : Ref sig .tc := ⟨.hbm, 105, rfl⟩
abbrev main_call2_v0 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_8 : Ref sig .tc := ⟨.hbm, 112, rfl⟩
abbrev main_v67 : Ref sig .tc := ⟨.hbm, 113, rfl⟩
abbrev main_cst_9 : Ref sig .tc := ⟨.hbm, 114, rfl⟩
abbrev main_v68 : Ref sig .tc := ⟨.hbm, 115, rfl⟩
abbrev main_v69 : Ref sig .tc := ⟨.hbm, 116, rfl⟩
abbrev main_c_10 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_cst_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_v7 : Ref sig .tc := ⟨.hbm, 127, rfl⟩
abbrev main_call3_cst_1 : Ref sig .tc := ⟨.hbm, 128, rfl⟩
abbrev main_call3_v8 : Ref sig .tc := ⟨.hbm, 129, rfl⟩
abbrev main_call3_cst_2 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_cst_3 : Ref sig .tc := ⟨.hbm, 134, rfl⟩
abbrev main_call3_v12 : Ref sig .tc := ⟨.hbm, 135, rfl⟩
abbrev main_call3_cst_4 : Ref sig .tc := ⟨.hbm, 136, rfl⟩
abbrev main_call3_call0_v0 : Ref sig .tc := ⟨.hbm, 137, rfl⟩
abbrev main_call3_call0_v1 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_cst_11 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_c_12 : Ref sig .tc := ⟨.hbm, 160, rfl⟩
abbrev main_v90 : Ref sig .tc := ⟨.hbm, 161, rfl⟩
abbrev main_v91 : Ref sig .tc := ⟨.hbm, 162, rfl⟩
abbrev main_c_13 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_cst_14 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_call4_cst : Ref sig .tc := ⟨.hbm, 178, rfl⟩
abbrev main_call4_v0 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_cst_15 : Ref sig .tc := ⟨.hbm, 185, rfl⟩
abbrev main_v110 : Ref sig .tc := ⟨.hbm, 186, rfl⟩
abbrev main_cst_16 : Ref sig .tc := ⟨.hbm, 187, rfl⟩
abbrev main_v111 : Ref sig .tc := ⟨.hbm, 188, rfl⟩
abbrev main_v112 : Ref sig .tc := ⟨.hbm, 189, rfl⟩
abbrev main_c_17 : Ref sig .tc := ⟨.hbm, 190, rfl⟩
abbrev main_call5_cst : Ref sig .tc := ⟨.hbm, 191, rfl⟩
abbrev main_call5_v0 : Ref sig .tc := ⟨.hbm, 192, rfl⟩
abbrev main_call5_v1 : Ref sig .tc := ⟨.hbm, 193, rfl⟩
abbrev main_call5_cst_0 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_call5_v5 : Ref sig .tc := ⟨.hbm, 198, rfl⟩
abbrev main_call5_v6 : Ref sig .tc := ⟨.hbm, 199, rfl⟩
abbrev main_call5_v7 : Ref sig .tc := ⟨.hbm, 200, rfl⟩
abbrev main_call5_cst_1 : Ref sig .tc := ⟨.hbm, 201, rfl⟩
abbrev main_call5_v8 : Ref sig .tc := ⟨.hbm, 202, rfl⟩
abbrev main_call5_cst_2 : Ref sig .tc := ⟨.hbm, 203, rfl⟩
abbrev main_call5_v9 : Ref sig .tc := ⟨.hbm, 204, rfl⟩
abbrev main_call5_v10 : Ref sig .tc := ⟨.hbm, 205, rfl⟩
abbrev main_call5_v11 : Ref sig .tc := ⟨.hbm, 206, rfl⟩
abbrev main_call5_cst_3 : Ref sig .tc := ⟨.hbm, 207, rfl⟩
abbrev main_call5_v12 : Ref sig .tc := ⟨.hbm, 208, rfl⟩
abbrev main_call5_cst_4 : Ref sig .tc := ⟨.hbm, 209, rfl⟩
abbrev main_call5_call0_v0 : Ref sig .tc := ⟨.hbm, 210, rfl⟩
abbrev main_call5_call0_v1 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_cst_18 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_c_19 : Ref sig .tc := ⟨.hbm, 233, rfl⟩
abbrev main_v133 : Ref sig .tc := ⟨.hbm, 234, rfl⟩
abbrev main_v134 : Ref sig .tc := ⟨.hbm, 235, rfl⟩
abbrev main_c_20 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_cst_21 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_call6_cst : Ref sig .tc := ⟨.hbm, 251, rfl⟩
abbrev main_call6_v0 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_cst_22 : Ref sig .tc := ⟨.hbm, 258, rfl⟩
abbrev main_v153 : Ref sig .tc := ⟨.hbm, 259, rfl⟩
abbrev main_cst_23 : Ref sig .tc := ⟨.hbm, 260, rfl⟩
abbrev main_v154 : Ref sig .tc := ⟨.hbm, 261, rfl⟩
abbrev main_v155 : Ref sig .tc := ⟨.hbm, 262, rfl⟩
abbrev main_c_24 : Ref sig .tc := ⟨.hbm, 263, rfl⟩
abbrev main_call7_cst : Ref sig .tc := ⟨.hbm, 264, rfl⟩
abbrev main_call7_v0 : Ref sig .tc := ⟨.hbm, 265, rfl⟩
abbrev main_call7_v1 : Ref sig .tc := ⟨.hbm, 266, rfl⟩
abbrev main_call7_cst_0 : Ref sig .tc := ⟨.hbm, 267, rfl⟩
abbrev main_call7_v2 : Ref sig .tc := ⟨.hbm, 268, rfl⟩
abbrev main_call7_v3 : Ref sig .tc := ⟨.hbm, 269, rfl⟩
abbrev main_call7_v4 : Ref sig .tc := ⟨.hbm, 270, rfl⟩
abbrev main_call7_v5 : Ref sig .tc := ⟨.hbm, 271, rfl⟩
abbrev main_call7_v6 : Ref sig .tc := ⟨.hbm, 272, rfl⟩
abbrev main_call7_v7 : Ref sig .tc := ⟨.hbm, 273, rfl⟩
abbrev main_call7_cst_1 : Ref sig .tc := ⟨.hbm, 274, rfl⟩
abbrev main_call7_v8 : Ref sig .tc := ⟨.hbm, 275, rfl⟩
abbrev main_call7_cst_2 : Ref sig .tc := ⟨.hbm, 276, rfl⟩
abbrev main_call7_v9 : Ref sig .tc := ⟨.hbm, 277, rfl⟩
abbrev main_call7_v10 : Ref sig .tc := ⟨.hbm, 278, rfl⟩
abbrev main_call7_v11 : Ref sig .tc := ⟨.hbm, 279, rfl⟩
abbrev main_call7_cst_3 : Ref sig .tc := ⟨.hbm, 280, rfl⟩
abbrev main_call7_v12 : Ref sig .tc := ⟨.hbm, 281, rfl⟩
abbrev main_call7_cst_4 : Ref sig .tc := ⟨.hbm, 282, rfl⟩
abbrev main_call7_call0_v0 : Ref sig .tc := ⟨.hbm, 283, rfl⟩
abbrev main_call7_call0_v1 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_cst_25 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_c_26 : Ref sig .tc := ⟨.hbm, 302, rfl⟩
abbrev main_v172 : Ref sig .tc := ⟨.hbm, 303, rfl⟩
abbrev main_v173 : Ref sig .tc := ⟨.hbm, 304, rfl⟩
abbrev main_c_27 : Ref sig .tc := ⟨.hbm, 305, rfl⟩
abbrev main_v174 : Ref sig .tc := ⟨.hbm, 306, rfl⟩
abbrev main_v175 : Ref sig .tc := ⟨.hbm, 307, rfl⟩
abbrev main_v176 : Ref sig .tc := ⟨.hbm, 308, rfl⟩
abbrev main_v177 : Ref sig .tc := ⟨.hbm, 309, rfl⟩
abbrev main_v178 : Ref sig .tc := ⟨.hbm, 310, rfl⟩
abbrev main_cst_28 : Ref sig .tc := ⟨.hbm, 311, rfl⟩
abbrev main_v179 : Ref sig .tc := ⟨.hbm, 312, rfl⟩
abbrev main_v180 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_call8_cst : Ref sig .tc := ⟨.hbm, 320, rfl⟩
abbrev main_call8_v0 : Ref sig .tc := ⟨.hbm, 321, rfl⟩
abbrev main_call8_cst_0 : Ref sig .tc := ⟨.hbm, 322, rfl⟩
abbrev main_call8_v1 : Ref sig .tc := ⟨.hbm, 323, rfl⟩
abbrev main_call8_v2 : Ref sig .tc := ⟨.hbm, 324, rfl⟩
abbrev main_call8_v3 : Ref sig .tc := ⟨.hbm, 325, rfl⟩
abbrev main_call8_v4 : Ref sig .tc := ⟨.hbm, 326, rfl⟩
abbrev main_call8_v5 : Ref sig .tc := ⟨.hbm, 327, rfl⟩
abbrev main_call8_v6 : Ref sig .tc := ⟨.hbm, 328, rfl⟩
abbrev main_call8_cst_1 : Ref sig .tc := ⟨.hbm, 329, rfl⟩
abbrev main_call8_v7 : Ref sig .tc := ⟨.hbm, 330, rfl⟩
abbrev main_call8_v8 : Ref sig .tc := ⟨.hbm, 331, rfl⟩
abbrev main_call8_v9 : Ref sig .tc := ⟨.hbm, 332, rfl⟩
abbrev main_call8_v10 : Ref sig .tc := ⟨.hbm, 333, rfl⟩
abbrev main_v187 : Ref sig .tc := ⟨.hbm, 334, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64_S1x64_0_0 : S4x64.Slices ![0, 0] S1x64
  shapeCasts_S1x64_S64 : S1x64.ShapeCasts S64
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  slices_S4x64_S1x64_1_0 : S4x64.Slices ![1, 0] S1x64
  slices_S3x64x64_S1x64x64_1_0_0 : S3x64x64.Slices ![1, 0, 0] S1x64x64
  slices_S3x64_S1x64_1_0 : S3x64.Slices ![1, 0] S1x64
  slices_S4x64_S1x64_2_0 : S4x64.Slices ![2, 0] S1x64
  slices_S3x64x64_S1x64x64_2_0_0 : S3x64x64.Slices ![2, 0, 0] S1x64x64
  slices_S3x64_S1x64_2_0 : S3x64.Slices ![2, 0] S1x64
  slices_S4x64_S1x64_3_0 : S4x64.Slices ![3, 0] S1x64
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.K.R0.lean ====
import proofs.«128301_j8701603742430_2_alg».proof.Proof.Gen.Kernel.Launch
import proofs.«128301_j8701603742430_2_alg».proof.Proof.Gen.Kernel.Skeleton
import proofs.«128301_j8701603742430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, the linear + relu + column statistics kernel, at the entry contents `V` -/

/-- The zero offsets of a rank-2 rectangle are the constant zero. -/
theorem hz2_0 : (![0, 0] : Fin 2 → ℕ) = fun _ => 0 := by
  funext a; fin_cases a <;> rfl

/-- A list of pieces whose head is a store through the whole-shape rectangle covers the shape. -/
theorem cover_unit0 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole staging buffer -/

abbrev rA0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-! ## What the body leaves -/

/-- The block of the first output (the rectified affine map of the two input blocks) after the body. -/
def out0_4 (x1 x2 : Vec F S5000x64 .f32) (x3 : Vec F S64x64 .f32) (x4 : Vec F S1x64 .f32) : Vec F S5000x64 .f32 :=
  View.canon [⟨rA0, k0_pay4 (View.ld x1 rA0) (View.ld x2 rA0) (View.ld x3 rW0) (View.ld x4 rB0)⟩]

/-- The first accumulator after the body, from the value `v` the body loaded from it: `v` plus the block's column sums. -/
def acc0_8 (v : FVec F S1x64 .f32) (x1 x2 : Vec F S5000x64 .f32) (x3 : Vec F S64x64 .f32) (x4 : Vec F S1x64 .f32) : Vec F S1x64 .f32 :=
  View.canon [⟨rB0, k0_pay5 (View.ld x1 rA0) (View.ld x2 rA0) (View.ld x3 rW0) (View.ld x4 rB0) v⟩]

/-- The second accumulator after the body, from the value `v` the body loaded from it: `v` plus the block's column sums of squares. -/
def acc0_9 (v : FVec F S1x64 .f32) (x1 x2 : Vec F S5000x64 .f32) (x3 : Vec F S64x64 .f32) (x4 : Vec F S1x64 .f32) : Vec F S1x64 .f32 :=
  View.canon [⟨rB0, k0_pay1 (k0_pay6 (View.ld x1 rA0) (View.ld x2 rA0) (View.ld x3 rW0) (View.ld x4 rB0) v)⟩]

/-- An accumulator copied into its output's buffer (at the last point). -/
def cp0 (a : Vec F S1x64 .f32) : Vec F S1x64 .f32 :=
  View.canon [⟨rB0, View.ld a rB0⟩]

/-! ## The body's branch conditions, in closed form over the grid -/

/-- The condition of the body's first conditional (the accumulators are zeroed), from the grid coordinates. -/
abbrev cond0_0 (i : grid0.Coords) : Prop := (Scalar.cmpi .ne (Scalar.extui (Scalar.cmpi .eq (BitVec.ofNat 32 (i 0).val) 0#32)) 0#32) = 1#1
/-- The condition of its second (the accumulators are copied out). -/
abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 19 :=
  (by decide +kernel : ∀ t : Fin grid0.N, cond0_1 (grid0.coords t) ↔ t.val = 19)

/-! ## The body's triple, in each of the three cases the grid meets -/

set_option maxHeartbeats 1000000 in
/-- FIRST POINT: the accumulators, at anything, are zeroed and then added to; the two statistics outputs are untouched. -/
theorem run0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 x2 : Vec F S5000x64 .f32) (x3 : Vec F S64x64 .f32) (x4 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out0_4 x1 x2 x3 x4) ∗ owns (c : Thread nD τ) arg6 fullShare xi6 ∗ owns (c : Thread nD τ) arg7 fullShare xi7
            ∗ owns (c : Thread nD τ) arg8 fullShare (acc0_8 (k0_pay2 (F := F)) x1 x2 x3 x4) ∗ owns (c : Thread nD τ) arg9 fullShare (acc0_9 (k0_pay3 (F := F)) x1 x2 x3 x4)) -∗ K ⟨⟩))
      ⊢ wp frame (wpE (defs₀ (F := F)) Variants.none c none) E (cc0__linear_relu_stats_kernel i arg1 harg1 arg2 harg2 arg3 harg3 arg4 harg4 arg5 harg5 arg6 harg6 arg7 harg7 arg8 harg8 arg9 harg9) K := by
  simp only [cc0__linear_relu_stats_kernel_eq_skeleton]; unfold cc0__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
  subst hf1; subst hf2; subst hf3; subst hf4; subst hf6; subst hf7
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out0_4
    exact View.read_writes_eq_canon _ _ _ (cover_unit0 hz2_0 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc0_8
    rw [View.read_writes_eq_canon _ _ _ (cover_unit0 hz2_0 _ _ _), View.canon_cons_unit_zero hz2_0, View.canon_unit_zero hz2_0, View.readCov_unit_zero _ hz2_0]
    rfl
  iexists _; isplitr
  swap; · iexact H9
  ipureintro; sl_unfold_run_names; unfold acc0_9
  rw [View.read_writes_eq_canon _ _ _ (cover_unit0 hz2_0 _ _ _), View.canon_cons_unit_zero hz2_0, View.canon_unit_zero hz2_0, View.readCov_unit_zero _ hz2_0]
  rfl

set_option maxHeartbeats 1000000 in
/-- A MIDDLE POINT: the accumulators, at `s8`, `s9`, are added to; the two statistics outputs are untouched. -/
theorem run0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 x2 : Vec F S5000x64 .f32) (x3 : Vec F S64x64 .f32) (x4 : Vec F S1x64 .f32) (s8 s9 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out0_4 x1 x2 x3 x4) ∗ owns (c : Thread nD τ) arg6 fullShare xi6 ∗ owns (c : Thread nD τ) arg7 fullShare xi7
            ∗ owns (c : Thread nD τ) arg8 fullShare (acc0_8 (View.ld s8 rB0) x1 x2 x3 x4) ∗ owns (c : Thread nD τ) arg9 fullShare (acc0_9 (View.ld s9 rB0) x1 x2 x3 x4)) -∗ K ⟨⟩))
      ⊢ wp frame (wpE (defs₀ (F := F)) Variants.none c none) E (cc0__linear_relu_stats_kernel i arg1 harg1 arg2 harg2 arg3 harg3 arg4 harg4 arg5 harg5 arg6 harg6 arg7 harg7 arg8 harg8 arg9 harg9) K := by
  simp only [cc0__linear_relu_stats_kernel_eq_skeleton]; unfold cc0__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  subst hf1; subst hf2; subst hf3; subst hf4; subst hf6; subst hf7; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out0_4
    exact View.read_writes_eq_canon _ _ _ (cover_unit0 hz2_0 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc0_8
    exact View.read_writes_eq_canon _ _ _ (cover_unit0 hz2_0 _ _ _)
  iexists _; isplitr
  swap; · iexact H9
  ipureintro; sl_unfold_run_names; unfold acc0_9
  exact View.read_writes_eq_canon _ _ _ (cover_unit0 hz2_0 _ _ _)

set_option maxHeartbeats 1000000 in
/-- THE LAST POINT: the accumulators, at `s8`, `s9`, are added to and copied into the two statistics outputs' buffers. -/
theorem run0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 x2 : Vec F S5000x64 .f32) (x3 : Vec F S64x64 .f32) (x4 : Vec F S1x64 .f32) (s8 s9 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out0_4 x1 x2 x3 x4)
            ∗ owns (c : Thread nD τ) arg6 fullShare (cp0 (acc0_8 (View.ld s8 rB0) x1 x2 x3 x4)) ∗ owns (c : Thread nD τ) arg7 fullShare (cp0 (acc0_9 (View.ld s9 rB0) x1 x2 x3 x4))
            ∗ owns (c : Thread nD τ) arg8 fullShare (acc0_8 (View.ld s8 rB0) x1 x2 x3 x4) ∗ owns (c : Thread nD τ) arg9 fullShare (acc0_9 (View.ld s9 rB0) x1 x2 x3 x4)) -∗ K ⟨⟩))
      ⊢ wp frame (wpE (defs₀ (F := F)) Variants.none c none) E (cc0__linear_relu_stats_kernel i arg1 harg1 arg2 harg2 arg3 harg3 arg4 harg4 arg5 harg5 arg6 harg6 arg7 harg7 arg8 harg8 arg9 harg9) K := by
  simp only [cc0__linear_relu_stats_kernel_eq_skeleton]; unfold cc0__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out0_4
    exact View.read_writes_eq_canon _ _ _ (cover_unit0 hz2_0 _ _ _)
  isplitl [H6]
  · iexists _; isplitr
    swap; · iexact H6
    ipureintro; sl_unfold_run_names; unfold cp0 acc0_8
    rw [View.read_writes_eq_canon _ _ _ (cover_unit0 hz2_0 _ _ _), View.readCov_eq_canon_ld _ _ _ (cover_unit0 hz2_0 _ _ _)]
    rfl
  isplitl [H7]
  · iexists _; isplitr
    swap; · iexact H7
    ipureintro; sl_unfold_run_names; unfold cp0 acc0_9
    rw [View.read_writes_eq_canon _ _ _ (cover_unit0 hz2_0 _ _ _), View.readCov_eq_canon_ld _ _ _ (cover_unit0 hz2_0 _ _ _)]
    rfl
  isplitl [H8]
  · iexists _; isplitr
    swap; · iexact H8
    ipureintro; sl_unfold_run_names; unfold acc0_8
    exact View.read_writes_eq_canon _ _ _ (cover_unit0 hz2_0 _ _ _)
  iexists _; isplitr
  swap; · iexact H9
  ipureintro; sl_unfold_run_names; unfold acc0_9
  exact View.read_writes_eq_canon _ _ _ (cover_unit0 hz2_0 _ _ _)

/-! ## The accumulators point by point -/

/-- What the two accumulators hold AFTER the body at position `n`: zeroed at the first point and added to there, added to
    at every later point over what the point before left. -/
def scr0 (c : Dev nD) : (n : ℕ) → n < cfg0.N → Vec F S1x64 .f32 × Vec F S1x64 .f32
  | 0, hn => (acc0_8 (k0_pay2 (F := F)) (iblk0 V c 0 ⟨0, hn⟩) (iblk0 V c 1 ⟨0, hn⟩) (iblk0 V c 2 ⟨0, hn⟩) (iblk0 V c 3 ⟨0, hn⟩), acc0_9 (k0_pay3 (F := F)) (iblk0 V c 0 ⟨0, hn⟩) (iblk0 V c 1 ⟨0, hn⟩) (iblk0 V c 2 ⟨0, hn⟩) (iblk0 V c 3 ⟨0, hn⟩))
  | n + 1, hn => (acc0_8 (View.ld (scr0 c n (Nat.lt_of_succ_lt hn)).1 rB0) (iblk0 V c 0 ⟨n + 1, hn⟩) (iblk0 V c 1 ⟨n + 1, hn⟩) (iblk0 V c 2 ⟨n + 1, hn⟩) (iblk0 V c 3 ⟨n + 1, hn⟩),
      acc0_9 (View.ld (scr0 c n (Nat.lt_of_succ_lt hn)).2 rB0) (iblk0 V c 0 ⟨n + 1, hn⟩) (iblk0 V c 1 ⟨n + 1, hn⟩) (iblk0 V c 2 ⟨n + 1, hn⟩) (iblk0 V c 3 ⟨n + 1, hn⟩))

theorem scr0_zero (c : Dev nD) (t : Fin cfg0.N) (h0 : t.val = 0) :
    scr0 V c t.val t.isLt = (acc0_8 (k0_pay2 (F := F)) (iblk0 V c 0 t) (iblk0 V c 1 t) (iblk0 V c 2 t) (iblk0 V c 3 t), acc0_9 (k0_pay3 (F := F)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem scr0_pos (c : Dev nD) (t : Fin cfg0.N) (h0 : ¬t.val = 0) :
    scr0 V c t.val t.isLt = (acc0_8 (View.ld (scr0 V c (t.val - 1) (Nat.lt_of_le_of_lt (Nat.sub_le _ _) t.isLt)).1 rB0) (iblk0 V c 0 t) (iblk0 V c 1 t) (iblk0 V c 2 t) (iblk0 V c 3 t),
      acc0_9 (View.ld (scr0 V c (t.val - 1) (Nat.lt_of_le_of_lt (Nat.sub_le _ _) t.isLt)).2 rB0) (iblk0 V c 0 t) (iblk0 V c 1 t) (iblk0 V c 2 t) (iblk0 V c 3 t)) := by
  obtain ⟨n, hn⟩ := t
  cases n with
  | zero => exact absurd rfl h0
  | succ n => exact rfl

/-! ## The region invariant -/

/-- The scratch operands: whole scoped buffers of the kernel's own, passed beside the windows. -/
abbrev scM0_8 : Memref sig .tc .vmem S1x64 .f32 := Memref.whole cc0_scratch0
abbrev scM0_9 : Memref sig .tc .vmem S1x64 .f32 := Memref.whole cc0_scratch1

/-- The class invariant with the two scratch operands as memrefs owned at some contents, the rest of the scoped rest unopened. -/
theorem PhiA0_eq (c : Dev nD) :
    (Pipeline.ΦA spec0 c : sProp 𝕄)
      = iprop(iprop(iprop((∃ d, owns (c : Thread nD τ) scM0_8 fullShare d) ∗ (∃ d, owns (c : Thread nD τ) scM0_9 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_8, scM0_9, owns_whole]; try rfl

/-- The region invariant before position `n`: before the first point the class's (every scratch at anything); afterwards the
    two accumulators at what the point before left in them, the rest of the scoped rest and the generator register. -/
def PhiS0 (c : Dev nD) : (n : ℕ) → n ≤ cfg0.N → sProp 𝕄
  | 0, _ => Pipeline.ΦA spec0 c
  | n + 1, hn => iprop(iprop(iprop(owns (c : Thread nD τ) scM0_8 fullShare (scr0 V c n hn).1 ∗ owns (c : Thread nD τ) scM0_9 fullShare (scr0 V c n hn).2) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_8 fullShare (scr0 V c n hn).1 ∗ owns (c : Thread nD τ) scM0_9 fullShare (scr0 V c n hn).2) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_8 fullShare (scr0 V c (n - 1) (by omega)).1 ∗ owns (c : Thread nD τ) scM0_9 fullShare (scr0 V c (n - 1) (by omega)).2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them (`V`); after the body at point `t` each
    input's buffer at its block, the first output's at `out0_4` of the input blocks, the two statistics outputs' at the
    copies of the accumulators (read at the last point only); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => cp0 (scr0 V c t.val t.isLt).1
    | ⟨6, _⟩ => cp0 (scr0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = cp0 (scr0 V c t.val t.isLt).1 := by dsimp only [dat0]
theorem after0_6 (c : Dev nD) (t : Fin cfg0.N) : (dat0 V c).after 6 t = cp0 (scr0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Where the windows are idle (the printed configuration's table) -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the closed forms say which of the three cases the point is
    in; the invariant hands the body the accumulators at what the point before left (at anything at the first point) and
    takes them back at this point's contents; a statistics output is handed back untouched except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  have hN : t.val < 20 := lt_of_lt_of_eq t.isLt (show cfg0.N = 20 from N_0)
  by_cases h0 : t.val = 0
  · have h1 : ¬t.val = 19 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [scr0_zero V c t h0]; dsimp only
    rw [PhiS0_castSucc V c t, PhiS0_zero V c _ _ h0, PhiA0_eq]
    iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 Hrest Hg]
    · isplitl [HS8 HS9 Hrest]
      · isplitl [HS8 HS9]
        · isplitl [HS8]; · iexact HS8
          iexact HS9
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 19
    · rw [show (dat0 V c).leavesExact 5 t = owns (c : Thread nD τ) (st0_5 t) fullShare ((dat0 V c).after 5 t) from by
        unfold Dat.leavesExact; rw [liveAt0_5 t ((hcond0_1 t).mpr h1)], after0_5]
      rw [show (dat0 V c).leavesExact 6 t = owns (c : Thread nD τ) (st0_6 t) fullShare ((dat0 V c).after 6 t) from by
        unfold Dat.leavesExact; rw [liveAt0_6 t ((hcond0_1 t).mpr h1)], after0_6]
      rw [scr0_pos V c t h0]; dsimp only
      rw [PhiS0_castSucc V c t, PhiS0_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [scr0_pos V c t h0]; dsimp only
      rw [PhiS0_castSucc V c t, PhiS0_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region — the generator register and the scoped rest — is the invariant before the first point. -/
theorem hin0 (c : Dev nD) : (iprop((∃ r, prngReg c r) ∗ Pipeline.scopedRest (Ix := Unit) (Name := ℕ) (U := UR sig nD τ) (Lvl := ℕ) (Val := Elt F) spec0 c) : sProp 𝕄) ⊢ (dat0 V c).Φ 0 := by
  rw [show (dat0 V c).Φ 0 = PhiS0 V c 0 (Nat.zero_le _) from rfl, PhiS0_zero V c 0 _ rfl]; unfold Pipeline.ΦA
  iintro ⟨Hp, Hr⟩
  isplitl [Hr]; · iexact Hr
  iexact Hp

/-- After the last point the invariant gives them back: the accumulators' named contents are forgotten. -/
theorem hout0 (c : Dev nD) : (dat0 V c).Φ (Fin.last cfg0.N) ⊢ (iprop((∃ r, prngReg c r) ∗ Pipeline.scopedRest (Ix := Unit) (Name := ℕ) (U := UR sig nD τ) (Lvl := ℕ) (Val := Elt F) spec0 c) : sProp 𝕄) := by
  have hA := PhiA0_eq (F := F) c
  unfold Pipeline.ΦA at hA
  have hne : (Fin.last cfg0.N).val ≠ 0 := by rw [Fin.val_last]; have : cfg0.N = 20 := N_0; omega
  rw [show (dat0 V c).Φ (Fin.last cfg0.N) = PhiS0 V c (Fin.last cfg0.N).val (Nat.le_of_lt_succ (Fin.last cfg0.N).isLt) from rfl, PhiS0_pos V c _ _ hne]
  iintro ⟨⟨⟨HS8, HS9⟩, Hrest⟩, Hg⟩
  isplitl [Hg]; · iexact Hg
  have hsplit : (iprop(iprop((∃ d, owns (c : Thread nD τ) scM0_8 fullShare d) ∗ (∃ d, owns (c : Thread nD τ) scM0_9 fullShare d)) ∗ Pipeline.scopedRestBut (Ix := Unit) (Name := ℕ) (U := UR sig nD τ) (Lvl := ℕ) (Val := Elt F) spec0 c [cc0_scratch0, cc0_scratch1]) : sProp 𝕄)
      ⊢ Pipeline.scopedRest (Ix := Unit) (Name := ℕ) (U := UR sig nD τ) (Lvl := ℕ) (Val := Elt F) spec0 c := by
    rw [scopedRest0_split]; simp only [scM0_8, scM0_9, owns_whole]; exact Idealize.SL.BI.Entails.refl _
  iapply hsplit
  isplitl [HS8 HS9]
  · isplitl [HS8]; · iexists _; iexact HS8
    iexists _; iexact HS9
  iexact Hrest

end Cert.Kernel.Hand
end
-- ==== Proof.K.R1.lean ====
/- The normalisation kernel of region 1 (custom_call 1, pipeline 1), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.Kernel.Launch
import proofs.«128301_j8701603742430_2_alg».proof.Proof.Gen.Kernel.Skeleton
import proofs.«128301_j8701603742430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 1: \`cc1__bn_normalize_kernel\` (pipeline 1), at the entry contents \`V\` -/

/-! ## The windows' blocks -/

/-- Window \`w\`'s block at point \`t\`, read off its array as the region finds it (\`V\`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved, and the body leaves the block in place). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a row of 64 lanes, and the whole of a block of 5000 rows: the only rectangles the body names. -/
abbrev r1_row : Rect S1x64 := Rect.unit (s := S1x64) ![0, 0] S1x64.size inb_S1x64_S1x64_0_0
abbrev r1_blk : Rect S5000x64 := Rect.unit (s := S5000x64) ![0, 0] S5000x64.size inb_S5000x64_S5000x64_0_0

/-! ## What the body leaves in the output window's buffer -/

/-- Window 5's staging buffer after the body, from the input windows' blocks: its one store, of the normalised
    block, over the whole buffer. -/
def out1_5 (x0 : Vec F S5000x64 .f32) (x1 x2 x3 x4 : Vec F S1x64 .f32) : Vec F S5000x64 .f32 :=
  View.canon [⟨r1_blk, k1_pay1 (View.ld x1 r1_row) (View.ld x2 r1_row) (View.ld x0 r1_blk) (View.ld x3 r1_row) (View.ld x4 r1_row)⟩]

/-- The store is of the whole buffer, so it covers it. -/
theorem cover1_5 (p0 : Vec F S5000x64 .f32) (y : S5000x64.Idx) :
    ∃ pc ∈ ([⟨r1_blk, p0⟩] : List (View.Piece (Elt F) S5000x64 .f32)), y ∈ pc.1.set :=
  View.cover_of_tiled [⟨r1_blk, p0⟩] S5000x64.size (by rfl) y

/-! ## The body's triple -/

set_option maxHeartbeats 1000000 in
/-- The kernel body on whole staging memrefs, the inputs' at read contents \`xW\` and the output's at anything, runs to
    the continuation holding the inputs' as they were and the output's at \`out1_5\` of the inputs'. The body also loads
    the output's buffer before it stores all of it; what it loads there is used nowhere. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_normalize_kernel i arg1 harg1 arg2 harg2 arg3 harg3 arg4 harg4 arg5 harg5 arg6 harg6) K := by
  simp only [cc1__bn_normalize_kernel_eq_skeleton]; unfold cc1__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core \`c\`: the arrays as the region finds them (\`V\`); after the body at
    point \`t\` each input's buffer at its block and the output's at \`out1_5\` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point \`t\`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (\`before1_W\`), so \`sound_kernel1\` applies; the
    invariant and the core's \`owes\` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- Entering: the generator register and the scoped rest are the invariant. -/
theorem hin1 (c : Dev nD) :
    iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Pipeline.ΦA spec1 c from rfl]; unfold Pipeline.ΦA
  iintro ⟨Hp, Hr⟩
  isplitl [Hr]; · iexact Hr
  iexact Hp

/-- Leaving: the invariant gives both back. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last _) = Pipeline.ΦA spec1 c from rfl]; unfold Pipeline.ΦA
  iintro ⟨Hr, Hp⟩
  isplitl [Hp]; · iexact Hp
  iexact Hr

end Regions
end Cert.Kernel.Hand
-- ==== Proof.K.R2.lean ====
import proofs.«128301_j8701603742430_2_alg».proof.Proof.Gen.Kernel.Launch
import proofs.«128301_j8701603742430_2_alg».proof.Proof.Gen.Kernel.Skeleton
import proofs.«128301_j8701603742430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2 of @main: custom_call 2, the linear + relu + column statistics kernel, at the entry contents `V` -/

/-- The zero offsets of a rank-2 rectangle are the constant zero. -/
theorem hz2_2 : (![0, 0] : Fin 2 → ℕ) = fun _ => 0 := by
  funext a; fin_cases a <;> rfl

/-- A list of pieces whose head is a store through the whole-shape rectangle covers the shape. -/
theorem cover_unit2 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is through the whole staging buffer -/

abbrev rA2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-! ## What the body leaves -/

/-- The block of the first output (the rectified affine map of the two input blocks) after the body. -/
def out2_4 (x1 x2 : Vec F S5000x64 .f32) (x3 : Vec F S64x64 .f32) (x4 : Vec F S1x64 .f32) : Vec F S5000x64 .f32 :=
  View.canon [⟨rA2, k2_pay4 (View.ld x1 rA2) (View.ld x2 rA2) (View.ld x3 rW2) (View.ld x4 rB2)⟩]

/-- The first accumulator after the body, from the value `v` the body loaded from it: `v` plus the block's column sums. -/
def acc2_8 (v : FVec F S1x64 .f32) (x1 x2 : Vec F S5000x64 .f32) (x3 : Vec F S64x64 .f32) (x4 : Vec F S1x64 .f32) : Vec F S1x64 .f32 :=
  View.canon [⟨rB2, k2_pay5 (View.ld x1 rA2) (View.ld x2 rA2) (View.ld x3 rW2) (View.ld x4 rB2) v⟩]

/-- The second accumulator after the body, from the value `v` the body loaded from it: `v` plus the block's column sums of squares. -/
def acc2_9 (v : FVec F S1x64 .f32) (x1 x2 : Vec F S5000x64 .f32) (x3 : Vec F S64x64 .f32) (x4 : Vec F S1x64 .f32) : Vec F S1x64 .f32 :=
  View.canon [⟨rB2, k2_pay1 (k2_pay6 (View.ld x1 rA2) (View.ld x2 rA2) (View.ld x3 rW2) (View.ld x4 rB2) v)⟩]

/-- An accumulator copied into its output's buffer (at the last point). -/
def cp2 (a : Vec F S1x64 .f32) : Vec F S1x64 .f32 :=
  View.canon [⟨rB2, View.ld a rB2⟩]

/-! ## The body's branch conditions, in closed form over the grid -/

/-- The condition of the body's first conditional (the accumulators are zeroed), from the grid coordinates. -/
abbrev cond2_0 (i : grid2.Coords) : Prop := (Scalar.cmpi .ne (Scalar.extui (Scalar.cmpi .eq (BitVec.ofNat 32 (i 0).val) 0#32)) 0#32) = 1#1
/-- The condition of its second (the accumulators are copied out). -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 19 :=
  (by decide +kernel : ∀ t : Fin grid2.N, cond2_1 (grid2.coords t) ↔ t.val = 19)

/-! ## The body's triple, in each of the three cases the grid meets -/

set_option maxHeartbeats 1000000 in
/-- FIRST POINT: the accumulators, at anything, are zeroed and then added to; the two statistics outputs are untouched. -/
theorem run2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 x2 : Vec F S5000x64 .f32) (x3 : Vec F S64x64 .f32) (x4 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_4 x1 x2 x3 x4) ∗ owns (c : Thread nD τ) arg6 fullShare xi6 ∗ owns (c : Thread nD τ) arg7 fullShare xi7
            ∗ owns (c : Thread nD τ) arg8 fullShare (acc2_8 (k2_pay2 (F := F)) x1 x2 x3 x4) ∗ owns (c : Thread nD τ) arg9 fullShare (acc2_9 (k2_pay3 (F := F)) x1 x2 x3 x4)) -∗ K ⟨⟩))
      ⊢ wp frame (wpE (defs₀ (F := F)) Variants.none c none) E (cc2__linear_relu_stats_kernel i arg1 harg1 arg2 harg2 arg3 harg3 arg4 harg4 arg5 harg5 arg6 harg6 arg7 harg7 arg8 harg8 arg9 harg9) K := by
  simp only [cc2__linear_relu_stats_kernel_eq_skeleton]; unfold cc2__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
  subst hf1; subst hf2; subst hf3; subst hf4; subst hf6; subst hf7
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out2_4
    exact View.read_writes_eq_canon _ _ _ (cover_unit2 hz2_2 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc2_8
    rw [View.read_writes_eq_canon _ _ _ (cover_unit2 hz2_2 _ _ _), View.canon_cons_unit_zero hz2_2, View.canon_unit_zero hz2_2, View.readCov_unit_zero _ hz2_2]
    rfl
  iexists _; isplitr
  swap; · iexact H9
  ipureintro; sl_unfold_run_names; unfold acc2_9
  rw [View.read_writes_eq_canon _ _ _ (cover_unit2 hz2_2 _ _ _), View.canon_cons_unit_zero hz2_2, View.canon_unit_zero hz2_2, View.readCov_unit_zero _ hz2_2]
  rfl

set_option maxHeartbeats 1000000 in
/-- A MIDDLE POINT: the accumulators, at `s8`, `s9`, are added to; the two statistics outputs are untouched. -/
theorem run2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 x2 : Vec F S5000x64 .f32) (x3 : Vec F S64x64 .f32) (x4 : Vec F S1x64 .f32) (s8 s9 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_4 x1 x2 x3 x4) ∗ owns (c : Thread nD τ) arg6 fullShare xi6 ∗ owns (c : Thread nD τ) arg7 fullShare xi7
            ∗ owns (c : Thread nD τ) arg8 fullShare (acc2_8 (View.ld s8 rB2) x1 x2 x3 x4) ∗ owns (c : Thread nD τ) arg9 fullShare (acc2_9 (View.ld s9 rB2) x1 x2 x3 x4)) -∗ K ⟨⟩))
      ⊢ wp frame (wpE (defs₀ (F := F)) Variants.none c none) E (cc2__linear_relu_stats_kernel i arg1 harg1 arg2 harg2 arg3 harg3 arg4 harg4 arg5 harg5 arg6 harg6 arg7 harg7 arg8 harg8 arg9 harg9) K := by
  simp only [cc2__linear_relu_stats_kernel_eq_skeleton]; unfold cc2__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  subst hf1; subst hf2; subst hf3; subst hf4; subst hf6; subst hf7; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out2_4
    exact View.read_writes_eq_canon _ _ _ (cover_unit2 hz2_2 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc2_8
    exact View.read_writes_eq_canon _ _ _ (cover_unit2 hz2_2 _ _ _)
  iexists _; isplitr
  swap; · iexact H9
  ipureintro; sl_unfold_run_names; unfold acc2_9
  exact View.read_writes_eq_canon _ _ _ (cover_unit2 hz2_2 _ _ _)

set_option maxHeartbeats 1000000 in
/-- THE LAST POINT: the accumulators, at `s8`, `s9`, are added to and copied into the two statistics outputs' buffers. -/
theorem run2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 x2 : Vec F S5000x64 .f32) (x3 : Vec F S64x64 .f32) (x4 : Vec F S1x64 .f32) (s8 s9 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_4 x1 x2 x3 x4)
            ∗ owns (c : Thread nD τ) arg6 fullShare (cp2 (acc2_8 (View.ld s8 rB2) x1 x2 x3 x4)) ∗ owns (c : Thread nD τ) arg7 fullShare (cp2 (acc2_9 (View.ld s9 rB2) x1 x2 x3 x4))
            ∗ owns (c : Thread nD τ) arg8 fullShare (acc2_8 (View.ld s8 rB2) x1 x2 x3 x4) ∗ owns (c : Thread nD τ) arg9 fullShare (acc2_9 (View.ld s9 rB2) x1 x2 x3 x4)) -∗ K ⟨⟩))
      ⊢ wp frame (wpE (defs₀ (F := F)) Variants.none c none) E (cc2__linear_relu_stats_kernel i arg1 harg1 arg2 harg2 arg3 harg3 arg4 harg4 arg5 harg5 arg6 harg6 arg7 harg7 arg8 harg8 arg9 harg9) K := by
  simp only [cc2__linear_relu_stats_kernel_eq_skeleton]; unfold cc2__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out2_4
    exact View.read_writes_eq_canon _ _ _ (cover_unit2 hz2_2 _ _ _)
  isplitl [H6]
  · iexists _; isplitr
    swap; · iexact H6
    ipureintro; sl_unfold_run_names; unfold cp2 acc2_8
    rw [View.read_writes_eq_canon _ _ _ (cover_unit2 hz2_2 _ _ _), View.readCov_eq_canon_ld _ _ _ (cover_unit2 hz2_2 _ _ _)]
    rfl
  isplitl [H7]
  · iexists _; isplitr
    swap; · iexact H7
    ipureintro; sl_unfold_run_names; unfold cp2 acc2_9
    rw [View.read_writes_eq_canon _ _ _ (cover_unit2 hz2_2 _ _ _), View.readCov_eq_canon_ld _ _ _ (cover_unit2 hz2_2 _ _ _)]
    rfl
  isplitl [H8]
  · iexists _; isplitr
    swap; · iexact H8
    ipureintro; sl_unfold_run_names; unfold acc2_8
    exact View.read_writes_eq_canon _ _ _ (cover_unit2 hz2_2 _ _ _)
  iexists _; isplitr
  swap; · iexact H9
  ipureintro; sl_unfold_run_names; unfold acc2_9
  exact View.read_writes_eq_canon _ _ _ (cover_unit2 hz2_2 _ _ _)

/-! ## The accumulators point by point -/

/-- What the two accumulators hold AFTER the body at position `n`: zeroed at the first point and added to there, added to
    at every later point over what the point before left. -/
def scr2 (c : Dev nD) : (n : ℕ) → n < cfg2.N → Vec F S1x64 .f32 × Vec F S1x64 .f32
  | 0, hn => (acc2_8 (k2_pay2 (F := F)) (iblk2 V c 0 ⟨0, hn⟩) (iblk2 V c 1 ⟨0, hn⟩) (iblk2 V c 2 ⟨0, hn⟩) (iblk2 V c 3 ⟨0, hn⟩), acc2_9 (k2_pay3 (F := F)) (iblk2 V c 0 ⟨0, hn⟩) (iblk2 V c 1 ⟨0, hn⟩) (iblk2 V c 2 ⟨0, hn⟩) (iblk2 V c 3 ⟨0, hn⟩))
  | n + 1, hn => (acc2_8 (View.ld (scr2 c n (Nat.lt_of_succ_lt hn)).1 rB2) (iblk2 V c 0 ⟨n + 1, hn⟩) (iblk2 V c 1 ⟨n + 1, hn⟩) (iblk2 V c 2 ⟨n + 1, hn⟩) (iblk2 V c 3 ⟨n + 1, hn⟩),
      acc2_9 (View.ld (scr2 c n (Nat.lt_of_succ_lt hn)).2 rB2) (iblk2 V c 0 ⟨n + 1, hn⟩) (iblk2 V c 1 ⟨n + 1, hn⟩) (iblk2 V c 2 ⟨n + 1, hn⟩) (iblk2 V c 3 ⟨n + 1, hn⟩))

theorem scr2_zero (c : Dev nD) (t : Fin cfg2.N) (h0 : t.val = 0) :
    scr2 V c t.val t.isLt = (acc2_8 (k2_pay2 (F := F)) (iblk2 V c 0 t) (iblk2 V c 1 t) (iblk2 V c 2 t) (iblk2 V c 3 t), acc2_9 (k2_pay3 (F := F)) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem scr2_pos (c : Dev nD) (t : Fin cfg2.N) (h0 : ¬t.val = 0) :
    scr2 V c t.val t.isLt = (acc2_8 (View.ld (scr2 V c (t.val - 1) (Nat.lt_of_le_of_lt (Nat.sub_le _ _) t.isLt)).1 rB2) (iblk2 V c 0 t) (iblk2 V c 1 t) (iblk2 V c 2 t) (iblk2 V c 3 t),
      acc2_9 (View.ld (scr2 V c (t.val - 1) (Nat.lt_of_le_of_lt (Nat.sub_le _ _) t.isLt)).2 rB2) (iblk2 V c 0 t) (iblk2 V c 1 t) (iblk2 V c 2 t) (iblk2 V c 3 t)) := by
  obtain ⟨n, hn⟩ := t
  cases n with
  | zero => exact absurd rfl h0
  | succ n => exact rfl

/-! ## The region invariant -/

/-- The scratch operands: whole scoped buffers of the kernel's own, passed beside the windows. -/
abbrev scM2_8 : Memref sig .tc .vmem S1x64 .f32 := Memref.whole cc2_scratch0
abbrev scM2_9 : Memref sig .tc .vmem S1x64 .f32 := Memref.whole cc2_scratch1

/-- The class invariant with the two scratch operands as memrefs owned at some contents, the rest of the scoped rest unopened. -/
theorem PhiA2_eq (c : Dev nD) :
    (Pipeline.ΦA spec2 c : sProp 𝕄)
      = iprop(iprop(iprop((∃ d, owns (c : Thread nD τ) scM2_8 fullShare d) ∗ (∃ d, owns (c : Thread nD τ) scM2_9 fullShare d)) ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_8, scM2_9, owns_whole]; try rfl

/-- The region invariant before position `n`: before the first point the class's (every scratch at anything); afterwards the
    two accumulators at what the point before left in them, the rest of the scoped rest and the generator register. -/
def PhiS2 (c : Dev nD) : (n : ℕ) → n ≤ cfg2.N → sProp 𝕄
  | 0, _ => Pipeline.ΦA spec2 c
  | n + 1, hn => iprop(iprop(iprop(owns (c : Thread nD τ) scM2_8 fullShare (scr2 V c n hn).1 ∗ owns (c : Thread nD τ) scM2_9 fullShare (scr2 V c n hn).2) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_8 fullShare (scr2 V c n hn).1 ∗ owns (c : Thread nD τ) scM2_9 fullShare (scr2 V c n hn).2) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_8 fullShare (scr2 V c (n - 1) (by omega)).1 ∗ owns (c : Thread nD τ) scM2_9 fullShare (scr2 V c (n - 1) (by omega)).2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them (`V`); after the body at point `t` each
    input's buffer at its block, the first output's at `out2_4` of the input blocks, the two statistics outputs' at the
    copies of the accumulators (read at the last point only); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => cp2 (scr2 V c t.val t.isLt).1
    | ⟨6, _⟩ => cp2 (scr2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = cp2 (scr2 V c t.val t.isLt).1 := by dsimp only [dat2]
theorem after2_6 (c : Dev nD) (t : Fin cfg2.N) : (dat2 V c).after 6 t = cp2 (scr2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## Where the windows are idle (the printed configuration's table) -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which of the three cases the point is
    in; the invariant hands the body the accumulators at what the point before left (at anything at the first point) and
    takes them back at this point's contents; a statistics output is handed back untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  have hN : t.val < 20 := lt_of_lt_of_eq t.isLt (show cfg2.N = 20 from N_2)
  by_cases h0 : t.val = 0
  · have h1 : ¬t.val = 19 := by omega
    rw [Dat.leavesExact_idle (dat2 V c) 5 t (idleAt2_5 t (fun h => h1 ((hcond2_1 t).mp h))) (noFlush2_5 t (fun h => h1 ((hcond2_1 t).mp h)))]
    rw [Dat.leavesExact_idle (dat2 V c) 6 t (idleAt2_6 t (fun h => h1 ((hcond2_1 t).mp h))) (noFlush2_6 t (fun h => h1 ((hcond2_1 t).mp h)))]
    rw [scr2_zero V c t h0]; dsimp only
    rw [PhiS2_castSucc V c t, PhiS2_zero V c _ _ h0, PhiA2_eq]
    iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 Hrest Hg]
    · isplitl [HS8 HS9 Hrest]
      · isplitl [HS8 HS9]
        · isplitl [HS8]; · iexact HS8
          iexact HS9
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 19
    · rw [show (dat2 V c).leavesExact 5 t = owns (c : Thread nD τ) (st2_5 t) fullShare ((dat2 V c).after 5 t) from by
        unfold Dat.leavesExact; rw [liveAt2_5 t ((hcond2_1 t).mpr h1)], after2_5]
      rw [show (dat2 V c).leavesExact 6 t = owns (c : Thread nD τ) (st2_6 t) fullShare ((dat2 V c).after 6 t) from by
        unfold Dat.leavesExact; rw [liveAt2_6 t ((hcond2_1 t).mpr h1)], after2_6]
      rw [scr2_pos V c t h0]; dsimp only
      rw [PhiS2_castSucc V c t, PhiS2_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 5 t (idleAt2_5 t (fun h => h1 ((hcond2_1 t).mp h))) (noFlush2_5 t (fun h => h1 ((hcond2_1 t).mp h)))]
      rw [Dat.leavesExact_idle (dat2 V c) 6 t (idleAt2_6 t (fun h => h1 ((hcond2_1 t).mp h))) (noFlush2_6 t (fun h => h1 ((hcond2_1 t).mp h)))]
      rw [scr2_pos V c t h0]; dsimp only
      rw [PhiS2_castSucc V c t, PhiS2_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region — the generator register and the scoped rest — is the invariant before the first point. -/
theorem hin2 (c : Dev nD) : (iprop((∃ r, prngReg c r) ∗ Pipeline.scopedRest (Ix := Unit) (Name := ℕ) (U := UR sig nD τ) (Lvl := ℕ) (Val := Elt F) spec2 c) : sProp 𝕄) ⊢ (dat2 V c).Φ 0 := by
  rw [show (dat2 V c).Φ 0 = PhiS2 V c 0 (Nat.zero_le _) from rfl, PhiS2_zero V c 0 _ rfl]; unfold Pipeline.ΦA
  iintro ⟨Hp, Hr⟩
  isplitl [Hr]; · iexact Hr
  iexact Hp

/-- After the last point the invariant gives them back: the accumulators' named contents are forgotten. -/
theorem hout2 (c : Dev nD) : (dat2 V c).Φ (Fin.last cfg2.N) ⊢ (iprop((∃ r, prngReg c r) ∗ Pipeline.scopedRest (Ix := Unit) (Name := ℕ) (U := UR sig nD τ) (Lvl := ℕ) (Val := Elt F) spec2 c) : sProp 𝕄) := by
  have hA := PhiA2_eq (F := F) c
  unfold Pipeline.ΦA at hA
  have hne : (Fin.last cfg2.N).val ≠ 0 := by rw [Fin.val_last]; have : cfg2.N = 20 := N_2; omega
  rw [show (dat2 V c).Φ (Fin.last cfg2.N) = PhiS2 V c (Fin.last cfg2.N).val (Nat.le_of_lt_succ (Fin.last cfg2.N).isLt) from rfl, PhiS2_pos V c _ _ hne]
  iintro ⟨⟨⟨HS8, HS9⟩, Hrest⟩, Hg⟩
  isplitl [Hg]; · iexact Hg
  have hsplit : (iprop(iprop((∃ d, owns (c : Thread nD τ) scM2_8 fullShare d) ∗ (∃ d, owns (c : Thread nD τ) scM2_9 fullShare d)) ∗ Pipeline.scopedRestBut (Ix := Unit) (Name := ℕ) (U := UR sig nD τ) (Lvl := ℕ) (Val := Elt F) spec2 c [cc2_scratch0, cc2_scratch1]) : sProp 𝕄)
      ⊢ Pipeline.scopedRest (Ix := Unit) (Name := ℕ) (U := UR sig nD τ) (Lvl := ℕ) (Val := Elt F) spec2 c := by
    rw [scopedRest2_split]; simp only [scM2_8, scM2_9, owns_whole]; exact Idealize.SL.BI.Entails.refl _
  iapply hsplit
  isplitl [HS8 HS9]
  · isplitl [HS8]; · iexists _; iexact HS8
    iexists _; iexact HS9
  iexact Hrest

end Cert.Kernel.Hand
end
-- ==== Proof.K.R3.lean ====
/- The normalisation kernel of region 3 (custom_call 3, pipeline 3), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.Kernel.Launch
import proofs.«128301_j8701603742430_2_alg».proof.Proof.Gen.Kernel.Skeleton
import proofs.«128301_j8701603742430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 3: \`cc3__bn_normalize_kernel\` (pipeline 3), at the entry contents \`V\` -/

/-! ## The windows' blocks -/

/-- Window \`w\`'s block at point \`t\`, read off its array as the region finds it (\`V\`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (an unfetched
    window's block index has not moved, and the body leaves the block in place). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of a row of 64 lanes, and the whole of a block of 5000 rows: the only rectangles the body names. -/
abbrev r3_row : Rect S1x64 := Rect.unit (s := S1x64) ![0, 0] S1x64.size inb_S1x64_S1x64_0_0
abbrev r3_blk : Rect S5000x64 := Rect.unit (s := S5000x64) ![0, 0] S5000x64.size inb_S5000x64_S5000x64_0_0

/-! ## What the body leaves in the output window's buffer -/

/-- Window 5's staging buffer after the body, from the input windows' blocks: its one store, of the normalised
    block, over the whole buffer. -/
def out3_5 (x0 : Vec F S5000x64 .f32) (x1 x2 x3 x4 : Vec F S1x64 .f32) : Vec F S5000x64 .f32 :=
  View.canon [⟨r3_blk, k3_pay1 (View.ld x1 r3_row) (View.ld x2 r3_row) (View.ld x0 r3_blk) (View.ld x3 r3_row) (View.ld x4 r3_row)⟩]

/-- The store is of the whole buffer, so it covers it. -/
theorem cover3_5 (p0 : Vec F S5000x64 .f32) (y : S5000x64.Idx) :
    ∃ pc ∈ ([⟨r3_blk, p0⟩] : List (View.Piece (Elt F) S5000x64 .f32)), y ∈ pc.1.set :=
  View.cover_of_tiled [⟨r3_blk, p0⟩] S5000x64.size (by rfl) y

/-! ## The body's triple -/

set_option maxHeartbeats 1000000 in
/-- The kernel body on whole staging memrefs, the inputs' at read contents \`xW\` and the output's at anything, runs to
    the continuation holding the inputs' as they were and the output's at \`out3_5\` of the inputs'. The body also loads
    the output's buffer before it stores all of it; what it loads there is used nowhere. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_normalize_kernel i arg1 harg1 arg2 harg2 arg3 harg3 arg4 harg4 arg5 harg5 arg6 harg6) K := by
  simp only [cc3__bn_normalize_kernel_eq_skeleton]; unfold cc3__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core \`c\`: the arrays as the region finds them (\`V\`); after the body at
    point \`t\` each input's buffer at its block and the output's at \`out3_5\` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point \`t\`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (\`before3_W\`), so \`sound_kernel3\` applies; the
    invariant and the core's \`owes\` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- Entering: the generator register and the scoped rest are the invariant. -/
theorem hin3 (c : Dev nD) :
    iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- Leaving: the invariant gives both back. -/
theorem hout3 (c : Dev nD) :
    (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last _) = Pipeline.ΦA spec3 c from rfl]; unfold Pipeline.ΦA
  iintro ⟨Hr, Hp⟩
  isplitl [Hp]; · iexact Hp
  iexact Hr

end Regions
end Cert.Kernel.Hand
-- ==== Proof.K.R4.lean ====
import proofs.«128301_j8701603742430_2_alg».proof.Proof.Gen.Kernel.Launch
import proofs.«128301_j8701603742430_2_alg».proof.Proof.Gen.Kernel.Skeleton
import proofs.«128301_j8701603742430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4 of @main: custom_call 4, the linear + relu + column statistics kernel, at the entry contents `V` -/

/-- The zero offsets of a rank-2 rectangle are the constant zero. -/
theorem hz2_4 : (![0, 0] : Fin 2 → ℕ) = fun _ => 0 := by
  funext a; fin_cases a <;> rfl

/-- A list of pieces whose head is a store through the whole-shape rectangle covers the shape. -/
theorem cover_unit4 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is through the whole staging buffer -/

abbrev rA4 : Rect S5000x64 := Rect.unit (s := S5000x64) ![0, 0] S5000x64.size inb_S5000x64_S5000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0

/-! ## What the body leaves -/

/-- The block of the first output (the rectified affine map of the two input blocks) after the body. -/
def out4_4 (x1 x2 : Vec F S5000x64 .f32) (x3 : Vec F S64x64 .f32) (x4 : Vec F S1x64 .f32) : Vec F S5000x64 .f32 :=
  View.canon [⟨rA4, k4_pay4 (View.ld x1 rA4) (View.ld x2 rA4) (View.ld x3 rW4) (View.ld x4 rB4)⟩]

/-- The first accumulator after the body, from the value `v` the body loaded from it: `v` plus the block's column sums. -/
def acc4_8 (v : FVec F S1x64 .f32) (x1 x2 : Vec F S5000x64 .f32) (x3 : Vec F S64x64 .f32) (x4 : Vec F S1x64 .f32) : Vec F S1x64 .f32 :=
  View.canon [⟨rB4, k4_pay5 (View.ld x1 rA4) (View.ld x2 rA4) (View.ld x3 rW4) (View.ld x4 rB4) v⟩]

/-- The second accumulator after the body, from the value `v` the body loaded from it: `v` plus the block's column sums of squares. -/
def acc4_9 (v : FVec F S1x64 .f32) (x1 x2 : Vec F S5000x64 .f32) (x3 : Vec F S64x64 .f32) (x4 : Vec F S1x64 .f32) : Vec F S1x64 .f32 :=
  View.canon [⟨rB4, k4_pay1 (k4_pay6 (View.ld x1 rA4) (View.ld x2 rA4) (View.ld x3 rW4) (View.ld x4 rB4) v)⟩]

/-- An accumulator copied into its output's buffer (at the last point). -/
def cp4 (a : Vec F S1x64 .f32) : Vec F S1x64 .f32 :=
  View.canon [⟨rB4, View.ld a rB4⟩]

/-! ## The body's branch conditions, in closed form over the grid -/

/-- The condition of the body's first conditional (the accumulators are zeroed), from the grid coordinates. -/
abbrev cond4_0 (i : grid4.Coords) : Prop := (Scalar.cmpi .ne (Scalar.extui (Scalar.cmpi .eq (BitVec.ofNat 32 (i 0).val) 0#32)) 0#32) = 1#1
/-- The condition of its second (the accumulators are copied out). -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 19 :=
  (by decide +kernel : ∀ t : Fin grid4.N, cond4_1 (grid4.coords t) ↔ t.val = 19)

/-! ## The body's triple, in each of the three cases the grid meets -/

set_option maxHeartbeats 1000000 in
/-- FIRST POINT: the accumulators, at anything, are zeroed and then added to; the two statistics outputs are untouched. -/
theorem run4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 x2 : Vec F S5000x64 .f32) (x3 : Vec F S64x64 .f32) (x4 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out4_4 x1 x2 x3 x4) ∗ owns (c : Thread nD τ) arg6 fullShare xi6 ∗ owns (c : Thread nD τ) arg7 fullShare xi7
            ∗ owns (c : Thread nD τ) arg8 fullShare (acc4_8 (k4_pay2 (F := F)) x1 x2 x3 x4) ∗ owns (c : Thread nD τ) arg9 fullShare (acc4_9 (k4_pay3 (F := F)) x1 x2 x3 x4)) -∗ K ⟨⟩))
      ⊢ wp frame (wpE (defs₀ (F := F)) Variants.none c none) E (cc4__linear_relu_stats_kernel i arg1 harg1 arg2 harg2 arg3 harg3 arg4 harg4 arg5 harg5 arg6 harg6 arg7 harg7 arg8 harg8 arg9 harg9) K := by
  simp only [cc4__linear_relu_stats_kernel_eq_skeleton]; unfold cc4__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
  subst hf1; subst hf2; subst hf3; subst hf4; subst hf6; subst hf7
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out4_4
    exact View.read_writes_eq_canon _ _ _ (cover_unit4 hz2_4 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc4_8
    rw [View.read_writes_eq_canon _ _ _ (cover_unit4 hz2_4 _ _ _), View.canon_cons_unit_zero hz2_4, View.canon_unit_zero hz2_4, View.readCov_unit_zero _ hz2_4]
    rfl
  iexists _; isplitr
  swap; · iexact H9
  ipureintro; sl_unfold_run_names; unfold acc4_9
  rw [View.read_writes_eq_canon _ _ _ (cover_unit4 hz2_4 _ _ _), View.canon_cons_unit_zero hz2_4, View.canon_unit_zero hz2_4, View.readCov_unit_zero _ hz2_4]
  rfl

set_option maxHeartbeats 1000000 in
/-- A MIDDLE POINT: the accumulators, at `s8`, `s9`, are added to; the two statistics outputs are untouched. -/
theorem run4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 x2 : Vec F S5000x64 .f32) (x3 : Vec F S64x64 .f32) (x4 : Vec F S1x64 .f32) (s8 s9 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out4_4 x1 x2 x3 x4) ∗ owns (c : Thread nD τ) arg6 fullShare xi6 ∗ owns (c : Thread nD τ) arg7 fullShare xi7
            ∗ owns (c : Thread nD τ) arg8 fullShare (acc4_8 (View.ld s8 rB4) x1 x2 x3 x4) ∗ owns (c : Thread nD τ) arg9 fullShare (acc4_9 (View.ld s9 rB4) x1 x2 x3 x4)) -∗ K ⟨⟩))
      ⊢ wp frame (wpE (defs₀ (F := F)) Variants.none c none) E (cc4__linear_relu_stats_kernel i arg1 harg1 arg2 harg2 arg3 harg3 arg4 harg4 arg5 harg5 arg6 harg6 arg7 harg7 arg8 harg8 arg9 harg9) K := by
  simp only [cc4__linear_relu_stats_kernel_eq_skeleton]; unfold cc4__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  subst hf1; subst hf2; subst hf3; subst hf4; subst hf6; subst hf7; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out4_4
    exact View.read_writes_eq_canon _ _ _ (cover_unit4 hz2_4 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc4_8
    exact View.read_writes_eq_canon _ _ _ (cover_unit4 hz2_4 _ _ _)
  iexists _; isplitr
  swap; · iexact H9
  ipureintro; sl_unfold_run_names; unfold acc4_9
  exact View.read_writes_eq_canon _ _ _ (cover_unit4 hz2_4 _ _ _)

set_option maxHeartbeats 1000000 in
/-- THE LAST POINT: the accumulators, at `s8`, `s9`, are added to and copied into the two statistics outputs' buffers. -/
theorem run4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 x2 : Vec F S5000x64 .f32) (x3 : Vec F S64x64 .f32) (x4 : Vec F S1x64 .f32) (s8 s9 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out4_4 x1 x2 x3 x4)
            ∗ owns (c : Thread nD τ) arg6 fullShare (cp4 (acc4_8 (View.ld s8 rB4) x1 x2 x3 x4)) ∗ owns (c : Thread nD τ) arg7 fullShare (cp4 (acc4_9 (View.ld s9 rB4) x1 x2 x3 x4))
            ∗ owns (c : Thread nD τ) arg8 fullShare (acc4_8 (View.ld s8 rB4) x1 x2 x3 x4) ∗ owns (c : Thread nD τ) arg9 fullShare (acc4_9 (View.ld s9 rB4) x1 x2 x3 x4)) -∗ K ⟨⟩))
      ⊢ wp frame (wpE (defs₀ (F := F)) Variants.none c none) E (cc4__linear_relu_stats_kernel i arg1 harg1 arg2 harg2 arg3 harg3 arg4 harg4 arg5 harg5 arg6 harg6 arg7 harg7 arg8 harg8 arg9 harg9) K := by
  simp only [cc4__linear_relu_stats_kernel_eq_skeleton]; unfold cc4__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out4_4
    exact View.read_writes_eq_canon _ _ _ (cover_unit4 hz2_4 _ _ _)
  isplitl [H6]
  · iexists _; isplitr
    swap; · iexact H6
    ipureintro; sl_unfold_run_names; unfold cp4 acc4_8
    rw [View.read_writes_eq_canon _ _ _ (cover_unit4 hz2_4 _ _ _), View.readCov_eq_canon_ld _ _ _ (cover_unit4 hz2_4 _ _ _)]
    rfl
  isplitl [H7]
  · iexists _; isplitr
    swap; · iexact H7
    ipureintro; sl_unfold_run_names; unfold cp4 acc4_9
    rw [View.read_writes_eq_canon _ _ _ (cover_unit4 hz2_4 _ _ _), View.readCov_eq_canon_ld _ _ _ (cover_unit4 hz2_4 _ _ _)]
    rfl
  isplitl [H8]
  · iexists _; isplitr
    swap; · iexact H8
    ipureintro; sl_unfold_run_names; unfold acc4_8
    exact View.read_writes_eq_canon _ _ _ (cover_unit4 hz2_4 _ _ _)
  iexists _; isplitr
  swap; · iexact H9
  ipureintro; sl_unfold_run_names; unfold acc4_9
  exact View.read_writes_eq_canon _ _ _ (cover_unit4 hz2_4 _ _ _)

/-! ## The accumulators point by point -/

/-- What the two accumulators hold AFTER the body at position `n`: zeroed at the first point and added to there, added to
    at every later point over what the point before left. -/
def scr4 (c : Dev nD) : (n : ℕ) → n < cfg4.N → Vec F S1x64 .f32 × Vec F S1x64 .f32
  | 0, hn => (acc4_8 (k4_pay2 (F := F)) (iblk4 V c 0 ⟨0, hn⟩) (iblk4 V c 1 ⟨0, hn⟩) (iblk4 V c 2 ⟨0, hn⟩) (iblk4 V c 3 ⟨0, hn⟩), acc4_9 (k4_pay3 (F := F)) (iblk4 V c 0 ⟨0, hn⟩) (iblk4 V c 1 ⟨0, hn⟩) (iblk4 V c 2 ⟨0, hn⟩) (iblk4 V c 3 ⟨0, hn⟩))
  | n + 1, hn => (acc4_8 (View.ld (scr4 c n (Nat.lt_of_succ_lt hn)).1 rB4) (iblk4 V c 0 ⟨n + 1, hn⟩) (iblk4 V c 1 ⟨n + 1, hn⟩) (iblk4 V c 2 ⟨n + 1, hn⟩) (iblk4 V c 3 ⟨n + 1, hn⟩),
      acc4_9 (View.ld (scr4 c n (Nat.lt_of_succ_lt hn)).2 rB4) (iblk4 V c 0 ⟨n + 1, hn⟩) (iblk4 V c 1 ⟨n + 1, hn⟩) (iblk4 V c 2 ⟨n + 1, hn⟩) (iblk4 V c 3 ⟨n + 1, hn⟩))

theorem scr4_zero (c : Dev nD) (t : Fin cfg4.N) (h0 : t.val = 0) :
    scr4 V c t.val t.isLt = (acc4_8 (k4_pay2 (F := F)) (iblk4 V c 0 t) (iblk4 V c 1 t) (iblk4 V c 2 t) (iblk4 V c 3 t), acc4_9 (k4_pay3 (F := F)) (iblk4 V c 0 t) (iblk4 V c 1 t) (iblk4 V c 2 t) (iblk4 V c 3 t)) := by
  obtain ⟨n, hn⟩ := t
  cases n with
  | zero => exact rfl
  | succ n => exact absurd h0 (Nat.succ_ne_zero n)

theorem scr4_pos (c : Dev nD) (t : Fin cfg4.N) (h0 : ¬t.val = 0) :
    scr4 V c t.val t.isLt = (acc4_8 (View.ld (scr4 V c (t.val - 1) (Nat.lt_of_le_of_lt (Nat.sub_le _ _) t.isLt)).1 rB4) (iblk4 V c 0 t) (iblk4 V c 1 t) (iblk4 V c 2 t) (iblk4 V c 3 t),
      acc4_9 (View.ld (scr4 V c (t.val - 1) (Nat.lt_of_le_of_lt (Nat.sub_le _ _) t.isLt)).2 rB4) (iblk4 V c 0 t) (iblk4 V c 1 t) (iblk4 V c 2 t) (iblk4 V c 3 t)) := by
  obtain ⟨n, hn⟩ := t
  cases n with
  | zero => exact absurd rfl h0
  | succ n => exact rfl

/-! ## The region invariant -/

/-- The scratch operands: whole scoped buffers of the kernel's own, passed beside the windows. -/
abbrev scM4_8 : Memref sig .tc .vmem S1x64 .f32 := Memref.whole cc4_scratch0
abbrev scM4_9 : Memref sig .tc .vmem S1x64 .f32 := Memref.whole cc4_scratch1

/-- The class invariant with the two scratch operands as memrefs owned at some contents, the rest of the scoped rest unopened. -/
theorem PhiA4_eq (c : Dev nD) :
    (Pipeline.ΦA spec4 c : sProp 𝕄)
      = iprop(iprop(iprop((∃ d, owns (c : Thread nD τ) scM4_8 fullShare d) ∗ (∃ d, owns (c : Thread nD τ) scM4_9 fullShare d)) ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_8, scM4_9, owns_whole]; try rfl

/-- The region invariant before position `n`: before the first point the class's (every scratch at anything); afterwards the
    two accumulators at what the point before left in them, the rest of the scoped rest and the generator register. -/
def PhiS4 (c : Dev nD) : (n : ℕ) → n ≤ cfg4.N → sProp 𝕄
  | 0, _ => Pipeline.ΦA spec4 c
  | n + 1, hn => iprop(iprop(iprop(owns (c : Thread nD τ) scM4_8 fullShare (scr4 V c n hn).1 ∗ owns (c : Thread nD τ) scM4_9 fullShare (scr4 V c n hn).2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_8 fullShare (scr4 V c n hn).1 ∗ owns (c : Thread nD τ) scM4_9 fullShare (scr4 V c n hn).2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_8 fullShare (scr4 V c (n - 1) (by omega)).1 ∗ owns (c : Thread nD τ) scM4_9 fullShare (scr4 V c (n - 1) (by omega)).2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body at point `t` each
    input's buffer at its block, the first output's at `out4_4` of the input blocks, the two statistics outputs' at the
    copies of the accumulators (read at the last point only); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => cp4 (scr4 V c t.val t.isLt).1
    | ⟨6, _⟩ => cp4 (scr4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = cp4 (scr4 V c t.val t.isLt).1 := by dsimp only [dat4]
theorem after4_6 (c : Dev nD) (t : Fin cfg4.N) : (dat4 V c).after 6 t = cp4 (scr4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## Where the windows are idle (the printed configuration's table) -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which of the three cases the point is
    in; the invariant hands the body the accumulators at what the point before left (at anything at the first point) and
    takes them back at this point's contents; a statistics output is handed back untouched except at the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  have hN : t.val < 20 := lt_of_lt_of_eq t.isLt (show cfg4.N = 20 from N_4)
  by_cases h0 : t.val = 0
  · have h1 : ¬t.val = 19 := by omega
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [scr4_zero V c t h0]; dsimp only
    rw [PhiS4_castSucc V c t, PhiS4_zero V c _ _ h0, PhiA4_eq]
    iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 Hrest Hg]
    · isplitl [HS8 HS9 Hrest]
      · isplitl [HS8 HS9]
        · isplitl [HS8]; · iexact HS8
          iexact HS9
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 19
    · rw [show (dat4 V c).leavesExact 5 t = owns (c : Thread nD τ) (st4_5 t) fullShare ((dat4 V c).after 5 t) from by
        unfold Dat.leavesExact; rw [liveAt4_5 t ((hcond4_1 t).mpr h1)], after4_5]
      rw [show (dat4 V c).leavesExact 6 t = owns (c : Thread nD τ) (st4_6 t) fullShare ((dat4 V c).after 6 t) from by
        unfold Dat.leavesExact; rw [liveAt4_6 t ((hcond4_1 t).mpr h1)], after4_6]
      rw [scr4_pos V c t h0]; dsimp only
      rw [PhiS4_castSucc V c t, PhiS4_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [scr4_pos V c t h0]; dsimp only
      rw [PhiS4_castSucc V c t, PhiS4_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region — the generator register and the scoped rest — is the invariant before the first point. -/
theorem hin4 (c : Dev nD) : (iprop((∃ r, prngReg c r) ∗ Pipeline.scopedRest (Ix := Unit) (Name := ℕ) (U := UR sig nD τ) (Lvl := ℕ) (Val := Elt F) spec4 c) : sProp 𝕄) ⊢ (dat4 V c).Φ 0 := by
  rw [show (dat4 V c).Φ 0 = PhiS4 V c 0 (Nat.zero_le _) from rfl, PhiS4_zero V c 0 _ rfl]; unfold Pipeline.ΦA
  iintro ⟨Hp, Hr⟩
  isplitl [Hr]; · iexact Hr
  iexact Hp

/-- After the last point the invariant gives them back: the accumulators' named contents are forgotten. -/
theorem hout4 (c : Dev nD) : (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  have hA := PhiA4_eq (F := F) c
  unfold Pipeline.ΦA at hA
  have hne : (Fin.last cfg4.N).val ≠ 0 := by rw [Fin.val_last]; have : cfg4.N = 20 := N_4; omega
  rw [show (dat4 V c).Φ (Fin.last cfg4.N) = PhiS4 V c (Fin.last cfg4.N).val (Nat.le_of_lt_succ (Fin.last cfg4.N).isLt) from rfl, PhiS4_pos V c _ _ hne]
  iintro ⟨⟨⟨HS8, HS9⟩, Hrest⟩, Hg⟩
  isplitl [Hg]; · iexact Hg
  have hsplit : (iprop(iprop((∃ d, owns (c : Thread nD τ) scM4_8 fullShare d) ∗ (∃ d, owns (c : Thread nD τ) scM4_9 fullShare d)) ∗ Pipeline.scopedRestBut (Ix := Unit) (Name := ℕ) (U := UR sig nD τ) (Lvl := ℕ) (Val := Elt F) spec4 c [cc4_scratch0, cc4_scratch1]) : sProp 𝕄)
      ⊢ Pipeline.scopedRest (Ix := Unit) (Name := ℕ) (U := UR sig nD τ) (Lvl := ℕ) (Val := Elt F) spec4 c := by
    rw [scopedRest4_split]; simp only [scM4_8, scM4_9, owns_whole]; exact Idealize.SL.BI.Entails.refl _
  iapply hsplit
  isplitl [HS8 HS9]
  · isplitl [HS8]; · iexists _; iexact HS8
    iexists _; iexact HS9
  iexact Hrest

end Cert.Kernel.Hand
end
-- ==== Proof.K.R5.lean ====
/- The normalisation kernel of region 5 (custom_call 5, pipeline 5), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.Kernel.Launch
import proofs.«128301_j8701603742430_2_alg».proof.Proof.Gen.Kernel.Skeleton
import proofs.«128301_j8701603742430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 5: \`cc5__bn_normalize_kernel\` (pipeline 5), at the entry contents \`V\` -/

/-! ## The windows' blocks -/

/-- Window \`w\`'s block at point \`t\`, read off its array as the region finds it (\`V\`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (an unfetched
    window's block index has not moved, and the body leaves the block in place). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole of a row of 64 lanes, and the whole of a block of 5000 rows: the only rectangles the body names. -/
abbrev r5_row : Rect S1x64 := Rect.unit (s := S1x64) ![0, 0] S1x64.size inb_S1x64_S1x64_0_0
abbrev r5_blk : Rect S5000x64 := Rect.unit (s := S5000x64) ![0, 0] S5000x64.size inb_S5000x64_S5000x64_0_0

/-! ## What the body leaves in the output window's buffer -/

/-- Window 5's staging buffer after the body, from the input windows' blocks: its one store, of the normalised
    block, over the whole buffer. -/
def out5_5 (x0 : Vec F S5000x64 .f32) (x1 x2 x3 x4 : Vec F S1x64 .f32) : Vec F S5000x64 .f32 :=
  View.canon [⟨r5_blk, k5_pay1 (View.ld x1 r5_row) (View.ld x2 r5_row) (View.ld x0 r5_blk) (View.ld x3 r5_row) (View.ld x4 r5_row)⟩]

/-- The store is of the whole buffer, so it covers it. -/
theorem cover5_5 (p0 : Vec F S5000x64 .f32) (y : S5000x64.Idx) :
    ∃ pc ∈ ([⟨r5_blk, p0⟩] : List (View.Piece (Elt F) S5000x64 .f32)), y ∈ pc.1.set :=
  View.cover_of_tiled [⟨r5_blk, p0⟩] S5000x64.size (by rfl) y

/-! ## The body's triple -/

set_option maxHeartbeats 1000000 in
/-- The kernel body on whole staging memrefs, the inputs' at read contents \`xW\` and the output's at anything, runs to
    the continuation holding the inputs' as they were and the output's at \`out5_5\` of the inputs'. The body also loads
    the output's buffer before it stores all of it; what it loads there is used nowhere. -/
theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_normalize_kernel i arg1 harg1 arg2 harg2 arg3 harg3 arg4 harg4 arg5 harg5 arg6 harg6) K := by
  simp only [cc5__bn_normalize_kernel_eq_skeleton]; unfold cc5__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core \`c\`: the arrays as the region finds them (\`V\`); after the body at
    point \`t\` each input's buffer at its block and the output's at \`out5_5\` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point \`t\`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (\`before5_W\`), so \`sound_kernel5\` applies; the
    invariant and the core's \`owes\` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- Entering: the generator register and the scoped rest are the invariant. -/
theorem hin5 (c : Dev nD) :
    iprop((∃ r, prngReg c r) ∗ Pipeline.scopedRest (Ix := Unit) (Name := ℕ) (U := UR sig nD τ) (Lvl := ℕ) (Val := Elt F) spec5 c) ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Leaving: the invariant gives both back. -/
theorem hout5 (c : Dev nD) :
    (dat5 V c).Φ (Fin.last cfg5.N) ⊢ iprop((∃ r, prngReg c r) ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end Regions
end Cert.Kernel.Hand
-- ==== Proof.K.R6.lean ====
import proofs.«128301_j8701603742430_2_alg».proof.Proof.Gen.Kernel.Launch
import proofs.«128301_j8701603742430_2_alg».proof.Proof.Gen.Kernel.Skeleton
import proofs.«128301_j8701603742430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 6 of @main: custom_call 6, the linear + relu + column statistics kernel, at the entry contents `V` -/

/-- The zero offsets of a rank-2 rectangle are the constant zero. -/
theorem hz2_6 : (![0, 0] : Fin 2 → ℕ) = fun _ => 0 := by
  funext a; fin_cases a <;> rfl

/-- A list of pieces whose head is a store through the whole-shape rectangle covers the shape. -/
theorem cover_unit6 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is through the whole staging buffer -/

abbrev rA6 : Rect S5000x64 := Rect.unit (s := S5000x64) ![0, 0] S5000x64.size inb_S5000x64_S5000x64_0_0
abbrev rW6 : Rect S64x64 := Rect.unit (s := S64x64) ![0, 0] S64x64.size inb_S64x64_S64x64_0_0
abbrev rB6 : Rect S1x64 := Rect.unit (s := S1x64) ![0, 0] S1x64.size inb_S1x64_S1x64_0_0

/-! ## What the body leaves -/

/-- The block of the first output (the rectified affine map of the two input blocks) after the body. -/
def out6_4 (x1 x2 : Vec F S5000x64 .f32) (x3 : Vec F S64x64 .f32) (x4 : Vec F S1x64 .f32) : Vec F S5000x64 .f32 :=
  View.canon [⟨rA6, k6_pay4 (View.ld x1 rA6) (View.ld x2 rA6) (View.ld x3 rW6) (View.ld x4 rB6)⟩]

/-- The first accumulator after the body, from the value `v` the body loaded from it: `v` plus the block's column sums. -/
def acc6_8 (v : FVec F S1x64 .f32) (x1 x2 : Vec F S5000x64 .f32) (x3 : Vec F S64x64 .f32) (x4 : Vec F S1x64 .f32) : Vec F S1x64 .f32 :=
  View.canon [⟨rB6, k6_pay5 (View.ld x1 rA6) (View.ld x2 rA6) (View.ld x3 rW6) (View.ld x4 rB6) v⟩]

/-- The second accumulator after the body, from the value `v` the body loaded from it: `v` plus the block's column sums of squares. -/
def acc6_9 (v : FVec F S1x64 .f32) (x1 x2 : Vec F S5000x64 .f32) (x3 : Vec F S64x64 .f32) (x4 : Vec F S1x64 .f32) : Vec F S1x64 .f32 :=
  View.canon [⟨rB6, k6_pay1 (k6_pay6 (View.ld x1 rA6) (View.ld x2 rA6) (View.ld x3 rW6) (View.ld x4 rB6) v)⟩]

/-- An accumulator copied into its output's buffer (at the last point). -/
def cp6 (a : Vec F S1x64 .f32) : Vec F S1x64 .f32 :=
  View.canon [⟨rB6, View.ld a rB6⟩]

/-! ## The body's branch conditions, in closed form over the grid -/

/-- The condition of the body's first conditional (the accumulators are zeroed), from the grid coordinates. -/
abbrev cond6_0 (i : grid6.Coords) : Prop := (Scalar.cmpi .ne (Scalar.extui (Scalar.cmpi .eq (BitVec.ofNat 32 (i 0).val) 0#32)) 0#32) = 1#1
/-- The condition of its second (the accumulators are copied out). -/
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

/-! ## The body's triple, in each of the three cases the grid meets -/

set_option maxHeartbeats 1000000 in
/-- FIRST POINT: the accumulators, at anything, are zeroed and then added to; the two statistics outputs are untouched. -/
theorem run6_A (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond6_0 i) (hc1 : ¬cond6_1 i)
    (x1 x2 : Vec F S5000x64 .f32) (x3 : Vec F S64x64 .f32) (x4 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out6_4 x1 x2 x3 x4) ∗ owns (c : Thread nD τ) arg6 fullShare xi6 ∗ owns (c : Thread nD τ) arg7 fullShare xi7
            ∗ owns (c : Thread nD τ) arg8 fullShare (acc6_8 (k6_pay2 (F := F)) x1 x2 x3 x4) ∗ owns (c : Thread nD τ) arg9 fullShare (acc6_9 (k6_pay3 (F := F)) x1 x2 x3 x4)) -∗ K ⟨⟩))
      ⊢ wp frame (wpE (defs₀ (F := F)) Variants.none c none) E (cc6__linear_relu_stats_kernel i arg1 harg1 arg2 harg2 arg3 harg3 arg4 harg4 arg5 harg5 arg6 harg6 arg7 harg7 arg8 harg8 arg9 harg9) K := by
  simp only [cc6__linear_relu_stats_kernel_eq_skeleton]; unfold cc6__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
  subst hf1; subst hf2; subst hf3; subst hf4; subst hf6; subst hf7
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out6_4
    exact View.read_writes_eq_canon _ _ _ (cover_unit6 hz2_6 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc6_8
    rw [View.read_writes_eq_canon _ _ _ (cover_unit6 hz2_6 _ _ _), View.canon_cons_unit_zero hz2_6, View.canon_unit_zero hz2_6, View.readCov_unit_zero _ hz2_6]
    rfl
  iexists _; isplitr
  swap; · iexact H9
  ipureintro; sl_unfold_run_names; unfold acc6_9
  rw [View.read_writes_eq_canon _ _ _ (cover_unit6 hz2_6 _ _ _), View.canon_cons_unit_zero hz2_6, View.canon_unit_zero hz2_6, View.readCov_unit_zero _ hz2_6]
  rfl

set_option maxHeartbeats 1000000 in
/-- A MIDDLE POINT: the accumulators, at `s8`, `s9`, are added to; the two statistics outputs are untouched. -/
theorem run6_B (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond6_0 i) (hc1 : ¬cond6_1 i)
    (x1 x2 : Vec F S5000x64 .f32) (x3 : Vec F S64x64 .f32) (x4 : Vec F S1x64 .f32) (s8 s9 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out6_4 x1 x2 x3 x4) ∗ owns (c : Thread nD τ) arg6 fullShare xi6 ∗ owns (c : Thread nD τ) arg7 fullShare xi7
            ∗ owns (c : Thread nD τ) arg8 fullShare (acc6_8 (View.ld s8 rB6) x1 x2 x3 x4) ∗ owns (c : Thread nD τ) arg9 fullShare (acc6_9 (View.ld s9 rB6) x1 x2 x3 x4)) -∗ K ⟨⟩))
      ⊢ wp frame (wpE (defs₀ (F := F)) Variants.none c none) E (cc6__linear_relu_stats_kernel i arg1 harg1 arg2 harg2 arg3 harg3 arg4 harg4 arg5 harg5 arg6 harg6 arg7 harg7 arg8 harg8 arg9 harg9) K := by
  simp only [cc6__linear_relu_stats_kernel_eq_skeleton]; unfold cc6__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  subst hf1; subst hf2; subst hf3; subst hf4; subst hf6; subst hf7; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out6_4
    exact View.read_writes_eq_canon _ _ _ (cover_unit6 hz2_6 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc6_8
    exact View.read_writes_eq_canon _ _ _ (cover_unit6 hz2_6 _ _ _)
  iexists _; isplitr
  swap; · iexact H9
  ipureintro; sl_unfold_run_names; unfold acc6_9
  exact View.read_writes_eq_canon _ _ _ (cover_unit6 hz2_6 _ _ _)

set_option maxHeartbeats 1000000 in
/-- THE LAST POINT: the accumulators, at `s8`, `s9`, are added to and copied into the two statistics outputs' buffers. -/
theorem run6_C (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond6_0 i) (hc1 : cond6_1 i)
    (x1 x2 : Vec F S5000x64 .f32) (x3 : Vec F S64x64 .f32) (x4 : Vec F S1x64 .f32) (s8 s9 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out6_4 x1 x2 x3 x4)
            ∗ owns (c : Thread nD τ) arg6 fullShare (cp6 (acc6_8 (View.ld s8 rB6) x1 x2 x3 x4)) ∗ owns (c : Thread nD τ) arg7 fullShare (cp6 (acc6_9 (View.ld s9 rB6) x1 x2 x3 x4))
            ∗ owns (c : Thread nD τ) arg8 fullShare (acc6_8 (View.ld s8 rB6) x1 x2 x3 x4) ∗ owns (c : Thread nD τ) arg9 fullShare (acc6_9 (View.ld s9 rB6) x1 x2 x3 x4)) -∗ K ⟨⟩))
      ⊢ wp frame (wpE (defs₀ (F := F)) Variants.none c none) E (cc6__linear_relu_stats_kernel i arg1 harg1 arg2 harg2 arg3 harg3 arg4 harg4 arg5 harg5 arg6 harg6 arg7 harg7 arg8 harg8 arg9 harg9) K := by
  simp only [cc6__linear_relu_stats_kernel_eq_skeleton]; unfold cc6__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out6_4
    exact View.read_writes_eq_canon _ _ _ (cover_unit6 hz2_6 _ _ _)
  isplitl [H6]
  · iexists _; isplitr
    swap; · iexact H6
    ipureintro; sl_unfold_run_names; unfold cp6 acc6_8
    rw [View.read_writes_eq_canon _ _ _ (cover_unit6 hz2_6 _ _ _), View.readCov_eq_canon_ld _ _ _ (cover_unit6 hz2_6 _ _ _)]
    rfl
  isplitl [H7]
  · iexists _; isplitr
    swap; · iexact H7
    ipureintro; sl_unfold_run_names; unfold cp6 acc6_9
    rw [View.read_writes_eq_canon _ _ _ (cover_unit6 hz2_6 _ _ _), View.readCov_eq_canon_ld _ _ _ (cover_unit6 hz2_6 _ _ _)]
    rfl
  isplitl [H8]
  · iexists _; isplitr
    swap; · iexact H8
    ipureintro; sl_unfold_run_names; unfold acc6_8
    exact View.read_writes_eq_canon _ _ _ (cover_unit6 hz2_6 _ _ _)
  iexists _; isplitr
  swap; · iexact H9
  ipureintro; sl_unfold_run_names; unfold acc6_9
  exact View.read_writes_eq_canon _ _ _ (cover_unit6 hz2_6 _ _ _)

/-! ## The accumulators point by point -/

/-- What the two accumulators hold AFTER the body at position `n`: zeroed at the first point and added to there, added to
    at every later point over what the point before left. -/
def scr6 (c : Dev nD) : (n : ℕ) → n < cfg6.N → Vec F S1x64 .f32 × Vec F S1x64 .f32
  | 0, hn => (acc6_8 (k6_pay2 (F := F)) (iblk6 V c 0 ⟨0, hn⟩) (iblk6 V c 1 ⟨0, hn⟩) (iblk6 V c 2 ⟨0, hn⟩) (iblk6 V c 3 ⟨0, hn⟩), acc6_9 (k6_pay3 (F := F)) (iblk6 V c 0 ⟨0, hn⟩) (iblk6 V c 1 ⟨0, hn⟩) (iblk6 V c 2 ⟨0, hn⟩) (iblk6 V c 3 ⟨0, hn⟩))
  | n + 1, hn => (acc6_8 (View.ld (scr6 c n (Nat.lt_of_succ_lt hn)).1 rB6) (iblk6 V c 0 ⟨n + 1, hn⟩) (iblk6 V c 1 ⟨n + 1, hn⟩) (iblk6 V c 2 ⟨n + 1, hn⟩) (iblk6 V c 3 ⟨n + 1, hn⟩),
      acc6_9 (View.ld (scr6 c n (Nat.lt_of_succ_lt hn)).2 rB6) (iblk6 V c 0 ⟨n + 1, hn⟩) (iblk6 V c 1 ⟨n + 1, hn⟩) (iblk6 V c 2 ⟨n + 1, hn⟩) (iblk6 V c 3 ⟨n + 1, hn⟩))

theorem scr6_zero (c : Dev nD) (t : Fin cfg6.N) (h0 : t.val = 0) :
    scr6 V c t.val t.isLt = (acc6_8 (k6_pay2 (F := F)) (iblk6 V c 0 t) (iblk6 V c 1 t) (iblk6 V c 2 t) (iblk6 V c 3 t), acc6_9 (k6_pay3 (F := F)) (iblk6 V c 0 t) (iblk6 V c 1 t) (iblk6 V c 2 t) (iblk6 V c 3 t)) := by
  obtain ⟨n, hn⟩ := t
  cases n with
  | zero => exact rfl
  | succ n => exact absurd h0 (Nat.succ_ne_zero n)

theorem scr6_pos (c : Dev nD) (t : Fin cfg6.N) (h0 : ¬t.val = 0) :
    scr6 V c t.val t.isLt = (acc6_8 (View.ld (scr6 V c (t.val - 1) (Nat.lt_of_le_of_lt (Nat.sub_le _ _) t.isLt)).1 rB6) (iblk6 V c 0 t) (iblk6 V c 1 t) (iblk6 V c 2 t) (iblk6 V c 3 t),
      acc6_9 (View.ld (scr6 V c (t.val - 1) (Nat.lt_of_le_of_lt (Nat.sub_le _ _) t.isLt)).2 rB6) (iblk6 V c 0 t) (iblk6 V c 1 t) (iblk6 V c 2 t) (iblk6 V c 3 t)) := by
  obtain ⟨n, hn⟩ := t
  cases n with
  | zero => exact absurd rfl h0
  | succ n => exact rfl

/-! ## The region invariant -/

/-- The scratch operands: whole scoped buffers of the kernel's own, passed beside the windows. -/
abbrev scM6_8 : Memref sig .tc .vmem S1x64 .f32 := Memref.whole cc6_scratch0
abbrev scM6_9 : Memref sig .tc .vmem S1x64 .f32 := Memref.whole cc6_scratch1

/-- The class invariant with the two scratch operands as memrefs owned at some contents, the rest of the scoped rest unopened. -/
theorem PhiA6_eq (c : Dev nD) :
    (Pipeline.ΦA spec6 c : sProp 𝕄)
      = iprop(iprop(iprop((∃ d, owns (c : Thread nD τ) scM6_8 fullShare d) ∗ (∃ d, owns (c : Thread nD τ) scM6_9 fullShare d)) ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_8, scM6_9, owns_whole]; try rfl

/-- The region invariant before position `n`: before the first point the class's (every scratch at anything); afterwards the
    two accumulators at what the point before left in them, the rest of the scoped rest and the generator register. -/
def PhiS6 (c : Dev nD) : (n : ℕ) → n ≤ cfg6.N → sProp 𝕄
  | 0, _ => Pipeline.ΦA spec6 c
  | n + 1, hn => iprop(iprop(iprop(owns (c : Thread nD τ) scM6_8 fullShare (scr6 V c n hn).1 ∗ owns (c : Thread nD τ) scM6_9 fullShare (scr6 V c n hn).2) ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_8 fullShare (scr6 V c n hn).1 ∗ owns (c : Thread nD τ) scM6_9 fullShare (scr6 V c n hn).2) ∗ Pipeline.scopedRestBut (Ix := Unit) (Name := ℕ) (U := UR sig nD τ) (Lvl := ℕ) (Val := Elt F) spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_8 fullShare (scr6 V c (n - 1) (by omega)).1 ∗ owns (c : Thread nD τ) scM6_9 fullShare (scr6 V c (n - 1) (by omega)).2) ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- The proof data of pipeline 6 on core `c`: the arrays as the region finds them (`V`); after the body at point `t` each
    input's buffer at its block, the first output's at `out6_4` of the input blocks, the two statistics outputs' at the
    copies of the accumulators (read at the last point only); the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => cp6 (scr6 V c t.val t.isLt).1
    | ⟨6, _⟩ => cp6 (scr6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]
theorem after6_5 (c : Dev nD) (t : Fin cfg6.N) : (dat6 V c).after 5 t = cp6 (scr6 V c t.val t.isLt).1 := by dsimp only [dat6]
theorem after6_6 (c : Dev nD) (t : Fin cfg6.N) : (dat6 V c).after 6 t = cp6 (scr6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## Where the windows are idle (the printed configuration's table) -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5 : ∀ t : Fin cfg6.N, cond6_1 (grid6.coords t) → cfg6.idle 5 (grid6.coords t) = false := by decide +kernel
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem liveAt6_6 : ∀ t : Fin cfg6.N, cond6_1 (grid6.coords t) → cfg6.idle 6 (grid6.coords t) = false := by decide +kernel

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4800000 in
/-- The body at any point: the inputs' memrefs hold their blocks; the closed forms say which of the three cases the point is
    in; the invariant hands the body the accumulators at what the point before left (at anything at the first point) and
    takes them back at this point's contents; a statistics output is handed back untouched except at the last point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  rw [show (dat6 V c).leavesExact 4 t = owns (c : Thread nD τ) (st6_4 t) fullShare ((dat6 V c).after 4 t) from by
    unfold Dat.leavesExact; rw [liveAt6_4 t], after6_4]
  have hN : t.val < 20 := lt_of_lt_of_eq t.isLt (show cfg6.N = 20 from N_6)
  by_cases h0 : t.val = 0
  · have h1 : ¬t.val = 19 := by omega
    rw [Dat.leavesExact_idle (dat6 V c) 5 t (idleAt6_5 t (fun h => h1 ((hcond6_1 t).mp h))) (noFlush6_5 t (fun h => h1 ((hcond6_1 t).mp h)))]
    rw [Dat.leavesExact_idle (dat6 V c) 6 t (idleAt6_6 t (fun h => h1 ((hcond6_1 t).mp h))) (noFlush6_6 t (fun h => h1 ((hcond6_1 t).mp h)))]
    rw [scr6_zero V c t h0]; dsimp only
    rw [PhiS6_castSucc V c t, PhiS6_zero V c _ _ h0, PhiA6_eq]
    iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run6_A c (grid6.coords t) _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 Hrest Hg]
    · isplitl [HS8 HS9 Hrest]
      · isplitl [HS8 HS9]
        · isplitl [HS8]; · iexact HS8
          iexact HS9
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 19
    · rw [show (dat6 V c).leavesExact 5 t = owns (c : Thread nD τ) (st6_5 t) fullShare ((dat6 V c).after 5 t) from by
        unfold Dat.leavesExact; rw [liveAt6_5 t ((hcond6_1 t).mpr h1)], after6_5]
      rw [show (dat6 V c).leavesExact 6 t = owns (c : Thread nD τ) (st6_6 t) fullShare ((dat6 V c).after 6 t) from by
        unfold Dat.leavesExact; rw [liveAt6_6 t ((hcond6_1 t).mpr h1)], after6_6]
      rw [scr6_pos V c t h0]; dsimp only
      rw [PhiS6_castSucc V c t, PhiS6_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run6_C c (grid6.coords t) _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat6 V c) 5 t (idleAt6_5 t (fun h => h1 ((hcond6_1 t).mp h))) (noFlush6_5 t (fun h => h1 ((hcond6_1 t).mp h)))]
      rw [Dat.leavesExact_idle (dat6 V c) 6 t (idleAt6_6 t (fun h => h1 ((hcond6_1 t).mp h))) (noFlush6_6 t (fun h => h1 ((hcond6_1 t).mp h)))]
      rw [scr6_pos V c t h0]; dsimp only
      rw [PhiS6_castSucc V c t, PhiS6_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run6_B c (grid6.coords t) _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region — the generator register and the scoped rest — is the invariant before the first point. -/
theorem hin6 (c : Dev nD) : (iprop((∃ r, prngReg c r) ∗ Pipeline.scopedRest (Ix := Unit) (Name := ℕ) (U := UR sig nD τ) (Lvl := ℕ) (Val := Elt F) spec6 c) : sProp 𝕄) ⊢ (dat6 V c).Φ 0 := by
  rw [show (dat6 V c).Φ 0 = PhiS6 V c 0 (Nat.zero_le _) from rfl, PhiS6_zero V c 0 _ rfl]; unfold Pipeline.ΦA
  iintro ⟨Hp, Hr⟩
  isplitl [Hr]; · iexact Hr
  iexact Hp

/-- After the last point the invariant gives them back: the accumulators' named contents are forgotten. -/
theorem hout6 (c : Dev nD) : (dat6 V c).Φ (Fin.last cfg6.N) ⊢ (iprop((∃ r, prngReg c r) ∗ Pipeline.scopedRest (Ix := Unit) (Name := ℕ) (U := UR sig nD τ) (Lvl := ℕ) (Val := Elt F) spec6 c) : sProp 𝕄) := by
  have hA := PhiA6_eq (F := F) c
  unfold Pipeline.ΦA at hA
  have hne : (Fin.last cfg6.N).val ≠ 0 := by rw [Fin.val_last]; have : cfg6.N = 20 := N_6; omega
  rw [show (dat6 V c).Φ (Fin.last cfg6.N) = PhiS6 V c (Fin.last cfg6.N).val (Nat.le_of_lt_succ (Fin.last cfg6.N).isLt) from rfl, PhiS6_pos V c _ _ hne]
  iintro ⟨⟨⟨HS8, HS9⟩, Hrest⟩, Hg⟩
  isplitl [Hg]; · iexact Hg
  have hsplit : (iprop(iprop((∃ d, owns (c : Thread nD τ) scM6_8 fullShare d) ∗ (∃ d, owns (c : Thread nD τ) scM6_9 fullShare d)) ∗ Pipeline.scopedRestBut (Ix := Unit) (Name := ℕ) (U := UR sig nD τ) (Lvl := ℕ) (Val := Elt F) spec6 c [cc6_scratch0, cc6_scratch1]) : sProp 𝕄)
      ⊢ Pipeline.scopedRest (Ix := Unit) (Name := ℕ) (U := UR sig nD τ) (Lvl := ℕ) (Val := Elt F) spec6 c := by
    rw [scopedRest6_split]; simp only [scM6_8, scM6_9, owns_whole]; exact Idealize.SL.BI.Entails.refl _
  iapply hsplit
  isplitl [HS8 HS9]
  · isplitl [HS8]; · iexists _; iexact HS8
    iexists _; iexact HS9
  iexact Hrest

end Cert.Kernel.Hand
end
-- ==== Proof.K.R7.lean ====
/- The normalisation kernel of region 7 (custom_call 7, pipeline 7), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.Kernel.Launch
import proofs.«128301_j8701603742430_2_alg».proof.Proof.Gen.Kernel.Skeleton
import proofs.«128301_j8701603742430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 7: \`cc7__bn_normalize_kernel\` (pipeline 7), at the entry contents \`V\` -/

/-! ## The windows' blocks -/

/-- Window \`w\`'s block at point \`t\`, read off its array as the region finds it (\`V\`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (an unfetched
    window's block index has not moved, and the body leaves the block in place). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole of a row of 64 lanes, and the whole of a block of 5000 rows: the only rectangles the body names. -/
abbrev r7_row : Rect S1x64 := Rect.unit (s := S1x64) ![0, 0] S1x64.size inb_S1x64_S1x64_0_0
abbrev r7_blk : Rect S5000x64 := Rect.unit (s := S5000x64) ![0, 0] S5000x64.size inb_S5000x64_S5000x64_0_0

/-! ## What the body leaves in the output window's buffer -/

/-- Window 5's staging buffer after the body, from the input windows' blocks: its one store, of the normalised
    block, over the whole buffer. -/
def out7_5 (x0 : Vec F S5000x64 .f32) (x1 x2 x3 x4 : Vec F S1x64 .f32) : Vec F S5000x64 .f32 :=
  View.canon [⟨r7_blk, k7_pay1 (View.ld x1 r7_row) (View.ld x2 r7_row) (View.ld x0 r7_blk) (View.ld x3 r7_row) (View.ld x4 r7_row)⟩]

/-- The store is of the whole buffer, so it covers it. -/
theorem cover7_5 (p0 : Vec F S5000x64 .f32) (y : S5000x64.Idx) :
    ∃ pc ∈ ([⟨r7_blk, p0⟩] : List (View.Piece (Elt F) S5000x64 .f32)), y ∈ pc.1.set :=
  View.cover_of_tiled [⟨r7_blk, p0⟩] S5000x64.size (by rfl) y

/-! ## The body's triple -/

set_option maxHeartbeats 1000000 in
/-- The kernel body on whole staging memrefs, the inputs' at read contents \`xW\` and the output's at anything, runs to
    the continuation holding the inputs' as they were and the output's at \`out7_5\` of the inputs'. The body also loads
    the output's buffer before it stores all of it; what it loads there is used nowhere. -/
theorem sound_kernel7 (c : Dev nD) (E : Set ℕ) (i : grid7.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_normalize_kernel i arg1 harg1 arg2 harg2 arg3 harg3 arg4 harg4 arg5 harg5 arg6 harg6) K := by
  simp only [cc7__bn_normalize_kernel_eq_skeleton]; unfold cc7__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of pipeline 7 on core \`c\`: the arrays as the region finds them (\`V\`); after the body at
    point \`t\` each input's buffer at its block and the output's at \`out7_5\` of the input blocks; the invariant is the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t
    = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point \`t\`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (\`before7_W\`), so \`sound_kernel7\` applies; the
    invariant and the core's \`owes\` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's ends -/

/-- Entering: the generator register and the scoped rest are the invariant. -/
theorem hin7 (c : Dev nD) :
    iprop((∃ r, prngReg c r) ∗ Pipeline.scopedRest (Ix := Unit) (Name := ℕ) (U := UR sig nD τ) (Lvl := ℕ) (Val := Elt F) spec7 c) ⊢ (dat7 V c).Φ 0 := by
  rw [show (dat7 V c).Φ 0 = Pipeline.ΦA spec7 c from rfl]; unfold Pipeline.ΦA
  iintro ⟨Hp, Hr⟩
  isplitl [Hr]; · iexact Hr
  iexact Hp

/-- Leaving: the invariant gives both back. -/
theorem hout7 (c : Dev nD) :
    (dat7 V c).Φ (Fin.last cfg7.N) ⊢ iprop((∃ r, prngReg c r) ∗ Pipeline.scopedRest (Ix := Unit) (Name := ℕ) (U := UR sig nD τ) (Lvl := ℕ) (Val := Elt F) spec7 c) := by
  rw [show (dat7 V c).Φ (Fin.last _) = Pipeline.ΦA spec7 c from rfl]; unfold Pipeline.ΦA
  iintro ⟨Hr, Hp⟩
  isplitl [Hp]; · iexact Hp
  iexact Hr

end Regions
end Cert.Kernel.Hand
-- ==== Proof.K.R8.lean ====
/- The final-layer kernel of region 8 (custom_call 8, pipeline 8), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.Kernel.Launch
import proofs.«128301_j8701603742430_2_alg».proof.Proof.Gen.Kernel.Skeleton
import proofs.«128301_j8701603742430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 8: \`cc8__final_layer_kernel\` (pipeline 8), at the entry contents \`V\` -/

/-! ## The windows' blocks -/

/-- Window \`w\`'s block at point \`t\`, read off its array as the region finds it (\`V\`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (an unfetched
    window's block index has not moved, and the body leaves the block in place). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole of each buffer: the only rectangles the body names. -/
abbrev r8_in : Rect S5000x64 := Rect.unit (s := S5000x64) ![0, 0] S5000x64.size inb_S5000x64_S5000x64_0_0
abbrev r8_w : Rect S64x40 := Rect.unit (s := S64x40) ![0, 0] S64x40.size inb_S64x40_S64x40_0_0
abbrev r8_b : Rect S1x40 := Rect.unit (s := S1x40) ![0, 0] S1x40.size inb_S1x40_S1x40_0_0
abbrev r8_out : Rect S5000x40 := Rect.unit (s := S5000x40) ![0, 0] S5000x40.size inb_S5000x40_S5000x40_0_0

/-! ## What the body leaves in the output window's buffer -/

/-- Window 4's staging buffer after the body, from the input windows' blocks: its one store, of the block's
    log-softmax rows, over the whole buffer. -/
def out8_4 (x0 x1 : Vec F S5000x64 .f32) (x2 : Vec F S64x40 .f32) (x3 : Vec F S1x40 .f32) : Vec F S5000x40 .f32 :=
  View.canon [⟨r8_out, k8_pay1 (View.ld x0 r8_in) (View.ld x1 r8_in) (View.ld x2 r8_w) (View.ld x3 r8_b)⟩]

/-- The store is of the whole buffer, so it covers it. -/
theorem cover8_4 (p0 : Vec F S5000x40 .f32) (y : S5000x40.Idx) :
    ∃ pc ∈ ([⟨r8_out, p0⟩] : List (View.Piece (Elt F) S5000x40 .f32)), y ∈ pc.1.set :=
  View.cover_of_tiled [⟨r8_out, p0⟩] S5000x40.size (by rfl) y

/-! ## The body's triple -/

set_option maxHeartbeats 1000000 in
/-- The kernel body on whole staging memrefs, the inputs' at read contents \`xW\` and the output's at anything, runs to
    the continuation holding the inputs' as they were and the output's at \`out8_4\` of the inputs'. The body also loads
    the output's buffer before it stores all of it; what it loads there is used nowhere. -/
theorem sound_kernel8 (c : Dev nD) (E : Set ℕ) (i : grid8.Coords)
    (arg1 : Memref sig .tc .vmem S5000x64 .f32) (harg1 : arg1.IsWhole) (arg2 : Memref sig .tc .vmem S5000x64 .f32) (harg2 : arg2.IsWhole)
    (arg3 : Memref sig .tc .vmem S64x40 .f32) (harg3 : arg3.IsWhole) (arg4 : Memref sig .tc .vmem S1x40 .f32) (harg4 : arg4.IsWhole)
    (arg5 : Memref sig .tc .vmem S5000x40 .f32) (harg5 : arg5.IsWhole)
    (x0 x1 : Vec F S5000x64 .f32) (x2 : Vec F S64x40 .f32) (x3 : Vec F S1x40 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out8_4 x0 x1 x2 x3)) -∗ K ⟨⟩))
      ⊢ wp frame (wpE (defs₀ (F := F)) Variants.none c none) E (cc8__final_layer_kernel i arg1 harg1 arg2 harg2 arg3 harg3 arg4 harg4 arg5 harg5) K := by
  simp only [cc8__final_layer_kernel_eq_skeleton]; unfold cc8__final_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-! ## The pipeline's proof data -/

/-- The proof data of pipeline 8 on core \`c\`: the arrays as the region finds them (\`V\`); after the body at
    point \`t\` each input's buffer at its block and the output's at \`out8_4\` of the input blocks; the invariant is the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t
    = out8_4 (iblk8 V c 0 t) (iblk8 V c 1 t) (iblk8 V c 2 t) (iblk8 V c 3 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point \`t\`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks (\`before8_W\`), so \`sound_kernel8\` applies; the
    invariant and the core's \`owes\` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's ends -/

/-- Entering: the generator register and the scoped rest are the invariant. -/
theorem hin8 (c : Dev nD) :
    iprop((∃ r, prngReg c r) ∗ Pipeline.scopedRest (Ix := Unit) (Name := ℕ) (U := UR sig nD τ) (Lvl := ℕ) (Val := Elt F) spec8 c) ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant gives both back. -/
theorem hout8 (c : Dev nD) :
    (dat8 V c).Φ (Fin.last cfg8.N) ⊢ iprop((∃ r, prngReg c r) ∗ Pipeline.scopedRest (Ix := Unit) (Name := ℕ) (U := UR sig nD τ) (Lvl := ℕ) (Val := Elt F) spec8 c) := by
  rw [show (dat8 V c).Φ (Fin.last _) = Pipeline.ΦA spec8 c from rfl]; unfold Pipeline.ΦA
  iintro ⟨Hr, Hp⟩
  isplitl [Hp]; · iexact Hp
  iexact Hr

end Regions
end Cert.Kernel.Hand
-- ==== Proof.K.Vals.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

/-! The contents of every unscoped buffer of a core at each boundary between two items of the program:
    the launch memory, then alternately the host operations of a stretch applied, and a region's arrays
    replaced by what its pipeline leaves in them. -/

/-- At launch. -/
abbrev Bd0 : Dev nD → Valuation τ sig (Elt F) := fun c b => m (c, b)

/-- After the host operations before region 0. -/
abbrev Bd1 : Dev nD → Valuation τ sig (Elt F) := fun c => StableHlo.after hostOps0 (Bd0 m c)
abbrev Bv1 : (c : Dev nD) → (b : Ref sig .tc) → Buf (Elt F) ((c : Thread nD τ).loc b) := fun c b => Bd1 m c b
/-- After region 0: its windows' arrays at what the pipeline leaves, every other buffer as entered. -/
def Bd2 (c : Dev nD) : Valuation τ sig (Elt F) :=
  Pipeline.withArrays spec0 c (Bd1 m c) fun w => (dat0 (Bv1 m) c).arrAt w cfg0.N
theorem Bd2_arr (c : Dev nD) (w : Fin cfg0.W) :
    Bd2 m c (Proc.devRef .tc (Pipeline.arrRef spec0 w)) = (dat0 (Bv1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Bv2 : (c : Dev nD) → (b : Ref sig .tc) → Buf (Elt F) ((c : Thread nD τ).loc b) := fun c b => Bd2 m c b
theorem hF0 (c : Dev nD) (w : Fin cfg0.W) : (dat0 (Bv1 m) c).arrAt w cfg0.N = Bv2 m c (Pipeline.arrRef spec0 w) :=
  (Bd2_arr m c w).symm
theorem hrest0 (c : Dev nD) : ∀ b, b ∉ Finset.univ.image (Pipeline.arrRef spec0) → Bv2 m c b = Bv1 m c b :=
  fun b hb => Bd2_of_ne m c b fun w e => hb (Finset.mem_image.mpr ⟨w, Finset.mem_univ _, e⟩)
/-- An input window's array leaves region 0 as it entered. -/
theorem Bd2_in (c : Dev nD) (w : Fin cfg0.W) (hin : (cfg0.win w).isOut = false) :
    Bd2 m c (Proc.devRef .tc (Pipeline.arrRef spec0 w)) = Bd1 m c (Proc.devRef .tc (Pipeline.arrRef spec0 w)) :=
  (Bd2_arr m c w).trans (((dat0 (Bv1 m) c).arrAt_in w hin _).trans (A_eq0 (Bv1 m) c w))

/-- After the host operations before region 1. -/
abbrev Bd3 : Dev nD → Valuation τ sig (Elt F) := fun c => StableHlo.after hostOps1 (Bd2 m c)
abbrev Bv3 : (c : Dev nD) → (b : Ref sig .tc) → Buf (Elt F) ((c : Thread nD τ).loc b) := fun c b => Bd3 m c b
/-- After region 1: its windows' arrays at what the pipeline leaves, every other buffer as entered. -/
def Bd4 (c : Dev nD) : Valuation τ sig (Elt F) :=
  Pipeline.withArrays spec1 c (Bd3 m c) fun w => (dat1 (Bv3 m) c).arrAt w cfg1.N
theorem Bd4_arr (c : Dev nD) (w : Fin cfg1.W) :
    Bd4 m c (Proc.devRef .tc (Pipeline.arrRef spec1 w)) = (dat1 (Bv3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev Bv4 : (c : Dev nD) → (b : Ref sig .tc) → Buf (Elt F) ((c : Thread nD τ).loc b) := fun c b => Bd4 m c b
theorem hF1 (c : Dev nD) (w : Fin cfg1.W) : (dat1 (Bv3 m) c).arrAt w cfg1.N = Bv4 m c (Pipeline.arrRef spec1 w) :=
  (Bd4_arr m c w).symm
theorem hrest1 (c : Dev nD) : ∀ b, b ∉ Finset.univ.image (Pipeline.arrRef spec1) → Bv4 m c b = Bv3 m c b :=
  fun b hb => Bd4_of_ne m c b fun w e => hb (Finset.mem_image.mpr ⟨w, Finset.mem_univ _, e⟩)
/-- An input window's array leaves region 1 as it entered. -/
theorem Bd4_in (c : Dev nD) (w : Fin cfg1.W) (hin : (cfg1.win w).isOut = false) :
    Bd4 m c (Proc.devRef .tc (Pipeline.arrRef spec1 w)) = Bd3 m c (Proc.devRef .tc (Pipeline.arrRef spec1 w)) :=
  (Bd4_arr m c w).trans (((dat1 (Bv3 m) c).arrAt_in w hin _).trans (A_eq1 (Bv3 m) c w))

/-- After the host operations before region 2. -/
abbrev Bd5 : Dev nD → Valuation τ sig (Elt F) := fun c => StableHlo.after hostOps2 (Bd4 m c)
abbrev Bv5 : (c : Dev nD) → (b : Ref sig .tc) → Buf (Elt F) ((c : Thread nD τ).loc b) := fun c b => Bd5 m c b
/-- After region 2: its windows' arrays at what the pipeline leaves, every other buffer as entered. -/
def Bd6 (c : Dev nD) : Valuation τ sig (Elt F) :=
  Pipeline.withArrays spec2 c (Bd5 m c) fun w => (dat2 (Bv5 m) c).arrAt w cfg2.N
theorem Bd6_arr (c : Dev nD) (w : Fin cfg2.W) :
    Bd6 m c (Proc.devRef .tc (Pipeline.arrRef spec2 w)) = (dat2 (Bv5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev Bv6 : (c : Dev nD) → (b : Ref sig .tc) → Buf (Elt F) ((c : Thread nD τ).loc b) := fun c b => Bd6 m c b
theorem hF2 (c : Dev nD) (w : Fin cfg2.W) : (dat2 (Bv5 m) c).arrAt w cfg2.N = Bv6 m c (Pipeline.arrRef spec2 w) :=
  (Bd6_arr m c w).symm
theorem hrest2 (c : Dev nD) : ∀ b, b ∉ Finset.univ.image (Pipeline.arrRef spec2) → Bv6 m c b = Bv5 m c b :=
  fun b hb => Bd6_of_ne m c b fun w e => hb (Finset.mem_image.mpr ⟨w, Finset.mem_univ _, e⟩)
/-- An input window's array leaves region 2 as it entered. -/
theorem Bd6_in (c : Dev nD) (w : Fin cfg2.W) (hin : (cfg2.win w).isOut = false) :
    Bd6 m c (Proc.devRef .tc (Pipeline.arrRef spec2 w)) = Bd5 m c (Proc.devRef .tc (Pipeline.arrRef spec2 w)) :=
  (Bd6_arr m c w).trans (((dat2 (Bv5 m) c).arrAt_in w hin _).trans (A_eq2 (Bv5 m) c w))

/-- After the host operations before region 3. -/
abbrev Bd7 : Dev nD → Valuation τ sig (Elt F) := fun c => StableHlo.after hostOps3 (Bd6 m c)
abbrev Bv7 : (c : Dev nD) → (b : Ref sig .tc) → Buf (Elt F) ((c : Thread nD τ).loc b) := fun c b => Bd7 m c b
/-- After region 3: its windows' arrays at what the pipeline leaves, every other buffer as entered. -/
def Bd8 (c : Dev nD) : Valuation τ sig (Elt F) :=
  Pipeline.withArrays spec3 c (Bd7 m c) fun w => (dat3 (Bv7 m) c).arrAt w cfg3.N
theorem Bd8_arr (c : Dev nD) (w : Fin cfg3.W) :
    Bd8 m c (Proc.devRef .tc (Pipeline.arrRef spec3 w)) = (dat3 (Bv7 m) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m c (Proc.devRef .tc b) = Bd7 m c (Proc.devRef .tc b) := by
  unfold Bd8; exact Pipeline.withArrays_of_ne spec3 c _ _ b hb
abbrev Bv8 : (c : Dev nD) → (b : Ref sig .tc) → Buf (Elt F) ((c : Thread nD τ).loc b) := fun c b => Bd8 m c b
theorem hF3 (c : Dev nD) (w : Fin cfg3.W) : (dat3 (Bv7 m) c).arrAt w cfg3.N = Bv8 m c (Pipeline.arrRef spec3 w) :=
  (Bd8_arr m c w).symm
theorem hrest3 (c : Dev nD) : ∀ b, b ∉ Finset.univ.image (Pipeline.arrRef spec3) → Bv8 m c b = Bv7 m c b :=
  fun b hb => Bd8_of_ne m c b fun w e => hb (Finset.mem_image.mpr ⟨w, Finset.mem_univ _, e⟩)
/-- An input window's array leaves region 3 as it entered. -/
theorem Bd8_in (c : Dev nD) (w : Fin cfg3.W) (hin : (cfg3.win w).isOut = false) :
    Bd8 m c (Proc.devRef .tc (Pipeline.arrRef spec3 w)) = Bd7 m c (Proc.devRef .tc (Pipeline.arrRef spec3 w)) :=
  (Bd8_arr m c w).trans (((dat3 (Bv7 m) c).arrAt_in w hin _).trans (A_eq3 (Bv7 m) c w))

/-- After the host operations before region 4. -/
abbrev Bd9 : Dev nD → Valuation τ sig (Elt F) := fun c => StableHlo.after hostOps4 (Bd8 m c)
abbrev Bv9 : (c : Dev nD) → (b : Ref sig .tc) → Buf (Elt F) ((c : Thread nD τ).loc b) := fun c b => Bd9 m c b
/-- After region 4: its windows' arrays at what the pipeline leaves, every other buffer as entered. -/
def Bd10 (c : Dev nD) : Valuation τ sig (Elt F) :=
  Pipeline.withArrays spec4 c (Bd9 m c) fun w => (dat4 (Bv9 m) c).arrAt w cfg4.N
theorem Bd10_arr (c : Dev nD) (w : Fin cfg4.W) :
    Bd10 m c (Proc.devRef .tc (Pipeline.arrRef spec4 w)) = (dat4 (Bv9 m) c).arrAt w cfg4.N := by
  unfold Bd10; exact Pipeline.withArrays_arr spec4 launch4.win.arr_inj c _ _ w
theorem Bd10_of_ne (c : Dev nD) (b : Ref sig .tc) (hb : ∀ w, Pipeline.arrRef spec4 w ≠ b) :
    Bd10 m c (Proc.devRef .tc b) = Bd9 m c (Proc.devRef .tc b) := by
  unfold Bd10; exact Pipeline.withArrays_of_ne spec4 c _ _ b hb
abbrev Bv10 : (c : Dev nD) → (b : Ref sig .tc) → Buf (Elt F) ((c : Thread nD τ).loc b) := fun c b => Bd10 m c b
theorem hF4 (c : Dev nD) (w : Fin cfg4.W) : (dat4 (Bv9 m) c).arrAt w cfg4.N = Bv10 m c (Pipeline.arrRef spec4 w) :=
  (Bd10_arr m c w).symm
theorem hrest4 (c : Dev nD) : ∀ b, b ∉ Finset.univ.image (Pipeline.arrRef spec4) → Bv10 m c b = Bv9 m c b :=
  fun b hb => Bd10_of_ne m c b fun w e => hb (Finset.mem_image.mpr ⟨w, Finset.mem_univ _, e⟩)
/-- An input window's array leaves region 4 as it entered. -/
theorem Bd10_in (c : Dev nD) (w : Fin cfg4.W) (hin : (cfg4.win w).isOut = false) :
    Bd10 m c (Proc.devRef .tc (Pipeline.arrRef spec4 w)) = Bd9 m c (Proc.devRef .tc (Pipeline.arrRef spec4 w)) :=
  (Bd10_arr m c w).trans (((dat4 (Bv9 m) c).arrAt_in w hin _).trans (A_eq4 (Bv9 m) c w))

/-- After the host operations before region 5. -/
abbrev Bd11 : Dev nD → Valuation τ sig (Elt F) := fun c => StableHlo.after hostOps5 (Bd10 m c)
abbrev Bv11 : (c : Dev nD) → (b : Ref sig .tc) → Buf (Elt F) ((c : Thread nD τ).loc b) := fun c b => Bd11 m c b
/-- After region 5: its windows' arrays at what the pipeline leaves, every other buffer as entered. -/
def Bd12 (c : Dev nD) : Valuation τ sig (Elt F) :=
  Pipeline.withArrays spec5 c (Bd11 m c) fun w => (dat5 (Bv11 m) c).arrAt w cfg5.N
theorem Bd12_arr (c : Dev nD) (w : Fin cfg5.W) :
    Bd12 m c (Proc.devRef .tc (Pipeline.arrRef spec5 w)) = (dat5 (Bv11 m) c).arrAt w cfg5.N := by
  unfold Bd12; exact Pipeline.withArrays_arr spec5 launch5.win.arr_inj c _ _ w
theorem Bd12_of_ne (c : Dev nD) (b : Ref sig .tc) (hb : ∀ w, Pipeline.arrRef spec5 w ≠ b) :
    Bd12 m c (Proc.devRef .tc b) = Bd11 m c (Proc.devRef .tc b) := by
  unfold Bd12; exact Pipeline.withArrays_of_ne spec5 c _ _ b hb
abbrev Bv12 : (c : Dev nD) → (b : Ref sig .tc) → Buf (Elt F) ((c : Thread nD τ).loc b) := fun c b => Bd12 m c b
theorem hF5 (c : Dev nD) (w : Fin cfg5.W) : (dat5 (Bv11 m) c).arrAt w cfg5.N = Bv12 m c (Pipeline.arrRef spec5 w) :=
  (Bd12_arr m c w).symm
theorem hrest5 (c : Dev nD) : ∀ b, b ∉ Finset.univ.image (Pipeline.arrRef spec5) → Bv12 m c b = Bv11 m c b :=
  fun b hb => Bd12_of_ne m c b fun w e => hb (Finset.mem_image.mpr ⟨w, Finset.mem_univ _, e⟩)
/-- An input window's array leaves region 5 as it entered. -/
theorem Bd12_in (c : Dev nD) (w : Fin cfg5.W) (hin : (cfg5.win w).isOut = false) :
    Bd12 m c (Proc.devRef .tc (Pipeline.arrRef spec5 w)) = Bd11 m c (Proc.devRef .tc (Pipeline.arrRef spec5 w)) :=
  (Bd12_arr m c w).trans (((dat5 (Bv11 m) c).arrAt_in w hin _).trans (A_eq5 (Bv11 m) c w))

/-- After the host operations before region 6. -/
abbrev Bd13 : Dev nD → Valuation τ sig (Elt F) := fun c => StableHlo.after hostOps6 (Bd12 m c)
abbrev Bv13 : (c : Dev nD) → (b : Ref sig .tc) → Buf (Elt F) ((c : Thread nD τ).loc b) := fun c b => Bd13 m c b
/-- After region 6: its windows' arrays at what the pipeline leaves, every other buffer as entered. -/
def Bd14 (c : Dev nD) : Valuation τ sig (Elt F) :=
  Pipeline.withArrays spec6 c (Bd13 m c) fun w => (dat6 (Bv13 m) c).arrAt w cfg6.N
theorem Bd14_arr (c : Dev nD) (w : Fin cfg6.W) :
    Bd14 m c (Proc.devRef .tc (Pipeline.arrRef spec6 w)) = (dat6 (Bv13 m) c).arrAt w cfg6.N := by
  unfold Bd14; exact Pipeline.withArrays_arr spec6 launch6.win.arr_inj c _ _ w
theorem Bd14_of_ne (c : Dev nD) (b : Ref sig .tc) (hb : ∀ w, Pipeline.arrRef spec6 w ≠ b) :
    Bd14 m c (Proc.devRef .tc b) = Bd13 m c (Proc.devRef .tc b) := by
  unfold Bd14; exact Pipeline.withArrays_of_ne spec6 c _ _ b hb
abbrev Bv14 : (c : Dev nD) → (b : Ref sig .tc) → Buf (Elt F) ((c : Thread nD τ).loc b) := fun c b => Bd14 m c b
theorem hF6 (c : Dev nD) (w : Fin cfg6.W) : (dat6 (Bv13 m) c).arrAt w cfg6.N = Bv14 m c (Pipeline.arrRef spec6 w) :=
  (Bd14_arr m c w).symm
theorem hrest6 (c : Dev nD) : ∀ b, b ∉ Finset.univ.image (Pipeline.arrRef spec6) → Bv14 m c b = Bv13 m c b :=
  fun b hb => Bd14_of_ne m c b fun w e => hb (Finset.mem_image.mpr ⟨w, Finset.mem_univ _, e⟩)
/-- An input window's array leaves region 6 as it entered. -/
theorem Bd14_in (c : Dev nD) (w : Fin cfg6.W) (hin : (cfg6.win w).isOut = false) :
    Bd14 m c (Proc.devRef .tc (Pipeline.arrRef spec6 w)) = Bd13 m c (Proc.devRef .tc (Pipeline.arrRef spec6 w)) :=
  (Bd14_arr m c w).trans (((dat6 (Bv13 m) c).arrAt_in w hin _).trans (A_eq6 (Bv13 m) c w))

/-- After the host operations before region 7. -/
abbrev Bd15 : Dev nD → Valuation τ sig (Elt F) := fun c => StableHlo.after hostOps7 (Bd14 m c)
abbrev Bv15 : (c : Dev nD) → (b : Ref sig .tc) → Buf (Elt F) ((c : Thread nD τ).loc b) := fun c b => Bd15 m c b
/-- After region 7: its windows' arrays at what the pipeline leaves, every other buffer as entered. -/
def Bd16 (c : Dev nD) : Valuation τ sig (Elt F) :=
  Pipeline.withArrays spec7 c (Bd15 m c) fun w => (dat7 (Bv15 m) c).arrAt w cfg7.N
theorem Bd16_arr (c : Dev nD) (w : Fin cfg7.W) :
    Bd16 m c (Proc.devRef .tc (Pipeline.arrRef spec7 w)) = (dat7 (Bv15 m) c).arrAt w cfg7.N := by
  unfold Bd16; exact Pipeline.withArrays_arr spec7 launch7.win.arr_inj c _ _ w
theorem Bd16_of_ne (c : Dev nD) (b : Ref sig .tc) (hb : ∀ w, Pipeline.arrRef spec7 w ≠ b) :
    Bd16 m c (Proc.devRef .tc b) = Bd15 m c (Proc.devRef .tc b) := by
  unfold Bd16; exact Pipeline.withArrays_of_ne spec7 c _ _ b hb
abbrev Bv16 : (c : Dev nD) → (b : Ref sig .tc) → Buf (Elt F) ((c : Thread nD τ).loc b) := fun c b => Bd16 m c b
theorem hF7 (c : Dev nD) (w : Fin cfg7.W) : (dat7 (Bv15 m) c).arrAt w cfg7.N = Bv16 m c (Pipeline.arrRef spec7 w) :=
  (Bd16_arr m c w).symm
theorem hrest7 (c : Dev nD) : ∀ b, b ∉ Finset.univ.image (Pipeline.arrRef spec7) → Bv16 m c b = Bv15 m c b :=
  fun b hb => Bd16_of_ne m c b fun w e => hb (Finset.mem_image.mpr ⟨w, Finset.mem_univ _, e⟩)
/-- An input window's array leaves region 7 as it entered. -/
theorem Bd16_in (c : Dev nD) (w : Fin cfg7.W) (hin : (cfg7.win w).isOut = false) :
    Bd16 m c (Proc.devRef .tc (Pipeline.arrRef spec7 w)) = Bd15 m c (Proc.devRef .tc (Pipeline.arrRef spec7 w)) :=
  (Bd16_arr m c w).trans (((dat7 (Bv15 m) c).arrAt_in w hin _).trans (A_eq7 (Bv15 m) c w))

/-- After the host operations before region 8. -/
abbrev Bd17 : Dev nD → Valuation τ sig (Elt F) := fun c => StableHlo.after hostOps8 (Bd16 m c)
abbrev Bv17 : (c : Dev nD) → (b : Ref sig .tc) → Buf (Elt F) ((c : Thread nD τ).loc b) := fun c b => Bd17 m c b
/-- After region 8: its windows' arrays at what the pipeline leaves, every other buffer as entered. -/
def Bd18 (c : Dev nD) : Valuation τ sig (Elt F) :=
  Pipeline.withArrays spec8 c (Bd17 m c) fun w => (dat8 (Bv17 m) c).arrAt w cfg8.N
theorem Bd18_arr (c : Dev nD) (w : Fin cfg8.W) :
    Bd18 m c (Proc.devRef .tc (Pipeline.arrRef spec8 w)) = (dat8 (Bv17 m) c).arrAt w cfg8.N := by
  unfold Bd18; exact Pipeline.withArrays_arr spec8 launch8.win.arr_inj c _ _ w
theorem Bd18_of_ne (c : Dev nD) (b : Ref sig .tc) (hb : ∀ w, Pipeline.arrRef spec8 w ≠ b) :
    Bd18 m c (Proc.devRef .tc b) = Bd17 m c (Proc.devRef .tc b) := by
  unfold Bd18; exact Pipeline.withArrays_of_ne spec8 c _ _ b hb
abbrev Bv18 : (c : Dev nD) → (b : Ref sig .tc) → Buf (Elt F) ((c : Thread nD τ).loc b) := fun c b => Bd18 m c b
theorem hF8 (c : Dev nD) (w : Fin cfg8.W) : (dat8 (Bv17 m) c).arrAt w cfg8.N = Bv18 m c (Pipeline.arrRef spec8 w) :=
  (Bd18_arr m c w).symm
theorem hrest8 (c : Dev nD) : ∀ b, b ∉ Finset.univ.image (Pipeline.arrRef spec8) → Bv18 m c b = Bv17 m c b :=
  fun b hb => Bd18_of_ne m c b fun w e => hb (Finset.mem_image.mpr ⟨w, Finset.mem_univ _, e⟩)
/-- An input window's array leaves region 8 as it entered. -/
theorem Bd18_in (c : Dev nD) (w : Fin cfg8.W) (hin : (cfg8.win w).isOut = false) :
    Bd18 m c (Proc.devRef .tc (Pipeline.arrRef spec8 w)) = Bd17 m c (Proc.devRef .tc (Pipeline.arrRef spec8 w)) :=
  (Bd18_arr m c w).trans (((dat8 (Bv17 m) c).arrAt_in w hin _).trans (A_eq8 (Bv17 m) c w))

/-! ## The proof data of all nine pipelines, and what rides beside the buffers -/

abbrev adm : (p : Fin 9) → (pcfgs (F := F) p).Adm := fun p => (cfgs p).toPCfg_adm
/-- Each pipeline's proof data at its own region's entry contents. -/
def pdats : (p : Fin 9) → (c : Dev nD) → Dat τ (Elt F) Unit ℕ (UR sig nD τ) ℕ (Pipeline.pin (pcfgs (F := F)) adm p) c
  | ⟨0, _⟩ => fun c => dat0 (Bv1 m) c
  | ⟨1, _⟩ => fun c => dat1 (Bv3 m) c
  | ⟨2, _⟩ => fun c => dat2 (Bv5 m) c
  | ⟨3, _⟩ => fun c => dat3 (Bv7 m) c
  | ⟨4, _⟩ => fun c => dat4 (Bv9 m) c
  | ⟨5, _⟩ => fun c => dat5 (Bv11 m) c
  | ⟨6, _⟩ => fun c => dat6 (Bv13 m) c
  | ⟨7, _⟩ => fun c => dat7 (Bv15 m) c
  | ⟨8, _⟩ => fun c => dat8 (Bv17 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd18 m c) ∗ ∃ r, prngReg c r)

end Cert.Kernel.HandRun

end
-- ==== Proof.K.Reg0.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered with every unscoped buffer at `Bd1`, left with them at `Bd2`. Its
    windows' arrays are split out of the unscoped buffers on entry and put back at their final contents on exit;
    the generator register goes into the body's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv1 m) c).loose
  hwaits := Pipeline.hwaits_of_owed_zero _ _ _ _ L lv 0 fun _ _ => rfl
  pre c := iprop(StableHlo.held (c : Thread nD τ) (Pipeline.ucRefs τ sig) (Bd1 m c) ∗ R c)
  post c := iprop(StableHlo.held (c : Thread nD τ) (Pipeline.ucRefs τ sig) (Bd2 m c) ∗ R c)
  X c := iprop(∃ r, prngReg c r)
  Y c := iprop(∃ r, prngReg c r)
  Z c := Pipeline.unscopedRest (Ix := Unit) (Name := ℕ) (U := UR sig nD τ) (Lvl := ℕ) spec0 c (Bv1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Bv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Bv1 m) c).Φ 0 from rfl]
    iintro ⟨Hp, -, Hr⟩
    iapply (hin0 (Bv1 m) c)
    isplitl [Hp]; · iexact Hp
    iexact Hr
  hout c := by
    rw [Pipeline.ownSems0_none, show (pdats m 0 c).Φ (Fin.last _) = (dat0 (Bv1 m) c).Φ (Fin.last cfg0.N) from rfl]
    iintro HΦ
    ihave H := (hout0 (Bv1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Bv1 m c) (Bv2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandRun

end
-- ==== Proof.K.Reg1.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: entered with every unscoped buffer at `Bd3`, left with them at `Bd4`. Its
    windows' arrays are split out of the unscoped buffers on entry and put back at their final contents on exit;
    the generator register goes into the body's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv3 m) c).loose
  hwaits := Pipeline.hwaits_of_owed_zero _ _ _ _ L lv 1 fun _ _ => rfl
  pre c := iprop(StableHlo.held (c : Thread nD τ) (Pipeline.ucRefs τ sig) (Bd3 m c) ∗ R c)
  post c := iprop(StableHlo.held (c : Thread nD τ) (Pipeline.ucRefs τ sig) (Bd4 m c) ∗ R c)
  X c := iprop(∃ r, prngReg c r)
  Y c := iprop(∃ r, prngReg c r)
  Z c := Pipeline.unscopedRest (Ix := Unit) (Name := ℕ) (U := UR sig nD τ) (Lvl := ℕ) spec1 c (Bv3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Bv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Bv3 m) c).Φ 0 from rfl]
    iintro ⟨Hp, -, Hr⟩
    iapply (hin1 (Bv3 m) c)
    isplitl [Hp]; · iexact Hp
    iexact Hr
  hout c := by
    rw [Pipeline.ownSems0_none, show (pdats m 1 c).Φ (Fin.last _) = (dat1 (Bv3 m) c).Φ (Fin.last cfg1.N) from rfl]
    iintro HΦ
    ihave H := (hout1 (Bv3 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Bv3 m c) (Bv4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandRun

end
-- ==== Proof.K.Reg2.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered with every unscoped buffer at `Bd5`, left with them at `Bd6`. Its
    windows' arrays are split out of the unscoped buffers on entry and put back at their final contents on exit;
    the generator register goes into the body's invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Bv5 m) c).loose
  hwaits := Pipeline.hwaits_of_owed_zero _ _ _ _ L lv 2 fun _ _ => rfl
  pre c := iprop(StableHlo.held (c : Thread nD τ) (Pipeline.ucRefs τ sig) (Bd5 m c) ∗ R c)
  post c := iprop(StableHlo.held (c : Thread nD τ) (Pipeline.ucRefs τ sig) (Bd6 m c) ∗ R c)
  X c := iprop(∃ r, prngReg c r)
  Y c := iprop(∃ r, prngReg c r)
  Z c := Pipeline.unscopedRest (Ix := Unit) (Name := ℕ) (U := UR sig nD τ) (Lvl := ℕ) spec2 c (Bv5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Bv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Bv5 m) c).Φ 0 from rfl]
    iintro ⟨Hp, -, Hr⟩
    iapply (hin2 (Bv5 m) c)
    isplitl [Hp]; · iexact Hp
    iexact Hr
  hout c := by
    rw [Pipeline.ownSems0_none, show (pdats m 2 c).Φ (Fin.last _) = (dat2 (Bv5 m) c).Φ (Fin.last cfg2.N) from rfl]
    iintro HΦ
    ihave H := (hout2 (Bv5 m) c) $$ HΦ
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Bv5 m c) (Bv6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandRun

end
-- ==== Proof.K.Reg3.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered with every unscoped buffer at `Bd7`, left with them at `Bd8`. Its
    windows' arrays are split out of the unscoped buffers on entry and put back at their final contents on exit;
    the generator register goes into the body's invariant and comes back; nothing is owed; the kernel has no
    semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Bv7 m) c).loose
  hwaits := Pipeline.hwaits_of_owed_zero _ _ _ _ L lv 3 fun _ _ => rfl
  pre c := iprop(StableHlo.held (c : Thread nD τ) (Pipeline.ucRefs τ sig) (Bd7 m c) ∗ R c)
  post c := iprop(StableHlo.held (c : Thread nD τ) (Pipeline.ucRefs τ sig) (Bd8 m c) ∗ R c)
  X c := iprop(∃ r, prngReg c r)
  Y c := iprop(∃ r, prngReg c r)
  Z c := Pipeline.unscopedRest (Ix := Unit) (Name := ℕ) (U := UR sig nD τ) (Lvl := ℕ) spec3 c (Bv7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Bv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Bv7 m) c).Φ 0 from rfl]
    iintro ⟨Hp, -, Hr⟩
    iapply (hin3 (Bv7 m) c)
    isplitl [Hp]; · iexact Hp
    iexact Hr
  hout c := by
    rw [Pipeline.ownSems0_none, show (pdats m 3 c).Φ (Fin.last _) = (dat3 (Bv7 m) c).Φ (Fin.last cfg3.N) from rfl]
    iintro HΦ
    ihave H := (hout3 (Bv7 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Bv7 m c) (Bv8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandRun

end
-- ==== Proof.K.Reg4.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered with every unscoped buffer at `Bd9`, left with them at `Bd10`. Its
    windows' arrays are split out of the unscoped buffers on entry and put back at their final contents on exit;
    the generator register goes into the body's invariant and comes back; nothing is owed; the kernel has no
    semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Bv9 m) c).loose
  hwaits := Pipeline.hwaits_of_owed_zero _ _ _ _ L lv 4 fun _ _ => rfl
  pre c := iprop(StableHlo.held (c : Thread nD τ) (Pipeline.ucRefs τ sig) (Bd9 m c) ∗ R c)
  post c := iprop(StableHlo.held (c : Thread nD τ) (Pipeline.ucRefs τ sig) (Bd10 m c) ∗ R c)
  X c := iprop(∃ r, prngReg c r)
  Y c := iprop(∃ r, prngReg c r)
  Z c := Pipeline.unscopedRest (Ix := Unit) (Name := ℕ) (U := UR sig nD τ) (Lvl := ℕ) spec4 c (Bv9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Bv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Bv9 m) c).Φ 0 from rfl]
    iintro ⟨Hp, -, Hr⟩
    iapply (hin4 (Bv9 m) c)
    isplitl [Hp]; · iexact Hp
    iexact Hr
  hout c := by
    rw [Pipeline.ownSems0_none, show (pdats m 4 c).Φ (Fin.last _) = (dat4 (Bv9 m) c).Φ (Fin.last cfg4.N) from rfl]
    iintro HΦ
    ihave H := (hout4 (Bv9 m) c) $$ HΦ
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Bv9 m c) (Bv10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandRun

end
-- ==== Proof.K.Reg5.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered with every unscoped buffer at `Bd11`, left with them at `Bd12`. Its
    windows' arrays are split out of the unscoped buffers on entry and put back at their final contents on exit;
    the generator register goes into the body's invariant and comes back; nothing is owed; the kernel has no
    semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Bv11 m) c).loose
  hwaits := Pipeline.hwaits_of_owed_zero _ _ _ _ L lv 5 fun _ _ => rfl
  pre c := iprop(StableHlo.held (c : Thread nD τ) (Pipeline.ucRefs τ sig) (Bd11 m c) ∗ R c)
  post c := iprop(StableHlo.held (c : Thread nD τ) (Pipeline.ucRefs τ sig) (Bd12 m c) ∗ R c)
  X c := iprop(∃ r, prngReg c r)
  Y c := iprop(∃ r, prngReg c r)
  Z c := Pipeline.unscopedRest (Ix := Unit) (Name := ℕ) (U := UR sig nD τ) (Lvl := ℕ) spec5 c (Bv11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Bv11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (Bv11 m) c).Φ 0 from rfl]
    iintro ⟨Hp, -, Hr⟩
    iapply (hin5 (Bv11 m) c)
    isplitl [Hp]; · iexact Hp
    iexact Hr
  hout c := by
    rw [Pipeline.ownSems0_none, show (pdats m 5 c).Φ (Fin.last _) = (dat5 (Bv11 m) c).Φ (Fin.last cfg5.N) from rfl]
    iintro HΦ
    ihave H := (hout5 (Bv11 m) c) $$ HΦ
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Bv11 m c) (Bv12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandRun

end
-- ==== Proof.K.Reg6.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6 over the thread state: entered with every unscoped buffer at `Bd13`, left with them at `Bd14`. Its
    windows' arrays are split out of the unscoped buffers on entry and put back at their final contents on exit;
    the generator register goes into the body's invariant and comes back; nothing is owed; the kernel has no
    semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Bv13 m) c).loose
  hwaits := Pipeline.hwaits_of_owed_zero _ _ _ _ L lv 6 fun _ _ => rfl
  pre c := iprop(StableHlo.held (c : Thread nD τ) (Pipeline.ucRefs τ sig) (Bd13 m c) ∗ R c)
  post c := iprop(StableHlo.held (c : Thread nD τ) (Pipeline.ucRefs τ sig) (Bd14 m c) ∗ R c)
  X c := iprop(∃ r, prngReg c r)
  Y c := iprop(∃ r, prngReg c r)
  Z c := Pipeline.unscopedRest (Ix := Unit) (Name := ℕ) (U := UR sig nD τ) (Lvl := ℕ) spec6 c (Bv13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Bv13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Bv13 m) c).Φ 0 from rfl]
    iintro ⟨Hp, -, Hr⟩
    iapply (hin6 (Bv13 m) c)
    isplitl [Hp]; · iexact Hp
    iexact Hr
  hout c := by
    rw [Pipeline.ownSems0_none, show (pdats m 6 c).Φ (Fin.last _) = (dat6 (Bv13 m) c).Φ (Fin.last cfg6.N) from rfl]
    iintro HΦ
    ihave H := (hout6 (Bv13 m) c) $$ HΦ
    icases H with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Bv13 m c) (Bv14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandRun

end
-- ==== Proof.K.Reg7.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7 over the thread state: entered with every unscoped buffer at `Bd15`, left with them at `Bd16`. Its
    windows' arrays are split out of the unscoped buffers on entry and put back at their final contents on exit;
    the generator register goes into the body's invariant and comes back; nothing is owed; the kernel has no
    semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Bv15 m) c).loose
  hwaits := Pipeline.hwaits_of_owed_zero _ _ _ _ L lv 7 fun _ _ => rfl
  pre c := iprop(StableHlo.held (c : Thread nD τ) (Pipeline.ucRefs τ sig) (Bd15 m c) ∗ R c)
  post c := iprop(StableHlo.held (c : Thread nD τ) (Pipeline.ucRefs τ sig) (Bd16 m c) ∗ R c)
  X c := iprop(∃ r, prngReg c r)
  Y c := iprop(∃ r, prngReg c r)
  Z c := Pipeline.unscopedRest (Ix := Unit) (Name := ℕ) (U := UR sig nD τ) (Lvl := ℕ) spec7 c (Bv15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Bv15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (Bv15 m) c).Φ 0 from rfl]
    iintro ⟨Hp, -, Hr⟩
    iapply (hin7 (Bv15 m) c)
    isplitl [Hp]; · iexact Hp
    iexact Hr
  hout c := by
    rw [Pipeline.ownSems0_none, show (pdats m 7 c).Φ (Fin.last _) = (dat7 (Bv15 m) c).Φ (Fin.last cfg7.N) from rfl]
    iintro HΦ
    ihave H := (hout7 (Bv15 m) c) $$ HΦ
    icases H with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Bv15 m c) (Bv16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandRun

end
-- ==== Proof.K.Reg8.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 over the thread state: entered with every unscoped buffer at `Bd17`, left with them at `Bd18`. Its
    windows' arrays are split out of the unscoped buffers on entry and put back at their final contents on exit;
    the generator register goes into the body's invariant and comes back; nothing is owed; the kernel has no
    semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Bv17 m) c).loose
  hwaits := Pipeline.hwaits_of_owed_zero _ _ _ _ L lv 8 fun _ _ => rfl
  pre c := iprop(StableHlo.held (c : Thread nD τ) (Pipeline.ucRefs τ sig) (Bd17 m c) ∗ R c)
  post c := iprop(StableHlo.held (c : Thread nD τ) (Pipeline.ucRefs τ sig) (Bd18 m c) ∗ R c)
  X c := iprop(∃ r, prngReg c r)
  Y c := iprop(∃ r, prngReg c r)
  Z c := Pipeline.unscopedRest (Ix := Unit) (Name := ℕ) (U := UR sig nD τ) (Lvl := ℕ) spec8 c (Bv17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Bv17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (Bv17 m) c).Φ 0 from rfl]
    iintro ⟨Hp, -, Hr⟩
    iapply (hin8 (Bv17 m) c)
    isplitl [Hp]; · iexact Hp
    iexact Hr
  hout c := by
    rw [Pipeline.ownSems0_none, show (pdats m 8 c).Φ (Fin.last _) = (dat8 (Bv17 m) c).Φ (Fin.last cfg8.N) from rfl]
    iintro HΦ
    ihave H := (hout8 (Bv17 m) c) $$ HΦ
    icases H with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Bv17 m c) (Bv18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.HandRun

end
-- ==== Proof.K.Run.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals
import proofs.«128301_j8701603742430_2_alg».proof.Proof.K.Reg0
import proofs.«128301_j8701603742430_2_alg».proof.Proof.K.Reg1
import proofs.«128301_j8701603742430_2_alg».proof.Proof.K.Reg2
import proofs.«128301_j8701603742430_2_alg».proof.Proof.K.Reg3
import proofs.«128301_j8701603742430_2_alg».proof.Proof.K.Reg4
import proofs.«128301_j8701603742430_2_alg».proof.Proof.K.Reg5
import proofs.«128301_j8701603742430_2_alg».proof.Proof.K.Reg6
import proofs.«128301_j8701603742430_2_alg».proof.Proof.K.Reg7
import proofs.«128301_j8701603742430_2_alg».proof.Proof.K.Reg8

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

/-- The program's eighteen items in order: a stretch of host operations, then a region, nine times. -/
abbrev segs : List (Pipeline.Seg (pcfgs (F := F)) adm (pdats m) () defs₀ 𝒱₀ L lv) :=
  [ .host (hseg hostOps0 hostOps0_sub hostOps0_fresh (Bd0 m)),
    .region (reg0 m),
    .host (hseg hostOps1 hostOps1_sub hostOps1_fresh (Bd2 m)),
    .region (reg1 m),
    .host (hseg hostOps2 hostOps2_sub hostOps2_fresh (Bd4 m)),
    .region (reg2 m),
    .host (hseg hostOps3 hostOps3_sub hostOps3_fresh (Bd6 m)),
    .region (reg3 m),
    .host (hseg hostOps4 hostOps4_sub hostOps4_fresh (Bd8 m)),
    .region (reg4 m),
    .host (hseg hostOps5 hostOps5_sub hostOps5_fresh (Bd10 m)),
    .region (reg5 m),
    .host (hseg hostOps6 hostOps6_sub hostOps6_fresh (Bd12 m)),
    .region (reg6 m),
    .host (hseg hostOps7 hostOps7_sub hostOps7_fresh (Bd14 m)),
    .region (reg7 m),
    .host (hseg hostOps8 hostOps8_sub hostOps8_fresh (Bd16 m)),
    .region (reg8 m) ]

theorem main_run (c : Dev nD) : main (F := F) c = Pipeline.Seg.run (segs m) := (main_chain c).trans (by chain_rfl)

set_option backward.isDefEq.respectTransparency.types false in
/-- Every weakly fair execution of the program from memory `m` with zero counters terminates without a fault, and
    the final memory holds every unscoped buffer of every core at the last boundary's contents `Bd18`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Bd18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
    fun c => by
      show (iprop(StableHlo.held (c : Thread nD τ) (Pipeline.ucRefs τ sig) (Bd18 m c) ∗ R c) : sProp 𝕄) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd18 m c b)
    (hfin := fun c s' => by
      iintro ⟨⟨Hh, -⟩, HSI⟩
      unfold StableHlo.held
      imodintro
      iapply (pointsTo_read_all (Pipeline.ucRefs τ sig) (fun b => (((c : Thread nD τ)).1, b)) (Bd18 m c) s')
      isplitl [Hh] <;> iassumption)
    (hQ := fun s h c => h c)

end Cert.Kernel.HandRun

end
-- ==== Proof.K.Args.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ)

/-! No stretch of host operations writes an argument, and a region either does not touch an argument's buffer or
    reads it through an input window, which leaves it as entered: so each argument's buffer holds its launch
    contents at the last boundary. -/

theorem Bd18_main_arg0 (c : Dev nD) : Bd18 m c (Proc.devRef .tc main_arg0) = m ((c : Thread nD τ).loc main_arg0) :=
  calc Bd18 m c (Proc.devRef .tc main_arg0)
    _ = Bd17 m c (Proc.devRef .tc main_arg0) := Bd18_of_ne m c main_arg0 (by decide)
    _ = Bd16 m c (Proc.devRef .tc main_arg0) := StableHlo.after_of_writes_sub hostOps8 _ hostOps8_writes (by decide)
    _ = Bd15 m c (Proc.devRef .tc main_arg0) := Bd16_of_ne m c main_arg0 (by decide)
    _ = Bd14 m c (Proc.devRef .tc main_arg0) := StableHlo.after_of_writes_sub hostOps7 _ hostOps7_writes (by decide)
    _ = Bd13 m c (Proc.devRef .tc main_arg0) := Bd14_of_ne m c main_arg0 (by decide)
    _ = Bd12 m c (Proc.devRef .tc main_arg0) := StableHlo.after_of_writes_sub hostOps6 _ hostOps6_writes (by decide)
    _ = Bd11 m c (Proc.devRef .tc main_arg0) := Bd12_of_ne m c main_arg0 (by decide)
    _ = Bd10 m c (Proc.devRef .tc main_arg0) := StableHlo.after_of_writes_sub hostOps5 _ hostOps5_writes (by decide)
    _ = Bd9 m c (Proc.devRef .tc main_arg0) := Bd10_of_ne m c main_arg0 (by decide)
    _ = Bd8 m c (Proc.devRef .tc main_arg0) := StableHlo.after_of_writes_sub hostOps4 _ hostOps4_writes (by decide)
    _ = Bd7 m c (Proc.devRef .tc main_arg0) := Bd8_of_ne m c main_arg0 (by decide)
    _ = Bd6 m c (Proc.devRef .tc main_arg0) := StableHlo.after_of_writes_sub hostOps3 _ hostOps3_writes (by decide)
    _ = Bd5 m c (Proc.devRef .tc main_arg0) := Bd6_of_ne m c main_arg0 (by decide)
    _ = Bd4 m c (Proc.devRef .tc main_arg0) := StableHlo.after_of_writes_sub hostOps2 _ hostOps2_writes (by decide)
    _ = Bd3 m c (Proc.devRef .tc main_arg0) := Bd4_of_ne m c main_arg0 (by decide)
    _ = Bd2 m c (Proc.devRef .tc main_arg0) := StableHlo.after_of_writes_sub hostOps1 _ hostOps1_writes (by decide)
    _ = Bd1 m c (Proc.devRef .tc main_arg0) := Bd2_in m c 0 rfl
    _ = Bd0 m c (Proc.devRef .tc main_arg0) := StableHlo.after_of_writes_sub hostOps0 _ hostOps0_writes (by decide)
    _ = m ((c : Thread nD τ).loc main_arg0) := rfl

theorem Bd18_main_arg1 (c : Dev nD) : Bd18 m c (Proc.devRef .tc main_arg1) = m ((c : Thread nD τ).loc main_arg1) :=
  calc Bd18 m c (Proc.devRef .tc main_arg1)
    _ = Bd17 m c (Proc.devRef .tc main_arg1) := Bd18_of_ne m c main_arg1 (by decide)
    _ = Bd16 m c (Proc.devRef .tc main_arg1) := StableHlo.after_of_writes_sub hostOps8 _ hostOps8_writes (by decide)
    _ = Bd15 m c (Proc.devRef .tc main_arg1) := Bd16_of_ne m c main_arg1 (by decide)
    _ = Bd14 m c (Proc.devRef .tc main_arg1) := StableHlo.after_of_writes_sub hostOps7 _ hostOps7_writes (by decide)
    _ = Bd13 m c (Proc.devRef .tc main_arg1) := Bd14_of_ne m c main_arg1 (by decide)
    _ = Bd12 m c (Proc.devRef .tc main_arg1) := StableHlo.after_of_writes_sub hostOps6 _ hostOps6_writes (by decide)
    _ = Bd11 m c (Proc.devRef .tc main_arg1) := Bd12_of_ne m c main_arg1 (by decide)
    _ = Bd10 m c (Proc.devRef .tc main_arg1) := StableHlo.after_of_writes_sub hostOps5 _ hostOps5_writes (by decide)
    _ = Bd9 m c (Proc.devRef .tc main_arg1) := Bd10_of_ne m c main_arg1 (by decide)
    _ = Bd8 m c (Proc.devRef .tc main_arg1) := StableHlo.after_of_writes_sub hostOps4 _ hostOps4_writes (by decide)
    _ = Bd7 m c (Proc.devRef .tc main_arg1) := Bd8_of_ne m c main_arg1 (by decide)
    _ = Bd6 m c (Proc.devRef .tc main_arg1) := StableHlo.after_of_writes_sub hostOps3 _ hostOps3_writes (by decide)
    _ = Bd5 m c (Proc.devRef .tc main_arg1) := Bd6_of_ne m c main_arg1 (by decide)
    _ = Bd4 m c (Proc.devRef .tc main_arg1) := StableHlo.after_of_writes_sub hostOps2 _ hostOps2_writes (by decide)
    _ = Bd3 m c (Proc.devRef .tc main_arg1) := Bd4_of_ne m c main_arg1 (by decide)
    _ = Bd2 m c (Proc.devRef .tc main_arg1) := StableHlo.after_of_writes_sub hostOps1 _ hostOps1_writes (by decide)
    _ = Bd1 m c (Proc.devRef .tc main_arg1) := Bd2_of_ne m c main_arg1 (by decide)
    _ = Bd0 m c (Proc.devRef .tc main_arg1) := StableHlo.after_of_writes_sub hostOps0 _ hostOps0_writes (by decide)
    _ = m ((c : Thread nD τ).loc main_arg1) := rfl

theorem Bd18_main_arg2 (c : Dev nD) : Bd18 m c (Proc.devRef .tc main_arg2) = m ((c : Thread nD τ).loc main_arg2) :=
  calc Bd18 m c (Proc.devRef .tc main_arg2)
    _ = Bd17 m c (Proc.devRef .tc main_arg2) := Bd18_of_ne m c main_arg2 (by decide)
    _ = Bd16 m c (Proc.devRef .tc main_arg2) := StableHlo.after_of_writes_sub hostOps8 _ hostOps8_writes (by decide)
    _ = Bd15 m c (Proc.devRef .tc main_arg2) := Bd16_of_ne m c main_arg2 (by decide)
    _ = Bd14 m c (Proc.devRef .tc main_arg2) := StableHlo.after_of_writes_sub hostOps7 _ hostOps7_writes (by decide)
    _ = Bd13 m c (Proc.devRef .tc main_arg2) := Bd14_of_ne m c main_arg2 (by decide)
    _ = Bd12 m c (Proc.devRef .tc main_arg2) := StableHlo.after_of_writes_sub hostOps6 _ hostOps6_writes (by decide)
    _ = Bd11 m c (Proc.devRef .tc main_arg2) := Bd12_of_ne m c main_arg2 (by decide)
    _ = Bd10 m c (Proc.devRef .tc main_arg2) := StableHlo.after_of_writes_sub hostOps5 _ hostOps5_writes (by decide)
    _ = Bd9 m c (Proc.devRef .tc main_arg2) := Bd10_of_ne m c main_arg2 (by decide)
    _ = Bd8 m c (Proc.devRef .tc main_arg2) := StableHlo.after_of_writes_sub hostOps4 _ hostOps4_writes (by decide)
    _ = Bd7 m c (Proc.devRef .tc main_arg2) := Bd8_of_ne m c main_arg2 (by decide)
    _ = Bd6 m c (Proc.devRef .tc main_arg2) := StableHlo.after_of_writes_sub hostOps3 _ hostOps3_writes (by decide)
    _ = Bd5 m c (Proc.devRef .tc main_arg2) := Bd6_of_ne m c main_arg2 (by decide)
    _ = Bd4 m c (Proc.devRef .tc main_arg2) := StableHlo.after_of_writes_sub hostOps2 _ hostOps2_writes (by decide)
    _ = Bd3 m c (Proc.devRef .tc main_arg2) := Bd4_of_ne m c main_arg2 (by decide)
    _ = Bd2 m c (Proc.devRef .tc main_arg2) := StableHlo.after_of_writes_sub hostOps1 _ hostOps1_writes (by decide)
    _ = Bd1 m c (Proc.devRef .tc main_arg2) := Bd2_in m c 2 rfl
    _ = Bd0 m c (Proc.devRef .tc main_arg2) := StableHlo.after_of_writes_sub hostOps0 _ hostOps0_writes (by decide)
    _ = m ((c : Thread nD τ).loc main_arg2) := rfl

theorem Bd18_main_arg3 (c : Dev nD) : Bd18 m c (Proc.devRef .tc main_arg3) = m ((c : Thread nD τ).loc main_arg3) :=
  calc Bd18 m c (Proc.devRef .tc main_arg3)
    _ = Bd17 m c (Proc.devRef .tc main_arg3) := Bd18_of_ne m c main_arg3 (by decide)
    _ = Bd16 m c (Proc.devRef .tc main_arg3) := StableHlo.after_of_writes_sub hostOps8 _ hostOps8_writes (by decide)
    _ = Bd15 m c (Proc.devRef .tc main_arg3) := Bd16_of_ne m c main_arg3 (by decide)
    _ = Bd14 m c (Proc.devRef .tc main_arg3) := StableHlo.after_of_writes_sub hostOps7 _ hostOps7_writes (by decide)
    _ = Bd13 m c (Proc.devRef .tc main_arg3) := Bd14_of_ne m c main_arg3 (by decide)
    _ = Bd12 m c (Proc.devRef .tc main_arg3) := StableHlo.after_of_writes_sub hostOps6 _ hostOps6_writes (by decide)
    _ = Bd11 m c (Proc.devRef .tc main_arg3) := Bd12_of_ne m c main_arg3 (by decide)
    _ = Bd10 m c (Proc.devRef .tc main_arg3) := StableHlo.after_of_writes_sub hostOps5 _ hostOps5_writes (by decide)
    _ = Bd9 m c (Proc.devRef .tc main_arg3) := Bd10_of_ne m c main_arg3 (by decide)
    _ = Bd8 m c (Proc.devRef .tc main_arg3) := StableHlo.after_of_writes_sub hostOps4 _ hostOps4_writes (by decide)
    _ = Bd7 m c (Proc.devRef .tc main_arg3) := Bd8_of_ne m c main_arg3 (by decide)
    _ = Bd6 m c (Proc.devRef .tc main_arg3) := StableHlo.after_of_writes_sub hostOps3 _ hostOps3_writes (by decide)
    _ = Bd5 m c (Proc.devRef .tc main_arg3) := Bd6_of_ne m c main_arg3 (by decide)
    _ = Bd4 m c (Proc.devRef .tc main_arg3) := StableHlo.after_of_writes_sub hostOps2 _ hostOps2_writes (by decide)
    _ = Bd3 m c (Proc.devRef .tc main_arg3) := Bd4_of_ne m c main_arg3 (by decide)
    _ = Bd2 m c (Proc.devRef .tc main_arg3) := StableHlo.after_of_writes_sub hostOps1 _ hostOps1_writes (by decide)
    _ = Bd1 m c (Proc.devRef .tc main_arg3) := Bd2_of_ne m c main_arg3 (by decide)
    _ = Bd0 m c (Proc.devRef .tc main_arg3) := StableHlo.after_of_writes_sub hostOps0 _ hostOps0_writes (by decide)
    _ = m ((c : Thread nD τ).loc main_arg3) := rfl

theorem Bd18_main_arg4 (c : Dev nD) : Bd18 m c (Proc.devRef .tc main_arg4) = m ((c : Thread nD τ).loc main_arg4) :=
  calc Bd18 m c (Proc.devRef .tc main_arg4)
    _ = Bd17 m c (Proc.devRef .tc main_arg4) := Bd18_of_ne m c main_arg4 (by decide)
    _ = Bd16 m c (Proc.devRef .tc main_arg4) := StableHlo.after_of_writes_sub hostOps8 _ hostOps8_writes (by decide)
    _ = Bd15 m c (Proc.devRef .tc main_arg4) := Bd16_of_ne m c main_arg4 (by decide)
    _ = Bd14 m c (Proc.devRef .tc main_arg4) := StableHlo.after_of_writes_sub hostOps7 _ hostOps7_writes (by decide)
    _ = Bd13 m c (Proc.devRef .tc main_arg4) := Bd14_of_ne m c main_arg4 (by decide)
    _ = Bd12 m c (Proc.devRef .tc main_arg4) := StableHlo.after_of_writes_sub hostOps6 _ hostOps6_writes (by decide)
    _ = Bd11 m c (Proc.devRef .tc main_arg4) := Bd12_of_ne m c main_arg4 (by decide)
    _ = Bd10 m c (Proc.devRef .tc main_arg4) := StableHlo.after_of_writes_sub hostOps5 _ hostOps5_writes (by decide)
    _ = Bd9 m c (Proc.devRef .tc main_arg4) := Bd10_of_ne m c main_arg4 (by decide)
    _ = Bd8 m c (Proc.devRef .tc main_arg4) := StableHlo.after_of_writes_sub hostOps4 _ hostOps4_writes (by decide)
    _ = Bd7 m c (Proc.devRef .tc main_arg4) := Bd8_of_ne m c main_arg4 (by decide)
    _ = Bd6 m c (Proc.devRef .tc main_arg4) := StableHlo.after_of_writes_sub hostOps3 _ hostOps3_writes (by decide)
    _ = Bd5 m c (Proc.devRef .tc main_arg4) := Bd6_of_ne m c main_arg4 (by decide)
    _ = Bd4 m c (Proc.devRef .tc main_arg4) := StableHlo.after_of_writes_sub hostOps2 _ hostOps2_writes (by decide)
    _ = Bd3 m c (Proc.devRef .tc main_arg4) := Bd4_of_ne m c main_arg4 (by decide)
    _ = Bd2 m c (Proc.devRef .tc main_arg4) := StableHlo.after_of_writes_sub hostOps1 _ hostOps1_writes (by decide)
    _ = Bd1 m c (Proc.devRef .tc main_arg4) := Bd2_of_ne m c main_arg4 (by decide)
    _ = Bd0 m c (Proc.devRef .tc main_arg4) := StableHlo.after_of_writes_sub hostOps0 _ hostOps0_writes (by decide)
    _ = m ((c : Thread nD τ).loc main_arg4) := rfl

theorem Bd18_main_arg5 (c : Dev nD) : Bd18 m c (Proc.devRef .tc main_arg5) = m ((c : Thread nD τ).loc main_arg5) :=
  calc Bd18 m c (Proc.devRef .tc main_arg5)
    _ = Bd17 m c (Proc.devRef .tc main_arg5) := Bd18_of_ne m c main_arg5 (by decide)
    _ = Bd16 m c (Proc.devRef .tc main_arg5) := StableHlo.after_of_writes_sub hostOps8 _ hostOps8_writes (by decide)
    _ = Bd15 m c (Proc.devRef .tc main_arg5) := Bd16_of_ne m c main_arg5 (by decide)
    _ = Bd14 m c (Proc.devRef .tc main_arg5) := StableHlo.after_of_writes_sub hostOps7 _ hostOps7_writes (by decide)
    _ = Bd13 m c (Proc.devRef .tc main_arg5) := Bd14_of_ne m c main_arg5 (by decide)
    _ = Bd12 m c (Proc.devRef .tc main_arg5) := StableHlo.after_of_writes_sub hostOps6 _ hostOps6_writes (by decide)
    _ = Bd11 m c (Proc.devRef .tc main_arg5) := Bd12_of_ne m c main_arg5 (by decide)
    _ = Bd10 m c (Proc.devRef .tc main_arg5) := StableHlo.after_of_writes_sub hostOps5 _ hostOps5_writes (by decide)
    _ = Bd9 m c (Proc.devRef .tc main_arg5) := Bd10_of_ne m c main_arg5 (by decide)
    _ = Bd8 m c (Proc.devRef .tc main_arg5) := StableHlo.after_of_writes_sub hostOps4 _ hostOps4_writes (by decide)
    _ = Bd7 m c (Proc.devRef .tc main_arg5) := Bd8_of_ne m c main_arg5 (by decide)
    _ = Bd6 m c (Proc.devRef .tc main_arg5) := StableHlo.after_of_writes_sub hostOps3 _ hostOps3_writes (by decide)
    _ = Bd5 m c (Proc.devRef .tc main_arg5) := Bd6_of_ne m c main_arg5 (by decide)
    _ = Bd4 m c (Proc.devRef .tc main_arg5) := StableHlo.after_of_writes_sub hostOps2 _ hostOps2_writes (by decide)
    _ = Bd3 m c (Proc.devRef .tc main_arg5) := Bd4_of_ne m c main_arg5 (by decide)
    _ = Bd2 m c (Proc.devRef .tc main_arg5) := StableHlo.after_of_writes_sub hostOps1 _ hostOps1_writes (by decide)
    _ = Bd1 m c (Proc.devRef .tc main_arg5) := Bd2_of_ne m c main_arg5 (by decide)
    _ = Bd0 m c (Proc.devRef .tc main_arg5) := StableHlo.after_of_writes_sub hostOps0 _ hostOps0_writes (by decide)
    _ = m ((c : Thread nD τ).loc main_arg5) := rfl

theorem Bd18_main_arg6 (c : Dev nD) : Bd18 m c (Proc.devRef .tc main_arg6) = m ((c : Thread nD τ).loc main_arg6) :=
  calc Bd18 m c (Proc.devRef .tc main_arg6)
    _ = Bd17 m c (Proc.devRef .tc main_arg6) := Bd18_in m c 2 rfl
    _ = Bd16 m c (Proc.devRef .tc main_arg6) := StableHlo.after_of_writes_sub hostOps8 _ hostOps8_writes (by decide)
    _ = Bd15 m c (Proc.devRef .tc main_arg6) := Bd16_of_ne m c main_arg6 (by decide)
    _ = Bd14 m c (Proc.devRef .tc main_arg6) := StableHlo.after_of_writes_sub hostOps7 _ hostOps7_writes (by decide)
    _ = Bd13 m c (Proc.devRef .tc main_arg6) := Bd14_of_ne m c main_arg6 (by decide)
    _ = Bd12 m c (Proc.devRef .tc main_arg6) := StableHlo.after_of_writes_sub hostOps6 _ hostOps6_writes (by decide)
    _ = Bd11 m c (Proc.devRef .tc main_arg6) := Bd12_of_ne m c main_arg6 (by decide)
    _ = Bd10 m c (Proc.devRef .tc main_arg6) := StableHlo.after_of_writes_sub hostOps5 _ hostOps5_writes (by decide)
    _ = Bd9 m c (Proc.devRef .tc main_arg6) := Bd10_of_ne m c main_arg6 (by decide)
    _ = Bd8 m c (Proc.devRef .tc main_arg6) := StableHlo.after_of_writes_sub hostOps4 _ hostOps4_writes (by decide)
    _ = Bd7 m c (Proc.devRef .tc main_arg6) := Bd8_of_ne m c main_arg6 (by decide)
    _ = Bd6 m c (Proc.devRef .tc main_arg6) := StableHlo.after_of_writes_sub hostOps3 _ hostOps3_writes (by decide)
    _ = Bd5 m c (Proc.devRef .tc main_arg6) := Bd6_of_ne m c main_arg6 (by decide)
    _ = Bd4 m c (Proc.devRef .tc main_arg6) := StableHlo.after_of_writes_sub hostOps2 _ hostOps2_writes (by decide)
    _ = Bd3 m c (Proc.devRef .tc main_arg6) := Bd4_of_ne m c main_arg6 (by decide)
    _ = Bd2 m c (Proc.devRef .tc main_arg6) := StableHlo.after_of_writes_sub hostOps1 _ hostOps1_writes (by decide)
    _ = Bd1 m c (Proc.devRef .tc main_arg6) := Bd2_of_ne m c main_arg6 (by decide)
    _ = Bd0 m c (Proc.devRef .tc main_arg6) := StableHlo.after_of_writes_sub hostOps0 _ hostOps0_writes (by decide)
    _ = m ((c : Thread nD τ).loc main_arg6) := rfl

theorem Bd18_main_arg7 (c : Dev nD) : Bd18 m c (Proc.devRef .tc main_arg7) = m ((c : Thread nD τ).loc main_arg7) :=
  calc Bd18 m c (Proc.devRef .tc main_arg7)
    _ = Bd17 m c (Proc.devRef .tc main_arg7) := Bd18_of_ne m c main_arg7 (by decide)
    _ = Bd16 m c (Proc.devRef .tc main_arg7) := StableHlo.after_of_writes_sub hostOps8 _ hostOps8_writes (by decide)
    _ = Bd15 m c (Proc.devRef .tc main_arg7) := Bd16_of_ne m c main_arg7 (by decide)
    _ = Bd14 m c (Proc.devRef .tc main_arg7) := StableHlo.after_of_writes_sub hostOps7 _ hostOps7_writes (by decide)
    _ = Bd13 m c (Proc.devRef .tc main_arg7) := Bd14_of_ne m c main_arg7 (by decide)
    _ = Bd12 m c (Proc.devRef .tc main_arg7) := StableHlo.after_of_writes_sub hostOps6 _ hostOps6_writes (by decide)
    _ = Bd11 m c (Proc.devRef .tc main_arg7) := Bd12_of_ne m c main_arg7 (by decide)
    _ = Bd10 m c (Proc.devRef .tc main_arg7) := StableHlo.after_of_writes_sub hostOps5 _ hostOps5_writes (by decide)
    _ = Bd9 m c (Proc.devRef .tc main_arg7) := Bd10_of_ne m c main_arg7 (by decide)
    _ = Bd8 m c (Proc.devRef .tc main_arg7) := StableHlo.after_of_writes_sub hostOps4 _ hostOps4_writes (by decide)
    _ = Bd7 m c (Proc.devRef .tc main_arg7) := Bd8_of_ne m c main_arg7 (by decide)
    _ = Bd6 m c (Proc.devRef .tc main_arg7) := StableHlo.after_of_writes_sub hostOps3 _ hostOps3_writes (by decide)
    _ = Bd5 m c (Proc.devRef .tc main_arg7) := Bd6_of_ne m c main_arg7 (by decide)
    _ = Bd4 m c (Proc.devRef .tc main_arg7) := StableHlo.after_of_writes_sub hostOps2 _ hostOps2_writes (by decide)
    _ = Bd3 m c (Proc.devRef .tc main_arg7) := Bd4_of_ne m c main_arg7 (by decide)
    _ = Bd2 m c (Proc.devRef .tc main_arg7) := StableHlo.after_of_writes_sub hostOps1 _ hostOps1_writes (by decide)
    _ = Bd1 m c (Proc.devRef .tc main_arg7) := Bd2_of_ne m c main_arg7 (by decide)
    _ = Bd0 m c (Proc.devRef .tc main_arg7) := StableHlo.after_of_writes_sub hostOps0 _ hostOps0_writes (by decide)
    _ = m ((c : Thread nD τ).loc main_arg7) := rfl

theorem Bd18_main_arg8 (c : Dev nD) : Bd18 m c (Proc.devRef .tc main_arg8) = m ((c : Thread nD τ).loc main_arg8) :=
  calc Bd18 m c (Proc.devRef .tc main_arg8)
    _ = Bd17 m c (Proc.devRef .tc main_arg8) := Bd18_of_ne m c main_arg8 (by decide)
    _ = Bd16 m c (Proc.devRef .tc main_arg8) := StableHlo.after_of_writes_sub hostOps8 _ hostOps8_writes (by decide)
    _ = Bd15 m c (Proc.devRef .tc main_arg8) := Bd16_of_ne m c main_arg8 (by decide)
    _ = Bd14 m c (Proc.devRef .tc main_arg8) := StableHlo.after_of_writes_sub hostOps7 _ hostOps7_writes (by decide)
    _ = Bd13 m c (Proc.devRef .tc main_arg8) := Bd14_of_ne m c main_arg8 (by decide)
    _ = Bd12 m c (Proc.devRef .tc main_arg8) := StableHlo.after_of_writes_sub hostOps6 _ hostOps6_writes (by decide)
    _ = Bd11 m c (Proc.devRef .tc main_arg8) := Bd12_of_ne m c main_arg8 (by decide)
    _ = Bd10 m c (Proc.devRef .tc main_arg8) := StableHlo.after_of_writes_sub hostOps5 _ hostOps5_writes (by decide)
    _ = Bd9 m c (Proc.devRef .tc main_arg8) := Bd10_of_ne m c main_arg8 (by decide)
    _ = Bd8 m c (Proc.devRef .tc main_arg8) := StableHlo.after_of_writes_sub hostOps4 _ hostOps4_writes (by decide)
    _ = Bd7 m c (Proc.devRef .tc main_arg8) := Bd8_of_ne m c main_arg8 (by decide)
    _ = Bd6 m c (Proc.devRef .tc main_arg8) := StableHlo.after_of_writes_sub hostOps3 _ hostOps3_writes (by decide)
    _ = Bd5 m c (Proc.devRef .tc main_arg8) := Bd6_of_ne m c main_arg8 (by decide)
    _ = Bd4 m c (Proc.devRef .tc main_arg8) := StableHlo.after_of_writes_sub hostOps2 _ hostOps2_writes (by decide)
    _ = Bd3 m c (Proc.devRef .tc main_arg8) := Bd4_of_ne m c main_arg8 (by decide)
    _ = Bd2 m c (Proc.devRef .tc main_arg8) := StableHlo.after_of_writes_sub hostOps1 _ hostOps1_writes (by decide)
    _ = Bd1 m c (Proc.devRef .tc main_arg8) := Bd2_of_ne m c main_arg8 (by decide)
    _ = Bd0 m c (Proc.devRef .tc main_arg8) := StableHlo.after_of_writes_sub hostOps0 _ hostOps0_writes (by decide)
    _ = m ((c : Thread nD τ).loc main_arg8) := rfl

theorem Bd18_main_arg9 (c : Dev nD) : Bd18 m c (Proc.devRef .tc main_arg9) = m ((c : Thread nD τ).loc main_arg9) :=
  calc Bd18 m c (Proc.devRef .tc main_arg9)
    _ = Bd17 m c (Proc.devRef .tc main_arg9) := Bd18_of_ne m c main_arg9 (by decide)
    _ = Bd16 m c (Proc.devRef .tc main_arg9) := StableHlo.after_of_writes_sub hostOps8 _ hostOps8_writes (by decide)
    _ = Bd15 m c (Proc.devRef .tc main_arg9) := Bd16_of_ne m c main_arg9 (by decide)
    _ = Bd14 m c (Proc.devRef .tc main_arg9) := StableHlo.after_of_writes_sub hostOps7 _ hostOps7_writes (by decide)
    _ = Bd13 m c (Proc.devRef .tc main_arg9) := Bd14_of_ne m c main_arg9 (by decide)
    _ = Bd12 m c (Proc.devRef .tc main_arg9) := StableHlo.after_of_writes_sub hostOps6 _ hostOps6_writes (by decide)
    _ = Bd11 m c (Proc.devRef .tc main_arg9) := Bd12_of_ne m c main_arg9 (by decide)
    _ = Bd10 m c (Proc.devRef .tc main_arg9) := StableHlo.after_of_writes_sub hostOps5 _ hostOps5_writes (by decide)
    _ = Bd9 m c (Proc.devRef .tc main_arg9) := Bd10_of_ne m c main_arg9 (by decide)
    _ = Bd8 m c (Proc.devRef .tc main_arg9) := StableHlo.after_of_writes_sub hostOps4 _ hostOps4_writes (by decide)
    _ = Bd7 m c (Proc.devRef .tc main_arg9) := Bd8_of_ne m c main_arg9 (by decide)
    _ = Bd6 m c (Proc.devRef .tc main_arg9) := StableHlo.after_of_writes_sub hostOps3 _ hostOps3_writes (by decide)
    _ = Bd5 m c (Proc.devRef .tc main_arg9) := Bd6_of_ne m c main_arg9 (by decide)
    _ = Bd4 m c (Proc.devRef .tc main_arg9) := StableHlo.after_of_writes_sub hostOps2 _ hostOps2_writes (by decide)
    _ = Bd3 m c (Proc.devRef .tc main_arg9) := Bd4_of_ne m c main_arg9 (by decide)
    _ = Bd2 m c (Proc.devRef .tc main_arg9) := StableHlo.after_of_writes_sub hostOps1 _ hostOps1_writes (by decide)
    _ = Bd1 m c (Proc.devRef .tc main_arg9) := Bd2_of_ne m c main_arg9 (by decide)
    _ = Bd0 m c (Proc.devRef .tc main_arg9) := StableHlo.after_of_writes_sub hostOps0 _ hostOps0_writes (by decide)
    _ = m ((c : Thread nD τ).loc main_arg9) := rfl

end Cert.Kernel.HandRun

end
-- ==== Proof.K.Frame.lean ====
import proofs.«128301_j8701603742430_2_alg».proof.Proof.Gen.Kernel.Skeleton
import proofs.«128301_j8701603742430_2_alg».proof.Proof.Gen.Kernel.Launch
import proofs.«128301_j8701603742430_2_alg».proof.Proof.Gen.Kernel.Points
import proofs.«128301_j8701603742430_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.K.R0
import proofs.«128301_j8701603742430_2_alg».proof.Proof.K.R1
import proofs.«128301_j8701603742430_2_alg».proof.Proof.K.R2
import proofs.«128301_j8701603742430_2_alg».proof.Proof.K.R3
import proofs.«128301_j8701603742430_2_alg».proof.Proof.K.R4
import proofs.«128301_j8701603742430_2_alg».proof.Proof.K.R5
import proofs.«128301_j8701603742430_2_alg».proof.Proof.K.R6
import proofs.«128301_j8701603742430_2_alg».proof.Proof.K.R7
import proofs.«128301_j8701603742430_2_alg».proof.Proof.K.R8
import proofs.«128301_j8701603742430_2_alg».proof.Proof.K.Vals
import proofs.«128301_j8701603742430_2_alg».proof.Proof.K.Run
import proofs.«128301_j8701603742430_2_alg».proof.Proof.K.Args

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program terminates from any memory with zero counters, faults nowhere, and leaves every argument array as
    launched: the run over the eighteen items, each argument's buffer read at the last boundary. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (Bd18_main_arg0 m c),
     (h c _ (mem_uc main_arg1 (by decide))).trans (Bd18_main_arg1 m c),
     (h c _ (mem_uc main_arg2 (by decide))).trans (Bd18_main_arg2 m c),
     (h c _ (mem_uc main_arg3 (by decide))).trans (Bd18_main_arg3 m c),
     (h c _ (mem_uc main_arg4 (by decide))).trans (Bd18_main_arg4 m c),
     (h c _ (mem_uc main_arg5 (by decide))).trans (Bd18_main_arg5 m c),
     (h c _ (mem_uc main_arg6 (by decide))).trans (Bd18_main_arg6 m c),
     (h c _ (mem_uc main_arg7 (by decide))).trans (Bd18_main_arg7 m c),
     (h c _ (mem_uc main_arg8 (by decide))).trans (Bd18_main_arg8 m c),
     (h c _ (mem_uc main_arg9 (by decide))).trans (Bd18_main_arg9 m c)⟩) (run m ρ)

end Cert.Kernel.HandRun

end
-- ==== Proof.KI.R0.lean ====
import proofs.«128301_j8701603742430_2_alg».proof.Proof.Gen.KernelIdeal.Launch
import proofs.«128301_j8701603742430_2_alg».proof.Proof.Gen.KernelIdeal.Skeleton
import proofs.«128301_j8701603742430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, the linear + relu + column statistics kernel, at the entry contents `V` -/

/-- The zero offsets of a rank-2 rectangle are the constant zero. -/
theorem hz2_0 : (![0, 0] : Fin 2 → ℕ) = fun _ => 0 := by
  funext a; fin_cases a <;> rfl

/-- A list of pieces whose head is a store through the whole-shape rectangle covers the shape. -/
theorem cover_unit0 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole staging buffer -/

abbrev rA0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-! ## What the body leaves -/

/-- The block of the first output (the rectified affine map of the two input blocks) after the body. -/
def out0_4 (x1 x2 : Vec F S5000x64 .f32) (x3 : Vec F S64x64 .f32) (x4 : Vec F S1x64 .f32) : Vec F S5000x64 .f32 :=
  View.canon [⟨rA0, k0_pay4 (View.ld x1 rA0) (View.ld x2 rA0) (View.ld x3 rW0) (View.ld x4 rB0)⟩]

/-- The first accumulator after the body, from the value `v` the body loaded from it: `v` plus the block's column sums. -/
def acc0_8 (v : FVec F S1x64 .f32) (x1 x2 : Vec F S5000x64 .f32) (x3 : Vec F S64x64 .f32) (x4 : Vec F S1x64 .f32) : Vec F S1x64 .f32 :=
  View.canon [⟨rB0, k0_pay5 (View.ld x1 rA0) (View.ld x2 rA0) (View.ld x3 rW0) (View.ld x4 rB0) v⟩]

/-- The second accumulator after the body, from the value `v` the body loaded from it: `v` plus the block's column sums of squares. -/
def acc0_9 (v : FVec F S1x64 .f32) (x1 x2 : Vec F S5000x64 .f32) (x3 : Vec F S64x64 .f32) (x4 : Vec F S1x64 .f32) : Vec F S1x64 .f32 :=
  View.canon [⟨rB0, k0_pay1 (k0_pay6 (View.ld x1 rA0) (View.ld x2 rA0) (View.ld x3 rW0) (View.ld x4 rB0) v)⟩]

/-- An accumulator copied into its output's buffer (at the last point). -/
def cp0 (a : Vec F S1x64 .f32) : Vec F S1x64 .f32 :=
  View.canon [⟨rB0, View.ld a rB0⟩]

/-! ## The body's branch conditions, in closed form over the grid -/

/-- The condition of the body's first conditional (the accumulators are zeroed), from the grid coordinates. -/
abbrev cond0_0 (i : grid0.Coords) : Prop := (Scalar.cmpi .ne (Scalar.extui (Scalar.cmpi .eq (BitVec.ofNat 32 (i 0).val) 0#32)) 0#32) = 1#1
/-- The condition of its second (the accumulators are copied out). -/
abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 19 :=
  (by decide +kernel : ∀ t : Fin grid0.N, cond0_1 (grid0.coords t) ↔ t.val = 19)

/-! ## The body's triple, in each of the three cases the grid meets -/

set_option maxHeartbeats 1000000 in
/-- FIRST POINT: the accumulators, at anything, are zeroed and then added to; the two statistics outputs are untouched. -/
theorem run0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x1 x2 : Vec F S5000x64 .f32) (x3 : Vec F S64x64 .f32) (x4 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out0_4 x1 x2 x3 x4) ∗ owns (c : Thread nD τ) arg6 fullShare xi6 ∗ owns (c : Thread nD τ) arg7 fullShare xi7
            ∗ owns (c : Thread nD τ) arg8 fullShare (acc0_8 (k0_pay2 (F := F)) x1 x2 x3 x4) ∗ owns (c : Thread nD τ) arg9 fullShare (acc0_9 (k0_pay3 (F := F)) x1 x2 x3 x4)) -∗ K ⟨⟩))
      ⊢ wp frame (wpE (defs₀ (F := F)) Variants.none c none) E (cc0__linear_relu_stats_kernel i arg1 harg1 arg2 harg2 arg3 harg3 arg4 harg4 arg5 harg5 arg6 harg6 arg7 harg7 arg8 harg8 arg9 harg9) K := by
  simp only [cc0__linear_relu_stats_kernel_eq_skeleton]; unfold cc0__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
  subst hf1; subst hf2; subst hf3; subst hf4; subst hf6; subst hf7
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out0_4
    exact View.read_writes_eq_canon _ _ _ (cover_unit0 hz2_0 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc0_8
    rw [View.read_writes_eq_canon _ _ _ (cover_unit0 hz2_0 _ _ _), View.canon_cons_unit_zero hz2_0, View.canon_unit_zero hz2_0, View.readCov_unit_zero _ hz2_0]
    rfl
  iexists _; isplitr
  swap; · iexact H9
  ipureintro; sl_unfold_run_names; unfold acc0_9
  rw [View.read_writes_eq_canon _ _ _ (cover_unit0 hz2_0 _ _ _), View.canon_cons_unit_zero hz2_0, View.canon_unit_zero hz2_0, View.readCov_unit_zero _ hz2_0]
  rfl

set_option maxHeartbeats 1000000 in
/-- A MIDDLE POINT: the accumulators, at `s8`, `s9`, are added to; the two statistics outputs are untouched. -/
theorem run0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x1 x2 : Vec F S5000x64 .f32) (x3 : Vec F S64x64 .f32) (x4 : Vec F S1x64 .f32) (s8 s9 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out0_4 x1 x2 x3 x4) ∗ owns (c : Thread nD τ) arg6 fullShare xi6 ∗ owns (c : Thread nD τ) arg7 fullShare xi7
            ∗ owns (c : Thread nD τ) arg8 fullShare (acc0_8 (View.ld s8 rB0) x1 x2 x3 x4) ∗ owns (c : Thread nD τ) arg9 fullShare (acc0_9 (View.ld s9 rB0) x1 x2 x3 x4)) -∗ K ⟨⟩))
      ⊢ wp frame (wpE (defs₀ (F := F)) Variants.none c none) E (cc0__linear_relu_stats_kernel i arg1 harg1 arg2 harg2 arg3 harg3 arg4 harg4 arg5 harg5 arg6 harg6 arg7 harg7 arg8 harg8 arg9 harg9) K := by
  simp only [cc0__linear_relu_stats_kernel_eq_skeleton]; unfold cc0__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  subst hf1; subst hf2; subst hf3; subst hf4; subst hf6; subst hf7; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out0_4
    exact View.read_writes_eq_canon _ _ _ (cover_unit0 hz2_0 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc0_8
    exact View.read_writes_eq_canon _ _ _ (cover_unit0 hz2_0 _ _ _)
  iexists _; isplitr
  swap; · iexact H9
  ipureintro; sl_unfold_run_names; unfold acc0_9
  exact View.read_writes_eq_canon _ _ _ (cover_unit0 hz2_0 _ _ _)

set_option maxHeartbeats 1000000 in
/-- THE LAST POINT: the accumulators, at `s8`, `s9`, are added to and copied into the two statistics outputs' buffers. -/
theorem run0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x1 x2 : Vec F S5000x64 .f32) (x3 : Vec F S64x64 .f32) (x4 : Vec F S1x64 .f32) (s8 s9 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out0_4 x1 x2 x3 x4)
            ∗ owns (c : Thread nD τ) arg6 fullShare (cp0 (acc0_8 (View.ld s8 rB0) x1 x2 x3 x4)) ∗ owns (c : Thread nD τ) arg7 fullShare (cp0 (acc0_9 (View.ld s9 rB0) x1 x2 x3 x4))
            ∗ owns (c : Thread nD τ) arg8 fullShare (acc0_8 (View.ld s8 rB0) x1 x2 x3 x4) ∗ owns (c : Thread nD τ) arg9 fullShare (acc0_9 (View.ld s9 rB0) x1 x2 x3 x4)) -∗ K ⟨⟩))
      ⊢ wp frame (wpE (defs₀ (F := F)) Variants.none c none) E (cc0__linear_relu_stats_kernel i arg1 harg1 arg2 harg2 arg3 harg3 arg4 harg4 arg5 harg5 arg6 harg6 arg7 harg7 arg8 harg8 arg9 harg9) K := by
  simp only [cc0__linear_relu_stats_kernel_eq_skeleton]; unfold cc0__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out0_4
    exact View.read_writes_eq_canon _ _ _ (cover_unit0 hz2_0 _ _ _)
  isplitl [H6]
  · iexists _; isplitr
    swap; · iexact H6
    ipureintro; sl_unfold_run_names; unfold cp0 acc0_8
    rw [View.read_writes_eq_canon _ _ _ (cover_unit0 hz2_0 _ _ _), View.readCov_eq_canon_ld _ _ _ (cover_unit0 hz2_0 _ _ _)]
    rfl
  isplitl [H7]
  · iexists _; isplitr
    swap; · iexact H7
    ipureintro; sl_unfold_run_names; unfold cp0 acc0_9
    rw [View.read_writes_eq_canon _ _ _ (cover_unit0 hz2_0 _ _ _), View.readCov_eq_canon_ld _ _ _ (cover_unit0 hz2_0 _ _ _)]
    rfl
  isplitl [H8]
  · iexists _; isplitr
    swap; · iexact H8
    ipureintro; sl_unfold_run_names; unfold acc0_8
    exact View.read_writes_eq_canon _ _ _ (cover_unit0 hz2_0 _ _ _)
  iexists _; isplitr
  swap; · iexact H9
  ipureintro; sl_unfold_run_names; unfold acc0_9
  exact View.read_writes_eq_canon _ _ _ (cover_unit0 hz2_0 _ _ _)

/-! ## The accumulators point by point -/

/-- What the two accumulators hold AFTER the body at position `n`: zeroed at the first point and added to there, added to
    at every later point over what the point before left. -/
def scr0 (c : Dev nD) : (n : ℕ) → n < cfg0.N → Vec F S1x64 .f32 × Vec F S1x64 .f32
  | 0, hn => (acc0_8 (k0_pay2 (F := F)) (iblk0 V c 0 ⟨0, hn⟩) (iblk0 V c 1 ⟨0, hn⟩) (iblk0 V c 2 ⟨0, hn⟩) (iblk0 V c 3 ⟨0, hn⟩), acc0_9 (k0_pay3 (F := F)) (iblk0 V c 0 ⟨0, hn⟩) (iblk0 V c 1 ⟨0, hn⟩) (iblk0 V c 2 ⟨0, hn⟩) (iblk0 V c 3 ⟨0, hn⟩))
  | n + 1, hn => (acc0_8 (View.ld (scr0 c n (Nat.lt_of_succ_lt hn)).1 rB0) (iblk0 V c 0 ⟨n + 1, hn⟩) (iblk0 V c 1 ⟨n + 1, hn⟩) (iblk0 V c 2 ⟨n + 1, hn⟩) (iblk0 V c 3 ⟨n + 1, hn⟩),
      acc0_9 (View.ld (scr0 c n (Nat.lt_of_succ_lt hn)).2 rB0) (iblk0 V c 0 ⟨n + 1, hn⟩) (iblk0 V c 1 ⟨n + 1, hn⟩) (iblk0 V c 2 ⟨n + 1, hn⟩) (iblk0 V c 3 ⟨n + 1, hn⟩))

theorem scr0_zero (c : Dev nD) (t : Fin cfg0.N) (h0 : t.val = 0) :
    scr0 V c t.val t.isLt = (acc0_8 (k0_pay2 (F := F)) (iblk0 V c 0 t) (iblk0 V c 1 t) (iblk0 V c 2 t) (iblk0 V c 3 t), acc0_9 (k0_pay3 (F := F)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem scr0_pos (c : Dev nD) (t : Fin cfg0.N) (h0 : ¬t.val = 0) :
    scr0 V c t.val t.isLt = (acc0_8 (View.ld (scr0 V c (t.val - 1) (Nat.lt_of_le_of_lt (Nat.sub_le _ _) t.isLt)).1 rB0) (iblk0 V c 0 t) (iblk0 V c 1 t) (iblk0 V c 2 t) (iblk0 V c 3 t),
      acc0_9 (View.ld (scr0 V c (t.val - 1) (Nat.lt_of_le_of_lt (Nat.sub_le _ _) t.isLt)).2 rB0) (iblk0 V c 0 t) (iblk0 V c 1 t) (iblk0 V c 2 t) (iblk0 V c 3 t)) := by
  obtain ⟨n, hn⟩ := t
  cases n with
  | zero => exact absurd rfl h0
  | succ n => exact rfl

/-! ## The region invariant -/

/-- The scratch operands: whole scoped buffers of the kernel's own, passed beside the windows. -/
abbrev scM0_8 : Memref sig .tc .vmem S1x64 .f32 := Memref.whole cc0_scratch0
abbrev scM0_9 : Memref sig .tc .vmem S1x64 .f32 := Memref.whole cc0_scratch1

/-- The class invariant with the two scratch operands as memrefs owned at some contents, the rest of the scoped rest unopened. -/
theorem PhiA0_eq (c : Dev nD) :
    (Pipeline.ΦA spec0 c : sProp 𝕄)
      = iprop(iprop(iprop((∃ d, owns (c : Thread nD τ) scM0_8 fullShare d) ∗ (∃ d, owns (c : Thread nD τ) scM0_9 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_8, scM0_9, owns_whole]; try rfl

/-- The region invariant before position `n`: before the first point the class's (every scratch at anything); afterwards the
    two accumulators at what the point before left in them, the rest of the scoped rest and the generator register. -/
def PhiS0 (c : Dev nD) : (n : ℕ) → n ≤ cfg0.N → sProp 𝕄
  | 0, _ => Pipeline.ΦA spec0 c
  | n + 1, hn => iprop(iprop(iprop(owns (c : Thread nD τ) scM0_8 fullShare (scr0 V c n hn).1 ∗ owns (c : Thread nD τ) scM0_9 fullShare (scr0 V c n hn).2) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_8 fullShare (scr0 V c n hn).1 ∗ owns (c : Thread nD τ) scM0_9 fullShare (scr0 V c n hn).2) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_8 fullShare (scr0 V c (n - 1) (by omega)).1 ∗ owns (c : Thread nD τ) scM0_9 fullShare (scr0 V c (n - 1) (by omega)).2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them (`V`); after the body at point `t` each
    input's buffer at its block, the first output's at `out0_4` of the input blocks, the two statistics outputs' at the
    copies of the accumulators (read at the last point only); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => cp0 (scr0 V c t.val t.isLt).1
    | ⟨6, _⟩ => cp0 (scr0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = cp0 (scr0 V c t.val t.isLt).1 := by dsimp only [dat0]
theorem after0_6 (c : Dev nD) (t : Fin cfg0.N) : (dat0 V c).after 6 t = cp0 (scr0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Where the windows are idle (the printed configuration's table) -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the closed forms say which of the three cases the point is
    in; the invariant hands the body the accumulators at what the point before left (at anything at the first point) and
    takes them back at this point's contents; a statistics output is handed back untouched except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  have hN : t.val < 20 := lt_of_lt_of_eq t.isLt (show cfg0.N = 20 from N_0)
  by_cases h0 : t.val = 0
  · have h1 : ¬t.val = 19 := by omega
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [scr0_zero V c t h0]; dsimp only
    rw [PhiS0_castSucc V c t, PhiS0_zero V c _ _ h0, PhiA0_eq]
    iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 Hrest Hg]
    · isplitl [HS8 HS9 Hrest]
      · isplitl [HS8 HS9]
        · isplitl [HS8]; · iexact HS8
          iexact HS9
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 19
    · rw [show (dat0 V c).leavesExact 5 t = owns (c : Thread nD τ) (st0_5 t) fullShare ((dat0 V c).after 5 t) from by
        unfold Dat.leavesExact; rw [liveAt0_5 t ((hcond0_1 t).mpr h1)], after0_5]
      rw [show (dat0 V c).leavesExact 6 t = owns (c : Thread nD τ) (st0_6 t) fullShare ((dat0 V c).after 6 t) from by
        unfold Dat.leavesExact; rw [liveAt0_6 t ((hcond0_1 t).mpr h1)], after0_6]
      rw [scr0_pos V c t h0]; dsimp only
      rw [PhiS0_castSucc V c t, PhiS0_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [scr0_pos V c t h0]; dsimp only
      rw [PhiS0_castSucc V c t, PhiS0_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region — the generator register and the scoped rest — is the invariant before the first point. -/
theorem hin0 (c : Dev nD) : (iprop((∃ r, prngReg c r) ∗ Pipeline.scopedRest (Ix := Unit) (Name := ℕ) (U := UR sig nD τ) (Lvl := ℕ) (Val := Elt F) spec0 c) : sProp 𝕄) ⊢ (dat0 V c).Φ 0 := by
  rw [show (dat0 V c).Φ 0 = PhiS0 V c 0 (Nat.zero_le _) from rfl, PhiS0_zero V c 0 _ rfl]; unfold Pipeline.ΦA
  iintro ⟨Hp, Hr⟩
  isplitl [Hr]; · iexact Hr
  iexact Hp

/-- After the last point the invariant gives them back: the accumulators' named contents are forgotten. -/
theorem hout0 (c : Dev nD) : (dat0 V c).Φ (Fin.last cfg0.N) ⊢ (iprop((∃ r, prngReg c r) ∗ Pipeline.scopedRest (Ix := Unit) (Name := ℕ) (U := UR sig nD τ) (Lvl := ℕ) (Val := Elt F) spec0 c) : sProp 𝕄) := by
  have hA := PhiA0_eq (F := F) c
  unfold Pipeline.ΦA at hA
  have hne : (Fin.last cfg0.N).val ≠ 0 := by rw [Fin.val_last]; have : cfg0.N = 20 := N_0; omega
  rw [show (dat0 V c).Φ (Fin.last cfg0.N) = PhiS0 V c (Fin.last cfg0.N).val (Nat.le_of_lt_succ (Fin.last cfg0.N).isLt) from rfl, PhiS0_pos V c _ _ hne]
  iintro ⟨⟨⟨HS8, HS9⟩, Hrest⟩, Hg⟩
  isplitl [Hg]; · iexact Hg
  have hsplit : (iprop(iprop((∃ d, owns (c : Thread nD τ) scM0_8 fullShare d) ∗ (∃ d, owns (c : Thread nD τ) scM0_9 fullShare d)) ∗ Pipeline.scopedRestBut (Ix := Unit) (Name := ℕ) (U := UR sig nD τ) (Lvl := ℕ) (Val := Elt F) spec0 c [cc0_scratch0, cc0_scratch1]) : sProp 𝕄)
      ⊢ Pipeline.scopedRest (Ix := Unit) (Name := ℕ) (U := UR sig nD τ) (Lvl := ℕ) (Val := Elt F) spec0 c := by
    rw [scopedRest0_split]; simp only [scM0_8, scM0_9, owns_whole]; exact Idealize.SL.BI.Entails.refl _
  iapply hsplit
  isplitl [HS8 HS9]
  · isplitl [HS8]; · iexists _; iexact HS8
    iexists _; iexact HS9
  iexact Hrest

end Cert.KernelIdeal.Hand
end
-- ==== Proof.KI.R1.lean ====
/- The normalisation kernel of region 1 (custom_call 1, pipeline 1), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.KernelIdeal.Launch
import proofs.«128301_j8701603742430_2_alg».proof.Proof.Gen.KernelIdeal.Skeleton
import proofs.«128301_j8701603742430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 1: \`cc1__bn_normalize_kernel\` (pipeline 1), at the entry contents \`V\` -/

/-! ## The windows' blocks -/

/-- Window \`w\`'s block at point \`t\`, read off its array as the region finds it (\`V\`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved, and the body leaves the block in place). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a row of 64 lanes, and the whole of a block of 5000 rows: the only rectangles the body names. -/
abbrev r1_row : Rect S1x64 := Rect.unit (s := S1x64) ![0, 0] S1x64.size inb_S1x64_S1x64_0_0
abbrev r1_blk : Rect S5000x64 := Rect.unit (s := S5000x64) ![0, 0] S5000x64.size inb_S5000x64_S5000x64_0_0

/-! ## What the body leaves in the output window's buffer -/

/-- Window 5's staging buffer after the body, from the input windows' blocks: its one store, of the normalised
    block, over the whole buffer. -/
def out1_5 (x0 : Vec F S5000x64 .f32) (x1 x2 x3 x4 : Vec F S1x64 .f32) : Vec F S5000x64 .f32 :=
  View.canon [⟨r1_blk, k1_pay1 (View.ld x1 r1_row) (View.ld x2 r1_row) (View.ld x0 r1_blk) (View.ld x3 r1_row) (View.ld x4 r1_row)⟩]

/-- The store is of the whole buffer, so it covers it. -/
theorem cover1_5 (p0 : Vec F S5000x64 .f32) (y : S5000x64.Idx) :
    ∃ pc ∈ ([⟨r1_blk, p0⟩] : List (View.Piece (Elt F) S5000x64 .f32)), y ∈ pc.1.set :=
  View.cover_of_tiled [⟨r1_blk, p0⟩] S5000x64.size (by rfl) y

/-! ## The body's triple -/

set_option maxHeartbeats 1000000 in
/-- The kernel body on whole staging memrefs, the inputs' at read contents \`xW\` and the output's at anything, runs to
    the continuation holding the inputs' as they were and the output's at \`out1_5\` of the inputs'. The body also loads
    the output's buffer before it stores all of it; what it loads there is used nowhere. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_normalize_kernel i arg1 harg1 arg2 harg2 arg3 harg3 arg4 harg4 arg5 harg5 arg6 harg6) K := by
  simp only [cc1__bn_normalize_kernel_eq_skeleton]; unfold cc1__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core \`c\`: the arrays as the region finds them (\`V\`); after the body at
    point \`t\` each input's buffer at its block and the output's at \`out1_5\` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point \`t\`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (\`before1_W\`), so \`sound_kernel1\` applies; the
    invariant and the core's \`owes\` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- Entering: the generator register and the scoped rest are the invariant. -/
theorem hin1 (c : Dev nD) :
    iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Pipeline.ΦA spec1 c from rfl]; unfold Pipeline.ΦA
  iintro ⟨Hp, Hr⟩
  isplitl [Hr]; · iexact Hr
  iexact Hp

/-- Leaving: the invariant gives both back. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last _) = Pipeline.ΦA spec1 c from rfl]; unfold Pipeline.ΦA
  iintro ⟨Hr, Hp⟩
  isplitl [Hp]; · iexact Hp
  iexact Hr

end Regions
end Cert.KernelIdeal.Hand
-- ==== Proof.KI.R2.lean ====
import proofs.«128301_j8701603742430_2_alg».proof.Proof.Gen.KernelIdeal.Launch
import proofs.«128301_j8701603742430_2_alg».proof.Proof.Gen.KernelIdeal.Skeleton
import proofs.«128301_j8701603742430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2 of @main: custom_call 2, the linear + relu + column statistics kernel, at the entry contents `V` -/

/-- The zero offsets of a rank-2 rectangle are the constant zero. -/
theorem hz2_2 : (![0, 0] : Fin 2 → ℕ) = fun _ => 0 := by
  funext a; fin_cases a <;> rfl

/-- A list of pieces whose head is a store through the whole-shape rectangle covers the shape. -/
theorem cover_unit2 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is through the whole staging buffer -/

abbrev rA2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-! ## What the body leaves -/

/-- The block of the first output (the rectified affine map of the two input blocks) after the body. -/
def out2_4 (x1 x2 : Vec F S5000x64 .f32) (x3 : Vec F S64x64 .f32) (x4 : Vec F S1x64 .f32) : Vec F S5000x64 .f32 :=
  View.canon [⟨rA2, k2_pay4 (View.ld x1 rA2) (View.ld x2 rA2) (View.ld x3 rW2) (View.ld x4 rB2)⟩]

/-- The first accumulator after the body, from the value `v` the body loaded from it: `v` plus the block's column sums. -/
def acc2_8 (v : FVec F S1x64 .f32) (x1 x2 : Vec F S5000x64 .f32) (x3 : Vec F S64x64 .f32) (x4 : Vec F S1x64 .f32) : Vec F S1x64 .f32 :=
  View.canon [⟨rB2, k2_pay5 (View.ld x1 rA2) (View.ld x2 rA2) (View.ld x3 rW2) (View.ld x4 rB2) v⟩]

/-- The second accumulator after the body, from the value `v` the body loaded from it: `v` plus the block's column sums of squares. -/
def acc2_9 (v : FVec F S1x64 .f32) (x1 x2 : Vec F S5000x64 .f32) (x3 : Vec F S64x64 .f32) (x4 : Vec F S1x64 .f32) : Vec F S1x64 .f32 :=
  View.canon [⟨rB2, k2_pay1 (k2_pay6 (View.ld x1 rA2) (View.ld x2 rA2) (View.ld x3 rW2) (View.ld x4 rB2) v)⟩]

/-- An accumulator copied into its output's buffer (at the last point). -/
def cp2 (a : Vec F S1x64 .f32) : Vec F S1x64 .f32 :=
  View.canon [⟨rB2, View.ld a rB2⟩]

/-! ## The body's branch conditions, in closed form over the grid -/

/-- The condition of the body's first conditional (the accumulators are zeroed), from the grid coordinates. -/
abbrev cond2_0 (i : grid2.Coords) : Prop := (Scalar.cmpi .ne (Scalar.extui (Scalar.cmpi .eq (BitVec.ofNat 32 (i 0).val) 0#32)) 0#32) = 1#1
/-- The condition of its second (the accumulators are copied out). -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 19 :=
  (by decide +kernel : ∀ t : Fin grid2.N, cond2_1 (grid2.coords t) ↔ t.val = 19)

/-! ## The body's triple, in each of the three cases the grid meets -/

set_option maxHeartbeats 1000000 in
/-- FIRST POINT: the accumulators, at anything, are zeroed and then added to; the two statistics outputs are untouched. -/
theorem run2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond2_0 i) (hc1 : ¬cond2_1 i)
    (x1 x2 : Vec F S5000x64 .f32) (x3 : Vec F S64x64 .f32) (x4 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_4 x1 x2 x3 x4) ∗ owns (c : Thread nD τ) arg6 fullShare xi6 ∗ owns (c : Thread nD τ) arg7 fullShare xi7
            ∗ owns (c : Thread nD τ) arg8 fullShare (acc2_8 (k2_pay2 (F := F)) x1 x2 x3 x4) ∗ owns (c : Thread nD τ) arg9 fullShare (acc2_9 (k2_pay3 (F := F)) x1 x2 x3 x4)) -∗ K ⟨⟩))
      ⊢ wp frame (wpE (defs₀ (F := F)) Variants.none c none) E (cc2__linear_relu_stats_kernel i arg1 harg1 arg2 harg2 arg3 harg3 arg4 harg4 arg5 harg5 arg6 harg6 arg7 harg7 arg8 harg8 arg9 harg9) K := by
  simp only [cc2__linear_relu_stats_kernel_eq_skeleton]; unfold cc2__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
  subst hf1; subst hf2; subst hf3; subst hf4; subst hf6; subst hf7
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out2_4
    exact View.read_writes_eq_canon _ _ _ (cover_unit2 hz2_2 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc2_8
    rw [View.read_writes_eq_canon _ _ _ (cover_unit2 hz2_2 _ _ _), View.canon_cons_unit_zero hz2_2, View.canon_unit_zero hz2_2, View.readCov_unit_zero _ hz2_2]
    rfl
  iexists _; isplitr
  swap; · iexact H9
  ipureintro; sl_unfold_run_names; unfold acc2_9
  rw [View.read_writes_eq_canon _ _ _ (cover_unit2 hz2_2 _ _ _), View.canon_cons_unit_zero hz2_2, View.canon_unit_zero hz2_2, View.readCov_unit_zero _ hz2_2]
  rfl

set_option maxHeartbeats 1000000 in
/-- A MIDDLE POINT: the accumulators, at `s8`, `s9`, are added to; the two statistics outputs are untouched. -/
theorem run2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : ¬cond2_1 i)
    (x1 x2 : Vec F S5000x64 .f32) (x3 : Vec F S64x64 .f32) (x4 : Vec F S1x64 .f32) (s8 s9 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_4 x1 x2 x3 x4) ∗ owns (c : Thread nD τ) arg6 fullShare xi6 ∗ owns (c : Thread nD τ) arg7 fullShare xi7
            ∗ owns (c : Thread nD τ) arg8 fullShare (acc2_8 (View.ld s8 rB2) x1 x2 x3 x4) ∗ owns (c : Thread nD τ) arg9 fullShare (acc2_9 (View.ld s9 rB2) x1 x2 x3 x4)) -∗ K ⟨⟩))
      ⊢ wp frame (wpE (defs₀ (F := F)) Variants.none c none) E (cc2__linear_relu_stats_kernel i arg1 harg1 arg2 harg2 arg3 harg3 arg4 harg4 arg5 harg5 arg6 harg6 arg7 harg7 arg8 harg8 arg9 harg9) K := by
  simp only [cc2__linear_relu_stats_kernel_eq_skeleton]; unfold cc2__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  subst hf1; subst hf2; subst hf3; subst hf4; subst hf6; subst hf7; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out2_4
    exact View.read_writes_eq_canon _ _ _ (cover_unit2 hz2_2 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc2_8
    exact View.read_writes_eq_canon _ _ _ (cover_unit2 hz2_2 _ _ _)
  iexists _; isplitr
  swap; · iexact H9
  ipureintro; sl_unfold_run_names; unfold acc2_9
  exact View.read_writes_eq_canon _ _ _ (cover_unit2 hz2_2 _ _ _)

set_option maxHeartbeats 1000000 in
/-- THE LAST POINT: the accumulators, at `s8`, `s9`, are added to and copied into the two statistics outputs' buffers. -/
theorem run2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i) (hc1 : cond2_1 i)
    (x1 x2 : Vec F S5000x64 .f32) (x3 : Vec F S64x64 .f32) (x4 : Vec F S1x64 .f32) (s8 s9 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_4 x1 x2 x3 x4)
            ∗ owns (c : Thread nD τ) arg6 fullShare (cp2 (acc2_8 (View.ld s8 rB2) x1 x2 x3 x4)) ∗ owns (c : Thread nD τ) arg7 fullShare (cp2 (acc2_9 (View.ld s9 rB2) x1 x2 x3 x4))
            ∗ owns (c : Thread nD τ) arg8 fullShare (acc2_8 (View.ld s8 rB2) x1 x2 x3 x4) ∗ owns (c : Thread nD τ) arg9 fullShare (acc2_9 (View.ld s9 rB2) x1 x2 x3 x4)) -∗ K ⟨⟩))
      ⊢ wp frame (wpE (defs₀ (F := F)) Variants.none c none) E (cc2__linear_relu_stats_kernel i arg1 harg1 arg2 harg2 arg3 harg3 arg4 harg4 arg5 harg5 arg6 harg6 arg7 harg7 arg8 harg8 arg9 harg9) K := by
  simp only [cc2__linear_relu_stats_kernel_eq_skeleton]; unfold cc2__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out2_4
    exact View.read_writes_eq_canon _ _ _ (cover_unit2 hz2_2 _ _ _)
  isplitl [H6]
  · iexists _; isplitr
    swap; · iexact H6
    ipureintro; sl_unfold_run_names; unfold cp2 acc2_8
    rw [View.read_writes_eq_canon _ _ _ (cover_unit2 hz2_2 _ _ _), View.readCov_eq_canon_ld _ _ _ (cover_unit2 hz2_2 _ _ _)]
    rfl
  isplitl [H7]
  · iexists _; isplitr
    swap; · iexact H7
    ipureintro; sl_unfold_run_names; unfold cp2 acc2_9
    rw [View.read_writes_eq_canon _ _ _ (cover_unit2 hz2_2 _ _ _), View.readCov_eq_canon_ld _ _ _ (cover_unit2 hz2_2 _ _ _)]
    rfl
  isplitl [H8]
  · iexists _; isplitr
    swap; · iexact H8
    ipureintro; sl_unfold_run_names; unfold acc2_8
    exact View.read_writes_eq_canon _ _ _ (cover_unit2 hz2_2 _ _ _)
  iexists _; isplitr
  swap; · iexact H9
  ipureintro; sl_unfold_run_names; unfold acc2_9
  exact View.read_writes_eq_canon _ _ _ (cover_unit2 hz2_2 _ _ _)

/-! ## The accumulators point by point -/

/-- What the two accumulators hold AFTER the body at position `n`: zeroed at the first point and added to there, added to
    at every later point over what the point before left. -/
def scr2 (c : Dev nD) : (n : ℕ) → n < cfg2.N → Vec F S1x64 .f32 × Vec F S1x64 .f32
  | 0, hn => (acc2_8 (k2_pay2 (F := F)) (iblk2 V c 0 ⟨0, hn⟩) (iblk2 V c 1 ⟨0, hn⟩) (iblk2 V c 2 ⟨0, hn⟩) (iblk2 V c 3 ⟨0, hn⟩), acc2_9 (k2_pay3 (F := F)) (iblk2 V c 0 ⟨0, hn⟩) (iblk2 V c 1 ⟨0, hn⟩) (iblk2 V c 2 ⟨0, hn⟩) (iblk2 V c 3 ⟨0, hn⟩))
  | n + 1, hn => (acc2_8 (View.ld (scr2 c n (Nat.lt_of_succ_lt hn)).1 rB2) (iblk2 V c 0 ⟨n + 1, hn⟩) (iblk2 V c 1 ⟨n + 1, hn⟩) (iblk2 V c 2 ⟨n + 1, hn⟩) (iblk2 V c 3 ⟨n + 1, hn⟩),
      acc2_9 (View.ld (scr2 c n (Nat.lt_of_succ_lt hn)).2 rB2) (iblk2 V c 0 ⟨n + 1, hn⟩) (iblk2 V c 1 ⟨n + 1, hn⟩) (iblk2 V c 2 ⟨n + 1, hn⟩) (iblk2 V c 3 ⟨n + 1, hn⟩))

theorem scr2_zero (c : Dev nD) (t : Fin cfg2.N) (h0 : t.val = 0) :
    scr2 V c t.val t.isLt = (acc2_8 (k2_pay2 (F := F)) (iblk2 V c 0 t) (iblk2 V c 1 t) (iblk2 V c 2 t) (iblk2 V c 3 t), acc2_9 (k2_pay3 (F := F)) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem scr2_pos (c : Dev nD) (t : Fin cfg2.N) (h0 : ¬t.val = 0) :
    scr2 V c t.val t.isLt = (acc2_8 (View.ld (scr2 V c (t.val - 1) (Nat.lt_of_le_of_lt (Nat.sub_le _ _) t.isLt)).1 rB2) (iblk2 V c 0 t) (iblk2 V c 1 t) (iblk2 V c 2 t) (iblk2 V c 3 t),
      acc2_9 (View.ld (scr2 V c (t.val - 1) (Nat.lt_of_le_of_lt (Nat.sub_le _ _) t.isLt)).2 rB2) (iblk2 V c 0 t) (iblk2 V c 1 t) (iblk2 V c 2 t) (iblk2 V c 3 t)) := by
  obtain ⟨n, hn⟩ := t
  cases n with
  | zero => exact absurd rfl h0
  | succ n => exact rfl

/-! ## The region invariant -/

/-- The scratch operands: whole scoped buffers of the kernel's own, passed beside the windows. -/
abbrev scM2_8 : Memref sig .tc .vmem S1x64 .f32 := Memref.whole cc2_scratch0
abbrev scM2_9 : Memref sig .tc .vmem S1x64 .f32 := Memref.whole cc2_scratch1

/-- The class invariant with the two scratch operands as memrefs owned at some contents, the rest of the scoped rest unopened. -/
theorem PhiA2_eq (c : Dev nD) :
    (Pipeline.ΦA spec2 c : sProp 𝕄)
      = iprop(iprop(iprop((∃ d, owns (c : Thread nD τ) scM2_8 fullShare d) ∗ (∃ d, owns (c : Thread nD τ) scM2_9 fullShare d)) ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_8, scM2_9, owns_whole]; try rfl

/-- The region invariant before position `n`: before the first point the class's (every scratch at anything); afterwards the
    two accumulators at what the point before left in them, the rest of the scoped rest and the generator register. -/
def PhiS2 (c : Dev nD) : (n : ℕ) → n ≤ cfg2.N → sProp 𝕄
  | 0, _ => Pipeline.ΦA spec2 c
  | n + 1, hn => iprop(iprop(iprop(owns (c : Thread nD τ) scM2_8 fullShare (scr2 V c n hn).1 ∗ owns (c : Thread nD τ) scM2_9 fullShare (scr2 V c n hn).2) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_8 fullShare (scr2 V c n hn).1 ∗ owns (c : Thread nD τ) scM2_9 fullShare (scr2 V c n hn).2) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_8 fullShare (scr2 V c (n - 1) (by omega)).1 ∗ owns (c : Thread nD τ) scM2_9 fullShare (scr2 V c (n - 1) (by omega)).2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them (`V`); after the body at point `t` each
    input's buffer at its block, the first output's at `out2_4` of the input blocks, the two statistics outputs' at the
    copies of the accumulators (read at the last point only); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => cp2 (scr2 V c t.val t.isLt).1
    | ⟨6, _⟩ => cp2 (scr2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = cp2 (scr2 V c t.val t.isLt).1 := by dsimp only [dat2]
theorem after2_6 (c : Dev nD) (t : Fin cfg2.N) : (dat2 V c).after 6 t = cp2 (scr2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## Where the windows are idle (the printed configuration's table) -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which of the three cases the point is
    in; the invariant hands the body the accumulators at what the point before left (at anything at the first point) and
    takes them back at this point's contents; a statistics output is handed back untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  have hN : t.val < 20 := lt_of_lt_of_eq t.isLt (show cfg2.N = 20 from N_2)
  by_cases h0 : t.val = 0
  · have h1 : ¬t.val = 19 := by omega
    rw [Dat.leavesExact_idle (dat2 V c) 5 t (idleAt2_5 t (fun h => h1 ((hcond2_1 t).mp h))) (noFlush2_5 t (fun h => h1 ((hcond2_1 t).mp h)))]
    rw [Dat.leavesExact_idle (dat2 V c) 6 t (idleAt2_6 t (fun h => h1 ((hcond2_1 t).mp h))) (noFlush2_6 t (fun h => h1 ((hcond2_1 t).mp h)))]
    rw [scr2_zero V c t h0]; dsimp only
    rw [PhiS2_castSucc V c t, PhiS2_zero V c _ _ h0, PhiA2_eq]
    iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 Hrest Hg]
    · isplitl [HS8 HS9 Hrest]
      · isplitl [HS8 HS9]
        · isplitl [HS8]; · iexact HS8
          iexact HS9
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 19
    · rw [show (dat2 V c).leavesExact 5 t = owns (c : Thread nD τ) (st2_5 t) fullShare ((dat2 V c).after 5 t) from by
        unfold Dat.leavesExact; rw [liveAt2_5 t ((hcond2_1 t).mpr h1)], after2_5]
      rw [show (dat2 V c).leavesExact 6 t = owns (c : Thread nD τ) (st2_6 t) fullShare ((dat2 V c).after 6 t) from by
        unfold Dat.leavesExact; rw [liveAt2_6 t ((hcond2_1 t).mpr h1)], after2_6]
      rw [scr2_pos V c t h0]; dsimp only
      rw [PhiS2_castSucc V c t, PhiS2_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 5 t (idleAt2_5 t (fun h => h1 ((hcond2_1 t).mp h))) (noFlush2_5 t (fun h => h1 ((hcond2_1 t).mp h)))]
      rw [Dat.leavesExact_idle (dat2 V c) 6 t (idleAt2_6 t (fun h => h1 ((hcond2_1 t).mp h))) (noFlush2_6 t (fun h => h1 ((hcond2_1 t).mp h)))]
      rw [scr2_pos V c t h0]; dsimp only
      rw [PhiS2_castSucc V c t, PhiS2_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region — the generator register and the scoped rest — is the invariant before the first point. -/
theorem hin2 (c : Dev nD) : (iprop((∃ r, prngReg c r) ∗ Pipeline.scopedRest (Ix := Unit) (Name := ℕ) (U := UR sig nD τ) (Lvl := ℕ) (Val := Elt F) spec2 c) : sProp 𝕄) ⊢ (dat2 V c).Φ 0 := by
  rw [show (dat2 V c).Φ 0 = PhiS2 V c 0 (Nat.zero_le _) from rfl, PhiS2_zero V c 0 _ rfl]; unfold Pipeline.ΦA
  iintro ⟨Hp, Hr⟩
  isplitl [Hr]; · iexact Hr
  iexact Hp

/-- After the last point the invariant gives them back: the accumulators' named contents are forgotten. -/
theorem hout2 (c : Dev nD) : (dat2 V c).Φ (Fin.last cfg2.N) ⊢ (iprop((∃ r, prngReg c r) ∗ Pipeline.scopedRest (Ix := Unit) (Name := ℕ) (U := UR sig nD τ) (Lvl := ℕ) (Val := Elt F) spec2 c) : sProp 𝕄) := by
  have hA := PhiA2_eq (F := F) c
  unfold Pipeline.ΦA at hA
  have hne : (Fin.last cfg2.N).val ≠ 0 := by rw [Fin.val_last]; have : cfg2.N = 20 := N_2; omega
  rw [show (dat2 V c).Φ (Fin.last cfg2.N) = PhiS2 V c (Fin.last cfg2.N).val (Nat.le_of_lt_succ (Fin.last cfg2.N).isLt) from rfl, PhiS2_pos V c _ _ hne]
  iintro ⟨⟨⟨HS8, HS9⟩, Hrest⟩, Hg⟩
  isplitl [Hg]; · iexact Hg
  have hsplit : (iprop(iprop((∃ d, owns (c : Thread nD τ) scM2_8 fullShare d) ∗ (∃ d, owns (c : Thread nD τ) scM2_9 fullShare d)) ∗ Pipeline.scopedRestBut (Ix := Unit) (Name := ℕ) (U := UR sig nD τ) (Lvl := ℕ) (Val := Elt F) spec2 c [cc2_scratch0, cc2_scratch1]) : sProp 𝕄)
      ⊢ Pipeline.scopedRest (Ix := Unit) (Name := ℕ) (U := UR sig nD τ) (Lvl := ℕ) (Val := Elt F) spec2 c := by
    rw [scopedRest2_split]; simp only [scM2_8, scM2_9, owns_whole]; exact Idealize.SL.BI.Entails.refl _
  iapply hsplit
  isplitl [HS8 HS9]
  · isplitl [HS8]; · iexists _; iexact HS8
    iexists _; iexact HS9
  iexact Hrest

end Cert.KernelIdeal.Hand
end
-- ==== Proof.KI.R3.lean ====
/- The normalisation kernel of region 3 (custom_call 3, pipeline 3), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.KernelIdeal.Launch
import proofs.«128301_j8701603742430_2_alg».proof.Proof.Gen.KernelIdeal.Skeleton
import proofs.«128301_j8701603742430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 3: \`cc3__bn_normalize_kernel\` (pipeline 3), at the entry contents \`V\` -/

/-! ## The windows' blocks -/

/-- Window \`w\`'s block at point \`t\`, read off its array as the region finds it (\`V\`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (an unfetched
    window's block index has not moved, and the body leaves the block in place). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of a row of 64 lanes, and the whole of a block of 5000 rows: the only rectangles the body names. -/
abbrev r3_row : Rect S1x64 := Rect.unit (s := S1x64) ![0, 0] S1x64.size inb_S1x64_S1x64_0_0
abbrev r3_blk : Rect S5000x64 := Rect.unit (s := S5000x64) ![0, 0] S5000x64.size inb_S5000x64_S5000x64_0_0

/-! ## What the body leaves in the output window's buffer -/

/-- Window 5's staging buffer after the body, from the input windows' blocks: its one store, of the normalised
    block, over the whole buffer. -/
def out3_5 (x0 : Vec F S5000x64 .f32) (x1 x2 x3 x4 : Vec F S1x64 .f32) : Vec F S5000x64 .f32 :=
  View.canon [⟨r3_blk, k3_pay1 (View.ld x1 r3_row) (View.ld x2 r3_row) (View.ld x0 r3_blk) (View.ld x3 r3_row) (View.ld x4 r3_row)⟩]

/-- The store is of the whole buffer, so it covers it. -/
theorem cover3_5 (p0 : Vec F S5000x64 .f32) (y : S5000x64.Idx) :
    ∃ pc ∈ ([⟨r3_blk, p0⟩] : List (View.Piece (Elt F) S5000x64 .f32)), y ∈ pc.1.set :=
  View.cover_of_tiled [⟨r3_blk, p0⟩] S5000x64.size (by rfl) y

/-! ## The body's triple -/

set_option maxHeartbeats 1000000 in
/-- The kernel body on whole staging memrefs, the inputs' at read contents \`xW\` and the output's at anything, runs to
    the continuation holding the inputs' as they were and the output's at \`out3_5\` of the inputs'. The body also loads
    the output's buffer before it stores all of it; what it loads there is used nowhere. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_normalize_kernel i arg1 harg1 arg2 harg2 arg3 harg3 arg4 harg4 arg5 harg5 arg6 harg6) K := by
  simp only [cc3__bn_normalize_kernel_eq_skeleton]; unfold cc3__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core \`c\`: the arrays as the region finds them (\`V\`); after the body at
    point \`t\` each input's buffer at its block and the output's at \`out3_5\` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point \`t\`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (\`before3_W\`), so \`sound_kernel3\` applies; the
    invariant and the core's \`owes\` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- Entering: the generator register and the scoped rest are the invariant. -/
theorem hin3 (c : Dev nD) :
    iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- Leaving: the invariant gives both back. -/
theorem hout3 (c : Dev nD) :
    (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last _) = Pipeline.ΦA spec3 c from rfl]; unfold Pipeline.ΦA
  iintro ⟨Hr, Hp⟩
  isplitl [Hp]; · iexact Hp
  iexact Hr

end Regions
end Cert.KernelIdeal.Hand
-- ==== Proof.KI.R4.lean ====
import proofs.«128301_j8701603742430_2_alg».proof.Proof.Gen.KernelIdeal.Launch
import proofs.«128301_j8701603742430_2_alg».proof.Proof.Gen.KernelIdeal.Skeleton
import proofs.«128301_j8701603742430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4 of @main: custom_call 4, the linear + relu + column statistics kernel, at the entry contents `V` -/

/-- The zero offsets of a rank-2 rectangle are the constant zero. -/
theorem hz2_4 : (![0, 0] : Fin 2 → ℕ) = fun _ => 0 := by
  funext a; fin_cases a <;> rfl

/-- A list of pieces whose head is a store through the whole-shape rectangle covers the shape. -/
theorem cover_unit4 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is through the whole staging buffer -/

abbrev rA4 : Rect S5000x64 := Rect.unit (s := S5000x64) ![0, 0] S5000x64.size inb_S5000x64_S5000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0

/-! ## What the body leaves -/

/-- The block of the first output (the rectified affine map of the two input blocks) after the body. -/
def out4_4 (x1 x2 : Vec F S5000x64 .f32) (x3 : Vec F S64x64 .f32) (x4 : Vec F S1x64 .f32) : Vec F S5000x64 .f32 :=
  View.canon [⟨rA4, k4_pay4 (View.ld x1 rA4) (View.ld x2 rA4) (View.ld x3 rW4) (View.ld x4 rB4)⟩]

/-- The first accumulator after the body, from the value `v` the body loaded from it: `v` plus the block's column sums. -/
def acc4_8 (v : FVec F S1x64 .f32) (x1 x2 : Vec F S5000x64 .f32) (x3 : Vec F S64x64 .f32) (x4 : Vec F S1x64 .f32) : Vec F S1x64 .f32 :=
  View.canon [⟨rB4, k4_pay5 (View.ld x1 rA4) (View.ld x2 rA4) (View.ld x3 rW4) (View.ld x4 rB4) v⟩]

/-- The second accumulator after the body, from the value `v` the body loaded from it: `v` plus the block's column sums of squares. -/
def acc4_9 (v : FVec F S1x64 .f32) (x1 x2 : Vec F S5000x64 .f32) (x3 : Vec F S64x64 .f32) (x4 : Vec F S1x64 .f32) : Vec F S1x64 .f32 :=
  View.canon [⟨rB4, k4_pay1 (k4_pay6 (View.ld x1 rA4) (View.ld x2 rA4) (View.ld x3 rW4) (View.ld x4 rB4) v)⟩]

/-- An accumulator copied into its output's buffer (at the last point). -/
def cp4 (a : Vec F S1x64 .f32) : Vec F S1x64 .f32 :=
  View.canon [⟨rB4, View.ld a rB4⟩]

/-! ## The body's branch conditions, in closed form over the grid -/

/-- The condition of the body's first conditional (the accumulators are zeroed), from the grid coordinates. -/
abbrev cond4_0 (i : grid4.Coords) : Prop := (Scalar.cmpi .ne (Scalar.extui (Scalar.cmpi .eq (BitVec.ofNat 32 (i 0).val) 0#32)) 0#32) = 1#1
/-- The condition of its second (the accumulators are copied out). -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 19 :=
  (by decide +kernel : ∀ t : Fin grid4.N, cond4_1 (grid4.coords t) ↔ t.val = 19)

/-! ## The body's triple, in each of the three cases the grid meets -/

set_option maxHeartbeats 1000000 in
/-- FIRST POINT: the accumulators, at anything, are zeroed and then added to; the two statistics outputs are untouched. -/
theorem run4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x1 x2 : Vec F S5000x64 .f32) (x3 : Vec F S64x64 .f32) (x4 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out4_4 x1 x2 x3 x4) ∗ owns (c : Thread nD τ) arg6 fullShare xi6 ∗ owns (c : Thread nD τ) arg7 fullShare xi7
            ∗ owns (c : Thread nD τ) arg8 fullShare (acc4_8 (k4_pay2 (F := F)) x1 x2 x3 x4) ∗ owns (c : Thread nD τ) arg9 fullShare (acc4_9 (k4_pay3 (F := F)) x1 x2 x3 x4)) -∗ K ⟨⟩))
      ⊢ wp frame (wpE (defs₀ (F := F)) Variants.none c none) E (cc4__linear_relu_stats_kernel i arg1 harg1 arg2 harg2 arg3 harg3 arg4 harg4 arg5 harg5 arg6 harg6 arg7 harg7 arg8 harg8 arg9 harg9) K := by
  simp only [cc4__linear_relu_stats_kernel_eq_skeleton]; unfold cc4__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
  subst hf1; subst hf2; subst hf3; subst hf4; subst hf6; subst hf7
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out4_4
    exact View.read_writes_eq_canon _ _ _ (cover_unit4 hz2_4 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc4_8
    rw [View.read_writes_eq_canon _ _ _ (cover_unit4 hz2_4 _ _ _), View.canon_cons_unit_zero hz2_4, View.canon_unit_zero hz2_4, View.readCov_unit_zero _ hz2_4]
    rfl
  iexists _; isplitr
  swap; · iexact H9
  ipureintro; sl_unfold_run_names; unfold acc4_9
  rw [View.read_writes_eq_canon _ _ _ (cover_unit4 hz2_4 _ _ _), View.canon_cons_unit_zero hz2_4, View.canon_unit_zero hz2_4, View.readCov_unit_zero _ hz2_4]
  rfl

set_option maxHeartbeats 1000000 in
/-- A MIDDLE POINT: the accumulators, at `s8`, `s9`, are added to; the two statistics outputs are untouched. -/
theorem run4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x1 x2 : Vec F S5000x64 .f32) (x3 : Vec F S64x64 .f32) (x4 : Vec F S1x64 .f32) (s8 s9 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out4_4 x1 x2 x3 x4) ∗ owns (c : Thread nD τ) arg6 fullShare xi6 ∗ owns (c : Thread nD τ) arg7 fullShare xi7
            ∗ owns (c : Thread nD τ) arg8 fullShare (acc4_8 (View.ld s8 rB4) x1 x2 x3 x4) ∗ owns (c : Thread nD τ) arg9 fullShare (acc4_9 (View.ld s9 rB4) x1 x2 x3 x4)) -∗ K ⟨⟩))
      ⊢ wp frame (wpE (defs₀ (F := F)) Variants.none c none) E (cc4__linear_relu_stats_kernel i arg1 harg1 arg2 harg2 arg3 harg3 arg4 harg4 arg5 harg5 arg6 harg6 arg7 harg7 arg8 harg8 arg9 harg9) K := by
  simp only [cc4__linear_relu_stats_kernel_eq_skeleton]; unfold cc4__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  subst hf1; subst hf2; subst hf3; subst hf4; subst hf6; subst hf7; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out4_4
    exact View.read_writes_eq_canon _ _ _ (cover_unit4 hz2_4 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc4_8
    exact View.read_writes_eq_canon _ _ _ (cover_unit4 hz2_4 _ _ _)
  iexists _; isplitr
  swap; · iexact H9
  ipureintro; sl_unfold_run_names; unfold acc4_9
  exact View.read_writes_eq_canon _ _ _ (cover_unit4 hz2_4 _ _ _)

set_option maxHeartbeats 1000000 in
/-- THE LAST POINT: the accumulators, at `s8`, `s9`, are added to and copied into the two statistics outputs' buffers. -/
theorem run4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x1 x2 : Vec F S5000x64 .f32) (x3 : Vec F S64x64 .f32) (x4 : Vec F S1x64 .f32) (s8 s9 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out4_4 x1 x2 x3 x4)
            ∗ owns (c : Thread nD τ) arg6 fullShare (cp4 (acc4_8 (View.ld s8 rB4) x1 x2 x3 x4)) ∗ owns (c : Thread nD τ) arg7 fullShare (cp4 (acc4_9 (View.ld s9 rB4) x1 x2 x3 x4))
            ∗ owns (c : Thread nD τ) arg8 fullShare (acc4_8 (View.ld s8 rB4) x1 x2 x3 x4) ∗ owns (c : Thread nD τ) arg9 fullShare (acc4_9 (View.ld s9 rB4) x1 x2 x3 x4)) -∗ K ⟨⟩))
      ⊢ wp frame (wpE (defs₀ (F := F)) Variants.none c none) E (cc4__linear_relu_stats_kernel i arg1 harg1 arg2 harg2 arg3 harg3 arg4 harg4 arg5 harg5 arg6 harg6 arg7 harg7 arg8 harg8 arg9 harg9) K := by
  simp only [cc4__linear_relu_stats_kernel_eq_skeleton]; unfold cc4__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out4_4
    exact View.read_writes_eq_canon _ _ _ (cover_unit4 hz2_4 _ _ _)
  isplitl [H6]
  · iexists _; isplitr
    swap; · iexact H6
    ipureintro; sl_unfold_run_names; unfold cp4 acc4_8
    rw [View.read_writes_eq_canon _ _ _ (cover_unit4 hz2_4 _ _ _), View.readCov_eq_canon_ld _ _ _ (cover_unit4 hz2_4 _ _ _)]
    rfl
  isplitl [H7]
  · iexists _; isplitr
    swap; · iexact H7
    ipureintro; sl_unfold_run_names; unfold cp4 acc4_9
    rw [View.read_writes_eq_canon _ _ _ (cover_unit4 hz2_4 _ _ _), View.readCov_eq_canon_ld _ _ _ (cover_unit4 hz2_4 _ _ _)]
    rfl
  isplitl [H8]
  · iexists _; isplitr
    swap; · iexact H8
    ipureintro; sl_unfold_run_names; unfold acc4_8
    exact View.read_writes_eq_canon _ _ _ (cover_unit4 hz2_4 _ _ _)
  iexists _; isplitr
  swap; · iexact H9
  ipureintro; sl_unfold_run_names; unfold acc4_9
  exact View.read_writes_eq_canon _ _ _ (cover_unit4 hz2_4 _ _ _)

/-! ## The accumulators point by point -/

/-- What the two accumulators hold AFTER the body at position `n`: zeroed at the first point and added to there, added to
    at every later point over what the point before left. -/
def scr4 (c : Dev nD) : (n : ℕ) → n < cfg4.N → Vec F S1x64 .f32 × Vec F S1x64 .f32
  | 0, hn => (acc4_8 (k4_pay2 (F := F)) (iblk4 V c 0 ⟨0, hn⟩) (iblk4 V c 1 ⟨0, hn⟩) (iblk4 V c 2 ⟨0, hn⟩) (iblk4 V c 3 ⟨0, hn⟩), acc4_9 (k4_pay3 (F := F)) (iblk4 V c 0 ⟨0, hn⟩) (iblk4 V c 1 ⟨0, hn⟩) (iblk4 V c 2 ⟨0, hn⟩) (iblk4 V c 3 ⟨0, hn⟩))
  | n + 1, hn => (acc4_8 (View.ld (scr4 c n (Nat.lt_of_succ_lt hn)).1 rB4) (iblk4 V c 0 ⟨n + 1, hn⟩) (iblk4 V c 1 ⟨n + 1, hn⟩) (iblk4 V c 2 ⟨n + 1, hn⟩) (iblk4 V c 3 ⟨n + 1, hn⟩),
      acc4_9 (View.ld (scr4 c n (Nat.lt_of_succ_lt hn)).2 rB4) (iblk4 V c 0 ⟨n + 1, hn⟩) (iblk4 V c 1 ⟨n + 1, hn⟩) (iblk4 V c 2 ⟨n + 1, hn⟩) (iblk4 V c 3 ⟨n + 1, hn⟩))

theorem scr4_zero (c : Dev nD) (t : Fin cfg4.N) (h0 : t.val = 0) :
    scr4 V c t.val t.isLt = (acc4_8 (k4_pay2 (F := F)) (iblk4 V c 0 t) (iblk4 V c 1 t) (iblk4 V c 2 t) (iblk4 V c 3 t), acc4_9 (k4_pay3 (F := F)) (iblk4 V c 0 t) (iblk4 V c 1 t) (iblk4 V c 2 t) (iblk4 V c 3 t)) := by
  obtain ⟨n, hn⟩ := t
  cases n with
  | zero => exact rfl
  | succ n => exact absurd h0 (Nat.succ_ne_zero n)

theorem scr4_pos (c : Dev nD) (t : Fin cfg4.N) (h0 : ¬t.val = 0) :
    scr4 V c t.val t.isLt = (acc4_8 (View.ld (scr4 V c (t.val - 1) (Nat.lt_of_le_of_lt (Nat.sub_le _ _) t.isLt)).1 rB4) (iblk4 V c 0 t) (iblk4 V c 1 t) (iblk4 V c 2 t) (iblk4 V c 3 t),
      acc4_9 (View.ld (scr4 V c (t.val - 1) (Nat.lt_of_le_of_lt (Nat.sub_le _ _) t.isLt)).2 rB4) (iblk4 V c 0 t) (iblk4 V c 1 t) (iblk4 V c 2 t) (iblk4 V c 3 t)) := by
  obtain ⟨n, hn⟩ := t
  cases n with
  | zero => exact absurd rfl h0
  | succ n => exact rfl

/-! ## The region invariant -/

/-- The scratch operands: whole scoped buffers of the kernel's own, passed beside the windows. -/
abbrev scM4_8 : Memref sig .tc .vmem S1x64 .f32 := Memref.whole cc4_scratch0
abbrev scM4_9 : Memref sig .tc .vmem S1x64 .f32 := Memref.whole cc4_scratch1

/-- The class invariant with the two scratch operands as memrefs owned at some contents, the rest of the scoped rest unopened. -/
theorem PhiA4_eq (c : Dev nD) :
    (Pipeline.ΦA spec4 c : sProp 𝕄)
      = iprop(iprop(iprop((∃ d, owns (c : Thread nD τ) scM4_8 fullShare d) ∗ (∃ d, owns (c : Thread nD τ) scM4_9 fullShare d)) ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_8, scM4_9, owns_whole]; try rfl

/-- The region invariant before position `n`: before the first point the class's (every scratch at anything); afterwards the
    two accumulators at what the point before left in them, the rest of the scoped rest and the generator register. -/
def PhiS4 (c : Dev nD) : (n : ℕ) → n ≤ cfg4.N → sProp 𝕄
  | 0, _ => Pipeline.ΦA spec4 c
  | n + 1, hn => iprop(iprop(iprop(owns (c : Thread nD τ) scM4_8 fullShare (scr4 V c n hn).1 ∗ owns (c : Thread nD τ) scM4_9 fullShare (scr4 V c n hn).2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_8 fullShare (scr4 V c n hn).1 ∗ owns (c : Thread nD τ) scM4_9 fullShare (scr4 V c n hn).2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_8 fullShare (scr4 V c (n - 1) (by omega)).1 ∗ owns (c : Thread nD τ) scM4_9 fullShare (scr4 V c (n - 1) (by omega)).2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body at point `t` each
    input's buffer at its block, the first output's at `out4_4` of the input blocks, the two statistics outputs' at the
    copies of the accumulators (read at the last point only); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => cp4 (scr4 V c t.val t.isLt).1
    | ⟨6, _⟩ => cp4 (scr4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = cp4 (scr4 V c t.val t.isLt).1 := by dsimp only [dat4]
theorem after4_6 (c : Dev nD) (t : Fin cfg4.N) : (dat4 V c).after 6 t = cp4 (scr4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## Where the windows are idle (the printed configuration's table) -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which of the three cases the point is
    in; the invariant hands the body the accumulators at what the point before left (at anything at the first point) and
    takes them back at this point's contents; a statistics output is handed back untouched except at the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  have hN : t.val < 20 := lt_of_lt_of_eq t.isLt (show cfg4.N = 20 from N_4)
  by_cases h0 : t.val = 0
  · have h1 : ¬t.val = 19 := by omega
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [scr4_zero V c t h0]; dsimp only
    rw [PhiS4_castSucc V c t, PhiS4_zero V c _ _ h0, PhiA4_eq]
    iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 Hrest Hg]
    · isplitl [HS8 HS9 Hrest]
      · isplitl [HS8 HS9]
        · isplitl [HS8]; · iexact HS8
          iexact HS9
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 19
    · rw [show (dat4 V c).leavesExact 5 t = owns (c : Thread nD τ) (st4_5 t) fullShare ((dat4 V c).after 5 t) from by
        unfold Dat.leavesExact; rw [liveAt4_5 t ((hcond4_1 t).mpr h1)], after4_5]
      rw [show (dat4 V c).leavesExact 6 t = owns (c : Thread nD τ) (st4_6 t) fullShare ((dat4 V c).after 6 t) from by
        unfold Dat.leavesExact; rw [liveAt4_6 t ((hcond4_1 t).mpr h1)], after4_6]
      rw [scr4_pos V c t h0]; dsimp only
      rw [PhiS4_castSucc V c t, PhiS4_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [scr4_pos V c t h0]; dsimp only
      rw [PhiS4_castSucc V c t, PhiS4_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region — the generator register and the scoped rest — is the invariant before the first point. -/
theorem hin4 (c : Dev nD) : (iprop((∃ r, prngReg c r) ∗ Pipeline.scopedRest (Ix := Unit) (Name := ℕ) (U := UR sig nD τ) (Lvl := ℕ) (Val := Elt F) spec4 c) : sProp 𝕄) ⊢ (dat4 V c).Φ 0 := by
  rw [show (dat4 V c).Φ 0 = PhiS4 V c 0 (Nat.zero_le _) from rfl, PhiS4_zero V c 0 _ rfl]; unfold Pipeline.ΦA
  iintro ⟨Hp, Hr⟩
  isplitl [Hr]; · iexact Hr
  iexact Hp

/-- After the last point the invariant gives them back: the accumulators' named contents are forgotten. -/
theorem hout4 (c : Dev nD) : (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  have hA := PhiA4_eq (F := F) c
  unfold Pipeline.ΦA at hA
  have hne : (Fin.last cfg4.N).val ≠ 0 := by rw [Fin.val_last]; have : cfg4.N = 20 := N_4; omega
  rw [show (dat4 V c).Φ (Fin.last cfg4.N) = PhiS4 V c (Fin.last cfg4.N).val (Nat.le_of_lt_succ (Fin.last cfg4.N).isLt) from rfl, PhiS4_pos V c _ _ hne]
  iintro ⟨⟨⟨HS8, HS9⟩, Hrest⟩, Hg⟩
  isplitl [Hg]; · iexact Hg
  have hsplit : (iprop(iprop((∃ d, owns (c : Thread nD τ) scM4_8 fullShare d) ∗ (∃ d, owns (c : Thread nD τ) scM4_9 fullShare d)) ∗ Pipeline.scopedRestBut (Ix := Unit) (Name := ℕ) (U := UR sig nD τ) (Lvl := ℕ) (Val := Elt F) spec4 c [cc4_scratch0, cc4_scratch1]) : sProp 𝕄)
      ⊢ Pipeline.scopedRest (Ix := Unit) (Name := ℕ) (U := UR sig nD τ) (Lvl := ℕ) (Val := Elt F) spec4 c := by
    rw [scopedRest4_split]; simp only [scM4_8, scM4_9, owns_whole]; exact Idealize.SL.BI.Entails.refl _
  iapply hsplit
  isplitl [HS8 HS9]
  · isplitl [HS8]; · iexists _; iexact HS8
    iexists _; iexact HS9
  iexact Hrest

end Cert.KernelIdeal.Hand
end
-- ==== Proof.KI.R5.lean ====
/- The normalisation kernel of region 5 (custom_call 5, pipeline 5), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.KernelIdeal.Launch
import proofs.«128301_j8701603742430_2_alg».proof.Proof.Gen.KernelIdeal.Skeleton
import proofs.«128301_j8701603742430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 5: \`cc5__bn_normalize_kernel\` (pipeline 5), at the entry contents \`V\` -/

/-! ## The windows' blocks -/

/-- Window \`w\`'s block at point \`t\`, read off its array as the region finds it (\`V\`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (an unfetched
    window's block index has not moved, and the body leaves the block in place). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole of a row of 64 lanes, and the whole of a block of 5000 rows: the only rectangles the body names. -/
abbrev r5_row : Rect S1x64 := Rect.unit (s := S1x64) ![0, 0] S1x64.size inb_S1x64_S1x64_0_0
abbrev r5_blk : Rect S5000x64 := Rect.unit (s := S5000x64) ![0, 0] S5000x64.size inb_S5000x64_S5000x64_0_0

/-! ## What the body leaves in the output window's buffer -/

/-- Window 5's staging buffer after the body, from the input windows' blocks: its one store, of the normalised
    block, over the whole buffer. -/
def out5_5 (x0 : Vec F S5000x64 .f32) (x1 x2 x3 x4 : Vec F S1x64 .f32) : Vec F S5000x64 .f32 :=
  View.canon [⟨r5_blk, k5_pay1 (View.ld x1 r5_row) (View.ld x2 r5_row) (View.ld x0 r5_blk) (View.ld x3 r5_row) (View.ld x4 r5_row)⟩]

/-- The store is of the whole buffer, so it covers it. -/
theorem cover5_5 (p0 : Vec F S5000x64 .f32) (y : S5000x64.Idx) :
    ∃ pc ∈ ([⟨r5_blk, p0⟩] : List (View.Piece (Elt F) S5000x64 .f32)), y ∈ pc.1.set :=
  View.cover_of_tiled [⟨r5_blk, p0⟩] S5000x64.size (by rfl) y

/-! ## The body's triple -/

set_option maxHeartbeats 1000000 in
/-- The kernel body on whole staging memrefs, the inputs' at read contents \`xW\` and the output's at anything, runs to
    the continuation holding the inputs' as they were and the output's at \`out5_5\` of the inputs'. The body also loads
    the output's buffer before it stores all of it; what it loads there is used nowhere. -/
theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_normalize_kernel i arg1 harg1 arg2 harg2 arg3 harg3 arg4 harg4 arg5 harg5 arg6 harg6) K := by
  simp only [cc5__bn_normalize_kernel_eq_skeleton]; unfold cc5__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core \`c\`: the arrays as the region finds them (\`V\`); after the body at
    point \`t\` each input's buffer at its block and the output's at \`out5_5\` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point \`t\`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (\`before5_W\`), so \`sound_kernel5\` applies; the
    invariant and the core's \`owes\` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- Entering: the generator register and the scoped rest are the invariant. -/
theorem hin5 (c : Dev nD) :
    iprop((∃ r, prngReg c r) ∗ Pipeline.scopedRest (Ix := Unit) (Name := ℕ) (U := UR sig nD τ) (Lvl := ℕ) (Val := Elt F) spec5 c) ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Leaving: the invariant gives both back. -/
theorem hout5 (c : Dev nD) :
    (dat5 V c).Φ (Fin.last cfg5.N) ⊢ iprop((∃ r, prngReg c r) ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end Regions
end Cert.KernelIdeal.Hand
-- ==== Proof.KI.R6.lean ====
import proofs.«128301_j8701603742430_2_alg».proof.Proof.Gen.KernelIdeal.Launch
import proofs.«128301_j8701603742430_2_alg».proof.Proof.Gen.KernelIdeal.Skeleton
import proofs.«128301_j8701603742430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 6 of @main: custom_call 6, the linear + relu + column statistics kernel, at the entry contents `V` -/

/-- The zero offsets of a rank-2 rectangle are the constant zero. -/
theorem hz2_6 : (![0, 0] : Fin 2 → ℕ) = fun _ => 0 := by
  funext a; fin_cases a <;> rfl

/-- A list of pieces whose head is a store through the whole-shape rectangle covers the shape. -/
theorem cover_unit6 {S : Shape} {e : EltTy} {off : Fin S.rank → ℕ} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is through the whole staging buffer -/

abbrev rA6 : Rect S5000x64 := Rect.unit (s := S5000x64) ![0, 0] S5000x64.size inb_S5000x64_S5000x64_0_0
abbrev rW6 : Rect S64x64 := Rect.unit (s := S64x64) ![0, 0] S64x64.size inb_S64x64_S64x64_0_0
abbrev rB6 : Rect S1x64 := Rect.unit (s := S1x64) ![0, 0] S1x64.size inb_S1x64_S1x64_0_0

/-! ## What the body leaves -/

/-- The block of the first output (the rectified affine map of the two input blocks) after the body. -/
def out6_4 (x1 x2 : Vec F S5000x64 .f32) (x3 : Vec F S64x64 .f32) (x4 : Vec F S1x64 .f32) : Vec F S5000x64 .f32 :=
  View.canon [⟨rA6, k6_pay4 (View.ld x1 rA6) (View.ld x2 rA6) (View.ld x3 rW6) (View.ld x4 rB6)⟩]

/-- The first accumulator after the body, from the value `v` the body loaded from it: `v` plus the block's column sums. -/
def acc6_8 (v : FVec F S1x64 .f32) (x1 x2 : Vec F S5000x64 .f32) (x3 : Vec F S64x64 .f32) (x4 : Vec F S1x64 .f32) : Vec F S1x64 .f32 :=
  View.canon [⟨rB6, k6_pay5 (View.ld x1 rA6) (View.ld x2 rA6) (View.ld x3 rW6) (View.ld x4 rB6) v⟩]

/-- The second accumulator after the body, from the value `v` the body loaded from it: `v` plus the block's column sums of squares. -/
def acc6_9 (v : FVec F S1x64 .f32) (x1 x2 : Vec F S5000x64 .f32) (x3 : Vec F S64x64 .f32) (x4 : Vec F S1x64 .f32) : Vec F S1x64 .f32 :=
  View.canon [⟨rB6, k6_pay1 (k6_pay6 (View.ld x1 rA6) (View.ld x2 rA6) (View.ld x3 rW6) (View.ld x4 rB6) v)⟩]

/-- An accumulator copied into its output's buffer (at the last point). -/
def cp6 (a : Vec F S1x64 .f32) : Vec F S1x64 .f32 :=
  View.canon [⟨rB6, View.ld a rB6⟩]

/-! ## The body's branch conditions, in closed form over the grid -/

/-- The condition of the body's first conditional (the accumulators are zeroed), from the grid coordinates. -/
abbrev cond6_0 (i : grid6.Coords) : Prop := (Scalar.cmpi .ne (Scalar.extui (Scalar.cmpi .eq (BitVec.ofNat 32 (i 0).val) 0#32)) 0#32) = 1#1
/-- The condition of its second (the accumulators are copied out). -/
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

/-! ## The body's triple, in each of the three cases the grid meets -/

set_option maxHeartbeats 1000000 in
/-- FIRST POINT: the accumulators, at anything, are zeroed and then added to; the two statistics outputs are untouched. -/
theorem run6_A (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond6_0 i) (hc1 : ¬cond6_1 i)
    (x1 x2 : Vec F S5000x64 .f32) (x3 : Vec F S64x64 .f32) (x4 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out6_4 x1 x2 x3 x4) ∗ owns (c : Thread nD τ) arg6 fullShare xi6 ∗ owns (c : Thread nD τ) arg7 fullShare xi7
            ∗ owns (c : Thread nD τ) arg8 fullShare (acc6_8 (k6_pay2 (F := F)) x1 x2 x3 x4) ∗ owns (c : Thread nD τ) arg9 fullShare (acc6_9 (k6_pay3 (F := F)) x1 x2 x3 x4)) -∗ K ⟨⟩))
      ⊢ wp frame (wpE (defs₀ (F := F)) Variants.none c none) E (cc6__linear_relu_stats_kernel i arg1 harg1 arg2 harg2 arg3 harg3 arg4 harg4 arg5 harg5 arg6 harg6 arg7 harg7 arg8 harg8 arg9 harg9) K := by
  simp only [cc6__linear_relu_stats_kernel_eq_skeleton]; unfold cc6__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
  subst hf1; subst hf2; subst hf3; subst hf4; subst hf6; subst hf7
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out6_4
    exact View.read_writes_eq_canon _ _ _ (cover_unit6 hz2_6 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc6_8
    rw [View.read_writes_eq_canon _ _ _ (cover_unit6 hz2_6 _ _ _), View.canon_cons_unit_zero hz2_6, View.canon_unit_zero hz2_6, View.readCov_unit_zero _ hz2_6]
    rfl
  iexists _; isplitr
  swap; · iexact H9
  ipureintro; sl_unfold_run_names; unfold acc6_9
  rw [View.read_writes_eq_canon _ _ _ (cover_unit6 hz2_6 _ _ _), View.canon_cons_unit_zero hz2_6, View.canon_unit_zero hz2_6, View.readCov_unit_zero _ hz2_6]
  rfl

set_option maxHeartbeats 1000000 in
/-- A MIDDLE POINT: the accumulators, at `s8`, `s9`, are added to; the two statistics outputs are untouched. -/
theorem run6_B (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond6_0 i) (hc1 : ¬cond6_1 i)
    (x1 x2 : Vec F S5000x64 .f32) (x3 : Vec F S64x64 .f32) (x4 : Vec F S1x64 .f32) (s8 s9 : Vec F S1x64 .f32) (xi6 xi7 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xi6 ∗ owns (c : Thread nD τ) arg7 fullShare xi7
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out6_4 x1 x2 x3 x4) ∗ owns (c : Thread nD τ) arg6 fullShare xi6 ∗ owns (c : Thread nD τ) arg7 fullShare xi7
            ∗ owns (c : Thread nD τ) arg8 fullShare (acc6_8 (View.ld s8 rB6) x1 x2 x3 x4) ∗ owns (c : Thread nD τ) arg9 fullShare (acc6_9 (View.ld s9 rB6) x1 x2 x3 x4)) -∗ K ⟨⟩))
      ⊢ wp frame (wpE (defs₀ (F := F)) Variants.none c none) E (cc6__linear_relu_stats_kernel i arg1 harg1 arg2 harg2 arg3 harg3 arg4 harg4 arg5 harg5 arg6 harg6 arg7 harg7 arg8 harg8 arg9 harg9) K := by
  simp only [cc6__linear_relu_stats_kernel_eq_skeleton]; unfold cc6__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  subst hf1; subst hf2; subst hf3; subst hf4; subst hf6; subst hf7; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out6_4
    exact View.read_writes_eq_canon _ _ _ (cover_unit6 hz2_6 _ _ _)
  isplitl [H6]
  · iexists _; isplitr; · ipureintro; rfl
    iexact H6
  isplitl [H7]
  · iexists _; isplitr; · ipureintro; rfl
    iexact H7
  isplitl [H8]
  · iexists _; isplitr
    swap; · iexact H8
    ipureintro; sl_unfold_run_names; unfold acc6_8
    exact View.read_writes_eq_canon _ _ _ (cover_unit6 hz2_6 _ _ _)
  iexists _; isplitr
  swap; · iexact H9
  ipureintro; sl_unfold_run_names; unfold acc6_9
  exact View.read_writes_eq_canon _ _ _ (cover_unit6 hz2_6 _ _ _)

set_option maxHeartbeats 1000000 in
/-- THE LAST POINT: the accumulators, at `s8`, `s9`, are added to and copied into the two statistics outputs' buffers. -/
theorem run6_C (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond6_0 i) (hc1 : cond6_1 i)
    (x1 x2 : Vec F S5000x64 .f32) (x3 : Vec F S64x64 .f32) (x4 : Vec F S1x64 .f32) (s8 s9 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out6_4 x1 x2 x3 x4)
            ∗ owns (c : Thread nD τ) arg6 fullShare (cp6 (acc6_8 (View.ld s8 rB6) x1 x2 x3 x4)) ∗ owns (c : Thread nD τ) arg7 fullShare (cp6 (acc6_9 (View.ld s9 rB6) x1 x2 x3 x4))
            ∗ owns (c : Thread nD τ) arg8 fullShare (acc6_8 (View.ld s8 rB6) x1 x2 x3 x4) ∗ owns (c : Thread nD τ) arg9 fullShare (acc6_9 (View.ld s9 rB6) x1 x2 x3 x4)) -∗ K ⟨⟩))
      ⊢ wp frame (wpE (defs₀ (F := F)) Variants.none c none) E (cc6__linear_relu_stats_kernel i arg1 harg1 arg2 harg2 arg3 harg3 arg4 harg4 arg5 harg5 arg6 harg6 arg7 harg7 arg8 harg8 arg9 harg9) K := by
  simp only [cc6__linear_relu_stats_kernel_eq_skeleton]; unfold cc6__linear_relu_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  subst hf1; subst hf2; subst hf3; subst hf4; subst hf8; subst hf9
  sl_exec (disch := first | exact hc0 | exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro; unfold out6_4
    exact View.read_writes_eq_canon _ _ _ (cover_unit6 hz2_6 _ _ _)
  isplitl [H6]
  · iexists _; isplitr
    swap; · iexact H6
    ipureintro; sl_unfold_run_names; unfold cp6 acc6_8
    rw [View.read_writes_eq_canon _ _ _ (cover_unit6 hz2_6 _ _ _), View.readCov_eq_canon_ld _ _ _ (cover_unit6 hz2_6 _ _ _)]
    rfl
  isplitl [H7]
  · iexists _; isplitr
    swap; · iexact H7
    ipureintro; sl_unfold_run_names; unfold cp6 acc6_9
    rw [View.read_writes_eq_canon _ _ _ (cover_unit6 hz2_6 _ _ _), View.readCov_eq_canon_ld _ _ _ (cover_unit6 hz2_6 _ _ _)]
    rfl
  isplitl [H8]
  · iexists _; isplitr
    swap; · iexact H8
    ipureintro; sl_unfold_run_names; unfold acc6_8
    exact View.read_writes_eq_canon _ _ _ (cover_unit6 hz2_6 _ _ _)
  iexists _; isplitr
  swap; · iexact H9
  ipureintro; sl_unfold_run_names; unfold acc6_9
  exact View.read_writes_eq_canon _ _ _ (cover_unit6 hz2_6 _ _ _)

/-! ## The accumulators point by point -/

/-- What the two accumulators hold AFTER the body at position `n`: zeroed at the first point and added to there, added to
    at every later point over what the point before left. -/
def scr6 (c : Dev nD) : (n : ℕ) → n < cfg6.N → Vec F S1x64 .f32 × Vec F S1x64 .f32
  | 0, hn => (acc6_8 (k6_pay2 (F := F)) (iblk6 V c 0 ⟨0, hn⟩) (iblk6 V c 1 ⟨0, hn⟩) (iblk6 V c 2 ⟨0, hn⟩) (iblk6 V c 3 ⟨0, hn⟩), acc6_9 (k6_pay3 (F := F)) (iblk6 V c 0 ⟨0, hn⟩) (iblk6 V c 1 ⟨0, hn⟩) (iblk6 V c 2 ⟨0, hn⟩) (iblk6 V c 3 ⟨0, hn⟩))
  | n + 1, hn => (acc6_8 (View.ld (scr6 c n (Nat.lt_of_succ_lt hn)).1 rB6) (iblk6 V c 0 ⟨n + 1, hn⟩) (iblk6 V c 1 ⟨n + 1, hn⟩) (iblk6 V c 2 ⟨n + 1, hn⟩) (iblk6 V c 3 ⟨n + 1, hn⟩),
      acc6_9 (View.ld (scr6 c n (Nat.lt_of_succ_lt hn)).2 rB6) (iblk6 V c 0 ⟨n + 1, hn⟩) (iblk6 V c 1 ⟨n + 1, hn⟩) (iblk6 V c 2 ⟨n + 1, hn⟩) (iblk6 V c 3 ⟨n + 1, hn⟩))

theorem scr6_zero (c : Dev nD) (t : Fin cfg6.N) (h0 : t.val = 0) :
    scr6 V c t.val t.isLt = (acc6_8 (k6_pay2 (F := F)) (iblk6 V c 0 t) (iblk6 V c 1 t) (iblk6 V c 2 t) (iblk6 V c 3 t), acc6_9 (k6_pay3 (F := F)) (iblk6 V c 0 t) (iblk6 V c 1 t) (iblk6 V c 2 t) (iblk6 V c 3 t)) := by
  obtain ⟨n, hn⟩ := t
  cases n with
  | zero => exact rfl
  | succ n => exact absurd h0 (Nat.succ_ne_zero n)

theorem scr6_pos (c : Dev nD) (t : Fin cfg6.N) (h0 : ¬t.val = 0) :
    scr6 V c t.val t.isLt = (acc6_8 (View.ld (scr6 V c (t.val - 1) (Nat.lt_of_le_of_lt (Nat.sub_le _ _) t.isLt)).1 rB6) (iblk6 V c 0 t) (iblk6 V c 1 t) (iblk6 V c 2 t) (iblk6 V c 3 t),
      acc6_9 (View.ld (scr6 V c (t.val - 1) (Nat.lt_of_le_of_lt (Nat.sub_le _ _) t.isLt)).2 rB6) (iblk6 V c 0 t) (iblk6 V c 1 t) (iblk6 V c 2 t) (iblk6 V c 3 t)) := by
  obtain ⟨n, hn⟩ := t
  cases n with
  | zero => exact absurd rfl h0
  | succ n => exact rfl

/-! ## The region invariant -/

/-- The scratch operands: whole scoped buffers of the kernel's own, passed beside the windows. -/
abbrev scM6_8 : Memref sig .tc .vmem S1x64 .f32 := Memref.whole cc6_scratch0
abbrev scM6_9 : Memref sig .tc .vmem S1x64 .f32 := Memref.whole cc6_scratch1

/-- The class invariant with the two scratch operands as memrefs owned at some contents, the rest of the scoped rest unopened. -/
theorem PhiA6_eq (c : Dev nD) :
    (Pipeline.ΦA spec6 c : sProp 𝕄)
      = iprop(iprop(iprop((∃ d, owns (c : Thread nD τ) scM6_8 fullShare d) ∗ (∃ d, owns (c : Thread nD τ) scM6_9 fullShare d)) ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_8, scM6_9, owns_whole]; try rfl

/-- The region invariant before position `n`: before the first point the class's (every scratch at anything); afterwards the
    two accumulators at what the point before left in them, the rest of the scoped rest and the generator register. -/
def PhiS6 (c : Dev nD) : (n : ℕ) → n ≤ cfg6.N → sProp 𝕄
  | 0, _ => Pipeline.ΦA spec6 c
  | n + 1, hn => iprop(iprop(iprop(owns (c : Thread nD τ) scM6_8 fullShare (scr6 V c n hn).1 ∗ owns (c : Thread nD τ) scM6_9 fullShare (scr6 V c n hn).2) ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_8 fullShare (scr6 V c n hn).1 ∗ owns (c : Thread nD τ) scM6_9 fullShare (scr6 V c n hn).2) ∗ Pipeline.scopedRestBut (Ix := Unit) (Name := ℕ) (U := UR sig nD τ) (Lvl := ℕ) (Val := Elt F) spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_8 fullShare (scr6 V c (n - 1) (by omega)).1 ∗ owns (c : Thread nD τ) scM6_9 fullShare (scr6 V c (n - 1) (by omega)).2) ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- The proof data of pipeline 6 on core `c`: the arrays as the region finds them (`V`); after the body at point `t` each
    input's buffer at its block, the first output's at `out6_4` of the input blocks, the two statistics outputs' at the
    copies of the accumulators (read at the last point only); the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => cp6 (scr6 V c t.val t.isLt).1
    | ⟨6, _⟩ => cp6 (scr6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]
theorem after6_5 (c : Dev nD) (t : Fin cfg6.N) : (dat6 V c).after 5 t = cp6 (scr6 V c t.val t.isLt).1 := by dsimp only [dat6]
theorem after6_6 (c : Dev nD) (t : Fin cfg6.N) : (dat6 V c).after 6 t = cp6 (scr6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## Where the windows are idle (the printed configuration's table) -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5 : ∀ t : Fin cfg6.N, cond6_1 (grid6.coords t) → cfg6.idle 5 (grid6.coords t) = false := by decide +kernel
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem liveAt6_6 : ∀ t : Fin cfg6.N, cond6_1 (grid6.coords t) → cfg6.idle 6 (grid6.coords t) = false := by decide +kernel

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4800000 in
/-- The body at any point: the inputs' memrefs hold their blocks; the closed forms say which of the three cases the point is
    in; the invariant hands the body the accumulators at what the point before left (at anything at the first point) and
    takes them back at this point's contents; a statistics output is handed back untouched except at the last point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  rw [show (dat6 V c).leavesExact 4 t = owns (c : Thread nD τ) (st6_4 t) fullShare ((dat6 V c).after 4 t) from by
    unfold Dat.leavesExact; rw [liveAt6_4 t], after6_4]
  have hN : t.val < 20 := lt_of_lt_of_eq t.isLt (show cfg6.N = 20 from N_6)
  by_cases h0 : t.val = 0
  · have h1 : ¬t.val = 19 := by omega
    rw [Dat.leavesExact_idle (dat6 V c) 5 t (idleAt6_5 t (fun h => h1 ((hcond6_1 t).mp h))) (noFlush6_5 t (fun h => h1 ((hcond6_1 t).mp h)))]
    rw [Dat.leavesExact_idle (dat6 V c) 6 t (idleAt6_6 t (fun h => h1 ((hcond6_1 t).mp h))) (noFlush6_6 t (fun h => h1 ((hcond6_1 t).mp h)))]
    rw [scr6_zero V c t h0]; dsimp only
    rw [PhiS6_castSucc V c t, PhiS6_zero V c _ _ h0, PhiA6_eq]
    iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run6_A c (grid6.coords t) _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexact HS9
    iintro ⟨H0, H1, H2, H3, H4, H5, H6, HS8, HS9⟩
    isplitl [HS8 HS9 Hrest Hg]
    · isplitl [HS8 HS9 Hrest]
      · isplitl [HS8 HS9]
        · isplitl [HS8]; · iexact HS8
          iexact HS9
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 19
    · rw [show (dat6 V c).leavesExact 5 t = owns (c : Thread nD τ) (st6_5 t) fullShare ((dat6 V c).after 5 t) from by
        unfold Dat.leavesExact; rw [liveAt6_5 t ((hcond6_1 t).mpr h1)], after6_5]
      rw [show (dat6 V c).leavesExact 6 t = owns (c : Thread nD τ) (st6_6 t) fullShare ((dat6 V c).after 6 t) from by
        unfold Dat.leavesExact; rw [liveAt6_6 t ((hcond6_1 t).mpr h1)], after6_6]
      rw [scr6_pos V c t h0]; dsimp only
      rw [PhiS6_castSucc V c t, PhiS6_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run6_C c (grid6.coords t) _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat6 V c) 5 t (idleAt6_5 t (fun h => h1 ((hcond6_1 t).mp h))) (noFlush6_5 t (fun h => h1 ((hcond6_1 t).mp h)))]
      rw [Dat.leavesExact_idle (dat6 V c) 6 t (idleAt6_6 t (fun h => h1 ((hcond6_1 t).mp h))) (noFlush6_6 t (fun h => h1 ((hcond6_1 t).mp h)))]
      rw [scr6_pos V c t h0]; dsimp only
      rw [PhiS6_castSucc V c t, PhiS6_pos V c _ _ h0]
      iintro ⟨⟨⟨⟨HS8, HS9⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run6_B c (grid6.coords t) _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9 Hrest]
        · isplitl [HS8 HS9]
          · isplitl [HS8]; · iexact HS8
            iexact HS9
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region — the generator register and the scoped rest — is the invariant before the first point. -/
theorem hin6 (c : Dev nD) : (iprop((∃ r, prngReg c r) ∗ Pipeline.scopedRest (Ix := Unit) (Name := ℕ) (U := UR sig nD τ) (Lvl := ℕ) (Val := Elt F) spec6 c) : sProp 𝕄) ⊢ (dat6 V c).Φ 0 := by
  rw [show (dat6 V c).Φ 0 = PhiS6 V c 0 (Nat.zero_le _) from rfl, PhiS6_zero V c 0 _ rfl]; unfold Pipeline.ΦA
  iintro ⟨Hp, Hr⟩
  isplitl [Hr]; · iexact Hr
  iexact Hp

/-- After the last point the invariant gives them back: the accumulators' named contents are forgotten. -/
theorem hout6 (c : Dev nD) : (dat6 V c).Φ (Fin.last cfg6.N) ⊢ (iprop((∃ r, prngReg c r) ∗ Pipeline.scopedRest (Ix := Unit) (Name := ℕ) (U := UR sig nD τ) (Lvl := ℕ) (Val := Elt F) spec6 c) : sProp 𝕄) := by
  have hA := PhiA6_eq (F := F) c
  unfold Pipeline.ΦA at hA
  have hne : (Fin.last cfg6.N).val ≠ 0 := by rw [Fin.val_last]; have : cfg6.N = 20 := N_6; omega
  rw [show (dat6 V c).Φ (Fin.last cfg6.N) = PhiS6 V c (Fin.last cfg6.N).val (Nat.le_of_lt_succ (Fin.last cfg6.N).isLt) from rfl, PhiS6_pos V c _ _ hne]
  iintro ⟨⟨⟨HS8, HS9⟩, Hrest⟩, Hg⟩
  isplitl [Hg]; · iexact Hg
  have hsplit : (iprop(iprop((∃ d, owns (c : Thread nD τ) scM6_8 fullShare d) ∗ (∃ d, owns (c : Thread nD τ) scM6_9 fullShare d)) ∗ Pipeline.scopedRestBut (Ix := Unit) (Name := ℕ) (U := UR sig nD τ) (Lvl := ℕ) (Val := Elt F) spec6 c [cc6_scratch0, cc6_scratch1]) : sProp 𝕄)
      ⊢ Pipeline.scopedRest (Ix := Unit) (Name := ℕ) (U := UR sig nD τ) (Lvl := ℕ) (Val := Elt F) spec6 c := by
    rw [scopedRest6_split]; simp only [scM6_8, scM6_9, owns_whole]; exact Idealize.SL.BI.Entails.refl _
  iapply hsplit
  isplitl [HS8 HS9]
  · isplitl [HS8]; · iexists _; iexact HS8
    iexists _; iexact HS9
  iexact Hrest

end Cert.KernelIdeal.Hand
end
-- ==== Proof.KI.R7.lean ====
/- The normalisation kernel of region 7 (custom_call 7, pipeline 7), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.KernelIdeal.Launch
import proofs.«128301_j8701603742430_2_alg».proof.Proof.Gen.KernelIdeal.Skeleton
import proofs.«128301_j8701603742430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 7: \`cc7__bn_normalize_kernel\` (pipeline 7), at the entry contents \`V\` -/

/-! ## The windows' blocks -/

/-- Window \`w\`'s block at point \`t\`, read off its array as the region finds it (\`V\`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (an unfetched
    window's block index has not moved, and the body leaves the block in place). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole of a row of 64 lanes, and the whole of a block of 5000 rows: the only rectangles the body names. -/
abbrev r7_row : Rect S1x64 := Rect.unit (s := S1x64) ![0, 0] S1x64.size inb_S1x64_S1x64_0_0
abbrev r7_blk : Rect S5000x64 := Rect.unit (s := S5000x64) ![0, 0] S5000x64.size inb_S5000x64_S5000x64_0_0

/-! ## What the body leaves in the output window's buffer -/

/-- Window 5's staging buffer after the body, from the input windows' blocks: its one store, of the normalised
    block, over the whole buffer. -/
def out7_5 (x0 : Vec F S5000x64 .f32) (x1 x2 x3 x4 : Vec F S1x64 .f32) : Vec F S5000x64 .f32 :=
  View.canon [⟨r7_blk, k7_pay1 (View.ld x1 r7_row) (View.ld x2 r7_row) (View.ld x0 r7_blk) (View.ld x3 r7_row) (View.ld x4 r7_row)⟩]

/-- The store is of the whole buffer, so it covers it. -/
theorem cover7_5 (p0 : Vec F S5000x64 .f32) (y : S5000x64.Idx) :
    ∃ pc ∈ ([⟨r7_blk, p0⟩] : List (View.Piece (Elt F) S5000x64 .f32)), y ∈ pc.1.set :=
  View.cover_of_tiled [⟨r7_blk, p0⟩] S5000x64.size (by rfl) y

/-! ## The body's triple -/

set_option maxHeartbeats 1000000 in
/-- The kernel body on whole staging memrefs, the inputs' at read contents \`xW\` and the output's at anything, runs to
    the continuation holding the inputs' as they were and the output's at \`out7_5\` of the inputs'. The body also loads
    the output's buffer before it stores all of it; what it loads there is used nowhere. -/
theorem sound_kernel7 (c : Dev nD) (E : Set ℕ) (i : grid7.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_normalize_kernel i arg1 harg1 arg2 harg2 arg3 harg3 arg4 harg4 arg5 harg5 arg6 harg6) K := by
  simp only [cc7__bn_normalize_kernel_eq_skeleton]; unfold cc7__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of pipeline 7 on core \`c\`: the arrays as the region finds them (\`V\`); after the body at
    point \`t\` each input's buffer at its block and the output's at \`out7_5\` of the input blocks; the invariant is the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t
    = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point \`t\`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks (\`before7_W\`), so \`sound_kernel7\` applies; the
    invariant and the core's \`owes\` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's ends -/

/-- Entering: the generator register and the scoped rest are the invariant. -/
theorem hin7 (c : Dev nD) :
    iprop((∃ r, prngReg c r) ∗ Pipeline.scopedRest (Ix := Unit) (Name := ℕ) (U := UR sig nD τ) (Lvl := ℕ) (Val := Elt F) spec7 c) ⊢ (dat7 V c).Φ 0 := by
  rw [show (dat7 V c).Φ 0 = Pipeline.ΦA spec7 c from rfl]; unfold Pipeline.ΦA
  iintro ⟨Hp, Hr⟩
  isplitl [Hr]; · iexact Hr
  iexact Hp

/-- Leaving: the invariant gives both back. -/
theorem hout7 (c : Dev nD) :
    (dat7 V c).Φ (Fin.last cfg7.N) ⊢ iprop((∃ r, prngReg c r) ∗ Pipeline.scopedRest (Ix := Unit) (Name := ℕ) (U := UR sig nD τ) (Lvl := ℕ) (Val := Elt F) spec7 c) := by
  rw [show (dat7 V c).Φ (Fin.last _) = Pipeline.ΦA spec7 c from rfl]; unfold Pipeline.ΦA
  iintro ⟨Hr, Hp⟩
  isplitl [Hp]; · iexact Hp
  iexact Hr

end Regions
end Cert.KernelIdeal.Hand
-- ==== Proof.KI.R8.lean ====
/- The final-layer kernel of region 8 (custom_call 8, pipeline 8), at the contents \`V\` the region is entered
   with: each window's block at a point, what the body leaves in the output window's buffer (its one store, over
   the skeleton's payload), the body's triple, the proof data, and the body obligation at every point.
   Everything here holds at any float interpretation \`F\`. -/
import proofs.«128301_j8701603742430_2_alg».proof.Proof.Gen.KernelIdeal.Launch
import proofs.«128301_j8701603742430_2_alg».proof.Proof.Gen.KernelIdeal.Skeleton
import proofs.«128301_j8701603742430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 8: \`cc8__final_layer_kernel\` (pipeline 8), at the entry contents \`V\` -/

/-! ## The windows' blocks -/

/-- Window \`w\`'s block at point \`t\`, read off its array as the region finds it (\`V\`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (an unfetched
    window's block index has not moved, and the body leaves the block in place). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole of each buffer: the only rectangles the body names. -/
abbrev r8_in : Rect S5000x64 := Rect.unit (s := S5000x64) ![0, 0] S5000x64.size inb_S5000x64_S5000x64_0_0
abbrev r8_w : Rect S64x40 := Rect.unit (s := S64x40) ![0, 0] S64x40.size inb_S64x40_S64x40_0_0
abbrev r8_b : Rect S1x40 := Rect.unit (s := S1x40) ![0, 0] S1x40.size inb_S1x40_S1x40_0_0
abbrev r8_out : Rect S5000x40 := Rect.unit (s := S5000x40) ![0, 0] S5000x40.size inb_S5000x40_S5000x40_0_0

/-! ## What the body leaves in the output window's buffer -/

/-- Window 4's staging buffer after the body, from the input windows' blocks: its one store, of the block's
    log-softmax rows, over the whole buffer. -/
def out8_4 (x0 x1 : Vec F S5000x64 .f32) (x2 : Vec F S64x40 .f32) (x3 : Vec F S1x40 .f32) : Vec F S5000x40 .f32 :=
  View.canon [⟨r8_out, k8_pay1 (View.ld x0 r8_in) (View.ld x1 r8_in) (View.ld x2 r8_w) (View.ld x3 r8_b)⟩]

/-- The store is of the whole buffer, so it covers it. -/
theorem cover8_4 (p0 : Vec F S5000x40 .f32) (y : S5000x40.Idx) :
    ∃ pc ∈ ([⟨r8_out, p0⟩] : List (View.Piece (Elt F) S5000x40 .f32)), y ∈ pc.1.set :=
  View.cover_of_tiled [⟨r8_out, p0⟩] S5000x40.size (by rfl) y

/-! ## The body's triple -/

set_option maxHeartbeats 1000000 in
/-- The kernel body on whole staging memrefs, the inputs' at read contents \`xW\` and the output's at anything, runs to
    the continuation holding the inputs' as they were and the output's at \`out8_4\` of the inputs'. The body also loads
    the output's buffer before it stores all of it; what it loads there is used nowhere. -/
theorem sound_kernel8 (c : Dev nD) (E : Set ℕ) (i : grid8.Coords)
    (arg1 : Memref sig .tc .vmem S5000x64 .f32) (harg1 : arg1.IsWhole) (arg2 : Memref sig .tc .vmem S5000x64 .f32) (harg2 : arg2.IsWhole)
    (arg3 : Memref sig .tc .vmem S64x40 .f32) (harg3 : arg3.IsWhole) (arg4 : Memref sig .tc .vmem S1x40 .f32) (harg4 : arg4.IsWhole)
    (arg5 : Memref sig .tc .vmem S5000x40 .f32) (harg5 : arg5.IsWhole)
    (x0 x1 : Vec F S5000x64 .f32) (x2 : Vec F S64x40 .f32) (x3 : Vec F S1x40 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out8_4 x0 x1 x2 x3)) -∗ K ⟨⟩))
      ⊢ wp frame (wpE (defs₀ (F := F)) Variants.none c none) E (cc8__final_layer_kernel i arg1 harg1 arg2 harg2 arg3 harg3 arg4 harg4 arg5 harg5) K := by
  simp only [cc8__final_layer_kernel_eq_skeleton]; unfold cc8__final_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-! ## The pipeline's proof data -/

/-- The proof data of pipeline 8 on core \`c\`: the arrays as the region finds them (\`V\`); after the body at
    point \`t\` each input's buffer at its block and the output's at \`out8_4\` of the input blocks; the invariant is the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t
    = out8_4 (iblk8 V c 0 t) (iblk8 V c 1 t) (iblk8 V c 2 t) (iblk8 V c 3 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point \`t\`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks (\`before8_W\`), so \`sound_kernel8\` applies; the
    invariant and the core's \`owes\` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's ends -/

/-- Entering: the generator register and the scoped rest are the invariant. -/
theorem hin8 (c : Dev nD) :
    iprop((∃ r, prngReg c r) ∗ Pipeline.scopedRest (Ix := Unit) (Name := ℕ) (U := UR sig nD τ) (Lvl := ℕ) (Val := Elt F) spec8 c) ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant gives both back. -/
theorem hout8 (c : Dev nD) :
    (dat8 V c).Φ (Fin.last cfg8.N) ⊢ iprop((∃ r, prngReg c r) ∗ Pipeline.scopedRest (Ix := Unit) (Name := ℕ) (U := UR sig nD τ) (Lvl := ℕ) (Val := Elt F) spec8 c) := by
  rw [show (dat8 V c).Φ (Fin.last _) = Pipeline.ΦA spec8 c from rfl]; unfold Pipeline.ΦA
  iintro ⟨Hr, Hp⟩
  isplitl [Hp]; · iexact Hp
  iexact Hr

end Regions
end Cert.KernelIdeal.Hand
-- ==== Proof.KI.Vals.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

/-! The contents of every unscoped buffer of a core at each boundary between two items of the program:
    the launch memory, then alternately the host operations of a stretch applied, and a region's arrays
    replaced by what its pipeline leaves in them. -/

/-- At launch. -/
abbrev Bd0 : Dev nD → Valuation τ sig (Elt F) := fun c b => m (c, b)

/-- After the host operations before region 0. -/
abbrev Bd1 : Dev nD → Valuation τ sig (Elt F) := fun c => StableHlo.after hostOps0 (Bd0 m c)
abbrev Bv1 : (c : Dev nD) → (b : Ref sig .tc) → Buf (Elt F) ((c : Thread nD τ).loc b) := fun c b => Bd1 m c b
/-- After region 0: its windows' arrays at what the pipeline leaves, every other buffer as entered. -/
def Bd2 (c : Dev nD) : Valuation τ sig (Elt F) :=
  Pipeline.withArrays spec0 c (Bd1 m c) fun w => (dat0 (Bv1 m) c).arrAt w cfg0.N
theorem Bd2_arr (c : Dev nD) (w : Fin cfg0.W) :
    Bd2 m c (Proc.devRef .tc (Pipeline.arrRef spec0 w)) = (dat0 (Bv1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev Bv2 : (c : Dev nD) → (b : Ref sig .tc) → Buf (Elt F) ((c : Thread nD τ).loc b) := fun c b => Bd2 m c b
theorem hF0 (c : Dev nD) (w : Fin cfg0.W) : (dat0 (Bv1 m) c).arrAt w cfg0.N = Bv2 m c (Pipeline.arrRef spec0 w) :=
  (Bd2_arr m c w).symm
theorem hrest0 (c : Dev nD) : ∀ b, b ∉ Finset.univ.image (Pipeline.arrRef spec0) → Bv2 m c b = Bv1 m c b :=
  fun b hb => Bd2_of_ne m c b fun w e => hb (Finset.mem_image.mpr ⟨w, Finset.mem_univ _, e⟩)
/-- An input window's array leaves region 0 as it entered. -/
theorem Bd2_in (c : Dev nD) (w : Fin cfg0.W) (hin : (cfg0.win w).isOut = false) :
    Bd2 m c (Proc.devRef .tc (Pipeline.arrRef spec0 w)) = Bd1 m c (Proc.devRef .tc (Pipeline.arrRef spec0 w)) :=
  (Bd2_arr m c w).trans (((dat0 (Bv1 m) c).arrAt_in w hin _).trans (A_eq0 (Bv1 m) c w))

/-- After the host operations before region 1. -/
abbrev Bd3 : Dev nD → Valuation τ sig (Elt F) := fun c => StableHlo.after hostOps1 (Bd2 m c)
abbrev Bv3 : (c : Dev nD) → (b : Ref sig .tc) → Buf (Elt F) ((c : Thread nD τ).loc b) := fun c b => Bd3 m c b
/-- After region 1: its windows' arrays at what the pipeline leaves, every other buffer as entered. -/
def Bd4 (c : Dev nD) : Valuation τ sig (Elt F) :=
  Pipeline.withArrays spec1 c (Bd3 m c) fun w => (dat1 (Bv3 m) c).arrAt w cfg1.N
theorem Bd4_arr (c : Dev nD) (w : Fin cfg1.W) :
    Bd4 m c (Proc.devRef .tc (Pipeline.arrRef spec1 w)) = (dat1 (Bv3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev Bv4 : (c : Dev nD) → (b : Ref sig .tc) → Buf (Elt F) ((c : Thread nD τ).loc b) := fun c b => Bd4 m c b
theorem hF1 (c : Dev nD) (w : Fin cfg1.W) : (dat1 (Bv3 m) c).arrAt w cfg1.N = Bv4 m c (Pipeline.arrRef spec1 w) :=
  (Bd4_arr m c w).symm
theorem hrest1 (c : Dev nD) : ∀ b, b ∉ Finset.univ.image (Pipeline.arrRef spec1) → Bv4 m c b = Bv3 m c b :=
  fun b hb => Bd4_of_ne m c b fun w e => hb (Finset.mem_image.mpr ⟨w, Finset.mem_univ _, e⟩)
/-- An input window's array leaves region 1 as it entered. -/
theorem Bd4_in (c : Dev nD) (w : Fin cfg1.W) (hin : (cfg1.win w).isOut = false) :
    Bd4 m c (Proc.devRef .tc (Pipeline.arrRef spec1 w)) = Bd3 m c (Proc.devRef .tc (Pipeline.arrRef spec1 w)) :=
  (Bd4_arr m c w).trans (((dat1 (Bv3 m) c).arrAt_in w hin _).trans (A_eq1 (Bv3 m) c w))

/-- After the host operations before region 2. -/
abbrev Bd5 : Dev nD → Valuation τ sig (Elt F) := fun c => StableHlo.after hostOps2 (Bd4 m c)
abbrev Bv5 : (c : Dev nD) → (b : Ref sig .tc) → Buf (Elt F) ((c : Thread nD τ).loc b) := fun c b => Bd5 m c b
/-- After region 2: its windows' arrays at what the pipeline leaves, every other buffer as entered. -/
def Bd6 (c : Dev nD) : Valuation τ sig (Elt F) :=
  Pipeline.withArrays spec2 c (Bd5 m c) fun w => (dat2 (Bv5 m) c).arrAt w cfg2.N
theorem Bd6_arr (c : Dev nD) (w : Fin cfg2.W) :
    Bd6 m c (Proc.devRef .tc (Pipeline.arrRef spec2 w)) = (dat2 (Bv5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev Bv6 : (c : Dev nD) → (b : Ref sig .tc) → Buf (Elt F) ((c : Thread nD τ).loc b) := fun c b => Bd6 m c b
theorem hF2 (c : Dev nD) (w : Fin cfg2.W) : (dat2 (Bv5 m) c).arrAt w cfg2.N = Bv6 m c (Pipeline.arrRef spec2 w) :=
  (Bd6_arr m c w).symm
theorem hrest2 (c : Dev nD) : ∀ b, b ∉ Finset.univ.image (Pipeline.arrRef spec2) → Bv6 m c b = Bv5 m c b :=
  fun b hb => Bd6_of_ne m c b fun w e => hb (Finset.mem_image.mpr ⟨w, Finset.mem_univ _, e⟩)
/-- An input window's array leaves region 2 as it entered. -/
theorem Bd6_in (c : Dev nD) (w : Fin cfg2.W) (hin : (cfg2.win w).isOut = false) :
    Bd6 m c (Proc.devRef .tc (Pipeline.arrRef spec2 w)) = Bd5 m c (Proc.devRef .tc (Pipeline.arrRef spec2 w)) :=
  (Bd6_arr m c w).trans (((dat2 (Bv5 m) c).arrAt_in w hin _).trans (A_eq2 (Bv5 m) c w))

/-- After the host operations before region 3. -/
abbrev Bd7 : Dev nD → Valuation τ sig (Elt F) := fun c => StableHlo.after hostOps3 (Bd6 m c)
abbrev Bv7 : (c : Dev nD) → (b : Ref sig .tc) → Buf (Elt F) ((c : Thread nD τ).loc b) := fun c b => Bd7 m c b
/-- After region 3: its windows' arrays at what the pipeline leaves, every other buffer as entered. -/
def Bd8 (c : Dev nD) : Valuation τ sig (Elt F) :=
  Pipeline.withArrays spec3 c (Bd7 m c) fun w => (dat3 (Bv7 m) c).arrAt w cfg3.N
theorem Bd8_arr (c : Dev nD) (w : Fin cfg3.W) :
    Bd8 m c (Proc.devRef .tc (Pipeline.arrRef spec3 w)) = (dat3 (Bv7 m) c).arrAt w cfg3.N := by
  unfold Bd8; exact Pipeline.withArrays_arr spec3 launch3.win.arr_inj c _ _ w
theorem Bd8_of_ne (c : Dev nD) (b : Ref sig .tc) (hb : ∀ w, Pipeline.arrRef spec3 w ≠ b) :
    Bd8 m c (Proc.devRef .tc b) = Bd7 m c (Proc.devRef .tc b) := by
  unfold Bd8; exact Pipeline.withArrays_of_ne spec3 c _ _ b hb
abbrev Bv8 : (c : Dev nD) → (b : Ref sig .tc) → Buf (Elt F) ((c : Thread nD τ).loc b) := fun c b => Bd8 m c b
theorem hF3 (c : Dev nD) (w : Fin cfg3.W) : (dat3 (Bv7 m) c).arrAt w cfg3.N = Bv8 m c (Pipeline.arrRef spec3 w) :=
  (Bd8_arr m c w).symm
theorem hrest3 (c : Dev nD) : ∀ b, b ∉ Finset.univ.image (Pipeline.arrRef spec3) → Bv8 m c b = Bv7 m c b :=
  fun b hb => Bd8_of_ne m c b fun w e => hb (Finset.mem_image.mpr ⟨w, Finset.mem_univ _, e⟩)
/-- An input window's array leaves region 3 as it entered. -/
theorem Bd8_in (c : Dev nD) (w : Fin cfg3.W) (hin : (cfg3.win w).isOut = false) :
    Bd8 m c (Proc.devRef .tc (Pipeline.arrRef spec3 w)) = Bd7 m c (Proc.devRef .tc (Pipeline.arrRef spec3 w)) :=
  (Bd8_arr m c w).trans (((dat3 (Bv7 m) c).arrAt_in w hin _).trans (A_eq3 (Bv7 m) c w))

/-- After the host operations before region 4. -/
abbrev Bd9 : Dev nD → Valuation τ sig (Elt F) := fun c => StableHlo.after hostOps4 (Bd8 m c)
abbrev Bv9 : (c : Dev nD) → (b : Ref sig .tc) → Buf (Elt F) ((c : Thread nD τ).loc b) := fun c b => Bd9 m c b
/-- After region 4: its windows' arrays at what the pipeline leaves, every other buffer as entered. -/
def Bd10 (c : Dev nD) : Valuation τ sig (Elt F) :=
  Pipeline.withArrays spec4 c (Bd9 m c) fun w => (dat4 (Bv9 m) c).arrAt w cfg4.N
theorem Bd10_arr (c : Dev nD) (w : Fin cfg4.W) :
    Bd10 m c (Proc.devRef .tc (Pipeline.arrRef spec4 w)) = (dat4 (Bv9 m) c).arrAt w cfg4.N := by
  unfold Bd10; exact Pipeline.withArrays_arr spec4 launch4.win.arr_inj c _ _ w
theorem Bd10_of_ne (c : Dev nD) (b : Ref sig .tc) (hb : ∀ w, Pipeline.arrRef spec4 w ≠ b) :
    Bd10 m c (Proc.devRef .tc b) = Bd9 m c (Proc.devRef .tc b) := by
  unfold Bd10; exact Pipeline.withArrays_of_ne spec4 c _ _ b hb
abbrev Bv10 : (c : Dev nD) → (b : Ref sig .tc) → Buf (Elt F) ((c : Thread nD τ).loc b) := fun c b => Bd10 m c b
theorem hF4 (c : Dev nD) (w : Fin cfg4.W) : (dat4 (Bv9 m) c).arrAt w cfg4.N = Bv10 m c (Pipeline.arrRef spec4 w) :=
  (Bd10_arr m c w).symm
theorem hrest4 (c : Dev nD) : ∀ b, b ∉ Finset.univ.image (Pipeline.arrRef spec4) → Bv10 m c b = Bv9 m c b :=
  fun b hb => Bd10_of_ne m c b fun w e => hb (Finset.mem_image.mpr ⟨w, Finset.mem_univ _, e⟩)
/-- An input window's array leaves region 4 as it entered. -/
theorem Bd10_in (c : Dev nD) (w : Fin cfg4.W) (hin : (cfg4.win w).isOut = false) :
    Bd10 m c (Proc.devRef .tc (Pipeline.arrRef spec4 w)) = Bd9 m c (Proc.devRef .tc (Pipeline.arrRef spec4 w)) :=
  (Bd10_arr m c w).trans (((dat4 (Bv9 m) c).arrAt_in w hin _).trans (A_eq4 (Bv9 m) c w))

/-- After the host operations before region 5. -/
abbrev Bd11 : Dev nD → Valuation τ sig (Elt F) := fun c => StableHlo.after hostOps5 (Bd10 m c)
abbrev Bv11 : (c : Dev nD) → (b : Ref sig .tc) → Buf (Elt F) ((c : Thread nD τ).loc b) := fun c b => Bd11 m c b
/-- After region 5: its windows' arrays at what the pipeline leaves, every other buffer as entered. -/
def Bd12 (c : Dev nD) : Valuation τ sig (Elt F) :=
  Pipeline.withArrays spec5 c (Bd11 m c) fun w => (dat5 (Bv11 m) c).arrAt w cfg5.N
theorem Bd12_arr (c : Dev nD) (w : Fin cfg5.W) :
    Bd12 m c (Proc.devRef .tc (Pipeline.arrRef spec5 w)) = (dat5 (Bv11 m) c).arrAt w cfg5.N := by
  unfold Bd12; exact Pipeline.withArrays_arr spec5 launch5.win.arr_inj c _ _ w
theorem Bd12_of_ne (c : Dev nD) (b : Ref sig .tc) (hb : ∀ w, Pipeline.arrRef spec5 w ≠ b) :
    Bd12 m c (Proc.devRef .tc b) = Bd11 m c (Proc.devRef .tc b) := by
  unfold Bd12; exact Pipeline.withArrays_of_ne spec5 c _ _ b hb
abbrev Bv12 : (c : Dev nD) → (b : Ref sig .tc) → Buf (Elt F) ((c : Thread nD τ).loc b) := fun c b => Bd12 m c b
theorem hF5 (c : Dev nD) (w : Fin cfg5.W) : (dat5 (Bv11 m) c).arrAt w cfg5.N = Bv12 m c (Pipeline.arrRef spec5 w) :=
  (Bd12_arr m c w).symm
theorem hrest5 (c : Dev nD) : ∀ b, b ∉ Finset.univ.image (Pipeline.arrRef spec5) → Bv12 m c b = Bv11 m c b :=
  fun b hb => Bd12_of_ne m c b fun w e => hb (Finset.mem_image.mpr ⟨w, Finset.mem_univ _, e⟩)
/-- An input window's array leaves region 5 as it entered. -/
theorem Bd12_in (c : Dev nD) (w : Fin cfg5.W) (hin : (cfg5.win w).isOut = false) :
    Bd12 m c (Proc.devRef .tc (Pipeline.arrRef spec5 w)) = Bd11 m c (Proc.devRef .tc (Pipeline.arrRef spec5 w)) :=
  (Bd12_arr m c w).trans (((dat5 (Bv11 m) c).arrAt_in w hin _).trans (A_eq5 (Bv11 m) c w))

/-- After the host operations before region 6. -/
abbrev Bd13 : Dev nD → Valuation τ sig (Elt F) := fun c => StableHlo.after hostOps6 (Bd12 m c)
abbrev Bv13 : (c : Dev nD) → (b : Ref sig .tc) → Buf (Elt F) ((c : Thread nD τ).loc b) := fun c b => Bd13 m c b
/-- After region 6: its windows' arrays at what the pipeline leaves, every other buffer as entered. -/
def Bd14 (c : Dev nD) : Valuation τ sig (Elt F) :=
  Pipeline.withArrays spec6 c (Bd13 m c) fun w => (dat6 (Bv13 m) c).arrAt w cfg6.N
theorem Bd14_arr (c : Dev nD) (w : Fin cfg6.W) :
    Bd14 m c (Proc.devRef .tc (Pipeline.arrRef spec6 w)) = (dat6 (Bv13 m) c).arrAt w cfg6.N := by
  unfold Bd14; exact Pipeline.withArrays_arr spec6 launch6.win.arr_inj c _ _ w
theorem Bd14_of_ne (c : Dev nD) (b : Ref sig .tc) (hb : ∀ w, Pipeline.arrRef spec6 w ≠ b) :
    Bd14 m c (Proc.devRef .tc b) = Bd13 m c (Proc.devRef .tc b) := by
  unfold Bd14; exact Pipeline.withArrays_of_ne spec6 c _ _ b hb
abbrev Bv14 : (c : Dev nD) → (b : Ref sig .tc) → Buf (Elt F) ((c : Thread nD τ).loc b) := fun c b => Bd14 m c b
theorem hF6 (c : Dev nD) (w : Fin cfg6.W) : (dat6 (Bv13 m) c).arrAt w cfg6.N = Bv14 m c (Pipeline.arrRef spec6 w) :=
  (Bd14_arr m c w).symm
theorem hrest6 (c : Dev nD) : ∀ b, b ∉ Finset.univ.image (Pipeline.arrRef spec6) → Bv14 m c b = Bv13 m c b :=
  fun b hb => Bd14_of_ne m c b fun w e => hb (Finset.mem_image.mpr ⟨w, Finset.mem_univ _, e⟩)
/-- An input window's array leaves region 6 as it entered. -/
theorem Bd14_in (c : Dev nD) (w : Fin cfg6.W) (hin : (cfg6.win w).isOut = false) :
    Bd14 m c (Proc.devRef .tc (Pipeline.arrRef spec6 w)) = Bd13 m c (Proc.devRef .tc (Pipeline.arrRef spec6 w)) :=
  (Bd14_arr m c w).trans (((dat6 (Bv13 m) c).arrAt_in w hin _).trans (A_eq6 (Bv13 m) c w))

/-- After the host operations before region 7. -/
abbrev Bd15 : Dev nD → Valuation τ sig (Elt F) := fun c => StableHlo.after hostOps7 (Bd14 m c)
abbrev Bv15 : (c : Dev nD) → (b : Ref sig .tc) → Buf (Elt F) ((c : Thread nD τ).loc b) := fun c b => Bd15 m c b
/-- After region 7: its windows' arrays at what the pipeline leaves, every other buffer as entered. -/
def Bd16 (c : Dev nD) : Valuation τ sig (Elt F) :=
  Pipeline.withArrays spec7 c (Bd15 m c) fun w => (dat7 (Bv15 m) c).arrAt w cfg7.N
theorem Bd16_arr (c : Dev nD) (w : Fin cfg7.W) :
    Bd16 m c (Proc.devRef .tc (Pipeline.arrRef spec7 w)) = (dat7 (Bv15 m) c).arrAt w cfg7.N := by
  unfold Bd16; exact Pipeline.withArrays_arr spec7 launch7.win.arr_inj c _ _ w
theorem Bd16_of_ne (c : Dev nD) (b : Ref sig .tc) (hb : ∀ w, Pipeline.arrRef spec7 w ≠ b) :
    Bd16 m c (Proc.devRef .tc b) = Bd15 m c (Proc.devRef .tc b) := by
  unfold Bd16; exact Pipeline.withArrays_of_ne spec7 c _ _ b hb
abbrev Bv16 : (c : Dev nD) → (b : Ref sig .tc) → Buf (Elt F) ((c : Thread nD τ).loc b) := fun c b => Bd16 m c b
theorem hF7 (c : Dev nD) (w : Fin cfg7.W) : (dat7 (Bv15 m) c).arrAt w cfg7.N = Bv16 m c (Pipeline.arrRef spec7 w) :=
  (Bd16_arr m c w).symm
theorem hrest7 (c : Dev nD) : ∀ b, b ∉ Finset.univ.image (Pipeline.arrRef spec7) → Bv16 m c b = Bv15 m c b :=
  fun b hb => Bd16_of_ne m c b fun w e => hb (Finset.mem_image.mpr ⟨w, Finset.mem_univ _, e⟩)
/-- An input window's array leaves region 7 as it entered. -/
theorem Bd16_in (c : Dev nD) (w : Fin cfg7.W) (hin : (cfg7.win w).isOut = false) :
    Bd16 m c (Proc.devRef .tc (Pipeline.arrRef spec7 w)) = Bd15 m c (Proc.devRef .tc (Pipeline.arrRef spec7 w)) :=
  (Bd16_arr m c w).trans (((dat7 (Bv15 m) c).arrAt_in w hin _).trans (A_eq7 (Bv15 m) c w))

/-- After the host operations before region 8. -/
abbrev Bd17 : Dev nD → Valuation τ sig (Elt F) := fun c => StableHlo.after hostOps8 (Bd16 m c)
abbrev Bv17 : (c : Dev nD) → (b : Ref sig .tc) → Buf (Elt F) ((c : Thread nD τ).loc b) := fun c b => Bd17 m c b
/-- After region 8: its windows' arrays at what the pipeline leaves, every other buffer as entered. -/
def Bd18 (c : Dev nD) : Valuation τ sig (Elt F) :=
  Pipeline.withArrays spec8 c (Bd17 m c) fun w => (dat8 (Bv17 m) c).arrAt w cfg8.N
theorem Bd18_arr (c : Dev nD) (w : Fin cfg8.W) :
    Bd18 m c (Proc.devRef .tc (Pipeline.arrRef spec8 w)) = (dat8 (Bv17 m) c).arrAt w cfg8.N := by
  unfold Bd18; exact Pipeline.withArrays_arr spec8 launch8.win.arr_inj c _ _ w
theorem Bd18_of_ne (c : Dev nD) (b : Ref sig .tc) (hb : ∀ w, Pipeline.arrRef spec8 w ≠ b) :
    Bd18 m c (Proc.devRef .tc b) = Bd17 m c (Proc.devRef .tc b) := by
  unfold Bd18; exact Pipeline.withArrays_of_ne spec8 c _ _ b hb
abbrev Bv18 : (c : Dev nD) → (b : Ref sig .tc) → Buf (Elt F) ((c : Thread nD τ).loc b) := fun c b => Bd18 m c b
theorem hF8 (c : Dev nD) (w : Fin cfg8.W) : (dat8 (Bv17 m) c).arrAt w cfg8.N = Bv18 m c (Pipeline.arrRef spec8 w) :=
  (Bd18_arr m c w).symm
theorem hrest8 (c : Dev nD) : ∀ b, b ∉ Finset.univ.image (Pipeline.arrRef spec8) → Bv18 m c b = Bv17 m c b :=
  fun b hb => Bd18_of_ne m c b fun w e => hb (Finset.mem_image.mpr ⟨w, Finset.mem_univ _, e⟩)
/-- An input window's array leaves region 8 as it entered. -/
theorem Bd18_in (c : Dev nD) (w : Fin cfg8.W) (hin : (cfg8.win w).isOut = false) :
    Bd18 m c (Proc.devRef .tc (Pipeline.arrRef spec8 w)) = Bd17 m c (Proc.devRef .tc (Pipeline.arrRef spec8 w)) :=
  (Bd18_arr m c w).trans (((dat8 (Bv17 m) c).arrAt_in w hin _).trans (A_eq8 (Bv17 m) c w))

/-! ## The proof data of all nine pipelines, and what rides beside the buffers -/

abbrev adm : (p : Fin 9) → (pcfgs (F := F) p).Adm := fun p => (cfgs p).toPCfg_adm
/-- Each pipeline's proof data at its own region's entry contents. -/
def pdats : (p : Fin 9) → (c : Dev nD) → Dat τ (Elt F) Unit ℕ (UR sig nD τ) ℕ (Pipeline.pin (pcfgs (F := F)) adm p) c
  | ⟨0, _⟩ => fun c => dat0 (Bv1 m) c
  | ⟨1, _⟩ => fun c => dat1 (Bv3 m) c
  | ⟨2, _⟩ => fun c => dat2 (Bv5 m) c
  | ⟨3, _⟩ => fun c => dat3 (Bv7 m) c
  | ⟨4, _⟩ => fun c => dat4 (Bv9 m) c
  | ⟨5, _⟩ => fun c => dat5 (Bv11 m) c
  | ⟨6, _⟩ => fun c => dat6 (Bv13 m) c
  | ⟨7, _⟩ => fun c => dat7 (Bv15 m) c
  | ⟨8, _⟩ => fun c => dat8 (Bv17 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Bd18 m c) ∗ ∃ r, prngReg c r)

end Cert.KernelIdeal.HandRun

end
-- ==== Proof.KI.Reg0.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered with every unscoped buffer at `Bd1`, left with them at `Bd2`. Its
    windows' arrays are split out of the unscoped buffers on entry and put back at their final contents on exit;
    the generator register goes into the body's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv1 m) c).loose
  hwaits := Pipeline.hwaits_of_owed_zero _ _ _ _ L lv 0 fun _ _ => rfl
  pre c := iprop(StableHlo.held (c : Thread nD τ) (Pipeline.ucRefs τ sig) (Bd1 m c) ∗ R c)
  post c := iprop(StableHlo.held (c : Thread nD τ) (Pipeline.ucRefs τ sig) (Bd2 m c) ∗ R c)
  X c := iprop(∃ r, prngReg c r)
  Y c := iprop(∃ r, prngReg c r)
  Z c := Pipeline.unscopedRest (Ix := Unit) (Name := ℕ) (U := UR sig nD τ) (Lvl := ℕ) spec0 c (Bv1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Bv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Bv1 m) c).Φ 0 from rfl]
    iintro ⟨Hp, -, Hr⟩
    iapply (hin0 (Bv1 m) c)
    isplitl [Hp]; · iexact Hp
    iexact Hr
  hout c := by
    rw [Pipeline.ownSems0_none, show (pdats m 0 c).Φ (Fin.last _) = (dat0 (Bv1 m) c).Φ (Fin.last cfg0.N) from rfl]
    iintro HΦ
    ihave H := (hout0 (Bv1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Bv1 m c) (Bv2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandRun

end
-- ==== Proof.KI.Reg1.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: entered with every unscoped buffer at `Bd3`, left with them at `Bd4`. Its
    windows' arrays are split out of the unscoped buffers on entry and put back at their final contents on exit;
    the generator register goes into the body's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv3 m) c).loose
  hwaits := Pipeline.hwaits_of_owed_zero _ _ _ _ L lv 1 fun _ _ => rfl
  pre c := iprop(StableHlo.held (c : Thread nD τ) (Pipeline.ucRefs τ sig) (Bd3 m c) ∗ R c)
  post c := iprop(StableHlo.held (c : Thread nD τ) (Pipeline.ucRefs τ sig) (Bd4 m c) ∗ R c)
  X c := iprop(∃ r, prngReg c r)
  Y c := iprop(∃ r, prngReg c r)
  Z c := Pipeline.unscopedRest (Ix := Unit) (Name := ℕ) (U := UR sig nD τ) (Lvl := ℕ) spec1 c (Bv3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Bv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Bv3 m) c).Φ 0 from rfl]
    iintro ⟨Hp, -, Hr⟩
    iapply (hin1 (Bv3 m) c)
    isplitl [Hp]; · iexact Hp
    iexact Hr
  hout c := by
    rw [Pipeline.ownSems0_none, show (pdats m 1 c).Φ (Fin.last _) = (dat1 (Bv3 m) c).Φ (Fin.last cfg1.N) from rfl]
    iintro HΦ
    ihave H := (hout1 (Bv3 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Bv3 m c) (Bv4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandRun

end
-- ==== Proof.KI.Reg2.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered with every unscoped buffer at `Bd5`, left with them at `Bd6`. Its
    windows' arrays are split out of the unscoped buffers on entry and put back at their final contents on exit;
    the generator register goes into the body's invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Bv5 m) c).loose
  hwaits := Pipeline.hwaits_of_owed_zero _ _ _ _ L lv 2 fun _ _ => rfl
  pre c := iprop(StableHlo.held (c : Thread nD τ) (Pipeline.ucRefs τ sig) (Bd5 m c) ∗ R c)
  post c := iprop(StableHlo.held (c : Thread nD τ) (Pipeline.ucRefs τ sig) (Bd6 m c) ∗ R c)
  X c := iprop(∃ r, prngReg c r)
  Y c := iprop(∃ r, prngReg c r)
  Z c := Pipeline.unscopedRest (Ix := Unit) (Name := ℕ) (U := UR sig nD τ) (Lvl := ℕ) spec2 c (Bv5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Bv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Bv5 m) c).Φ 0 from rfl]
    iintro ⟨Hp, -, Hr⟩
    iapply (hin2 (Bv5 m) c)
    isplitl [Hp]; · iexact Hp
    iexact Hr
  hout c := by
    rw [Pipeline.ownSems0_none, show (pdats m 2 c).Φ (Fin.last _) = (dat2 (Bv5 m) c).Φ (Fin.last cfg2.N) from rfl]
    iintro HΦ
    ihave H := (hout2 (Bv5 m) c) $$ HΦ
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Bv5 m c) (Bv6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandRun

end
-- ==== Proof.KI.Reg3.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered with every unscoped buffer at `Bd7`, left with them at `Bd8`. Its
    windows' arrays are split out of the unscoped buffers on entry and put back at their final contents on exit;
    the generator register goes into the body's invariant and comes back; nothing is owed; the kernel has no
    semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Bv7 m) c).loose
  hwaits := Pipeline.hwaits_of_owed_zero _ _ _ _ L lv 3 fun _ _ => rfl
  pre c := iprop(StableHlo.held (c : Thread nD τ) (Pipeline.ucRefs τ sig) (Bd7 m c) ∗ R c)
  post c := iprop(StableHlo.held (c : Thread nD τ) (Pipeline.ucRefs τ sig) (Bd8 m c) ∗ R c)
  X c := iprop(∃ r, prngReg c r)
  Y c := iprop(∃ r, prngReg c r)
  Z c := Pipeline.unscopedRest (Ix := Unit) (Name := ℕ) (U := UR sig nD τ) (Lvl := ℕ) spec3 c (Bv7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Bv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Bv7 m) c).Φ 0 from rfl]
    iintro ⟨Hp, -, Hr⟩
    iapply (hin3 (Bv7 m) c)
    isplitl [Hp]; · iexact Hp
    iexact Hr
  hout c := by
    rw [Pipeline.ownSems0_none, show (pdats m 3 c).Φ (Fin.last _) = (dat3 (Bv7 m) c).Φ (Fin.last cfg3.N) from rfl]
    iintro HΦ
    ihave H := (hout3 (Bv7 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Bv7 m c) (Bv8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandRun

end
-- ==== Proof.KI.Reg4.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered with every unscoped buffer at `Bd9`, left with them at `Bd10`. Its
    windows' arrays are split out of the unscoped buffers on entry and put back at their final contents on exit;
    the generator register goes into the body's invariant and comes back; nothing is owed; the kernel has no
    semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Bv9 m) c).loose
  hwaits := Pipeline.hwaits_of_owed_zero _ _ _ _ L lv 4 fun _ _ => rfl
  pre c := iprop(StableHlo.held (c : Thread nD τ) (Pipeline.ucRefs τ sig) (Bd9 m c) ∗ R c)
  post c := iprop(StableHlo.held (c : Thread nD τ) (Pipeline.ucRefs τ sig) (Bd10 m c) ∗ R c)
  X c := iprop(∃ r, prngReg c r)
  Y c := iprop(∃ r, prngReg c r)
  Z c := Pipeline.unscopedRest (Ix := Unit) (Name := ℕ) (U := UR sig nD τ) (Lvl := ℕ) spec4 c (Bv9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Bv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Bv9 m) c).Φ 0 from rfl]
    iintro ⟨Hp, -, Hr⟩
    iapply (hin4 (Bv9 m) c)
    isplitl [Hp]; · iexact Hp
    iexact Hr
  hout c := by
    rw [Pipeline.ownSems0_none, show (pdats m 4 c).Φ (Fin.last _) = (dat4 (Bv9 m) c).Φ (Fin.last cfg4.N) from rfl]
    iintro HΦ
    ihave H := (hout4 (Bv9 m) c) $$ HΦ
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Bv9 m c) (Bv10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandRun

end
-- ==== Proof.KI.Reg5.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered with every unscoped buffer at `Bd11`, left with them at `Bd12`. Its
    windows' arrays are split out of the unscoped buffers on entry and put back at their final contents on exit;
    the generator register goes into the body's invariant and comes back; nothing is owed; the kernel has no
    semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Bv11 m) c).loose
  hwaits := Pipeline.hwaits_of_owed_zero _ _ _ _ L lv 5 fun _ _ => rfl
  pre c := iprop(StableHlo.held (c : Thread nD τ) (Pipeline.ucRefs τ sig) (Bd11 m c) ∗ R c)
  post c := iprop(StableHlo.held (c : Thread nD τ) (Pipeline.ucRefs τ sig) (Bd12 m c) ∗ R c)
  X c := iprop(∃ r, prngReg c r)
  Y c := iprop(∃ r, prngReg c r)
  Z c := Pipeline.unscopedRest (Ix := Unit) (Name := ℕ) (U := UR sig nD τ) (Lvl := ℕ) spec5 c (Bv11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Bv11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (Bv11 m) c).Φ 0 from rfl]
    iintro ⟨Hp, -, Hr⟩
    iapply (hin5 (Bv11 m) c)
    isplitl [Hp]; · iexact Hp
    iexact Hr
  hout c := by
    rw [Pipeline.ownSems0_none, show (pdats m 5 c).Φ (Fin.last _) = (dat5 (Bv11 m) c).Φ (Fin.last cfg5.N) from rfl]
    iintro HΦ
    ihave H := (hout5 (Bv11 m) c) $$ HΦ
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Bv11 m c) (Bv12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandRun

end
-- ==== Proof.KI.Reg6.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6 over the thread state: entered with every unscoped buffer at `Bd13`, left with them at `Bd14`. Its
    windows' arrays are split out of the unscoped buffers on entry and put back at their final contents on exit;
    the generator register goes into the body's invariant and comes back; nothing is owed; the kernel has no
    semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Bv13 m) c).loose
  hwaits := Pipeline.hwaits_of_owed_zero _ _ _ _ L lv 6 fun _ _ => rfl
  pre c := iprop(StableHlo.held (c : Thread nD τ) (Pipeline.ucRefs τ sig) (Bd13 m c) ∗ R c)
  post c := iprop(StableHlo.held (c : Thread nD τ) (Pipeline.ucRefs τ sig) (Bd14 m c) ∗ R c)
  X c := iprop(∃ r, prngReg c r)
  Y c := iprop(∃ r, prngReg c r)
  Z c := Pipeline.unscopedRest (Ix := Unit) (Name := ℕ) (U := UR sig nD τ) (Lvl := ℕ) spec6 c (Bv13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Bv13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Bv13 m) c).Φ 0 from rfl]
    iintro ⟨Hp, -, Hr⟩
    iapply (hin6 (Bv13 m) c)
    isplitl [Hp]; · iexact Hp
    iexact Hr
  hout c := by
    rw [Pipeline.ownSems0_none, show (pdats m 6 c).Φ (Fin.last _) = (dat6 (Bv13 m) c).Φ (Fin.last cfg6.N) from rfl]
    iintro HΦ
    ihave H := (hout6 (Bv13 m) c) $$ HΦ
    icases H with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Bv13 m c) (Bv14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandRun

end
-- ==== Proof.KI.Reg7.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7 over the thread state: entered with every unscoped buffer at `Bd15`, left with them at `Bd16`. Its
    windows' arrays are split out of the unscoped buffers on entry and put back at their final contents on exit;
    the generator register goes into the body's invariant and comes back; nothing is owed; the kernel has no
    semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Bv15 m) c).loose
  hwaits := Pipeline.hwaits_of_owed_zero _ _ _ _ L lv 7 fun _ _ => rfl
  pre c := iprop(StableHlo.held (c : Thread nD τ) (Pipeline.ucRefs τ sig) (Bd15 m c) ∗ R c)
  post c := iprop(StableHlo.held (c : Thread nD τ) (Pipeline.ucRefs τ sig) (Bd16 m c) ∗ R c)
  X c := iprop(∃ r, prngReg c r)
  Y c := iprop(∃ r, prngReg c r)
  Z c := Pipeline.unscopedRest (Ix := Unit) (Name := ℕ) (U := UR sig nD τ) (Lvl := ℕ) spec7 c (Bv15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Bv15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (Bv15 m) c).Φ 0 from rfl]
    iintro ⟨Hp, -, Hr⟩
    iapply (hin7 (Bv15 m) c)
    isplitl [Hp]; · iexact Hp
    iexact Hr
  hout c := by
    rw [Pipeline.ownSems0_none, show (pdats m 7 c).Φ (Fin.last _) = (dat7 (Bv15 m) c).Φ (Fin.last cfg7.N) from rfl]
    iintro HΦ
    ihave H := (hout7 (Bv15 m) c) $$ HΦ
    icases H with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Bv15 m c) (Bv16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandRun

end
-- ==== Proof.KI.Reg8.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 over the thread state: entered with every unscoped buffer at `Bd17`, left with them at `Bd18`. Its
    windows' arrays are split out of the unscoped buffers on entry and put back at their final contents on exit;
    the generator register goes into the body's invariant and comes back; nothing is owed; the kernel has no
    semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Bv17 m) c).loose
  hwaits := Pipeline.hwaits_of_owed_zero _ _ _ _ L lv 8 fun _ _ => rfl
  pre c := iprop(StableHlo.held (c : Thread nD τ) (Pipeline.ucRefs τ sig) (Bd17 m c) ∗ R c)
  post c := iprop(StableHlo.held (c : Thread nD τ) (Pipeline.ucRefs τ sig) (Bd18 m c) ∗ R c)
  X c := iprop(∃ r, prngReg c r)
  Y c := iprop(∃ r, prngReg c r)
  Z c := Pipeline.unscopedRest (Ix := Unit) (Name := ℕ) (U := UR sig nD τ) (Lvl := ℕ) spec8 c (Bv17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Bv17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (Bv17 m) c).Φ 0 from rfl]
    iintro ⟨Hp, -, Hr⟩
    iapply (hin8 (Bv17 m) c)
    isplitl [Hp]; · iexact Hp
    iexact Hr
  hout c := by
    rw [Pipeline.ownSems0_none, show (pdats m 8 c).Φ (Fin.last _) = (dat8 (Bv17 m) c).Φ (Fin.last cfg8.N) from rfl]
    iintro HΦ
    ihave H := (hout8 (Bv17 m) c) $$ HΦ
    icases H with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Bv17 m c) (Bv18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.HandRun

end
-- ==== Proof.KI.Run.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals
import proofs.«128301_j8701603742430_2_alg».proof.Proof.KI.Reg0
import proofs.«128301_j8701603742430_2_alg».proof.Proof.KI.Reg1
import proofs.«128301_j8701603742430_2_alg».proof.Proof.KI.Reg2
import proofs.«128301_j8701603742430_2_alg».proof.Proof.KI.Reg3
import proofs.«128301_j8701603742430_2_alg».proof.Proof.KI.Reg4
import proofs.«128301_j8701603742430_2_alg».proof.Proof.KI.Reg5
import proofs.«128301_j8701603742430_2_alg».proof.Proof.KI.Reg6
import proofs.«128301_j8701603742430_2_alg».proof.Proof.KI.Reg7
import proofs.«128301_j8701603742430_2_alg».proof.Proof.KI.Reg8

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

/-- The program's eighteen items in order: a stretch of host operations, then a region, nine times. -/
abbrev segs : List (Pipeline.Seg (pcfgs (F := F)) adm (pdats m) () defs₀ 𝒱₀ L lv) :=
  [ .host (hseg hostOps0 hostOps0_sub hostOps0_fresh (Bd0 m)),
    .region (reg0 m),
    .host (hseg hostOps1 hostOps1_sub hostOps1_fresh (Bd2 m)),
    .region (reg1 m),
    .host (hseg hostOps2 hostOps2_sub hostOps2_fresh (Bd4 m)),
    .region (reg2 m),
    .host (hseg hostOps3 hostOps3_sub hostOps3_fresh (Bd6 m)),
    .region (reg3 m),
    .host (hseg hostOps4 hostOps4_sub hostOps4_fresh (Bd8 m)),
    .region (reg4 m),
    .host (hseg hostOps5 hostOps5_sub hostOps5_fresh (Bd10 m)),
    .region (reg5 m),
    .host (hseg hostOps6 hostOps6_sub hostOps6_fresh (Bd12 m)),
    .region (reg6 m),
    .host (hseg hostOps7 hostOps7_sub hostOps7_fresh (Bd14 m)),
    .region (reg7 m),
    .host (hseg hostOps8 hostOps8_sub hostOps8_fresh (Bd16 m)),
    .region (reg8 m) ]

theorem main_run (c : Dev nD) : main (F := F) c = Pipeline.Seg.run (segs m) := (main_chain c).trans (by chain_rfl)

set_option backward.isDefEq.respectTransparency.types false in
/-- Every weakly fair execution of the program from memory `m` with zero counters terminates without a fault, and
    the final memory holds every unscoped buffer of every core at the last boundary's contents `Bd18`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Bd18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
    fun c => by
      show (iprop(StableHlo.held (c : Thread nD τ) (Pipeline.ucRefs τ sig) (Bd18 m c) ∗ R c) : sProp 𝕄) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd18 m c b)
    (hfin := fun c s' => by
      iintro ⟨⟨Hh, -⟩, HSI⟩
      unfold StableHlo.held
      imodintro
      iapply (pointsTo_read_all (Pipeline.ucRefs τ sig) (fun b => (((c : Thread nD τ)).1, b)) (Bd18 m c) s')
      isplitl [Hh] <;> iassumption)
    (hQ := fun s h c => h c)

end Cert.KernelIdeal.HandRun

end
-- ==== Proof.KI.Args.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

/-! No stretch of host operations writes an argument, and a region either does not touch an argument's buffer or
    reads it through an input window, which leaves it as entered: so each argument's buffer holds its launch
    contents at the last boundary. -/

theorem Bd18_main_arg0 (c : Dev nD) : Bd18 m c (Proc.devRef .tc main_arg0) = m ((c : Thread nD τ).loc main_arg0) :=
  calc Bd18 m c (Proc.devRef .tc main_arg0)
    _ = Bd17 m c (Proc.devRef .tc main_arg0) := Bd18_of_ne m c main_arg0 (by decide)
    _ = Bd16 m c (Proc.devRef .tc main_arg0) := StableHlo.after_of_writes_sub hostOps8 _ hostOps8_writes (by decide)
    _ = Bd15 m c (Proc.devRef .tc main_arg0) := Bd16_of_ne m c main_arg0 (by decide)
    _ = Bd14 m c (Proc.devRef .tc main_arg0) := StableHlo.after_of_writes_sub hostOps7 _ hostOps7_writes (by decide)
    _ = Bd13 m c (Proc.devRef .tc main_arg0) := Bd14_of_ne m c main_arg0 (by decide)
    _ = Bd12 m c (Proc.devRef .tc main_arg0) := StableHlo.after_of_writes_sub hostOps6 _ hostOps6_writes (by decide)
    _ = Bd11 m c (Proc.devRef .tc main_arg0) := Bd12_of_ne m c main_arg0 (by decide)
    _ = Bd10 m c (Proc.devRef .tc main_arg0) := StableHlo.after_of_writes_sub hostOps5 _ hostOps5_writes (by decide)
    _ = Bd9 m c (Proc.devRef .tc main_arg0) := Bd10_of_ne m c main_arg0 (by decide)
    _ = Bd8 m c (Proc.devRef .tc main_arg0) := StableHlo.after_of_writes_sub hostOps4 _ hostOps4_writes (by decide)
    _ = Bd7 m c (Proc.devRef .tc main_arg0) := Bd8_of_ne m c main_arg0 (by decide)
    _ = Bd6 m c (Proc.devRef .tc main_arg0) := StableHlo.after_of_writes_sub hostOps3 _ hostOps3_writes (by decide)
    _ = Bd5 m c (Proc.devRef .tc main_arg0) := Bd6_of_ne m c main_arg0 (by decide)
    _ = Bd4 m c (Proc.devRef .tc main_arg0) := StableHlo.after_of_writes_sub hostOps2 _ hostOps2_writes (by decide)
    _ = Bd3 m c (Proc.devRef .tc main_arg0) := Bd4_of_ne m c main_arg0 (by decide)
    _ = Bd2 m c (Proc.devRef .tc main_arg0) := StableHlo.after_of_writes_sub hostOps1 _ hostOps1_writes (by decide)
    _ = Bd1 m c (Proc.devRef .tc main_arg0) := Bd2_in m c 0 rfl
    _ = Bd0 m c (Proc.devRef .tc main_arg0) := StableHlo.after_of_writes_sub hostOps0 _ hostOps0_writes (by decide)
    _ = m ((c : Thread nD τ).loc main_arg0) := rfl

theorem Bd18_main_arg1 (c : Dev nD) : Bd18 m c (Proc.devRef .tc main_arg1) = m ((c : Thread nD τ).loc main_arg1) :=
  calc Bd18 m c (Proc.devRef .tc main_arg1)
    _ = Bd17 m c (Proc.devRef .tc main_arg1) := Bd18_of_ne m c main_arg1 (by decide)
    _ = Bd16 m c (Proc.devRef .tc main_arg1) := StableHlo.after_of_writes_sub hostOps8 _ hostOps8_writes (by decide)
    _ = Bd15 m c (Proc.devRef .tc main_arg1) := Bd16_of_ne m c main_arg1 (by decide)
    _ = Bd14 m c (Proc.devRef .tc main_arg1) := StableHlo.after_of_writes_sub hostOps7 _ hostOps7_writes (by decide)
    _ = Bd13 m c (Proc.devRef .tc main_arg1) := Bd14_of_ne m c main_arg1 (by decide)
    _ = Bd12 m c (Proc.devRef .tc main_arg1) := StableHlo.after_of_writes_sub hostOps6 _ hostOps6_writes (by decide)
    _ = Bd11 m c (Proc.devRef .tc main_arg1) := Bd12_of_ne m c main_arg1 (by decide)
    _ = Bd10 m c (Proc.devRef .tc main_arg1) := StableHlo.after_of_writes_sub hostOps5 _ hostOps5_writes (by decide)
    _ = Bd9 m c (Proc.devRef .tc main_arg1) := Bd10_of_ne m c main_arg1 (by decide)
    _ = Bd8 m c (Proc.devRef .tc main_arg1) := StableHlo.after_of_writes_sub hostOps4 _ hostOps4_writes (by decide)
    _ = Bd7 m c (Proc.devRef .tc main_arg1) := Bd8_of_ne m c main_arg1 (by decide)
    _ = Bd6 m c (Proc.devRef .tc main_arg1) := StableHlo.after_of_writes_sub hostOps3 _ hostOps3_writes (by decide)
    _ = Bd5 m c (Proc.devRef .tc main_arg1) := Bd6_of_ne m c main_arg1 (by decide)
    _ = Bd4 m c (Proc.devRef .tc main_arg1) := StableHlo.after_of_writes_sub hostOps2 _ hostOps2_writes (by decide)
    _ = Bd3 m c (Proc.devRef .tc main_arg1) := Bd4_of_ne m c main_arg1 (by decide)
    _ = Bd2 m c (Proc.devRef .tc main_arg1) := StableHlo.after_of_writes_sub hostOps1 _ hostOps1_writes (by decide)
    _ = Bd1 m c (Proc.devRef .tc main_arg1) := Bd2_of_ne m c main_arg1 (by decide)
    _ = Bd0 m c (Proc.devRef .tc main_arg1) := StableHlo.after_of_writes_sub hostOps0 _ hostOps0_writes (by decide)
    _ = m ((c : Thread nD τ).loc main_arg1) := rfl

theorem Bd18_main_arg2 (c : Dev nD) : Bd18 m c (Proc.devRef .tc main_arg2) = m ((c : Thread nD τ).loc main_arg2) :=
  calc Bd18 m c (Proc.devRef .tc main_arg2)
    _ = Bd17 m c (Proc.devRef .tc main_arg2) := Bd18_of_ne m c main_arg2 (by decide)
    _ = Bd16 m c (Proc.devRef .tc main_arg2) := StableHlo.after_of_writes_sub hostOps8 _ hostOps8_writes (by decide)
    _ = Bd15 m c (Proc.devRef .tc main_arg2) := Bd16_of_ne m c main_arg2 (by decide)
    _ = Bd14 m c (Proc.devRef .tc main_arg2) := StableHlo.after_of_writes_sub hostOps7 _ hostOps7_writes (by decide)
    _ = Bd13 m c (Proc.devRef .tc main_arg2) := Bd14_of_ne m c main_arg2 (by decide)
    _ = Bd12 m c (Proc.devRef .tc main_arg2) := StableHlo.after_of_writes_sub hostOps6 _ hostOps6_writes (by decide)
    _ = Bd11 m c (Proc.devRef .tc main_arg2) := Bd12_of_ne m c main_arg2 (by decide)
    _ = Bd10 m c (Proc.devRef .tc main_arg2) := StableHlo.after_of_writes_sub hostOps5 _ hostOps5_writes (by decide)
    _ = Bd9 m c (Proc.devRef .tc main_arg2) := Bd10_of_ne m c main_arg2 (by decide)
    _ = Bd8 m c (Proc.devRef .tc main_arg2) := StableHlo.after_of_writes_sub hostOps4 _ hostOps4_writes (by decide)
    _ = Bd7 m c (Proc.devRef .tc main_arg2) := Bd8_of_ne m c main_arg2 (by decide)
    _ = Bd6 m c (Proc.devRef .tc main_arg2) := StableHlo.after_of_writes_sub hostOps3 _ hostOps3_writes (by decide)
    _ = Bd5 m c (Proc.devRef .tc main_arg2) := Bd6_of_ne m c main_arg2 (by decide)
    _ = Bd4 m c (Proc.devRef .tc main_arg2) := StableHlo.after_of_writes_sub hostOps2 _ hostOps2_writes (by decide)
    _ = Bd3 m c (Proc.devRef .tc main_arg2) := Bd4_of_ne m c main_arg2 (by decide)
    _ = Bd2 m c (Proc.devRef .tc main_arg2) := StableHlo.after_of_writes_sub hostOps1 _ hostOps1_writes (by decide)
    _ = Bd1 m c (Proc.devRef .tc main_arg2) := Bd2_in m c 2 rfl
    _ = Bd0 m c (Proc.devRef .tc main_arg2) := StableHlo.after_of_writes_sub hostOps0 _ hostOps0_writes (by decide)
    _ = m ((c : Thread nD τ).loc main_arg2) := rfl

theorem Bd18_main_arg3 (c : Dev nD) : Bd18 m c (Proc.devRef .tc main_arg3) = m ((c : Thread nD τ).loc main_arg3) :=
  calc Bd18 m c (Proc.devRef .tc main_arg3)
    _ = Bd17 m c (Proc.devRef .tc main_arg3) := Bd18_of_ne m c main_arg3 (by decide)
    _ = Bd16 m c (Proc.devRef .tc main_arg3) := StableHlo.after_of_writes_sub hostOps8 _ hostOps8_writes (by decide)
    _ = Bd15 m c (Proc.devRef .tc main_arg3) := Bd16_of_ne m c main_arg3 (by decide)
    _ = Bd14 m c (Proc.devRef .tc main_arg3) := StableHlo.after_of_writes_sub hostOps7 _ hostOps7_writes (by decide)
    _ = Bd13 m c (Proc.devRef .tc main_arg3) := Bd14_of_ne m c main_arg3 (by decide)
    _ = Bd12 m c (Proc.devRef .tc main_arg3) := StableHlo.after_of_writes_sub hostOps6 _ hostOps6_writes (by decide)
    _ = Bd11 m c (Proc.devRef .tc main_arg3) := Bd12_of_ne m c main_arg3 (by decide)
    _ = Bd10 m c (Proc.devRef .tc main_arg3) := StableHlo.after_of_writes_sub hostOps5 _ hostOps5_writes (by decide)
    _ = Bd9 m c (Proc.devRef .tc main_arg3) := Bd10_of_ne m c main_arg3 (by decide)
    _ = Bd8 m c (Proc.devRef .tc main_arg3) := StableHlo.after_of_writes_sub hostOps4 _ hostOps4_writes (by decide)
    _ = Bd7 m c (Proc.devRef .tc main_arg3) := Bd8_of_ne m c main_arg3 (by decide)
    _ = Bd6 m c (Proc.devRef .tc main_arg3) := StableHlo.after_of_writes_sub hostOps3 _ hostOps3_writes (by decide)
    _ = Bd5 m c (Proc.devRef .tc main_arg3) := Bd6_of_ne m c main_arg3 (by decide)
    _ = Bd4 m c (Proc.devRef .tc main_arg3) := StableHlo.after_of_writes_sub hostOps2 _ hostOps2_writes (by decide)
    _ = Bd3 m c (Proc.devRef .tc main_arg3) := Bd4_of_ne m c main_arg3 (by decide)
    _ = Bd2 m c (Proc.devRef .tc main_arg3) := StableHlo.after_of_writes_sub hostOps1 _ hostOps1_writes (by decide)
    _ = Bd1 m c (Proc.devRef .tc main_arg3) := Bd2_of_ne m c main_arg3 (by decide)
    _ = Bd0 m c (Proc.devRef .tc main_arg3) := StableHlo.after_of_writes_sub hostOps0 _ hostOps0_writes (by decide)
    _ = m ((c : Thread nD τ).loc main_arg3) := rfl

theorem Bd18_main_arg4 (c : Dev nD) : Bd18 m c (Proc.devRef .tc main_arg4) = m ((c : Thread nD τ).loc main_arg4) :=
  calc Bd18 m c (Proc.devRef .tc main_arg4)
    _ = Bd17 m c (Proc.devRef .tc main_arg4) := Bd18_of_ne m c main_arg4 (by decide)
    _ = Bd16 m c (Proc.devRef .tc main_arg4) := StableHlo.after_of_writes_sub hostOps8 _ hostOps8_writes (by decide)
    _ = Bd15 m c (Proc.devRef .tc main_arg4) := Bd16_of_ne m c main_arg4 (by decide)
    _ = Bd14 m c (Proc.devRef .tc main_arg4) := StableHlo.after_of_writes_sub hostOps7 _ hostOps7_writes (by decide)
    _ = Bd13 m c (Proc.devRef .tc main_arg4) := Bd14_of_ne m c main_arg4 (by decide)
    _ = Bd12 m c (Proc.devRef .tc main_arg4) := StableHlo.after_of_writes_sub hostOps6 _ hostOps6_writes (by decide)
    _ = Bd11 m c (Proc.devRef .tc main_arg4) := Bd12_of_ne m c main_arg4 (by decide)
    _ = Bd10 m c (Proc.devRef .tc main_arg4) := StableHlo.after_of_writes_sub hostOps5 _ hostOps5_writes (by decide)
    _ = Bd9 m c (Proc.devRef .tc main_arg4) := Bd10_of_ne m c main_arg4 (by decide)
    _ = Bd8 m c (Proc.devRef .tc main_arg4) := StableHlo.after_of_writes_sub hostOps4 _ hostOps4_writes (by decide)
    _ = Bd7 m c (Proc.devRef .tc main_arg4) := Bd8_of_ne m c main_arg4 (by decide)
    _ = Bd6 m c (Proc.devRef .tc main_arg4) := StableHlo.after_of_writes_sub hostOps3 _ hostOps3_writes (by decide)
    _ = Bd5 m c (Proc.devRef .tc main_arg4) := Bd6_of_ne m c main_arg4 (by decide)
    _ = Bd4 m c (Proc.devRef .tc main_arg4) := StableHlo.after_of_writes_sub hostOps2 _ hostOps2_writes (by decide)
    _ = Bd3 m c (Proc.devRef .tc main_arg4) := Bd4_of_ne m c main_arg4 (by decide)
    _ = Bd2 m c (Proc.devRef .tc main_arg4) := StableHlo.after_of_writes_sub hostOps1 _ hostOps1_writes (by decide)
    _ = Bd1 m c (Proc.devRef .tc main_arg4) := Bd2_of_ne m c main_arg4 (by decide)
    _ = Bd0 m c (Proc.devRef .tc main_arg4) := StableHlo.after_of_writes_sub hostOps0 _ hostOps0_writes (by decide)
    _ = m ((c : Thread nD τ).loc main_arg4) := rfl

theorem Bd18_main_arg5 (c : Dev nD) : Bd18 m c (Proc.devRef .tc main_arg5) = m ((c : Thread nD τ).loc main_arg5) :=
  calc Bd18 m c (Proc.devRef .tc main_arg5)
    _ = Bd17 m c (Proc.devRef .tc main_arg5) := Bd18_of_ne m c main_arg5 (by decide)
    _ = Bd16 m c (Proc.devRef .tc main_arg5) := StableHlo.after_of_writes_sub hostOps8 _ hostOps8_writes (by decide)
    _ = Bd15 m c (Proc.devRef .tc main_arg5) := Bd16_of_ne m c main_arg5 (by decide)
    _ = Bd14 m c (Proc.devRef .tc main_arg5) := StableHlo.after_of_writes_sub hostOps7 _ hostOps7_writes (by decide)
    _ = Bd13 m c (Proc.devRef .tc main_arg5) := Bd14_of_ne m c main_arg5 (by decide)
    _ = Bd12 m c (Proc.devRef .tc main_arg5) := StableHlo.after_of_writes_sub hostOps6 _ hostOps6_writes (by decide)
    _ = Bd11 m c (Proc.devRef .tc main_arg5) := Bd12_of_ne m c main_arg5 (by decide)
    _ = Bd10 m c (Proc.devRef .tc main_arg5) := StableHlo.after_of_writes_sub hostOps5 _ hostOps5_writes (by decide)
    _ = Bd9 m c (Proc.devRef .tc main_arg5) := Bd10_of_ne m c main_arg5 (by decide)
    _ = Bd8 m c (Proc.devRef .tc main_arg5) := StableHlo.after_of_writes_sub hostOps4 _ hostOps4_writes (by decide)
    _ = Bd7 m c (Proc.devRef .tc main_arg5) := Bd8_of_ne m c main_arg5 (by decide)
    _ = Bd6 m c (Proc.devRef .tc main_arg5) := StableHlo.after_of_writes_sub hostOps3 _ hostOps3_writes (by decide)
    _ = Bd5 m c (Proc.devRef .tc main_arg5) := Bd6_of_ne m c main_arg5 (by decide)
    _ = Bd4 m c (Proc.devRef .tc main_arg5) := StableHlo.after_of_writes_sub hostOps2 _ hostOps2_writes (by decide)
    _ = Bd3 m c (Proc.devRef .tc main_arg5) := Bd4_of_ne m c main_arg5 (by decide)
    _ = Bd2 m c (Proc.devRef .tc main_arg5) := StableHlo.after_of_writes_sub hostOps1 _ hostOps1_writes (by decide)
    _ = Bd1 m c (Proc.devRef .tc main_arg5) := Bd2_of_ne m c main_arg5 (by decide)
    _ = Bd0 m c (Proc.devRef .tc main_arg5) := StableHlo.after_of_writes_sub hostOps0 _ hostOps0_writes (by decide)
    _ = m ((c : Thread nD τ).loc main_arg5) := rfl

theorem Bd18_main_arg6 (c : Dev nD) : Bd18 m c (Proc.devRef .tc main_arg6) = m ((c : Thread nD τ).loc main_arg6) :=
  calc Bd18 m c (Proc.devRef .tc main_arg6)
    _ = Bd17 m c (Proc.devRef .tc main_arg6) := Bd18_in m c 2 rfl
    _ = Bd16 m c (Proc.devRef .tc main_arg6) := StableHlo.after_of_writes_sub hostOps8 _ hostOps8_writes (by decide)
    _ = Bd15 m c (Proc.devRef .tc main_arg6) := Bd16_of_ne m c main_arg6 (by decide)
    _ = Bd14 m c (Proc.devRef .tc main_arg6) := StableHlo.after_of_writes_sub hostOps7 _ hostOps7_writes (by decide)
    _ = Bd13 m c (Proc.devRef .tc main_arg6) := Bd14_of_ne m c main_arg6 (by decide)
    _ = Bd12 m c (Proc.devRef .tc main_arg6) := StableHlo.after_of_writes_sub hostOps6 _ hostOps6_writes (by decide)
    _ = Bd11 m c (Proc.devRef .tc main_arg6) := Bd12_of_ne m c main_arg6 (by decide)
    _ = Bd10 m c (Proc.devRef .tc main_arg6) := StableHlo.after_of_writes_sub hostOps5 _ hostOps5_writes (by decide)
    _ = Bd9 m c (Proc.devRef .tc main_arg6) := Bd10_of_ne m c main_arg6 (by decide)
    _ = Bd8 m c (Proc.devRef .tc main_arg6) := StableHlo.after_of_writes_sub hostOps4 _ hostOps4_writes (by decide)
    _ = Bd7 m c (Proc.devRef .tc main_arg6) := Bd8_of_ne m c main_arg6 (by decide)
    _ = Bd6 m c (Proc.devRef .tc main_arg6) := StableHlo.after_of_writes_sub hostOps3 _ hostOps3_writes (by decide)
    _ = Bd5 m c (Proc.devRef .tc main_arg6) := Bd6_of_ne m c main_arg6 (by decide)
    _ = Bd4 m c (Proc.devRef .tc main_arg6) := StableHlo.after_of_writes_sub hostOps2 _ hostOps2_writes (by decide)
    _ = Bd3 m c (Proc.devRef .tc main_arg6) := Bd4_of_ne m c main_arg6 (by decide)
    _ = Bd2 m c (Proc.devRef .tc main_arg6) := StableHlo.after_of_writes_sub hostOps1 _ hostOps1_writes (by decide)
    _ = Bd1 m c (Proc.devRef .tc main_arg6) := Bd2_of_ne m c main_arg6 (by decide)
    _ = Bd0 m c (Proc.devRef .tc main_arg6) := StableHlo.after_of_writes_sub hostOps0 _ hostOps0_writes (by decide)
    _ = m ((c : Thread nD τ).loc main_arg6) := rfl

theorem Bd18_main_arg7 (c : Dev nD) : Bd18 m c (Proc.devRef .tc main_arg7) = m ((c : Thread nD τ).loc main_arg7) :=
  calc Bd18 m c (Proc.devRef .tc main_arg7)
    _ = Bd17 m c (Proc.devRef .tc main_arg7) := Bd18_of_ne m c main_arg7 (by decide)
    _ = Bd16 m c (Proc.devRef .tc main_arg7) := StableHlo.after_of_writes_sub hostOps8 _ hostOps8_writes (by decide)
    _ = Bd15 m c (Proc.devRef .tc main_arg7) := Bd16_of_ne m c main_arg7 (by decide)
    _ = Bd14 m c (Proc.devRef .tc main_arg7) := StableHlo.after_of_writes_sub hostOps7 _ hostOps7_writes (by decide)
    _ = Bd13 m c (Proc.devRef .tc main_arg7) := Bd14_of_ne m c main_arg7 (by decide)
    _ = Bd12 m c (Proc.devRef .tc main_arg7) := StableHlo.after_of_writes_sub hostOps6 _ hostOps6_writes (by decide)
    _ = Bd11 m c (Proc.devRef .tc main_arg7) := Bd12_of_ne m c main_arg7 (by decide)
    _ = Bd10 m c (Proc.devRef .tc main_arg7) := StableHlo.after_of_writes_sub hostOps5 _ hostOps5_writes (by decide)
    _ = Bd9 m c (Proc.devRef .tc main_arg7) := Bd10_of_ne m c main_arg7 (by decide)
    _ = Bd8 m c (Proc.devRef .tc main_arg7) := StableHlo.after_of_writes_sub hostOps4 _ hostOps4_writes (by decide)
    _ = Bd7 m c (Proc.devRef .tc main_arg7) := Bd8_of_ne m c main_arg7 (by decide)
    _ = Bd6 m c (Proc.devRef .tc main_arg7) := StableHlo.after_of_writes_sub hostOps3 _ hostOps3_writes (by decide)
    _ = Bd5 m c (Proc.devRef .tc main_arg7) := Bd6_of_ne m c main_arg7 (by decide)
    _ = Bd4 m c (Proc.devRef .tc main_arg7) := StableHlo.after_of_writes_sub hostOps2 _ hostOps2_writes (by decide)
    _ = Bd3 m c (Proc.devRef .tc main_arg7) := Bd4_of_ne m c main_arg7 (by decide)
    _ = Bd2 m c (Proc.devRef .tc main_arg7) := StableHlo.after_of_writes_sub hostOps1 _ hostOps1_writes (by decide)
    _ = Bd1 m c (Proc.devRef .tc main_arg7) := Bd2_of_ne m c main_arg7 (by decide)
    _ = Bd0 m c (Proc.devRef .tc main_arg7) := StableHlo.after_of_writes_sub hostOps0 _ hostOps0_writes (by decide)
    _ = m ((c : Thread nD τ).loc main_arg7) := rfl

theorem Bd18_main_arg8 (c : Dev nD) : Bd18 m c (Proc.devRef .tc main_arg8) = m ((c : Thread nD τ).loc main_arg8) :=
  calc Bd18 m c (Proc.devRef .tc main_arg8)
    _ = Bd17 m c (Proc.devRef .tc main_arg8) := Bd18_of_ne m c main_arg8 (by decide)
    _ = Bd16 m c (Proc.devRef .tc main_arg8) := StableHlo.after_of_writes_sub hostOps8 _ hostOps8_writes (by decide)
    _ = Bd15 m c (Proc.devRef .tc main_arg8) := Bd16_of_ne m c main_arg8 (by decide)
    _ = Bd14 m c (Proc.devRef .tc main_arg8) := StableHlo.after_of_writes_sub hostOps7 _ hostOps7_writes (by decide)
    _ = Bd13 m c (Proc.devRef .tc main_arg8) := Bd14_of_ne m c main_arg8 (by decide)
    _ = Bd12 m c (Proc.devRef .tc main_arg8) := StableHlo.after_of_writes_sub hostOps6 _ hostOps6_writes (by decide)
    _ = Bd11 m c (Proc.devRef .tc main_arg8) := Bd12_of_ne m c main_arg8 (by decide)
    _ = Bd10 m c (Proc.devRef .tc main_arg8) := StableHlo.after_of_writes_sub hostOps5 _ hostOps5_writes (by decide)
    _ = Bd9 m c (Proc.devRef .tc main_arg8) := Bd10_of_ne m c main_arg8 (by decide)
    _ = Bd8 m c (Proc.devRef .tc main_arg8) := StableHlo.after_of_writes_sub hostOps4 _ hostOps4_writes (by decide)
    _ = Bd7 m c (Proc.devRef .tc main_arg8) := Bd8_of_ne m c main_arg8 (by decide)
    _ = Bd6 m c (Proc.devRef .tc main_arg8) := StableHlo.after_of_writes_sub hostOps3 _ hostOps3_writes (by decide)
    _ = Bd5 m c (Proc.devRef .tc main_arg8) := Bd6_of_ne m c main_arg8 (by decide)
    _ = Bd4 m c (Proc.devRef .tc main_arg8) := StableHlo.after_of_writes_sub hostOps2 _ hostOps2_writes (by decide)
    _ = Bd3 m c (Proc.devRef .tc main_arg8) := Bd4_of_ne m c main_arg8 (by decide)
    _ = Bd2 m c (Proc.devRef .tc main_arg8) := StableHlo.after_of_writes_sub hostOps1 _ hostOps1_writes (by decide)
    _ = Bd1 m c (Proc.devRef .tc main_arg8) := Bd2_of_ne m c main_arg8 (by decide)
    _ = Bd0 m c (Proc.devRef .tc main_arg8) := StableHlo.after_of_writes_sub hostOps0 _ hostOps0_writes (by decide)
    _ = m ((c : Thread nD τ).loc main_arg8) := rfl

theorem Bd18_main_arg9 (c : Dev nD) : Bd18 m c (Proc.devRef .tc main_arg9) = m ((c : Thread nD τ).loc main_arg9) :=
  calc Bd18 m c (Proc.devRef .tc main_arg9)
    _ = Bd17 m c (Proc.devRef .tc main_arg9) := Bd18_of_ne m c main_arg9 (by decide)
    _ = Bd16 m c (Proc.devRef .tc main_arg9) := StableHlo.after_of_writes_sub hostOps8 _ hostOps8_writes (by decide)
    _ = Bd15 m c (Proc.devRef .tc main_arg9) := Bd16_of_ne m c main_arg9 (by decide)
    _ = Bd14 m c (Proc.devRef .tc main_arg9) := StableHlo.after_of_writes_sub hostOps7 _ hostOps7_writes (by decide)
    _ = Bd13 m c (Proc.devRef .tc main_arg9) := Bd14_of_ne m c main_arg9 (by decide)
    _ = Bd12 m c (Proc.devRef .tc main_arg9) := StableHlo.after_of_writes_sub hostOps6 _ hostOps6_writes (by decide)
    _ = Bd11 m c (Proc.devRef .tc main_arg9) := Bd12_of_ne m c main_arg9 (by decide)
    _ = Bd10 m c (Proc.devRef .tc main_arg9) := StableHlo.after_of_writes_sub hostOps5 _ hostOps5_writes (by decide)
    _ = Bd9 m c (Proc.devRef .tc main_arg9) := Bd10_of_ne m c main_arg9 (by decide)
    _ = Bd8 m c (Proc.devRef .tc main_arg9) := StableHlo.after_of_writes_sub hostOps4 _ hostOps4_writes (by decide)
    _ = Bd7 m c (Proc.devRef .tc main_arg9) := Bd8_of_ne m c main_arg9 (by decide)
    _ = Bd6 m c (Proc.devRef .tc main_arg9) := StableHlo.after_of_writes_sub hostOps3 _ hostOps3_writes (by decide)
    _ = Bd5 m c (Proc.devRef .tc main_arg9) := Bd6_of_ne m c main_arg9 (by decide)
    _ = Bd4 m c (Proc.devRef .tc main_arg9) := StableHlo.after_of_writes_sub hostOps2 _ hostOps2_writes (by decide)
    _ = Bd3 m c (Proc.devRef .tc main_arg9) := Bd4_of_ne m c main_arg9 (by decide)
    _ = Bd2 m c (Proc.devRef .tc main_arg9) := StableHlo.after_of_writes_sub hostOps1 _ hostOps1_writes (by decide)
    _ = Bd1 m c (Proc.devRef .tc main_arg9) := Bd2_of_ne m c main_arg9 (by decide)
    _ = Bd0 m c (Proc.devRef .tc main_arg9) := StableHlo.after_of_writes_sub hostOps0 _ hostOps0_writes (by decide)
    _ = m ((c : Thread nD τ).loc main_arg9) := rfl

end Cert.KernelIdeal.HandRun

end
-- ==== Proof.KI.Frame.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals
import proofs.«128301_j8701603742430_2_alg».proof.Proof.KI.Run
import proofs.«128301_j8701603742430_2_alg».proof.Proof.KI.Args

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program terminates from any memory with zero counters, faults nowhere, and leaves every argument array as
    launched: the run over the eighteen items, each argument's buffer read at the last boundary. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (Bd18_main_arg0 m c),
     (h c _ (mem_uc main_arg1 (by decide))).trans (Bd18_main_arg1 m c),
     (h c _ (mem_uc main_arg2 (by decide))).trans (Bd18_main_arg2 m c),
     (h c _ (mem_uc main_arg3 (by decide))).trans (Bd18_main_arg3 m c),
     (h c _ (mem_uc main_arg4 (by decide))).trans (Bd18_main_arg4 m c),
     (h c _ (mem_uc main_arg5 (by decide))).trans (Bd18_main_arg5 m c),
     (h c _ (mem_uc main_arg6 (by decide))).trans (Bd18_main_arg6 m c),
     (h c _ (mem_uc main_arg7 (by decide))).trans (Bd18_main_arg7 m c),
     (h c _ (mem_uc main_arg8 (by decide))).trans (Bd18_main_arg8 m c),
     (h c _ (mem_uc main_arg9 (by decide))).trans (Bd18_main_arg9 m c)⟩) (run m ρ)

end Cert.KernelIdeal.HandRun

end
-- ==== Proof.Ref.Ops0.lean ====
/-
  The first window of the reference program's @main as a list of host operations: each statement of the window
  in order, a call of a module-local function replaced by that function's operations over the call's own buffers (the
  callee's arguments the caller's values, its values the call's record), a nested call likewise. With it: the window is
  that list run in order; every operation touches TensorCore buffers only and determines its results; and the list of
  the buffers the window writes, one per operation, so that a buffer outside that list keeps its contents.
-/
import proofs.«128301_j8701603742430_2_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The first window's 83 operations, in order. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v18 : StableHlo.TRef sig ⟨S100000x64, .f32⟩) main_call0.v0 main_call0.v1 maximumf,
    StableHlo.unary main_arg8 main_v20 ((extractStridedSlice S1x64 ![0, 0] · slices_S4x64_S1x64_0_0) : (⟨S4x64, .f32⟩ : BufTy).Contents (Elt F) → (⟨S1x64, .f32⟩ : BufTy).Contents (Elt F)),
    StableHlo.reshape main_v20 main_v21 rfl shapeCasts_S1x64_S64,
    StableHlo.unary main_arg9 main_v22 ((extractStridedSlice S1x64 ![0, 0] · slices_S4x64_S1x64_0_0) : (⟨S4x64, .f32⟩ : BufTy).Contents (Elt F) → (⟨S1x64, .f32⟩ : BufTy).Contents (Elt F)),
    StableHlo.reshape main_v22 main_v23 rfl shapeCasts_S1x64_S64,
    StableHlo.nullary main_cst_1 (constant S_ .f32 0x00000000#32),
    StableHlo.binary main_v19 main_cst_1 main_v24 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v25 (broadcastInDim S64 ![] bcast_S_S64 : (⟨S_, .f32⟩ : BufTy).Contents (Elt F) → (⟨S64, .f32⟩ : BufTy).Contents (Elt F)),
    StableHlo.binary main_v24 main_v25 main_v26 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call1.cst (constant S_ .f32 0x00000000#32),
    StableHlo.TRef.binary (.of main_v19 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v19 : StableHlo.TRef sig ⟨S100000x64, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v26 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v29 main_v30 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v31 (broadcastInDim S64 ![] bcast_S_S64 : (⟨S_, .f32⟩ : BufTy).Contents (Elt F) → (⟨S64, .f32⟩ : BufTy).Contents (Elt F)),
    StableHlo.binary main_v27 main_v31 main_v32 (addf : (⟨S64, .f32⟩ : BufTy).Contents (Elt F) → (⟨S64, .f32⟩ : BufTy).Contents (Elt F) → (⟨S64, .f32⟩ : BufTy).Contents (Elt F)),
    StableHlo.unary main_v32 main_v33 (Host.rsqrt : (⟨S64, .f32⟩ : BufTy).Contents (Elt F) → (⟨S64, .f32⟩ : BufTy).Contents (Elt F)),
    StableHlo.unary main_v33 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v35 main_v36 (mulf : (⟨S100000x64, .f32⟩ : BufTy).Contents (Elt F) → (⟨S100000x64, .f32⟩ : BufTy).Contents (Elt F) → (⟨S100000x64, .f32⟩ : BufTy).Contents (Elt F)),
    StableHlo.unary main_v21 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (mulf : (⟨S100000x64, .f32⟩ : BufTy).Contents (Elt F) → (⟨S100000x64, .f32⟩ : BufTy).Contents (Elt F) → (⟨S100000x64, .f32⟩ : BufTy).Contents (Elt F)),
    StableHlo.unary main_v23 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S100000x64 ![0, 1] bcast_S1x64_S100000x64_0_1 : (⟨S1x64, .f32⟩ : BufTy).Contents (Elt F) → (⟨S100000x64, .f32⟩ : BufTy).Contents (Elt F)),
    StableHlo.binary main_v39 main_v41 main_v42 (addf : (⟨S100000x64, .f32⟩ : BufTy).Contents (Elt F) → (⟨S100000x64, .f32⟩ : BufTy).Contents (Elt F) → (⟨S100000x64, .f32⟩ : BufTy).Contents (Elt F)),
    StableHlo.unary main_arg4 main_v43 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v43 main_v44 rfl shapeCasts_S1x64x64_S64x64,
    StableHlo.unary main_arg5 main_v45 ((extractStridedSlice S1x64 ![0, 0] · slices_S3x64_S1x64_0_0) : (⟨S3x64, .f32⟩ : BufTy).Contents (Elt F) → (⟨S1x64, .f32⟩ : BufTy).Contents (Elt F)),
    StableHlo.reshape main_v45 main_v46 rfl shapeCasts_S1x64_S64,
    StableHlo.nullary main_c_5 (constantI S_ 32 0#32),
    StableHlo.unary main_c_5 main_v47 (broadcastInDim S1600000 ![] bcast_S_S1600000 : (⟨S_, .i32⟩ : BufTy).Contents (Elt F) → (⟨S1600000, .i32⟩ : BufTy).Contents (Elt F)),
    StableHlo.binary main_v1 main_v47 main_v48 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v49 (broadcastInDim S1600000 ![] bcast_S_S1600000 : (⟨S_, .i32⟩ : BufTy).Contents (Elt F) → (⟨S1600000, .i32⟩ : BufTy).Contents (Elt F)),
    StableHlo.binary main_v1 main_v49 main_v50 (addi : (⟨S1600000, .i32⟩ : BufTy).Contents (Elt F) → (⟨S1600000, .i32⟩ : BufTy).Contents (Elt F) → (⟨S1600000, .i32⟩ : BufTy).Contents (Elt F)) ]

set_option maxRecDepth 4096 in
set_option maxHeartbeats 4000000 in
/-- The window is that straight line: the called functions unfolded at their calls, both sides are one chain of
    host steps once sequencing is reassociated. -/
theorem main_part0_eq (c : Dev nD) : main_part0 (F := F) c = seq ops0 := by
  simp only [main_part0, fn_relu.body, fn_var.body, fn_where.body, fn_log_softmax.body, seq, bind_assoc, pure_bind]
  rfl

/-- Every operation of the window touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub ..⟩

/-- Every operation of the window determines its results. -/
theorem ops0_fresh : ∀ op ∈ (ops0 : List (HloOp τ sig (Elt F))), op.fresh = ∅ := by
  intro _ h; (repeat (cases h with | head => rfl | tail _ h => ?_)); exact nomatch h

/-- The buffers the window writes: each operation's result, in order. -/
abbrev wr0 : List (Ref sig .tc) :=
  [ main_v0, main_v1, main_v2, main_v3, main_c, main_v4, main_v5, main_c_0,
    main_v6, main_v7, main_v8, main_v9, main_v10, main_cst, main_v11, main_v12,
    main_v13, main_v14, main_v15, main_v16, main_v17, main_v18, main_call0.cst.ref, main_call0.v0.ref,
    main_call0.v1.ref, main_v20, main_v21, main_v22, main_v23, main_cst_1, main_v24, main_cst_2,
    main_v25, main_v26, main_c_3, main_call1.cst.ref, main_call1.v0.ref, main_call1.v1.ref, main_call1.cst_0.ref, main_call1.v2.ref,
    main_call1.v3.ref, main_call1.v4.ref, main_call1.v5.ref, main_call1.v6.ref, main_call1.v7.ref, main_call1.cst_1.ref, main_call1.v8.ref, main_call1.cst_2.ref,
    main_call1.v9.ref, main_call1.v10.ref, main_call1.v11.ref, main_call1.cst_3.ref, main_call1.v12.ref, main_call1.cst_4.ref, main_call1.call0.v0.ref, main_call1.call0.v1.ref,
    main_call1.call0.v2.ref, main_v28, main_v29, main_v30, main_cst_4, main_v31, main_v32, main_v33,
    main_v34, main_v35, main_v36, main_v37, main_v38, main_v39, main_v40, main_v41,
    main_v42, main_v43, main_v44, main_v45, main_v46, main_c_5, main_v47, main_v48,
    main_c_6, main_v49, main_v50 ]

private theorem w {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Each operation writes its own result buffer, a member of that list. -/
theorem ops0_writes : (ops0 : List (HloOp τ sig (Elt F))).Forall fun op =>
    op.writes ⊆ ((wr0).map (Proc.devRef (τ := τ) .tc)).toFinset :=
  ⟨w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide)⟩

/-- A buffer the window does not write keeps its contents. -/
theorem ops0_keeps (V : Valuation τ sig (Elt F)) {r : Ref sig .tc} (hr : r ∉ wr0) :
    after ops0 V (Proc.devRef .tc r) = V (Proc.devRef .tc r) :=
  after_of_writes_sub ops0 V ops0_writes hr

end Cert.ReferenceIdeal.Hand

end
-- ==== Proof.Ref.Ops1.lean ====
/-
  The second window of the reference program's @main as a list of host operations: each statement of the window
  in order, a call of a module-local function replaced by that function's operations over the call's own buffers (the
  callee's arguments the caller's values, its values the call's record), a nested call likewise. With it: the window is
  that list run in order; every operation touches TensorCore buffers only and determines its results; and the list of
  the buffers the window writes, one per operation, so that a buffer outside that list keeps its contents.
-/
import proofs.«128301_j8701603742430_2_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The second window's 83 operations, in order. -/
abbrev ops1 : List (HloOp τ sig (Elt F)) :=
  [ StableHlo.ternary main_v48 main_v50 main_v1 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v51 main_v52 (broadcastInDim S1600000x1 ![0] bcast_S1600000_S1600000x1_0 : (⟨S1600000, .i32⟩ : BufTy).Contents (Elt F) → (⟨S1600000x1, .i32⟩ : BufTy).Contents (Elt F)),
    StableHlo.binary main_v42 main_v52 main_v53 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_7 (constant S_ .f32 0x00000000#32),
    StableHlo.unary main_cst_7 main_v54 (broadcastInDim S100000x64 ![] bcast_S_S100000x64 : (⟨S_, .f32⟩ : BufTy).Contents (Elt F) → (⟨S100000x64, .f32⟩ : BufTy).Contents (Elt F)),
    StableHlo.unary main_v3 main_v55 (broadcastInDim S1600000x1 ![0] bcast_S1600000_S1600000x1_0 : (⟨S1600000, .i32⟩ : BufTy).Contents (Elt F) → (⟨S1600000x1, .i32⟩ : BufTy).Contents (Elt F)),
    StableHlo.ternary main_v54 main_v55 main_v53 main_v56 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v42 main_v56 main_v57 (addf : (⟨S100000x64, .f32⟩ : BufTy).Contents (Elt F) → (⟨S100000x64, .f32⟩ : BufTy).Contents (Elt F) → (⟨S100000x64, .f32⟩ : BufTy).Contents (Elt F)),
    StableHlo.binary main_v57 main_v44 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v46 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v60 main_v61 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v61 : StableHlo.TRef sig ⟨S100000x64, .f32⟩) main_call2.v0 main_call2.v1 maximumf,
    StableHlo.unary main_arg8 main_v63 ((extractStridedSlice S1x64 ![1, 0] · slices_S4x64_S1x64_1_0) : (⟨S4x64, .f32⟩ : BufTy).Contents (Elt F) → (⟨S1x64, .f32⟩ : BufTy).Contents (Elt F)),
    StableHlo.reshape main_v63 main_v64 rfl shapeCasts_S1x64_S64,
    StableHlo.unary main_arg9 main_v65 ((extractStridedSlice S1x64 ![1, 0] · slices_S4x64_S1x64_1_0) : (⟨S4x64, .f32⟩ : BufTy).Contents (Elt F) → (⟨S1x64, .f32⟩ : BufTy).Contents (Elt F)),
    StableHlo.reshape main_v65 main_v66 rfl shapeCasts_S1x64_S64,
    StableHlo.nullary main_cst_8 (constant S_ .f32 0x00000000#32),
    StableHlo.binary main_v62 main_cst_8 main_v67 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v68 (broadcastInDim S64 ![] bcast_S_S64 : (⟨S_, .f32⟩ : BufTy).Contents (Elt F) → (⟨S64, .f32⟩ : BufTy).Contents (Elt F)),
    StableHlo.binary main_v67 main_v68 main_v69 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call3.cst (constant S_ .f32 0x00000000#32),
    StableHlo.TRef.binary (.of main_v62 : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v62 : StableHlo.TRef sig ⟨S100000x64, .f32⟩) main_call3.v4 main_call3.v5 subf,
    StableHlo.TRef.binary main_call3.v5 main_call3.v5 main_call3.v6 mulf,
    StableHlo.TRef.unary (.of main_c_10 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v69 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v72 main_v73 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v74 (broadcastInDim S64 ![] bcast_S_S64 : (⟨S_, .f32⟩ : BufTy).Contents (Elt F) → (⟨S64, .f32⟩ : BufTy).Contents (Elt F)),
    StableHlo.binary main_v70 main_v74 main_v75 (addf : (⟨S64, .f32⟩ : BufTy).Contents (Elt F) → (⟨S64, .f32⟩ : BufTy).Contents (Elt F) → (⟨S64, .f32⟩ : BufTy).Contents (Elt F)),
    StableHlo.unary main_v75 main_v76 (Host.rsqrt : (⟨S64, .f32⟩ : BufTy).Contents (Elt F) → (⟨S64, .f32⟩ : BufTy).Contents (Elt F)),
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v78 main_v79 (mulf : (⟨S100000x64, .f32⟩ : BufTy).Contents (Elt F) → (⟨S100000x64, .f32⟩ : BufTy).Contents (Elt F) → (⟨S100000x64, .f32⟩ : BufTy).Contents (Elt F)),
    StableHlo.unary main_v64 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S100000x64 ![0, 1] bcast_S1x64_S100000x64_0_1 : (⟨S1x64, .f32⟩ : BufTy).Contents (Elt F) → (⟨S100000x64, .f32⟩ : BufTy).Contents (Elt F)),
    StableHlo.binary main_v79 main_v81 main_v82 (mulf : (⟨S100000x64, .f32⟩ : BufTy).Contents (Elt F) → (⟨S100000x64, .f32⟩ : BufTy).Contents (Elt F) → (⟨S100000x64, .f32⟩ : BufTy).Contents (Elt F)),
    StableHlo.unary main_v66 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)),
    StableHlo.unary main_arg4 main_v86 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v86 main_v87 rfl shapeCasts_S1x64x64_S64x64,
    StableHlo.unary main_arg5 main_v88 ((extractStridedSlice S1x64 ![1, 0] · slices_S3x64_S1x64_1_0) : (⟨S3x64, .f32⟩ : BufTy).Contents (Elt F) → (⟨S1x64, .f32⟩ : BufTy).Contents (Elt F)),
    StableHlo.reshape main_v88 main_v89 rfl shapeCasts_S1x64_S64,
    StableHlo.nullary main_c_12 (constantI S_ 32 0#32),
    StableHlo.unary main_c_12 main_v90 (broadcastInDim S1600000 ![] bcast_S_S1600000 : (⟨S_, .i32⟩ : BufTy).Contents (Elt F) → (⟨S1600000, .i32⟩ : BufTy).Contents (Elt F)),
    StableHlo.binary main_v1 main_v90 main_v91 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v92 (broadcastInDim S1600000 ![] bcast_S_S1600000 : (⟨S_, .i32⟩ : BufTy).Contents (Elt F) → (⟨S1600000, .i32⟩ : BufTy).Contents (Elt F)),
    StableHlo.binary main_v1 main_v92 main_v93 (addi : (⟨S1600000, .i32⟩ : BufTy).Contents (Elt F) → (⟨S1600000, .i32⟩ : BufTy).Contents (Elt F) → (⟨S1600000, .i32⟩ : BufTy).Contents (Elt F)),
    StableHlo.ternary main_v91 main_v93 main_v1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v94 main_v95 (broadcastInDim S1600000x1 ![0] bcast_S1600000_S1600000x1_0 : (⟨S1600000, .i32⟩ : BufTy).Contents (Elt F) → (⟨S1600000x1, .i32⟩ : BufTy).Contents (Elt F)),
    StableHlo.binary main_v85 main_v95 main_v96 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_14 (constant S_ .f32 0x00000000#32),
    StableHlo.unary main_cst_14 main_v97 (broadcastInDim S100000x64 ![] bcast_S_S100000x64 : (⟨S_, .f32⟩ : BufTy).Contents (Elt F) → (⟨S100000x64, .f32⟩ : BufTy).Contents (Elt F)),
    StableHlo.unary main_v3 main_v98 (broadcastInDim S1600000x1 ![0] bcast_S1600000_S1600000x1_0 : (⟨S1600000, .i32⟩ : BufTy).Contents (Elt F) → (⟨S1600000x1, .i32⟩ : BufTy).Contents (Elt F)),
    StableHlo.ternary main_v97 main_v98 main_v96 main_v99 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v85 main_v99 main_v100 (addf : (⟨S100000x64, .f32⟩ : BufTy).Contents (Elt F) → (⟨S100000x64, .f32⟩ : BufTy).Contents (Elt F) → (⟨S100000x64, .f32⟩ : BufTy).Contents (Elt F)),
    StableHlo.binary main_v100 main_v87 main_v101 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v89 main_v102 (broadcastInDim S1x64 ![1] bcast_S64_S1x64_1 : (⟨S64, .f32⟩ : BufTy).Contents (Elt F) → (⟨S1x64, .f32⟩ : BufTy).Contents (Elt F)) ]

set_option maxRecDepth 4096 in
set_option maxHeartbeats 4000000 in
/-- The window is that straight line: the called functions unfolded at their calls, both sides are one chain of
    host steps once sequencing is reassociated. -/
theorem main_part1_eq (c : Dev nD) : main_part1 (F := F) c = seq ops1 := by
  simp only [main_part1, fn_relu.body, fn_var.body, fn_where.body, fn_log_softmax.body, seq, bind_assoc, pure_bind]
  rfl

/-- Every operation of the window touches TensorCore buffers only. -/
theorem ops1_sub : (ops1 : List (HloOp τ sig (Elt F))).Forall fun op => op.bufs ⊆ tcRefs τ sig :=
  ⟨ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., binary_bufs_sub .., unary_bufs_sub ..⟩

/-- Every operation of the window determines its results. -/
theorem ops1_fresh : ∀ op ∈ (ops1 : List (HloOp τ sig (Elt F))), op.fresh = ∅ := by
  intro _ h; (repeat (cases h with | head => rfl | tail _ h => ?_)); exact nomatch h

/-- The buffers the window writes: each operation's result, in order. -/
abbrev wr1 : List (Ref sig .tc) :=
  [ main_v51, main_v52, main_v53, main_cst_7, main_v54, main_v55, main_v56, main_v57,
    main_v58, main_v59, main_v60, main_v61, main_call2.cst.ref, main_call2.v0.ref, main_call2.v1.ref, main_v63,
    main_v64, main_v65, main_v66, main_cst_8, main_v67, main_cst_9, main_v68, main_v69,
    main_c_10, main_call3.cst.ref, main_call3.v0.ref, main_call3.v1.ref, main_call3.cst_0.ref, main_call3.v2.ref, main_call3.v3.ref, main_call3.v4.ref,
    main_call3.v5.ref, main_call3.v6.ref, main_call3.v7.ref, main_call3.cst_1.ref, main_call3.v8.ref, main_call3.cst_2.ref, main_call3.v9.ref, main_call3.v10.ref,
    main_call3.v11.ref, main_call3.cst_3.ref, main_call3.v12.ref, main_call3.cst_4.ref, main_call3.call0.v0.ref, main_call3.call0.v1.ref, main_call3.call0.v2.ref, main_v71,
    main_v72, main_v73, main_cst_11, main_v74, main_v75, main_v76, main_v77, main_v78,
    main_v79, main_v80, main_v81, main_v82, main_v83, main_v84, main_v85, main_v86,
    main_v87, main_v88, main_v89, main_c_12, main_v90, main_v91, main_c_13, main_v92,
    main_v93, main_v94, main_v95, main_v96, main_cst_14, main_v97, main_v98, main_v99,
    main_v100, main_v101, main_v102 ]

private theorem w {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Each operation writes its own result buffer, a member of that list. -/
theorem ops1_writes : (ops1 : List (HloOp τ sig (Elt F))).Forall fun op =>
    op.writes ⊆ ((wr1).map (Proc.devRef (τ := τ) .tc)).toFinset :=
  ⟨w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide)⟩

/-- A buffer the window does not write keeps its contents. -/
theorem ops1_keeps (V : Valuation τ sig (Elt F)) {r : Ref sig .tc} (hr : r ∉ wr1) :
    after ops1 V (Proc.devRef .tc r) = V (Proc.devRef .tc r) :=
  after_of_writes_sub ops1 V ops1_writes hr

end Cert.ReferenceIdeal.Hand

end
-- ==== Proof.Ref.Ops2.lean ====
/-
  The third window of the reference program's @main as a list of host operations: each statement of the window
  in order, a call of a module-local function replaced by that function's operations over the call's own buffers (the
  callee's arguments the caller's values, its values the call's record), a nested call likewise. With it: the window is
  that list run in order; every operation touches TensorCore buffers only and determines its results; and the list of
  the buffers the window writes, one per operation, so that a buffer outside that list keeps its contents.
-/
import proofs.«128301_j8701603742430_2_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The third window's 85 operations, in order. -/
abbrev ops2 : List (HloOp τ sig (Elt F)) :=
  [ StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v101 main_v103 main_v104 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v104 : StableHlo.TRef sig ⟨S100000x64, .f32⟩) main_call4.v0 main_call4.v1 maximumf,
    StableHlo.unary main_arg8 main_v106 ((extractStridedSlice S1x64 ![2, 0] · slices_S4x64_S1x64_2_0) : (⟨S4x64, .f32⟩ : BufTy).Contents (Elt F) → (⟨S1x64, .f32⟩ : BufTy).Contents (Elt F)),
    StableHlo.reshape main_v106 main_v107 rfl shapeCasts_S1x64_S64,
    StableHlo.unary main_arg9 main_v108 ((extractStridedSlice S1x64 ![2, 0] · slices_S4x64_S1x64_2_0) : (⟨S4x64, .f32⟩ : BufTy).Contents (Elt F) → (⟨S1x64, .f32⟩ : BufTy).Contents (Elt F)),
    StableHlo.reshape main_v108 main_v109 rfl shapeCasts_S1x64_S64,
    StableHlo.nullary main_cst_15 (constant S_ .f32 0x00000000#32),
    StableHlo.binary main_v105 main_cst_15 main_v110 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v111 (broadcastInDim S64 ![] bcast_S_S64 : (⟨S_, .f32⟩ : BufTy).Contents (Elt F) → (⟨S64, .f32⟩ : BufTy).Contents (Elt F)),
    StableHlo.binary main_v110 main_v111 main_v112 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call5.cst (constant S_ .f32 0x00000000#32),
    StableHlo.TRef.binary (.of main_v105 : StableHlo.TRef sig ⟨S100000x64, .f32⟩) main_call5.cst main_call5.v0 (fun x v => Host.reduceAdd x v reducesTo_S100000x64_S64_d0 h_S_),
    StableHlo.TRef.unary main_call5.v0 main_call5.v1 (broadcastInDim S1x64 ![1] bcast_S64_S1x64_1),
    StableHlo.TRef.nullary main_call5.cst_0 (constant S_ .f32 0x47C35000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S100000x64 ![0, 1] bcast_S1x64_S100000x64_0_1),
    StableHlo.TRef.binary (.of main_v105 : StableHlo.TRef sig ⟨S100000x64, .f32⟩) main_call5.v4 main_call5.v5 subf,
    StableHlo.TRef.binary main_call5.v5 main_call5.v5 main_call5.v6 mulf,
    StableHlo.TRef.unary (.of main_c_17 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v112 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v105 main_v115 main_v116 (subf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v117 (broadcastInDim S64 ![] bcast_S_S64 : (⟨S_, .f32⟩ : BufTy).Contents (Elt F) → (⟨S64, .f32⟩ : BufTy).Contents (Elt F)),
    StableHlo.binary main_v113 main_v117 main_v118 (addf : (⟨S64, .f32⟩ : BufTy).Contents (Elt F) → (⟨S64, .f32⟩ : BufTy).Contents (Elt F) → (⟨S64, .f32⟩ : BufTy).Contents (Elt F)),
    StableHlo.unary main_v118 main_v119 (Host.rsqrt : (⟨S64, .f32⟩ : BufTy).Contents (Elt F) → (⟨S64, .f32⟩ : BufTy).Contents (Elt F)),
    StableHlo.unary main_v119 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S100000x64 ![0, 1] bcast_S1x64_S100000x64_0_1 : (⟨S1x64, .f32⟩ : BufTy).Contents (Elt F) → (⟨S100000x64, .f32⟩ : BufTy).Contents (Elt F)),
    StableHlo.binary main_v116 main_v121 main_v122 (mulf : (⟨S100000x64, .f32⟩ : BufTy).Contents (Elt F) → (⟨S100000x64, .f32⟩ : BufTy).Contents (Elt F) → (⟨S100000x64, .f32⟩ : BufTy).Contents (Elt F)),
    StableHlo.unary main_v107 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S100000x64 ![0, 1] bcast_S1x64_S100000x64_0_1 : (⟨S1x64, .f32⟩ : BufTy).Contents (Elt F) → (⟨S100000x64, .f32⟩ : BufTy).Contents (Elt F)),
    StableHlo.binary main_v122 main_v124 main_v125 (mulf : (⟨S100000x64, .f32⟩ : BufTy).Contents (Elt F) → (⟨S100000x64, .f32⟩ : BufTy).Contents (Elt F) → (⟨S100000x64, .f32⟩ : BufTy).Contents (Elt F)),
    StableHlo.unary main_v109 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v127 main_v128 (addf : (⟨S100000x64, .f32⟩ : BufTy).Contents (Elt F) → (⟨S100000x64, .f32⟩ : BufTy).Contents (Elt F) → (⟨S100000x64, .f32⟩ : BufTy).Contents (Elt F)),
    StableHlo.unary main_arg4 main_v129 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v129 main_v130 rfl shapeCasts_S1x64x64_S64x64,
    StableHlo.unary main_arg5 main_v131 ((extractStridedSlice S1x64 ![2, 0] · slices_S3x64_S1x64_2_0) : (⟨S3x64, .f32⟩ : BufTy).Contents (Elt F) → (⟨S1x64, .f32⟩ : BufTy).Contents (Elt F)),
    StableHlo.reshape main_v131 main_v132 rfl shapeCasts_S1x64_S64,
    StableHlo.nullary main_c_19 (constantI S_ 32 0#32),
    StableHlo.unary main_c_19 main_v133 (broadcastInDim S1600000 ![] bcast_S_S1600000 : (⟨S_, .i32⟩ : BufTy).Contents (Elt F) → (⟨S1600000, .i32⟩ : BufTy).Contents (Elt F)),
    StableHlo.binary main_v1 main_v133 main_v134 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v135 (broadcastInDim S1600000 ![] bcast_S_S1600000 : (⟨S_, .i32⟩ : BufTy).Contents (Elt F) → (⟨S1600000, .i32⟩ : BufTy).Contents (Elt F)),
    StableHlo.binary main_v1 main_v135 main_v136 (addi : (⟨S1600000, .i32⟩ : BufTy).Contents (Elt F) → (⟨S1600000, .i32⟩ : BufTy).Contents (Elt F) → (⟨S1600000, .i32⟩ : BufTy).Contents (Elt F)),
    StableHlo.ternary main_v134 main_v136 main_v1 main_v137 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v137 main_v138 (broadcastInDim S1600000x1 ![0] bcast_S1600000_S1600000x1_0 : (⟨S1600000, .i32⟩ : BufTy).Contents (Elt F) → (⟨S1600000x1, .i32⟩ : BufTy).Contents (Elt F)),
    StableHlo.binary main_v128 main_v138 main_v139 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_21 (constant S_ .f32 0x00000000#32),
    StableHlo.unary main_cst_21 main_v140 (broadcastInDim S100000x64 ![] bcast_S_S100000x64 : (⟨S_, .f32⟩ : BufTy).Contents (Elt F) → (⟨S100000x64, .f32⟩ : BufTy).Contents (Elt F)),
    StableHlo.unary main_v3 main_v141 (broadcastInDim S1600000x1 ![0] bcast_S1600000_S1600000x1_0 : (⟨S1600000, .i32⟩ : BufTy).Contents (Elt F) → (⟨S1600000x1, .i32⟩ : BufTy).Contents (Elt F)),
    StableHlo.ternary main_v140 main_v141 main_v139 main_v142 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v128 main_v142 main_v143 (addf : (⟨S100000x64, .f32⟩ : BufTy).Contents (Elt F) → (⟨S100000x64, .f32⟩ : BufTy).Contents (Elt F) → (⟨S100000x64, .f32⟩ : BufTy).Contents (Elt F)),
    StableHlo.binary main_v143 main_v130 main_v144 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v132 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S100000x64 ![0, 1] bcast_S1x64_S100000x64_0_1 : (⟨S1x64, .f32⟩ : BufTy).Contents (Elt F) → (⟨S100000x64, .f32⟩ : BufTy).Contents (Elt F)),
    StableHlo.binary main_v144 main_v146 main_v147 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v147 : StableHlo.TRef sig ⟨S100000x64, .f32⟩) main_call6.v0 main_call6.v1 maximumf,
    StableHlo.unary main_arg8 main_v149 ((extractStridedSlice S1x64 ![3, 0] · slices_S4x64_S1x64_3_0) : (⟨S4x64, .f32⟩ : BufTy).Contents (Elt F) → (⟨S1x64, .f32⟩ : BufTy).Contents (Elt F)),
    StableHlo.reshape main_v149 main_v150 rfl shapeCasts_S1x64_S64,
    StableHlo.unary main_arg9 main_v151 ((extractStridedSlice S1x64 ![3, 0] · slices_S4x64_S1x64_3_0) : (⟨S4x64, .f32⟩ : BufTy).Contents (Elt F) → (⟨S1x64, .f32⟩ : BufTy).Contents (Elt F)),
    StableHlo.reshape main_v151 main_v152 rfl shapeCasts_S1x64_S64,
    StableHlo.nullary main_cst_22 (constant S_ .f32 0x00000000#32),
    StableHlo.binary main_v148 main_cst_22 main_v153 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_23 (constant S_ .f32 0x47C35000#32) ]

set_option maxRecDepth 4096 in
set_option maxHeartbeats 4000000 in
/-- The window is that straight line: the called functions unfolded at their calls, both sides are one chain of
    host steps once sequencing is reassociated. -/
theorem main_part2_eq (c : Dev nD) : main_part2 (F := F) c = seq ops2 := by
  simp only [main_part2, fn_relu.body, fn_var.body, fn_where.body, fn_log_softmax.body, seq, bind_assoc, pure_bind]
  rfl

/-- Every operation of the window touches TensorCore buffers only. -/
theorem ops2_sub : (ops2 : List (HloOp τ sig (Elt F))).Forall fun op => op.bufs ⊆ tcRefs τ sig :=
  ⟨unary_bufs_sub .., binary_bufs_sub .., nullary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., unary_bufs_sub .., binary_bufs_sub ..,
    unary_bufs_sub .., reshape_bufs_sub .., unary_bufs_sub .., reshape_bufs_sub .., nullary_bufs_sub .., binary_bufs_sub ..,
    nullary_bufs_sub ..⟩

/-- Every operation of the window determines its results. -/
theorem ops2_fresh : ∀ op ∈ (ops2 : List (HloOp τ sig (Elt F))), op.fresh = ∅ := by
  intro _ h; (repeat (cases h with | head => rfl | tail _ h => ?_)); exact nomatch h

/-- The buffers the window writes: each operation's result, in order. -/
abbrev wr2 : List (Ref sig .tc) :=
  [ main_v103, main_v104, main_call4.cst.ref, main_call4.v0.ref, main_call4.v1.ref, main_v106, main_v107, main_v108,
    main_v109, main_cst_15, main_v110, main_cst_16, main_v111, main_v112, main_c_17, main_call5.cst.ref,
    main_call5.v0.ref, main_call5.v1.ref, main_call5.cst_0.ref, main_call5.v2.ref, main_call5.v3.ref, main_call5.v4.ref, main_call5.v5.ref, main_call5.v6.ref,
    main_call5.v7.ref, main_call5.cst_1.ref, main_call5.v8.ref, main_call5.cst_2.ref, main_call5.v9.ref, main_call5.v10.ref, main_call5.v11.ref, main_call5.cst_3.ref,
    main_call5.v12.ref, main_call5.cst_4.ref, main_call5.call0.v0.ref, main_call5.call0.v1.ref, main_call5.call0.v2.ref, main_v114, main_v115, main_v116,
    main_cst_18, main_v117, main_v118, main_v119, main_v120, main_v121, main_v122, main_v123,
    main_v124, main_v125, main_v126, main_v127, main_v128, main_v129, main_v130, main_v131,
    main_v132, main_c_19, main_v133, main_v134, main_c_20, main_v135, main_v136, main_v137,
    main_v138, main_v139, main_cst_21, main_v140, main_v141, main_v142, main_v143, main_v144,
    main_v145, main_v146, main_v147, main_call6.cst.ref, main_call6.v0.ref, main_call6.v1.ref, main_v149, main_v150,
    main_v151, main_v152, main_cst_22, main_v153, main_cst_23 ]

private theorem w {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Each operation writes its own result buffer, a member of that list. -/
theorem ops2_writes : (ops2 : List (HloOp τ sig (Elt F))).Forall fun op =>
    op.writes ⊆ ((wr2).map (Proc.devRef (τ := τ) .tc)).toFinset :=
  ⟨w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide)⟩

/-- A buffer the window does not write keeps its contents. -/
theorem ops2_keeps (V : Valuation τ sig (Elt F)) {r : Ref sig .tc} (hr : r ∉ wr2) :
    after ops2 V (Proc.devRef .tc r) = V (Proc.devRef .tc r) :=
  after_of_writes_sub ops2 V ops2_writes hr

end Cert.ReferenceIdeal.Hand

end
-- ==== Proof.Ref.Ops3.lean ====
/-
  The fourth window of the reference program's @main as a list of host operations: each statement of the window
  in order, a call of a module-local function replaced by that function's operations over the call's own buffers (the
  callee's arguments the caller's values, its values the call's record), a nested call likewise. With it: the window is
  that list run in order; every operation touches TensorCore buffers only and determines its results; and the list of
  the buffers the window writes, one per operation, so that a buffer outside that list keeps its contents.
-/
import proofs.«128301_j8701603742430_2_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The fourth window's 74 operations, in order. -/
abbrev ops3 : List (HloOp τ sig (Elt F)) :=
  [ StableHlo.unary main_cst_23 main_v154 (broadcastInDim S64 ![] bcast_S_S64 : (⟨S_, .f32⟩ : BufTy).Contents (Elt F) → (⟨S64, .f32⟩ : BufTy).Contents (Elt F)),
    StableHlo.binary main_v153 main_v154 main_v155 (Host.divf : (⟨S64, .f32⟩ : BufTy).Contents (Elt F) → (⟨S64, .f32⟩ : BufTy).Contents (Elt F) → (⟨S64, .f32⟩ : BufTy).Contents (Elt F)),
    StableHlo.nullary main_c_24 (constantI S_ 32 0#32),
    StableHlo.TRef.nullary main_call7.cst (constant S_ .f32 0x00000000#32),
    StableHlo.TRef.binary (.of main_v148 : StableHlo.TRef sig ⟨S100000x64, .f32⟩) main_call7.cst main_call7.v0 (fun x v => Host.reduceAdd x v reducesTo_S100000x64_S64_d0 h_S_),
    StableHlo.TRef.unary main_call7.v0 main_call7.v1 (broadcastInDim S1x64 ![1] bcast_S64_S1x64_1),
    StableHlo.TRef.nullary main_call7.cst_0 (constant S_ .f32 0x47C35000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S100000x64 ![0, 1] bcast_S1x64_S100000x64_0_1),
    StableHlo.TRef.binary (.of main_v148 : StableHlo.TRef sig ⟨S100000x64, .f32⟩) main_call7.v4 main_call7.v5 subf,
    StableHlo.TRef.binary main_call7.v5 main_call7.v5 main_call7.v6 mulf,
    StableHlo.TRef.unary (.of main_c_24 : StableHlo.TRef sig ⟨S_, .i32⟩) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b),
    StableHlo.unary main_v155 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S100000x64 ![0, 1] bcast_S1x64_S100000x64_0_1 : (⟨S1x64, .f32⟩ : BufTy).Contents (Elt F) → (⟨S100000x64, .f32⟩ : BufTy).Contents (Elt F)),
    StableHlo.binary main_v148 main_v158 main_v159 (subf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x3727C5AC#32),
    StableHlo.unary main_cst_25 main_v160 (broadcastInDim S64 ![] bcast_S_S64 : (⟨S_, .f32⟩ : BufTy).Contents (Elt F) → (⟨S64, .f32⟩ : BufTy).Contents (Elt F)),
    StableHlo.binary main_v156 main_v160 main_v161 (addf : (⟨S64, .f32⟩ : BufTy).Contents (Elt F) → (⟨S64, .f32⟩ : BufTy).Contents (Elt F) → (⟨S64, .f32⟩ : BufTy).Contents (Elt F)),
    StableHlo.unary main_v161 main_v162 (Host.rsqrt : (⟨S64, .f32⟩ : BufTy).Contents (Elt F) → (⟨S64, .f32⟩ : BufTy).Contents (Elt F)),
    StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v159 main_v164 main_v165 (mulf : (⟨S100000x64, .f32⟩ : BufTy).Contents (Elt F) → (⟨S100000x64, .f32⟩ : BufTy).Contents (Elt F) → (⟨S100000x64, .f32⟩ : BufTy).Contents (Elt F)),
    StableHlo.unary main_v150 main_v166 (broadcastInDim S1x64 ![1] bcast_S64_S1x64_1 : (⟨S64, .f32⟩ : BufTy).Contents (Elt F) → (⟨S1x64, .f32⟩ : BufTy).Contents (Elt F)),
    StableHlo.unary main_v166 main_v167 (broadcastInDim S100000x64 ![0, 1] bcast_S1x64_S100000x64_0_1 : (⟨S1x64, .f32⟩ : BufTy).Contents (Elt F) → (⟨S100000x64, .f32⟩ : BufTy).Contents (Elt F)),
    StableHlo.binary main_v165 main_v167 main_v168 (mulf : (⟨S100000x64, .f32⟩ : BufTy).Contents (Elt F) → (⟨S100000x64, .f32⟩ : BufTy).Contents (Elt F) → (⟨S100000x64, .f32⟩ : BufTy).Contents (Elt F)),
    StableHlo.unary main_v152 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S100000x64 ![0, 1] bcast_S1x64_S100000x64_0_1 : (⟨S1x64, .f32⟩ : BufTy).Contents (Elt F) → (⟨S100000x64, .f32⟩ : BufTy).Contents (Elt F)),
    StableHlo.binary main_v168 main_v170 main_v171 (addf : (⟨S100000x64, .f32⟩ : BufTy).Contents (Elt F) → (⟨S100000x64, .f32⟩ : BufTy).Contents (Elt F) → (⟨S100000x64, .f32⟩ : BufTy).Contents (Elt F)),
    StableHlo.nullary main_c_26 (constantI S_ 32 0#32),
    StableHlo.unary main_c_26 main_v172 (broadcastInDim S1600000 ![] bcast_S_S1600000 : (⟨S_, .i32⟩ : BufTy).Contents (Elt F) → (⟨S1600000, .i32⟩ : BufTy).Contents (Elt F)),
    StableHlo.binary main_v1 main_v172 main_v173 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 100000#32),
    StableHlo.unary main_c_27 main_v174 (broadcastInDim S1600000 ![] bcast_S_S1600000 : (⟨S_, .i32⟩ : BufTy).Contents (Elt F) → (⟨S1600000, .i32⟩ : BufTy).Contents (Elt F)),
    StableHlo.binary main_v1 main_v174 main_v175 (addi : (⟨S1600000, .i32⟩ : BufTy).Contents (Elt F) → (⟨S1600000, .i32⟩ : BufTy).Contents (Elt F) → (⟨S1600000, .i32⟩ : BufTy).Contents (Elt F)),
    StableHlo.ternary main_v173 main_v175 main_v1 main_v176 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v176 main_v177 (broadcastInDim S1600000x1 ![0] bcast_S1600000_S1600000x1_0 : (⟨S1600000, .i32⟩ : BufTy).Contents (Elt F) → (⟨S1600000x1, .i32⟩ : BufTy).Contents (Elt F)),
    StableHlo.binary main_v171 main_v177 main_v178 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_28 (constant S_ .f32 0x00000000#32),
    StableHlo.unary main_cst_28 main_v179 (broadcastInDim S100000x64 ![] bcast_S_S100000x64 : (⟨S_, .f32⟩ : BufTy).Contents (Elt F) → (⟨S100000x64, .f32⟩ : BufTy).Contents (Elt F)),
    StableHlo.unary main_v3 main_v180 (broadcastInDim S1600000x1 ![0] bcast_S1600000_S1600000x1_0 : (⟨S1600000, .i32⟩ : BufTy).Contents (Elt F) → (⟨S1600000x1, .i32⟩ : BufTy).Contents (Elt F)),
    StableHlo.ternary main_v179 main_v180 main_v178 main_v181 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v171 main_v181 main_v182 (addf : (⟨S100000x64, .f32⟩ : BufTy).Contents (Elt F) → (⟨S100000x64, .f32⟩ : BufTy).Contents (Elt F) → (⟨S100000x64, .f32⟩ : BufTy).Contents (Elt F)),
    StableHlo.binary main_v182 main_arg6 main_v183 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg7 main_v184 (broadcastInDim S1x40 ![1] bcast_S40_S1x40_1 : (⟨S40, .f32⟩ : BufTy).Contents (Elt F) → (⟨S1x40, .f32⟩ : BufTy).Contents (Elt F)),
    StableHlo.unary main_v184 main_v185 (broadcastInDim S100000x40 ![0, 1] bcast_S1x40_S100000x40_0_1 : (⟨S1x40, .f32⟩ : BufTy).Contents (Elt F) → (⟨S100000x40, .f32⟩ : BufTy).Contents (Elt F)),
    StableHlo.binary main_v183 main_v185 main_v186 (addf : (⟨S100000x40, .f32⟩ : BufTy).Contents (Elt F) → (⟨S100000x40, .f32⟩ : BufTy).Contents (Elt F) → (⟨S100000x40, .f32⟩ : BufTy).Contents (Elt F)),
    StableHlo.TRef.nullary main_call8.cst (constant S_ .f32 0xFF800000#32),
    StableHlo.TRef.binary (.of main_v186 : StableHlo.TRef sig ⟨S100000x40, .f32⟩) main_call8.cst main_call8.v0 (fun x v => Host.reduce FloatOps.maximumf x v reducesTo_S100000x40_S100000_d1 h_S_),
    StableHlo.TRef.nullary main_call8.cst_0 (constant S_ .f32 0xFF800000#32),
    StableHlo.TRef.unary main_call8.cst_0 main_call8.v1 (broadcastInDim S100000 ![] bcast_S_S100000),
    StableHlo.TRef.binary main_call8.v1 main_call8.v0 main_call8.v2 maximumf,
    StableHlo.TRef.unary main_call8.v2 main_call8.v3 (broadcastInDim S100000x1 ![0] bcast_S100000_S100000x1_0),
    StableHlo.TRef.unary main_call8.v3 main_call8.v4 (broadcastInDim S100000x40 ![0, 1] bcast_S100000x1_S100000x40_0_1),
    StableHlo.TRef.binary (.of main_v186 : StableHlo.TRef sig ⟨S100000x40, .f32⟩) main_call8.v4 main_call8.v5 subf,
    StableHlo.TRef.unary main_call8.v5 main_call8.v6 Host.exp,
    StableHlo.TRef.nullary main_call8.cst_1 (constant S_ .f32 0x00000000#32),
    StableHlo.TRef.binary main_call8.v6 main_call8.cst_1 main_call8.v7 (fun x v => Host.reduceAdd x v reducesTo_S100000x40_S100000_d1 h_S_),
    StableHlo.TRef.unary main_call8.v7 main_call8.v8 (broadcastInDim S100000x1 ![0] bcast_S100000_S100000x1_0),
    StableHlo.TRef.unary main_call8.v8 main_call8.v9 Host.log,
    StableHlo.TRef.unary main_call8.v9 main_call8.v10 (broadcastInDim S100000x40 ![0, 1] bcast_S100000x1_S100000x40_0_1),
    StableHlo.TRef.binary main_call8.v5 main_call8.v10 main_call8.v11 subf ]

set_option maxRecDepth 4096 in
set_option maxHeartbeats 4000000 in
/-- The window is that straight line: the called functions unfolded at their calls, both sides are one chain of
    host steps once sequencing is reassociated. -/
theorem main_part3_eq (c : Dev nD) : main_part3 (F := F) c = seq ops3 := by
  simp only [main_part3, fn_relu.body, fn_var.body, fn_where.body, fn_log_softmax.body, seq, bind_assoc, pure_bind]

/-- Every operation of the window touches TensorCore buffers only. -/
theorem ops3_sub : (ops3 : List (HloOp τ sig (Elt F))).Forall fun op => op.bufs ⊆ tcRefs τ sig :=
  ⟨unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub ..⟩

/-- Every operation of the window determines its results. -/
theorem ops3_fresh : ∀ op ∈ (ops3 : List (HloOp τ sig (Elt F))), op.fresh = ∅ := by
  intro _ h; (repeat (cases h with | head => rfl | tail _ h => ?_)); exact nomatch h

/-- The buffers the window writes: each operation's result, in order. -/
abbrev wr3 : List (Ref sig .tc) :=
  [ main_v154, main_v155, main_c_24, main_call7.cst.ref, main_call7.v0.ref, main_call7.v1.ref, main_call7.cst_0.ref, main_call7.v2.ref,
    main_call7.v3.ref, main_call7.v4.ref, main_call7.v5.ref, main_call7.v6.ref, main_call7.v7.ref, main_call7.cst_1.ref, main_call7.v8.ref, main_call7.cst_2.ref,
    main_call7.v9.ref, main_call7.v10.ref, main_call7.v11.ref, main_call7.cst_3.ref, main_call7.v12.ref, main_call7.cst_4.ref, main_call7.call0.v0.ref, main_call7.call0.v1.ref,
    main_call7.call0.v2.ref, main_v157, main_v158, main_v159, main_cst_25, main_v160, main_v161, main_v162,
    main_v163, main_v164, main_v165, main_v166, main_v167, main_v168, main_v169, main_v170,
    main_v171, main_c_26, main_v172, main_v173, main_c_27, main_v174, main_v175, main_v176,
    main_v177, main_v178, main_cst_28, main_v179, main_v180, main_v181, main_v182, main_v183,
    main_v184, main_v185, main_v186, main_call8.cst.ref, main_call8.v0.ref, main_call8.cst_0.ref, main_call8.v1.ref, main_call8.v2.ref,
    main_call8.v3.ref, main_call8.v4.ref, main_call8.v5.ref, main_call8.v6.ref, main_call8.cst_1.ref, main_call8.v7.ref, main_call8.v8.ref, main_call8.v9.ref,
    main_call8.v10.ref, main_call8.v11.ref ]

private theorem w {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Each operation writes its own result buffer, a member of that list. -/
theorem ops3_writes : (ops3 : List (HloOp τ sig (Elt F))).Forall fun op =>
    op.writes ⊆ ((wr3).map (Proc.devRef (τ := τ) .tc)).toFinset :=
  ⟨w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide)⟩

/-- A buffer the window does not write keeps its contents. -/
theorem ops3_keeps (V : Valuation τ sig (Elt F)) {r : Ref sig .tc} (hr : r ∉ wr3) :
    after ops3 V (Proc.devRef .tc r) = V (Proc.devRef .tc r) :=
  after_of_writes_sub ops3 V ops3_writes hr

end Cert.ReferenceIdeal.Hand

end
-- ==== Proof.LibStretches.lean ====
/-
  A long straight-line program matched against its list of operations one piece at a time.

  A host program is a list of operations run in order (`StableHlo.seq`). When the program is printed as four pieces run in
  order, and each piece is the operations of its stretch run in order, the program is the four stretches' operations run
  in order as one list — so the program and its list need never be compared as wholes.
-/
import Idealize.ShloMosaic.Lib.StableHlo.Run

noncomputable section

namespace Cert.LibStretches

open Idealize.ShloMosaic Idealize.ShloMosaic.StableHlo Idealize.SL.Sem

variable {nD : Nat} {τ : Topo} {sig : RefSig} {Val : EltTy → Type} {Λ : Labels}

/-- Four pieces run in order, each the operations of its stretch run in order, are the four stretches' operations run in
    order as one list. -/
theorem seq_four (p₀ p₁ p₂ p₃ : Prog (TpuEff nD τ sig Val Λ .tc) PUnit) (w₀ w₁ w₂ w₃ : List (HloOp τ sig Val))
    (h₀ : p₀ = seq w₀) (h₁ : p₁ = seq w₁) (h₂ : p₂ = seq w₂) (h₃ : p₃ = seq w₃) :
    (p₀ >>= fun _ => p₁ >>= fun _ => p₂ >>= fun _ => p₃) = seq (w₀ ++ w₁ ++ w₂ ++ w₃) := by
  subst h₀ h₁ h₂ h₃
  rw [seq_append, seq_append, seq_append]
  simp only [bind_assoc]

end Cert.LibStretches

end
-- ==== Proof.LibFoldCuts.lean ====
import Idealize.ShloMosaic.Lib.StableHlo.Run

/-!
# A line of host operations read one stretch at a time

What a line of host operations leaves in the buffers is a fold over the line (`StableHlo.after`). The fold over a line cut
in two is the fold over the second part from what the first part leaves; so a long line can be read stretch by stretch,
each stretch a sub-list taken by position (`List.take` / `List.drop`), without ever unfolding the whole line. This is what
lets two programs that apply the same host operations between different matrix products be compared section by section:
on each section, rewrite both folds to their composed terms, replace the entry buffers that are known to agree, and close
by reflexivity.

* `FoldCuts.after_app`: two lines run one after the other.
* `FoldCuts.after_split`: a line cut after its first `n` operations.
* `FoldCuts.after_cut`: the rest of a line from position `a`, cut `n` operations further on at `b = a + n`.
* `FoldCuts.concat_two_congr`: a concatenation of two pieces depends only on the pieces. A rewriting pass cannot enter the
  list of pieces because the concatenation's side condition is stated over that list; this lemma crosses it.
-/

namespace FoldCuts

open Idealize.ShloMosaic Idealize.ShloMosaic.StableHlo

variable {τ : Topo} {sig : RefSig} {Val : EltTy → Type}

/-- Two lines run one after the other leave what the second leaves from what the first leaves. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line cut after its first `n` operations. -/
theorem after_split (n : ℕ) (l : List (HloOp τ sig Val)) (V : Valuation τ sig Val) :
    after l V = after (l.drop n) (after (l.take n) V) := by
  conv_lhs => rw [← List.take_append_drop n l]
  exact after_app _ _ _

/-- The rest of a line from position `a`, cut `n` operations further on. -/
theorem after_cut (a n b : ℕ) (h : a + n = b) (l : List (HloOp τ sig Val)) (V : Valuation τ sig Val) :
    after (l.drop a) V = after (l.drop b) (after ((l.drop a).take n) V) := by
  subst h
  have hd : (l.drop a).drop n = l.drop (a + n) := by simp [List.drop_drop, Nat.add_comm]
  rw [after_split n (l.drop a) V, hd]

/-- A concatenation of two pieces depends only on the pieces. -/
theorem concat_two_congr {α : Type} (t : Shape) (a : Fin t.rank) (s₁ s₂ : Shape) (x x' : s₁.Idx → α) (y y' : s₂.Idx → α)
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end FoldCuts
-- ==== Proof.Ref.Ops.lean ====
/-
  The reference program's @main as ONE list of host operations: its four windows' lists, appended. The program is that
  list run in order; every operation touches TensorCore buffers only and determines its results; and the program's ten
  argument buffers, which no operation writes, keep their contents.
-/
import proofs.«128301_j8701603742430_2_alg».proof.Proof.Ref.Ops0
import proofs.«128301_j8701603742430_2_alg».proof.Proof.Ref.Ops1
import proofs.«128301_j8701603742430_2_alg».proof.Proof.Ref.Ops2
import proofs.«128301_j8701603742430_2_alg».proof.Proof.Ref.Ops3
import proofs.«128301_j8701603742430_2_alg».proof.Proof.LibStretches
import proofs.«128301_j8701603742430_2_alg».proof.Proof.LibFoldCuts

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- @main's 325 operations, in order: the four windows' operations. -/
abbrev ops : List (HloOp τ sig (Elt F)) := ops0 ++ ops1 ++ ops2 ++ ops3

/-- @main is that straight line: each window is its own list run in order, and four windows run in order are the
    appended list run in order. -/
theorem main_eq (c : Dev nD) : main (F := F) c = seq ops := by
  unfold main
  exact Cert.LibStretches.seq_four _ _ _ _ ops0 ops1 ops2 ops3
    (main_part0_eq c) (main_part1_eq c) (main_part2_eq c) (main_part3_eq c)

/-- Every operation touches TensorCore buffers only. -/
theorem ops_sub : (ops : List (HloOp τ sig (Elt F))).Forall fun op => op.bufs ⊆ tcRefs τ sig :=
  List.forall_append.mpr ⟨List.forall_append.mpr ⟨List.forall_append.mpr ⟨ops0_sub, ops1_sub⟩, ops2_sub⟩, ops3_sub⟩

/-- Every operation determines its results. -/
theorem ops_fresh : ∀ op ∈ (ops : List (HloOp τ sig (Elt F))), op.fresh = ∅ := by
  intro op h
  rcases List.mem_append.mp h with h | h
  · rcases List.mem_append.mp h with h | h
    · rcases List.mem_append.mp h with h | h
      · exact ops0_fresh op h
      · exact ops1_fresh op h
    · exact ops2_fresh op h
  · exact ops3_fresh op h

/-- What the whole line leaves is what the fourth window leaves from what the third leaves from what the second leaves
    from what the first leaves. -/
theorem after_ops (V : Valuation τ sig (Elt F)) :
    after ops V = after ops3 (after ops2 (after ops1 (after ops0 V))) := by
  unfold ops
  rw [FoldCuts.after_app, FoldCuts.after_app, FoldCuts.after_app]

/-- A buffer none of the four windows writes keeps its contents through the whole line. -/
theorem ops_keeps (V : Valuation τ sig (Elt F)) {r : Ref sig .tc}
    (h0 : r ∉ wr0) (h1 : r ∉ wr1) (h2 : r ∉ wr2) (h3 : r ∉ wr3) :
    after ops V (Proc.devRef .tc r) = V (Proc.devRef .tc r) := by
  rw [after_ops, ops3_keeps _ h3, ops2_keeps _ h2, ops1_keeps _ h1, ops0_keeps _ h0]

theorem arg0_keeps (V : Valuation τ sig (Elt F)) :
    after ops V (Proc.devRef .tc main_arg0) = V (Proc.devRef .tc main_arg0) :=
  ops_keeps V (by decide) (by decide) (by decide) (by decide)
theorem arg1_keeps (V : Valuation τ sig (Elt F)) :
    after ops V (Proc.devRef .tc main_arg1) = V (Proc.devRef .tc main_arg1) :=
  ops_keeps V (by decide) (by decide) (by decide) (by decide)
theorem arg2_keeps (V : Valuation τ sig (Elt F)) :
    after ops V (Proc.devRef .tc main_arg2) = V (Proc.devRef .tc main_arg2) :=
  ops_keeps V (by decide) (by decide) (by decide) (by decide)
theorem arg3_keeps (V : Valuation τ sig (Elt F)) :
    after ops V (Proc.devRef .tc main_arg3) = V (Proc.devRef .tc main_arg3) :=
  ops_keeps V (by decide) (by decide) (by decide) (by decide)
theorem arg4_keeps (V : Valuation τ sig (Elt F)) :
    after ops V (Proc.devRef .tc main_arg4) = V (Proc.devRef .tc main_arg4) :=
  ops_keeps V (by decide) (by decide) (by decide) (by decide)
theorem arg5_keeps (V : Valuation τ sig (Elt F)) :
    after ops V (Proc.devRef .tc main_arg5) = V (Proc.devRef .tc main_arg5) :=
  ops_keeps V (by decide) (by decide) (by decide) (by decide)
theorem arg6_keeps (V : Valuation τ sig (Elt F)) :
    after ops V (Proc.devRef .tc main_arg6) = V (Proc.devRef .tc main_arg6) :=
  ops_keeps V (by decide) (by decide) (by decide) (by decide)
theorem arg7_keeps (V : Valuation τ sig (Elt F)) :
    after ops V (Proc.devRef .tc main_arg7) = V (Proc.devRef .tc main_arg7) :=
  ops_keeps V (by decide) (by decide) (by decide) (by decide)
theorem arg8_keeps (V : Valuation τ sig (Elt F)) :
    after ops V (Proc.devRef .tc main_arg8) = V (Proc.devRef .tc main_arg8) :=
  ops_keeps V (by decide) (by decide) (by decide) (by decide)
theorem arg9_keeps (V : Valuation τ sig (Elt F)) :
    after ops V (Proc.devRef .tc main_arg9) = V (Proc.devRef .tc main_arg9) :=
  ops_keeps V (by decide) (by decide) (by decide) (by decide)

end Cert.ReferenceIdeal.Hand

end
-- ==== Proof.Ref.Run.lean ====
/-
  The reference program's run: at the compiled mesh, for any float values, from any memory with zero counters, every
  weakly fair execution of @main terminates; the result buffer ends at the fold of the program's host operations over
  the launch contents, and each of the ten argument buffers ends as it began. From it, the frame claim.
-/
import proofs.«128301_j8701603742430_2_alg».proof.Proof.Ref.Ops
import proofs.«128301_j8701603742430_2_alg».proof.Defs
import proofs.«128301_j8701603742430_2_alg».proof.Proof.Gen.Pre_finite_inputs

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every TensorCore buffer ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The result buffer ends at the fold of the operations over the launch contents; the arguments end unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v187) = StableHlo.after ops (fun b => m (c, b)) (Proc.devRef .tc main_v187)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c main_v187,
      (h c main_arg0).trans (arg0_keeps _),
      (h c main_arg1).trans (arg1_keeps _),
      (h c main_arg2).trans (arg2_keeps _),
      (h c main_arg3).trans (arg3_keeps _),
      (h c main_arg4).trans (arg4_keeps _),
      (h c main_arg5).trans (arg5_keeps _),
      (h c main_arg6).trans (arg6_keeps _),
      (h c main_arg7).trans (arg7_keeps _),
      (h c main_arg8).trans (arg8_keeps _),
      (h c main_arg9).trans (arg9_keeps _)⟩)
    (run_all m ρ)

/-- The frame claim: the reference runs and its argument arrays end unchanged. -/
theorem frame : Cert.frame_ReferenceIdeal := fun m ρ _ =>
  (θ_run (Cert.ReferenceIdeal.defs (F := Ideal)) _ _).mono (fun _ h c => (h c).2) (run (F := Ideal) m ρ)

end Cert.ReferenceIdeal.Hand

end
-- ==== Proof.KI.Keep.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

/-! A buffer that a step does not write holds after the step what it held before: a stretch of host operations
    writes only the buffers its operations name, and a region changes only its output windows' arrays. -/

theorem Bd1_keep (c : Dev nD) (r : Ref sig .tc) (h : r ∉ hostOps0_W) :
    Bd1 m c (Proc.devRef .tc r) = Bd0 m c (Proc.devRef .tc r) :=
  StableHlo.after_of_writes_sub hostOps0 _ hostOps0_writes h

theorem isIn0 : ∀ w : Fin cfg0.W, Pipeline.arrRef spec0 w ∉ ([main_v15_0, main_v15_1, main_v15_2] : List (Ref sig .tc)) → (cfg0.win w).isOut = false := by decide

theorem Bd2_keep (c : Dev nD) (r : Ref sig .tc) (h : r ∉ ([main_v15_0, main_v15_1, main_v15_2] : List (Ref sig .tc))) :
    Bd2 m c (Proc.devRef .tc r) = Bd1 m c (Proc.devRef .tc r) := by
  by_cases hw : ∀ w, Pipeline.arrRef spec0 w ≠ r
  · exact Bd2_of_ne m c r hw
  · obtain ⟨w, hw'⟩ := not_forall.mp hw
    obtain rfl := not_not.mp hw'
    exact Bd2_in m c w (isIn0 w h)

theorem Bd3_keep (c : Dev nD) (r : Ref sig .tc) (h : r ∉ hostOps1_W) :
    Bd3 m c (Proc.devRef .tc r) = Bd2 m c (Proc.devRef .tc r) :=
  StableHlo.after_of_writes_sub hostOps1 _ hostOps1_writes h

theorem isIn1 : ∀ w : Fin cfg1.W, Pipeline.arrRef spec1 w ∉ ([main_v22] : List (Ref sig .tc)) → (cfg1.win w).isOut = false := by decide

theorem Bd4_keep (c : Dev nD) (r : Ref sig .tc) (h : r ∉ ([main_v22] : List (Ref sig .tc))) :
    Bd4 m c (Proc.devRef .tc r) = Bd3 m c (Proc.devRef .tc r) := by
  by_cases hw : ∀ w, Pipeline.arrRef spec1 w ≠ r
  · exact Bd4_of_ne m c r hw
  · obtain ⟨w, hw'⟩ := not_forall.mp hw
    obtain rfl := not_not.mp hw'
    exact Bd4_in m c w (isIn1 w h)

theorem Bd5_keep (c : Dev nD) (r : Ref sig .tc) (h : r ∉ hostOps2_W) :
    Bd5 m c (Proc.devRef .tc r) = Bd4 m c (Proc.devRef .tc r) :=
  StableHlo.after_of_writes_sub hostOps2 _ hostOps2_writes h

theorem isIn2 : ∀ w : Fin cfg2.W, Pipeline.arrRef spec2 w ∉ ([main_v38_0, main_v38_1, main_v38_2] : List (Ref sig .tc)) → (cfg2.win w).isOut = false := by decide

theorem Bd6_keep (c : Dev nD) (r : Ref sig .tc) (h : r ∉ ([main_v38_0, main_v38_1, main_v38_2] : List (Ref sig .tc))) :
    Bd6 m c (Proc.devRef .tc r) = Bd5 m c (Proc.devRef .tc r) := by
  by_cases hw : ∀ w, Pipeline.arrRef spec2 w ≠ r
  · exact Bd6_of_ne m c r hw
  · obtain ⟨w, hw'⟩ := not_forall.mp hw
    obtain rfl := not_not.mp hw'
    exact Bd6_in m c w (isIn2 w h)

theorem Bd7_keep (c : Dev nD) (r : Ref sig .tc) (h : r ∉ hostOps3_W) :
    Bd7 m c (Proc.devRef .tc r) = Bd6 m c (Proc.devRef .tc r) :=
  StableHlo.after_of_writes_sub hostOps3 _ hostOps3_writes h

theorem isIn3 : ∀ w : Fin cfg3.W, Pipeline.arrRef spec3 w ∉ ([main_v45] : List (Ref sig .tc)) → (cfg3.win w).isOut = false := by decide

theorem Bd8_keep (c : Dev nD) (r : Ref sig .tc) (h : r ∉ ([main_v45] : List (Ref sig .tc))) :
    Bd8 m c (Proc.devRef .tc r) = Bd7 m c (Proc.devRef .tc r) := by
  by_cases hw : ∀ w, Pipeline.arrRef spec3 w ≠ r
  · exact Bd8_of_ne m c r hw
  · obtain ⟨w, hw'⟩ := not_forall.mp hw
    obtain rfl := not_not.mp hw'
    exact Bd8_in m c w (isIn3 w h)

theorem Bd9_keep (c : Dev nD) (r : Ref sig .tc) (h : r ∉ hostOps4_W) :
    Bd9 m c (Proc.devRef .tc r) = Bd8 m c (Proc.devRef .tc r) :=
  StableHlo.after_of_writes_sub hostOps4 _ hostOps4_writes h

theorem isIn4 : ∀ w : Fin cfg4.W, Pipeline.arrRef spec4 w ∉ ([main_v61_0, main_v61_1, main_v61_2] : List (Ref sig .tc)) → (cfg4.win w).isOut = false := by decide

theorem Bd10_keep (c : Dev nD) (r : Ref sig .tc) (h : r ∉ ([main_v61_0, main_v61_1, main_v61_2] : List (Ref sig .tc))) :
    Bd10 m c (Proc.devRef .tc r) = Bd9 m c (Proc.devRef .tc r) := by
  by_cases hw : ∀ w, Pipeline.arrRef spec4 w ≠ r
  · exact Bd10_of_ne m c r hw
  · obtain ⟨w, hw'⟩ := not_forall.mp hw
    obtain rfl := not_not.mp hw'
    exact Bd10_in m c w (isIn4 w h)

theorem Bd11_keep (c : Dev nD) (r : Ref sig .tc) (h : r ∉ hostOps5_W) :
    Bd11 m c (Proc.devRef .tc r) = Bd10 m c (Proc.devRef .tc r) :=
  StableHlo.after_of_writes_sub hostOps5 _ hostOps5_writes h

theorem isIn5 : ∀ w : Fin cfg5.W, Pipeline.arrRef spec5 w ∉ ([main_v68] : List (Ref sig .tc)) → (cfg5.win w).isOut = false := by decide

theorem Bd12_keep (c : Dev nD) (r : Ref sig .tc) (h : r ∉ ([main_v68] : List (Ref sig .tc))) :
    Bd12 m c (Proc.devRef .tc r) = Bd11 m c (Proc.devRef .tc r) := by
  by_cases hw : ∀ w, Pipeline.arrRef spec5 w ≠ r
  · exact Bd12_of_ne m c r hw
  · obtain ⟨w, hw'⟩ := not_forall.mp hw
    obtain rfl := not_not.mp hw'
    exact Bd12_in m c w (isIn5 w h)

theorem Bd13_keep (c : Dev nD) (r : Ref sig .tc) (h : r ∉ hostOps6_W) :
    Bd13 m c (Proc.devRef .tc r) = Bd12 m c (Proc.devRef .tc r) :=
  StableHlo.after_of_writes_sub hostOps6 _ hostOps6_writes h

theorem isIn6 : ∀ w : Fin cfg6.W, Pipeline.arrRef spec6 w ∉ ([main_v84_0, main_v84_1, main_v84_2] : List (Ref sig .tc)) → (cfg6.win w).isOut = false := by decide

theorem Bd14_keep (c : Dev nD) (r : Ref sig .tc) (h : r ∉ ([main_v84_0, main_v84_1, main_v84_2] : List (Ref sig .tc))) :
    Bd14 m c (Proc.devRef .tc r) = Bd13 m c (Proc.devRef .tc r) := by
  by_cases hw : ∀ w, Pipeline.arrRef spec6 w ≠ r
  · exact Bd14_of_ne m c r hw
  · obtain ⟨w, hw'⟩ := not_forall.mp hw
    obtain rfl := not_not.mp hw'
    exact Bd14_in m c w (isIn6 w h)

theorem Bd15_keep (c : Dev nD) (r : Ref sig .tc) (h : r ∉ hostOps7_W) :
    Bd15 m c (Proc.devRef .tc r) = Bd14 m c (Proc.devRef .tc r) :=
  StableHlo.after_of_writes_sub hostOps7 _ hostOps7_writes h

theorem isIn7 : ∀ w : Fin cfg7.W, Pipeline.arrRef spec7 w ∉ ([main_v91] : List (Ref sig .tc)) → (cfg7.win w).isOut = false := by decide

theorem Bd16_keep (c : Dev nD) (r : Ref sig .tc) (h : r ∉ ([main_v91] : List (Ref sig .tc))) :
    Bd16 m c (Proc.devRef .tc r) = Bd15 m c (Proc.devRef .tc r) := by
  by_cases hw : ∀ w, Pipeline.arrRef spec7 w ≠ r
  · exact Bd16_of_ne m c r hw
  · obtain ⟨w, hw'⟩ := not_forall.mp hw
    obtain rfl := not_not.mp hw'
    exact Bd16_in m c w (isIn7 w h)

theorem Bd17_keep (c : Dev nD) (r : Ref sig .tc) (h : r ∉ hostOps8_W) :
    Bd17 m c (Proc.devRef .tc r) = Bd16 m c (Proc.devRef .tc r) :=
  StableHlo.after_of_writes_sub hostOps8 _ hostOps8_writes h

theorem isIn8 : ∀ w : Fin cfg8.W, Pipeline.arrRef spec8 w ∉ ([main_v103] : List (Ref sig .tc)) → (cfg8.win w).isOut = false := by decide

theorem Bd18_keep (c : Dev nD) (r : Ref sig .tc) (h : r ∉ ([main_v103] : List (Ref sig .tc))) :
    Bd18 m c (Proc.devRef .tc r) = Bd17 m c (Proc.devRef .tc r) := by
  by_cases hw : ∀ w, Pipeline.arrRef spec8 w ≠ r
  · exact Bd18_of_ne m c r hw
  · obtain ⟨w, hw'⟩ := not_forall.mp hw
    obtain rfl := not_not.mp hw'
    exact Bd18_in m c w (isIn8 w h)

end Cert.KernelIdeal.HandRun

end
-- ==== Proof.KI.ArgsAt.lean ====
import proofs.«128301_j8701603742430_2_alg».proof.Proof.Gen.KernelIdeal.Skeleton
import proofs.«128301_j8701603742430_2_alg».proof.Proof.Gen.KernelIdeal.Launch
import proofs.«128301_j8701603742430_2_alg».proof.Proof.Gen.KernelIdeal.Points
import proofs.«128301_j8701603742430_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128301_j8701603742430_2_alg».proof.Proof.KI.R0
import proofs.«128301_j8701603742430_2_alg».proof.Proof.KI.R1
import proofs.«128301_j8701603742430_2_alg».proof.Proof.KI.R2
import proofs.«128301_j8701603742430_2_alg».proof.Proof.KI.R3
import proofs.«128301_j8701603742430_2_alg».proof.Proof.KI.R4
import proofs.«128301_j8701603742430_2_alg».proof.Proof.KI.R5
import proofs.«128301_j8701603742430_2_alg».proof.Proof.KI.R6
import proofs.«128301_j8701603742430_2_alg».proof.Proof.KI.R7
import proofs.«128301_j8701603742430_2_alg».proof.Proof.KI.R8
import proofs.«128301_j8701603742430_2_alg».proof.Proof.KI.Vals

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ)

/-! Each argument's buffer holds its launch contents at every boundary: no stretch of host operations writes it,
    and a region either does not touch it or reads it through an input window. -/

theorem at0_main_arg0 (c : Dev nD) : Bd0 m c (Proc.devRef .tc main_arg0) = m ((c : Thread nD τ).loc main_arg0) := rfl
theorem at1_main_arg0 (c : Dev nD) : Bd1 m c (Proc.devRef .tc main_arg0) = m ((c : Thread nD τ).loc main_arg0) :=
  (StableHlo.after_of_writes_sub hostOps0 _ hostOps0_writes (by decide)).trans (at0_main_arg0 m c)
theorem at2_main_arg0 (c : Dev nD) : Bd2 m c (Proc.devRef .tc main_arg0) = m ((c : Thread nD τ).loc main_arg0) :=
  (Bd2_in m c 0 rfl).trans (at1_main_arg0 m c)
theorem at3_main_arg0 (c : Dev nD) : Bd3 m c (Proc.devRef .tc main_arg0) = m ((c : Thread nD τ).loc main_arg0) :=
  (StableHlo.after_of_writes_sub hostOps1 _ hostOps1_writes (by decide)).trans (at2_main_arg0 m c)
theorem at4_main_arg0 (c : Dev nD) : Bd4 m c (Proc.devRef .tc main_arg0) = m ((c : Thread nD τ).loc main_arg0) :=
  (Bd4_of_ne m c main_arg0 (by decide)).trans (at3_main_arg0 m c)
theorem at5_main_arg0 (c : Dev nD) : Bd5 m c (Proc.devRef .tc main_arg0) = m ((c : Thread nD τ).loc main_arg0) :=
  (StableHlo.after_of_writes_sub hostOps2 _ hostOps2_writes (by decide)).trans (at4_main_arg0 m c)
theorem at6_main_arg0 (c : Dev nD) : Bd6 m c (Proc.devRef .tc main_arg0) = m ((c : Thread nD τ).loc main_arg0) :=
  (Bd6_of_ne m c main_arg0 (by decide)).trans (at5_main_arg0 m c)
theorem at7_main_arg0 (c : Dev nD) : Bd7 m c (Proc.devRef .tc main_arg0) = m ((c : Thread nD τ).loc main_arg0) :=
  (StableHlo.after_of_writes_sub hostOps3 _ hostOps3_writes (by decide)).trans (at6_main_arg0 m c)
theorem at8_main_arg0 (c : Dev nD) : Bd8 m c (Proc.devRef .tc main_arg0) = m ((c : Thread nD τ).loc main_arg0) :=
  (Bd8_of_ne m c main_arg0 (by decide)).trans (at7_main_arg0 m c)
theorem at9_main_arg0 (c : Dev nD) : Bd9 m c (Proc.devRef .tc main_arg0) = m ((c : Thread nD τ).loc main_arg0) :=
  (StableHlo.after_of_writes_sub hostOps4 _ hostOps4_writes (by decide)).trans (at8_main_arg0 m c)
theorem at10_main_arg0 (c : Dev nD) : Bd10 m c (Proc.devRef .tc main_arg0) = m ((c : Thread nD τ).loc main_arg0) :=
  (Bd10_of_ne m c main_arg0 (by decide)).trans (at9_main_arg0 m c)
theorem at11_main_arg0 (c : Dev nD) : Bd11 m c (Proc.devRef .tc main_arg0) = m ((c : Thread nD τ).loc main_arg0) :=
  (StableHlo.after_of_writes_sub hostOps5 _ hostOps5_writes (by decide)).trans (at10_main_arg0 m c)
theorem at12_main_arg0 (c : Dev nD) : Bd12 m c (Proc.devRef .tc main_arg0) = m ((c : Thread nD τ).loc main_arg0) :=
  (Bd12_of_ne m c main_arg0 (by decide)).trans (at11_main_arg0 m c)
theorem at13_main_arg0 (c : Dev nD) : Bd13 m c (Proc.devRef .tc main_arg0) = m ((c : Thread nD τ).loc main_arg0) :=
  (StableHlo.after_of_writes_sub hostOps6 _ hostOps6_writes (by decide)).trans (at12_main_arg0 m c)
theorem at14_main_arg0 (c : Dev nD) : Bd14 m c (Proc.devRef .tc main_arg0) = m ((c : Thread nD τ).loc main_arg0) :=
  (Bd14_of_ne m c main_arg0 (by decide)).trans (at13_main_arg0 m c)
theorem at15_main_arg0 (c : Dev nD) : Bd15 m c (Proc.devRef .tc main_arg0) = m ((c : Thread nD τ).loc main_arg0) :=
  (StableHlo.after_of_writes_sub hostOps7 _ hostOps7_writes (by decide)).trans (at14_main_arg0 m c)
theorem at16_main_arg0 (c : Dev nD) : Bd16 m c (Proc.devRef .tc main_arg0) = m ((c : Thread nD τ).loc main_arg0) :=
  (Bd16_of_ne m c main_arg0 (by decide)).trans (at15_main_arg0 m c)
theorem at17_main_arg0 (c : Dev nD) : Bd17 m c (Proc.devRef .tc main_arg0) = m ((c : Thread nD τ).loc main_arg0) :=
  (StableHlo.after_of_writes_sub hostOps8 _ hostOps8_writes (by decide)).trans (at16_main_arg0 m c)
theorem at18_main_arg0 (c : Dev nD) : Bd18 m c (Proc.devRef .tc main_arg0) = m ((c : Thread nD τ).loc main_arg0) :=
  (Bd18_of_ne m c main_arg0 (by decide)).trans (at17_main_arg0 m c)

theorem at0_main_arg1 (c : Dev nD) : Bd0 m c (Proc.devRef .tc main_arg1) = m ((c : Thread nD τ).loc main_arg1) := rfl
theorem at1_main_arg1 (c : Dev nD) : Bd1 m c (Proc.devRef .tc main_arg1) = m ((c : Thread nD τ).loc main_arg1) :=
  (StableHlo.after_of_writes_sub hostOps0 _ hostOps0_writes (by decide)).trans (at0_main_arg1 m c)
theorem at2_main_arg1 (c : Dev nD) : Bd2 m c (Proc.devRef .tc main_arg1) = m ((c : Thread nD τ).loc main_arg1) :=
  (Bd2_of_ne m c main_arg1 (by decide)).trans (at1_main_arg1 m c)
theorem at3_main_arg1 (c : Dev nD) : Bd3 m c (Proc.devRef .tc main_arg1) = m ((c : Thread nD τ).loc main_arg1) :=
  (StableHlo.after_of_writes_sub hostOps1 _ hostOps1_writes (by decide)).trans (at2_main_arg1 m c)
theorem at4_main_arg1 (c : Dev nD) : Bd4 m c (Proc.devRef .tc main_arg1) = m ((c : Thread nD τ).loc main_arg1) :=
  (Bd4_of_ne m c main_arg1 (by decide)).trans (at3_main_arg1 m c)
theorem at5_main_arg1 (c : Dev nD) : Bd5 m c (Proc.devRef .tc main_arg1) = m ((c : Thread nD τ).loc main_arg1) :=
  (StableHlo.after_of_writes_sub hostOps2 _ hostOps2_writes (by decide)).trans (at4_main_arg1 m c)
theorem at6_main_arg1 (c : Dev nD) : Bd6 m c (Proc.devRef .tc main_arg1) = m ((c : Thread nD τ).loc main_arg1) :=
  (Bd6_of_ne m c main_arg1 (by decide)).trans (at5_main_arg1 m c)
theorem at7_main_arg1 (c : Dev nD) : Bd7 m c (Proc.devRef .tc main_arg1) = m ((c : Thread nD τ).loc main_arg1) :=
  (StableHlo.after_of_writes_sub hostOps3 _ hostOps3_writes (by decide)).trans (at6_main_arg1 m c)
theorem at8_main_arg1 (c : Dev nD) : Bd8 m c (Proc.devRef .tc main_arg1) = m ((c : Thread nD τ).loc main_arg1) :=
  (Bd8_of_ne m c main_arg1 (by decide)).trans (at7_main_arg1 m c)
theorem at9_main_arg1 (c : Dev nD) : Bd9 m c (Proc.devRef .tc main_arg1) = m ((c : Thread nD τ).loc main_arg1) :=
  (StableHlo.after_of_writes_sub hostOps4 _ hostOps4_writes (by decide)).trans (at8_main_arg1 m c)
theorem at10_main_arg1 (c : Dev nD) : Bd10 m c (Proc.devRef .tc main_arg1) = m ((c : Thread nD τ).loc main_arg1) :=
  (Bd10_of_ne m c main_arg1 (by decide)).trans (at9_main_arg1 m c)
theorem at11_main_arg1 (c : Dev nD) : Bd11 m c (Proc.devRef .tc main_arg1) = m ((c : Thread nD τ).loc main_arg1) :=
  (StableHlo.after_of_writes_sub hostOps5 _ hostOps5_writes (by decide)).trans (at10_main_arg1 m c)
theorem at12_main_arg1 (c : Dev nD) : Bd12 m c (Proc.devRef .tc main_arg1) = m ((c : Thread nD τ).loc main_arg1) :=
  (Bd12_of_ne m c main_arg1 (by decide)).trans (at11_main_arg1 m c)
theorem at13_main_arg1 (c : Dev nD) : Bd13 m c (Proc.devRef .tc main_arg1) = m ((c : Thread nD τ).loc main_arg1) :=
  (StableHlo.after_of_writes_sub hostOps6 _ hostOps6_writes (by decide)).trans (at12_main_arg1 m c)
theorem at14_main_arg1 (c : Dev nD) : Bd14 m c (Proc.devRef .tc main_arg1) = m ((c : Thread nD τ).loc main_arg1) :=
  (Bd14_of_ne m c main_arg1 (by decide)).trans (at13_main_arg1 m c)
theorem at15_main_arg1 (c : Dev nD) : Bd15 m c (Proc.devRef .tc main_arg1) = m ((c : Thread nD τ).loc main_arg1) :=
  (StableHlo.after_of_writes_sub hostOps7 _ hostOps7_writes (by decide)).trans (at14_main_arg1 m c)
theorem at16_main_arg1 (c : Dev nD) : Bd16 m c (Proc.devRef .tc main_arg1) = m ((c : Thread nD τ).loc main_arg1) :=
  (Bd16_of_ne m c main_arg1 (by decide)).trans (at15_main_arg1 m c)
theorem at17_main_arg1 (c : Dev nD) : Bd17 m c (Proc.devRef .tc main_arg1) = m ((c : Thread nD τ).loc main_arg1) :=
  (StableHlo.after_of_writes_sub hostOps8 _ hostOps8_writes (by decide)).trans (at16_main_arg1 m c)
theorem at18_main_arg1 (c : Dev nD) : Bd18 m c (Proc.devRef .tc main_arg1) = m ((c : Thread nD τ).loc main_arg1) :=
  (Bd18_of_ne m c main_arg1 (by decide)).trans (at17_main_arg1 m c)

theorem at0_main_arg2 (c : Dev nD) : Bd0 m c (Proc.devRef .tc main_arg2) = m ((c : Thread nD τ).loc main_arg2) := rfl
theorem at1_main_arg2 (c : Dev nD) : Bd1 m c (Proc.devRef .tc main_arg2) = m ((c : Thread nD τ).loc main_arg2) :=
  (StableHlo.after_of_writes_sub hostOps0 _ hostOps0_writes (by decide)).trans (at0_main_arg2 m c)
theorem at2_main_arg2 (c : Dev nD) : Bd2 m c (Proc.devRef .tc main_arg2) = m ((c : Thread nD τ).loc main_arg2) :=
  (Bd2_in m c 2 rfl).trans (at1_main_arg2 m c)
theorem at3_main_arg2 (c : Dev nD) : Bd3 m c (Proc.devRef .tc main_arg2) = m ((c : Thread nD τ).loc main_arg2) :=
  (StableHlo.after_of_writes_sub hostOps1 _ hostOps1_writes (by decide)).trans (at2_main_arg2 m c)
theorem at4_main_arg2 (c : Dev nD) : Bd4 m c (Proc.devRef .tc main_arg2) = m ((c : Thread nD τ).loc main_arg2) :=
  (Bd4_of_ne m c main_arg2 (by decide)).trans (at3_main_arg2 m c)
theorem at5_main_arg2 (c : Dev nD) : Bd5 m c (Proc.devRef .tc main_arg2) = m ((c : Thread nD τ).loc main_arg2) :=
  (StableHlo.after_of_writes_sub hostOps2 _ hostOps2_writes (by decide)).trans (at4_main_arg2 m c)
theorem at6_main_arg2 (c : Dev nD) : Bd6 m c (Proc.devRef .tc main_arg2) = m ((c : Thread nD τ).loc main_arg2) :=
  (Bd6_of_ne m c main_arg2 (by decide)).trans (at5_main_arg2 m c)
theorem at7_main_arg2 (c : Dev nD) : Bd7 m c (Proc.devRef .tc main_arg2) = m ((c : Thread nD τ).loc main_arg2) :=
  (StableHlo.after_of_writes_sub hostOps3 _ hostOps3_writes (by decide)).trans (at6_main_arg2 m c)
theorem at8_main_arg2 (c : Dev nD) : Bd8 m c (Proc.devRef .tc main_arg2) = m ((c : Thread nD τ).loc main_arg2) :=
  (Bd8_of_ne m c main_arg2 (by decide)).trans (at7_main_arg2 m c)
theorem at9_main_arg2 (c : Dev nD) : Bd9 m c (Proc.devRef .tc main_arg2) = m ((c : Thread nD τ).loc main_arg2) :=
  (StableHlo.after_of_writes_sub hostOps4 _ hostOps4_writes (by decide)).trans (at8_main_arg2 m c)
theorem at10_main_arg2 (c : Dev nD) : Bd10 m c (Proc.devRef .tc main_arg2) = m ((c : Thread nD τ).loc main_arg2) :=
  (Bd10_of_ne m c main_arg2 (by decide)).trans (at9_main_arg2 m c)
theorem at11_main_arg2 (c : Dev nD) : Bd11 m c (Proc.devRef .tc main_arg2) = m ((c : Thread nD τ).loc main_arg2) :=
  (StableHlo.after_of_writes_sub hostOps5 _ hostOps5_writes (by decide)).trans (at10_main_arg2 m c)
theorem at12_main_arg2 (c : Dev nD) : Bd12 m c (Proc.devRef .tc main_arg2) = m ((c : Thread nD τ).loc main_arg2) :=
  (Bd12_of_ne m c main_arg2 (by decide)).trans (at11_main_arg2 m c)
theorem at13_main_arg2 (c : Dev nD) : Bd13 m c (Proc.devRef .tc main_arg2) = m ((c : Thread nD τ).loc main_arg2) :=
  (StableHlo.after_of_writes_sub hostOps6 _ hostOps6_writes (by decide)).trans (at12_main_arg2 m c)
theorem at14_main_arg2 (c : Dev nD) : Bd14 m c (Proc.devRef .tc main_arg2) = m ((c : Thread nD τ).loc main_arg2) :=
  (Bd14_of_ne m c main_arg2 (by decide)).trans (at13_main_arg2 m c)
theorem at15_main_arg2 (c : Dev nD) : Bd15 m c (Proc.devRef .tc main_arg2) = m ((c : Thread nD τ).loc main_arg2) :=
  (StableHlo.after_of_writes_sub hostOps7 _ hostOps7_writes (by decide)).trans (at14_main_arg2 m c)
theorem at16_main_arg2 (c : Dev nD) : Bd16 m c (Proc.devRef .tc main_arg2) = m ((c : Thread nD τ).loc main_arg2) :=
  (Bd16_of_ne m c main_arg2 (by decide)).trans (at15_main_arg2 m c)
theorem at17_main_arg2 (c : Dev nD) : Bd17 m c (Proc.devRef .tc main_arg2) = m ((c : Thread nD τ).loc main_arg2) :=
  (StableHlo.after_of_writes_sub hostOps8 _ hostOps8_writes (by decide)).trans (at16_main_arg2 m c)
theorem at18_main_arg2 (c : Dev nD) : Bd18 m c (Proc.devRef .tc main_arg2) = m ((c : Thread nD τ).loc main_arg2) :=
  (Bd18_of_ne m c main_arg2 (by decide)).trans (at17_main_arg2 m c)

theorem at0_main_arg3 (c : Dev nD) : Bd0 m c (Proc.devRef .tc main_arg3) = m ((c : Thread nD τ).loc main_arg3) := rfl
theorem at1_main_arg3 (c : Dev nD) : Bd1 m c (Proc.devRef .tc main_arg3) = m ((c : Thread nD τ).loc main_arg3) :=
  (StableHlo.after_of_writes_sub hostOps0 _ hostOps0_writes (by decide)).trans (at0_main_arg3 m c)
theorem at2_main_arg3 (c : Dev nD) : Bd2 m c (Proc.devRef .tc main_arg3) = m ((c : Thread nD τ).loc main_arg3) :=
  (Bd2_of_ne m c main_arg3 (by decide)).trans (at1_main_arg3 m c)
theorem at3_main_arg3 (c : Dev nD) : Bd3 m c (Proc.devRef .tc main_arg3) = m ((c : Thread nD τ).loc main_arg3) :=
  (StableHlo.after_of_writes_sub hostOps1 _ hostOps1_writes (by decide)).trans (at2_main_arg3 m c)
theorem at4_main_arg3 (c : Dev nD) : Bd4 m c (Proc.devRef .tc main_arg3) = m ((c : Thread nD τ).loc main_arg3) :=
  (Bd4_of_ne m c main_arg3 (by decide)).trans (at3_main_arg3 m c)
theorem at5_main_arg3 (c : Dev nD) : Bd5 m c (Proc.devRef .tc main_arg3) = m ((c : Thread nD τ).loc main_arg3) :=
  (StableHlo.after_of_writes_sub hostOps2 _ hostOps2_writes (by decide)).trans (at4_main_arg3 m c)
theorem at6_main_arg3 (c : Dev nD) : Bd6 m c (Proc.devRef .tc main_arg3) = m ((c : Thread nD τ).loc main_arg3) :=
  (Bd6_of_ne m c main_arg3 (by decide)).trans (at5_main_arg3 m c)
theorem at7_main_arg3 (c : Dev nD) : Bd7 m c (Proc.devRef .tc main_arg3) = m ((c : Thread nD τ).loc main_arg3) :=
  (StableHlo.after_of_writes_sub hostOps3 _ hostOps3_writes (by decide)).trans (at6_main_arg3 m c)
theorem at8_main_arg3 (c : Dev nD) : Bd8 m c (Proc.devRef .tc main_arg3) = m ((c : Thread nD τ).loc main_arg3) :=
  (Bd8_of_ne m c main_arg3 (by decide)).trans (at7_main_arg3 m c)
theorem at9_main_arg3 (c : Dev nD) : Bd9 m c (Proc.devRef .tc main_arg3) = m ((c : Thread nD τ).loc main_arg3) :=
  (StableHlo.after_of_writes_sub hostOps4 _ hostOps4_writes (by decide)).trans (at8_main_arg3 m c)
theorem at10_main_arg3 (c : Dev nD) : Bd10 m c (Proc.devRef .tc main_arg3) = m ((c : Thread nD τ).loc main_arg3) :=
  (Bd10_of_ne m c main_arg3 (by decide)).trans (at9_main_arg3 m c)
theorem at11_main_arg3 (c : Dev nD) : Bd11 m c (Proc.devRef .tc main_arg3) = m ((c : Thread nD τ).loc main_arg3) :=
  (StableHlo.after_of_writes_sub hostOps5 _ hostOps5_writes (by decide)).trans (at10_main_arg3 m c)
theorem at12_main_arg3 (c : Dev nD) : Bd12 m c (Proc.devRef .tc main_arg3) = m ((c : Thread nD τ).loc main_arg3) :=
  (Bd12_of_ne m c main_arg3 (by decide)).trans (at11_main_arg3 m c)
theorem at13_main_arg3 (c : Dev nD) : Bd13 m c (Proc.devRef .tc main_arg3) = m ((c : Thread nD τ).loc main_arg3) :=
  (StableHlo.after_of_writes_sub hostOps6 _ hostOps6_writes (by decide)).trans (at12_main_arg3 m c)
theorem at14_main_arg3 (c : Dev nD) : Bd14 m c (Proc.devRef .tc main_arg3) = m ((c : Thread nD τ).loc main_arg3) :=
  (Bd14_of_ne m c main_arg3 (by decide)).trans (at13_main_arg3 m c)
theorem at15_main_arg3 (c : Dev nD) : Bd15 m c (Proc.devRef .tc main_arg3) = m ((c : Thread nD τ).loc main_arg3) :=
  (StableHlo.after_of_writes_sub hostOps7 _ hostOps7_writes (by decide)).trans (at14_main_arg3 m c)
theorem at16_main_arg3 (c : Dev nD) : Bd16 m c (Proc.devRef .tc main_arg3) = m ((c : Thread nD τ).loc main_arg3) :=
  (Bd16_of_ne m c main_arg3 (by decide)).trans (at15_main_arg3 m c)
theorem at17_main_arg3 (c : Dev nD) : Bd17 m c (Proc.devRef .tc main_arg3) = m ((c : Thread nD τ).loc main_arg3) :=
  (StableHlo.after_of_writes_sub hostOps8 _ hostOps8_writes (by decide)).trans (at16_main_arg3 m c)
theorem at18_main_arg3 (c : Dev nD) : Bd18 m c (Proc.devRef .tc main_arg3) = m ((c : Thread nD τ).loc main_arg3) :=
  (Bd18_of_ne m c main_arg3 (by decide)).trans (at17_main_arg3 m c)

theorem at0_main_arg4 (c : Dev nD) : Bd0 m c (Proc.devRef .tc main_arg4) = m ((c : Thread nD τ).loc main_arg4) := rfl
theorem at1_main_arg4 (c : Dev nD) : Bd1 m c (Proc.devRef .tc main_arg4) = m ((c : Thread nD τ).loc main_arg4) :=
  (StableHlo.after_of_writes_sub hostOps0 _ hostOps0_writes (by decide)).trans (at0_main_arg4 m c)
theorem at2_main_arg4 (c : Dev nD) : Bd2 m c (Proc.devRef .tc main_arg4) = m ((c : Thread nD τ).loc main_arg4) :=
  (Bd2_of_ne m c main_arg4 (by decide)).trans (at1_main_arg4 m c)
theorem at3_main_arg4 (c : Dev nD) : Bd3 m c (Proc.devRef .tc main_arg4) = m ((c : Thread nD τ).loc main_arg4) :=
  (StableHlo.after_of_writes_sub hostOps1 _ hostOps1_writes (by decide)).trans (at2_main_arg4 m c)
theorem at4_main_arg4 (c : Dev nD) : Bd4 m c (Proc.devRef .tc main_arg4) = m ((c : Thread nD τ).loc main_arg4) :=
  (Bd4_of_ne m c main_arg4 (by decide)).trans (at3_main_arg4 m c)
theorem at5_main_arg4 (c : Dev nD) : Bd5 m c (Proc.devRef .tc main_arg4) = m ((c : Thread nD τ).loc main_arg4) :=
  (StableHlo.after_of_writes_sub hostOps2 _ hostOps2_writes (by decide)).trans (at4_main_arg4 m c)
theorem at6_main_arg4 (c : Dev nD) : Bd6 m c (Proc.devRef .tc main_arg4) = m ((c : Thread nD τ).loc main_arg4) :=
  (Bd6_of_ne m c main_arg4 (by decide)).trans (at5_main_arg4 m c)
theorem at7_main_arg4 (c : Dev nD) : Bd7 m c (Proc.devRef .tc main_arg4) = m ((c : Thread nD τ).loc main_arg4) :=
  (StableHlo.after_of_writes_sub hostOps3 _ hostOps3_writes (by decide)).trans (at6_main_arg4 m c)
theorem at8_main_arg4 (c : Dev nD) : Bd8 m c (Proc.devRef .tc main_arg4) = m ((c : Thread nD τ).loc main_arg4) :=
  (Bd8_of_ne m c main_arg4 (by decide)).trans (at7_main_arg4 m c)
theorem at9_main_arg4 (c : Dev nD) : Bd9 m c (Proc.devRef .tc main_arg4) = m ((c : Thread nD τ).loc main_arg4) :=
  (StableHlo.after_of_writes_sub hostOps4 _ hostOps4_writes (by decide)).trans (at8_main_arg4 m c)
theorem at10_main_arg4 (c : Dev nD) : Bd10 m c (Proc.devRef .tc main_arg4) = m ((c : Thread nD τ).loc main_arg4) :=
  (Bd10_of_ne m c main_arg4 (by decide)).trans (at9_main_arg4 m c)
theorem at11_main_arg4 (c : Dev nD) : Bd11 m c (Proc.devRef .tc main_arg4) = m ((c : Thread nD τ).loc main_arg4) :=
  (StableHlo.after_of_writes_sub hostOps5 _ hostOps5_writes (by decide)).trans (at10_main_arg4 m c)
theorem at12_main_arg4 (c : Dev nD) : Bd12 m c (Proc.devRef .tc main_arg4) = m ((c : Thread nD τ).loc main_arg4) :=
  (Bd12_of_ne m c main_arg4 (by decide)).trans (at11_main_arg4 m c)
theorem at13_main_arg4 (c : Dev nD) : Bd13 m c (Proc.devRef .tc main_arg4) = m ((c : Thread nD τ).loc main_arg4) :=
  (StableHlo.after_of_writes_sub hostOps6 _ hostOps6_writes (by decide)).trans (at12_main_arg4 m c)
theorem at14_main_arg4 (c : Dev nD) : Bd14 m c (Proc.devRef .tc main_arg4) = m ((c : Thread nD τ).loc main_arg4) :=
  (Bd14_of_ne m c main_arg4 (by decide)).trans (at13_main_arg4 m c)
theorem at15_main_arg4 (c : Dev nD) : Bd15 m c (Proc.devRef .tc main_arg4) = m ((c : Thread nD τ).loc main_arg4) :=
  (StableHlo.after_of_writes_sub hostOps7 _ hostOps7_writes (by decide)).trans (at14_main_arg4 m c)
theorem at16_main_arg4 (c : Dev nD) : Bd16 m c (Proc.devRef .tc main_arg4) = m ((c : Thread nD τ).loc main_arg4) :=
  (Bd16_of_ne m c main_arg4 (by decide)).trans (at15_main_arg4 m c)
theorem at17_main_arg4 (c : Dev nD) : Bd17 m c (Proc.devRef .tc main_arg4) = m ((c : Thread nD τ).loc main_arg4) :=
  (StableHlo.after_of_writes_sub hostOps8 _ hostOps8_writes (by decide)).trans (at16_main_arg4 m c)
theorem at18_main_arg4 (c : Dev nD) : Bd18 m c (Proc.devRef .tc main_arg4) = m ((c : Thread nD τ).loc main_arg4) :=
  (Bd18_of_ne m c main_arg4 (by decide)).trans (at17_main_arg4 m c)

theorem at0_main_arg5 (c : Dev nD) : Bd0 m c (Proc.devRef .tc main_arg5) = m ((c : Thread nD τ).loc main_arg5) := rfl
theorem at1_main_arg5 (c : Dev nD) : Bd1 m c (Proc.devRef .tc main_arg5) = m ((c : Thread nD τ).loc main_arg5) :=
  (StableHlo.after_of_writes_sub hostOps0 _ hostOps0_writes (by decide)).trans (at0_main_arg5 m c)
theorem at2_main_arg5 (c : Dev nD) : Bd2 m c (Proc.devRef .tc main_arg5) = m ((c : Thread nD τ).loc main_arg5) :=
  (Bd2_of_ne m c main_arg5 (by decide)).trans (at1_main_arg5 m c)
theorem at3_main_arg5 (c : Dev nD) : Bd3 m c (Proc.devRef .tc main_arg5) = m ((c : Thread nD τ).loc main_arg5) :=
  (StableHlo.after_of_writes_sub hostOps1 _ hostOps1_writes (by decide)).trans (at2_main_arg5 m c)
theorem at4_main_arg5 (c : Dev nD) : Bd4 m c (Proc.devRef .tc main_arg5) = m ((c : Thread nD τ).loc main_arg5) :=
  (Bd4_of_ne m c main_arg5 (by decide)).trans (at3_main_arg5 m c)
theorem at5_main_arg5 (c : Dev nD) : Bd5 m c (Proc.devRef .tc main_arg5) = m ((c : Thread nD τ).loc main_arg5) :=
  (StableHlo.after_of_writes_sub hostOps2 _ hostOps2_writes (by decide)).trans (at4_main_arg5 m c)
theorem at6_main_arg5 (c : Dev nD) : Bd6 m c (Proc.devRef .tc main_arg5) = m ((c : Thread nD τ).loc main_arg5) :=
  (Bd6_of_ne m c main_arg5 (by decide)).trans (at5_main_arg5 m c)
theorem at7_main_arg5 (c : Dev nD) : Bd7 m c (Proc.devRef .tc main_arg5) = m ((c : Thread nD τ).loc main_arg5) :=
  (StableHlo.after_of_writes_sub hostOps3 _ hostOps3_writes (by decide)).trans (at6_main_arg5 m c)
theorem at8_main_arg5 (c : Dev nD) : Bd8 m c (Proc.devRef .tc main_arg5) = m ((c : Thread nD τ).loc main_arg5) :=
  (Bd8_of_ne m c main_arg5 (by decide)).trans (at7_main_arg5 m c)
theorem at9_main_arg5 (c : Dev nD) : Bd9 m c (Proc.devRef .tc main_arg5) = m ((c : Thread nD τ).loc main_arg5) :=
  (StableHlo.after_of_writes_sub hostOps4 _ hostOps4_writes (by decide)).trans (at8_main_arg5 m c)
theorem at10_main_arg5 (c : Dev nD) : Bd10 m c (Proc.devRef .tc main_arg5) = m ((c : Thread nD τ).loc main_arg5) :=
  (Bd10_of_ne m c main_arg5 (by decide)).trans (at9_main_arg5 m c)
theorem at11_main_arg5 (c : Dev nD) : Bd11 m c (Proc.devRef .tc main_arg5) = m ((c : Thread nD τ).loc main_arg5) :=
  (StableHlo.after_of_writes_sub hostOps5 _ hostOps5_writes (by decide)).trans (at10_main_arg5 m c)
theorem at12_main_arg5 (c : Dev nD) : Bd12 m c (Proc.devRef .tc main_arg5) = m ((c : Thread nD τ).loc main_arg5) :=
  (Bd12_of_ne m c main_arg5 (by decide)).trans (at11_main_arg5 m c)
theorem at13_main_arg5 (c : Dev nD) : Bd13 m c (Proc.devRef .tc main_arg5) = m ((c : Thread nD τ).loc main_arg5) :=
  (StableHlo.after_of_writes_sub hostOps6 _ hostOps6_writes (by decide)).trans (at12_main_arg5 m c)
theorem at14_main_arg5 (c : Dev nD) : Bd14 m c (Proc.devRef .tc main_arg5) = m ((c : Thread nD τ).loc main_arg5) :=
  (Bd14_of_ne m c main_arg5 (by decide)).trans (at13_main_arg5 m c)
theorem at15_main_arg5 (c : Dev nD) : Bd15 m c (Proc.devRef .tc main_arg5) = m ((c : Thread nD τ).loc main_arg5) :=
  (StableHlo.after_of_writes_sub hostOps7 _ hostOps7_writes (by decide)).trans (at14_main_arg5 m c)
theorem at16_main_arg5 (c : Dev nD) : Bd16 m c (Proc.devRef .tc main_arg5) = m ((c : Thread nD τ).loc main_arg5) :=
  (Bd16_of_ne m c main_arg5 (by decide)).trans (at15_main_arg5 m c)
theorem at17_main_arg5 (c : Dev nD) : Bd17 m c (Proc.devRef .tc main_arg5) = m ((c : Thread nD τ).loc main_arg5) :=
  (StableHlo.after_of_writes_sub hostOps8 _ hostOps8_writes (by decide)).trans (at16_main_arg5 m c)
theorem at18_main_arg5 (c : Dev nD) : Bd18 m c (Proc.devRef .tc main_arg5) = m ((c : Thread nD τ).loc main_arg5) :=
  (Bd18_of_ne m c main_arg5 (by decide)).trans (at17_main_arg5 m c)

theorem at0_main_arg6 (c : Dev nD) : Bd0 m c (Proc.devRef .tc main_arg6) = m ((c : Thread nD τ).loc main_arg6) := rfl
theorem at1_main_arg6 (c : Dev nD) : Bd1 m c (Proc.devRef .tc main_arg6) = m ((c : Thread nD τ).loc main_arg6) :=
  (StableHlo.after_of_writes_sub hostOps0 _ hostOps0_writes (by decide)).trans (at0_main_arg6 m c)
theorem at2_main_arg6 (c : Dev nD) : Bd2 m c (Proc.devRef .tc main_arg6) = m ((c : Thread nD τ).loc main_arg6) :=
  (Bd2_of_ne m c main_arg6 (by decide)).trans (at1_main_arg6 m c)
theorem at3_main_arg6 (c : Dev nD) : Bd3 m c (Proc.devRef .tc main_arg6) = m ((c : Thread nD τ).loc main_arg6) :=
  (StableHlo.after_of_writes_sub hostOps1 _ hostOps1_writes (by decide)).trans (at2_main_arg6 m c)
theorem at4_main_arg6 (c : Dev nD) : Bd4 m c (Proc.devRef .tc main_arg6) = m ((c : Thread nD τ).loc main_arg6) :=
  (Bd4_of_ne m c main_arg6 (by decide)).trans (at3_main_arg6 m c)
theorem at5_main_arg6 (c : Dev nD) : Bd5 m c (Proc.devRef .tc main_arg6) = m ((c : Thread nD τ).loc main_arg6) :=
  (StableHlo.after_of_writes_sub hostOps2 _ hostOps2_writes (by decide)).trans (at4_main_arg6 m c)
theorem at6_main_arg6 (c : Dev nD) : Bd6 m c (Proc.devRef .tc main_arg6) = m ((c : Thread nD τ).loc main_arg6) :=
  (Bd6_of_ne m c main_arg6 (by decide)).trans (at5_main_arg6 m c)
theorem at7_main_arg6 (c : Dev nD) : Bd7 m c (Proc.devRef .tc main_arg6) = m ((c : Thread nD τ).loc main_arg6) :=
  (StableHlo.after_of_writes_sub hostOps3 _ hostOps3_writes (by decide)).trans (at6_main_arg6 m c)
theorem at8_main_arg6 (c : Dev nD) : Bd8 m c (Proc.devRef .tc main_arg6) = m ((c : Thread nD τ).loc main_arg6) :=
  (Bd8_of_ne m c main_arg6 (by decide)).trans (at7_main_arg6 m c)
theorem at9_main_arg6 (c : Dev nD) : Bd9 m c (Proc.devRef .tc main_arg6) = m ((c : Thread nD τ).loc main_arg6) :=
  (StableHlo.after_of_writes_sub hostOps4 _ hostOps4_writes (by decide)).trans (at8_main_arg6 m c)
theorem at10_main_arg6 (c : Dev nD) : Bd10 m c (Proc.devRef .tc main_arg6) = m ((c : Thread nD τ).loc main_arg6) :=
  (Bd10_of_ne m c main_arg6 (by decide)).trans (at9_main_arg6 m c)
theorem at11_main_arg6 (c : Dev nD) : Bd11 m c (Proc.devRef .tc main_arg6) = m ((c : Thread nD τ).loc main_arg6) :=
  (StableHlo.after_of_writes_sub hostOps5 _ hostOps5_writes (by decide)).trans (at10_main_arg6 m c)
theorem at12_main_arg6 (c : Dev nD) : Bd12 m c (Proc.devRef .tc main_arg6) = m ((c : Thread nD τ).loc main_arg6) :=
  (Bd12_of_ne m c main_arg6 (by decide)).trans (at11_main_arg6 m c)
theorem at13_main_arg6 (c : Dev nD) : Bd13 m c (Proc.devRef .tc main_arg6) = m ((c : Thread nD τ).loc main_arg6) :=
  (StableHlo.after_of_writes_sub hostOps6 _ hostOps6_writes (by decide)).trans (at12_main_arg6 m c)
theorem at14_main_arg6 (c : Dev nD) : Bd14 m c (Proc.devRef .tc main_arg6) = m ((c : Thread nD τ).loc main_arg6) :=
  (Bd14_of_ne m c main_arg6 (by decide)).trans (at13_main_arg6 m c)
theorem at15_main_arg6 (c : Dev nD) : Bd15 m c (Proc.devRef .tc main_arg6) = m ((c : Thread nD τ).loc main_arg6) :=
  (StableHlo.after_of_writes_sub hostOps7 _ hostOps7_writes (by decide)).trans (at14_main_arg6 m c)
theorem at16_main_arg6 (c : Dev nD) : Bd16 m c (Proc.devRef .tc main_arg6) = m ((c : Thread nD τ).loc main_arg6) :=
  (Bd16_of_ne m c main_arg6 (by decide)).trans (at15_main_arg6 m c)
theorem at17_main_arg6 (c : Dev nD) : Bd17 m c (Proc.devRef .tc main_arg6) = m ((c : Thread nD τ).loc main_arg6) :=
  (StableHlo.after_of_writes_sub hostOps8 _ hostOps8_writes (by decide)).trans (at16_main_arg6 m c)
theorem at18_main_arg6 (c : Dev nD) : Bd18 m c (Proc.devRef .tc main_arg6) = m ((c : Thread nD τ).loc main_arg6) :=
  (Bd18_in m c 2 rfl).trans (at17_main_arg6 m c)

theorem at0_main_arg7 (c : Dev nD) : Bd0 m c (Proc.devRef .tc main_arg7) = m ((c : Thread nD τ).loc main_arg7) := rfl
theorem at1_main_arg7 (c : Dev nD) : Bd1 m c (Proc.devRef .tc main_arg7) = m ((c : Thread nD τ).loc main_arg7) :=
  (StableHlo.after_of_writes_sub hostOps0 _ hostOps0_writes (by decide)).trans (at0_main_arg7 m c)
theorem at2_main_arg7 (c : Dev nD) : Bd2 m c (Proc.devRef .tc main_arg7) = m ((c : Thread nD τ).loc main_arg7) :=
  (Bd2_of_ne m c main_arg7 (by decide)).trans (at1_main_arg7 m c)
theorem at3_main_arg7 (c : Dev nD) : Bd3 m c (Proc.devRef .tc main_arg7) = m ((c : Thread nD τ).loc main_arg7) :=
  (StableHlo.after_of_writes_sub hostOps1 _ hostOps1_writes (by decide)).trans (at2_main_arg7 m c)
theorem at4_main_arg7 (c : Dev nD) : Bd4 m c (Proc.devRef .tc main_arg7) = m ((c : Thread nD τ).loc main_arg7) :=
  (Bd4_of_ne m c main_arg7 (by decide)).trans (at3_main_arg7 m c)
theorem at5_main_arg7 (c : Dev nD) : Bd5 m c (Proc.devRef .tc main_arg7) = m ((c : Thread nD τ).loc main_arg7) :=
  (StableHlo.after_of_writes_sub hostOps2 _ hostOps2_writes (by decide)).trans (at4_main_arg7 m c)
theorem at6_main_arg7 (c : Dev nD) : Bd6 m c (Proc.devRef .tc main_arg7) = m ((c : Thread nD τ).loc main_arg7) :=
  (Bd6_of_ne m c main_arg7 (by decide)).trans (at5_main_arg7 m c)
theorem at7_main_arg7 (c : Dev nD) : Bd7 m c (Proc.devRef .tc main_arg7) = m ((c : Thread nD τ).loc main_arg7) :=
  (StableHlo.after_of_writes_sub hostOps3 _ hostOps3_writes (by decide)).trans (at6_main_arg7 m c)
theorem at8_main_arg7 (c : Dev nD) : Bd8 m c (Proc.devRef .tc main_arg7) = m ((c : Thread nD τ).loc main_arg7) :=
  (Bd8_of_ne m c main_arg7 (by decide)).trans (at7_main_arg7 m c)
theorem at9_main_arg7 (c : Dev nD) : Bd9 m c (Proc.devRef .tc main_arg7) = m ((c : Thread nD τ).loc main_arg7) :=
  (StableHlo.after_of_writes_sub hostOps4 _ hostOps4_writes (by decide)).trans (at8_main_arg7 m c)
theorem at10_main_arg7 (c : Dev nD) : Bd10 m c (Proc.devRef .tc main_arg7) = m ((c : Thread nD τ).loc main_arg7) :=
  (Bd10_of_ne m c main_arg7 (by decide)).trans (at9_main_arg7 m c)
theorem at11_main_arg7 (c : Dev nD) : Bd11 m c (Proc.devRef .tc main_arg7) = m ((c : Thread nD τ).loc main_arg7) :=
  (StableHlo.after_of_writes_sub hostOps5 _ hostOps5_writes (by decide)).trans (at10_main_arg7 m c)
theorem at12_main_arg7 (c : Dev nD) : Bd12 m c (Proc.devRef .tc main_arg7) = m ((c : Thread nD τ).loc main_arg7) :=
  (Bd12_of_ne m c main_arg7 (by decide)).trans (at11_main_arg7 m c)
theorem at13_main_arg7 (c : Dev nD) : Bd13 m c (Proc.devRef .tc main_arg7) = m ((c : Thread nD τ).loc main_arg7) :=
  (StableHlo.after_of_writes_sub hostOps6 _ hostOps6_writes (by decide)).trans (at12_main_arg7 m c)
theorem at14_main_arg7 (c : Dev nD) : Bd14 m c (Proc.devRef .tc main_arg7) = m ((c : Thread nD τ).loc main_arg7) :=
  (Bd14_of_ne m c main_arg7 (by decide)).trans (at13_main_arg7 m c)
theorem at15_main_arg7 (c : Dev nD) : Bd15 m c (Proc.devRef .tc main_arg7) = m ((c : Thread nD τ).loc main_arg7) :=
  (StableHlo.after_of_writes_sub hostOps7 _ hostOps7_writes (by decide)).trans (at14_main_arg7 m c)
theorem at16_main_arg7 (c : Dev nD) : Bd16 m c (Proc.devRef .tc main_arg7) = m ((c : Thread nD τ).loc main_arg7) :=
  (Bd16_of_ne m c main_arg7 (by decide)).trans (at15_main_arg7 m c)
theorem at17_main_arg7 (c : Dev nD) : Bd17 m c (Proc.devRef .tc main_arg7) = m ((c : Thread nD τ).loc main_arg7) :=
  (StableHlo.after_of_writes_sub hostOps8 _ hostOps8_writes (by decide)).trans (at16_main_arg7 m c)
theorem at18_main_arg7 (c : Dev nD) : Bd18 m c (Proc.devRef .tc main_arg7) = m ((c : Thread nD τ).loc main_arg7) :=
  (Bd18_of_ne m c main_arg7 (by decide)).trans (at17_main_arg7 m c)

theorem at0_main_arg8 (c : Dev nD) : Bd0 m c (Proc.devRef .tc main_arg8) = m ((c : Thread nD τ).loc main_arg8) := rfl
theorem at1_main_arg8 (c : Dev nD) : Bd1 m c (Proc.devRef .tc main_arg8) = m ((c : Thread nD τ).loc main_arg8) :=
  (StableHlo.after_of_writes_sub hostOps0 _ hostOps0_writes (by decide)).trans (at0_main_arg8 m c)
theorem at2_main_arg8 (c : Dev nD) : Bd2 m c (Proc.devRef .tc main_arg8) = m ((c : Thread nD τ).loc main_arg8) :=
  (Bd2_of_ne m c main_arg8 (by decide)).trans (at1_main_arg8 m c)
theorem at3_main_arg8 (c : Dev nD) : Bd3 m c (Proc.devRef .tc main_arg8) = m ((c : Thread nD τ).loc main_arg8) :=
  (StableHlo.after_of_writes_sub hostOps1 _ hostOps1_writes (by decide)).trans (at2_main_arg8 m c)
theorem at4_main_arg8 (c : Dev nD) : Bd4 m c (Proc.devRef .tc main_arg8) = m ((c : Thread nD τ).loc main_arg8) :=
  (Bd4_of_ne m c main_arg8 (by decide)).trans (at3_main_arg8 m c)
theorem at5_main_arg8 (c : Dev nD) : Bd5 m c (Proc.devRef .tc main_arg8) = m ((c : Thread nD τ).loc main_arg8) :=
  (StableHlo.after_of_writes_sub hostOps2 _ hostOps2_writes (by decide)).trans (at4_main_arg8 m c)
theorem at6_main_arg8 (c : Dev nD) : Bd6 m c (Proc.devRef .tc main_arg8) = m ((c : Thread nD τ).loc main_arg8) :=
  (Bd6_of_ne m c main_arg8 (by decide)).trans (at5_main_arg8 m c)
theorem at7_main_arg8 (c : Dev nD) : Bd7 m c (Proc.devRef .tc main_arg8) = m ((c : Thread nD τ).loc main_arg8) :=
  (StableHlo.after_of_writes_sub hostOps3 _ hostOps3_writes (by decide)).trans (at6_main_arg8 m c)
theorem at8_main_arg8 (c : Dev nD) : Bd8 m c (Proc.devRef .tc main_arg8) = m ((c : Thread nD τ).loc main_arg8) :=
  (Bd8_of_ne m c main_arg8 (by decide)).trans (at7_main_arg8 m c)
theorem at9_main_arg8 (c : Dev nD) : Bd9 m c (Proc.devRef .tc main_arg8) = m ((c : Thread nD τ).loc main_arg8) :=
  (StableHlo.after_of_writes_sub hostOps4 _ hostOps4_writes (by decide)).trans (at8_main_arg8 m c)
theorem at10_main_arg8 (c : Dev nD) : Bd10 m c (Proc.devRef .tc main_arg8) = m ((c : Thread nD τ).loc main_arg8) :=
  (Bd10_of_ne m c main_arg8 (by decide)).trans (at9_main_arg8 m c)
theorem at11_main_arg8 (c : Dev nD) : Bd11 m c (Proc.devRef .tc main_arg8) = m ((c : Thread nD τ).loc main_arg8) :=
  (StableHlo.after_of_writes_sub hostOps5 _ hostOps5_writes (by decide)).trans (at10_main_arg8 m c)
theorem at12_main_arg8 (c : Dev nD) : Bd12 m c (Proc.devRef .tc main_arg8) = m ((c : Thread nD τ).loc main_arg8) :=
  (Bd12_of_ne m c main_arg8 (by decide)).trans (at11_main_arg8 m c)
theorem at13_main_arg8 (c : Dev nD) : Bd13 m c (Proc.devRef .tc main_arg8) = m ((c : Thread nD τ).loc main_arg8) :=
  (StableHlo.after_of_writes_sub hostOps6 _ hostOps6_writes (by decide)).trans (at12_main_arg8 m c)
theorem at14_main_arg8 (c : Dev nD) : Bd14 m c (Proc.devRef .tc main_arg8) = m ((c : Thread nD τ).loc main_arg8) :=
  (Bd14_of_ne m c main_arg8 (by decide)).trans (at13_main_arg8 m c)
theorem at15_main_arg8 (c : Dev nD) : Bd15 m c (Proc.devRef .tc main_arg8) = m ((c : Thread nD τ).loc main_arg8) :=
  (StableHlo.after_of_writes_sub hostOps7 _ hostOps7_writes (by decide)).trans (at14_main_arg8 m c)
theorem at16_main_arg8 (c : Dev nD) : Bd16 m c (Proc.devRef .tc main_arg8) = m ((c : Thread nD τ).loc main_arg8) :=
  (Bd16_of_ne m c main_arg8 (by decide)).trans (at15_main_arg8 m c)
theorem at17_main_arg8 (c : Dev nD) : Bd17 m c (Proc.devRef .tc main_arg8) = m ((c : Thread nD τ).loc main_arg8) :=
  (StableHlo.after_of_writes_sub hostOps8 _ hostOps8_writes (by decide)).trans (at16_main_arg8 m c)
theorem at18_main_arg8 (c : Dev nD) : Bd18 m c (Proc.devRef .tc main_arg8) = m ((c : Thread nD τ).loc main_arg8) :=
  (Bd18_of_ne m c main_arg8 (by decide)).trans (at17_main_arg8 m c)

theorem at0_main_arg9 (c : Dev nD) : Bd0 m c (Proc.devRef .tc main_arg9) = m ((c : Thread nD τ).loc main_arg9) := rfl
theorem at1_main_arg9 (c : Dev nD) : Bd1 m c (Proc.devRef .tc main_arg9) = m ((c : Thread nD τ).loc main_arg9) :=
  (StableHlo.after_of_writes_sub hostOps0 _ hostOps0_writes (by decide)).trans (at0_main_arg9 m c)
theorem at2_main_arg9 (c : Dev nD) : Bd2 m c (Proc.devRef .tc main_arg9) = m ((c : Thread nD τ).loc main_arg9) :=
  (Bd2_of_ne m c main_arg9 (by decide)).trans (at1_main_arg9 m c)
theorem at3_main_arg9 (c : Dev nD) : Bd3 m c (Proc.devRef .tc main_arg9) = m ((c : Thread nD τ).loc main_arg9) :=
  (StableHlo.after_of_writes_sub hostOps1 _ hostOps1_writes (by decide)).trans (at2_main_arg9 m c)
theorem at4_main_arg9 (c : Dev nD) : Bd4 m c (Proc.devRef .tc main_arg9) = m ((c : Thread nD τ).loc main_arg9) :=
  (Bd4_of_ne m c main_arg9 (by decide)).trans (at3_main_arg9 m c)
theorem at5_main_arg9 (c : Dev nD) : Bd5 m c (Proc.devRef .tc main_arg9) = m ((c : Thread nD τ).loc main_arg9) :=
  (StableHlo.after_of_writes_sub hostOps2 _ hostOps2_writes (by decide)).trans (at4_main_arg9 m c)
theorem at6_main_arg9 (c : Dev nD) : Bd6 m c (Proc.devRef .tc main_arg9) = m ((c : Thread nD τ).loc main_arg9) :=
  (Bd6_of_ne m c main_arg9 (by decide)).trans (at5_main_arg9 m c)
theorem at7_main_arg9 (c : Dev nD) : Bd7 m c (Proc.devRef .tc main_arg9) = m ((c : Thread nD τ).loc main_arg9) :=
  (StableHlo.after_of_writes_sub hostOps3 _ hostOps3_writes (by decide)).trans (at6_main_arg9 m c)
theorem at8_main_arg9 (c : Dev nD) : Bd8 m c (Proc.devRef .tc main_arg9) = m ((c : Thread nD τ).loc main_arg9) :=
  (Bd8_of_ne m c main_arg9 (by decide)).trans (at7_main_arg9 m c)
theorem at9_main_arg9 (c : Dev nD) : Bd9 m c (Proc.devRef .tc main_arg9) = m ((c : Thread nD τ).loc main_arg9) :=
  (StableHlo.after_of_writes_sub hostOps4 _ hostOps4_writes (by decide)).trans (at8_main_arg9 m c)
theorem at10_main_arg9 (c : Dev nD) : Bd10 m c (Proc.devRef .tc main_arg9) = m ((c : Thread nD τ).loc main_arg9) :=
  (Bd10_of_ne m c main_arg9 (by decide)).trans (at9_main_arg9 m c)
theorem at11_main_arg9 (c : Dev nD) : Bd11 m c (Proc.devRef .tc main_arg9) = m ((c : Thread nD τ).loc main_arg9) :=
  (StableHlo.after_of_writes_sub hostOps5 _ hostOps5_writes (by decide)).trans (at10_main_arg9 m c)
theorem at12_main_arg9 (c : Dev nD) : Bd12 m c (Proc.devRef .tc main_arg9) = m ((c : Thread nD τ).loc main_arg9) :=
  (Bd12_of_ne m c main_arg9 (by decide)).trans (at11_main_arg9 m c)
theorem at13_main_arg9 (c : Dev nD) : Bd13 m c (Proc.devRef .tc main_arg9) = m ((c : Thread nD τ).loc main_arg9) :=
  (StableHlo.after_of_writes_sub hostOps6 _ hostOps6_writes (by decide)).trans (at12_main_arg9 m c)
theorem at14_main_arg9 (c : Dev nD) : Bd14 m c (Proc.devRef .tc main_arg9) = m ((c : Thread nD τ).loc main_arg9) :=
  (Bd14_of_ne m c main_arg9 (by decide)).trans (at13_main_arg9 m c)
theorem at15_main_arg9 (c : Dev nD) : Bd15 m c (Proc.devRef .tc main_arg9) = m ((c : Thread nD τ).loc main_arg9) :=
  (StableHlo.after_of_writes_sub hostOps7 _ hostOps7_writes (by decide)).trans (at14_main_arg9 m c)
theorem at16_main_arg9 (c : Dev nD) : Bd16 m c (Proc.devRef .tc main_arg9) = m ((c : Thread nD τ).loc main_arg9) :=
  (Bd16_of_ne m c main_arg9 (by decide)).trans (at15_main_arg9 m c)
theorem at17_main_arg9 (c : Dev nD) : Bd17 m c (Proc.devRef .tc main_arg9) = m ((c : Thread nD τ).loc main_arg9) :=
  (StableHlo.after_of_writes_sub hostOps8 _ hostOps8_writes (by decide)).trans (at16_main_arg9 m c)
theorem at18_main_arg9 (c : Dev nD) : Bd18 m c (Proc.devRef .tc main_arg9) = m ((c : Thread nD τ).loc main_arg9) :=
  (Bd18_of_ne m c main_arg9 (by decide)).trans (at17_main_arg9 m c)

end Cert.KernelIdeal.HandRun

end
-- ==== Proof.KI.Host.lean ====
import proofs.«128301_j8701603742430_2_alg».proof.Proof.Gen.KernelIdeal.Launch
import Idealize.ShloMosaic.Lib.StableHlo.Run

set_option maxRecDepth 16384

noncomputable section

namespace Cert.KernelIdeal.HandHost

open Cert.KernelIdeal Cert.KernelIdeal.Gen
open Idealize.ShloMosaic Idealize.ShloMosaic.TcCoe Idealize.SL.Sem

variable {F : FTy → Type} [FloatOps F]

/-! The host operations between the regions, read as functions of the buffers they read. -/

/-- Neighbour aggregation: row `dst k` of the result accumulates row `src k` of `h` for every edge `k` (a negative
    source index counted from the end), starting from zero. Kept as ONE function: both programs apply it. -/
def aggOf (src dst : (⟨S1600000, .i32⟩ : BufTy).Contents (Elt F)) (h : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (W : Valuation τ sig (Elt F))

/-- The first stretch leaves the aggregation of the input features in `main_v13`, over the source and destination
    vectors it leaves in `main_v1` and `main_v3`. -/
theorem host0_agg : StableHlo.after hostOps0 W (Proc.devRef .tc main_v13)
    = aggOf (StableHlo.after hostOps0 W (Proc.devRef .tc main_v1)) (StableHlo.after hostOps0 W (Proc.devRef .tc main_v3)) (W (Proc.devRef .tc main_arg0)) := by
  after_results_simp
  rfl

/-- Stretch 2 leaves the aggregation of `main_v22` in `main_v32`. -/
theorem host2_agg : StableHlo.after hostOps2 W (Proc.devRef .tc main_v32)
    = aggOf (W (Proc.devRef .tc main_v1)) (W (Proc.devRef .tc main_v3)) (W (Proc.devRef .tc main_v22)) := by
  after_results_simp
  rfl

/-- Stretch 4 leaves the aggregation of `main_v45` in `main_v55`. -/
theorem host4_agg : StableHlo.after hostOps4 W (Proc.devRef .tc main_v55)
    = aggOf (W (Proc.devRef .tc main_v1)) (W (Proc.devRef .tc main_v3)) (W (Proc.devRef .tc main_v45)) := by
  after_results_simp
  rfl

/-- Stretch 6 leaves the aggregation of `main_v68` in `main_v78`. -/
theorem host6_agg : StableHlo.after hostOps6 W (Proc.devRef .tc main_v78)
    = aggOf (W (Proc.devRef .tc main_v1)) (W (Proc.devRef .tc main_v3)) (W (Proc.devRef .tc main_v68)) := by
  after_results_simp
  rfl

/-- Stretch 8 leaves the aggregation of `main_v91` in `main_v101`. -/
theorem host8_agg : StableHlo.after hostOps8 W (Proc.devRef .tc main_v101)
    = aggOf (W (Proc.devRef .tc main_v1)) (W (Proc.devRef .tc main_v3)) (W (Proc.devRef .tc main_v91)) := by
  after_results_simp
  rfl

end Cert.KernelIdeal.HandHost

end
-- ==== Proof.KI.HostIdx.lean ====
import proofs.«128301_j8701603742430_2_alg».proof.Proof.Gen.KernelIdeal.Launch
import Idealize.ShloMosaic.Lib.StableHlo.Run

set_option maxRecDepth 16384

noncomputable section

namespace Cert.KernelIdeal.HandHost

open Cert.KernelIdeal Cert.KernelIdeal.Gen
open Idealize.ShloMosaic Idealize.ShloMosaic.TcCoe Idealize.SL.Sem

variable {F : FTy → Type} [FloatOps F]

/-- Row 0 of the edge list, as a vector: the source node of each edge. -/
def srcOf (E : IVec S2x1600000 32) : IVec S1600000 32 :=
  fun i => shapeCast S1600000 (extractStridedSlice S1x1600000 ![0, 0] E slices_S2x1600000_S1x1600000_0_0) shapeCasts_S1x1600000_S1600000 i

/-- Row 1 of the edge list, as a vector: the destination node of each edge. -/
def dstOf (E : IVec S2x1600000 32) : IVec S1600000 32 :=
  fun i => shapeCast S1600000 (extractStridedSlice S1x1600000 ![1, 0] E slices_S2x1600000_S1x1600000_1_0) shapeCasts_S1x1600000_S1600000 i

variable (W : Valuation τ sig (Elt F))

/-- The first stretch leaves the source vector in `main_v1`. -/
theorem host0_src : StableHlo.after hostOps0 W (Proc.devRef .tc main_v1) = srcOf (W (Proc.devRef .tc main_arg1)) := by
  after_results_simp
  rfl

/-- The first stretch leaves the destination vector in `main_v3`. -/
theorem host0_dst : StableHlo.after hostOps0 W (Proc.devRef .tc main_v3) = dstOf (W (Proc.devRef .tc main_arg1)) := by
  after_results_simp
  rfl

end Cert.KernelIdeal.HandHost

end
-- ==== Proof.LibHostLayout.lean ====
/-
  Host-side layout operations and two host operations read at an index, over arrays of any extents: a vector laid as a
  single row, a single row repeated down the rows, a vector stood up as a column, a column repeated along the columns
  (each a broadcast that names which axes of the result the operand's axes become), one member cut out of a stack of
  matrices, the host's square root of an entry, and the host's sum over the entries of each row from an initial value
  that is zero, which over the extended reals is the sum of the row. Each lemma says which single entry (or which row)
  of the operand an entry of the result reads.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Idealize.ShloMosaic.HostLayout

open Idealize.ShloMosaic Idealize.ShloMosaic.ValueIdx

variable {α : Type}

/-- A vector `[b]` laid as the single row `[1, b]` reads, at `(u, j)`, the vector at `j`. -/
theorem bcast_b_1b_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The single row `[1, b]` repeated down `a` rows reads, at `(p, j)`, the row at `j`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (j : Fin b) :
    broadcastInDim ⟨2, ![a, b]⟩ ![0, 1] h x (ix2 p j) = x (ix2 (0 : Fin 1) j) := by
  refine broadcastInDim_apply _ h x (ix2 p j) (ix2 (0 : Fin 1) j) fun ax => ?_
  match ax with
  | ⟨0, _⟩ => rfl
  | ⟨1, _⟩ =>
    show j.val = if b = 1 then 0 else j.val
    split
    · have := j.isLt; omega
    · rfl

/-- A vector `[a]` stood up as the column `[a, 1]` reads, at `(p, u)`, the vector at `p`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` repeated along `b` columns reads, at `(p, j)`, the column's entry of row `p`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (j : Fin b) :
    broadcastInDim ⟨2, ![a, b]⟩ ![0, 1] h x (ix2 p j) = x (ix2 p (0 : Fin 1)) := by
  refine broadcastInDim_apply _ h x (ix2 p j) (ix2 p (0 : Fin 1)) fun ax => ?_
  match ax with
  | ⟨0, _⟩ =>
    show p.val = if a = 1 then 0 else p.val
    split
    · have := p.isLt; omega
    · rfl
  | ⟨1, _⟩ => rfl

/-- Member `o` cut out of a stack `[n0, n1, n2]` reads, at `(u, p, q)`, the stack at `(o, p, q)`. -/
theorem slice3_axis0_apply {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (u : Fin 1) (p : Fin n1) (q : Fin n2) (k : Fin n0) (hk : k.val = o) :
    extractStridedSlice ⟨3, ![1, n1, n2]⟩ ![o, 0, 0] X h (ix3 u p q) = X (ix3 k p q) :=
  extractStridedSlice_apply _ _ _ _ _ (fun ax => by
    match ax with
    | ⟨0, _⟩ =>
      show k.val = o + u.val
      have := u.isLt; omega
    | ⟨1, _⟩ => exact (Nat.zero_add _).symm
    | ⟨2, _⟩ => exact (Nat.zero_add _).symm)

/-- The host's square root at an index is the square root of the entry. -/
theorem hostSqrt_apply {s : Shape} {φ : FTy} (x : FVec Ideal s φ) (i : s.Idx) : Host.sqrt x i = Ideal.sqrt (x i) := rfl

/-- The host's sum over the rows' entries, from an initial value that is zero, read at row `p`: the sum of the row. -/
theorem hostRowSum_apply {a b : ℕ} {u : Shape} (x : FVec Ideal ⟨2, ![a, b]⟩ .f32) (init : u.Idx → Ideal .f32)
    (h' : (⟨2, ![a, b]⟩ : Shape).ReducesTo [1] ⟨1, ![a]⟩) (hu : 0 < u.numel) (h0 : init (Shape.Idx.first hu) = 0)
    (p : Fin a) : Host.reduceAdd x init h' hu (ix1 p) = ∑ k : Fin b, x (ix2 p k) := by
  have h : (⟨2, ![a, b]⟩ : Shape).Reduces [1] ⟨1, ![a]⟩ := ⟨h'.1, Nat.one_pos, h'.2⟩
  show Ideal.hostReduceAdd h' x _ (ix1 p) = _
  rw [Ideal.hostReduceAdd_single h' h, h0, zero_add]
  exact Finset.sum_congr rfl fun k _ => congrArg x (funext fun ax => Fin.ext (by
    match ax with
    | ⟨0, _⟩ => rfl
    | ⟨1, _⟩ => rfl))

end Idealize.ShloMosaic.HostLayout

end
-- ==== Proof.Spec.lean ====
/-
  The stages of the network as functions over the extended reals, on plain coordinates (row, column), for any sizes:
  the linear stage of a round, the rectifier, the column moments of a batch, batch normalisation as the kernel
  computes it (from the sum and the sum of squares) and as the reference computes it (from the centred squares),
  and the row-wise logarithm of the softmax. Definitions only: every program-side lemma states its array as one of
  these functions of its operands, and the laws between them are proved once, over these definitions.
-/
import Idealize.ShloMosaic.PureOps.Ideal

noncomputable section

open scoped BigOperators

namespace GinSpec

open Idealize.ShloMosaic

variable {n d e : ℕ}

/-- A round's linear stage: `(h + agg) · W + b`, the bias along the rows. -/
def lin (h agg : Fin n → Fin d → EReal) (W : Fin d → Fin e → EReal) (b : Fin e → EReal) : Fin n → Fin e → EReal :=
  fun i j => (∑ k : Fin d, (h i k + agg i k) * W k j) + b j

/-- The rectifier, entry by entry. -/
def relu (z : Fin n → Fin e → EReal) : Fin n → Fin e → EReal := fun i j => max (z i j) 0

/-- A column's sum over all rows. -/
def colSum (r : Fin n → Fin e → EReal) : Fin e → EReal := fun j => ∑ i : Fin n, r i j

/-- A column's sum of squares over all rows. -/
def colSumSq (r : Fin n → Fin e → EReal) : Fin e → EReal := fun j => ∑ i : Fin n, r i j * r i j

/-- Batch normalisation from the two moments `s` (sum) and `ss` (sum of squares) of each column: the mean is
    `s / cnt`, the variance `ss / cnt - mean²` clamped at zero from below. -/
def bnMoments (cnt eps : EReal) (r : Fin n → Fin e → EReal) (s ss g b : Fin e → EReal) : Fin n → Fin e → EReal :=
  fun i j => (r i j - Ideal.div (s j) cnt)
    * Ideal.rsqrt (max (Ideal.div (ss j) cnt - Ideal.div (s j) cnt * Ideal.div (s j) cnt) 0 + eps) * g j + b j

/-- Batch normalisation from the centred squares: the mean is the column's sum over `cnt`, the variance the
    sum of the squared deviations from it over `cnt`. -/
def bnCentred (cnt eps : EReal) (r : Fin n → Fin e → EReal) (g b : Fin e → EReal) : Fin n → Fin e → EReal :=
  fun i j => (r i j - Ideal.div (∑ i' : Fin n, r i' j) cnt)
    * Ideal.rsqrt (Ideal.div (∑ i' : Fin n, (r i' j - Ideal.div (∑ i'' : Fin n, r i'' j) cnt)
        * (r i' j - Ideal.div (∑ i'' : Fin n, r i'' j) cnt)) cnt + eps) * g j + b j

/-- The largest entry of a row (`⊥` for an empty row). -/
def rowMax (z : Fin n → Fin e → EReal) : Fin n → EReal := fun i => Finset.univ.sup fun j => z i j

/-- The logarithm of the softmax along each row: `(z - max) - log (∑ exp (z - max))`. -/
def logSoftmax (z : Fin n → Fin e → EReal) : Fin n → Fin e → EReal :=
  fun i j => (z i j - rowMax z i) - Ideal.log (∑ j' : Fin e, Ideal.exp (z i j' - rowMax z i))

/-- An array of a rank-2 shape read on coordinates. -/
abbrev onCoords {a b : ℕ} (x : (⟨2, ![a, b]⟩ : Shape).Idx → EReal) : Fin a → Fin b → EReal :=
  fun i j => x (fun d => match d with | ⟨0, _⟩ => i | ⟨1, _⟩ => j)

/-- A one-row array `[1, b]` read as a vector. -/
abbrev rowVec {b : ℕ} (x : (⟨2, ![1, b]⟩ : Shape).Idx → EReal) : Fin b → EReal :=
  fun j => x (fun d => match d with | ⟨0, _⟩ => (0 : Fin 1) | ⟨1, _⟩ => j)

end GinSpec

end
-- ==== Proof.KI.HostRows.lean ====
/-
  What the kernel program's host operations between its regions leave in the small parameter buffers, read on
  coordinates: the first round's bias and the closing bias as vectors; row `l` of the scales and of the shifts; member
  `l` of the stack of weight matrices and row `l` of the stack of biases. Each is a slice and reshapes of an argument
  of the program, so each entry is one entry of that argument. `rowVec_cast`, `rowVec_slice_row`,
  `onCoords_slice_member`: the three layouts, over arrays of any extents.
-/
import proofs.«128301_j8701603742430_2_alg».proof.Proof.Gen.KernelIdeal.Launch
import Idealize.ShloMosaic.Lib.StableHlo.Run
import proofs.«128301_j8701603742430_2_alg».proof.Proof.LibHostLayout
import proofs.«128301_j8701603742430_2_alg».proof.Proof.Spec

set_option maxRecDepth 16384

noncomputable section

namespace Cert.KernelIdeal.HandHost

open Cert.KernelIdeal Cert.KernelIdeal.Gen
open Idealize.ShloMosaic Idealize.ShloMosaic.TcCoe Idealize.SL.Sem
open Idealize.ShloMosaic.ValueIdx Idealize.ShloMosaic.HostLayout

/-- A one-row array as a vector reads the row's entries. -/
theorem rowVec_apply {b : ℕ} (y : (⟨2, ![1, b]⟩ : Shape).Idx → EReal) (j : Fin b) :
    GinSpec.rowVec y j = y (ix2 (0 : Fin 1) j) :=
  congrArg y (funext fun d => match d with | ⟨0, _⟩ => rfl | ⟨1, _⟩ => rfl)

/-- An array of rank 2 on coordinates reads its entries. -/
theorem onCoords_apply {a b : ℕ} (y : (⟨2, ![a, b]⟩ : Shape).Idx → EReal) (i : Fin a) (j : Fin b) :
    GinSpec.onCoords y i j = y (ix2 i j) :=
  congrArg y (funext fun d => match d with | ⟨0, _⟩ => rfl | ⟨1, _⟩ => rfl)

/-- A vector laid as one row, read as a vector, is the vector. -/
theorem rowVec_cast {b : ℕ} (x : (⟨1, ![b]⟩ : Shape).Idx → EReal) (h : (⟨1, ![b]⟩ : Shape).ShapeCasts ⟨2, ![1, b]⟩) :
    GinSpec.rowVec (shapeCast ⟨2, ![1, b]⟩ x h) = fun j => x (ix1 j) :=
  funext fun j => (rowVec_apply _ j).trans (shapeCast_a_1a_apply x h 0 j)

/-- Row `l` cut out of a matrix, flattened and laid as one row again, read as a vector, is that row. -/
theorem rowVec_slice_row {m b : ℕ} (l : ℕ) (X : (⟨2, ![m, b]⟩ : Shape).Idx → EReal)
    (hs : (⟨2, ![m, b]⟩ : Shape).Slices ![l, 0] ⟨2, ![1, b]⟩) (h1 : (⟨2, ![1, b]⟩ : Shape).ShapeCasts ⟨1, ![b]⟩)
    (h2 : (⟨1, ![b]⟩ : Shape).ShapeCasts ⟨2, ![1, b]⟩) (k : Fin m) (hk : k.val = l) :
    GinSpec.rowVec (shapeCast ⟨2, ![1, b]⟩ (shapeCast ⟨1, ![b]⟩ (extractStridedSlice ⟨2, ![1, b]⟩ ![l, 0] X hs) h1) h2)
      = fun j => X (ix2 k j) := by
  funext j
  rw [rowVec_apply, shapeCast_a_1a_apply, shapeCast_1a_a_apply]
  exact extractStridedSlice_apply _ _ _ _ _ (fun ax => by
    match ax with
    | ⟨0, _⟩ => show k.val = l + 0; omega
    | ⟨1, _⟩ => exact (Nat.zero_add _).symm)

/-- Member `l` cut out of a stack of matrices and flattened to a matrix, on coordinates, is that member. -/
theorem onCoords_slice_member {m a b : ℕ} (l : ℕ) (X : (⟨3, ![m, a, b]⟩ : Shape).Idx → EReal)
    (hs : (⟨3, ![m, a, b]⟩ : Shape).Slices ![l, 0, 0] ⟨3, ![1, a, b]⟩)
    (h1 : (⟨3, ![1, a, b]⟩ : Shape).ShapeCasts ⟨2, ![a, b]⟩) (k : Fin m) (hk : k.val = l) :
    GinSpec.onCoords (shapeCast ⟨2, ![a, b]⟩ (extractStridedSlice ⟨3, ![1, a, b]⟩ ![l, 0, 0] X hs) h1)
      = fun p q => X (ix3 k p q) := by
  funext p q
  rw [onCoords_apply, shapeCast_1ab_ab_apply]
  exact slice3_axis0_apply l X hs 0 p q k hk

variable (W : Valuation τ sig (Elt Ideal))

/-- The first stretch leaves the first round's bias in `main_v14`, laid as one row. -/
theorem host0_bias : GinSpec.rowVec (StableHlo.after hostOps0 W (Proc.devRef .tc main_v14))
    = fun j => W (Proc.devRef .tc main_arg3) (ix1 j) := by
  have e : StableHlo.after hostOps0 W (Proc.devRef .tc main_v14)
      = shapeCast S1x64 (W (Proc.devRef .tc main_arg3)) shapeCasts_S64_S1x64 := by
    after_results_simp
    rfl
  rw [e]
  exact rowVec_cast _ _

/-- The last stretch leaves the closing bias in `main_v102`, laid as one row. -/
theorem host8_bias : GinSpec.rowVec (StableHlo.after hostOps8 W (Proc.devRef .tc main_v102))
    = fun j => W (Proc.devRef .tc main_arg7) (ix1 j) := by
  have e : StableHlo.after hostOps8 W (Proc.devRef .tc main_v102)
      = shapeCast S1x40 (W (Proc.devRef .tc main_arg7)) shapeCasts_S40_S1x40 := by
    after_results_simp
    rfl
  rw [e]
  exact rowVec_cast _ _

/-- Stretch 1 leaves row 0 of the scales in `main_v20`, laid as one row. -/
theorem host1_scale : GinSpec.rowVec (StableHlo.after hostOps1 W (Proc.devRef .tc main_v20))
    = fun j => W (Proc.devRef .tc main_arg8) (ix2 (0 : Fin 4) j) := by
  have e : StableHlo.after hostOps1 W (Proc.devRef .tc main_v20)
      = shapeCast S1x64 (shapeCast S64 (extractStridedSlice S1x64 ![0, 0] (W (Proc.devRef .tc main_arg8))
          slices_S4x64_S1x64_0_0) shapeCasts_S1x64_S64) shapeCasts_S64_S1x64 := by
    after_results_simp
    rfl
  rw [e]
  exact rowVec_slice_row 0 _ _ _ _ (0 : Fin 4) rfl

/-- Stretch 1 leaves row 0 of the shifts in `main_v21`, laid as one row. -/
theorem host1_shift : GinSpec.rowVec (StableHlo.after hostOps1 W (Proc.devRef .tc main_v21))
    = fun j => W (Proc.devRef .tc main_arg9) (ix2 (0 : Fin 4) j) := by
  have e : StableHlo.after hostOps1 W (Proc.devRef .tc main_v21)
      = shapeCast S1x64 (shapeCast S64 (extractStridedSlice S1x64 ![0, 0] (W (Proc.devRef .tc main_arg9))
          slices_S4x64_S1x64_0_0) shapeCasts_S1x64_S64) shapeCasts_S64_S1x64 := by
    after_results_simp
    rfl
  rw [e]
  exact rowVec_slice_row 0 _ _ _ _ (0 : Fin 4) rfl

/-- Stretch 3 leaves row 1 of the scales in `main_v43`, laid as one row. -/
theorem host3_scale : GinSpec.rowVec (StableHlo.after hostOps3 W (Proc.devRef .tc main_v43))
    = fun j => W (Proc.devRef .tc main_arg8) (ix2 (1 : Fin 4) j) := by
  have e : StableHlo.after hostOps3 W (Proc.devRef .tc main_v43)
      = shapeCast S1x64 (shapeCast S64 (extractStridedSlice S1x64 ![1, 0] (W (Proc.devRef .tc main_arg8))
          slices_S4x64_S1x64_1_0) shapeCasts_S1x64_S64) shapeCasts_S64_S1x64 := by
    after_results_simp
    rfl
  rw [e]
  exact rowVec_slice_row 1 _ _ _ _ (1 : Fin 4) rfl

/-- Stretch 3 leaves row 1 of the shifts in `main_v44`, laid as one row. -/
theorem host3_shift : GinSpec.rowVec (StableHlo.after hostOps3 W (Proc.devRef .tc main_v44))
    = fun j => W (Proc.devRef .tc main_arg9) (ix2 (1 : Fin 4) j) := by
  have e : StableHlo.after hostOps3 W (Proc.devRef .tc main_v44)
      = shapeCast S1x64 (shapeCast S64 (extractStridedSlice S1x64 ![1, 0] (W (Proc.devRef .tc main_arg9))
          slices_S4x64_S1x64_1_0) shapeCasts_S1x64_S64) shapeCasts_S64_S1x64 := by
    after_results_simp
    rfl
  rw [e]
  exact rowVec_slice_row 1 _ _ _ _ (1 : Fin 4) rfl

/-- Stretch 5 leaves row 2 of the scales in `main_v66`, laid as one row. -/
theorem host5_scale : GinSpec.rowVec (StableHlo.after hostOps5 W (Proc.devRef .tc main_v66))
    = fun j => W (Proc.devRef .tc main_arg8) (ix2 (2 : Fin 4) j) := by
  have e : StableHlo.after hostOps5 W (Proc.devRef .tc main_v66)
      = shapeCast S1x64 (shapeCast S64 (extractStridedSlice S1x64 ![2, 0] (W (Proc.devRef .tc main_arg8))
          slices_S4x64_S1x64_2_0) shapeCasts_S1x64_S64) shapeCasts_S64_S1x64 := by
    after_results_simp
    rfl
  rw [e]
  exact rowVec_slice_row 2 _ _ _ _ (2 : Fin 4) rfl

/-- Stretch 5 leaves row 2 of the shifts in `main_v67`, laid as one row. -/
theorem host5_shift : GinSpec.rowVec (StableHlo.after hostOps5 W (Proc.devRef .tc main_v67))
    = fun j => W (Proc.devRef .tc main_arg9) (ix2 (2 : Fin 4) j) := by
  have e : StableHlo.after hostOps5 W (Proc.devRef .tc main_v67)
      = shapeCast S1x64 (shapeCast S64 (extractStridedSlice S1x64 ![2, 0] (W (Proc.devRef .tc main_arg9))
          slices_S4x64_S1x64_2_0) shapeCasts_S1x64_S64) shapeCasts_S64_S1x64 := by
    after_results_simp
    rfl
  rw [e]
  exact rowVec_slice_row 2 _ _ _ _ (2 : Fin 4) rfl

/-- Stretch 7 leaves row 3 of the scales in `main_v89`, laid as one row. -/
theorem host7_scale : GinSpec.rowVec (StableHlo.after hostOps7 W (Proc.devRef .tc main_v89))
    = fun j => W (Proc.devRef .tc main_arg8) (ix2 (3 : Fin 4) j) := by
  have e : StableHlo.after hostOps7 W (Proc.devRef .tc main_v89)
      = shapeCast S1x64 (shapeCast S64 (extractStridedSlice S1x64 ![3, 0] (W (Proc.devRef .tc main_arg8))
          slices_S4x64_S1x64_3_0) shapeCasts_S1x64_S64) shapeCasts_S64_S1x64 := by
    after_results_simp
    rfl
  rw [e]
  exact rowVec_slice_row 3 _ _ _ _ (3 : Fin 4) rfl

/-- Stretch 7 leaves row 3 of the shifts in `main_v90`, laid as one row. -/
theorem host7_shift : GinSpec.rowVec (StableHlo.after hostOps7 W (Proc.devRef .tc main_v90))
    = fun j => W (Proc.devRef .tc main_arg9) (ix2 (3 : Fin 4) j) := by
  have e : StableHlo.after hostOps7 W (Proc.devRef .tc main_v90)
      = shapeCast S1x64 (shapeCast S64 (extractStridedSlice S1x64 ![3, 0] (W (Proc.devRef .tc main_arg9))
          slices_S4x64_S1x64_3_0) shapeCasts_S1x64_S64) shapeCasts_S64_S1x64 := by
    after_results_simp
    rfl
  rw [e]
  exact rowVec_slice_row 3 _ _ _ _ (3 : Fin 4) rfl

/-- Stretch 2 leaves member 0 of the stack of weight matrices in `main_v34`. -/
theorem host2_weight : GinSpec.onCoords (StableHlo.after hostOps2 W (Proc.devRef .tc main_v34))
    = fun k j => W (Proc.devRef .tc main_arg4) (ix3 (0 : Fin 3) k j) := by
  have e : StableHlo.after hostOps2 W (Proc.devRef .tc main_v34)
      = shapeCast S64x64 (extractStridedSlice S1x64x64 ![0, 0, 0] (W (Proc.devRef .tc main_arg4))
          slices_S3x64x64_S1x64x64_0_0_0) shapeCasts_S1x64x64_S64x64 := by
    after_results_simp
    rfl
  rw [e]
  exact onCoords_slice_member 0 _ _ _ (0 : Fin 3) rfl

/-- Stretch 2 leaves row 0 of the stack of biases in `main_v37`, laid as one row. -/
theorem host2_bias : GinSpec.rowVec (StableHlo.after hostOps2 W (Proc.devRef .tc main_v37))
    = fun j => W (Proc.devRef .tc main_arg5) (ix2 (0 : Fin 3) j) := by
  have e : StableHlo.after hostOps2 W (Proc.devRef .tc main_v37)
      = shapeCast S1x64 (shapeCast S64 (extractStridedSlice S1x64 ![0, 0] (W (Proc.devRef .tc main_arg5))
          slices_S3x64_S1x64_0_0) shapeCasts_S1x64_S64) shapeCasts_S64_S1x64 := by
    after_results_simp
    rfl
  rw [e]
  exact rowVec_slice_row 0 _ _ _ _ (0 : Fin 3) rfl

/-- Stretch 4 leaves member 1 of the stack of weight matrices in `main_v57`. -/
theorem host4_weight : GinSpec.onCoords (StableHlo.after hostOps4 W (Proc.devRef .tc main_v57))
    = fun k j => W (Proc.devRef .tc main_arg4) (ix3 (1 : Fin 3) k j) := by
  have e : StableHlo.after hostOps4 W (Proc.devRef .tc main_v57)
      = shapeCast S64x64 (extractStridedSlice S1x64x64 ![1, 0, 0] (W (Proc.devRef .tc main_arg4))
          slices_S3x64x64_S1x64x64_1_0_0) shapeCasts_S1x64x64_S64x64 := by
    after_results_simp
    rfl
  rw [e]
  exact onCoords_slice_member 1 _ _ _ (1 : Fin 3) rfl

/-- Stretch 4 leaves row 1 of the stack of biases in `main_v60`, laid as one row. -/
theorem host4_bias : GinSpec.rowVec (StableHlo.after hostOps4 W (Proc.devRef .tc main_v60))
    = fun j => W (Proc.devRef .tc main_arg5) (ix2 (1 : Fin 3) j) := by
  have e : StableHlo.after hostOps4 W (Proc.devRef .tc main_v60)
      = shapeCast S1x64 (shapeCast S64 (extractStridedSlice S1x64 ![1, 0] (W (Proc.devRef .tc main_arg5))
          slices_S3x64_S1x64_1_0) shapeCasts_S1x64_S64) shapeCasts_S64_S1x64 := by
    after_results_simp
    rfl
  rw [e]
  exact rowVec_slice_row 1 _ _ _ _ (1 : Fin 3) rfl

/-- Stretch 6 leaves member 2 of the stack of weight matrices in `main_v80`. -/
theorem host6_weight : GinSpec.onCoords (StableHlo.after hostOps6 W (Proc.devRef .tc main_v80))
    = fun k j => W (Proc.devRef .tc main_arg4) (ix3 (2 : Fin 3) k j) := by
  have e : StableHlo.after hostOps6 W (Proc.devRef .tc main_v80)
      = shapeCast S64x64 (extractStridedSlice S1x64x64 ![2, 0, 0] (W (Proc.devRef .tc main_arg4))
          slices_S3x64x64_S1x64x64_2_0_0) shapeCasts_S1x64x64_S64x64 := by
    after_results_simp
    rfl
  rw [e]
  exact onCoords_slice_member 2 _ _ _ (2 : Fin 3) rfl

/-- Stretch 6 leaves row 2 of the stack of biases in `main_v83`, laid as one row. -/
theorem host6_bias : GinSpec.rowVec (StableHlo.after hostOps6 W (Proc.devRef .tc main_v83))
    = fun j => W (Proc.devRef .tc main_arg5) (ix2 (2 : Fin 3) j) := by
  have e : StableHlo.after hostOps6 W (Proc.devRef .tc main_v83)
      = shapeCast S1x64 (shapeCast S64 (extractStridedSlice S1x64 ![2, 0] (W (Proc.devRef .tc main_arg5))
          slices_S3x64_S1x64_2_0) shapeCasts_S1x64_S64) shapeCasts_S64_S1x64 := by
    after_results_simp
    rfl
  rw [e]
  exact rowVec_slice_row 2 _ _ _ _ (2 : Fin 3) rfl

end Cert.KernelIdeal.HandHost

end
-- ==== Proof.SpecCoords.lean ====
/-
  Arrays of rank two and functions of two coordinates: laying a function out as an array and reading an array on
  coordinates are inverse to each other; a one-row array and a vector likewise.
-/
import proofs.«128301_j8701603742430_2_alg».proof.Proof.Spec
import Idealize.ShloMosaic.Lib.ValueIdx

noncomputable section

namespace GinSpec

open Idealize.ShloMosaic Idealize.ShloMosaic.ValueIdx

/-- A function of two coordinates laid out as a rank-2 array. -/
abbrev ofCoords {a b : ℕ} (f : Fin a → Fin b → EReal) : (⟨2, ![a, b]⟩ : Shape).Idx → EReal := fun i => f (i 0) (i 1)

/-- A vector laid out as a one-row array. -/
abbrev ofRow {b : ℕ} (f : Fin b → EReal) : (⟨2, ![1, b]⟩ : Shape).Idx → EReal := fun i => f (i 1)

theorem onCoords_ofCoords {a b : ℕ} (f : Fin a → Fin b → EReal) : onCoords (ofCoords f) = f := rfl

theorem ofCoords_onCoords {a b : ℕ} (x : (⟨2, ![a, b]⟩ : Shape).Idx → EReal) : ofCoords (onCoords x) = x := by
  funext i
  show x _ = x i
  congr 1
  funext d
  match d with
  | ⟨0, _⟩ => rfl
  | ⟨1, _⟩ => rfl

theorem rowVec_ofRow {b : ℕ} (f : Fin b → EReal) : rowVec (ofRow f) = f := rfl

end GinSpec

end
-- ==== Proof.LibRealValued.lean ====
/-
  Real-valued data at the ideal instance: the extended reals that are real numbers, and the operations that keep them so.

  `RealNum a`: the extended real `a` is (the coercion of) a real number, i.e. neither infinity. `IsReal f`: every value of
  the family `f` is. `coe_sum`: the coercion of a finite real sum is the sum of the coercions. Closure: a real number, 0,
  sums, differences, products, negations, maxima and finite sums of real numbers are real numbers (`RealNum.coe`, `.zero`,
  `.add`, `.sub`, `.mul`, `.neg`, `.max`, `.sum`); the quotient `Ideal.div` of a real number by a nonzero one is
  (`.div`, `.div_coe`, with the value `div_coe_coe`); the reciprocal square root `Ideal.rsqrt` of a positive real
  number is (`.rsqrt`), in particular of a nonnegative real number plus a positive one (`.rsqrt_add`); `max a 0` of a real
  number is a nonnegative real number (`.relu`, `relu_nonneg`). Families: a gather of a real family is real
  (`IsReal.gather`, `IsReal.comp`), a host scatter-add of real updates into a real family is real
  (`IsReal.hostScatterAdd`), and a matrix product of real families plus a real accumulator is real (`IsReal.matmul`,
  `IsReal.mxuPass`).
-/
import Idealize.ShloMosaic.PureOps.Ideal

noncomputable section

namespace RealValued

open Idealize.ShloMosaic
open scoped BigOperators

/-- The extended real `a` is a real number. -/
def RealNum (a : EReal) : Prop := ∃ x : ℝ, a = (x : EReal)

/-- Every value of the family `f` is a real number. -/
def IsReal {α : Type*} (f : α → EReal) : Prop := ∀ a, RealNum (f a)

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- A real family is the coercion of a family of reals. -/
theorem IsReal.exists_fun {α : Type*} {f : α → EReal} (h : IsReal f) : ∃ x : α → ℝ, ∀ a, f a = (x a : EReal) :=
  ⟨fun a => (h a).choose, fun a => (h a).choose_spec⟩

namespace RealNum

theorem coe (x : ℝ) : RealNum (x : EReal) := ⟨x, rfl⟩

theorem zero : RealNum 0 := ⟨0, rfl⟩

theorem ne_top {a : EReal} (h : RealNum a) : a ≠ ⊤ := by
  obtain ⟨x, rfl⟩ := h; exact EReal.coe_ne_top x

theorem ne_bot {a : EReal} (h : RealNum a) : a ≠ ⊥ := by
  obtain ⟨x, rfl⟩ := h; exact EReal.coe_ne_bot x

theorem of_ne {a : EReal} (h1 : a ≠ ⊤) (h2 : a ≠ ⊥) : RealNum a := ⟨a.toReal, (EReal.coe_toReal h1 h2).symm⟩

theorem add {a b : EReal} (ha : RealNum a) (hb : RealNum b) : RealNum (a + b) := by
  obtain ⟨x, rfl⟩ := ha; obtain ⟨y, rfl⟩ := hb; exact ⟨x + y, (EReal.coe_add x y).symm⟩

theorem sub {a b : EReal} (ha : RealNum a) (hb : RealNum b) : RealNum (a - b) := by
  obtain ⟨x, rfl⟩ := ha; obtain ⟨y, rfl⟩ := hb; exact ⟨x - y, (EReal.coe_sub x y).symm⟩

theorem mul {a b : EReal} (ha : RealNum a) (hb : RealNum b) : RealNum (a * b) := by
  obtain ⟨x, rfl⟩ := ha; obtain ⟨y, rfl⟩ := hb; exact ⟨x * y, (EReal.coe_mul x y).symm⟩

theorem neg {a : EReal} (ha : RealNum a) : RealNum (-a) := by
  obtain ⟨x, rfl⟩ := ha; exact ⟨-x, (EReal.coe_neg x).symm⟩

theorem max {a b : EReal} (ha : RealNum a) (hb : RealNum b) : RealNum (max a b) := by
  rcases max_choice a b with h | h <;> rw [h] <;> assumption

/-- A finite sum of real numbers is a real number. -/
theorem sum {ι : Type*} (s : Finset ι) {f : ι → EReal} (h : ∀ i ∈ s, RealNum (f i)) : RealNum (∑ i ∈ s, f i) := by
  classical
  revert h
  refine Finset.induction_on s ?_ ?_
  · intro _; simpa using zero
  · intro a s ha ih h
    rw [Finset.sum_insert ha]
    exact add (h a (Finset.mem_insert_self a s)) (ih fun i hi => h i (Finset.mem_insert_of_mem hi))

end RealNum

/-- The quotient of two reals, the divisor nonzero, is the real quotient. -/
theorem div_coe_coe (a n : ℝ) (h0 : n ≠ 0) : Ideal.div (a : EReal) (n : EReal) = ((a / n : ℝ) : EReal) := by
  rw [Ideal.div_coe h0, ← EReal.coe_mul, mul_one_div]

namespace RealNum

/-- The quotient of a real number by a nonzero real is a real number. -/
theorem div_coe {a : EReal} (ha : RealNum a) {n : ℝ} (h0 : n ≠ 0) : RealNum (Ideal.div a (n : EReal)) := by
  obtain ⟨x, rfl⟩ := ha; exact ⟨x / n, div_coe_coe x n h0⟩

/-- The quotient of a real number by a nonzero real number is a real number. -/
theorem div {a b : EReal} (ha : RealNum a) (hb : RealNum b) (h0 : b ≠ 0) : RealNum (Ideal.div a b) := by
  obtain ⟨y, rfl⟩ := hb
  exact ha.div_coe (fun e => h0 (by rw [e]; rfl))

/-- The reciprocal square root of a positive real is a real number. -/
theorem rsqrt {y : ℝ} (hy : 0 < y) : RealNum (Ideal.rsqrt (y : EReal)) := by
  refine ⟨(Real.sqrt y)⁻¹, ?_⟩
  rw [Ideal.rsqrt_coe, if_neg (not_lt.mpr hy.le), if_neg hy.ne']

/-- The reciprocal square root of a nonnegative real number plus a positive real is a real number. -/
theorem rsqrt_add {v : EReal} (hv : RealNum v) (h0 : 0 ≤ v) {e : ℝ} (he : 0 < e) :
    RealNum (Ideal.rsqrt (v + (e : EReal))) := by
  obtain ⟨x, rfl⟩ := hv
  have hx : 0 ≤ x := by exact_mod_cast h0
  rw [← EReal.coe_add]
  exact rsqrt (by linarith)

/-- The positive part of a real number is a real number. -/
theorem relu {a : EReal} (ha : RealNum a) : RealNum (Max.max a 0) := ha.max zero

end RealNum

/-- The positive part is nonnegative. -/
theorem relu_nonneg (a : EReal) : 0 ≤ max a 0 := le_max_right a 0

namespace IsReal

variable {α β : Type*}

/-- A family read through any map of indices stays real. -/
theorem comp {f : α → EReal} (h : IsReal f) (g : β → α) : IsReal (fun b => f (g b)) := fun b => h (g b)

theorem add {f g : α → EReal} (hf : IsReal f) (hg : IsReal g) : IsReal (fun a => f a + g a) := fun a => (hf a).add (hg a)

theorem sub {f g : α → EReal} (hf : IsReal f) (hg : IsReal g) : IsReal (fun a => f a - g a) := fun a => (hf a).sub (hg a)

theorem mul {f g : α → EReal} (hf : IsReal f) (hg : IsReal g) : IsReal (fun a => f a * g a) := fun a => (hf a).mul (hg a)

theorem relu {f : α → EReal} (hf : IsReal f) : IsReal (fun a => max (f a) 0) := fun a => (hf a).relu

/-- A gather reads entries of its operand. -/
theorem gather {s si t : Shape} {w : Nat} (d : GatherDims s si t) {x : s.Idx → EReal} (hx : IsReal x) (idx : IVec si w) :
    IsReal (Host.gather d x idx) := fun j => hx (d.operandIdx j idx)

/-- The host's accumulating scatter of real updates into a real family is real. -/
theorem hostScatterAdd {s si su : Shape} (d : ScatterDims s si su) {w : Nat} {x : s.Idx → EReal} (hx : IsReal x)
    (idx : IVec si w) {upd : su.Idx → EReal} (hu : IsReal upd) : IsReal (Ideal.hostScatterAdd d x idx upd) :=
  fun i => (hx i).add (RealNum.sum _ fun j _ => hu j)

/-- A matrix product of real families plus a real accumulator is real. -/
theorem matmul {sl sr so : Shape} (d : DotDims sl sr so) {lhs : sl.Idx → EReal} {rhs : sr.Idx → EReal}
    {acc : so.Idx → EReal} (hl : IsReal lhs) (hr : IsReal rhs) (ha : IsReal acc) : IsReal (Ideal.matmul d lhs rhs acc) :=
  fun j => (ha j).add (RealNum.sum _ fun k _ => (hl _).mul (hr _))

/-- A matrix product of real families is real. -/
theorem mxuPass {sl sr so : Shape} (d : DotDims sl sr so) {lhs : sl.Idx → EReal} {rhs : sr.Idx → EReal}
    (hl : IsReal lhs) (hr : IsReal rhs) : IsReal (Ideal.mxuPass d lhs rhs) :=
  fun j => RealNum.sum _ fun k _ => (hl _).mul (hr _)

end IsReal

end RealValued

end
-- ==== Proof.LibBatchMoments.lean ====
/-
  Batch normalisation's two variances, joined on real data at the ideal instance.

  Over a finite index type `ι` of `n` rows and a column `r : ι → EReal` of real numbers, with mean `μ = (∑ r) / n`:
  one program computes the variance from the raw moments, `max ((∑ r·r) / n - μ·μ) 0`, the other from the centred
  squares, `(∑ (r-μ)·(r-μ)) / n`; every quotient is `Ideal.div` by the real `n`. `real_var_eq`: the identity over the
  reals. `mean_real`: the mean is a real number. `moments`: both variances are the coercion of one nonnegative real.
  `moment_var_eq`: the raw-moment form equals the centred form; `max_moment_var_eq`: so does its maximum with 0;
  `centred_var_real` / `centred_var_nonneg`: the common value is a nonnegative real number. The identities fail when
  some `r i` is an infinity, whence the hypothesis. `count_sub_zero`, `count_pos`: the divisor `n - 0` is `n`,
  and it compares above 0.
-/
import proofs.«128301_j8701603742430_2_alg».proof.Proof.LibRealValued

noncomputable section

namespace BatchMoments

open Idealize.ShloMosaic RealValued
open scoped BigOperators

variable {ι : Type*} [Fintype ι]

/-- Over the reals: the mean of the squares less the square of the mean is the mean of the centred squares. -/
theorem real_var_eq (x : ι → ℝ) (n : ℝ) (hn : (Fintype.card ι : ℝ) = n) (h0 : n ≠ 0) (m : ℝ)
    (hm : m = (∑ i, x i) / n) :
    (∑ i, x i * x i) / n - m * m = (∑ i, (x i - m) * (x i - m)) / n := by
  have hS : ∑ i, x i = n * m := by rw [hm]; field_simp
  have hexp : ∑ i, (x i - m) * (x i - m) = (∑ i, x i * x i) - 2 * m * (∑ i, x i) + n * (m * m) := by
    have h : ∀ i, (x i - m) * (x i - m) = x i * x i - 2 * m * x i + m * m := fun i => by ring
    simp only [h, Finset.sum_add_distrib, Finset.sum_sub_distrib, ← Finset.mul_sum, Finset.sum_const, Finset.card_univ,
      nsmul_eq_mul, hn]
    ring
  rw [hexp, hS]
  field_simp
  ring

/-- A nonzero row count is positive. -/
theorem count_pos_of_ne {n : ℝ} (hn : (Fintype.card ι : ℝ) = n) (h0 : n ≠ 0) : 0 < n :=
  lt_of_le_of_ne (hn ▸ Nat.cast_nonneg _) (Ne.symm h0)

/-- The mean of a real column is a real number. -/
theorem mean_real {r : ι → EReal} (hr : IsReal r) {n : ℝ} (h0 : n ≠ 0) :
    RealNum (Ideal.div (∑ i, r i) (n : EReal)) :=
  (RealNum.sum _ fun i _ => hr i).div_coe h0

/-- Both variances of a real column are the coercion of one nonnegative real. -/
theorem moments {r : ι → EReal} (hr : IsReal r) {n : ℝ} (hn : (Fintype.card ι : ℝ) = n) (h0 : n ≠ 0) :
    ∃ v : ℝ, 0 ≤ v ∧
      Ideal.div (∑ i, r i * r i) (n : EReal) - Ideal.div (∑ i, r i) (n : EReal) * Ideal.div (∑ i, r i) (n : EReal)
        = (v : EReal) ∧
      Ideal.div (∑ i, (r i - Ideal.div (∑ i, r i) (n : EReal)) * (r i - Ideal.div (∑ i, r i) (n : EReal))) (n : EReal)
        = (v : EReal) := by
  obtain ⟨x, hx⟩ := hr.exists_fun
  have hpos : 0 < n := count_pos_of_ne hn h0
  simp only [hx]
  have hmean : Ideal.div (∑ i, (x i : EReal)) (n : EReal) = (((∑ i, x i) / n : ℝ) : EReal) := by
    rw [← coe_sum, div_coe_coe _ _ h0]
  rw [hmean]
  generalize hm : (∑ i, x i) / n = m
  have hS2 : ∑ i, (x i : EReal) * (x i : EReal) = ((∑ i, x i * x i : ℝ) : EReal) := by
    rw [coe_sum]; exact Finset.sum_congr rfl fun i _ => (EReal.coe_mul _ _).symm
  have hC : ∑ i, ((x i : EReal) - (m : EReal)) * ((x i : EReal) - (m : EReal))
      = ((∑ i, (x i - m) * (x i - m) : ℝ) : EReal) := by
    rw [coe_sum]; exact Finset.sum_congr rfl fun i _ => by rw [← EReal.coe_sub, ← EReal.coe_mul]
  refine ⟨(∑ i, (x i - m) * (x i - m)) / n, ?_, ?_, ?_⟩
  · exact div_nonneg (Finset.sum_nonneg fun i _ => mul_self_nonneg _) hpos.le
  · rw [hS2, div_coe_coe _ _ h0, ← EReal.coe_mul, ← EReal.coe_sub, real_var_eq x n hn h0 m hm.symm]
  · rw [hC, div_coe_coe _ _ h0]

/-- The raw-moment variance of a real column is its centred variance. -/
theorem moment_var_eq {r : ι → EReal} (hr : IsReal r) {n : ℝ} (hn : (Fintype.card ι : ℝ) = n) (h0 : n ≠ 0) :
    Ideal.div (∑ i, r i * r i) (n : EReal) - Ideal.div (∑ i, r i) (n : EReal) * Ideal.div (∑ i, r i) (n : EReal)
      = Ideal.div (∑ i, (r i - Ideal.div (∑ i, r i) (n : EReal)) * (r i - Ideal.div (∑ i, r i) (n : EReal)))
          (n : EReal) := by
  obtain ⟨v, _, h1, h2⟩ := moments hr hn h0
  rw [h1, h2]

/-- The centred variance of a real column is a real number. -/
theorem centred_var_real {r : ι → EReal} (hr : IsReal r) {n : ℝ} (hn : (Fintype.card ι : ℝ) = n) (h0 : n ≠ 0) :
    RealNum (Ideal.div (∑ i, (r i - Ideal.div (∑ i, r i) (n : EReal)) * (r i - Ideal.div (∑ i, r i) (n : EReal)))
      (n : EReal)) := by
  obtain ⟨v, _, _, h2⟩ := moments hr hn h0
  exact ⟨v, h2⟩

/-- The centred variance of a real column is nonnegative. -/
theorem centred_var_nonneg {r : ι → EReal} (hr : IsReal r) {n : ℝ} (hn : (Fintype.card ι : ℝ) = n) (h0 : n ≠ 0) :
    0 ≤ Ideal.div (∑ i, (r i - Ideal.div (∑ i, r i) (n : EReal)) * (r i - Ideal.div (∑ i, r i) (n : EReal)))
      (n : EReal) := by
  obtain ⟨v, hv, _, h2⟩ := moments hr hn h0
  rw [h2]; exact_mod_cast hv

/-- Clamping the raw-moment variance of a real column at 0 changes nothing: it is the centred variance. -/
theorem max_moment_var_eq {r : ι → EReal} (hr : IsReal r) {n : ℝ} (hn : (Fintype.card ι : ℝ) = n) (h0 : n ≠ 0) :
    max (Ideal.div (∑ i, r i * r i) (n : EReal)
        - Ideal.div (∑ i, r i) (n : EReal) * Ideal.div (∑ i, r i) (n : EReal)) 0
      = Ideal.div (∑ i, (r i - Ideal.div (∑ i, r i) (n : EReal)) * (r i - Ideal.div (∑ i, r i) (n : EReal)))
          (n : EReal) := by
  rw [moment_var_eq hr hn h0]
  exact max_eq_left (centred_var_nonneg hr hn h0)

/-- The divisor `n - 0`, the 0 an integer word read as a real, is `n`. -/
theorem count_sub_zero (n : ℝ) : (n : EReal) - (((0 : ℤ) : ℝ) : EReal) = (n : EReal) := by
  rw [Int.cast_zero, EReal.coe_zero, sub_zero]

/-- A positive count compares above 0. -/
theorem count_cmp_pos {n : ℝ} (hn : 0 < n) : Ideal.cmp .ogt (n : EReal) 0 = 1#1 := by
  have h : (0 : EReal) < (n : EReal) := by exact_mod_cast hn
  simp [Ideal.cmp, h]

end BatchMoments

end
-- ==== Proof.LibBatchLiterals.lean ====
/-
  The float words that batch normalisation spells, as the extended reals they denote at the ideal instance.

  `ofBits_count`: the word of the row count denotes the real 100000. `ofBits_eps`: the word of the variance offset (the
  single-precision number nearest 1e-5) denotes the real 10995116 / 2^40, named `eps`; `eps_pos`: it is positive.
  `ofBits_zero`: the word of +0.0 denotes 0. `ofBits_negInf`: the word of -∞ denotes the bottom of the extended reals.
  One module states them all, so that no other module unfolds the bit-pattern semantics.
-/
import Idealize.ShloMosaic.PureOps.Ideal

noncomputable section

namespace BatchLiterals

open Idealize.ShloMosaic

/-- The variance offset: the single-precision number nearest 1e-5, significand 10995116 at exponent -40. -/
def eps : ℝ := 10995116 / 1099511627776

/-- The variance offset is positive. -/
theorem eps_pos : 0 < eps := by unfold eps; norm_num

/-- The word of 100000.0 denotes the real 100000. -/
theorem ofBits_count : Ideal.ofBits .f32 0x47C35000#32 = ((100000 : ℝ) : EReal) := by
  simp [Ideal.ofBits, Ideal.ieee, -EReal.coe_mul]; norm_num

/-- The word of the single-precision number nearest 1e-5 denotes the real `eps`. -/
theorem ofBits_eps : Ideal.ofBits .f32 0x3727C5AC#32 = ((eps : ℝ) : EReal) := by
  unfold eps
  simp [Ideal.ofBits, Ideal.ieee, -EReal.coe_mul]; norm_num

/-- The word of +0.0 denotes 0. -/
theorem ofBits_zero : Ideal.ofBits .f32 0#32 = 0 := by
  simp [Ideal.ofBits, Ideal.ieee]

/-- The word of -∞ denotes the bottom of the extended reals. -/
theorem ofBits_negInf : Ideal.ofBits .f32 0xFF800000#32 = (⊥ : EReal) := by
  simp [Ideal.ofBits, Ideal.ieee]

end BatchLiterals

end
-- ==== Proof.SpecLaws.lean ====
/-
  The laws between the stages of the network (Spec.lean), on real data.

  `bnMoments_eq_bnCentred`: on a batch whose entries are all real numbers, and with the divisor the number of rows,
  batch normalisation from the column sums and sums of squares (variance = mean of squares - square of mean, clamped
  at 0) is batch normalisation from the centred squares; any offset, scale and shift. Realness is carried by every
  stage: the linear stage (`lin_real`), the rectifier (`relu_real`, its values nonnegative: `zero_le_relu`), the
  column moments (`colSum_real`, `colSumSq_real`), and both batch normalisations with a positive real offset and real
  scale and shift (`bnCentred_real`, `bnMoments_real`). The `_lit` forms state the same at the words the programs
  spell for the row count 100000 and the offset (`cnt_lit`, `eps_lit`).
-/
import proofs.«128301_j8701603742430_2_alg».proof.Proof.Spec
import proofs.«128301_j8701603742430_2_alg».proof.Proof.LibRealValued
import proofs.«128301_j8701603742430_2_alg».proof.Proof.LibBatchMoments
import proofs.«128301_j8701603742430_2_alg».proof.Proof.LibBatchLiterals

noncomputable section

open scoped BigOperators

namespace GinSpec

open Idealize.ShloMosaic RealValued

variable {n d e : ℕ}

/-- The number of rows, as the cardinality the moment laws ask for. -/
theorem card_rows (n : ℕ) : (Fintype.card (Fin n) : ℝ) = (n : ℝ) := by rw [Fintype.card_fin]

/-- The linear stage of real operands is real. -/
theorem lin_real {h agg : Fin n → Fin d → EReal} {W : Fin d → Fin e → EReal} {b : Fin e → EReal}
    (hh : ∀ i k, RealNum (h i k)) (ha : ∀ i k, RealNum (agg i k)) (hW : ∀ k j, RealNum (W k j))
    (hb : ∀ j, RealNum (b j)) : ∀ i j, RealNum (lin h agg W b i j) :=
  fun i j => (RealNum.sum _ fun k _ => ((hh i k).add (ha i k)).mul (hW k j)).add (hb j)

/-- The rectifier of real entries is real. -/
theorem relu_real {z : Fin n → Fin e → EReal} (hz : ∀ i j, RealNum (z i j)) : ∀ i j, RealNum (relu z i j) :=
  fun i j => (hz i j).relu

/-- The rectifier's values are nonnegative. -/
theorem zero_le_relu (z : Fin n → Fin e → EReal) (i : Fin n) (j : Fin e) : 0 ≤ relu z i j := le_max_right _ _

/-- A column sum of real entries is real. -/
theorem colSum_real {r : Fin n → Fin e → EReal} (hr : ∀ i j, RealNum (r i j)) : ∀ j, RealNum (colSum r j) :=
  fun j => RealNum.sum _ fun i _ => hr i j

/-- A column sum of squares of real entries is real. -/
theorem colSumSq_real {r : Fin n → Fin e → EReal} (hr : ∀ i j, RealNum (r i j)) : ∀ j, RealNum (colSumSq r j) :=
  fun j => RealNum.sum _ fun i _ => (hr i j).mul (hr i j)

/-- On real data, with the divisor the number of rows, the two batch normalisations agree. -/
theorem bnMoments_eq_bnCentred {cnt : EReal} (hcnt : cnt = ((n : ℝ) : EReal)) (hn : n ≠ 0) (eps : EReal)
    {r : Fin n → Fin e → EReal} (hr : ∀ i j, RealNum (r i j)) (g b : Fin e → EReal) :
    bnMoments cnt eps r (colSum r) (colSumSq r) g b = bnCentred cnt eps r g b := by
  subst hcnt
  funext i j
  have h0 : (n : ℝ) ≠ 0 := by exact_mod_cast hn
  have key := BatchMoments.max_moment_var_eq (r := fun i' => r i' j) (fun i' => hr i' j) (card_rows n) h0
  beta_reduce at key
  simp only [bnMoments, bnCentred, colSum, colSumSq]
  rw [key]

/-- Batch normalisation from the centred squares keeps real data real. -/
theorem bnCentred_real {cnt : EReal} (hcnt : cnt = ((n : ℝ) : EReal)) (hn : n ≠ 0) {eps : ℝ} (he : 0 < eps)
    {r : Fin n → Fin e → EReal} (hr : ∀ i j, RealNum (r i j)) {g b : Fin e → EReal} (hg : ∀ j, RealNum (g j))
    (hb : ∀ j, RealNum (b j)) : ∀ i j, RealNum (bnCentred cnt (eps : EReal) r g b i j) := by
  subst hcnt
  intro i j
  have h0 : (n : ℝ) ≠ 0 := by exact_mod_cast hn
  have hrj : IsReal fun i' => r i' j := fun i' => hr i' j
  have hmean := BatchMoments.mean_real hrj h0
  have hvar := BatchMoments.centred_var_real hrj (card_rows n) h0
  have hpos := BatchMoments.centred_var_nonneg hrj (card_rows n) h0
  exact ((((hr i j).sub hmean).mul (hvar.rsqrt_add hpos he)).mul (hg j)).add (hb j)

/-- Batch normalisation from the column moments keeps real data real. -/
theorem bnMoments_real {cnt : EReal} (hcnt : cnt = ((n : ℝ) : EReal)) (hn : n ≠ 0) {eps : ℝ} (he : 0 < eps)
    {r : Fin n → Fin e → EReal} (hr : ∀ i j, RealNum (r i j)) {g b : Fin e → EReal} (hg : ∀ j, RealNum (g j))
    (hb : ∀ j, RealNum (b j)) :
    ∀ i j, RealNum (bnMoments cnt (eps : EReal) r (colSum r) (colSumSq r) g b i j) := by
  rw [bnMoments_eq_bnCentred hcnt hn _ hr]
  exact bnCentred_real hcnt hn he hr hg hb

/-- The word of the row count denotes the natural number 100000 as a real. -/
theorem cnt_lit : Ideal.ofBits .f32 0x47C35000#32 = (((100000 : ℕ) : ℝ) : EReal) := by
  rw [BatchLiterals.ofBits_count]; norm_num

/-- The word of the offset denotes a positive real. -/
theorem eps_lit : Ideal.ofBits .f32 0x3727C5AC#32 = ((BatchLiterals.eps : ℝ) : EReal) := BatchLiterals.ofBits_eps

/-- The two batch normalisations agree on real data of 100000 rows, at the words the programs spell. -/
theorem bnMoments_eq_bnCentred_lit (eps : EReal) {r : Fin 100000 → Fin e → EReal} (hr : ∀ i j, RealNum (r i j))
    (g b : Fin e → EReal) :
    bnMoments (Ideal.ofBits .f32 0x47C35000#32) eps r (colSum r) (colSumSq r) g b
      = bnCentred (Ideal.ofBits .f32 0x47C35000#32) eps r g b :=
  bnMoments_eq_bnCentred cnt_lit (by norm_num) eps hr g b

/-- Batch normalisation from the centred squares keeps real data real, at the words the programs spell. -/
theorem bnCentred_real_lit {r : Fin 100000 → Fin e → EReal} (hr : ∀ i j, RealNum (r i j)) {g b : Fin e → EReal}
    (hg : ∀ j, RealNum (g j)) (hb : ∀ j, RealNum (b j)) :
    ∀ i j, RealNum (bnCentred (Ideal.ofBits .f32 0x47C35000#32) (Ideal.ofBits .f32 0x3727C5AC#32) r g b i j) := by
  rw [eps_lit]
  exact bnCentred_real cnt_lit (by norm_num) BatchLiterals.eps_pos hr hg hb

/-- Batch normalisation from the column moments keeps real data real, at the words the programs spell. -/
theorem bnMoments_real_lit {r : Fin 100000 → Fin e → EReal} (hr : ∀ i j, RealNum (r i j)) {g b : Fin e → EReal}
    (hg : ∀ j, RealNum (g j)) (hb : ∀ j, RealNum (b j)) :
    ∀ i j, RealNum (bnMoments (Ideal.ofBits .f32 0x47C35000#32) (Ideal.ofBits .f32 0x3727C5AC#32) r (colSum r)
      (colSumSq r) g b i j) := by
  rw [eps_lit]
  exact bnMoments_real cnt_lit (by norm_num) BatchLiterals.eps_pos hr hg hb

/-- An array of rank 2 is real exactly when it is on coordinates. -/
theorem isReal_iff_onCoords {a b : ℕ} (x : (⟨2, ![a, b]⟩ : Shape).Idx → EReal) :
    IsReal x ↔ ∀ i j, RealNum (onCoords x i j) := by
  constructor
  · intro h i j; exact h _
  · intro h k
    have hk : onCoords x (k 0) (k 1) = x k :=
      congrArg x (funext fun d => match d with | ⟨0, _⟩ => rfl | ⟨1, _⟩ => rfl)
    rw [← hk]; exact h _ _

/-- A one-row array is real exactly when it is as a vector. -/
theorem isReal_iff_rowVec {b : ℕ} (x : (⟨2, ![1, b]⟩ : Shape).Idx → EReal) :
    IsReal x ↔ ∀ j, RealNum (rowVec x j) := by
  constructor
  · intro h j; exact h _
  · intro h k
    have hk : rowVec x (k 1) = x k :=
      congrArg x (funext fun d => match d with | ⟨0, h0⟩ => (Fin.eq_zero (show Fin 1 from k ⟨0, h0⟩)).symm | ⟨1, _⟩ => rfl)
    rw [← hk]; exact h _

/-- A constant family at a real number is real. -/
theorem isReal_const {α : Type*} {c : EReal} (hc : RealNum c) : IsReal (fun _ : α => c) := fun _ => hc

end GinSpec

end
-- ==== Proof.SpecNet.lean ====
/-
  The whole network over the stages of Spec.lean, in two forms, and their equality on real data.

  A round is: aggregate, the linear stage, the rectifier, batch normalisation. `roundM` normalises from the column
  sums and sums of squares, `roundC` from the centred squares; the aggregation `agg` is any map of batches.
  `netM` / `netC`: four rounds of the one kind, then the closing stage `closing` (aggregate, linear stage, row-wise
  logarithm of the softmax). `roundM_eq_roundC`: on a real batch with real weights and bias the two rounds agree,
  when the aggregation keeps real batches real and the divisor is the number of rows. `roundC_real`, `roundM_real`:
  with a positive real offset and real scale and shift a round keeps a real batch real. `netM_eq_netC`: the two
  networks agree on real inputs; `netM_eq_netC_lit`: the same at the words spelt for 100000 rows and the offset.
  `isReal_broadcastInDim`, `isReal_constant_zero`, `isReal_broadcast_zero`: a broadcast of a real array is real, the
  splat of the word of +0.0 is real, hence so is a broadcast of it.
-/
import proofs.«128301_j8701603742430_2_alg».proof.Proof.Spec
import proofs.«128301_j8701603742430_2_alg».proof.Proof.SpecLaws

noncomputable section

open scoped BigOperators

namespace GinSpec

open Idealize.ShloMosaic RealValued

variable {n d e : ℕ} (cnt eps : EReal) (agg : (Fin n → Fin d → EReal) → (Fin n → Fin d → EReal))

/-- A round normalised from the column sum and sum of squares. -/
def roundM (h : Fin n → Fin d → EReal) (W : Fin d → Fin d → EReal) (b g be : Fin d → EReal) : Fin n → Fin d → EReal :=
  bnMoments cnt eps (relu (lin h (agg h) W b)) (colSum (relu (lin h (agg h) W b)))
    (colSumSq (relu (lin h (agg h) W b))) g be

/-- A round normalised from the centred squares. -/
def roundC (h : Fin n → Fin d → EReal) (W : Fin d → Fin d → EReal) (b g be : Fin d → EReal) : Fin n → Fin d → EReal :=
  bnCentred cnt eps (relu (lin h (agg h) W b)) g be

/-- The closing stage: aggregate, the linear stage, the row-wise logarithm of the softmax. -/
def closing (h : Fin n → Fin d → EReal) (Wf : Fin d → Fin e → EReal) (bf : Fin e → EReal) : Fin n → Fin e → EReal :=
  logSoftmax (lin h (agg h) Wf bf)

/-- Four rounds normalised from the moments, then the closing stage. -/
def netM (x : Fin n → Fin d → EReal) (W0 : Fin d → Fin d → EReal) (b0 g0 be0 : Fin d → EReal) (W1 : Fin d → Fin d → EReal) (b1 g1 be1 : Fin d → EReal) (W2 : Fin d → Fin d → EReal) (b2 g2 be2 : Fin d → EReal) (W3 : Fin d → Fin d → EReal) (b3 g3 be3 : Fin d → EReal)
    (Wf : Fin d → Fin e → EReal) (bf : Fin e → EReal) : Fin n → Fin e → EReal :=
  closing agg (roundM cnt eps agg (roundM cnt eps agg (roundM cnt eps agg (roundM cnt eps agg x W0 b0 g0 be0) W1 b1 g1 be1) W2 b2 g2 be2) W3 b3 g3 be3) Wf bf

/-- Four rounds normalised from the centred squares, then the closing stage. -/
def netC (x : Fin n → Fin d → EReal) (W0 : Fin d → Fin d → EReal) (b0 g0 be0 : Fin d → EReal) (W1 : Fin d → Fin d → EReal) (b1 g1 be1 : Fin d → EReal) (W2 : Fin d → Fin d → EReal) (b2 g2 be2 : Fin d → EReal) (W3 : Fin d → Fin d → EReal) (b3 g3 be3 : Fin d → EReal)
    (Wf : Fin d → Fin e → EReal) (bf : Fin e → EReal) : Fin n → Fin e → EReal :=
  closing agg (roundC cnt eps agg (roundC cnt eps agg (roundC cnt eps agg (roundC cnt eps agg x W0 b0 g0 be0) W1 b1 g1 be1) W2 b2 g2 be2) W3 b3 g3 be3) Wf bf

variable {cnt eps agg}

/-- On a real batch with real weights and bias, the two rounds agree. -/
theorem roundM_eq_roundC (hagg : ∀ h, (∀ i k, RealNum (h i k)) → ∀ i k, RealNum (agg h i k))
    (hcnt : cnt = ((n : ℝ) : EReal)) (hn : n ≠ 0) {h : Fin n → Fin d → EReal} (hh : ∀ i k, RealNum (h i k))
    {W : Fin d → Fin d → EReal} (hW : ∀ k j, RealNum (W k j)) {b : Fin d → EReal} (hb : ∀ j, RealNum (b j))
    (g be : Fin d → EReal) : roundM cnt eps agg h W b g be = roundC cnt eps agg h W b g be :=
  bnMoments_eq_bnCentred hcnt hn eps (relu_real (lin_real hh (hagg h hh) hW hb)) g be

/-- A round from the centred squares keeps a real batch real. -/
theorem roundC_real (hagg : ∀ h, (∀ i k, RealNum (h i k)) → ∀ i k, RealNum (agg h i k))
    (hcnt : cnt = ((n : ℝ) : EReal)) (hn : n ≠ 0) {ε : ℝ} (hε : 0 < ε) {h : Fin n → Fin d → EReal}
    (hh : ∀ i k, RealNum (h i k)) {W : Fin d → Fin d → EReal} (hW : ∀ k j, RealNum (W k j)) {b g be : Fin d → EReal}
    (hb : ∀ j, RealNum (b j)) (hg : ∀ j, RealNum (g j)) (hbe : ∀ j, RealNum (be j)) :
    ∀ i k, RealNum (roundC cnt (ε : EReal) agg h W b g be i k) :=
  bnCentred_real hcnt hn hε (relu_real (lin_real hh (hagg h hh) hW hb)) hg hbe

/-- A round from the moments keeps a real batch real. -/
theorem roundM_real (hagg : ∀ h, (∀ i k, RealNum (h i k)) → ∀ i k, RealNum (agg h i k))
    (hcnt : cnt = ((n : ℝ) : EReal)) (hn : n ≠ 0) {ε : ℝ} (hε : 0 < ε) {h : Fin n → Fin d → EReal}
    (hh : ∀ i k, RealNum (h i k)) {W : Fin d → Fin d → EReal} (hW : ∀ k j, RealNum (W k j)) {b g be : Fin d → EReal}
    (hb : ∀ j, RealNum (b j)) (hg : ∀ j, RealNum (g j)) (hbe : ∀ j, RealNum (be j)) :
    ∀ i k, RealNum (roundM cnt (ε : EReal) agg h W b g be i k) :=
  bnMoments_real hcnt hn hε (relu_real (lin_real hh (hagg h hh) hW hb)) hg hbe

/-- On real inputs the two networks agree. -/
theorem netM_eq_netC (hagg : ∀ h, (∀ i k, RealNum (h i k)) → ∀ i k, RealNum (agg h i k))
    (hcnt : cnt = ((n : ℝ) : EReal)) (hn : n ≠ 0) {ε : ℝ} (heps : eps = ((ε : ℝ) : EReal)) (hε : 0 < ε)
    {x : Fin n → Fin d → EReal} (hx : ∀ i k, RealNum (x i k))
    {W0 W1 W2 W3 : Fin d → Fin d → EReal} {b0 g0 be0 b1 g1 be1 b2 g2 be2 b3 : Fin d → EReal}
    (hW0 : ∀ k j, RealNum (W0 k j)) (hb0 : ∀ j, RealNum (b0 j)) (hg0 : ∀ j, RealNum (g0 j)) (hbe0 : ∀ j, RealNum (be0 j))
    (hW1 : ∀ k j, RealNum (W1 k j)) (hb1 : ∀ j, RealNum (b1 j)) (hg1 : ∀ j, RealNum (g1 j)) (hbe1 : ∀ j, RealNum (be1 j))
    (hW2 : ∀ k j, RealNum (W2 k j)) (hb2 : ∀ j, RealNum (b2 j)) (hg2 : ∀ j, RealNum (g2 j)) (hbe2 : ∀ j, RealNum (be2 j))
    (hW3 : ∀ k j, RealNum (W3 k j)) (hb3 : ∀ j, RealNum (b3 j))
    (g3 be3 : Fin d → EReal) (Wf : Fin d → Fin e → EReal) (bf : Fin e → EReal) :
    netM cnt eps agg x W0 b0 g0 be0 W1 b1 g1 be1 W2 b2 g2 be2 W3 b3 g3 be3 Wf bf = netC cnt eps agg x W0 b0 g0 be0 W1 b1 g1 be1 W2 b2 g2 be2 W3 b3 g3 be3 Wf bf := by
  subst heps
  have e1 := roundM_eq_roundC (eps := (ε : EReal)) hagg hcnt hn hx hW0 hb0 g0 be0
  have r1 := roundC_real hagg hcnt hn hε hx hW0 hb0 hg0 hbe0
  have e2 := roundM_eq_roundC (eps := (ε : EReal)) hagg hcnt hn r1 hW1 hb1 g1 be1
  have r2 := roundC_real hagg hcnt hn hε r1 hW1 hb1 hg1 hbe1
  have e3 := roundM_eq_roundC (eps := (ε : EReal)) hagg hcnt hn r2 hW2 hb2 g2 be2
  have r3 := roundC_real hagg hcnt hn hε r2 hW2 hb2 hg2 hbe2
  have e4 := roundM_eq_roundC (eps := (ε : EReal)) hagg hcnt hn r3 hW3 hb3 g3 be3
  unfold netM netC
  rw [e1, e2, e3, e4]

/-- The two networks agree on real inputs of 100000 rows, at the words the programs spell. -/
theorem netM_eq_netC_lit {agg : (Fin 100000 → Fin d → EReal) → (Fin 100000 → Fin d → EReal)}
    (hagg : ∀ h, (∀ i k, RealNum (h i k)) → ∀ i k, RealNum (agg h i k))
    {x : Fin 100000 → Fin d → EReal} (hx : ∀ i k, RealNum (x i k))
    {W0 W1 W2 W3 : Fin d → Fin d → EReal} {b0 g0 be0 b1 g1 be1 b2 g2 be2 b3 : Fin d → EReal}
    (hW0 : ∀ k j, RealNum (W0 k j)) (hb0 : ∀ j, RealNum (b0 j)) (hg0 : ∀ j, RealNum (g0 j)) (hbe0 : ∀ j, RealNum (be0 j))
    (hW1 : ∀ k j, RealNum (W1 k j)) (hb1 : ∀ j, RealNum (b1 j)) (hg1 : ∀ j, RealNum (g1 j)) (hbe1 : ∀ j, RealNum (be1 j))
    (hW2 : ∀ k j, RealNum (W2 k j)) (hb2 : ∀ j, RealNum (b2 j)) (hg2 : ∀ j, RealNum (g2 j)) (hbe2 : ∀ j, RealNum (be2 j))
    (hW3 : ∀ k j, RealNum (W3 k j)) (hb3 : ∀ j, RealNum (b3 j))
    (g3 be3 : Fin d → EReal) (Wf : Fin d → Fin e → EReal) (bf : Fin e → EReal) :
    netM (Ideal.ofBits .f32 0x47C35000#32) (Ideal.ofBits .f32 0x3727C5AC#32) agg x W0 b0 g0 be0 W1 b1 g1 be1 W2 b2 g2 be2 W3 b3 g3 be3 Wf bf
      = netC (Ideal.ofBits .f32 0x47C35000#32) (Ideal.ofBits .f32 0x3727C5AC#32) agg x W0 b0 g0 be0 W1 b1 g1 be1 W2 b2 g2 be2 W3 b3 g3 be3 Wf bf :=
  netM_eq_netC hagg cnt_lit (by norm_num) eps_lit BatchLiterals.eps_pos hx hW0 hb0 hg0 hbe0 hW1 hb1 hg1 hbe1 hW2 hb2 hg2
    hbe2 hW3 hb3 g3 be3 Wf bf

/-- A broadcast of a real array is real. -/
theorem isReal_broadcastInDim {s t : Shape} (dims : Fin s.rank → Fin t.rank) (h : s.BroadcastsInDim t dims)
    {x : s.Idx → EReal} (hx : IsReal x) : IsReal (broadcastInDim t dims h x) := fun _ => hx _

/-- The splat of the word of +0.0 is real. -/
theorem isReal_constant_zero (s : Shape) : IsReal (constant (F := Ideal) s .f32 0#32) :=
  fun _ => ⟨0, BatchLiterals.ofBits_zero⟩

/-- A broadcast of the splat of the word of +0.0 is real. -/
theorem isReal_broadcast_zero {s t : Shape} (dims : Fin s.rank → Fin t.rank) (h : s.BroadcastsInDim t dims) :
    IsReal (broadcastInDim t dims h (constant (F := Ideal) s .f32 0#32)) :=
  isReal_broadcastInDim dims h (isReal_constant_zero s)

end GinSpec

end
-- ==== Proof.KI.ChainDefs.lean ====
/-
  The network's data as the kernel program finds it at launch, on coordinates: the node features, the edge list,
  the weights, biases, scales and shifts; the aggregation over the edge list as a map of batches; and the source and
  destination vectors of the edges, which every boundary of the run still holds.
-/
import proofs.«128301_j8701603742430_2_alg».proof.Proof.KI.Vals
import proofs.«128301_j8701603742430_2_alg».proof.Proof.KI.Keep
import proofs.«128301_j8701603742430_2_alg».proof.Proof.KI.ArgsAt
import proofs.«128301_j8701603742430_2_alg».proof.Proof.KI.Host
import proofs.«128301_j8701603742430_2_alg».proof.Proof.KI.HostIdx
import proofs.«128301_j8701603742430_2_alg».proof.Proof.KI.HostRows
import proofs.«128301_j8701603742430_2_alg».proof.Proof.SpecCoords
import proofs.«128301_j8701603742430_2_alg».proof.Proof.SpecNet

set_option maxRecDepth 16384

noncomputable section

namespace Cert.KernelIdeal.HandRun

open Idealize.ShloMosaic Idealize.ShloMosaic.TcCoe Idealize.SL.Sem
open Idealize.ShloMosaic.ValueIdx
open Cert.KernelIdeal Cert.KernelIdeal.Gen Cert.KernelIdeal.Hand Cert.KernelIdeal.HandHost GinSpec

variable (m : (ℓ : Loc nD τ sig) → Buf (Elt Ideal) ℓ) (c : Dev nD)

/-- The edge list at launch. -/
abbrev edges : IVec S2x1600000 32 := m ((c : Thread nD τ).loc main_arg1)

/-- Neighbour aggregation over the launch edge list, as a map of batches on coordinates. -/
def aggC : (Fin 100000 → Fin 64 → EReal) → (Fin 100000 → Fin 64 → EReal) :=
  fun h => onCoords (aggOf (F := Ideal) (srcOf (edges m c)) (dstOf (edges m c)) (ofCoords h))

/-- The node features at launch. -/
def pX : Fin 100000 → Fin 64 → EReal := onCoords (m ((c : Thread nD τ).loc main_arg0))
/-- The first round's weights. -/
def pW0 : Fin 64 → Fin 64 → EReal := onCoords (m ((c : Thread nD τ).loc main_arg2))
/-- The first round's bias. -/
def pb0 : Fin 64 → EReal := fun j => (m ((c : Thread nD τ).loc main_arg3) : S64.Idx → EReal) (ix1 j)
/-- Member `l` of the stack of weights of the later rounds. -/
def pW (l : Fin 3) : Fin 64 → Fin 64 → EReal :=
  fun k j => (m ((c : Thread nD τ).loc main_arg4) : S3x64x64.Idx → EReal) (ix3 l k j)
/-- Row `l` of the stack of biases of the later rounds. -/
def pb (l : Fin 3) : Fin 64 → EReal := fun j => (m ((c : Thread nD τ).loc main_arg5) : S3x64.Idx → EReal) (ix2 l j)
/-- The closing stage's weights. -/
def pWf : Fin 64 → Fin 40 → EReal := onCoords (m ((c : Thread nD τ).loc main_arg6))
/-- The closing stage's bias. -/
def pbf : Fin 40 → EReal := fun j => (m ((c : Thread nD τ).loc main_arg7) : S40.Idx → EReal) (ix1 j)
/-- Row `l` of the scales. -/
def pg (l : Fin 4) : Fin 64 → EReal := fun j => (m ((c : Thread nD τ).loc main_arg8) : S4x64.Idx → EReal) (ix2 l j)
/-- Row `l` of the shifts. -/
def pbe (l : Fin 4) : Fin 64 → EReal := fun j => (m ((c : Thread nD τ).loc main_arg9) : S4x64.Idx → EReal) (ix2 l j)

/-- At launch the features' buffer is the features laid out. -/
theorem inv0 : Bd0 m c (Proc.devRef .tc main_arg0) = ofCoords (pX m c) :=
  (ofCoords_onCoords _).symm

/-- After the first stretch the source vector of the edges is in `main_v1`. -/
theorem src_at1 : Bd1 m c (Proc.devRef .tc main_v1) = srcOf (edges m c) := host0_src (Bd0 m c)
/-- After the first stretch the destination vector of the edges is in `main_v3`. -/
theorem dst_at1 : Bd1 m c (Proc.devRef .tc main_v3) = dstOf (edges m c) := host0_dst (Bd0 m c)
theorem src_at2 : Bd2 m c (Proc.devRef .tc main_v1) = srcOf (edges m c) :=
  (Bd2_keep m c main_v1 (by decide)).trans (src_at1 m c)
theorem dst_at2 : Bd2 m c (Proc.devRef .tc main_v3) = dstOf (edges m c) :=
  (Bd2_keep m c main_v3 (by decide)).trans (dst_at1 m c)
theorem src_at3 : Bd3 m c (Proc.devRef .tc main_v1) = srcOf (edges m c) :=
  (Bd3_keep m c main_v1 (by decide)).trans (src_at2 m c)
theorem dst_at3 : Bd3 m c (Proc.devRef .tc main_v3) = dstOf (edges m c) :=
  (Bd3_keep m c main_v3 (by decide)).trans (dst_at2 m c)
theorem src_at4 : Bd4 m c (Proc.devRef .tc main_v1) = srcOf (edges m c) :=
  (Bd4_keep m c main_v1 (by decide)).trans (src_at3 m c)
theorem dst_at4 : Bd4 m c (Proc.devRef .tc main_v3) = dstOf (edges m c) :=
  (Bd4_keep m c main_v3 (by decide)).trans (dst_at3 m c)
theorem src_at5 : Bd5 m c (Proc.devRef .tc main_v1) = srcOf (edges m c) :=
  (Bd5_keep m c main_v1 (by decide)).trans (src_at4 m c)
theorem dst_at5 : Bd5 m c (Proc.devRef .tc main_v3) = dstOf (edges m c) :=
  (Bd5_keep m c main_v3 (by decide)).trans (dst_at4 m c)
theorem src_at6 : Bd6 m c (Proc.devRef .tc main_v1) = srcOf (edges m c) :=
  (Bd6_keep m c main_v1 (by decide)).trans (src_at5 m c)
theorem dst_at6 : Bd6 m c (Proc.devRef .tc main_v3) = dstOf (edges m c) :=
  (Bd6_keep m c main_v3 (by decide)).trans (dst_at5 m c)
theorem src_at7 : Bd7 m c (Proc.devRef .tc main_v1) = srcOf (edges m c) :=
  (Bd7_keep m c main_v1 (by decide)).trans (src_at6 m c)
theorem dst_at7 : Bd7 m c (Proc.devRef .tc main_v3) = dstOf (edges m c) :=
  (Bd7_keep m c main_v3 (by decide)).trans (dst_at6 m c)
theorem src_at8 : Bd8 m c (Proc.devRef .tc main_v1) = srcOf (edges m c) :=
  (Bd8_keep m c main_v1 (by decide)).trans (src_at7 m c)
theorem dst_at8 : Bd8 m c (Proc.devRef .tc main_v3) = dstOf (edges m c) :=
  (Bd8_keep m c main_v3 (by decide)).trans (dst_at7 m c)
theorem src_at9 : Bd9 m c (Proc.devRef .tc main_v1) = srcOf (edges m c) :=
  (Bd9_keep m c main_v1 (by decide)).trans (src_at8 m c)
theorem dst_at9 : Bd9 m c (Proc.devRef .tc main_v3) = dstOf (edges m c) :=
  (Bd9_keep m c main_v3 (by decide)).trans (dst_at8 m c)
theorem src_at10 : Bd10 m c (Proc.devRef .tc main_v1) = srcOf (edges m c) :=
  (Bd10_keep m c main_v1 (by decide)).trans (src_at9 m c)
theorem dst_at10 : Bd10 m c (Proc.devRef .tc main_v3) = dstOf (edges m c) :=
  (Bd10_keep m c main_v3 (by decide)).trans (dst_at9 m c)
theorem src_at11 : Bd11 m c (Proc.devRef .tc main_v1) = srcOf (edges m c) :=
  (Bd11_keep m c main_v1 (by decide)).trans (src_at10 m c)
theorem dst_at11 : Bd11 m c (Proc.devRef .tc main_v3) = dstOf (edges m c) :=
  (Bd11_keep m c main_v3 (by decide)).trans (dst_at10 m c)
theorem src_at12 : Bd12 m c (Proc.devRef .tc main_v1) = srcOf (edges m c) :=
  (Bd12_keep m c main_v1 (by decide)).trans (src_at11 m c)
theorem dst_at12 : Bd12 m c (Proc.devRef .tc main_v3) = dstOf (edges m c) :=
  (Bd12_keep m c main_v3 (by decide)).trans (dst_at11 m c)
theorem src_at13 : Bd13 m c (Proc.devRef .tc main_v1) = srcOf (edges m c) :=
  (Bd13_keep m c main_v1 (by decide)).trans (src_at12 m c)
theorem dst_at13 : Bd13 m c (Proc.devRef .tc main_v3) = dstOf (edges m c) :=
  (Bd13_keep m c main_v3 (by decide)).trans (dst_at12 m c)
theorem src_at14 : Bd14 m c (Proc.devRef .tc main_v1) = srcOf (edges m c) :=
  (Bd14_keep m c main_v1 (by decide)).trans (src_at13 m c)
theorem dst_at14 : Bd14 m c (Proc.devRef .tc main_v3) = dstOf (edges m c) :=
  (Bd14_keep m c main_v3 (by decide)).trans (dst_at13 m c)
theorem src_at15 : Bd15 m c (Proc.devRef .tc main_v1) = srcOf (edges m c) :=
  (Bd15_keep m c main_v1 (by decide)).trans (src_at14 m c)
theorem dst_at15 : Bd15 m c (Proc.devRef .tc main_v3) = dstOf (edges m c) :=
  (Bd15_keep m c main_v3 (by decide)).trans (dst_at14 m c)
theorem src_at16 : Bd16 m c (Proc.devRef .tc main_v1) = srcOf (edges m c) :=
  (Bd16_keep m c main_v1 (by decide)).trans (src_at15 m c)
theorem dst_at16 : Bd16 m c (Proc.devRef .tc main_v3) = dstOf (edges m c) :=
  (Bd16_keep m c main_v3 (by decide)).trans (dst_at15 m c)

end Cert.KernelIdeal.HandRun

end
-- ==== Proof.KI.ChainR0.lean ====
/-
  Round 0 of the kernel program's run (regions 0 and 1): the first region leaves the rectified linear stage
  of the round's input and its two column moments, the second the batch normalisation from those moments, so the
  round's output buffer holds `roundM` of the round's input. Each lemma takes the value of a region's output array,
  as a function of the region's entry arrays, as a hypothesis.
-/
import proofs.«128301_j8701603742430_2_alg».proof.Proof.KI.Vals
import proofs.«128301_j8701603742430_2_alg».proof.Proof.KI.Keep
import proofs.«128301_j8701603742430_2_alg».proof.Proof.KI.ArgsAt
import proofs.«128301_j8701603742430_2_alg».proof.Proof.KI.Host
import proofs.«128301_j8701603742430_2_alg».proof.Proof.KI.HostIdx
import proofs.«128301_j8701603742430_2_alg».proof.Proof.KI.HostRows
import proofs.«128301_j8701603742430_2_alg».proof.Proof.SpecCoords
import proofs.«128301_j8701603742430_2_alg».proof.Proof.SpecNet
import proofs.«128301_j8701603742430_2_alg».proof.Proof.KI.ChainDefs

set_option maxRecDepth 16384

noncomputable section

namespace Cert.KernelIdeal.HandRun

open Idealize.ShloMosaic Idealize.ShloMosaic.TcCoe Idealize.SL.Sem
open Idealize.ShloMosaic.ValueIdx
open Cert.KernelIdeal Cert.KernelIdeal.Gen Cert.KernelIdeal.Hand Cert.KernelIdeal.HandHost GinSpec

variable (m : (ℓ : Loc nD τ sig) → Buf (Elt Ideal) ℓ) (c : Dev nD)

/-! ## Round 0: regions 0 and 1 -/

section Round0
variable (H : Fin 100000 → Fin 64 → EReal)

/-- Region 0 enters with the round's input in `main_arg0`. -/
theorem r0_h (hI : Bd0 m c (Proc.devRef .tc main_arg0) = ofCoords H) : onCoords (Bv1 m c main_arg0) = H := by
  show onCoords (Bd1 m c (Proc.devRef .tc main_arg0)) = H
  rw [Bd1_keep m c main_arg0 (by decide), hI] <;> rfl

/-- Region 0 enters with the aggregation of the round's input in `main_v13`. -/
theorem r0_agg (hI : Bd0 m c (Proc.devRef .tc main_arg0) = ofCoords H) : onCoords (Bv1 m c main_v13) = aggC m c H := by
  show onCoords (StableHlo.after hostOps0 (Bd0 m c) (Proc.devRef .tc main_v13)) = _
  rw [host0_agg (Bd0 m c), host0_src (Bd0 m c), host0_dst (Bd0 m c), hI] <;> rfl

/-- Region 0 enters with the first round's weights in `main_arg2`. -/
theorem r0_W : onCoords (Bv1 m c main_arg2) = pW0 m c := by
  show onCoords (Bd1 m c (Proc.devRef .tc main_arg2)) = _
  rw [at1_main_arg2 m c] <;> rfl

/-- Region 0 enters with the first round's bias in `main_v14`. -/
theorem r0_b : rowVec (Bv1 m c main_v14) = pb0 m c := by
  show rowVec (StableHlo.after hostOps0 (Bd0 m c) (Proc.devRef .tc main_v14)) = _
  rw [host0_bias (Bd0 m c)] <;> rfl

/-- Region 0 leaves the rectified linear stage in `main_v15_0`. -/
theorem r0_pre (hI : Bd0 m c (Proc.devRef .tc main_arg0) = ofCoords H)
    (hF : (dat0 (Bv1 m) c).arrAt 4 cfg0.N = fun i => relu (lin (onCoords (Bv1 m c main_arg0)) (onCoords (Bv1 m c main_v13)) (onCoords (Bv1 m c main_arg2)) (rowVec (Bv1 m c main_v14))) (i 0) (i 1)) :
    Bd2 m c (Proc.devRef .tc main_v15_0) = ofCoords (relu (lin H (aggC m c H) (pW0 m c) (pb0 m c))) := by
  have e := (Bd2_arr m c 4).trans hF
  rw [r0_h m c H hI, r0_agg m c H hI, r0_W m c, r0_b m c] at e
  exact e

/-- Region 0 leaves the column sums of the rectified linear stage in `main_v15_1`. -/
theorem r0_sum (hI : Bd0 m c (Proc.devRef .tc main_arg0) = ofCoords H)
    (hF : (dat0 (Bv1 m) c).arrAt 5 cfg0.N = fun i => colSum (relu (lin (onCoords (Bv1 m c main_arg0)) (onCoords (Bv1 m c main_v13)) (onCoords (Bv1 m c main_arg2)) (rowVec (Bv1 m c main_v14)))) (i 1)) :
    Bd2 m c (Proc.devRef .tc main_v15_1) = ofRow (colSum (relu (lin H (aggC m c H) (pW0 m c) (pb0 m c)))) := by
  have e := (Bd2_arr m c 5).trans hF
  rw [r0_h m c H hI, r0_agg m c H hI, r0_W m c, r0_b m c] at e
  exact e

/-- Region 0 leaves the column sums of squares of the rectified linear stage in `main_v15_2`. -/
theorem r0_ssq (hI : Bd0 m c (Proc.devRef .tc main_arg0) = ofCoords H)
    (hF : (dat0 (Bv1 m) c).arrAt 6 cfg0.N = fun i => colSumSq (relu (lin (onCoords (Bv1 m c main_arg0)) (onCoords (Bv1 m c main_v13)) (onCoords (Bv1 m c main_arg2)) (rowVec (Bv1 m c main_v14)))) (i 1)) :
    Bd2 m c (Proc.devRef .tc main_v15_2) = ofRow (colSumSq (relu (lin H (aggC m c H) (pW0 m c) (pb0 m c)))) := by
  have e := (Bd2_arr m c 6).trans hF
  rw [r0_h m c H hI, r0_agg m c H hI, r0_W m c, r0_b m c] at e
  exact e

/-- Region 1 leaves the batch normalisation, from the moments, of what region 0 left. -/
theorem r0_out (R : Fin 100000 → Fin 64 → EReal)
    (hpre : Bd2 m c (Proc.devRef .tc main_v15_0) = ofCoords R)
    (hs : Bd2 m c (Proc.devRef .tc main_v15_1) = ofRow (colSum R))
    (hss : Bd2 m c (Proc.devRef .tc main_v15_2) = ofRow (colSumSq R))
    (hF : (dat1 (Bv3 m) c).arrAt 5 cfg1.N = fun i =>
      bnMoments (Ideal.ofBits .f32 0x47C35000#32) (Ideal.ofBits .f32 0x3727C5AC#32) (onCoords (Bv3 m c main_v15_0)) (rowVec (Bv3 m c main_v15_1))
        (rowVec (Bv3 m c main_v15_2)) (rowVec (Bv3 m c main_v20)) (rowVec (Bv3 m c main_v21)) (i 0) (i 1)) :
    Bd4 m c (Proc.devRef .tc main_v22)
      = ofCoords (bnMoments (Ideal.ofBits .f32 0x47C35000#32) (Ideal.ofBits .f32 0x3727C5AC#32) R (colSum R) (colSumSq R) (pg m c 0) (pbe m c 0)) := by
  have e1 : onCoords (Bv3 m c main_v15_0) = R := by
    show onCoords (Bd3 m c (Proc.devRef .tc main_v15_0)) = R
    rw [Bd3_keep m c main_v15_0 (by decide), hpre] <;> rfl
  have e2 : rowVec (Bv3 m c main_v15_1) = colSum R := by
    show rowVec (Bd3 m c (Proc.devRef .tc main_v15_1)) = _
    rw [Bd3_keep m c main_v15_1 (by decide), hs] <;> rfl
  have e3 : rowVec (Bv3 m c main_v15_2) = colSumSq R := by
    show rowVec (Bd3 m c (Proc.devRef .tc main_v15_2)) = _
    rw [Bd3_keep m c main_v15_2 (by decide), hss] <;> rfl
  have e4 : rowVec (Bv3 m c main_v20) = pg m c 0 := by
    show rowVec (StableHlo.after hostOps1 (Bd2 m c) (Proc.devRef .tc main_v20)) = _
    rw [host1_scale (Bd2 m c), at2_main_arg8 m c] <;> rfl
  have e5 : rowVec (Bv3 m c main_v21) = pbe m c 0 := by
    show rowVec (StableHlo.after hostOps1 (Bd2 m c) (Proc.devRef .tc main_v21)) = _
    rw [host1_shift (Bd2 m c), at2_main_arg9 m c] <;> rfl
  have e := (Bd4_arr m c 5).trans hF
  rw [e1, e2, e3, e4, e5] at e
  exact e

/-- Round 0: the round's output buffer holds the round, normalised from the moments, of the round's input. -/
theorem round0 (hI : Bd0 m c (Proc.devRef .tc main_arg0) = ofCoords H)
    (hF4 : (dat0 (Bv1 m) c).arrAt 4 cfg0.N = fun i => relu (lin (onCoords (Bv1 m c main_arg0)) (onCoords (Bv1 m c main_v13)) (onCoords (Bv1 m c main_arg2)) (rowVec (Bv1 m c main_v14))) (i 0) (i 1))
    (hF5 : (dat0 (Bv1 m) c).arrAt 5 cfg0.N = fun i => colSum (relu (lin (onCoords (Bv1 m c main_arg0)) (onCoords (Bv1 m c main_v13)) (onCoords (Bv1 m c main_arg2)) (rowVec (Bv1 m c main_v14)))) (i 1))
    (hF6 : (dat0 (Bv1 m) c).arrAt 6 cfg0.N = fun i => colSumSq (relu (lin (onCoords (Bv1 m c main_arg0)) (onCoords (Bv1 m c main_v13)) (onCoords (Bv1 m c main_arg2)) (rowVec (Bv1 m c main_v14)))) (i 1))
    (hFn : (dat1 (Bv3 m) c).arrAt 5 cfg1.N = fun i =>
      bnMoments (Ideal.ofBits .f32 0x47C35000#32) (Ideal.ofBits .f32 0x3727C5AC#32) (onCoords (Bv3 m c main_v15_0)) (rowVec (Bv3 m c main_v15_1))
        (rowVec (Bv3 m c main_v15_2)) (rowVec (Bv3 m c main_v20)) (rowVec (Bv3 m c main_v21)) (i 0) (i 1)) :
    Bd4 m c (Proc.devRef .tc main_v22)
      = ofCoords (roundM (Ideal.ofBits .f32 0x47C35000#32) (Ideal.ofBits .f32 0x3727C5AC#32) (aggC m c) H (pW0 m c) (pb0 m c) (pg m c 0) (pbe m c 0)) :=
  r0_out m c _ (r0_pre m c H hI hF4) (r0_sum m c H hI hF5) (r0_ssq m c H hI hF6) hFn

end Round0

end Cert.KernelIdeal.HandRun

end
-- ==== Proof.KI.ChainR1.lean ====
/-
  Round 1 of the kernel program's run (regions 2 and 3): the first region leaves the rectified linear stage
  of the round's input and its two column moments, the second the batch normalisation from those moments, so the
  round's output buffer holds `roundM` of the round's input. Each lemma takes the value of a region's output array,
  as a function of the region's entry arrays, as a hypothesis.
-/
import proofs.«128301_j8701603742430_2_alg».proof.Proof.KI.Vals
import proofs.«128301_j8701603742430_2_alg».proof.Proof.KI.Keep
import proofs.«128301_j8701603742430_2_alg».proof.Proof.KI.ArgsAt
import proofs.«128301_j8701603742430_2_alg».proof.Proof.KI.Host
import proofs.«128301_j8701603742430_2_alg».proof.Proof.KI.HostIdx
import proofs.«128301_j8701603742430_2_alg».proof.Proof.KI.HostRows
import proofs.«128301_j8701603742430_2_alg».proof.Proof.SpecCoords
import proofs.«128301_j8701603742430_2_alg».proof.Proof.SpecNet
import proofs.«128301_j8701603742430_2_alg».proof.Proof.KI.ChainDefs

set_option maxRecDepth 16384

noncomputable section

namespace Cert.KernelIdeal.HandRun

open Idealize.ShloMosaic Idealize.ShloMosaic.TcCoe Idealize.SL.Sem
open Idealize.ShloMosaic.ValueIdx
open Cert.KernelIdeal Cert.KernelIdeal.Gen Cert.KernelIdeal.Hand Cert.KernelIdeal.HandHost GinSpec

variable (m : (ℓ : Loc nD τ sig) → Buf (Elt Ideal) ℓ) (c : Dev nD)

/-! ## Round 1: regions 2 and 3 -/

section Round1
variable (H : Fin 100000 → Fin 64 → EReal)

/-- Region 2 enters with the round's input in `main_v22`. -/
theorem r1_h (hI : Bd4 m c (Proc.devRef .tc main_v22) = ofCoords H) : onCoords (Bv5 m c main_v22) = H := by
  show onCoords (Bd5 m c (Proc.devRef .tc main_v22)) = H
  rw [Bd5_keep m c main_v22 (by decide), hI] <;> rfl

/-- Region 2 enters with the aggregation of the round's input in `main_v32`. -/
theorem r1_agg (hI : Bd4 m c (Proc.devRef .tc main_v22) = ofCoords H) : onCoords (Bv5 m c main_v32) = aggC m c H := by
  show onCoords (StableHlo.after hostOps2 (Bd4 m c) (Proc.devRef .tc main_v32)) = _
  rw [host2_agg (Bd4 m c), src_at4 m c, dst_at4 m c, hI] <;> rfl

/-- Region 2 enters with member 0 of the stack of weights in `main_v34`. -/
theorem r1_W : onCoords (Bv5 m c main_v34) = pW m c 0 := by
  show onCoords (StableHlo.after hostOps2 (Bd4 m c) (Proc.devRef .tc main_v34)) = _
  rw [host2_weight (Bd4 m c), at4_main_arg4 m c] <;> rfl

/-- Region 2 enters with row 0 of the stack of biases in `main_v37`. -/
theorem r1_b : rowVec (Bv5 m c main_v37) = pb m c 0 := by
  show rowVec (StableHlo.after hostOps2 (Bd4 m c) (Proc.devRef .tc main_v37)) = _
  rw [host2_bias (Bd4 m c), at4_main_arg5 m c] <;> rfl

/-- Region 2 leaves the rectified linear stage in `main_v38_0`. -/
theorem r1_pre (hI : Bd4 m c (Proc.devRef .tc main_v22) = ofCoords H)
    (hF : (dat2 (Bv5 m) c).arrAt 4 cfg2.N = fun i => relu (lin (onCoords (Bv5 m c main_v22)) (onCoords (Bv5 m c main_v32)) (onCoords (Bv5 m c main_v34)) (rowVec (Bv5 m c main_v37))) (i 0) (i 1)) :
    Bd6 m c (Proc.devRef .tc main_v38_0) = ofCoords (relu (lin H (aggC m c H) (pW m c 0) (pb m c 0))) := by
  have e := (Bd6_arr m c 4).trans hF
  rw [r1_h m c H hI, r1_agg m c H hI, r1_W m c, r1_b m c] at e
  exact e

/-- Region 2 leaves the column sums of the rectified linear stage in `main_v38_1`. -/
theorem r1_sum (hI : Bd4 m c (Proc.devRef .tc main_v22) = ofCoords H)
    (hF : (dat2 (Bv5 m) c).arrAt 5 cfg2.N = fun i => colSum (relu (lin (onCoords (Bv5 m c main_v22)) (onCoords (Bv5 m c main_v32)) (onCoords (Bv5 m c main_v34)) (rowVec (Bv5 m c main_v37)))) (i 1)) :
    Bd6 m c (Proc.devRef .tc main_v38_1) = ofRow (colSum (relu (lin H (aggC m c H) (pW m c 0) (pb m c 0)))) := by
  have e := (Bd6_arr m c 5).trans hF
  rw [r1_h m c H hI, r1_agg m c H hI, r1_W m c, r1_b m c] at e
  exact e

/-- Region 2 leaves the column sums of squares of the rectified linear stage in `main_v38_2`. -/
theorem r1_ssq (hI : Bd4 m c (Proc.devRef .tc main_v22) = ofCoords H)
    (hF : (dat2 (Bv5 m) c).arrAt 6 cfg2.N = fun i => colSumSq (relu (lin (onCoords (Bv5 m c main_v22)) (onCoords (Bv5 m c main_v32)) (onCoords (Bv5 m c main_v34)) (rowVec (Bv5 m c main_v37)))) (i 1)) :
    Bd6 m c (Proc.devRef .tc main_v38_2) = ofRow (colSumSq (relu (lin H (aggC m c H) (pW m c 0) (pb m c 0)))) := by
  have e := (Bd6_arr m c 6).trans hF
  rw [r1_h m c H hI, r1_agg m c H hI, r1_W m c, r1_b m c] at e
  exact e

/-- Region 3 leaves the batch normalisation, from the moments, of what region 2 left. -/
theorem r1_out (R : Fin 100000 → Fin 64 → EReal)
    (hpre : Bd6 m c (Proc.devRef .tc main_v38_0) = ofCoords R)
    (hs : Bd6 m c (Proc.devRef .tc main_v38_1) = ofRow (colSum R))
    (hss : Bd6 m c (Proc.devRef .tc main_v38_2) = ofRow (colSumSq R))
    (hF : (dat3 (Bv7 m) c).arrAt 5 cfg3.N = fun i =>
      bnMoments (Ideal.ofBits .f32 0x47C35000#32) (Ideal.ofBits .f32 0x3727C5AC#32) (onCoords (Bv7 m c main_v38_0)) (rowVec (Bv7 m c main_v38_1))
        (rowVec (Bv7 m c main_v38_2)) (rowVec (Bv7 m c main_v43)) (rowVec (Bv7 m c main_v44)) (i 0) (i 1)) :
    Bd8 m c (Proc.devRef .tc main_v45)
      = ofCoords (bnMoments (Ideal.ofBits .f32 0x47C35000#32) (Ideal.ofBits .f32 0x3727C5AC#32) R (colSum R) (colSumSq R) (pg m c 1) (pbe m c 1)) := by
  have e1 : onCoords (Bv7 m c main_v38_0) = R := by
    show onCoords (Bd7 m c (Proc.devRef .tc main_v38_0)) = R
    rw [Bd7_keep m c main_v38_0 (by decide), hpre] <;> rfl
  have e2 : rowVec (Bv7 m c main_v38_1) = colSum R := by
    show rowVec (Bd7 m c (Proc.devRef .tc main_v38_1)) = _
    rw [Bd7_keep m c main_v38_1 (by decide), hs] <;> rfl
  have e3 : rowVec (Bv7 m c main_v38_2) = colSumSq R := by
    show rowVec (Bd7 m c (Proc.devRef .tc main_v38_2)) = _
    rw [Bd7_keep m c main_v38_2 (by decide), hss] <;> rfl
  have e4 : rowVec (Bv7 m c main_v43) = pg m c 1 := by
    show rowVec (StableHlo.after hostOps3 (Bd6 m c) (Proc.devRef .tc main_v43)) = _
    rw [host3_scale (Bd6 m c), at6_main_arg8 m c] <;> rfl
  have e5 : rowVec (Bv7 m c main_v44) = pbe m c 1 := by
    show rowVec (StableHlo.after hostOps3 (Bd6 m c) (Proc.devRef .tc main_v44)) = _
    rw [host3_shift (Bd6 m c), at6_main_arg9 m c] <;> rfl
  have e := (Bd8_arr m c 5).trans hF
  rw [e1, e2, e3, e4, e5] at e
  exact e

/-- Round 1: the round's output buffer holds the round, normalised from the moments, of the round's input. -/
theorem round1 (hI : Bd4 m c (Proc.devRef .tc main_v22) = ofCoords H)
    (hF4 : (dat2 (Bv5 m) c).arrAt 4 cfg2.N = fun i => relu (lin (onCoords (Bv5 m c main_v22)) (onCoords (Bv5 m c main_v32)) (onCoords (Bv5 m c main_v34)) (rowVec (Bv5 m c main_v37))) (i 0) (i 1))
    (hF5 : (dat2 (Bv5 m) c).arrAt 5 cfg2.N = fun i => colSum (relu (lin (onCoords (Bv5 m c main_v22)) (onCoords (Bv5 m c main_v32)) (onCoords (Bv5 m c main_v34)) (rowVec (Bv5 m c main_v37)))) (i 1))
    (hF6 : (dat2 (Bv5 m) c).arrAt 6 cfg2.N = fun i => colSumSq (relu (lin (onCoords (Bv5 m c main_v22)) (onCoords (Bv5 m c main_v32)) (onCoords (Bv5 m c main_v34)) (rowVec (Bv5 m c main_v37)))) (i 1))
    (hFn : (dat3 (Bv7 m) c).arrAt 5 cfg3.N = fun i =>
      bnMoments (Ideal.ofBits .f32 0x47C35000#32) (Ideal.ofBits .f32 0x3727C5AC#32) (onCoords (Bv7 m c main_v38_0)) (rowVec (Bv7 m c main_v38_1))
        (rowVec (Bv7 m c main_v38_2)) (rowVec (Bv7 m c main_v43)) (rowVec (Bv7 m c main_v44)) (i 0) (i 1)) :
    Bd8 m c (Proc.devRef .tc main_v45)
      = ofCoords (roundM (Ideal.ofBits .f32 0x47C35000#32) (Ideal.ofBits .f32 0x3727C5AC#32) (aggC m c) H (pW m c 0) (pb m c 0) (pg m c 1) (pbe m c 1)) :=
  r1_out m c _ (r1_pre m c H hI hF4) (r1_sum m c H hI hF5) (r1_ssq m c H hI hF6) hFn

end Round1

end Cert.KernelIdeal.HandRun

end
-- ==== Proof.KI.ChainR2.lean ====
/-
  Round 2 of the kernel program's run (regions 4 and 5): the first region leaves the rectified linear stage
  of the round's input and its two column moments, the second the batch normalisation from those moments, so the
  round's output buffer holds `roundM` of the round's input. Each lemma takes the value of a region's output array,
  as a function of the region's entry arrays, as a hypothesis.
-/
import proofs.«128301_j8701603742430_2_alg».proof.Proof.KI.Vals
import proofs.«128301_j8701603742430_2_alg».proof.Proof.KI.Keep
import proofs.«128301_j8701603742430_2_alg».proof.Proof.KI.ArgsAt
import proofs.«128301_j8701603742430_2_alg».proof.Proof.KI.Host
import proofs.«128301_j8701603742430_2_alg».proof.Proof.KI.HostIdx
import proofs.«128301_j8701603742430_2_alg».proof.Proof.KI.HostRows
import proofs.«128301_j8701603742430_2_alg».proof.Proof.SpecCoords
import proofs.«128301_j8701603742430_2_alg».proof.Proof.SpecNet
import proofs.«128301_j8701603742430_2_alg».proof.Proof.KI.ChainDefs

set_option maxRecDepth 16384

noncomputable section

namespace Cert.KernelIdeal.HandRun

open Idealize.ShloMosaic Idealize.ShloMosaic.TcCoe Idealize.SL.Sem
open Idealize.ShloMosaic.ValueIdx
open Cert.KernelIdeal Cert.KernelIdeal.Gen Cert.KernelIdeal.Hand Cert.KernelIdeal.HandHost GinSpec

variable (m : (ℓ : Loc nD τ sig) → Buf (Elt Ideal) ℓ) (c : Dev nD)

/-! ## Round 2: regions 4 and 5 -/

section Round2
variable (H : Fin 100000 → Fin 64 → EReal)

/-- Region 4 enters with the round's input in `main_v45`. -/
theorem r2_h (hI : Bd8 m c (Proc.devRef .tc main_v45) = ofCoords H) : onCoords (Bv9 m c main_v45) = H := by
  show onCoords (Bd9 m c (Proc.devRef .tc main_v45)) = H
  rw [Bd9_keep m c main_v45 (by decide), hI] <;> rfl

/-- Region 4 enters with the aggregation of the round's input in `main_v55`. -/
theorem r2_agg (hI : Bd8 m c (Proc.devRef .tc main_v45) = ofCoords H) : onCoords (Bv9 m c main_v55) = aggC m c H := by
  show onCoords (StableHlo.after hostOps4 (Bd8 m c) (Proc.devRef .tc main_v55)) = _
  rw [host4_agg (Bd8 m c), src_at8 m c, dst_at8 m c, hI] <;> rfl

/-- Region 4 enters with member 1 of the stack of weights in `main_v57`. -/
theorem r2_W : onCoords (Bv9 m c main_v57) = pW m c 1 := by
  show onCoords (StableHlo.after hostOps4 (Bd8 m c) (Proc.devRef .tc main_v57)) = _
  rw [host4_weight (Bd8 m c), at8_main_arg4 m c] <;> rfl

/-- Region 4 enters with row 1 of the stack of biases in `main_v60`. -/
theorem r2_b : rowVec (Bv9 m c main_v60) = pb m c 1 := by
  show rowVec (StableHlo.after hostOps4 (Bd8 m c) (Proc.devRef .tc main_v60)) = _
  rw [host4_bias (Bd8 m c), at8_main_arg5 m c] <;> rfl

/-- Region 4 leaves the rectified linear stage in `main_v61_0`. -/
theorem r2_pre (hI : Bd8 m c (Proc.devRef .tc main_v45) = ofCoords H)
    (hF : (dat4 (Bv9 m) c).arrAt 4 cfg4.N = fun i => relu (lin (onCoords (Bv9 m c main_v45)) (onCoords (Bv9 m c main_v55)) (onCoords (Bv9 m c main_v57)) (rowVec (Bv9 m c main_v60))) (i 0) (i 1)) :
    Bd10 m c (Proc.devRef .tc main_v61_0) = ofCoords (relu (lin H (aggC m c H) (pW m c 1) (pb m c 1))) := by
  have e := (Bd10_arr m c 4).trans hF
  rw [r2_h m c H hI, r2_agg m c H hI, r2_W m c, r2_b m c] at e
  exact e

/-- Region 4 leaves the column sums of the rectified linear stage in `main_v61_1`. -/
theorem r2_sum (hI : Bd8 m c (Proc.devRef .tc main_v45) = ofCoords H)
    (hF : (dat4 (Bv9 m) c).arrAt 5 cfg4.N = fun i => colSum (relu (lin (onCoords (Bv9 m c main_v45)) (onCoords (Bv9 m c main_v55)) (onCoords (Bv9 m c main_v57)) (rowVec (Bv9 m c main_v60)))) (i 1)) :
    Bd10 m c (Proc.devRef .tc main_v61_1) = ofRow (colSum (relu (lin H (aggC m c H) (pW m c 1) (pb m c 1)))) := by
  have e := (Bd10_arr m c 5).trans hF
  rw [r2_h m c H hI, r2_agg m c H hI, r2_W m c, r2_b m c] at e
  exact e

/-- Region 4 leaves the column sums of squares of the rectified linear stage in `main_v61_2`. -/
theorem r2_ssq (hI : Bd8 m c (Proc.devRef .tc main_v45) = ofCoords H)
    (hF : (dat4 (Bv9 m) c).arrAt 6 cfg4.N = fun i => colSumSq (relu (lin (onCoords (Bv9 m c main_v45)) (onCoords (Bv9 m c main_v55)) (onCoords (Bv9 m c main_v57)) (rowVec (Bv9 m c main_v60)))) (i 1)) :
    Bd10 m c (Proc.devRef .tc main_v61_2) = ofRow (colSumSq (relu (lin H (aggC m c H) (pW m c 1) (pb m c 1)))) := by
  have e := (Bd10_arr m c 6).trans hF
  rw [r2_h m c H hI, r2_agg m c H hI, r2_W m c, r2_b m c] at e
  exact e

/-- Region 5 leaves the batch normalisation, from the moments, of what region 4 left. -/
theorem r2_out (R : Fin 100000 → Fin 64 → EReal)
    (hpre : Bd10 m c (Proc.devRef .tc main_v61_0) = ofCoords R)
    (hs : Bd10 m c (Proc.devRef .tc main_v61_1) = ofRow (colSum R))
    (hss : Bd10 m c (Proc.devRef .tc main_v61_2) = ofRow (colSumSq R))
    (hF : (dat5 (Bv11 m) c).arrAt 5 cfg5.N = fun i =>
      bnMoments (Ideal.ofBits .f32 0x47C35000#32) (Ideal.ofBits .f32 0x3727C5AC#32) (onCoords (Bv11 m c main_v61_0)) (rowVec (Bv11 m c main_v61_1))
        (rowVec (Bv11 m c main_v61_2)) (rowVec (Bv11 m c main_v66)) (rowVec (Bv11 m c main_v67)) (i 0) (i 1)) :
    Bd12 m c (Proc.devRef .tc main_v68)
      = ofCoords (bnMoments (Ideal.ofBits .f32 0x47C35000#32) (Ideal.ofBits .f32 0x3727C5AC#32) R (colSum R) (colSumSq R) (pg m c 2) (pbe m c 2)) := by
  have e1 : onCoords (Bv11 m c main_v61_0) = R := by
    show onCoords (Bd11 m c (Proc.devRef .tc main_v61_0)) = R
    rw [Bd11_keep m c main_v61_0 (by decide), hpre] <;> rfl
  have e2 : rowVec (Bv11 m c main_v61_1) = colSum R := by
    show rowVec (Bd11 m c (Proc.devRef .tc main_v61_1)) = _
    rw [Bd11_keep m c main_v61_1 (by decide), hs] <;> rfl
  have e3 : rowVec (Bv11 m c main_v61_2) = colSumSq R := by
    show rowVec (Bd11 m c (Proc.devRef .tc main_v61_2)) = _
    rw [Bd11_keep m c main_v61_2 (by decide), hss] <;> rfl
  have e4 : rowVec (Bv11 m c main_v66) = pg m c 2 := by
    show rowVec (StableHlo.after hostOps5 (Bd10 m c) (Proc.devRef .tc main_v66)) = _
    rw [host5_scale (Bd10 m c), at10_main_arg8 m c] <;> rfl
  have e5 : rowVec (Bv11 m c main_v67) = pbe m c 2 := by
    show rowVec (StableHlo.after hostOps5 (Bd10 m c) (Proc.devRef .tc main_v67)) = _
    rw [host5_shift (Bd10 m c), at10_main_arg9 m c] <;> rfl
  have e := (Bd12_arr m c 5).trans hF
  rw [e1, e2, e3, e4, e5] at e
  exact e

/-- Round 2: the round's output buffer holds the round, normalised from the moments, of the round's input. -/
theorem round2 (hI : Bd8 m c (Proc.devRef .tc main_v45) = ofCoords H)
    (hF4 : (dat4 (Bv9 m) c).arrAt 4 cfg4.N = fun i => relu (lin (onCoords (Bv9 m c main_v45)) (onCoords (Bv9 m c main_v55)) (onCoords (Bv9 m c main_v57)) (rowVec (Bv9 m c main_v60))) (i 0) (i 1))
    (hF5 : (dat4 (Bv9 m) c).arrAt 5 cfg4.N = fun i => colSum (relu (lin (onCoords (Bv9 m c main_v45)) (onCoords (Bv9 m c main_v55)) (onCoords (Bv9 m c main_v57)) (rowVec (Bv9 m c main_v60)))) (i 1))
    (hF6 : (dat4 (Bv9 m) c).arrAt 6 cfg4.N = fun i => colSumSq (relu (lin (onCoords (Bv9 m c main_v45)) (onCoords (Bv9 m c main_v55)) (onCoords (Bv9 m c main_v57)) (rowVec (Bv9 m c main_v60)))) (i 1))
    (hFn : (dat5 (Bv11 m) c).arrAt 5 cfg5.N = fun i =>
      bnMoments (Ideal.ofBits .f32 0x47C35000#32) (Ideal.ofBits .f32 0x3727C5AC#32) (onCoords (Bv11 m c main_v61_0)) (rowVec (Bv11 m c main_v61_1))
        (rowVec (Bv11 m c main_v61_2)) (rowVec (Bv11 m c main_v66)) (rowVec (Bv11 m c main_v67)) (i 0) (i 1)) :
    Bd12 m c (Proc.devRef .tc main_v68)
      = ofCoords (roundM (Ideal.ofBits .f32 0x47C35000#32) (Ideal.ofBits .f32 0x3727C5AC#32) (aggC m c) H (pW m c 1) (pb m c 1) (pg m c 2) (pbe m c 2)) :=
  r2_out m c _ (r2_pre m c H hI hF4) (r2_sum m c H hI hF5) (r2_ssq m c H hI hF6) hFn

end Round2

end Cert.KernelIdeal.HandRun

end
-- ==== Proof.KI.ChainR3.lean ====
/-
  Round 3 of the kernel program's run (regions 6 and 7): the first region leaves the rectified linear stage
  of the round's input and its two column moments, the second the batch normalisation from those moments, so the
  round's output buffer holds `roundM` of the round's input. Each lemma takes the value of a region's output array,
  as a function of the region's entry arrays, as a hypothesis.
-/
import proofs.«128301_j8701603742430_2_alg».proof.Proof.KI.Vals
import proofs.«128301_j8701603742430_2_alg».proof.Proof.KI.Keep
import proofs.«128301_j8701603742430_2_alg».proof.Proof.KI.ArgsAt
import proofs.«128301_j8701603742430_2_alg».proof.Proof.KI.Host
import proofs.«128301_j8701603742430_2_alg».proof.Proof.KI.HostIdx
import proofs.«128301_j8701603742430_2_alg».proof.Proof.KI.HostRows
import proofs.«128301_j8701603742430_2_alg».proof.Proof.SpecCoords
import proofs.«128301_j8701603742430_2_alg».proof.Proof.SpecNet
import proofs.«128301_j8701603742430_2_alg».proof.Proof.KI.ChainDefs

set_option maxRecDepth 16384

noncomputable section

namespace Cert.KernelIdeal.HandRun

open Idealize.ShloMosaic Idealize.ShloMosaic.TcCoe Idealize.SL.Sem
open Idealize.ShloMosaic.ValueIdx
open Cert.KernelIdeal Cert.KernelIdeal.Gen Cert.KernelIdeal.Hand Cert.KernelIdeal.HandHost GinSpec

variable (m : (ℓ : Loc nD τ sig) → Buf (Elt Ideal) ℓ) (c : Dev nD)

/-! ## Round 3: regions 6 and 7 -/

section Round3
variable (H : Fin 100000 → Fin 64 → EReal)

/-- Region 6 enters with the round's input in `main_v68`. -/
theorem r3_h (hI : Bd12 m c (Proc.devRef .tc main_v68) = ofCoords H) : onCoords (Bv13 m c main_v68) = H := by
  show onCoords (Bd13 m c (Proc.devRef .tc main_v68)) = H
  rw [Bd13_keep m c main_v68 (by decide), hI] <;> rfl

/-- Region 6 enters with the aggregation of the round's input in `main_v78`. -/
theorem r3_agg (hI : Bd12 m c (Proc.devRef .tc main_v68) = ofCoords H) : onCoords (Bv13 m c main_v78) = aggC m c H := by
  show onCoords (StableHlo.after hostOps6 (Bd12 m c) (Proc.devRef .tc main_v78)) = _
  rw [host6_agg (Bd12 m c), src_at12 m c, dst_at12 m c, hI] <;> rfl

/-- Region 6 enters with member 2 of the stack of weights in `main_v80`. -/
theorem r3_W : onCoords (Bv13 m c main_v80) = pW m c 2 := by
  show onCoords (StableHlo.after hostOps6 (Bd12 m c) (Proc.devRef .tc main_v80)) = _
  rw [host6_weight (Bd12 m c), at12_main_arg4 m c] <;> rfl

/-- Region 6 enters with row 2 of the stack of biases in `main_v83`. -/
theorem r3_b : rowVec (Bv13 m c main_v83) = pb m c 2 := by
  show rowVec (StableHlo.after hostOps6 (Bd12 m c) (Proc.devRef .tc main_v83)) = _
  rw [host6_bias (Bd12 m c), at12_main_arg5 m c] <;> rfl

/-- Region 6 leaves the rectified linear stage in `main_v84_0`. -/
theorem r3_pre (hI : Bd12 m c (Proc.devRef .tc main_v68) = ofCoords H)
    (hF : (dat6 (Bv13 m) c).arrAt 4 cfg6.N = fun i => relu (lin (onCoords (Bv13 m c main_v68)) (onCoords (Bv13 m c main_v78)) (onCoords (Bv13 m c main_v80)) (rowVec (Bv13 m c main_v83))) (i 0) (i 1)) :
    Bd14 m c (Proc.devRef .tc main_v84_0) = ofCoords (relu (lin H (aggC m c H) (pW m c 2) (pb m c 2))) := by
  have e := (Bd14_arr m c 4).trans hF
  rw [r3_h m c H hI, r3_agg m c H hI, r3_W m c, r3_b m c] at e
  exact e

/-- Region 6 leaves the column sums of the rectified linear stage in `main_v84_1`. -/
theorem r3_sum (hI : Bd12 m c (Proc.devRef .tc main_v68) = ofCoords H)
    (hF : (dat6 (Bv13 m) c).arrAt 5 cfg6.N = fun i => colSum (relu (lin (onCoords (Bv13 m c main_v68)) (onCoords (Bv13 m c main_v78)) (onCoords (Bv13 m c main_v80)) (rowVec (Bv13 m c main_v83)))) (i 1)) :
    Bd14 m c (Proc.devRef .tc main_v84_1) = ofRow (colSum (relu (lin H (aggC m c H) (pW m c 2) (pb m c 2)))) := by
  have e := (Bd14_arr m c 5).trans hF
  rw [r3_h m c H hI, r3_agg m c H hI, r3_W m c, r3_b m c] at e
  exact e

/-- Region 6 leaves the column sums of squares of the rectified linear stage in `main_v84_2`. -/
theorem r3_ssq (hI : Bd12 m c (Proc.devRef .tc main_v68) = ofCoords H)
    (hF : (dat6 (Bv13 m) c).arrAt 6 cfg6.N = fun i => colSumSq (relu (lin (onCoords (Bv13 m c main_v68)) (onCoords (Bv13 m c main_v78)) (onCoords (Bv13 m c main_v80)) (rowVec (Bv13 m c main_v83)))) (i 1)) :
    Bd14 m c (Proc.devRef .tc main_v84_2) = ofRow (colSumSq (relu (lin H (aggC m c H) (pW m c 2) (pb m c 2)))) := by
  have e := (Bd14_arr m c 6).trans hF
  rw [r3_h m c H hI, r3_agg m c H hI, r3_W m c, r3_b m c] at e
  exact e

/-- Region 7 leaves the batch normalisation, from the moments, of what region 6 left. -/
theorem r3_out (R : Fin 100000 → Fin 64 → EReal)
    (hpre : Bd14 m c (Proc.devRef .tc main_v84_0) = ofCoords R)
    (hs : Bd14 m c (Proc.devRef .tc main_v84_1) = ofRow (colSum R))
    (hss : Bd14 m c (Proc.devRef .tc main_v84_2) = ofRow (colSumSq R))
    (hF : (dat7 (Bv15 m) c).arrAt 5 cfg7.N = fun i =>
      bnMoments (Ideal.ofBits .f32 0x47C35000#32) (Ideal.ofBits .f32 0x3727C5AC#32) (onCoords (Bv15 m c main_v84_0)) (rowVec (Bv15 m c main_v84_1))
        (rowVec (Bv15 m c main_v84_2)) (rowVec (Bv15 m c main_v89)) (rowVec (Bv15 m c main_v90)) (i 0) (i 1)) :
    Bd16 m c (Proc.devRef .tc main_v91)
      = ofCoords (bnMoments (Ideal.ofBits .f32 0x47C35000#32) (Ideal.ofBits .f32 0x3727C5AC#32) R (colSum R) (colSumSq R) (pg m c 3) (pbe m c 3)) := by
  have e1 : onCoords (Bv15 m c main_v84_0) = R := by
    show onCoords (Bd15 m c (Proc.devRef .tc main_v84_0)) = R
    rw [Bd15_keep m c main_v84_0 (by decide), hpre] <;> rfl
  have e2 : rowVec (Bv15 m c main_v84_1) = colSum R := by
    show rowVec (Bd15 m c (Proc.devRef .tc main_v84_1)) = _
    rw [Bd15_keep m c main_v84_1 (by decide), hs] <;> rfl
  have e3 : rowVec (Bv15 m c main_v84_2) = colSumSq R := by
    show rowVec (Bd15 m c (Proc.devRef .tc main_v84_2)) = _
    rw [Bd15_keep m c main_v84_2 (by decide), hss] <;> rfl
  have e4 : rowVec (Bv15 m c main_v89) = pg m c 3 := by
    show rowVec (StableHlo.after hostOps7 (Bd14 m c) (Proc.devRef .tc main_v89)) = _
    rw [host7_scale (Bd14 m c), at14_main_arg8 m c] <;> rfl
  have e5 : rowVec (Bv15 m c main_v90) = pbe m c 3 := by
    show rowVec (StableHlo.after hostOps7 (Bd14 m c) (Proc.devRef .tc main_v90)) = _
    rw [host7_shift (Bd14 m c), at14_main_arg9 m c] <;> rfl
  have e := (Bd16_arr m c 5).trans hF
  rw [e1, e2, e3, e4, e5] at e
  exact e

/-- Round 3: the round's output buffer holds the round, normalised from the moments, of the round's input. -/
theorem round3 (hI : Bd12 m c (Proc.devRef .tc main_v68) = ofCoords H)
    (hF4 : (dat6 (Bv13 m) c).arrAt 4 cfg6.N = fun i => relu (lin (onCoords (Bv13 m c main_v68)) (onCoords (Bv13 m c main_v78)) (onCoords (Bv13 m c main_v80)) (rowVec (Bv13 m c main_v83))) (i 0) (i 1))
    (hF5 : (dat6 (Bv13 m) c).arrAt 5 cfg6.N = fun i => colSum (relu (lin (onCoords (Bv13 m c main_v68)) (onCoords (Bv13 m c main_v78)) (onCoords (Bv13 m c main_v80)) (rowVec (Bv13 m c main_v83)))) (i 1))
    (hF6 : (dat6 (Bv13 m) c).arrAt 6 cfg6.N = fun i => colSumSq (relu (lin (onCoords (Bv13 m c main_v68)) (onCoords (Bv13 m c main_v78)) (onCoords (Bv13 m c main_v80)) (rowVec (Bv13 m c main_v83)))) (i 1))
    (hFn : (dat7 (Bv15 m) c).arrAt 5 cfg7.N = fun i =>
      bnMoments (Ideal.ofBits .f32 0x47C35000#32) (Ideal.ofBits .f32 0x3727C5AC#32) (onCoords (Bv15 m c main_v84_0)) (rowVec (Bv15 m c main_v84_1))
        (rowVec (Bv15 m c main_v84_2)) (rowVec (Bv15 m c main_v89)) (rowVec (Bv15 m c main_v90)) (i 0) (i 1)) :
    Bd16 m c (Proc.devRef .tc main_v91)
      = ofCoords (roundM (Ideal.ofBits .f32 0x47C35000#32) (Ideal.ofBits .f32 0x3727C5AC#32) (aggC m c) H (pW m c 2) (pb m c 2) (pg m c 3) (pbe m c 3)) :=
  r3_out m c _ (r3_pre m c H hI hF4) (r3_sum m c H hI hF5) (r3_ssq m c H hI hF6) hFn

end Round3

end Cert.KernelIdeal.HandRun

end
-- ==== Proof.KI.Chain.lean ====
/-
  The kernel program's result as the network of SpecNet.lean. `closing_value`: the last region leaves the closing stage
  (aggregate, linear stage, row-wise logarithm of the softmax) of what the fourth round left. `kernel_value_of`: given
  the value of every region's output arrays as functions of the region's entry arrays, the program's result buffer holds
  `netM` of the launch data: four rounds normalised from the column moments, then the closing stage.
-/
import proofs.«128301_j8701603742430_2_alg».proof.Proof.KI.Vals
import proofs.«128301_j8701603742430_2_alg».proof.Proof.KI.Keep
import proofs.«128301_j8701603742430_2_alg».proof.Proof.KI.ArgsAt
import proofs.«128301_j8701603742430_2_alg».proof.Proof.KI.Host
import proofs.«128301_j8701603742430_2_alg».proof.Proof.KI.HostIdx
import proofs.«128301_j8701603742430_2_alg».proof.Proof.KI.HostRows
import proofs.«128301_j8701603742430_2_alg».proof.Proof.SpecCoords
import proofs.«128301_j8701603742430_2_alg».proof.Proof.SpecNet
import proofs.«128301_j8701603742430_2_alg».proof.Proof.KI.ChainDefs
import proofs.«128301_j8701603742430_2_alg».proof.Proof.KI.ChainR0
import proofs.«128301_j8701603742430_2_alg».proof.Proof.KI.ChainR1
import proofs.«128301_j8701603742430_2_alg».proof.Proof.KI.ChainR2
import proofs.«128301_j8701603742430_2_alg».proof.Proof.KI.ChainR3

set_option maxRecDepth 16384

noncomputable section

namespace Cert.KernelIdeal.HandRun

open Idealize.ShloMosaic Idealize.ShloMosaic.TcCoe Idealize.SL.Sem
open Idealize.ShloMosaic.ValueIdx
open Cert.KernelIdeal Cert.KernelIdeal.Gen Cert.KernelIdeal.Hand Cert.KernelIdeal.HandHost GinSpec

variable (m : (ℓ : Loc nD τ sig) → Buf (Elt Ideal) ℓ) (c : Dev nD)

/-- What round 0 leaves: the first round of the launch features. -/
def H1 : Fin 100000 → Fin 64 → EReal :=
  roundM (Ideal.ofBits .f32 0x47C35000#32) (Ideal.ofBits .f32 0x3727C5AC#32) (aggC m c) (pX m c) (pW0 m c) (pb0 m c) (pg m c 0) (pbe m c 0)
/-- What round 1 leaves. -/
def H2 : Fin 100000 → Fin 64 → EReal :=
  roundM (Ideal.ofBits .f32 0x47C35000#32) (Ideal.ofBits .f32 0x3727C5AC#32) (aggC m c) (H1 m c) (pW m c 0) (pb m c 0) (pg m c 1) (pbe m c 1)
/-- What round 2 leaves. -/
def H3 : Fin 100000 → Fin 64 → EReal :=
  roundM (Ideal.ofBits .f32 0x47C35000#32) (Ideal.ofBits .f32 0x3727C5AC#32) (aggC m c) (H2 m c) (pW m c 1) (pb m c 1) (pg m c 2) (pbe m c 2)
/-- What round 3 leaves. -/
def H4 : Fin 100000 → Fin 64 → EReal :=
  roundM (Ideal.ofBits .f32 0x47C35000#32) (Ideal.ofBits .f32 0x3727C5AC#32) (aggC m c) (H3 m c) (pW m c 2) (pb m c 2) (pg m c 3) (pbe m c 3)

/-- Region 8 leaves the closing stage of what the fourth round left. -/
theorem closing_value (H : Fin 100000 → Fin 64 → EReal) (hI : Bd16 m c (Proc.devRef .tc main_v91) = ofCoords H)
    (hF : (dat8 (Bv17 m) c).arrAt 4 cfg8.N = fun i => logSoftmax (lin (onCoords (Bv17 m c main_v91)) (onCoords (Bv17 m c main_v101)) (onCoords (Bv17 m c main_arg6)) (rowVec (Bv17 m c main_v102))) (i 0) (i 1)) :
    Bd18 m c (Proc.devRef .tc main_v103) = ofCoords (closing (aggC m c) H (pWf m c) (pbf m c)) := by
  have e1 : onCoords (Bv17 m c main_v91) = H := by
    show onCoords (Bd17 m c (Proc.devRef .tc main_v91)) = H
    rw [Bd17_keep m c main_v91 (by decide), hI] <;> rfl
  have e2 : onCoords (Bv17 m c main_v101) = aggC m c H := by
    show onCoords (StableHlo.after hostOps8 (Bd16 m c) (Proc.devRef .tc main_v101)) = _
    rw [host8_agg (Bd16 m c), src_at16 m c, dst_at16 m c, hI] <;> rfl
  have e3 : onCoords (Bv17 m c main_arg6) = pWf m c := by
    show onCoords (Bd17 m c (Proc.devRef .tc main_arg6)) = _
    rw [at17_main_arg6 m c] <;> rfl
  have e4 : rowVec (Bv17 m c main_v102) = pbf m c := by
    show rowVec (StableHlo.after hostOps8 (Bd16 m c) (Proc.devRef .tc main_v102)) = _
    rw [host8_bias (Bd16 m c), at16_main_arg7 m c] <;> rfl
  have e := (Bd18_arr m c 4).trans hF
  rw [e1, e2, e3, e4] at e
  exact e

set_option maxHeartbeats 4000000 in
/-- The program's result buffer holds the network, normalised from the moments, of the launch data. -/
theorem kernel_value_of
    (hF0_4 : (dat0 (Bv1 m) c).arrAt 4 cfg0.N = fun i => relu (lin (onCoords (Bv1 m c main_arg0)) (onCoords (Bv1 m c main_v13)) (onCoords (Bv1 m c main_arg2)) (rowVec (Bv1 m c main_v14))) (i 0) (i 1))
    (hF0_5 : (dat0 (Bv1 m) c).arrAt 5 cfg0.N = fun i => colSum (relu (lin (onCoords (Bv1 m c main_arg0)) (onCoords (Bv1 m c main_v13)) (onCoords (Bv1 m c main_arg2)) (rowVec (Bv1 m c main_v14)))) (i 1))
    (hF0_6 : (dat0 (Bv1 m) c).arrAt 6 cfg0.N = fun i => colSumSq (relu (lin (onCoords (Bv1 m c main_arg0)) (onCoords (Bv1 m c main_v13)) (onCoords (Bv1 m c main_arg2)) (rowVec (Bv1 m c main_v14)))) (i 1))
    (hF1_5 : (dat1 (Bv3 m) c).arrAt 5 cfg1.N = fun i =>
      bnMoments (Ideal.ofBits .f32 0x47C35000#32) (Ideal.ofBits .f32 0x3727C5AC#32) (onCoords (Bv3 m c main_v15_0)) (rowVec (Bv3 m c main_v15_1))
        (rowVec (Bv3 m c main_v15_2)) (rowVec (Bv3 m c main_v20)) (rowVec (Bv3 m c main_v21)) (i 0) (i 1))
    (hF2_4 : (dat2 (Bv5 m) c).arrAt 4 cfg2.N = fun i => relu (lin (onCoords (Bv5 m c main_v22)) (onCoords (Bv5 m c main_v32)) (onCoords (Bv5 m c main_v34)) (rowVec (Bv5 m c main_v37))) (i 0) (i 1))
    (hF2_5 : (dat2 (Bv5 m) c).arrAt 5 cfg2.N = fun i => colSum (relu (lin (onCoords (Bv5 m c main_v22)) (onCoords (Bv5 m c main_v32)) (onCoords (Bv5 m c main_v34)) (rowVec (Bv5 m c main_v37)))) (i 1))
    (hF2_6 : (dat2 (Bv5 m) c).arrAt 6 cfg2.N = fun i => colSumSq (relu (lin (onCoords (Bv5 m c main_v22)) (onCoords (Bv5 m c main_v32)) (onCoords (Bv5 m c main_v34)) (rowVec (Bv5 m c main_v37)))) (i 1))
    (hF3_5 : (dat3 (Bv7 m) c).arrAt 5 cfg3.N = fun i =>
      bnMoments (Ideal.ofBits .f32 0x47C35000#32) (Ideal.ofBits .f32 0x3727C5AC#32) (onCoords (Bv7 m c main_v38_0)) (rowVec (Bv7 m c main_v38_1))
        (rowVec (Bv7 m c main_v38_2)) (rowVec (Bv7 m c main_v43)) (rowVec (Bv7 m c main_v44)) (i 0) (i 1))
    (hF4_4 : (dat4 (Bv9 m) c).arrAt 4 cfg4.N = fun i => relu (lin (onCoords (Bv9 m c main_v45)) (onCoords (Bv9 m c main_v55)) (onCoords (Bv9 m c main_v57)) (rowVec (Bv9 m c main_v60))) (i 0) (i 1))
    (hF4_5 : (dat4 (Bv9 m) c).arrAt 5 cfg4.N = fun i => colSum (relu (lin (onCoords (Bv9 m c main_v45)) (onCoords (Bv9 m c main_v55)) (onCoords (Bv9 m c main_v57)) (rowVec (Bv9 m c main_v60)))) (i 1))
    (hF4_6 : (dat4 (Bv9 m) c).arrAt 6 cfg4.N = fun i => colSumSq (relu (lin (onCoords (Bv9 m c main_v45)) (onCoords (Bv9 m c main_v55)) (onCoords (Bv9 m c main_v57)) (rowVec (Bv9 m c main_v60)))) (i 1))
    (hF5_5 : (dat5 (Bv11 m) c).arrAt 5 cfg5.N = fun i =>
      bnMoments (Ideal.ofBits .f32 0x47C35000#32) (Ideal.ofBits .f32 0x3727C5AC#32) (onCoords (Bv11 m c main_v61_0)) (rowVec (Bv11 m c main_v61_1))
        (rowVec (Bv11 m c main_v61_2)) (rowVec (Bv11 m c main_v66)) (rowVec (Bv11 m c main_v67)) (i 0) (i 1))
    (hF6_4 : (dat6 (Bv13 m) c).arrAt 4 cfg6.N = fun i => relu (lin (onCoords (Bv13 m c main_v68)) (onCoords (Bv13 m c main_v78)) (onCoords (Bv13 m c main_v80)) (rowVec (Bv13 m c main_v83))) (i 0) (i 1))
    (hF6_5 : (dat6 (Bv13 m) c).arrAt 5 cfg6.N = fun i => colSum (relu (lin (onCoords (Bv13 m c main_v68)) (onCoords (Bv13 m c main_v78)) (onCoords (Bv13 m c main_v80)) (rowVec (Bv13 m c main_v83)))) (i 1))
    (hF6_6 : (dat6 (Bv13 m) c).arrAt 6 cfg6.N = fun i => colSumSq (relu (lin (onCoords (Bv13 m c main_v68)) (onCoords (Bv13 m c main_v78)) (onCoords (Bv13 m c main_v80)) (rowVec (Bv13 m c main_v83)))) (i 1))
    (hF7_5 : (dat7 (Bv15 m) c).arrAt 5 cfg7.N = fun i =>
      bnMoments (Ideal.ofBits .f32 0x47C35000#32) (Ideal.ofBits .f32 0x3727C5AC#32) (onCoords (Bv15 m c main_v84_0)) (rowVec (Bv15 m c main_v84_1))
        (rowVec (Bv15 m c main_v84_2)) (rowVec (Bv15 m c main_v89)) (rowVec (Bv15 m c main_v90)) (i 0) (i 1))
    (hF8_4 : (dat8 (Bv17 m) c).arrAt 4 cfg8.N = fun i => logSoftmax (lin (onCoords (Bv17 m c main_v91)) (onCoords (Bv17 m c main_v101)) (onCoords (Bv17 m c main_arg6)) (rowVec (Bv17 m c main_v102))) (i 0) (i 1)) :
    Bd18 m c (Proc.devRef .tc main_v103)
      = ofCoords (netM (Ideal.ofBits .f32 0x47C35000#32) (Ideal.ofBits .f32 0x3727C5AC#32) (aggC m c) (pX m c) (pW0 m c) (pb0 m c) (pg m c 0) (pbe m c 0) (pW m c 0) (pb m c 0) (pg m c 1) (pbe m c 1) (pW m c 1) (pb m c 1) (pg m c 2) (pbe m c 2) (pW m c 2) (pb m c 2) (pg m c 3) (pbe m c 3) (pWf m c) (pbf m c)) := by
  have i1 : Bd4 m c (Proc.devRef .tc main_v22) = ofCoords (H1 m c) := round0 m c _ (inv0 m c) hF0_4 hF0_5 hF0_6 hF1_5
  have i2 : Bd8 m c (Proc.devRef .tc main_v45) = ofCoords (H2 m c) := round1 m c _ i1 hF2_4 hF2_5 hF2_6 hF3_5
  have i3 : Bd12 m c (Proc.devRef .tc main_v68) = ofCoords (H3 m c) := round2 m c _ i2 hF4_4 hF4_5 hF4_6 hF5_5
  have i4 : Bd16 m c (Proc.devRef .tc main_v91) = ofCoords (H4 m c) := round3 m c _ i3 hF6_4 hF6_5 hF6_6 hF7_5
  exact closing_value m c _ i4 hF8_4

end Cert.KernelIdeal.HandRun

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.LibNarrowedProduct.lean ====
import Idealize.ShloMosaic.Lib.KernelVsHost
import Idealize.ShloMosaic.Lib.ValueLayout
import Idealize.ShloMosaic.Lib.Pipeline.Value

/-!
# A narrowed product into a zero accumulator, and a one-row bias repeated down the rows, over the extended reals

Two array-level laws that let an affine layer written for a matrix unit be rewritten, as whole arrays, into the same
layer written with host operations.

* `NarrowedProduct.matmul_narrowed_eq_dot`: a kernel's matrix product of two operands first narrowed to a sixteen-bit
  float format, accumulated into the zero matrix, is the host's `dot_general` of the un-narrowed operands, for ANY shapes
  and ANY pair of dimension records that are the same record (the hypothesis is usually `rfl`). Over the extended reals
  narrowing is the identity and `0 + s = s`.
* `NarrowedProduct.bias_rows`: a bias vector of `n` entries given in one-row form `[1, n]` (a cast of the vector, then a
  cast between equal shapes) and repeated down `m` rows by a vector broadcast is the vector placed on axis 1 of
  `[1, n]` and that row repeated down axis 0 by two `broadcast_in_dim`s. Both read the vector at the column.
-/

namespace NarrowedProduct

open Idealize.ShloMosaic Idealize.ShloMosaic.ValueIdx

/-- A product of two matrices whose entries were first narrowed to a shorter float format, accumulated into the zero
    matrix, is the plain product of the two matrices: over the extended reals narrowing changes nothing, and
    `0 + s = s`. The two dimension records may be spelt apart as long as they are the same record. -/
theorem matmul_narrowed_eq_dot {sl sr so : Shape} (dK dR : DotDims sl sr so) (hd : dK = dR)
    (X : FVec Ideal sl .f32) (W : FVec Ideal sr .f32) (h : FTy.bits .bf16 < FTy.bits .f32) (h' : FTy.bits .bf16 < FTy.bits .f32) :
    matmul dK none (truncf .bf16 X h) (truncf .bf16 W h') (constant (F := Ideal) so .f32 0x00000000#32)
      = Host.dotGeneral (F := Ideal) dR none X W := by
  subst hd
  funext j
  show FloatOps.matmul dK none _ _ _ j = FloatOps.dotGeneral dK none _ X W j
  rw [Ideal.matmul_constant_zero_apply, Ideal.dotGeneral_apply]
  rfl

/-- A bias vector of `n` entries laid along each of `m` rows, two spellings: its one-row form `[1, n]` repeated down
    the rows, against the vector placed on axis 1 of `[1, n]` and that row repeated down axis 0. Both read the vector at
    the column. -/
theorem bias_rows {α : Type} {m n : Nat} (b : (⟨1, ![n]⟩ : Shape).Idx → α)
    (sc : (⟨1, ![n]⟩ : Shape).ShapeCasts ⟨2, ![1, n]⟩) (sc' : (⟨2, ![1, n]⟩ : Shape).ShapeCasts ⟨2, ![1, n]⟩)
    (hb : (⟨2, ![1, n]⟩ : Shape).Broadcasts ⟨2, ![m, n]⟩)
    (bc1 : (⟨1, ![n]⟩ : Shape).BroadcastsInDim ⟨2, ![1, n]⟩ ![1])
    (bc2 : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b sc) sc') hb
      = broadcastInDim ⟨2, ![m, n]⟩ ![0, 1] bc2 (broadcastInDim ⟨2, ![1, n]⟩ ![1] bc1 b) := by
  rw [shapeCast_self]
  funext i
  obtain ⟨r, t, rfl⟩ : ∃ (r : Fin m) (t : Fin n), i = ix2 r t := ⟨i 0, i 1, eq_ix2 i⟩
  rw [broadcastTo_1b_ab_apply, broadcastInDim_oneRow_apply, shapeCast_a_1a_apply]
  refine (broadcastInDim_apply ![1] bc1 b (ix2 (0 : Fin 1) t) (ix1 t) ?_).symm
  intro a
  match a with
  | ⟨0, _⟩ =>
    show t.val = if n = 1 then 0 else t.val
    split
    · have := t.isLt; omega
    · rfl

end NarrowedProduct
-- ==== Proof.LibBlockedSum.lean ====
import Mathlib.Algebra.BigOperators.Fin
import Mathlib.Algebra.BigOperators.Intervals

/-!
# Sums over a long axis, taken block by block

A contraction over an axis of length `nb * tk` can be taken in `nb` consecutive blocks of `tk` terms, the partial
sums added one after the other into a running total. In a commutative additive monoid — the extended reals among
them, where `+` is associative and commutative although it does not cancel — the running total after the last
block is the starting value plus the whole sum. Nothing here needs the terms to be finite.
-/

namespace BlockedSum

open Finset

variable {M : Type*} [AddCommMonoid M]

/-- A sum over `nb * tk` consecutive terms is the sum, over the `nb` blocks, of each block's `tk` terms:
    term `k = b * tk + j` is the `j`-th term of block `b`. -/
theorem sum_range_mul (f : ℕ → M) (nb tk : ℕ) :
    ∑ k ∈ range (nb * tk), f k = ∑ b ∈ range nb, ∑ j ∈ range tk, f (b * tk + j) := by
  induction nb with
  | zero => simp
  | succ n ih =>
    rw [Nat.succ_mul, sum_range_add, ih, sum_range_succ]

/-- The same over `Fin`: the index types a contraction over a literal extent is written with. -/
theorem sum_fin_mul (f : ℕ → M) (nb tk : ℕ) :
    ∑ k : Fin (nb * tk), f k.val = ∑ b : Fin nb, ∑ j : Fin tk, f (b.val * tk + j.val) := by
  rw [Fin.sum_univ_eq_sum_range (fun k => f k) (nb * tk), sum_range_mul,
    ← Fin.sum_univ_eq_sum_range (fun b => ∑ j ∈ range tk, f (b * tk + j)) nb]
  refine sum_congr rfl fun b _ => ?_
  rw [← Fin.sum_univ_eq_sum_range (fun j => f (b.val * tk + j)) tk]

/-- A running total that starts at `a₀` and takes one more term at each step holds, after `n` steps, `a₀` plus the
    first `n` terms. -/
theorem running_total (acc : ℕ → M) (d : ℕ → M) (a₀ : M) (h0 : acc 0 = a₀) (hs : ∀ b, acc (b + 1) = acc b + d b) (n : ℕ) :
    acc n = a₀ + ∑ b ∈ range n, d b := by
  induction n with
  | zero => simp [h0]
  | succ n ih => rw [hs, ih, sum_range_succ, add_assoc]

/-- Accumulating a contraction block by block: starting from `a₀` and adding, at step `b`, the partial sum of block
    `b`, the total after all `nb` blocks is `a₀` plus the whole contraction. -/
theorem accumulate_blocks (acc : ℕ → M) (f : ℕ → M) (a₀ : M) (nb tk : ℕ) (h0 : acc 0 = a₀)
    (hs : ∀ b, acc (b + 1) = acc b + ∑ j ∈ range tk, f (b * tk + j)) :
    acc nb = a₀ + ∑ k ∈ range (nb * tk), f k := by
  rw [running_total acc _ a₀ h0 hs nb, sum_range_mul]

end BlockedSum
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.KI.R0Value.lean ====
import proofs.«128301_j8701603742430_2_alg».proof.Proof.Gen.KernelIdeal.Skeleton
import proofs.«128301_j8701603742430_2_alg».proof.Proof.KI.R0
import proofs.«128301_j8701603742430_2_alg».proof.Proof.LibPlainProduct
import proofs.«128301_j8701603742430_2_alg».proof.Proof.LibNarrowedProduct
import proofs.«128301_j8701603742430_2_alg».proof.Proof.LibBlockedSum
import proofs.«128301_j8701603742430_2_alg».proof.Proof.LibColumn
import proofs.«128301_j8701603742430_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The payloads of region 0's body read at an index, over the extended reals -/

/-- The kernel's contraction record is the plain product of a 5000 × 64 by a 64 × 64 matrix. -/
theorem dot0_plain : dot_S5000x64_S64x64_S5000x64_1_0_0_1_n_n = DotDims.plain 5000 64 64 := rfl

/-- A column sum of an `[a, b]` array (a reduction over axis 0 from the zero word), read at column `q`: the sum of the column. -/
theorem colSum0_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (q : Fin b) :
    multiReduction .add [0] ⟨1, ![b]⟩ src 0x00000000#32 h hφ hacc (ix1 q) = ∑ r : Fin a, src (ix2 r q) :=
  (Ideal.multiReduction_add_single src _ h hφ hacc (ix1 q)).trans
    (Finset.sum_congr rfl fun k _ => congrArg src (funext fun ax => Fin.ext (by
      match ax with
      | ⟨0, _⟩ => rfl
      | ⟨1, _⟩ => rfl)))

/-- The block of the first output at (p, q): the rectified affine map of row p of the two input blocks. -/
theorem pay0_4_at (x1 x2 : Vec Ideal S5000x64 .f32) (x3 : Vec Ideal S64x64 .f32) (x4 : Vec Ideal S1x64 .f32) (p : Fin 5000) (q : Fin 64) :
    k0_pay4 x1 x2 x3 x4 (ix2 p q)
      = max ((∑ k : Fin 64, (x1 (ix2 p k) + x2 (ix2 p k)) * x3 (ix2 k q)) + x4 (ix2 (0 : Fin 1) q)) 0 := by
  unfold k0_pay4
  rw [maximumf_apply, addf_apply, broadcast_apply]
  rw [PlainProduct.matmul_at _ dot0_plain none _ _ _ p q, constant_apply, broadcastTo_1b_ab_apply, shapeCast_self]
  rw [show (FloatOps.ofBits FTy.f32 0#32 : Ideal .f32) = 0 from Ideal.ofBits_zero_f32, Ideal.ofBits_zero_f32, zero_add]
  simp only [truncf_apply, addf_apply, shapeCast_self]

/-- The zero the accumulators start from. -/
theorem pay0_2_at (u : Fin 1) (q : Fin 64) : (k0_pay2 (F := Ideal)) (ix2 u q) = 0 := by
  unfold k0_pay2
  rw [shapeCast_self, broadcast_apply]
  exact Ideal.ofBits_zero_f32
theorem pay0_3_at (u : Fin 1) (q : Fin 64) : (k0_pay3 (F := Ideal)) (ix2 u q) = 0 := by
  unfold k0_pay3
  rw [shapeCast_self, broadcast_apply]
  exact Ideal.ofBits_zero_f32

/-- The first accumulator's new value at column q: the loaded value plus the column sum of the block. -/
theorem pay0_5_at (x1 x2 : Vec Ideal S5000x64 .f32) (x3 : Vec Ideal S64x64 .f32) (x4 : Vec Ideal S1x64 .f32) (v : Vec Ideal S1x64 .f32) (q : Fin 64) :
    k0_pay5 x1 x2 x3 x4 v (ix2 (0 : Fin 1) q) = v (ix2 (0 : Fin 1) q) + ∑ r : Fin 5000, k0_pay4 x1 x2 x3 x4 (ix2 r q) := by
  unfold k0_pay5
  rw [shapeCast_self, addf_apply, shapeCast_a_1a_apply]
  exact congrArg (v (ix2 (0 : Fin 1) q) + ·) (colSum0_apply (a := 5000) (b := 64) (k0_pay4 x1 x2 x3 x4) reduces_S5000x64_S64 _ _ q)

/-- The second accumulator's new value at column q: the loaded value plus the column sum of the block's squares. -/
theorem pay0_6_at (x1 x2 : Vec Ideal S5000x64 .f32) (x3 : Vec Ideal S64x64 .f32) (x4 : Vec Ideal S1x64 .f32) (v : Vec Ideal S1x64 .f32) (q : Fin 64) :
    k0_pay1 (k0_pay6 x1 x2 x3 x4 v) (ix2 (0 : Fin 1) q)
      = v (ix2 (0 : Fin 1) q) + ∑ r : Fin 5000, k0_pay4 x1 x2 x3 x4 (ix2 r q) * k0_pay4 x1 x2 x3 x4 (ix2 r q) := by
  unfold k0_pay1 k0_pay6
  rw [shapeCast_self, addf_apply, shapeCast_a_1a_apply]
  refine (congrArg (v (ix2 (0 : Fin 1) q) + ·) (colSum0_apply (a := 5000) (b := 64) (mulf (k0_pay4 x1 x2 x3 x4) (k0_pay4 x1 x2 x3 x4)) reduces_S5000x64_S64 _ _ q)).trans ?_
  simp only [mulf_apply]

/-! ## From blocks to arrays -/

variable (V : (c : Dev nD) → (b : Ref sig .tc) → Buf (Elt Ideal) ((c : Thread nD τ).loc b))

/-- The region's four input arrays as it finds them, at their literal index types. -/
abbrev arr0_0 (c : Dev nD) : S100000x64.Idx → EReal := V c main_arg0
abbrev arr0_1 (c : Dev nD) : S100000x64.Idx → EReal := V c main_v13
abbrev arr0_2 (c : Dev nD) : S64x64.Idx → EReal := V c main_arg2
abbrev arr0_3 (c : Dev nD) : S1x64.Idx → EReal := V c main_v14

/-- The rectified linear stage of the whole input arrays, on coordinates. -/
abbrev Z0 (a0 a1 : S100000x64.Idx → EReal) (a2 : S64x64.Idx → EReal) (a3 : S1x64.Idx → EReal) : Fin 100000 → Fin 64 → EReal :=
  GinSpec.relu (GinSpec.lin (GinSpec.onCoords a0) (GinSpec.onCoords a1) (GinSpec.onCoords a2) (GinSpec.rowVec a3))

/-- What the first output array ends holding, index by index. -/
abbrev G0_4 (a0 a1 : S100000x64.Idx → EReal) (a2 : S64x64.Idx → EReal) (a3 : S1x64.Idx → EReal) : S100000x64.Idx → EReal :=
  fun i => Z0 a0 a1 a2 a3 (i 0) (i 1)
/-- What the column-sum output ends holding. -/
abbrev G0_5 (a0 a1 : S100000x64.Idx → EReal) (a2 : S64x64.Idx → EReal) (a3 : S1x64.Idx → EReal) : S1x64.Idx → EReal :=
  fun i => GinSpec.colSum (Z0 a0 a1 a2 a3) (i 1)
/-- What the column-sum-of-squares output ends holding. -/
abbrev G0_6 (a0 a1 : S100000x64.Idx → EReal) (a2 : S64x64.Idx → EReal) (a3 : S1x64.Idx → EReal) : S1x64.Idx → EReal :=
  fun i => GinSpec.colSumSq (Z0 a0 a1 a2 a3) (i 1)

/-- The rectified linear stage at (r, q), its arrays read at `ix2` indices. -/
theorem Z0_at (a0 a1 : S100000x64.Idx → EReal) (a2 : S64x64.Idx → EReal) (a3 : S1x64.Idx → EReal) (r : Fin 100000) (q : Fin 64) :
    Z0 a0 a1 a2 a3 r q = max ((∑ k : Fin 64, (a0 (ix2 r k) + a1 (ix2 r k)) * a2 (ix2 k q)) + a3 (ix2 (0 : Fin 1) q)) 0 := by
  show max ((∑ k : Fin 64, (GinSpec.onCoords a0 r k + GinSpec.onCoords a1 r k) * GinSpec.onCoords a2 k q) + GinSpec.rowVec a3 q) 0 = _
  have h0 : ∀ k, GinSpec.onCoords a0 r k = a0 (ix2 r k) := fun k => congrArg a0 (funext fun d => by match d with | ⟨0, _⟩ => rfl | ⟨1, _⟩ => rfl)
  have h1 : ∀ k, GinSpec.onCoords a1 r k = a1 (ix2 r k) := fun k => congrArg a1 (funext fun d => by match d with | ⟨0, _⟩ => rfl | ⟨1, _⟩ => rfl)
  have h2 : ∀ k, GinSpec.onCoords a2 k q = a2 (ix2 k q) := fun k => congrArg a2 (funext fun d => by match d with | ⟨0, _⟩ => rfl | ⟨1, _⟩ => rfl)
  have h3 : GinSpec.rowVec a3 q = a3 (ix2 (0 : Fin 1) q) := congrArg a3 (funext fun d => by match d with | ⟨0, _⟩ => rfl | ⟨1, _⟩ => rfl)
  rw [h3]
  refine congrArg (fun s : EReal => max (s + a3 (ix2 (0 : Fin 1) q)) 0) (Finset.sum_congr rfl fun k _ => ?_)
  rw [h0 k, h1 k, h2 k]

/-- The printed index maps, decided over the grid: the row-blocked windows are at block `t`, the whole ones at block 0. -/
theorem idx0_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of block `t` of a row-blocked input is row `5000 t + p` of its array. -/
theorem iblk0_0_at (c : Dev nD) (t : Fin cfg0.N) (p : Fin 5000) (k : Fin 64) (hr : t.val * 5000 + p.val < 100000) :
    (iblk0 V c 0 t : Vec Ideal S5000x64 .f32) (ix2 p k) = arr0_0 V c (ix2 ⟨t.val * 5000 + p.val, hr⟩ k) := by
  obtain ⟨e0, e1, -⟩ := idx0_facts t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [e0]; omega
  | ⟨1, _⟩ => show win0_0.index t 1 * 64 + 1 * k.val = k.val; rw [e1]; omega
theorem iblk0_1_at (c : Dev nD) (t : Fin cfg0.N) (p : Fin 5000) (k : Fin 64) (hr : t.val * 5000 + p.val < 100000) :
    (iblk0 V c 1 t : Vec Ideal S5000x64 .f32) (ix2 p k) = arr0_1 V c (ix2 ⟨t.val * 5000 + p.val, hr⟩ k) := by
  obtain ⟨-, -, e0, e1, -⟩ := idx0_facts t
  unfold iblk0
  rw [View.read_apply]
  show V c main_v13 _ = V c main_v13 _
  congr 1
  funext a
  apply Fin.ext
  match a with
  | ⟨0, _⟩ => show win0_1.index t 0 * 5000 + 1 * p.val = t.val * 5000 + p.val; rw [e0]; omega
  | ⟨1, _⟩ => show win0_1.index t 1 * 64 + 1 * k.val = k.val; rw [e1]; omega
/-- The whole windows read their arrays. -/
theorem iblk0_2_at (c : Dev nD) (t : Fin cfg0.N) (k q : Fin 64) :
    (iblk0 V c 2 t : Vec Ideal S64x64 .f32) (ix2 k q) = arr0_2 V c (ix2 k q) := by
  obtain ⟨-, -, -, -, e0, e1, -⟩ := idx0_facts t
  unfold iblk0
  rw [View.read_apply]
  show V c main_arg2 _ = V c main_arg2 _
  congr 1
  funext a
  apply Fin.ext
  match a with
  | ⟨0, _⟩ => show win0_2.index t 0 * 64 + 1 * k.val = k.val; rw [e0]; omega
  | ⟨1, _⟩ => show win0_2.index t 1 * 64 + 1 * q.val = q.val; rw [e1]; omega
theorem iblk0_3_at (c : Dev nD) (t : Fin cfg0.N) (u : Fin 1) (q : Fin 64) :
    (iblk0 V c 3 t : Vec Ideal S1x64 .f32) (ix2 u q) = arr0_3 V c (ix2 u q) := by
  obtain ⟨-, -, -, -, -, -, e0, e1, -⟩ := idx0_facts t
  unfold iblk0
  rw [View.read_apply]
  show V c main_v14 _ = V c main_v14 _
  congr 1
  funext a
  apply Fin.ext
  match a with
  | ⟨0, _⟩ => show win0_3.index t 0 * 1 + 1 * u.val = u.val; rw [e0]; omega
  | ⟨1, _⟩ => show win0_3.index t 1 * 64 + 1 * q.val = q.val; rw [e1]; omega

/-- THE BLOCK: the body's first payload on the blocks of point `t`, at (p, q), is the rectified linear stage of the whole
    arrays at row `5000 t + p`. -/
theorem blk0_at (c : Dev nD) (t : Fin cfg0.N) (p : Fin 5000) (q : Fin 64) (hr : t.val * 5000 + p.val < 100000) :
    k0_pay4 (iblk0 V c 0 t) (iblk0 V c 1 t) (iblk0 V c 2 t) (iblk0 V c 3 t) (ix2 p q)
      = Z0 (arr0_0 V c) (arr0_1 V c) (arr0_2 V c) (arr0_3 V c) ⟨t.val * 5000 + p.val, hr⟩ q := by
  refine (pay0_4_at (iblk0 V c 0 t) (iblk0 V c 1 t) (iblk0 V c 2 t) (iblk0 V c 3 t) p q).trans ?_
  rw [Z0_at]
  rw [iblk0_3_at V c t 0 q]
  refine congrArg (fun s : EReal => max (s + arr0_3 V c (ix2 (0 : Fin 1) q)) 0) (Finset.sum_congr rfl fun k _ => ?_)
  rw [iblk0_0_at V c t p k hr, iblk0_1_at V c t p k hr, iblk0_2_at V c t k q]

set_option maxHeartbeats 400000 in
/-- WHAT POINT `t` WRITES BACK into the first output is block `t` of `G0_4` of the input arrays as the region finds them. -/
theorem flushed0_4_eq (c : Dev nD) (t : Fin cfg0.N) :
    (dat0 V c).flushed 4 t = ((cfg0.win 4).blk t).view.read (Elt Ideal) (G0_4 (arr0_0 V c) (arr0_1 V c) (arr0_2 V c) (arr0_3 V c)) := by
  have hN : t.val < 20 := lt_of_lt_of_eq t.isLt (show cfg0.N = 20 from N_0)
  obtain ⟨-, -, -, -, -, -, -, -, e0, e1, -⟩ := idx0_facts t
  show (cfg0.win 4).cut (grid0.coords t) ((dat0 V c).after 4 t) = _
  rw [after0_4]
  unfold out0_4
  rw [View.canon_unit_zero hz2_0]
  simp only [View.ld_unit_zero (S := S5000x64) hz2_0, View.ld_unit_zero (S := S64x64) hz2_0, View.ld_unit_zero (S := S1x64) hz2_0]
  funext j
  obtain ⟨p, q, rfl⟩ : ∃ (p : Fin 5000) (q : Fin 64), j = ix2 p q := ⟨j 0, j 1, eq_ix2 j⟩
  have hr : t.val * 5000 + p.val < 100000 := by have := p.isLt; omega
  refine (blk0_at V c t p q hr).trans ?_
  rw [View.read_apply]
  have he0 : (⟨t.val * 5000 + p.val, hr⟩ : Fin 100000) = (((View.whole main_v15_0).slice ((win0 4).rect t)).emb (ix2 p q)) 0 :=
    Fin.ext (by show t.val * 5000 + p.val = win0_4.index t 0 * 5000 + 1 * p.val; rw [e0]; omega)
  have he1 : q = (((View.whole main_v15_0).slice ((win0 4).rect t)).emb (ix2 p q)) 1 :=
    Fin.ext (by show q.val = win0_4.index t 1 * 64 + 1 * q.val; rw [e1]; omega)
  exact congrArg₂ (Z0 (arr0_0 V c) (arr0_1 V c) (arr0_2 V c) (arr0_3 V c)) he0 he1

/-- An index of the first output array is in point `t`'s block iff each coordinate is in the block's range on its axis. -/
theorem mem_blk0_4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v15_0).slice (win0_4.rect t)).set ↔ _
  rw [View.set_slice_whole, Rect.mem_set_unit]
  exact Iff.rfl

/-- Every index of the first output array is in the block of the point that holds its row. -/
theorem cover0_4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  have ht : (i 0).val / 5000 < cfg0.N := by omega
  obtain ⟨-, -, -, -, -, -, -, -, e0, e1, -⟩ := idx0_facts ⟨(i 0).val / 5000, ht⟩
  refine ⟨⟨(i 0).val / 5000, ht⟩, flush0_4 _, ?_⟩
  rw [mem_blk0_4]
  intro a
  match a with
  | ⟨0, _⟩ => show win0_4.index ⟨(i 0).val / 5000, ht⟩ 0 * 5000 ≤ (i 0).val ∧ (i 0).val < win0_4.index ⟨(i 0).val / 5000, ht⟩ 0 * 5000 + 5000; rw [e0]; dsimp only; omega
  | ⟨1, _⟩ => show win0_4.index ⟨(i 0).val / 5000, ht⟩ 1 * 64 ≤ (i 1).val ∧ (i 1).val < win0_4.index ⟨(i 0).val / 5000, ht⟩ 1 * 64 + 64; rw [e1]; omega

/-- THE FIRST OUTPUT ARRAY after the region: the rectified linear stage of the input arrays, index by index. -/
theorem final0_4 (c : Dev nD) : (dat0 V c).arrAt 4 cfg0.N
    = fun i => GinSpec.relu (GinSpec.lin (GinSpec.onCoords (V c main_arg0)) (GinSpec.onCoords (V c main_v13)) (GinSpec.onCoords (V c main_arg2)) (GinSpec.rowVec (V c main_v14))) (i 0) (i 1) :=
  (dat0 V c).arrAt_eq_of_cover 4 (G0_4 (arr0_0 V c) (arr0_1 V c) (arr0_2 V c) (arr0_3 V c)) (fun t _ => flushed0_4_eq V c t) (cover0_4)

end Cert.KernelIdeal.Hand
end
-- ==== Proof.KI.ValueLib.lean ====
/- Arrays read on coordinates, and the batch normalisation from the moments at the arrays' own indices: the small
   facts every value lemma of the normalisation regions uses. -/
import proofs.«128301_j8701603742430_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx

/-- The zero offsets of the bodies' rectangles, however spelt. -/
theorem hz2 : (![0, 0] : Fin 2 → Nat) = fun _ => 0 := funext fun a => by fin_cases a <;> rfl

/-- An array read on coordinates is the array at the index of those coordinates. -/
theorem onCoords_ix2 {a b : ℕ} (x : (⟨2, ![a, b]⟩ : Shape).Idx → EReal) (i : Fin a) (j : Fin b) :
    GinSpec.onCoords x i j = x (ix2 i j) := rfl
theorem rowVec_ix2 {b : ℕ} (x : (⟨2, ![1, b]⟩ : Shape).Idx → EReal) (j : Fin b) :
    GinSpec.rowVec x j = x (ix2 (0 : Fin 1) j) :=
  congrArg x (funext fun d => by match d with | ⟨0, _⟩ => rfl | ⟨1, _⟩ => rfl)

/-- The normalisation from the moments, of arrays read on coordinates, at the arrays' own indices. -/
theorem bnMoments_ix2 {a b : ℕ} (cnt eps : EReal) (r : (⟨2, ![a, b]⟩ : Shape).Idx → EReal)
    (s ss g sh : (⟨2, ![1, b]⟩ : Shape).Idx → EReal) (i : Fin a) (j : Fin b) :
    GinSpec.bnMoments cnt eps (GinSpec.onCoords r) (GinSpec.rowVec s) (GinSpec.rowVec ss) (GinSpec.rowVec g) (GinSpec.rowVec sh) i j
      = (r (ix2 i j) - Ideal.div (s (ix2 (0 : Fin 1) j)) cnt)
          * Ideal.rsqrt (max (Ideal.div (ss (ix2 (0 : Fin 1) j)) cnt - Ideal.div (s (ix2 (0 : Fin 1) j)) cnt * Ideal.div (s (ix2 (0 : Fin 1) j)) cnt) 0 + eps)
          * g (ix2 (0 : Fin 1) j) + sh (ix2 (0 : Fin 1) j) := by
  show (GinSpec.onCoords r i j - Ideal.div (GinSpec.rowVec s j) cnt)
      * Ideal.rsqrt (max (Ideal.div (GinSpec.rowVec ss j) cnt - Ideal.div (GinSpec.rowVec s j) cnt * Ideal.div (GinSpec.rowVec s j) cnt) 0 + eps)
      * GinSpec.rowVec g j + GinSpec.rowVec sh j = _
  rw [rowVec_ix2 s, rowVec_ix2 ss, rowVec_ix2 g, rowVec_ix2 sh, onCoords_ix2 r]

/-- The reciprocal square root of a vector, entry by entry. -/
theorem rsqrt_at {s : Shape} {φ : FTy} (a : FVec Ideal s φ) (i : s.Idx) : rsqrt a i = Ideal.rsqrt (a i) := rfl

end Cert.KernelIdeal.Hand
-- ==== Proof.KI.R1Value.lean ====
/- The value of region 1 at the extended reals: the output array after the region is the batch normalisation, from
   the two column moments, of the region's entry arrays, index by index. -/
import proofs.«128301_j8701603742430_2_alg».proof.Proof.KI.R1
import proofs.«128301_j8701603742430_2_alg».proof.Proof.KI.ValueLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Value
variable (V : (c : Dev nD) → (b : Ref sig .tc) → Buf (Elt Ideal) ((c : Thread nD τ).loc b))

/-! ## The payload at an index -/

/-- The stored block at row `p`, column `q`: the batch normalisation of the loaded block's entry there from the
    loaded moments, scale and shift at column `q`. -/
theorem pay1_at (v0 v4 : FVec Ideal S1x64 .f32) (v15 : FVec Ideal S5000x64 .f32) (v21 v25 : FVec Ideal S1x64 .f32) (p : Fin 5000) (q : Fin 64) :
    k1_pay1 (F := Ideal) v0 v4 v15 v21 v25 (ix2 p q)
      = GinSpec.bnMoments (Ideal.ofBits .f32 0x47C35000#32) (Ideal.ofBits .f32 0x3727C5AC#32)
          (GinSpec.onCoords v15) (GinSpec.rowVec v0) (GinSpec.rowVec v4) (GinSpec.rowVec v21) (GinSpec.rowVec v25) p q := by
  rw [bnMoments_ix2]
  unfold k1_pay1
  simp only [addf_apply, mulf_apply, subf_apply, divf_apply, maximumf_apply, broadcast_apply, shapeCast_self]
  simp only [broadcastTo_1b_ab_apply, addf_apply, mulf_apply, subf_apply, divf_apply, maximumf_apply, broadcast_apply, rsqrt_at]
  rw [show (FloatOps.ofBits (F := Ideal) FTy.f32 0x00000000#32 : EReal) = 0 from Ideal.ofBits_zero_f32]
  rfl

/-! ## The index maps, decided over the grid -/

/-- The printed index maps over the grid: the block of 5000 rows moves with the point, in the input and in the
    output alike; the four one-row windows stay at their one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array's values, window by window, at the literal shapes. -/
abbrev arr1_0 (c : Dev nD) : S100000x64.Idx → EReal := V c main_v15_0
abbrev arr1_1 (c : Dev nD) : S1x64.Idx → EReal := V c main_v15_1
abbrev arr1_2 (c : Dev nD) : S1x64.Idx → EReal := V c main_v15_2
abbrev arr1_3 (c : Dev nD) : S1x64.Idx → EReal := V c main_v20
abbrev arr1_4 (c : Dev nD) : S1x64.Idx → EReal := V c main_v21

/-- The region's output array as one function of its entry arrays: the batch normalisation from the moments. -/
def G1_5 (c : Dev nD) : S100000x64.Idx → EReal := fun i =>
  GinSpec.bnMoments (Ideal.ofBits .f32 0x47C35000#32) (Ideal.ofBits .f32 0x3727C5AC#32)
    (GinSpec.onCoords (arr1_0 V c)) (GinSpec.rowVec (arr1_1 V c)) (GinSpec.rowVec (arr1_2 V c))
    (GinSpec.rowVec (arr1_3 V c)) (GinSpec.rowVec (arr1_4 V c)) (i 0) (i 1)

/-- An element of the block of rows at point `t`, in the input window and in the output window, sits at row
    `t * 5000 + p`, column `q` of the array. -/
theorem emb1_0 (t : Fin cfg1.N) (p : Fin 5000) (q : Fin 64) :
    ((cfg1.win 0).blk t).view.emb (ix2 p q) = ((cfg1.win 5).blk t).view.emb (ix2 p q) := by
  obtain ⟨e00, e01, -, -, -, -, -, -, -, -, e50, e51⟩ := idx_facts1 t
  funext a; apply Fin.ext
  match a with
  | ⟨0, _⟩ => show win1_0.index t (0 : Fin 2) * 5000 + 1 * p.val = win1_5.index t (0 : Fin 2) * 5000 + 1 * p.val; omega
  | ⟨1, _⟩ => show win1_0.index t (1 : Fin 2) * 64 + 1 * q.val = win1_5.index t (1 : Fin 2) * 64 + 1 * q.val; omega

/-- and its column is `q`. -/
theorem emb1_5_col (t : Fin cfg1.N) (p : Fin 5000) (q : Fin 64) :
    ((((cfg1.win 5).blk t).view.emb (ix2 p q) : S100000x64.Idx) 1 : Fin 64) = q := by
  obtain ⟨-, -, -, -, -, -, -, -, -, -, e50, e51⟩ := idx_facts1 t
  apply Fin.ext
  show win1_5.index t (1 : Fin 2) * 64 + 1 * q.val = q.val; omega

/-- An element of a one-row window's block is the array's at the same column. -/
theorem emb1_1 (t : Fin cfg1.N) (q : Fin 64) : ((cfg1.win 1).blk t).view.emb (ix2 (0 : Fin 1) q) = (ix2 (0 : Fin 1) q : S1x64.Idx) := by
  obtain ⟨-, -, e10, e11, -, -, -, -, -, -, -, -⟩ := idx_facts1 t
  funext a; apply Fin.ext
  match a with
  | ⟨0, _⟩ => show win1_1.index t (0 : Fin 2) * 1 + 1 * 0 = 0; omega
  | ⟨1, _⟩ => show win1_1.index t (1 : Fin 2) * 64 + 1 * q.val = q.val; omega
theorem emb1_2 (t : Fin cfg1.N) (q : Fin 64) : ((cfg1.win 2).blk t).view.emb (ix2 (0 : Fin 1) q) = (ix2 (0 : Fin 1) q : S1x64.Idx) := by
  obtain ⟨-, -, -, -, e20, e21, -, -, -, -, -, -⟩ := idx_facts1 t
  funext a; apply Fin.ext
  match a with
  | ⟨0, _⟩ => show win1_2.index t (0 : Fin 2) * 1 + 1 * 0 = 0; omega
  | ⟨1, _⟩ => show win1_2.index t (1 : Fin 2) * 64 + 1 * q.val = q.val; omega
theorem emb1_3 (t : Fin cfg1.N) (q : Fin 64) : ((cfg1.win 3).blk t).view.emb (ix2 (0 : Fin 1) q) = (ix2 (0 : Fin 1) q : S1x64.Idx) := by
  obtain ⟨-, -, -, -, -, -, e30, e31, -, -, -, -⟩ := idx_facts1 t
  funext a; apply Fin.ext
  match a with
  | ⟨0, _⟩ => show win1_3.index t (0 : Fin 2) * 1 + 1 * 0 = 0; omega
  | ⟨1, _⟩ => show win1_3.index t (1 : Fin 2) * 64 + 1 * q.val = q.val; omega
theorem emb1_4 (t : Fin cfg1.N) (q : Fin 64) : ((cfg1.win 4).blk t).view.emb (ix2 (0 : Fin 1) q) = (ix2 (0 : Fin 1) q : S1x64.Idx) := by
  obtain ⟨-, -, -, -, -, -, -, -, e40, e41, -, -⟩ := idx_facts1 t
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-! ## What a point writes back -/

/-- What point `t` writes back is block `t` of `G1_5` of the arrays as the region finds them. -/
theorem flushed1_5_eq (c : Dev nD) (t : Fin cfg1.N) :
    (dat1 V c).flushed 5 t = ((cfg1.win 5).blk t).view.read (Elt Ideal) (G1_5 V c) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S1x64) hz2]
  funext j
  obtain ⟨p, q, rfl⟩ : ∃ (p : Fin 5000) (q : Fin 64), j = ix2 p q := ⟨j 0, j 1, eq_ix2 j⟩
  show k1_pay1 (F := Ideal) (iblk1 V c 1 t) (iblk1 V c 2 t) (iblk1 V c 0 t) (iblk1 V c 3 t) (iblk1 V c 4 t) (ix2 p q)
      = G1_5 V c (((cfg1.win 5).blk t).view.emb (ix2 p q))
  refine (pay1_at _ _ _ _ _ p q).trans ?_
  refine (bnMoments_ix2 _ _ _ _ _ _ _ p q).trans ?_
  refine Eq.trans ?_ (bnMoments_ix2 _ _ (arr1_0 V c) (arr1_1 V c) (arr1_2 V c) (arr1_3 V c) (arr1_4 V c) _ _).symm
  have h0 : iblk1 V c 0 t (ix2 p q) = arr1_0 V c (ix2 ((((cfg1.win 5).blk t).view.emb (ix2 p q) : S100000x64.Idx) 0) q) := by
    show arr1_0 V c (((cfg1.win 0).blk t).view.emb (ix2 p q)) = _
    rw [emb1_0]
    exact congrArg (arr1_0 V c) ((eq_ix2 (n0 := 100000) (n1 := 64) _).trans
      (congrArg (ix2 ((((cfg1.win 5).blk t).view.emb (ix2 p q) : S100000x64.Idx) 0)) (emb1_5_col t p q)))
  have h1 : iblk1 V c 1 t (ix2 (0 : Fin 1) q) = arr1_1 V c (ix2 (0 : Fin 1) q) := by
    show arr1_1 V c (((cfg1.win 1).blk t).view.emb (ix2 (0 : Fin 1) q)) = _
    rw [emb1_1]
  have h2 : iblk1 V c 2 t (ix2 (0 : Fin 1) q) = arr1_2 V c (ix2 (0 : Fin 1) q) := by
    show arr1_2 V c (((cfg1.win 2).blk t).view.emb (ix2 (0 : Fin 1) q)) = _
    rw [emb1_2]
  have h3 : iblk1 V c 3 t (ix2 (0 : Fin 1) q) = arr1_3 V c (ix2 (0 : Fin 1) q) := by
    show arr1_3 V c (((cfg1.win 3).blk t).view.emb (ix2 (0 : Fin 1) q)) = _
    rw [emb1_3]
  have h4 : iblk1 V c 4 t (ix2 (0 : Fin 1) q) = arr1_4 V c (ix2 (0 : Fin 1) q) := by
    show arr1_4 V c (((cfg1.win 4).blk t).view.emb (ix2 (0 : Fin 1) q)) = _
    rw [emb1_4]
  rw [emb1_5_col t p q, h0, h1, h2, h3, h4]

/-! ## The blocks cover the array -/

/-- An index of the array is in point `t`'s block iff each coordinate is in the block's range on its axis. -/
theorem mem_blk1_5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v22).slice (win1_5.rect t)).set ↔ _
  rw [View.set_slice_whole, Rect.mem_set_unit]
  exact Iff.rfl

/-- Every block of 5000 rows is some point's. -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- Every index of the array is in the block of the point that holds its row: row `r` is in block `r / 5000`. -/
theorem cover1_all (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-! ## The array after the region -/

/-- The output array after the region is `G1_5` of the region's entry arrays. -/
theorem final1_5_G (c : Dev nD) : (dat1 V c).arrAt 5 cfg1.N = G1_5 V c :=
  (dat1 V c).arrAt_eq_of_cover 5 (G1_5 V c) (fun t _ => flushed1_5_eq V c t) (cover1_all)

/-- The same, spelt out: the batch normalisation, from the moments, of the entry arrays, index by index. -/
theorem final1_5 (c : Dev nD) : (dat1 V c).arrAt 5 cfg1.N = fun i =>
    GinSpec.bnMoments (Ideal.ofBits .f32 0x47C35000#32) (Ideal.ofBits .f32 0x3727C5AC#32)
      (GinSpec.onCoords (V c main_v15_0)) (GinSpec.rowVec (V c main_v15_1)) (GinSpec.rowVec (V c main_v15_2))
      (GinSpec.rowVec (V c main_v20)) (GinSpec.rowVec (V c main_v21)) (i 0) (i 1) :=
  final1_5_G V c

end Value
end Cert.KernelIdeal.Hand
-- ==== Proof.KI.R2Value.lean ====
import proofs.«128301_j8701603742430_2_alg».proof.Proof.Gen.KernelIdeal.Skeleton
import proofs.«128301_j8701603742430_2_alg».proof.Proof.KI.R2
import proofs.«128301_j8701603742430_2_alg».proof.Proof.LibPlainProduct
import proofs.«128301_j8701603742430_2_alg».proof.Proof.LibNarrowedProduct
import proofs.«128301_j8701603742430_2_alg».proof.Proof.LibBlockedSum
import proofs.«128301_j8701603742430_2_alg».proof.Proof.LibColumn
import proofs.«128301_j8701603742430_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The payloads of region 2's body read at an index, over the extended reals -/

/-- The kernel's contraction record is the plain product of a 5000 × 64 by a 64 × 64 matrix. -/
theorem dot2_plain : dot_S5000x64_S64x64_S5000x64_1_0_0_1_n_n = DotDims.plain 5000 64 64 := rfl

/-- A column sum of an `[a, b]` array (a reduction over axis 0 from the zero word), read at column `q`: the sum of the column. -/
theorem colSum2_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (q : Fin b) :
    multiReduction .add [0] ⟨1, ![b]⟩ src 0x00000000#32 h hφ hacc (ix1 q) = ∑ r : Fin a, src (ix2 r q) :=
  (Ideal.multiReduction_add_single src _ h hφ hacc (ix1 q)).trans
    (Finset.sum_congr rfl fun k _ => congrArg src (funext fun ax => Fin.ext (by
      match ax with
      | ⟨0, _⟩ => rfl
      | ⟨1, _⟩ => rfl)))

/-- The block of the first output at (p, q): the rectified affine map of row p of the two input blocks. -/
theorem pay2_4_at (x1 x2 : Vec Ideal S5000x64 .f32) (x3 : Vec Ideal S64x64 .f32) (x4 : Vec Ideal S1x64 .f32) (p : Fin 5000) (q : Fin 64) :
    k2_pay4 x1 x2 x3 x4 (ix2 p q)
      = max ((∑ k : Fin 64, (x1 (ix2 p k) + x2 (ix2 p k)) * x3 (ix2 k q)) + x4 (ix2 (0 : Fin 1) q)) 0 := by
  unfold k2_pay4
  rw [maximumf_apply, addf_apply, broadcast_apply]
  rw [PlainProduct.matmul_at _ dot2_plain none _ _ _ p q, constant_apply, broadcastTo_1b_ab_apply, shapeCast_self]
  rw [show (FloatOps.ofBits FTy.f32 0#32 : Ideal .f32) = 0 from Ideal.ofBits_zero_f32, Ideal.ofBits_zero_f32, zero_add]
  simp only [truncf_apply, addf_apply, shapeCast_self]

/-- The zero the accumulators start from. -/
theorem pay2_2_at (u : Fin 1) (q : Fin 64) : (k2_pay2 (F := Ideal)) (ix2 u q) = 0 := by
  unfold k2_pay2
  rw [shapeCast_self, broadcast_apply]
  exact Ideal.ofBits_zero_f32
theorem pay2_3_at (u : Fin 1) (q : Fin 64) : (k2_pay3 (F := Ideal)) (ix2 u q) = 0 := by
  unfold k2_pay3
  rw [shapeCast_self, broadcast_apply]
  exact Ideal.ofBits_zero_f32

/-- The first accumulator's new value at column q: the loaded value plus the column sum of the block. -/
theorem pay2_5_at (x1 x2 : Vec Ideal S5000x64 .f32) (x3 : Vec Ideal S64x64 .f32) (x4 : Vec Ideal S1x64 .f32) (v : Vec Ideal S1x64 .f32) (q : Fin 64) :
    k2_pay5 x1 x2 x3 x4 v (ix2 (0 : Fin 1) q) = v (ix2 (0 : Fin 1) q) + ∑ r : Fin 5000, k2_pay4 x1 x2 x3 x4 (ix2 r q) := by
  unfold k2_pay5
  rw [shapeCast_self, addf_apply, shapeCast_a_1a_apply]
  exact congrArg (v (ix2 (0 : Fin 1) q) + ·) (colSum2_apply (a := 5000) (b := 64) (k2_pay4 x1 x2 x3 x4) reduces_S5000x64_S64 _ _ q)

/-- The second accumulator's new value at column q: the loaded value plus the column sum of the block's squares. -/
theorem pay2_6_at (x1 x2 : Vec Ideal S5000x64 .f32) (x3 : Vec Ideal S64x64 .f32) (x4 : Vec Ideal S1x64 .f32) (v : Vec Ideal S1x64 .f32) (q : Fin 64) :
    k2_pay1 (k2_pay6 x1 x2 x3 x4 v) (ix2 (0 : Fin 1) q)
      = v (ix2 (0 : Fin 1) q) + ∑ r : Fin 5000, k2_pay4 x1 x2 x3 x4 (ix2 r q) * k2_pay4 x1 x2 x3 x4 (ix2 r q) := by
  unfold k2_pay1 k2_pay6
  rw [shapeCast_self, addf_apply, shapeCast_a_1a_apply]
  refine (congrArg (v (ix2 (0 : Fin 1) q) + ·) (colSum2_apply (a := 5000) (b := 64) (mulf (k2_pay4 x1 x2 x3 x4) (k2_pay4 x1 x2 x3 x4)) reduces_S5000x64_S64 _ _ q)).trans ?_
  simp only [mulf_apply]

/-! ## From blocks to arrays -/

variable (V : (c : Dev nD) → (b : Ref sig .tc) → Buf (Elt Ideal) ((c : Thread nD τ).loc b))

/-- The region's four input arrays as it finds them, at their literal index types. -/
abbrev arr2_0 (c : Dev nD) : S100000x64.Idx → EReal := V c main_v22
abbrev arr2_1 (c : Dev nD) : S100000x64.Idx → EReal := V c main_v32
abbrev arr2_2 (c : Dev nD) : S64x64.Idx → EReal := V c main_v34
abbrev arr2_3 (c : Dev nD) : S1x64.Idx → EReal := V c main_v37

/-- The rectified linear stage of the whole input arrays, on coordinates. -/
abbrev Z2 (a0 a1 : S100000x64.Idx → EReal) (a2 : S64x64.Idx → EReal) (a3 : S1x64.Idx → EReal) : Fin 100000 → Fin 64 → EReal :=
  GinSpec.relu (GinSpec.lin (GinSpec.onCoords a0) (GinSpec.onCoords a1) (GinSpec.onCoords a2) (GinSpec.rowVec a3))

/-- What the first output array ends holding, index by index. -/
abbrev G2_4 (a0 a1 : S100000x64.Idx → EReal) (a2 : S64x64.Idx → EReal) (a3 : S1x64.Idx → EReal) : S100000x64.Idx → EReal :=
  fun i => Z2 a0 a1 a2 a3 (i 0) (i 1)
/-- What the column-sum output ends holding. -/
abbrev G2_5 (a0 a1 : S100000x64.Idx → EReal) (a2 : S64x64.Idx → EReal) (a3 : S1x64.Idx → EReal) : S1x64.Idx → EReal :=
  fun i => GinSpec.colSum (Z2 a0 a1 a2 a3) (i 1)
/-- What the column-sum-of-squares output ends holding. -/
abbrev G2_6 (a0 a1 : S100000x64.Idx → EReal) (a2 : S64x64.Idx → EReal) (a3 : S1x64.Idx → EReal) : S1x64.Idx → EReal :=
  fun i => GinSpec.colSumSq (Z2 a0 a1 a2 a3) (i 1)

/-- The rectified linear stage at (r, q), its arrays read at `ix2` indices. -/
theorem Z2_at (a0 a1 : S100000x64.Idx → EReal) (a2 : S64x64.Idx → EReal) (a3 : S1x64.Idx → EReal) (r : Fin 100000) (q : Fin 64) :
    Z2 a0 a1 a2 a3 r q = max ((∑ k : Fin 64, (a0 (ix2 r k) + a1 (ix2 r k)) * a2 (ix2 k q)) + a3 (ix2 (0 : Fin 1) q)) 0 := by
  show max ((∑ k : Fin 64, (GinSpec.onCoords a0 r k + GinSpec.onCoords a1 r k) * GinSpec.onCoords a2 k q) + GinSpec.rowVec a3 q) 0 = _
  have h0 : ∀ k, GinSpec.onCoords a0 r k = a0 (ix2 r k) := fun k => congrArg a0 (funext fun d => by match d with | ⟨0, _⟩ => rfl | ⟨1, _⟩ => rfl)
  have h1 : ∀ k, GinSpec.onCoords a1 r k = a1 (ix2 r k) := fun k => congrArg a1 (funext fun d => by match d with | ⟨0, _⟩ => rfl | ⟨1, _⟩ => rfl)
  have h2 : ∀ k, GinSpec.onCoords a2 k q = a2 (ix2 k q) := fun k => congrArg a2 (funext fun d => by match d with | ⟨0, _⟩ => rfl | ⟨1, _⟩ => rfl)
  have h3 : GinSpec.rowVec a3 q = a3 (ix2 (0 : Fin 1) q) := congrArg a3 (funext fun d => by match d with | ⟨0, _⟩ => rfl | ⟨1, _⟩ => rfl)
  rw [h3]
  refine congrArg (fun s : EReal => max (s + a3 (ix2 (0 : Fin 1) q)) 0) (Finset.sum_congr rfl fun k _ => ?_)
  rw [h0 k, h1 k, h2 k]

/-- The printed index maps, decided over the grid: the row-blocked windows are at block `t`, the whole ones at block 0. -/
theorem idx2_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row `p` of block `t` of a row-blocked input is row `5000 t + p` of its array. -/
theorem iblk2_0_at (c : Dev nD) (t : Fin cfg2.N) (p : Fin 5000) (k : Fin 64) (hr : t.val * 5000 + p.val < 100000) :
    (iblk2 V c 0 t : Vec Ideal S5000x64 .f32) (ix2 p k) = arr2_0 V c (ix2 ⟨t.val * 5000 + p.val, hr⟩ k) := by
  obtain ⟨e0, e1, -⟩ := idx2_facts t
  unfold iblk2
  rw [View.read_apply]
  show V c main_v22 _ = V c main_v22 _
  congr 1
  funext a
  apply Fin.ext
  match a with
  | ⟨0, _⟩ => show win2_0.index t 0 * 5000 + 1 * p.val = t.val * 5000 + p.val; rw [e0]; omega
  | ⟨1, _⟩ => show win2_0.index t 1 * 64 + 1 * k.val = k.val; rw [e1]; omega
theorem iblk2_1_at (c : Dev nD) (t : Fin cfg2.N) (p : Fin 5000) (k : Fin 64) (hr : t.val * 5000 + p.val < 100000) :
    (iblk2 V c 1 t : Vec Ideal S5000x64 .f32) (ix2 p k) = arr2_1 V c (ix2 ⟨t.val * 5000 + p.val, hr⟩ k) := by
  obtain ⟨-, -, e0, e1, -⟩ := idx2_facts t
  unfold iblk2
  rw [View.read_apply]
  show V c main_v32 _ = V c main_v32 _
  congr 1
  funext a
  apply Fin.ext
  match a with
  | ⟨0, _⟩ => show win2_1.index t 0 * 5000 + 1 * p.val = t.val * 5000 + p.val; rw [e0]; omega
  | ⟨1, _⟩ => show win2_1.index t 1 * 64 + 1 * k.val = k.val; rw [e1]; omega
/-- The whole windows read their arrays. -/
theorem iblk2_2_at (c : Dev nD) (t : Fin cfg2.N) (k q : Fin 64) :
    (iblk2 V c 2 t : Vec Ideal S64x64 .f32) (ix2 k q) = arr2_2 V c (ix2 k q) := by
  obtain ⟨-, -, -, -, e0, e1, -⟩ := idx2_facts t
  unfold iblk2
  rw [View.read_apply]
  show V c main_v34 _ = V c main_v34 _
  congr 1
  funext a
  apply Fin.ext
  match a with
  | ⟨0, _⟩ => show win2_2.index t 0 * 64 + 1 * k.val = k.val; rw [e0]; omega
  | ⟨1, _⟩ => show win2_2.index t 1 * 64 + 1 * q.val = q.val; rw [e1]; omega
theorem iblk2_3_at (c : Dev nD) (t : Fin cfg2.N) (u : Fin 1) (q : Fin 64) :
    (iblk2 V c 3 t : Vec Ideal S1x64 .f32) (ix2 u q) = arr2_3 V c (ix2 u q) := by
  obtain ⟨-, -, -, -, -, -, e0, e1, -⟩ := idx2_facts t
  unfold iblk2
  rw [View.read_apply]
  show V c main_v37 _ = V c main_v37 _
  congr 1
  funext a
  apply Fin.ext
  match a with
  | ⟨0, _⟩ => show win2_3.index t 0 * 1 + 1 * u.val = u.val; rw [e0]; omega
  | ⟨1, _⟩ => show win2_3.index t 1 * 64 + 1 * q.val = q.val; rw [e1]; omega

/-- THE BLOCK: the body's first payload on the blocks of point `t`, at (p, q), is the rectified linear stage of the whole
    arrays at row `5000 t + p`. -/
theorem blk2_at (c : Dev nD) (t : Fin cfg2.N) (p : Fin 5000) (q : Fin 64) (hr : t.val * 5000 + p.val < 100000) :
    k2_pay4 (iblk2 V c 0 t) (iblk2 V c 1 t) (iblk2 V c 2 t) (iblk2 V c 3 t) (ix2 p q)
      = Z2 (arr2_0 V c) (arr2_1 V c) (arr2_2 V c) (arr2_3 V c) ⟨t.val * 5000 + p.val, hr⟩ q := by
  refine (pay2_4_at (iblk2 V c 0 t) (iblk2 V c 1 t) (iblk2 V c 2 t) (iblk2 V c 3 t) p q).trans ?_
  rw [Z2_at]
  rw [iblk2_3_at V c t 0 q]
  refine congrArg (fun s : EReal => max (s + arr2_3 V c (ix2 (0 : Fin 1) q)) 0) (Finset.sum_congr rfl fun k _ => ?_)
  rw [iblk2_0_at V c t p k hr, iblk2_1_at V c t p k hr, iblk2_2_at V c t k q]

set_option maxHeartbeats 400000 in
/-- WHAT POINT `t` WRITES BACK into the first output is block `t` of `G2_4` of the input arrays as the region finds them. -/
theorem flushed2_4_eq (c : Dev nD) (t : Fin cfg2.N) :
    (dat2 V c).flushed 4 t = ((cfg2.win 4).blk t).view.read (Elt Ideal) (G2_4 (arr2_0 V c) (arr2_1 V c) (arr2_2 V c) (arr2_3 V c)) := by
  have hN : t.val < 20 := lt_of_lt_of_eq t.isLt (show cfg2.N = 20 from N_2)
  obtain ⟨-, -, -, -, -, -, -, -, e0, e1, -⟩ := idx2_facts t
  show (cfg2.win 4).cut (grid2.coords t) ((dat2 V c).after 4 t) = _
  rw [after2_4]
  unfold out2_4
  rw [View.canon_unit_zero hz2_2]
  simp only [View.ld_unit_zero (S := S5000x64) hz2_2, View.ld_unit_zero (S := S64x64) hz2_2, View.ld_unit_zero (S := S1x64) hz2_2]
  funext j
  obtain ⟨p, q, rfl⟩ : ∃ (p : Fin 5000) (q : Fin 64), j = ix2 p q := ⟨j 0, j 1, eq_ix2 j⟩
  have hr : t.val * 5000 + p.val < 100000 := by have := p.isLt; omega
  refine (blk2_at V c t p q hr).trans ?_
  rw [View.read_apply]
  have he0 : (⟨t.val * 5000 + p.val, hr⟩ : Fin 100000) = (((View.whole main_v38_0).slice ((win2 4).rect t)).emb (ix2 p q)) 0 :=
    Fin.ext (by show t.val * 5000 + p.val = win2_4.index t 0 * 5000 + 1 * p.val; rw [e0]; omega)
  have he1 : q = (((View.whole main_v38_0).slice ((win2 4).rect t)).emb (ix2 p q)) 1 :=
    Fin.ext (by show q.val = win2_4.index t 1 * 64 + 1 * q.val; rw [e1]; omega)
  exact congrArg₂ (Z2 (arr2_0 V c) (arr2_1 V c) (arr2_2 V c) (arr2_3 V c)) he0 he1

/-- An index of the first output array is in point `t`'s block iff each coordinate is in the block's range on its axis. -/
theorem mem_blk2_4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v38_0).slice (win2_4.rect t)).set ↔ _
  rw [View.set_slice_whole, Rect.mem_set_unit]
  exact Iff.rfl

/-- Every index of the first output array is in the block of the point that holds its row. -/
theorem cover2_4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  have ht : (i 0).val / 5000 < cfg2.N := by omega
  obtain ⟨-, -, -, -, -, -, -, -, e0, e1, -⟩ := idx2_facts ⟨(i 0).val / 5000, ht⟩
  refine ⟨⟨(i 0).val / 5000, ht⟩, flush2_4 _, ?_⟩
  rw [mem_blk2_4]
  intro a
  match a with
  | ⟨0, _⟩ => show win2_4.index ⟨(i 0).val / 5000, ht⟩ 0 * 5000 ≤ (i 0).val ∧ (i 0).val < win2_4.index ⟨(i 0).val / 5000, ht⟩ 0 * 5000 + 5000; rw [e0]; dsimp only; omega
  | ⟨1, _⟩ => show win2_4.index ⟨(i 0).val / 5000, ht⟩ 1 * 64 ≤ (i 1).val ∧ (i 1).val < win2_4.index ⟨(i 0).val / 5000, ht⟩ 1 * 64 + 64; rw [e1]; omega

/-- THE FIRST OUTPUT ARRAY after the region: the rectified linear stage of the input arrays, index by index. -/
theorem final2_4 (c : Dev nD) : (dat2 V c).arrAt 4 cfg2.N
    = fun i => GinSpec.relu (GinSpec.lin (GinSpec.onCoords (V c main_v22)) (GinSpec.onCoords (V c main_v32)) (GinSpec.onCoords (V c main_v34)) (GinSpec.rowVec (V c main_v37))) (i 0) (i 1) :=
  (dat2 V c).arrAt_eq_of_cover 4 (G2_4 (arr2_0 V c) (arr2_1 V c) (arr2_2 V c) (arr2_3 V c)) (fun t _ => flushed2_4_eq V c t) (cover2_4)

end Cert.KernelIdeal.Hand
end
-- ==== Proof.KI.R3Value.lean ====
/- The value of region 3 at the extended reals: the output array after the region is the batch normalisation, from
   the two column moments, of the region's entry arrays, index by index. -/
import proofs.«128301_j8701603742430_2_alg».proof.Proof.KI.R3
import proofs.«128301_j8701603742430_2_alg».proof.Proof.KI.ValueLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Value
variable (V : (c : Dev nD) → (b : Ref sig .tc) → Buf (Elt Ideal) ((c : Thread nD τ).loc b))

/-! ## The payload at an index -/

/-- The stored block at row `p`, column `q`: the batch normalisation of the loaded block's entry there from the
    loaded moments, scale and shift at column `q`. -/
theorem pay3_at (v0 v4 : FVec Ideal S1x64 .f32) (v15 : FVec Ideal S5000x64 .f32) (v21 v25 : FVec Ideal S1x64 .f32) (p : Fin 5000) (q : Fin 64) :
    k3_pay1 (F := Ideal) v0 v4 v15 v21 v25 (ix2 p q)
      = GinSpec.bnMoments (Ideal.ofBits .f32 0x47C35000#32) (Ideal.ofBits .f32 0x3727C5AC#32)
          (GinSpec.onCoords v15) (GinSpec.rowVec v0) (GinSpec.rowVec v4) (GinSpec.rowVec v21) (GinSpec.rowVec v25) p q := by
  rw [bnMoments_ix2]
  unfold k3_pay1
  simp only [addf_apply, mulf_apply, subf_apply, divf_apply, maximumf_apply, broadcast_apply, shapeCast_self]
  simp only [broadcastTo_1b_ab_apply, addf_apply, mulf_apply, subf_apply, divf_apply, maximumf_apply, broadcast_apply, rsqrt_at]
  rw [show (FloatOps.ofBits (F := Ideal) FTy.f32 0x00000000#32 : EReal) = 0 from Ideal.ofBits_zero_f32]
  rfl

/-! ## The index maps, decided over the grid -/

/-- The printed index maps over the grid: the block of 5000 rows moves with the point, in the input and in the
    output alike; the four one-row windows stay at their one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The array's values, window by window, at the literal shapes. -/
abbrev arr3_0 (c : Dev nD) : S100000x64.Idx → EReal := V c main_v38_0
abbrev arr3_1 (c : Dev nD) : S1x64.Idx → EReal := V c main_v38_1
abbrev arr3_2 (c : Dev nD) : S1x64.Idx → EReal := V c main_v38_2
abbrev arr3_3 (c : Dev nD) : S1x64.Idx → EReal := V c main_v43
abbrev arr3_4 (c : Dev nD) : S1x64.Idx → EReal := V c main_v44

/-- The region's output array as one function of its entry arrays: the batch normalisation from the moments. -/
def G3_5 (c : Dev nD) : S100000x64.Idx → EReal := fun i =>
  GinSpec.bnMoments (Ideal.ofBits .f32 0x47C35000#32) (Ideal.ofBits .f32 0x3727C5AC#32)
    (GinSpec.onCoords (arr3_0 V c)) (GinSpec.rowVec (arr3_1 V c)) (GinSpec.rowVec (arr3_2 V c))
    (GinSpec.rowVec (arr3_3 V c)) (GinSpec.rowVec (arr3_4 V c)) (i 0) (i 1)

/-- An element of the block of rows at point `t`, in the input window and in the output window, sits at row
    `t * 5000 + p`, column `q` of the array. -/
theorem emb3_0 (t : Fin cfg3.N) (p : Fin 5000) (q : Fin 64) :
    ((cfg3.win 0).blk t).view.emb (ix2 p q) = ((cfg3.win 5).blk t).view.emb (ix2 p q) := by
  obtain ⟨e00, e01, -, -, -, -, -, -, -, -, e50, e51⟩ := idx_facts3 t
  funext a; apply Fin.ext
  match a with
  | ⟨0, _⟩ => show win3_0.index t (0 : Fin 2) * 5000 + 1 * p.val = win3_5.index t (0 : Fin 2) * 5000 + 1 * p.val; omega
  | ⟨1, _⟩ => show win3_0.index t (1 : Fin 2) * 64 + 1 * q.val = win3_5.index t (1 : Fin 2) * 64 + 1 * q.val; omega

/-- and its column is `q`. -/
theorem emb3_5_col (t : Fin cfg3.N) (p : Fin 5000) (q : Fin 64) :
    ((((cfg3.win 5).blk t).view.emb (ix2 p q) : S100000x64.Idx) 1 : Fin 64) = q := by
  obtain ⟨-, -, -, -, -, -, -, -, -, -, e50, e51⟩ := idx_facts3 t
  apply Fin.ext
  show win3_5.index t (1 : Fin 2) * 64 + 1 * q.val = q.val; omega

/-- An element of a one-row window's block is the array's at the same column. -/
theorem emb3_1 (t : Fin cfg3.N) (q : Fin 64) : ((cfg3.win 1).blk t).view.emb (ix2 (0 : Fin 1) q) = (ix2 (0 : Fin 1) q : S1x64.Idx) := by
  obtain ⟨-, -, e10, e11, -, -, -, -, -, -, -, -⟩ := idx_facts3 t
  funext a; apply Fin.ext
  match a with
  | ⟨0, _⟩ => show win3_1.index t (0 : Fin 2) * 1 + 1 * 0 = 0; omega
  | ⟨1, _⟩ => show win3_1.index t (1 : Fin 2) * 64 + 1 * q.val = q.val; omega
theorem emb3_2 (t : Fin cfg3.N) (q : Fin 64) : ((cfg3.win 2).blk t).view.emb (ix2 (0 : Fin 1) q) = (ix2 (0 : Fin 1) q : S1x64.Idx) := by
  obtain ⟨-, -, -, -, e20, e21, -, -, -, -, -, -⟩ := idx_facts3 t
  funext a; apply Fin.ext
  match a with
  | ⟨0, _⟩ => show win3_2.index t (0 : Fin 2) * 1 + 1 * 0 = 0; omega
  | ⟨1, _⟩ => show win3_2.index t (1 : Fin 2) * 64 + 1 * q.val = q.val; omega
theorem emb3_3 (t : Fin cfg3.N) (q : Fin 64) : ((cfg3.win 3).blk t).view.emb (ix2 (0 : Fin 1) q) = (ix2 (0 : Fin 1) q : S1x64.Idx) := by
  obtain ⟨-, -, -, -, -, -, e30, e31, -, -, -, -⟩ := idx_facts3 t
  funext a; apply Fin.ext
  match a with
  | ⟨0, _⟩ => show win3_3.index t (0 : Fin 2) * 1 + 1 * 0 = 0; omega
  | ⟨1, _⟩ => show win3_3.index t (1 : Fin 2) * 64 + 1 * q.val = q.val; omega
theorem emb3_4 (t : Fin cfg3.N) (q : Fin 64) : ((cfg3.win 4).blk t).view.emb (ix2 (0 : Fin 1) q) = (ix2 (0 : Fin 1) q : S1x64.Idx) := by
  obtain ⟨-, -, -, -, -, -, -, -, e40, e41, -, -⟩ := idx_facts3 t
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-! ## What a point writes back -/

/-- What point `t` writes back is block `t` of `G3_5` of the arrays as the region finds them. -/
theorem flushed3_5_eq (c : Dev nD) (t : Fin cfg3.N) :
    (dat3 V c).flushed 5 t = ((cfg3.win 5).blk t).view.read (Elt Ideal) (G3_5 V c) := by
  show (cfg3.win 5).cut (grid3.coords t) ((dat3 V c).after 5 t) = _
  rw [after3_5]
  unfold out3_5
  rw [View.canon_unit_zero hz2]
  simp only [View.ld_unit_zero (S := S5000x64) hz2, View.ld_unit_zero (S := S1x64) hz2]
  funext j
  obtain ⟨p, q, rfl⟩ : ∃ (p : Fin 5000) (q : Fin 64), j = ix2 p q := ⟨j 0, j 1, eq_ix2 j⟩
  show k3_pay1 (F := Ideal) (iblk3 V c 1 t) (iblk3 V c 2 t) (iblk3 V c 0 t) (iblk3 V c 3 t) (iblk3 V c 4 t) (ix2 p q)
      = G3_5 V c (((cfg3.win 5).blk t).view.emb (ix2 p q))
  refine (pay3_at _ _ _ _ _ p q).trans ?_
  refine (bnMoments_ix2 _ _ _ _ _ _ _ p q).trans ?_
  refine Eq.trans ?_ (bnMoments_ix2 _ _ (arr3_0 V c) (arr3_1 V c) (arr3_2 V c) (arr3_3 V c) (arr3_4 V c) _ _).symm
  have h0 : iblk3 V c 0 t (ix2 p q) = arr3_0 V c (ix2 ((((cfg3.win 5).blk t).view.emb (ix2 p q) : S100000x64.Idx) 0) q) := by
    show arr3_0 V c (((cfg3.win 0).blk t).view.emb (ix2 p q)) = _
    rw [emb3_0]
    exact congrArg (arr3_0 V c) ((eq_ix2 (n0 := 100000) (n1 := 64) _).trans
      (congrArg (ix2 ((((cfg3.win 5).blk t).view.emb (ix2 p q) : S100000x64.Idx) 0)) (emb3_5_col t p q)))
  have h1 : iblk3 V c 1 t (ix2 (0 : Fin 1) q) = arr3_1 V c (ix2 (0 : Fin 1) q) := by
    show arr3_1 V c (((cfg3.win 1).blk t).view.emb (ix2 (0 : Fin 1) q)) = _
    rw [emb3_1]
  have h2 : iblk3 V c 2 t (ix2 (0 : Fin 1) q) = arr3_2 V c (ix2 (0 : Fin 1) q) := by
    show arr3_2 V c (((cfg3.win 2).blk t).view.emb (ix2 (0 : Fin 1) q)) = _
    rw [emb3_2]
  have h3 : iblk3 V c 3 t (ix2 (0 : Fin 1) q) = arr3_3 V c (ix2 (0 : Fin 1) q) := by
    show arr3_3 V c (((cfg3.win 3).blk t).view.emb (ix2 (0 : Fin 1) q)) = _
    rw [emb3_3]
  have h4 : iblk3 V c 4 t (ix2 (0 : Fin 1) q) = arr3_4 V c (ix2 (0 : Fin 1) q) := by
    show arr3_4 V c (((cfg3.win 4).blk t).view.emb (ix2 (0 : Fin 1) q)) = _
    rw [emb3_4]
  rw [emb3_5_col t p q, h0, h1, h2, h3, h4]

/-! ## The blocks cover the array -/

/-- An index of the array is in point `t`'s block iff each coordinate is in the block's range on its axis. -/
theorem mem_blk3_5 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v45).slice (win3_5.rect t)).set ↔ _
  rw [View.set_slice_whole, Rect.mem_set_unit]
  exact Iff.rfl

/-- Every block of 5000 rows is some point's. -/
theorem idx_onto3 : ∀ q0 : Fin 20, ∃ t : Fin cfg3.N, win3_5.index t = ![q0.val, 0] :=
  (by decide +kernel : ∀ q0 : Fin 20, ∃ t : Fin grid3.N, win3_5.index t = ![q0.val, 0])

/-- Every index of the array is in the block of the point that holds its row: row `r` is in block `r / 5000`. -/
theorem cover3_all (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-! ## The array after the region -/

/-- The output array after the region is `G3_5` of the region's entry arrays. -/
theorem final3_5_G (c : Dev nD) : (dat3 V c).arrAt 5 cfg3.N = G3_5 V c :=
  (dat3 V c).arrAt_eq_of_cover 5 (G3_5 V c) (fun t _ => flushed3_5_eq V c t) (cover3_all)

/-- The same, spelt out: the batch normalisation, from the moments, of the entry arrays, index by index. -/
theorem final3_5 (c : Dev nD) : (dat3 V c).arrAt 5 cfg3.N = fun i =>
    GinSpec.bnMoments (Ideal.ofBits .f32 0x47C35000#32) (Ideal.ofBits .f32 0x3727C5AC#32)
      (GinSpec.onCoords (V c main_v38_0)) (GinSpec.rowVec (V c main_v38_1)) (GinSpec.rowVec (V c main_v38_2))
      (GinSpec.rowVec (V c main_v43)) (GinSpec.rowVec (V c main_v44)) (i 0) (i 1) :=
  final3_5_G V c

end Value
end Cert.KernelIdeal.Hand
-- ==== Proof.KI.R4Value.lean ====
import proofs.«128301_j8701603742430_2_alg».proof.Proof.Gen.KernelIdeal.Skeleton
import proofs.«128301_j8701603742430_2_alg».proof.Proof.KI.R4
import proofs.«128301_j8701603742430_2_alg».proof.Proof.LibPlainProduct
import proofs.«128301_j8701603742430_2_alg».proof.Proof.LibNarrowedProduct
import proofs.«128301_j8701603742430_2_alg».proof.Proof.LibBlockedSum
import proofs.«128301_j8701603742430_2_alg».proof.Proof.LibColumn
import proofs.«128301_j8701603742430_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The payloads of region 4's body read at an index, over the extended reals -/

/-- The kernel's contraction record is the plain product of a 5000 × 64 by a 64 × 64 matrix. -/
theorem dot4_plain : dot_S5000x64_S64x64_S5000x64_1_0_0_1_n_n = DotDims.plain 5000 64 64 := rfl

/-- A column sum of an `[a, b]` array (a reduction over axis 0 from the zero word), read at column `q`: the sum of the column. -/
theorem colSum4_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (q : Fin b) :
    multiReduction .add [0] ⟨1, ![b]⟩ src 0x00000000#32 h hφ hacc (ix1 q) = ∑ r : Fin a, src (ix2 r q) :=
  (Ideal.multiReduction_add_single src _ h hφ hacc (ix1 q)).trans
    (Finset.sum_congr rfl fun k _ => congrArg src (funext fun ax => Fin.ext (by
      match ax with
      | ⟨0, _⟩ => rfl
      | ⟨1, _⟩ => rfl)))

/-- The block of the first output at (p, q): the rectified affine map of row p of the two input blocks. -/
theorem pay4_4_at (x1 x2 : Vec Ideal S5000x64 .f32) (x3 : Vec Ideal S64x64 .f32) (x4 : Vec Ideal S1x64 .f32) (p : Fin 5000) (q : Fin 64) :
    k4_pay4 x1 x2 x3 x4 (ix2 p q)
      = max ((∑ k : Fin 64, (x1 (ix2 p k) + x2 (ix2 p k)) * x3 (ix2 k q)) + x4 (ix2 (0 : Fin 1) q)) 0 := by
  unfold k4_pay4
  rw [maximumf_apply, addf_apply, broadcast_apply]
  rw [PlainProduct.matmul_at _ dot4_plain none _ _ _ p q, constant_apply, broadcastTo_1b_ab_apply, shapeCast_self]
  rw [show (FloatOps.ofBits FTy.f32 0#32 : Ideal .f32) = 0 from Ideal.ofBits_zero_f32, Ideal.ofBits_zero_f32, zero_add]
  simp only [truncf_apply, addf_apply, shapeCast_self]

/-- The zero the accumulators start from. -/
theorem pay4_2_at (u : Fin 1) (q : Fin 64) : (k4_pay2 (F := Ideal)) (ix2 u q) = 0 := by
  unfold k4_pay2
  rw [shapeCast_self, broadcast_apply]
  exact Ideal.ofBits_zero_f32
theorem pay4_3_at (u : Fin 1) (q : Fin 64) : (k4_pay3 (F := Ideal)) (ix2 u q) = 0 := by
  unfold k4_pay3
  rw [shapeCast_self, broadcast_apply]
  exact Ideal.ofBits_zero_f32

/-- The first accumulator's new value at column q: the loaded value plus the column sum of the block. -/
theorem pay4_5_at (x1 x2 : Vec Ideal S5000x64 .f32) (x3 : Vec Ideal S64x64 .f32) (x4 : Vec Ideal S1x64 .f32) (v : Vec Ideal S1x64 .f32) (q : Fin 64) :
    k4_pay5 x1 x2 x3 x4 v (ix2 (0 : Fin 1) q) = v (ix2 (0 : Fin 1) q) + ∑ r : Fin 5000, k4_pay4 x1 x2 x3 x4 (ix2 r q) := by
  unfold k4_pay5
  rw [shapeCast_self, addf_apply, shapeCast_a_1a_apply]
  exact congrArg (v (ix2 (0 : Fin 1) q) + ·) (colSum4_apply (a := 5000) (b := 64) (k4_pay4 x1 x2 x3 x4) reduces_S5000x64_S64 _ _ q)

/-- The second accumulator's new value at column q: the loaded value plus the column sum of the block's squares. -/
theorem pay4_6_at (x1 x2 : Vec Ideal S5000x64 .f32) (x3 : Vec Ideal S64x64 .f32) (x4 : Vec Ideal S1x64 .f32) (v : Vec Ideal S1x64 .f32) (q : Fin 64) :
    k4_pay1 (k4_pay6 x1 x2 x3 x4 v) (ix2 (0 : Fin 1) q)
      = v (ix2 (0 : Fin 1) q) + ∑ r : Fin 5000, k4_pay4 x1 x2 x3 x4 (ix2 r q) * k4_pay4 x1 x2 x3 x4 (ix2 r q) := by
  unfold k4_pay1 k4_pay6
  rw [shapeCast_self, addf_apply, shapeCast_a_1a_apply]
  refine (congrArg (v (ix2 (0 : Fin 1) q) + ·) (colSum4_apply (a := 5000) (b := 64) (mulf (k4_pay4 x1 x2 x3 x4) (k4_pay4 x1 x2 x3 x4)) reduces_S5000x64_S64 _ _ q)).trans ?_
  simp only [mulf_apply]

/-! ## From blocks to arrays -/

variable (V : (c : Dev nD) → (b : Ref sig .tc) → Buf (Elt Ideal) ((c : Thread nD τ).loc b))

/-- The region's four input arrays as it finds them, at their literal index types. -/
abbrev arr4_0 (c : Dev nD) : S100000x64.Idx → EReal := V c main_v45
abbrev arr4_1 (c : Dev nD) : S100000x64.Idx → EReal := V c main_v55
abbrev arr4_2 (c : Dev nD) : S64x64.Idx → EReal := V c main_v57
abbrev arr4_3 (c : Dev nD) : S1x64.Idx → EReal := V c main_v60

/-- The rectified linear stage of the whole input arrays, on coordinates. -/
abbrev Z4 (a0 a1 : S100000x64.Idx → EReal) (a2 : S64x64.Idx → EReal) (a3 : S1x64.Idx → EReal) : Fin 100000 → Fin 64 → EReal :=
  GinSpec.relu (GinSpec.lin (GinSpec.onCoords a0) (GinSpec.onCoords a1) (GinSpec.onCoords a2) (GinSpec.rowVec a3))

/-- What the first output array ends holding, index by index. -/
abbrev G4_4 (a0 a1 : S100000x64.Idx → EReal) (a2 : S64x64.Idx → EReal) (a3 : S1x64.Idx → EReal) : S100000x64.Idx → EReal :=
  fun i => Z4 a0 a1 a2 a3 (i 0) (i 1)
/-- What the column-sum output ends holding. -/
abbrev G4_5 (a0 a1 : S100000x64.Idx → EReal) (a2 : S64x64.Idx → EReal) (a3 : S1x64.Idx → EReal) : S1x64.Idx → EReal :=
  fun i => GinSpec.colSum (Z4 a0 a1 a2 a3) (i 1)
/-- What the column-sum-of-squares output ends holding. -/
abbrev G4_6 (a0 a1 : S100000x64.Idx → EReal) (a2 : S64x64.Idx → EReal) (a3 : S1x64.Idx → EReal) : S1x64.Idx → EReal :=
  fun i => GinSpec.colSumSq (Z4 a0 a1 a2 a3) (i 1)

/-- The rectified linear stage at (r, q), its arrays read at `ix2` indices. -/
theorem Z4_at (a0 a1 : S100000x64.Idx → EReal) (a2 : S64x64.Idx → EReal) (a3 : S1x64.Idx → EReal) (r : Fin 100000) (q : Fin 64) :
    Z4 a0 a1 a2 a3 r q = max ((∑ k : Fin 64, (a0 (ix2 r k) + a1 (ix2 r k)) * a2 (ix2 k q)) + a3 (ix2 (0 : Fin 1) q)) 0 := by
  show max ((∑ k : Fin 64, (GinSpec.onCoords a0 r k + GinSpec.onCoords a1 r k) * GinSpec.onCoords a2 k q) + GinSpec.rowVec a3 q) 0 = _
  have h0 : ∀ k, GinSpec.onCoords a0 r k = a0 (ix2 r k) := fun k => congrArg a0 (funext fun d => by match d with | ⟨0, _⟩ => rfl | ⟨1, _⟩ => rfl)
  have h1 : ∀ k, GinSpec.onCoords a1 r k = a1 (ix2 r k) := fun k => congrArg a1 (funext fun d => by match d with | ⟨0, _⟩ => rfl | ⟨1, _⟩ => rfl)
  have h2 : ∀ k, GinSpec.onCoords a2 k q = a2 (ix2 k q) := fun k => congrArg a2 (funext fun d => by match d with | ⟨0, _⟩ => rfl | ⟨1, _⟩ => rfl)
  have h3 : GinSpec.rowVec a3 q = a3 (ix2 (0 : Fin 1) q) := congrArg a3 (funext fun d => by match d with | ⟨0, _⟩ => rfl | ⟨1, _⟩ => rfl)
  rw [h3]
  refine congrArg (fun s : EReal => max (s + a3 (ix2 (0 : Fin 1) q)) 0) (Finset.sum_congr rfl fun k _ => ?_)
  rw [h0 k, h1 k, h2 k]

/-- The printed index maps, decided over the grid: the row-blocked windows are at block `t`, the whole ones at block 0. -/
theorem idx4_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Row `p` of block `t` of a row-blocked input is row `5000 t + p` of its array. -/
theorem iblk4_0_at (c : Dev nD) (t : Fin cfg4.N) (p : Fin 5000) (k : Fin 64) (hr : t.val * 5000 + p.val < 100000) :
    (iblk4 V c 0 t : Vec Ideal S5000x64 .f32) (ix2 p k) = arr4_0 V c (ix2 ⟨t.val * 5000 + p.val, hr⟩ k) := by
  obtain ⟨e0, e1, -⟩ := idx4_facts t
  unfold iblk4
  rw [View.read_apply]
  show V c main_v45 _ = V c main_v45 _
  congr 1
  funext a
  apply Fin.ext
  match a with
  | ⟨0, _⟩ => show win4_0.index t 0 * 5000 + 1 * p.val = t.val * 5000 + p.val; rw [e0]; omega
  | ⟨1, _⟩ => show win4_0.index t 1 * 64 + 1 * k.val = k.val; rw [e1]; omega
theorem iblk4_1_at (c : Dev nD) (t : Fin cfg4.N) (p : Fin 5000) (k : Fin 64) (hr : t.val * 5000 + p.val < 100000) :
    (iblk4 V c 1 t : Vec Ideal S5000x64 .f32) (ix2 p k) = arr4_1 V c (ix2 ⟨t.val * 5000 + p.val, hr⟩ k) := by
  obtain ⟨-, -, e0, e1, -⟩ := idx4_facts t
  unfold iblk4
  rw [View.read_apply]
  show V c main_v55 _ = V c main_v55 _
  congr 1
  funext a
  apply Fin.ext
  match a with
  | ⟨0, _⟩ => show win4_1.index t 0 * 5000 + 1 * p.val = t.val * 5000 + p.val; rw [e0]; omega
  | ⟨1, _⟩ => show win4_1.index t 1 * 64 + 1 * k.val = k.val; rw [e1]; omega
/-- The whole windows read their arrays. -/
theorem iblk4_2_at (c : Dev nD) (t : Fin cfg4.N) (k q : Fin 64) :
    (iblk4 V c 2 t : Vec Ideal S64x64 .f32) (ix2 k q) = arr4_2 V c (ix2 k q) := by
  obtain ⟨-, -, -, -, e0, e1, -⟩ := idx4_facts t
  unfold iblk4
  rw [View.read_apply]
  show V c main_v57 _ = V c main_v57 _
  congr 1
  funext a
  apply Fin.ext
  match a with
  | ⟨0, _⟩ => show win4_2.index t 0 * 64 + 1 * k.val = k.val; rw [e0]; omega
  | ⟨1, _⟩ => show win4_2.index t 1 * 64 + 1 * q.val = q.val; rw [e1]; omega
theorem iblk4_3_at (c : Dev nD) (t : Fin cfg4.N) (u : Fin 1) (q : Fin 64) :
    (iblk4 V c 3 t : Vec Ideal S1x64 .f32) (ix2 u q) = arr4_3 V c (ix2 u q) := by
  obtain ⟨-, -, -, -, -, -, e0, e1, -⟩ := idx4_facts t
  unfold iblk4
  rw [View.read_apply]
  show V c main_v60 _ = V c main_v60 _
  congr 1
  funext a
  apply Fin.ext
  match a with
  | ⟨0, _⟩ => show win4_3.index t 0 * 1 + 1 * u.val = u.val; rw [e0]; omega
  | ⟨1, _⟩ => show win4_3.index t 1 * 64 + 1 * q.val = q.val; rw [e1]; omega

/-- THE BLOCK: the body's first payload on the blocks of point `t`, at (p, q), is the rectified linear stage of the whole
    arrays at row `5000 t + p`. -/
theorem blk4_at (c : Dev nD) (t : Fin cfg4.N) (p : Fin 5000) (q : Fin 64) (hr : t.val * 5000 + p.val < 100000) :
    k4_pay4 (iblk4 V c 0 t) (iblk4 V c 1 t) (iblk4 V c 2 t) (iblk4 V c 3 t) (ix2 p q)
      = Z4 (arr4_0 V c) (arr4_1 V c) (arr4_2 V c) (arr4_3 V c) ⟨t.val * 5000 + p.val, hr⟩ q := by
  refine (pay4_4_at (iblk4 V c 0 t) (iblk4 V c 1 t) (iblk4 V c 2 t) (iblk4 V c 3 t) p q).trans ?_
  rw [Z4_at]
  rw [iblk4_3_at V c t 0 q]
  refine congrArg (fun s : EReal => max (s + arr4_3 V c (ix2 (0 : Fin 1) q)) 0) (Finset.sum_congr rfl fun k _ => ?_)
  rw [iblk4_0_at V c t p k hr, iblk4_1_at V c t p k hr, iblk4_2_at V c t k q]

set_option maxHeartbeats 400000 in
/-- WHAT POINT `t` WRITES BACK into the first output is block `t` of `G4_4` of the input arrays as the region finds them. -/
theorem flushed4_4_eq (c : Dev nD) (t : Fin cfg4.N) :
    (dat4 V c).flushed 4 t = ((cfg4.win 4).blk t).view.read (Elt Ideal) (G4_4 (arr4_0 V c) (arr4_1 V c) (arr4_2 V c) (arr4_3 V c)) := by
  have hN : t.val < 20 := lt_of_lt_of_eq t.isLt (show cfg4.N = 20 from N_4)
  obtain ⟨-, -, -, -, -, -, -, -, e0, e1, -⟩ := idx4_facts t
  show (cfg4.win 4).cut (grid4.coords t) ((dat4 V c).after 4 t) = _
  rw [after4_4]
  unfold out4_4
  rw [View.canon_unit_zero hz2_4]
  simp only [View.ld_unit_zero (S := S5000x64) hz2_4, View.ld_unit_zero (S := S64x64) hz2_4, View.ld_unit_zero (S := S1x64) hz2_4]
  funext j
  obtain ⟨p, q, rfl⟩ : ∃ (p : Fin 5000) (q : Fin 64), j = ix2 p q := ⟨j 0, j 1, eq_ix2 j⟩
  have hr : t.val * 5000 + p.val < 100000 := by have := p.isLt; omega
  refine (blk4_at V c t p q hr).trans ?_
  rw [View.read_apply]
  have he0 : (⟨t.val * 5000 + p.val, hr⟩ : Fin 100000) = (((View.whole main_v61_0).slice ((win4 4).rect t)).emb (ix2 p q)) 0 :=
    Fin.ext (by show t.val * 5000 + p.val = win4_4.index t 0 * 5000 + 1 * p.val; rw [e0]; omega)
  have he1 : q = (((View.whole main_v61_0).slice ((win4 4).rect t)).emb (ix2 p q)) 1 :=
    Fin.ext (by show q.val = win4_4.index t 1 * 64 + 1 * q.val; rw [e1]; omega)
  exact congrArg₂ (Z4 (arr4_0 V c) (arr4_1 V c) (arr4_2 V c) (arr4_3 V c)) he0 he1

/-- An index of the first output array is in point `t`'s block iff each coordinate is in the block's range on its axis. -/
theorem mem_blk4_4 (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v61_0).slice (win4_4.rect t)).set ↔ _
  rw [View.set_slice_whole, Rect.mem_set_unit]
  exact Iff.rfl

/-- Every index of the first output array is in the block of the point that holds its row. -/
theorem cover4_4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 20 := N_4
  have ht : (i 0).val / 5000 < cfg4.N := by omega
  obtain ⟨-, -, -, -, -, -, -, -, e0, e1, -⟩ := idx4_facts ⟨(i 0).val / 5000, ht⟩
  refine ⟨⟨(i 0).val / 5000, ht⟩, flush4_4 _, ?_⟩
  rw [mem_blk4_4]
  intro a
  match a with
  | ⟨0, _⟩ => show win4_4.index ⟨(i 0).val / 5000, ht⟩ 0 * 5000 ≤ (i 0).val ∧ (i 0).val < win4_4.index ⟨(i 0).val / 5000, ht⟩ 0 * 5000 + 5000; rw [e0]; dsimp only; omega
  | ⟨1, _⟩ => show win4_4.index ⟨(i 0).val / 5000, ht⟩ 1 * 64 ≤ (i 1).val ∧ (i 1).val < win4_4.index ⟨(i 0).val / 5000, ht⟩ 1 * 64 + 64; rw [e1]; omega

/-- THE FIRST OUTPUT ARRAY after the region: the rectified linear stage of the input arrays, index by index. -/
theorem final4_4 (c : Dev nD) : (dat4 V c).arrAt 4 cfg4.N
    = fun i => GinSpec.relu (GinSpec.lin (GinSpec.onCoords (V c main_v45)) (GinSpec.onCoords (V c main_v55)) (GinSpec.onCoords (V c main_v57)) (GinSpec.rowVec (V c main_v60))) (i 0) (i 1) :=
  (dat4 V c).arrAt_eq_of_cover 4 (G4_4 (arr4_0 V c) (arr4_1 V c) (arr4_2 V c) (arr4_3 V c)) (fun t _ => flushed4_4_eq V c t) (cover4_4)

end Cert.KernelIdeal.Hand
end
-- ==== Proof.KI.R5Value.lean ====
/- The value of region 5 at the extended reals: the output array after the region is the batch normalisation, from
   the two column moments, of the region's entry arrays, index by index. -/
import proofs.«128301_j8701603742430_2_alg».proof.Proof.KI.R5
import proofs.«128301_j8701603742430_2_alg».proof.Proof.KI.ValueLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Value
variable (V : (c : Dev nD) → (b : Ref sig .tc) → Buf (Elt Ideal) ((c : Thread nD τ).loc b))

/-! ## The payload at an index -/

/-- The stored block at row `p`, column `q`: the batch normalisation of the loaded block's entry there from the
    loaded moments, scale and shift at column `q`. -/
theorem pay5_at (v0 v4 : FVec Ideal S1x64 .f32) (v15 : FVec Ideal S5000x64 .f32) (v21 v25 : FVec Ideal S1x64 .f32) (p : Fin 5000) (q : Fin 64) :
    k5_pay1 (F := Ideal) v0 v4 v15 v21 v25 (ix2 p q)
      = GinSpec.bnMoments (Ideal.ofBits .f32 0x47C35000#32) (Ideal.ofBits .f32 0x3727C5AC#32)
          (GinSpec.onCoords v15) (GinSpec.rowVec v0) (GinSpec.rowVec v4) (GinSpec.rowVec v21) (GinSpec.rowVec v25) p q := by
  rw [bnMoments_ix2]
  unfold k5_pay1
  simp only [addf_apply, mulf_apply, subf_apply, divf_apply, maximumf_apply, broadcast_apply, shapeCast_self]
  simp only [broadcastTo_1b_ab_apply, addf_apply, mulf_apply, subf_apply, divf_apply, maximumf_apply, broadcast_apply, rsqrt_at]
  rw [show (FloatOps.ofBits (F := Ideal) FTy.f32 0x00000000#32 : EReal) = 0 from Ideal.ofBits_zero_f32]
  rfl

/-! ## The index maps, decided over the grid -/

/-- The printed index maps over the grid: the block of 5000 rows moves with the point, in the input and in the
    output alike; the four one-row windows stay at their one block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The array's values, window by window, at the literal shapes. -/
abbrev arr5_0 (c : Dev nD) : S100000x64.Idx → EReal := V c main_v61_0
abbrev arr5_1 (c : Dev nD) : S1x64.Idx → EReal := V c main_v61_1
abbrev arr5_2 (c : Dev nD) : S1x64.Idx → EReal := V c main_v61_2
abbrev arr5_3 (c : Dev nD) : S1x64.Idx → EReal := V c main_v66
abbrev arr5_4 (c : Dev nD) : S1x64.Idx → EReal := V c main_v67

/-- The region's output array as one function of its entry arrays: the batch normalisation from the moments. -/
def G5_5 (c : Dev nD) : S100000x64.Idx → EReal := fun i =>
  GinSpec.bnMoments (Ideal.ofBits .f32 0x47C35000#32) (Ideal.ofBits .f32 0x3727C5AC#32)
    (GinSpec.onCoords (arr5_0 V c)) (GinSpec.rowVec (arr5_1 V c)) (GinSpec.rowVec (arr5_2 V c))
    (GinSpec.rowVec (arr5_3 V c)) (GinSpec.rowVec (arr5_4 V c)) (i 0) (i 1)

/-- An element of the block of rows at point `t`, in the input window and in the output window, sits at row
    `t * 5000 + p`, column `q` of the array. -/
theorem emb5_0 (t : Fin cfg5.N) (p : Fin 5000) (q : Fin 64) :
    ((cfg5.win 0).blk t).view.emb (ix2 p q) = ((cfg5.win 5).blk t).view.emb (ix2 p q) := by
  obtain ⟨e00, e01, -, -, -, -, -, -, -, -, e50, e51⟩ := idx_facts5 t
  funext a; apply Fin.ext
  match a with
  | ⟨0, _⟩ => show win5_0.index t (0 : Fin 2) * 5000 + 1 * p.val = win5_5.index t (0 : Fin 2) * 5000 + 1 * p.val; omega
  | ⟨1, _⟩ => show win5_0.index t (1 : Fin 2) * 64 + 1 * q.val = win5_5.index t (1 : Fin 2) * 64 + 1 * q.val; omega

/-- and its column is `q`. -/
theorem emb5_5_col (t : Fin cfg5.N) (p : Fin 5000) (q : Fin 64) :
    ((((cfg5.win 5).blk t).view.emb (ix2 p q) : S100000x64.Idx) 1 : Fin 64) = q := by
  obtain ⟨-, -, -, -, -, -, -, -, -, -, e50, e51⟩ := idx_facts5 t
  apply Fin.ext
  show win5_5.index t (1 : Fin 2) * 64 + 1 * q.val = q.val; omega

/-- An element of a one-row window's block is the array's at the same column. -/
theorem emb5_1 (t : Fin cfg5.N) (q : Fin 64) : ((cfg5.win 1).blk t).view.emb (ix2 (0 : Fin 1) q) = (ix2 (0 : Fin 1) q : S1x64.Idx) := by
  obtain ⟨-, -, e10, e11, -, -, -, -, -, -, -, -⟩ := idx_facts5 t
  funext a; apply Fin.ext
  match a with
  | ⟨0, _⟩ => show win5_1.index t (0 : Fin 2) * 1 + 1 * 0 = 0; omega
  | ⟨1, _⟩ => show win5_1.index t (1 : Fin 2) * 64 + 1 * q.val = q.val; omega
theorem emb5_2 (t : Fin cfg5.N) (q : Fin 64) : ((cfg5.win 2).blk t).view.emb (ix2 (0 : Fin 1) q) = (ix2 (0 : Fin 1) q : S1x64.Idx) := by
  obtain ⟨-, -, -, -, e20, e21, -, -, -, -, -, -⟩ := idx_facts5 t
  funext a; apply Fin.ext
  match a with
  | ⟨0, _⟩ => show win5_2.index t (0 : Fin 2) * 1 + 1 * 0 = 0; omega
  | ⟨1, _⟩ => show win5_2.index t (1 : Fin 2) * 64 + 1 * q.val = q.val; omega
theorem emb5_3 (t : Fin cfg5.N) (q : Fin 64) : ((cfg5.win 3).blk t).view.emb (ix2 (0 : Fin 1) q) = (ix2 (0 : Fin 1) q : S1x64.Idx) := by
  obtain ⟨-, -, -, -, -, -, e30, e31, -, -, -, -⟩ := idx_facts5 t
  funext a; apply Fin.ext
  match a with
  | ⟨0, _⟩ => show win5_3.index t (0 : Fin 2) * 1 + 1 * 0 = 0; omega
  | ⟨1, _⟩ => show win5_3.index t (1 : Fin 2) * 64 + 1 * q.val = q.val; omega
theorem emb5_4 (t : Fin cfg5.N) (q : Fin 64) : ((cfg5.win 4).blk t).view.emb (ix2 (0 : Fin 1) q) = (ix2 (0 : Fin 1) q : S1x64.Idx) := by
  obtain ⟨-, -, -, -, -, -, -, -, e40, e41, -, -⟩ := idx_facts5 t
  funext a; apply Fin.ext
  match a with
  | ⟨0, _⟩ => show win5_4.index t (0 : Fin 2) * 1 + 1 * 0 = 0; omega
  | ⟨1, _⟩ => show win5_4.index t (1 : Fin 2) * 64 + 1 * q.val = q.val; omega

/-! ## What a point writes back -/

/-- What point `t` writes back is block `t` of `G5_5` of the arrays as the region finds them. -/
theorem flushed5_5_eq (c : Dev nD) (t : Fin cfg5.N) :
    (dat5 V c).flushed 5 t = ((cfg5.win 5).blk t).view.read (Elt Ideal) (G5_5 V c) := by
  show (cfg5.win 5).cut (grid5.coords t) ((dat5 V c).after 5 t) = _
  rw [after5_5]
  unfold out5_5
  rw [View.canon_unit_zero hz2]
  simp only [View.ld_unit_zero (S := S5000x64) hz2, View.ld_unit_zero (S := S1x64) hz2]
  funext j
  obtain ⟨p, q, rfl⟩ : ∃ (p : Fin 5000) (q : Fin 64), j = ix2 p q := ⟨j 0, j 1, eq_ix2 j⟩
  show k5_pay1 (F := Ideal) (iblk5 V c 1 t) (iblk5 V c 2 t) (iblk5 V c 0 t) (iblk5 V c 3 t) (iblk5 V c 4 t) (ix2 p q)
      = G5_5 V c (((cfg5.win 5).blk t).view.emb (ix2 p q))
  refine (pay5_at _ _ _ _ _ p q).trans ?_
  refine (bnMoments_ix2 _ _ _ _ _ _ _ p q).trans ?_
  refine Eq.trans ?_ (bnMoments_ix2 _ _ (arr5_0 V c) (arr5_1 V c) (arr5_2 V c) (arr5_3 V c) (arr5_4 V c) _ _).symm
  have h0 : iblk5 V c 0 t (ix2 p q) = arr5_0 V c (ix2 ((((cfg5.win 5).blk t).view.emb (ix2 p q) : S100000x64.Idx) 0) q) := by
    show arr5_0 V c (((cfg5.win 0).blk t).view.emb (ix2 p q)) = _
    rw [emb5_0]
    exact congrArg (arr5_0 V c) ((eq_ix2 (n0 := 100000) (n1 := 64) _).trans
      (congrArg (ix2 ((((cfg5.win 5).blk t).view.emb (ix2 p q) : S100000x64.Idx) 0)) (emb5_5_col t p q)))
  have h1 : iblk5 V c 1 t (ix2 (0 : Fin 1) q) = arr5_1 V c (ix2 (0 : Fin 1) q) := by
    show arr5_1 V c (((cfg5.win 1).blk t).view.emb (ix2 (0 : Fin 1) q)) = _
    rw [emb5_1]
  have h2 : iblk5 V c 2 t (ix2 (0 : Fin 1) q) = arr5_2 V c (ix2 (0 : Fin 1) q) := by
    show arr5_2 V c (((cfg5.win 2).blk t).view.emb (ix2 (0 : Fin 1) q)) = _
    rw [emb5_2]
  have h3 : iblk5 V c 3 t (ix2 (0 : Fin 1) q) = arr5_3 V c (ix2 (0 : Fin 1) q) := by
    show arr5_3 V c (((cfg5.win 3).blk t).view.emb (ix2 (0 : Fin 1) q)) = _
    rw [emb5_3]
  have h4 : iblk5 V c 4 t (ix2 (0 : Fin 1) q) = arr5_4 V c (ix2 (0 : Fin 1) q) := by
    show arr5_4 V c (((cfg5.win 4).blk t).view.emb (ix2 (0 : Fin 1) q)) = _
    rw [emb5_4]
  rw [emb5_5_col t p q, h0, h1, h2, h3, h4]

/-! ## The blocks cover the array -/

/-- An index of the array is in point `t`'s block iff each coordinate is in the block's range on its axis. -/
theorem mem_blk5_5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v68).slice (win5_5.rect t)).set ↔ _
  rw [View.set_slice_whole, Rect.mem_set_unit]
  exact Iff.rfl

/-- Every block of 5000 rows is some point's. -/
theorem idx_onto5 : ∀ q0 : Fin 20, ∃ t : Fin cfg5.N, win5_5.index t = ![q0.val, 0] :=
  (by decide +kernel : ∀ q0 : Fin 20, ∃ t : Fin grid5.N, win5_5.index t = ![q0.val, 0])

/-- Every index of the array is in the block of the point that holds its row: row `r` is in block `r / 5000`. -/
theorem cover5_all (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ := idx_onto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk5_5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

/-! ## The array after the region -/

/-- The output array after the region is `G5_5` of the region's entry arrays. -/
theorem final5_5_G (c : Dev nD) : (dat5 V c).arrAt 5 cfg5.N = G5_5 V c :=
  (dat5 V c).arrAt_eq_of_cover 5 (G5_5 V c) (fun t _ => flushed5_5_eq V c t) (cover5_all)

/-- The same, spelt out: the batch normalisation, from the moments, of the entry arrays, index by index. -/
theorem final5_5 (c : Dev nD) : (dat5 V c).arrAt 5 cfg5.N = fun i =>
    GinSpec.bnMoments (Ideal.ofBits .f32 0x47C35000#32) (Ideal.ofBits .f32 0x3727C5AC#32)
      (GinSpec.onCoords (V c main_v61_0)) (GinSpec.rowVec (V c main_v61_1)) (GinSpec.rowVec (V c main_v61_2))
      (GinSpec.rowVec (V c main_v66)) (GinSpec.rowVec (V c main_v67)) (i 0) (i 1) :=
  final5_5_G V c

end Value
end Cert.KernelIdeal.Hand
-- ==== Proof.KI.R6Value.lean ====
import proofs.«128301_j8701603742430_2_alg».proof.Proof.Gen.KernelIdeal.Skeleton
import proofs.«128301_j8701603742430_2_alg».proof.Proof.KI.R6
import proofs.«128301_j8701603742430_2_alg».proof.Proof.LibPlainProduct
import proofs.«128301_j8701603742430_2_alg».proof.Proof.LibNarrowedProduct
import proofs.«128301_j8701603742430_2_alg».proof.Proof.LibBlockedSum
import proofs.«128301_j8701603742430_2_alg».proof.Proof.LibColumn
import proofs.«128301_j8701603742430_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The payloads of region 6's body read at an index, over the extended reals -/

/-- The kernel's contraction record is the plain product of a 5000 × 64 by a 64 × 64 matrix. -/
theorem dot6_plain : dot_S5000x64_S64x64_S5000x64_1_0_0_1_n_n = DotDims.plain 5000 64 64 := rfl

/-- A column sum of an `[a, b]` array (a reduction over axis 0 from the zero word), read at column `q`: the sum of the column. -/
theorem colSum6_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (q : Fin b) :
    multiReduction .add [0] ⟨1, ![b]⟩ src 0x00000000#32 h hφ hacc (ix1 q) = ∑ r : Fin a, src (ix2 r q) :=
  (Ideal.multiReduction_add_single src _ h hφ hacc (ix1 q)).trans
    (Finset.sum_congr rfl fun k _ => congrArg src (funext fun ax => Fin.ext (by
      match ax with
      | ⟨0, _⟩ => rfl
      | ⟨1, _⟩ => rfl)))

/-- The block of the first output at (p, q): the rectified affine map of row p of the two input blocks. -/
theorem pay6_4_at (x1 x2 : Vec Ideal S5000x64 .f32) (x3 : Vec Ideal S64x64 .f32) (x4 : Vec Ideal S1x64 .f32) (p : Fin 5000) (q : Fin 64) :
    k6_pay4 x1 x2 x3 x4 (ix2 p q)
      = max ((∑ k : Fin 64, (x1 (ix2 p k) + x2 (ix2 p k)) * x3 (ix2 k q)) + x4 (ix2 (0 : Fin 1) q)) 0 := by
  unfold k6_pay4
  rw [maximumf_apply, addf_apply, broadcast_apply]
  rw [PlainProduct.matmul_at _ dot6_plain none _ _ _ p q, constant_apply, broadcastTo_1b_ab_apply, shapeCast_self]
  rw [show (FloatOps.ofBits FTy.f32 0#32 : Ideal .f32) = 0 from Ideal.ofBits_zero_f32, Ideal.ofBits_zero_f32, zero_add]
  simp only [truncf_apply, addf_apply, shapeCast_self]

/-- The zero the accumulators start from. -/
theorem pay6_2_at (u : Fin 1) (q : Fin 64) : (k6_pay2 (F := Ideal)) (ix2 u q) = 0 := by
  unfold k6_pay2
  rw [shapeCast_self, broadcast_apply]
  exact Ideal.ofBits_zero_f32
theorem pay6_3_at (u : Fin 1) (q : Fin 64) : (k6_pay3 (F := Ideal)) (ix2 u q) = 0 := by
  unfold k6_pay3
  rw [shapeCast_self, broadcast_apply]
  exact Ideal.ofBits_zero_f32

/-- The first accumulator's new value at column q: the loaded value plus the column sum of the block. -/
theorem pay6_5_at (x1 x2 : Vec Ideal S5000x64 .f32) (x3 : Vec Ideal S64x64 .f32) (x4 : Vec Ideal S1x64 .f32) (v : Vec Ideal S1x64 .f32) (q : Fin 64) :
    k6_pay5 x1 x2 x3 x4 v (ix2 (0 : Fin 1) q) = v (ix2 (0 : Fin 1) q) + ∑ r : Fin 5000, k6_pay4 x1 x2 x3 x4 (ix2 r q) := by
  unfold k6_pay5
  rw [shapeCast_self, addf_apply, shapeCast_a_1a_apply]
  exact congrArg (v (ix2 (0 : Fin 1) q) + ·) (colSum6_apply (a := 5000) (b := 64) (k6_pay4 x1 x2 x3 x4) reduces_S5000x64_S64 _ _ q)

/-- The second accumulator's new value at column q: the loaded value plus the column sum of the block's squares. -/
theorem pay6_6_at (x1 x2 : Vec Ideal S5000x64 .f32) (x3 : Vec Ideal S64x64 .f32) (x4 : Vec Ideal S1x64 .f32) (v : Vec Ideal S1x64 .f32) (q : Fin 64) :
    k6_pay1 (k6_pay6 x1 x2 x3 x4 v) (ix2 (0 : Fin 1) q)
      = v (ix2 (0 : Fin 1) q) + ∑ r : Fin 5000, k6_pay4 x1 x2 x3 x4 (ix2 r q) * k6_pay4 x1 x2 x3 x4 (ix2 r q) := by
  unfold k6_pay1 k6_pay6
  rw [shapeCast_self, addf_apply, shapeCast_a_1a_apply]
  refine (congrArg (v (ix2 (0 : Fin 1) q) + ·) (colSum6_apply (a := 5000) (b := 64) (mulf (k6_pay4 x1 x2 x3 x4) (k6_pay4 x1 x2 x3 x4)) reduces_S5000x64_S64 _ _ q)).trans ?_
  simp only [mulf_apply]

/-! ## From blocks to arrays -/

variable (V : (c : Dev nD) → (b : Ref sig .tc) → Buf (Elt Ideal) ((c : Thread nD τ).loc b))

/-- The region's four input arrays as it finds them, at their literal index types. -/
abbrev arr6_0 (c : Dev nD) : S100000x64.Idx → EReal := V c main_v68
abbrev arr6_1 (c : Dev nD) : S100000x64.Idx → EReal := V c main_v78
abbrev arr6_2 (c : Dev nD) : S64x64.Idx → EReal := V c main_v80
abbrev arr6_3 (c : Dev nD) : S1x64.Idx → EReal := V c main_v83

/-- The rectified linear stage of the whole input arrays, on coordinates. -/
abbrev Z6 (a0 a1 : S100000x64.Idx → EReal) (a2 : S64x64.Idx → EReal) (a3 : S1x64.Idx → EReal) : Fin 100000 → Fin 64 → EReal :=
  GinSpec.relu (GinSpec.lin (GinSpec.onCoords a0) (GinSpec.onCoords a1) (GinSpec.onCoords a2) (GinSpec.rowVec a3))

/-- What the first output array ends holding, index by index. -/
abbrev G6_4 (a0 a1 : S100000x64.Idx → EReal) (a2 : S64x64.Idx → EReal) (a3 : S1x64.Idx → EReal) : S100000x64.Idx → EReal :=
  fun i => Z6 a0 a1 a2 a3 (i 0) (i 1)
/-- What the column-sum output ends holding. -/
abbrev G6_5 (a0 a1 : S100000x64.Idx → EReal) (a2 : S64x64.Idx → EReal) (a3 : S1x64.Idx → EReal) : S1x64.Idx → EReal :=
  fun i => GinSpec.colSum (Z6 a0 a1 a2 a3) (i 1)
/-- What the column-sum-of-squares output ends holding. -/
abbrev G6_6 (a0 a1 : S100000x64.Idx → EReal) (a2 : S64x64.Idx → EReal) (a3 : S1x64.Idx → EReal) : S1x64.Idx → EReal :=
  fun i => GinSpec.colSumSq (Z6 a0 a1 a2 a3) (i 1)

/-- The rectified linear stage at (r, q), its arrays read at `ix2` indices. -/
theorem Z6_at (a0 a1 : S100000x64.Idx → EReal) (a2 : S64x64.Idx → EReal) (a3 : S1x64.Idx → EReal) (r : Fin 100000) (q : Fin 64) :
    Z6 a0 a1 a2 a3 r q = max ((∑ k : Fin 64, (a0 (ix2 r k) + a1 (ix2 r k)) * a2 (ix2 k q)) + a3 (ix2 (0 : Fin 1) q)) 0 := by
  show max ((∑ k : Fin 64, (GinSpec.onCoords a0 r k + GinSpec.onCoords a1 r k) * GinSpec.onCoords a2 k q) + GinSpec.rowVec a3 q) 0 = _
  have h0 : ∀ k, GinSpec.onCoords a0 r k = a0 (ix2 r k) := fun k => congrArg a0 (funext fun d => by match d with | ⟨0, _⟩ => rfl | ⟨1, _⟩ => rfl)
  have h1 : ∀ k, GinSpec.onCoords a1 r k = a1 (ix2 r k) := fun k => congrArg a1 (funext fun d => by match d with | ⟨0, _⟩ => rfl | ⟨1, _⟩ => rfl)
  have h2 : ∀ k, GinSpec.onCoords a2 k q = a2 (ix2 k q) := fun k => congrArg a2 (funext fun d => by match d with | ⟨0, _⟩ => rfl | ⟨1, _⟩ => rfl)
  have h3 : GinSpec.rowVec a3 q = a3 (ix2 (0 : Fin 1) q) := congrArg a3 (funext fun d => by match d with | ⟨0, _⟩ => rfl | ⟨1, _⟩ => rfl)
  rw [h3]
  refine congrArg (fun s : EReal => max (s + a3 (ix2 (0 : Fin 1) q)) 0) (Finset.sum_congr rfl fun k _ => ?_)
  rw [h0 k, h1 k, h2 k]

/-- The printed index maps, decided over the grid: the row-blocked windows are at block `t`, the whole ones at block 0. -/
theorem idx6_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Row `p` of block `t` of a row-blocked input is row `5000 t + p` of its array. -/
theorem iblk6_0_at (c : Dev nD) (t : Fin cfg6.N) (p : Fin 5000) (k : Fin 64) (hr : t.val * 5000 + p.val < 100000) :
    (iblk6 V c 0 t : Vec Ideal S5000x64 .f32) (ix2 p k) = arr6_0 V c (ix2 ⟨t.val * 5000 + p.val, hr⟩ k) := by
  obtain ⟨e0, e1, -⟩ := idx6_facts t
  unfold iblk6
  rw [View.read_apply]
  show V c main_v68 _ = V c main_v68 _
  congr 1
  funext a
  apply Fin.ext
  match a with
  | ⟨0, _⟩ => show win6_0.index t 0 * 5000 + 1 * p.val = t.val * 5000 + p.val; rw [e0]; omega
  | ⟨1, _⟩ => show win6_0.index t 1 * 64 + 1 * k.val = k.val; rw [e1]; omega
theorem iblk6_1_at (c : Dev nD) (t : Fin cfg6.N) (p : Fin 5000) (k : Fin 64) (hr : t.val * 5000 + p.val < 100000) :
    (iblk6 V c 1 t : Vec Ideal S5000x64 .f32) (ix2 p k) = arr6_1 V c (ix2 ⟨t.val * 5000 + p.val, hr⟩ k) := by
  obtain ⟨-, -, e0, e1, -⟩ := idx6_facts t
  unfold iblk6
  rw [View.read_apply]
  show V c main_v78 _ = V c main_v78 _
  congr 1
  funext a
  apply Fin.ext
  match a with
  | ⟨0, _⟩ => show win6_1.index t 0 * 5000 + 1 * p.val = t.val * 5000 + p.val; rw [e0]; omega
  | ⟨1, _⟩ => show win6_1.index t 1 * 64 + 1 * k.val = k.val; rw [e1]; omega
/-- The whole windows read their arrays. -/
theorem iblk6_2_at (c : Dev nD) (t : Fin cfg6.N) (k q : Fin 64) :
    (iblk6 V c 2 t : Vec Ideal S64x64 .f32) (ix2 k q) = arr6_2 V c (ix2 k q) := by
  obtain ⟨-, -, -, -, e0, e1, -⟩ := idx6_facts t
  unfold iblk6
  rw [View.read_apply]
  show V c main_v80 _ = V c main_v80 _
  congr 1
  funext a
  apply Fin.ext
  match a with
  | ⟨0, _⟩ => show win6_2.index t 0 * 64 + 1 * k.val = k.val; rw [e0]; omega
  | ⟨1, _⟩ => show win6_2.index t 1 * 64 + 1 * q.val = q.val; rw [e1]; omega
theorem iblk6_3_at (c : Dev nD) (t : Fin cfg6.N) (u : Fin 1) (q : Fin 64) :
    (iblk6 V c 3 t : Vec Ideal S1x64 .f32) (ix2 u q) = arr6_3 V c (ix2 u q) := by
  obtain ⟨-, -, -, -, -, -, e0, e1, -⟩ := idx6_facts t
  unfold iblk6
  rw [View.read_apply]
  show V c main_v83 _ = V c main_v83 _
  congr 1
  funext a
  apply Fin.ext
  match a with
  | ⟨0, _⟩ => show win6_3.index t 0 * 1 + 1 * u.val = u.val; rw [e0]; omega
  | ⟨1, _⟩ => show win6_3.index t 1 * 64 + 1 * q.val = q.val; rw [e1]; omega

/-- THE BLOCK: the body's first payload on the blocks of point `t`, at (p, q), is the rectified linear stage of the whole
    arrays at row `5000 t + p`. -/
theorem blk6_at (c : Dev nD) (t : Fin cfg6.N) (p : Fin 5000) (q : Fin 64) (hr : t.val * 5000 + p.val < 100000) :
    k6_pay4 (iblk6 V c 0 t) (iblk6 V c 1 t) (iblk6 V c 2 t) (iblk6 V c 3 t) (ix2 p q)
      = Z6 (arr6_0 V c) (arr6_1 V c) (arr6_2 V c) (arr6_3 V c) ⟨t.val * 5000 + p.val, hr⟩ q := by
  refine (pay6_4_at (iblk6 V c 0 t) (iblk6 V c 1 t) (iblk6 V c 2 t) (iblk6 V c 3 t) p q).trans ?_
  rw [Z6_at]
  rw [iblk6_3_at V c t 0 q]
  refine congrArg (fun s : EReal => max (s + arr6_3 V c (ix2 (0 : Fin 1) q)) 0) (Finset.sum_congr rfl fun k _ => ?_)
  rw [iblk6_0_at V c t p k hr, iblk6_1_at V c t p k hr, iblk6_2_at V c t k q]

set_option maxHeartbeats 400000 in
/-- WHAT POINT `t` WRITES BACK into the first output is block `t` of `G6_4` of the input arrays as the region finds them. -/
theorem flushed6_4_eq (c : Dev nD) (t : Fin cfg6.N) :
    (dat6 V c).flushed 4 t = ((cfg6.win 4).blk t).view.read (Elt Ideal) (G6_4 (arr6_0 V c) (arr6_1 V c) (arr6_2 V c) (arr6_3 V c)) := by
  have hN : t.val < 20 := lt_of_lt_of_eq t.isLt (show cfg6.N = 20 from N_6)
  obtain ⟨-, -, -, -, -, -, -, -, e0, e1, -⟩ := idx6_facts t
  show (cfg6.win 4).cut (grid6.coords t) ((dat6 V c).after 4 t) = _
  rw [after6_4]
  unfold out6_4
  rw [View.canon_unit_zero hz2_6]
  simp only [View.ld_unit_zero (S := S5000x64) hz2_6, View.ld_unit_zero (S := S64x64) hz2_6, View.ld_unit_zero (S := S1x64) hz2_6]
  funext j
  obtain ⟨p, q, rfl⟩ : ∃ (p : Fin 5000) (q : Fin 64), j = ix2 p q := ⟨j 0, j 1, eq_ix2 j⟩
  have hr : t.val * 5000 + p.val < 100000 := by have := p.isLt; omega
  refine (blk6_at V c t p q hr).trans ?_
  rw [View.read_apply]
  have he0 : (⟨t.val * 5000 + p.val, hr⟩ : Fin 100000) = (((View.whole main_v84_0).slice ((win6 4).rect t)).emb (ix2 p q)) 0 :=
    Fin.ext (by show t.val * 5000 + p.val = win6_4.index t 0 * 5000 + 1 * p.val; rw [e0]; omega)
  have he1 : q = (((View.whole main_v84_0).slice ((win6 4).rect t)).emb (ix2 p q)) 1 :=
    Fin.ext (by show q.val = win6_4.index t 1 * 64 + 1 * q.val; rw [e1]; omega)
  exact congrArg₂ (Z6 (arr6_0 V c) (arr6_1 V c) (arr6_2 V c) (arr6_3 V c)) he0 he1

/-- An index of the first output array is in point `t`'s block iff each coordinate is in the block's range on its axis. -/
theorem mem_blk6_4 (t : Fin cfg6.N) (i : S100000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v84_0).slice (win6_4.rect t)).set ↔ _
  rw [View.set_slice_whole, Rect.mem_set_unit]
  exact Iff.rfl

/-- Every index of the first output array is in the block of the point that holds its row. -/
theorem cover6_4 (i : S100000x64.Idx) : ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 20 := N_6
  have ht : (i 0).val / 5000 < cfg6.N := by omega
  obtain ⟨-, -, -, -, -, -, -, -, e0, e1, -⟩ := idx6_facts ⟨(i 0).val / 5000, ht⟩
  refine ⟨⟨(i 0).val / 5000, ht⟩, flush6_4 _, ?_⟩
  rw [mem_blk6_4]
  intro a
  match a with
  | ⟨0, _⟩ => show win6_4.index ⟨(i 0).val / 5000, ht⟩ 0 * 5000 ≤ (i 0).val ∧ (i 0).val < win6_4.index ⟨(i 0).val / 5000, ht⟩ 0 * 5000 + 5000; rw [e0]; dsimp only; omega
  | ⟨1, _⟩ => show win6_4.index ⟨(i 0).val / 5000, ht⟩ 1 * 64 ≤ (i 1).val ∧ (i 1).val < win6_4.index ⟨(i 0).val / 5000, ht⟩ 1 * 64 + 64; rw [e1]; omega

/-- THE FIRST OUTPUT ARRAY after the region: the rectified linear stage of the input arrays, index by index. -/
theorem final6_4 (c : Dev nD) : (dat6 V c).arrAt 4 cfg6.N
    = fun i => GinSpec.relu (GinSpec.lin (GinSpec.onCoords (V c main_v68)) (GinSpec.onCoords (V c main_v78)) (GinSpec.onCoords (V c main_v80)) (GinSpec.rowVec (V c main_v83))) (i 0) (i 1) :=
  (dat6 V c).arrAt_eq_of_cover 4 (G6_4 (arr6_0 V c) (arr6_1 V c) (arr6_2 V c) (arr6_3 V c)) (fun t _ => flushed6_4_eq V c t) (cover6_4)

end Cert.KernelIdeal.Hand
end
-- ==== Proof.KI.R7Value.lean ====
/- The value of region 7 at the extended reals: the output array after the region is the batch normalisation, from
   the two column moments, of the region's entry arrays, index by index. -/
import proofs.«128301_j8701603742430_2_alg».proof.Proof.KI.R7
import proofs.«128301_j8701603742430_2_alg».proof.Proof.KI.ValueLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Value
variable (V : (c : Dev nD) → (b : Ref sig .tc) → Buf (Elt Ideal) ((c : Thread nD τ).loc b))

/-! ## The payload at an index -/

/-- The stored block at row `p`, column `q`: the batch normalisation of the loaded block's entry there from the
    loaded moments, scale and shift at column `q`. -/
theorem pay7_at (v0 v4 : FVec Ideal S1x64 .f32) (v15 : FVec Ideal S5000x64 .f32) (v21 v25 : FVec Ideal S1x64 .f32) (p : Fin 5000) (q : Fin 64) :
    k7_pay1 (F := Ideal) v0 v4 v15 v21 v25 (ix2 p q)
      = GinSpec.bnMoments (Ideal.ofBits .f32 0x47C35000#32) (Ideal.ofBits .f32 0x3727C5AC#32)
          (GinSpec.onCoords v15) (GinSpec.rowVec v0) (GinSpec.rowVec v4) (GinSpec.rowVec v21) (GinSpec.rowVec v25) p q := by
  rw [bnMoments_ix2]
  unfold k7_pay1
  simp only [addf_apply, mulf_apply, subf_apply, divf_apply, maximumf_apply, broadcast_apply, shapeCast_self]
  simp only [broadcastTo_1b_ab_apply, addf_apply, mulf_apply, subf_apply, divf_apply, maximumf_apply, broadcast_apply, rsqrt_at]
  rw [show (FloatOps.ofBits (F := Ideal) FTy.f32 0x00000000#32 : EReal) = 0 from Ideal.ofBits_zero_f32]
  rfl

/-! ## The index maps, decided over the grid -/

/-- The printed index maps over the grid: the block of 5000 rows moves with the point, in the input and in the
    output alike; the four one-row windows stay at their one block. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The array's values, window by window, at the literal shapes. -/
abbrev arr7_0 (c : Dev nD) : S100000x64.Idx → EReal := V c main_v84_0
abbrev arr7_1 (c : Dev nD) : S1x64.Idx → EReal := V c main_v84_1
abbrev arr7_2 (c : Dev nD) : S1x64.Idx → EReal := V c main_v84_2
abbrev arr7_3 (c : Dev nD) : S1x64.Idx → EReal := V c main_v89
abbrev arr7_4 (c : Dev nD) : S1x64.Idx → EReal := V c main_v90

/-- The region's output array as one function of its entry arrays: the batch normalisation from the moments. -/
def G7_5 (c : Dev nD) : S100000x64.Idx → EReal := fun i =>
  GinSpec.bnMoments (Ideal.ofBits .f32 0x47C35000#32) (Ideal.ofBits .f32 0x3727C5AC#32)
    (GinSpec.onCoords (arr7_0 V c)) (GinSpec.rowVec (arr7_1 V c)) (GinSpec.rowVec (arr7_2 V c))
    (GinSpec.rowVec (arr7_3 V c)) (GinSpec.rowVec (arr7_4 V c)) (i 0) (i 1)

/-- An element of the block of rows at point `t`, in the input window and in the output window, sits at row
    `t * 5000 + p`, column `q` of the array. -/
theorem emb7_0 (t : Fin cfg7.N) (p : Fin 5000) (q : Fin 64) :
    ((cfg7.win 0).blk t).view.emb (ix2 p q) = ((cfg7.win 5).blk t).view.emb (ix2 p q) := by
  obtain ⟨e00, e01, -, -, -, -, -, -, -, -, e50, e51⟩ := idx_facts7 t
  funext a; apply Fin.ext
  match a with
  | ⟨0, _⟩ => show win7_0.index t (0 : Fin 2) * 5000 + 1 * p.val = win7_5.index t (0 : Fin 2) * 5000 + 1 * p.val; omega
  | ⟨1, _⟩ => show win7_0.index t (1 : Fin 2) * 64 + 1 * q.val = win7_5.index t (1 : Fin 2) * 64 + 1 * q.val; omega

/-- and its column is `q`. -/
theorem emb7_5_col (t : Fin cfg7.N) (p : Fin 5000) (q : Fin 64) :
    ((((cfg7.win 5).blk t).view.emb (ix2 p q) : S100000x64.Idx) 1 : Fin 64) = q := by
  obtain ⟨-, -, -, -, -, -, -, -, -, -, e50, e51⟩ := idx_facts7 t
  apply Fin.ext
  show win7_5.index t (1 : Fin 2) * 64 + 1 * q.val = q.val; omega

/-- An element of a one-row window's block is the array's at the same column. -/
theorem emb7_1 (t : Fin cfg7.N) (q : Fin 64) : ((cfg7.win 1).blk t).view.emb (ix2 (0 : Fin 1) q) = (ix2 (0 : Fin 1) q : S1x64.Idx) := by
  obtain ⟨-, -, e10, e11, -, -, -, -, -, -, -, -⟩ := idx_facts7 t
  funext a; apply Fin.ext
  match a with
  | ⟨0, _⟩ => show win7_1.index t (0 : Fin 2) * 1 + 1 * 0 = 0; omega
  | ⟨1, _⟩ => show win7_1.index t (1 : Fin 2) * 64 + 1 * q.val = q.val; omega
theorem emb7_2 (t : Fin cfg7.N) (q : Fin 64) : ((cfg7.win 2).blk t).view.emb (ix2 (0 : Fin 1) q) = (ix2 (0 : Fin 1) q : S1x64.Idx) := by
  obtain ⟨-, -, -, -, e20, e21, -, -, -, -, -, -⟩ := idx_facts7 t
  funext a; apply Fin.ext
  match a with
  | ⟨0, _⟩ => show win7_2.index t (0 : Fin 2) * 1 + 1 * 0 = 0; omega
  | ⟨1, _⟩ => show win7_2.index t (1 : Fin 2) * 64 + 1 * q.val = q.val; omega
theorem emb7_3 (t : Fin cfg7.N) (q : Fin 64) : ((cfg7.win 3).blk t).view.emb (ix2 (0 : Fin 1) q) = (ix2 (0 : Fin 1) q : S1x64.Idx) := by
  obtain ⟨-, -, -, -, -, -, e30, e31, -, -, -, -⟩ := idx_facts7 t
  funext a; apply Fin.ext
  match a with
  | ⟨0, _⟩ => show win7_3.index t (0 : Fin 2) * 1 + 1 * 0 = 0; omega
  | ⟨1, _⟩ => show win7_3.index t (1 : Fin 2) * 64 + 1 * q.val = q.val; omega
theorem emb7_4 (t : Fin cfg7.N) (q : Fin 64) : ((cfg7.win 4).blk t).view.emb (ix2 (0 : Fin 1) q) = (ix2 (0 : Fin 1) q : S1x64.Idx) := by
  obtain ⟨-, -, -, -, -, -, -, -, e40, e41, -, -⟩ := idx_facts7 t
  funext a; apply Fin.ext
  match a with
  | ⟨0, _⟩ => show win7_4.index t (0 : Fin 2) * 1 + 1 * 0 = 0; omega
  | ⟨1, _⟩ => show win7_4.index t (1 : Fin 2) * 64 + 1 * q.val = q.val; omega

/-! ## What a point writes back -/

/-- What point `t` writes back is block `t` of `G7_5` of the arrays as the region finds them. -/
theorem flushed7_5_eq (c : Dev nD) (t : Fin cfg7.N) :
    (dat7 V c).flushed 5 t = ((cfg7.win 5).blk t).view.read (Elt Ideal) (G7_5 V c) := by
  show (cfg7.win 5).cut (grid7.coords t) ((dat7 V c).after 5 t) = _
  rw [after7_5]
  unfold out7_5
  rw [View.canon_unit_zero hz2]
  simp only [View.ld_unit_zero (S := S5000x64) hz2, View.ld_unit_zero (S := S1x64) hz2]
  funext j
  obtain ⟨p, q, rfl⟩ : ∃ (p : Fin 5000) (q : Fin 64), j = ix2 p q := ⟨j 0, j 1, eq_ix2 j⟩
  show k7_pay1 (F := Ideal) (iblk7 V c 1 t) (iblk7 V c 2 t) (iblk7 V c 0 t) (iblk7 V c 3 t) (iblk7 V c 4 t) (ix2 p q)
      = G7_5 V c (((cfg7.win 5).blk t).view.emb (ix2 p q))
  refine (pay7_at _ _ _ _ _ p q).trans ?_
  refine (bnMoments_ix2 _ _ _ _ _ _ _ p q).trans ?_
  refine Eq.trans ?_ (bnMoments_ix2 _ _ (arr7_0 V c) (arr7_1 V c) (arr7_2 V c) (arr7_3 V c) (arr7_4 V c) _ _).symm
  have h0 : iblk7 V c 0 t (ix2 p q) = arr7_0 V c (ix2 ((((cfg7.win 5).blk t).view.emb (ix2 p q) : S100000x64.Idx) 0) q) := by
    show arr7_0 V c (((cfg7.win 0).blk t).view.emb (ix2 p q)) = _
    rw [emb7_0]
    exact congrArg (arr7_0 V c) ((eq_ix2 (n0 := 100000) (n1 := 64) _).trans
      (congrArg (ix2 ((((cfg7.win 5).blk t).view.emb (ix2 p q) : S100000x64.Idx) 0)) (emb7_5_col t p q)))
  have h1 : iblk7 V c 1 t (ix2 (0 : Fin 1) q) = arr7_1 V c (ix2 (0 : Fin 1) q) := by
    show arr7_1 V c (((cfg7.win 1).blk t).view.emb (ix2 (0 : Fin 1) q)) = _
    rw [emb7_1]
  have h2 : iblk7 V c 2 t (ix2 (0 : Fin 1) q) = arr7_2 V c (ix2 (0 : Fin 1) q) := by
    show arr7_2 V c (((cfg7.win 2).blk t).view.emb (ix2 (0 : Fin 1) q)) = _
    rw [emb7_2]
  have h3 : iblk7 V c 3 t (ix2 (0 : Fin 1) q) = arr7_3 V c (ix2 (0 : Fin 1) q) := by
    show arr7_3 V c (((cfg7.win 3).blk t).view.emb (ix2 (0 : Fin 1) q)) = _
    rw [emb7_3]
  have h4 : iblk7 V c 4 t (ix2 (0 : Fin 1) q) = arr7_4 V c (ix2 (0 : Fin 1) q) := by
    show arr7_4 V c (((cfg7.win 4).blk t).view.emb (ix2 (0 : Fin 1) q)) = _
    rw [emb7_4]
  rw [emb7_5_col t p q, h0, h1, h2, h3, h4]

/-! ## The blocks cover the array -/

/-- An index of the array is in point `t`'s block iff each coordinate is in the block's range on its axis. -/
theorem mem_blk7_5 (t : Fin cfg7.N) (i : S100000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v91).slice (win7_5.rect t)).set ↔ _
  rw [View.set_slice_whole, Rect.mem_set_unit]
  exact Iff.rfl

/-- Every block of 5000 rows is some point's. -/
theorem idx_onto7 : ∀ q0 : Fin 20, ∃ t : Fin cfg7.N, win7_5.index t = ![q0.val, 0] :=
  (by decide +kernel : ∀ q0 : Fin 20, ∃ t : Fin grid7.N, win7_5.index t = ![q0.val, 0])

/-- Every index of the array is in the block of the point that holds its row: row `r` is in block `r / 5000`. -/
theorem cover7_all (i : S100000x64.Idx) :
    ∃ t : Fin cfg7.N, (cfg7.win 5).flush t = true ∧ i ∈ ((cfg7.win 5).blk t).view.set := by
  have hi0 : (i 0).val < 100000 := (i 0).isLt
  have hi1 : (i 1).val < 64 := (i 1).isLt
  obtain ⟨t, ht⟩ := idx_onto7 ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [mem_blk7_5]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 64 ≤ (i 1).val ∧ (i 1).val < win7_5.index t (1 : Fin 2) * 64 + 64; omega

/-! ## The array after the region -/

/-- The output array after the region is `G7_5` of the region's entry arrays. -/
theorem final7_5_G (c : Dev nD) : (dat7 V c).arrAt 5 cfg7.N = G7_5 V c :=
  (dat7 V c).arrAt_eq_of_cover 5 (G7_5 V c) (fun t _ => flushed7_5_eq V c t) (cover7_all)

/-- The same, spelt out: the batch normalisation, from the moments, of the entry arrays, index by index. -/
theorem final7_5 (c : Dev nD) : (dat7 V c).arrAt 5 cfg7.N = fun i =>
    GinSpec.bnMoments (Ideal.ofBits .f32 0x47C35000#32) (Ideal.ofBits .f32 0x3727C5AC#32)
      (GinSpec.onCoords (V c main_v84_0)) (GinSpec.rowVec (V c main_v84_1)) (GinSpec.rowVec (V c main_v84_2))
      (GinSpec.rowVec (V c main_v89)) (GinSpec.rowVec (V c main_v90)) (i 0) (i 1) :=
  final7_5_G V c

end Value
end Cert.KernelIdeal.Hand
-- ==== Proof.KI.SoftmaxLib.lean ====
/- The logarithm of the softmax along the rows of an array, as a kernel spells it with lane reductions, column
   casts and broadcasts, read at an index over the extended reals; and the small facts that reading uses. -/
import proofs.«128301_j8701603742430_2_alg».proof.Proof.Spec
import proofs.«128301_j8701603742430_2_alg».proof.Proof.KI.ValueLib
import proofs.«128301_j8701603742430_2_alg».proof.Proof.LibColumn
import proofs.«128301_j8701603742430_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx

/-- The word of -∞ denotes the least extended real. -/
theorem ofBits_neg_inf_f32 : Ideal.ofBits .f32 0xFF800000#32 = ⊥ := by simp [Ideal.ofBits, Ideal.ieee]

/-- A fold of `max` from the least element is the supremum. -/
theorem fold_max_bot {β : Type} (s : Finset β) (f : β → EReal) : s.fold max ⊥ f = s.sup f := rfl

/-- The exponential and the logarithm of a vector, entry by entry. -/
theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-- The rows' logarithm of the softmax as a kernel computes it — subtract the row's maximum (a lane maximum from
    -∞, cast to a column and broadcast along the row), then subtract the logarithm of the row's sum of exponentials (a
    lane sum from zero, cast and broadcast likewise) — read at row `p`, column `q`. -/
theorem logSoftmax_rows_at {a b : ℕ} (z : FVec Ideal ⟨2, ![a, b]⟩ .f32)
    (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hm : (0xFF800000#32 : BitVec 32) = FKind.maximumf.neutral .f32 hφ)
    (hs : (0x00000000#32 : BitVec 32) = FKind.add.neutral .f32 hφ) (p : Fin a) (q : Fin b) :
    subf (subf z (broadcastTo ⟨2, ![a, b]⟩ (shapeCast ⟨2, ![a, 1]⟩ (multiReduction .maximumf [1] ⟨1, ![a]⟩ z 0xFF800000#32 hr hφ hm) hc) hb))
      (broadcastTo ⟨2, ![a, b]⟩ (log (shapeCast ⟨2, ![a, 1]⟩ (multiReduction .add [1] ⟨1, ![a]⟩
        (exp (subf z (broadcastTo ⟨2, ![a, b]⟩ (shapeCast ⟨2, ![a, 1]⟩ (multiReduction .maximumf [1] ⟨1, ![a]⟩ z 0xFF800000#32 hr hφ hm) hc) hb)))
        0x00000000#32 hr hφ hs) hc)) hb) (ix2 p q)
      = GinSpec.logSoftmax (GinSpec.onCoords z) p q := by
  have hmax : ∀ p' : Fin a, multiReduction .maximumf [1] ⟨1, ![a]⟩ z 0xFF800000#32 hr hφ hm (ix1 p')
      = GinSpec.rowMax (GinSpec.onCoords z) p' := fun p' =>
    (ColumnIdx.rowMax_apply z hr hφ hm p').trans (by rw [ofBits_neg_inf_f32, fold_max_bot]; rfl)
  have hsub : ∀ (p' : Fin a) (k : Fin b),
      subf z (broadcastTo ⟨2, ![a, b]⟩ (shapeCast ⟨2, ![a, 1]⟩ (multiReduction .maximumf [1] ⟨1, ![a]⟩ z 0xFF800000#32 hr hφ hm) hc) hb) (ix2 p' k)
        = z (ix2 p' k) - GinSpec.rowMax (GinSpec.onCoords z) p' := fun p' k => by
    rw [subf_apply, ColumnIdx.broadcastTo_a1_ab_apply, ColumnIdx.shapeCast_a_a1_apply, hmax]
  rw [subf_apply, hsub, ColumnIdx.broadcastTo_a1_ab_apply, log_at, ColumnIdx.shapeCast_a_a1_apply, ColumnIdx.rowSum_apply]
  simp only [exp_at, hsub]
  rfl

/-- The logarithm of the softmax at a row reads that row only. -/
theorem logSoftmax_row_congr {n n' e : ℕ} (z : Fin n → Fin e → EReal) (z' : Fin n' → Fin e → EReal) (i : Fin n) (i' : Fin n')
    (h : ∀ j, z i j = z' i' j) (j : Fin e) : GinSpec.logSoftmax z i j = GinSpec.logSoftmax z' i' j := by
  unfold GinSpec.logSoftmax GinSpec.rowMax
  simp only [h]

/-- The linear stage of arrays read on coordinates, at the arrays' own indices. -/
theorem lin_ix2 {n d e : ℕ} (h agg : (⟨2, ![n, d]⟩ : Shape).Idx → EReal) (W : (⟨2, ![d, e]⟩ : Shape).Idx → EReal)
    (b : (⟨2, ![1, e]⟩ : Shape).Idx → EReal) (i : Fin n) (j : Fin e) :
    GinSpec.lin (GinSpec.onCoords h) (GinSpec.onCoords agg) (GinSpec.onCoords W) (GinSpec.rowVec b) i j
      = (∑ k : Fin d, (h (ix2 i k) + agg (ix2 i k)) * W (ix2 k j)) + b (ix2 (0 : Fin 1) j) := by
  show (∑ k : Fin d, (GinSpec.onCoords h i k + GinSpec.onCoords agg i k) * GinSpec.onCoords W k j) + GinSpec.rowVec b j = _
  rw [rowVec_ix2 b]
  rfl

end Cert.KernelIdeal.Hand
-- ==== Proof.KI.R8Value.lean ====
/- The value of region 8 at the extended reals: the output array after the region is the rows' logarithm of the
   softmax of the linear stage of the region's entry arrays, index by index. -/
import proofs.«128301_j8701603742430_2_alg».proof.Proof.KI.R8
import proofs.«128301_j8701603742430_2_alg».proof.Proof.KI.ValueLib
import proofs.«128301_j8701603742430_2_alg».proof.Proof.KI.SoftmaxLib
import proofs.«128301_j8701603742430_2_alg».proof.Proof.LibColumn
import proofs.«128301_j8701603742430_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Value
variable (V : (c : Dev nD) → (b : Ref sig .tc) → Buf (Elt Ideal) ((c : Thread nD τ).loc b))

/-! ## The payload at an index -/

/-- The stored block at row `p`, column `q`: the logarithm of the softmax, along row `p`, of the linear stage of
    the loaded blocks. The product's operands are narrowed to a shorter format first, which changes nothing over the
    extended reals, and it accumulates into zero. -/
theorem pay8_at (v0 v2 : FVec Ideal S5000x64 .f32) (v6 : FVec Ideal S64x40 .f32) (v9 : FVec Ideal S1x40 .f32) (p : Fin 5000) (q : Fin 40) :
    k8_pay1 (F := Ideal) v0 v2 v6 v9 (ix2 p q)
      = GinSpec.logSoftmax (GinSpec.lin (GinSpec.onCoords v0) (GinSpec.onCoords v2) (GinSpec.onCoords v6) (GinSpec.rowVec v9)) p q := by
  unfold k8_pay1
  refine (logSoftmax_rows_at _ _ _ _ _ _ _ p q).trans ?_
  refine congrArg (fun f => GinSpec.logSoftmax f p q) (funext fun i => funext fun j => ?_)
  refine Eq.trans ?_ (lin_ix2 v0 v2 v6 v9 i j).symm
  show addf (matmul _ none _ _ _) (broadcastTo _ _ _) (ix2 i j) = _
  rw [addf_apply, PlainProduct.matmul_at dot_S5000x64_S64x40_S5000x40_1_0_0_1_n_n rfl, broadcastTo_1b_ab_apply, constant_apply, Ideal.ofBits_zero_f32, zero_add]
  simp only [shapeCast_self, truncf_apply, addf_apply]

/-! ## The index maps, decided over the grid -/

/-- The printed index maps over the grid: the block of 5000 rows moves with the point, in the two blocked inputs and
    in the output alike; the weights and the bias stay at their one block. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- The arrays' values, window by window, at the literal shapes. -/
abbrev arr8_0 (c : Dev nD) : S100000x64.Idx → EReal := V c main_v91
abbrev arr8_1 (c : Dev nD) : S100000x64.Idx → EReal := V c main_v101
abbrev arr8_2 (c : Dev nD) : S64x40.Idx → EReal := V c main_arg6
abbrev arr8_3 (c : Dev nD) : S1x40.Idx → EReal := V c main_v102

/-- The region's output array as one function of its entry arrays: the rows' logarithm of the softmax of the linear stage. -/
def G8_4 (c : Dev nD) : S100000x40.Idx → EReal := fun i =>
  GinSpec.logSoftmax (GinSpec.lin (GinSpec.onCoords (arr8_0 V c)) (GinSpec.onCoords (arr8_1 V c))
    (GinSpec.onCoords (arr8_2 V c)) (GinSpec.rowVec (arr8_3 V c))) (i 0) (i 1)

/-- The array's row that row `p` of the block at point `t` is. -/
def row8 (t : Fin cfg8.N) (p : Fin 5000) : Fin 100000 :=
  ⟨t.val * 5000 + p.val, by have h : t.val < 20 := lt_of_lt_of_eq t.isLt N_8; have := p.isLt; omega⟩

/-- An element of the block of rows at point `t`, in either blocked input and in the output, sits at row
    `t * 5000 + p` of the array, at its own column. -/
theorem emb8_0 (t : Fin cfg8.N) (p : Fin 5000) (k : Fin 64) :
    ((cfg8.win 0).blk t).view.emb (ix2 p k) = (ix2 (row8 t p) k : S100000x64.Idx) := by
  obtain ⟨e00, e01, -, -, -, -, -, -, -, -⟩ := idx_facts8 t
  funext a; apply Fin.ext
  match a with
  | ⟨0, _⟩ => show win8_0.index t (0 : Fin 2) * 5000 + 1 * p.val = t.val * 5000 + p.val; omega
  | ⟨1, _⟩ => show win8_0.index t (1 : Fin 2) * 64 + 1 * k.val = k.val; omega
theorem emb8_1 (t : Fin cfg8.N) (p : Fin 5000) (k : Fin 64) :
    ((cfg8.win 1).blk t).view.emb (ix2 p k) = (ix2 (row8 t p) k : S100000x64.Idx) := by
  obtain ⟨-, -, e10, e11, -, -, -, -, -, -⟩ := idx_facts8 t
  funext a; apply Fin.ext
  match a with
  | ⟨0, _⟩ => show win8_1.index t (0 : Fin 2) * 5000 + 1 * p.val = t.val * 5000 + p.val; omega
  | ⟨1, _⟩ => show win8_1.index t (1 : Fin 2) * 64 + 1 * k.val = k.val; omega
theorem emb8_4 (t : Fin cfg8.N) (p : Fin 5000) (q : Fin 40) :
    ((cfg8.win 4).blk t).view.emb (ix2 p q) = (ix2 (row8 t p) q : S100000x40.Idx) := by
  obtain ⟨-, -, -, -, -, -, -, -, e40, e41⟩ := idx_facts8 t
  funext a; apply Fin.ext
  match a with
  | ⟨0, _⟩ => show win8_4.index t (0 : Fin 2) * 5000 + 1 * p.val = t.val * 5000 + p.val; omega
  | ⟨1, _⟩ => show win8_4.index t (1 : Fin 2) * 40 + 1 * q.val = q.val; omega
/-- The weights' and the bias's one block is the whole array. -/
theorem emb8_2 (t : Fin cfg8.N) (k : Fin 64) (j : Fin 40) :
    ((cfg8.win 2).blk t).view.emb (ix2 k j) = (ix2 k j : S64x40.Idx) := by
  obtain ⟨-, -, -, -, e20, e21, -, -, -, -⟩ := idx_facts8 t
  funext a; apply Fin.ext
  match a with
  | ⟨0, _⟩ => show win8_2.index t (0 : Fin 2) * 64 + 1 * k.val = k.val; omega
  | ⟨1, _⟩ => show win8_2.index t (1 : Fin 2) * 40 + 1 * j.val = j.val; omega
theorem emb8_3 (t : Fin cfg8.N) (j : Fin 40) :
    ((cfg8.win 3).blk t).view.emb (ix2 (0 : Fin 1) j) = (ix2 (0 : Fin 1) j : S1x40.Idx) := by
  obtain ⟨-, -, -, -, -, -, e30, e31, -, -⟩ := idx_facts8 t
  funext a; apply Fin.ext
  match a with
  | ⟨0, _⟩ => show win8_3.index t (0 : Fin 2) * 1 + 1 * 0 = 0; omega
  | ⟨1, _⟩ => show win8_3.index t (1 : Fin 2) * 40 + 1 * j.val = j.val; omega

/-! ## What a point writes back -/

/-- What point `t` writes back is block `t` of `G8_4` of the arrays as the region finds them. -/
theorem flushed8_4_eq (c : Dev nD) (t : Fin cfg8.N) :
    (dat8 V c).flushed 4 t = ((cfg8.win 4).blk t).view.read (Elt Ideal) (G8_4 V c) := by
  show (cfg8.win 4).cut (grid8.coords t) ((dat8 V c).after 4 t) = _
  rw [after8_4]
  unfold out8_4
  rw [View.canon_unit_zero hz2]
  simp only [View.ld_unit_zero (S := S5000x64) hz2, View.ld_unit_zero (S := S64x40) hz2, View.ld_unit_zero (S := S1x40) hz2]
  funext j
  obtain ⟨p, q, rfl⟩ : ∃ (p : Fin 5000) (q : Fin 40), j = ix2 p q := ⟨j 0, j 1, eq_ix2 j⟩
  show k8_pay1 (F := Ideal) (iblk8 V c 0 t) (iblk8 V c 1 t) (iblk8 V c 2 t) (iblk8 V c 3 t) (ix2 p q)
      = G8_4 V c (((cfg8.win 4).blk t).view.emb (ix2 p q))
  refine Eq.trans ?_ (congrArg (G8_4 V c) (emb8_4 t p q).symm)
  refine (pay8_at _ _ _ _ p q).trans ?_
  show _ = GinSpec.logSoftmax (GinSpec.lin (GinSpec.onCoords (arr8_0 V c)) (GinSpec.onCoords (arr8_1 V c))
    (GinSpec.onCoords (arr8_2 V c)) (GinSpec.rowVec (arr8_3 V c))) (row8 t p) q
  refine logSoftmax_row_congr _ _ p (row8 t p) (fun j => ?_) q
  have h0 : ∀ k : Fin 64, iblk8 V c 0 t (ix2 p k) = arr8_0 V c (ix2 (row8 t p) k) := fun k => by
    show arr8_0 V c (((cfg8.win 0).blk t).view.emb (ix2 p k)) = _
    rw [emb8_0]
  have h1 : ∀ k : Fin 64, iblk8 V c 1 t (ix2 p k) = arr8_1 V c (ix2 (row8 t p) k) := fun k => by
    show arr8_1 V c (((cfg8.win 1).blk t).view.emb (ix2 p k)) = _
    rw [emb8_1]
  have h2 : ∀ k : Fin 64, iblk8 V c 2 t (ix2 k j) = arr8_2 V c (ix2 k j) := fun k => by
    show arr8_2 V c (((cfg8.win 2).blk t).view.emb (ix2 k j)) = _
    rw [emb8_2]
  have h3 : iblk8 V c 3 t (ix2 (0 : Fin 1) j) = arr8_3 V c (ix2 (0 : Fin 1) j) := by
    show arr8_3 V c (((cfg8.win 3).blk t).view.emb (ix2 (0 : Fin 1) j)) = _
    rw [emb8_3]
  refine (lin_ix2 _ _ _ _ p j).trans ?_
  refine Eq.trans ?_ (lin_ix2 (arr8_0 V c) (arr8_1 V c) (arr8_2 V c) (arr8_3 V c) (row8 t p) j).symm
  rw [h3]
  refine congrArg (· + _) (Finset.sum_congr rfl fun k _ => ?_)
  rw [h0 k, h1 k, h2 k]

/-! ## The blocks cover the array -/

/-- An index of the array is in point `t`'s block iff each coordinate is in the block's range on its axis. -/
theorem mem_blk8_4 (t : Fin cfg8.N) (i : S100000x40.Idx) :
    i ∈ ((cfg8.win 4).blk t).view.set ↔ ∀ a : Fin 2, win8_4.index t a * S5000x40.size a ≤ (i a).val ∧ (i a).val < win8_4.index t a * S5000x40.size a + S5000x40.size a := by
  show i ∈ ((View.whole main_v103).slice (win8_4.rect t)).set ↔ _
  rw [View.set_slice_whole, Rect.mem_set_unit]
  exact Iff.rfl

/-- Every block of 5000 rows is some point's. -/
theorem idx_onto8 : ∀ q0 : Fin 20, ∃ t : Fin cfg8.N, win8_4.index t = ![q0.val, 0] :=
  (by decide +kernel : ∀ q0 : Fin 20, ∃ t : Fin grid8.N, win8_4.index t = ![q0.val, 0])

/-- Every index of the array is in the block of the point that holds its row: row `r` is in block `r / 5000`. -/
theorem cover8_all (i : S100000x40.Idx) :
    ∃ t : Fin cfg8.N, (cfg8.win 4).flush t = true ∧ i ∈ ((cfg8.win 4).blk t).view.set := by
  have hi0 : (i 0).val < 100000 := (i 0).isLt
  have hi1 : (i 1).val < 40 := (i 1).isLt
  obtain ⟨t, ht⟩ := idx_onto8 ⟨(i 0).val / 5000, by omega⟩
  have q0 : win8_4.index t (0 : Fin 2) = (i 0).val / 5000 := congrFun ht 0
  have q1 : win8_4.index t (1 : Fin 2) = 0 := congrFun ht 1
  refine ⟨t, flush8_4 t, ?_⟩
  rw [mem_blk8_4]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 40 ≤ (i 1).val ∧ (i 1).val < win8_4.index t (1 : Fin 2) * 40 + 40; omega

/-! ## The array after the region -/

/-- The output array after the region is `G8_4` of the region's entry arrays. -/
theorem final8_4_G (c : Dev nD) : (dat8 V c).arrAt 4 cfg8.N = G8_4 V c :=
  (dat8 V c).arrAt_eq_of_cover 4 (G8_4 V c) (fun t _ => flushed8_4_eq V c t) (cover8_all)

/-- The same, spelt out: the rows' logarithm of the softmax of the linear stage of the entry arrays, index by index. -/
theorem final8_4 (c : Dev nD) : (dat8 V c).arrAt 4 cfg8.N = fun i =>
    GinSpec.logSoftmax (GinSpec.lin (GinSpec.onCoords (V c main_v91)) (GinSpec.onCoords (V c main_v101))
      (GinSpec.onCoords (V c main_arg6)) (GinSpec.rowVec (V c main_v102))) (i 0) (i 1) :=
  final8_4_G V c

end Value
end Cert.KernelIdeal.Hand
-- ==== Proof.KI.R0Stats.lean ====
import proofs.«128301_j8701603742430_2_alg».proof.Proof.KI.R0Value
import proofs.«128301_j8701603742430_2_alg».proof.Proof.LibPlainProduct
import proofs.«128301_j8701603742430_2_alg».proof.Proof.LibNarrowedProduct
import proofs.«128301_j8701603742430_2_alg».proof.Proof.LibBlockedSum
import proofs.«128301_j8701603742430_2_alg».proof.Proof.LibColumn
import proofs.«128301_j8701603742430_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! # The two column moments of region 0: what the statistics outputs end holding -/

/-- Term `k` of column `q` of the rectified linear stage, extended by zero past the last row: what the running total adds up. -/
def term0_5 (c : Dev nD) (q : Fin 64) (k : ℕ) : EReal :=
  if h : k < 100000 then Z0 (arr0_0 V c) (arr0_1 V c) (arr0_2 V c) (arr0_3 V c) ⟨k, h⟩ q else 0

/-- The body's contribution of point `t` to accumulator 0: the terms of rows `5000 t` to `5000 t + 4999`. -/
theorem block0_5_sum (c : Dev nD) (t : Fin cfg0.N) (q : Fin 64) :
    ∑ r : Fin 5000, k0_pay4 (iblk0 V c 0 t) (iblk0 V c 1 t) (iblk0 V c 2 t) (iblk0 V c 3 t) (ix2 r q)
      = ∑ j ∈ Finset.range 5000, term0_5 V c q (t.val * 5000 + j) := by
  have hN : t.val < 20 := lt_of_lt_of_eq t.isLt (show cfg0.N = 20 from N_0)
  rw [← Fin.sum_univ_eq_sum_range (fun j => term0_5 V c q (t.val * 5000 + j)) 5000]
  refine Finset.sum_congr rfl fun r _ => ?_
  have hr : t.val * 5000 + r.val < 100000 := by have := r.isLt; omega
  rw [blk0_at V c t r q hr]
  unfold term0_5
  rw [dif_pos hr]

/-- One step of accumulator 0 at column `q`. -/
theorem acc0_8_at (v : Vec Ideal S1x64 .f32) (x1 x2 : Vec Ideal S5000x64 .f32) (x3 : Vec Ideal S64x64 .f32) (x4 : Vec Ideal S1x64 .f32) (q : Fin 64) :
    acc0_8 v x1 x2 x3 x4 (ix2 (0 : Fin 1) q) = v (ix2 (0 : Fin 1) q) + ∑ r : Fin 5000, k0_pay4 x1 x2 x3 x4 (ix2 r q) := by
  unfold acc0_8
  rw [View.canon_unit_zero hz2_0]
  simp only [View.ld_unit_zero (S := S5000x64) hz2_0, View.ld_unit_zero (S := S64x64) hz2_0, View.ld_unit_zero (S := S1x64) hz2_0]
  exact pay0_5_at x1 x2 x3 x4 v q

/-- THE RUNNING TOTAL: after point `n` accumulator 0 holds, at column `q`, the terms of the first `n + 1` blocks of rows. -/
theorem scr0_5_at (c : Dev nD) : ∀ (n : ℕ) (h : n < cfg0.N) (q : Fin 64),
    (scr0 V c n h).1 (ix2 (0 : Fin 1) q) = ∑ b ∈ Finset.range (n + 1), ∑ j ∈ Finset.range 5000, term0_5 V c q (b * 5000 + j)
  | 0, h, q => by
    show acc0_8 (k0_pay2 (F := Ideal)) (iblk0 V c 0 ⟨0, h⟩) (iblk0 V c 1 ⟨0, h⟩) (iblk0 V c 2 ⟨0, h⟩) (iblk0 V c 3 ⟨0, h⟩) (ix2 (0 : Fin 1) q) = _
    rw [acc0_8_at, pay0_2_at (0 : Fin 1) q, zero_add, block0_5_sum V c ⟨0, h⟩ q, Finset.sum_range_one]
  | n + 1, h, q => by
    show acc0_8 (View.ld (scr0 V c n (Nat.lt_of_succ_lt h)).1 rB0) (iblk0 V c 0 ⟨n + 1, h⟩) (iblk0 V c 1 ⟨n + 1, h⟩) (iblk0 V c 2 ⟨n + 1, h⟩) (iblk0 V c 3 ⟨n + 1, h⟩) (ix2 (0 : Fin 1) q) = _
    rw [acc0_8_at, View.ld_unit_zero (S := S1x64) hz2_0, block0_5_sum V c ⟨n + 1, h⟩ q, Finset.sum_range_succ (fun b => ∑ j ∈ Finset.range 5000, term0_5 V c q (b * 5000 + j)) (n + 1)]
    exact congrArg (· + ∑ j ∈ Finset.range 5000, term0_5 V c q ((n + 1) * 5000 + j)) (scr0_5_at c n (Nat.lt_of_succ_lt h) q)

/-- After the last point it holds the whole column's total. -/
theorem scr0_5_last (c : Dev nD) (h : 19 < cfg0.N) (q : Fin 64) :
    (scr0 V c 19 h).1 (ix2 (0 : Fin 1) q) = GinSpec.colSum (Z0 (arr0_0 V c) (arr0_1 V c) (arr0_2 V c) (arr0_3 V c)) q := by
  rw [scr0_5_at V c 19 h q, ← BlockedSum.sum_range_mul (term0_5 V c q) 20 5000,
    ← Fin.sum_univ_eq_sum_range (term0_5 V c q) (20 * 5000)]
  show ∑ k : Fin 100000, term0_5 V c q k.val = ∑ i : Fin 100000, _
  refine Finset.sum_congr rfl fun k _ => ?_
  unfold term0_5
  rw [dif_pos k.isLt]

/-- The same at a point known to be the last. -/
theorem scr0_5_last' (c : Dev nD) (t : Fin cfg0.N) (h19 : t.val = 19) (q : Fin 64) :
    (scr0 V c t.val t.isLt).1 (ix2 (0 : Fin 1) q) = GinSpec.colSum (Z0 (arr0_0 V c) (arr0_1 V c) (arr0_2 V c) (arr0_3 V c)) q := by
  obtain ⟨n, hn⟩ := t
  obtain rfl : n = 19 := h19
  exact scr0_5_last V c hn q

/-- WHAT THE LAST POINT WRITES BACK into statistics output 0 is (the one block of) any array `G` that agrees, column by
    column, with what accumulator 0 then holds. -/
theorem flushed0_5_of (c : Dev nD) (t : Fin cfg0.N) (G : S1x64.Idx → EReal)
    (hG : ∀ q : Fin 64, (scr0 V c t.val t.isLt).1 (ix2 (0 : Fin 1) q) = G (ix2 (0 : Fin 1) q)) :
    (dat0 V c).flushed 5 t = ((cfg0.win 5).blk t).view.read (Elt Ideal) G := by
  obtain ⟨-, -, -, -, -, -, -, -, -, -, e50, e51, e60, e61⟩ := idx0_facts t
  show (cfg0.win 5).cut (grid0.coords t) ((dat0 V c).after 5 t) = _
  rw [after0_5]
  unfold cp0
  rw [View.canon_unit_zero hz2_0, View.ld_unit_zero (S := S1x64) hz2_0]
  funext j
  obtain ⟨u, q, rfl⟩ : ∃ (u : Fin 1) (q : Fin 64), j = ix2 u q := ⟨j 0, j 1, eq_ix2 j⟩
  obtain rfl : u = (0 : Fin 1) := Subsingleton.elim _ _
  refine (hG q).trans ?_
  rw [View.read_apply]
  show G (ix2 (0 : Fin 1) q) = G (((View.whole main_v15_1).slice ((win0 5).rect t)).emb (ix2 (0 : Fin 1) q))
  refine congrArg G (funext fun a => Fin.ext ?_)
  match a with
  | ⟨0, _⟩ => show (0 : ℕ) = win0_5.index t 0 * 1 + 1 * 0; rw [e50]
  | ⟨1, _⟩ => show q.val = win0_5.index t 1 * 64 + 1 * q.val; rw [e51]; omega

/-- So it is the one block of `G0_5` of the input arrays. -/
theorem flushed0_5_eq (c : Dev nD) (t : Fin cfg0.N) (hf : (cfg0.win 5).flush t = true) :
    (dat0 V c).flushed 5 t = ((cfg0.win 5).blk t).view.read (Elt Ideal) (G0_5 (arr0_0 V c) (arr0_1 V c) (arr0_2 V c) (arr0_3 V c)) := by
  have hN : cfg0.N = 20 := N_0
  have h19 : t.val = 19 := by have := (flush0_5 t).mp hf; have := t.isLt; omega
  exact flushed0_5_of V c t _ (fun q => scr0_5_last' V c t h19 q)

/-- Every index of statistics output 0 is in the last point's block (the whole array). -/
theorem cover0_5 (i : S1x64.Idx) : ∃ t : Fin cfg0.N, (cfg0.win 5).flush t = true ∧ i ∈ ((cfg0.win 5).blk t).view.set := by
  have hi0 : (i 0).val < 1 := (i 0).isLt
  have hi1 : (i 1).val < 64 := (i 1).isLt
  have hN : cfg0.N = 20 := N_0
  have ht : 19 < cfg0.N := by omega
  obtain ⟨-, -, -, -, -, -, -, -, -, -, e50, e51, e60, e61⟩ := idx0_facts ⟨19, ht⟩
  refine ⟨⟨19, ht⟩, (flush0_5 _).mpr rfl, ?_⟩
  show i ∈ ((View.whole main_v15_1).slice (win0_5.rect ⟨19, ht⟩)).set
  rw [View.set_slice_whole, Rect.mem_set_unit]
  intro a
  match a with
  | ⟨0, _⟩ => show win0_5.index ⟨19, ht⟩ 0 * 1 ≤ (i 0).val ∧ (i 0).val < win0_5.index ⟨19, ht⟩ 0 * 1 + 1; rw [e50]; omega
  | ⟨1, _⟩ => show win0_5.index ⟨19, ht⟩ 1 * 64 ≤ (i 1).val ∧ (i 1).val < win0_5.index ⟨19, ht⟩ 1 * 64 + 64; rw [e51]; omega

/-- STATISTICS OUTPUT 0 after the region, index by index. -/
theorem final0_5 (c : Dev nD) : (dat0 V c).arrAt 5 cfg0.N
    = fun i => GinSpec.colSum (GinSpec.relu (GinSpec.lin (GinSpec.onCoords (V c main_arg0)) (GinSpec.onCoords (V c main_v13)) (GinSpec.onCoords (V c main_arg2)) (GinSpec.rowVec (V c main_v14)))) (i 1) :=
  (dat0 V c).arrAt_eq_of_cover 5 (G0_5 (arr0_0 V c) (arr0_1 V c) (arr0_2 V c) (arr0_3 V c)) (flushed0_5_eq V c) (cover0_5)

/-- Term `k` of column `q` of the square of the rectified linear stage, extended by zero past the last row: what the running total adds up. -/
def term0_6 (c : Dev nD) (q : Fin 64) (k : ℕ) : EReal :=
  if h : k < 100000 then Z0 (arr0_0 V c) (arr0_1 V c) (arr0_2 V c) (arr0_3 V c) ⟨k, h⟩ q * Z0 (arr0_0 V c) (arr0_1 V c) (arr0_2 V c) (arr0_3 V c) ⟨k, h⟩ q else 0

/-- The body's contribution of point `t` to accumulator 1: the terms of rows `5000 t` to `5000 t + 4999`. -/
theorem block0_6_sum (c : Dev nD) (t : Fin cfg0.N) (q : Fin 64) :
    ∑ r : Fin 5000, k0_pay4 (iblk0 V c 0 t) (iblk0 V c 1 t) (iblk0 V c 2 t) (iblk0 V c 3 t) (ix2 r q) * k0_pay4 (iblk0 V c 0 t) (iblk0 V c 1 t) (iblk0 V c 2 t) (iblk0 V c 3 t) (ix2 r q)
      = ∑ j ∈ Finset.range 5000, term0_6 V c q (t.val * 5000 + j) := by
  have hN : t.val < 20 := lt_of_lt_of_eq t.isLt (show cfg0.N = 20 from N_0)
  rw [← Fin.sum_univ_eq_sum_range (fun j => term0_6 V c q (t.val * 5000 + j)) 5000]
  refine Finset.sum_congr rfl fun r _ => ?_
  have hr : t.val * 5000 + r.val < 100000 := by have := r.isLt; omega
  rw [blk0_at V c t r q hr]
  unfold term0_6
  rw [dif_pos hr]

/-- One step of accumulator 1 at column `q`. -/
theorem acc0_9_at (v : Vec Ideal S1x64 .f32) (x1 x2 : Vec Ideal S5000x64 .f32) (x3 : Vec Ideal S64x64 .f32) (x4 : Vec Ideal S1x64 .f32) (q : Fin 64) :
    acc0_9 v x1 x2 x3 x4 (ix2 (0 : Fin 1) q) = v (ix2 (0 : Fin 1) q) + ∑ r : Fin 5000, k0_pay4 x1 x2 x3 x4 (ix2 r q) * k0_pay4 x1 x2 x3 x4 (ix2 r q) := by
  unfold acc0_9
  rw [View.canon_unit_zero hz2_0]
  simp only [View.ld_unit_zero (S := S5000x64) hz2_0, View.ld_unit_zero (S := S64x64) hz2_0, View.ld_unit_zero (S := S1x64) hz2_0]
  exact pay0_6_at x1 x2 x3 x4 v q

/-- THE RUNNING TOTAL: after point `n` accumulator 1 holds, at column `q`, the terms of the first `n + 1` blocks of rows. -/
theorem scr0_6_at (c : Dev nD) : ∀ (n : ℕ) (h : n < cfg0.N) (q : Fin 64),
    (scr0 V c n h).2 (ix2 (0 : Fin 1) q) = ∑ b ∈ Finset.range (n + 1), ∑ j ∈ Finset.range 5000, term0_6 V c q (b * 5000 + j)
  | 0, h, q => by
    show acc0_9 (k0_pay3 (F := Ideal)) (iblk0 V c 0 ⟨0, h⟩) (iblk0 V c 1 ⟨0, h⟩) (iblk0 V c 2 ⟨0, h⟩) (iblk0 V c 3 ⟨0, h⟩) (ix2 (0 : Fin 1) q) = _
    rw [acc0_9_at, pay0_3_at (0 : Fin 1) q, zero_add, block0_6_sum V c ⟨0, h⟩ q, Finset.sum_range_one]
  | n + 1, h, q => by
    show acc0_9 (View.ld (scr0 V c n (Nat.lt_of_succ_lt h)).2 rB0) (iblk0 V c 0 ⟨n + 1, h⟩) (iblk0 V c 1 ⟨n + 1, h⟩) (iblk0 V c 2 ⟨n + 1, h⟩) (iblk0 V c 3 ⟨n + 1, h⟩) (ix2 (0 : Fin 1) q) = _
    rw [acc0_9_at, View.ld_unit_zero (S := S1x64) hz2_0, block0_6_sum V c ⟨n + 1, h⟩ q, Finset.sum_range_succ (fun b => ∑ j ∈ Finset.range 5000, term0_6 V c q (b * 5000 + j)) (n + 1)]
    exact congrArg (· + ∑ j ∈ Finset.range 5000, term0_6 V c q ((n + 1) * 5000 + j)) (scr0_6_at c n (Nat.lt_of_succ_lt h) q)

/-- After the last point it holds the whole column's total. -/
theorem scr0_6_last (c : Dev nD) (h : 19 < cfg0.N) (q : Fin 64) :
    (scr0 V c 19 h).2 (ix2 (0 : Fin 1) q) = GinSpec.colSumSq (Z0 (arr0_0 V c) (arr0_1 V c) (arr0_2 V c) (arr0_3 V c)) q := by
  rw [scr0_6_at V c 19 h q, ← BlockedSum.sum_range_mul (term0_6 V c q) 20 5000,
    ← Fin.sum_univ_eq_sum_range (term0_6 V c q) (20 * 5000)]
  show ∑ k : Fin 100000, term0_6 V c q k.val = ∑ i : Fin 100000, _
  refine Finset.sum_congr rfl fun k _ => ?_
  unfold term0_6
  rw [dif_pos k.isLt]

/-- The same at a point known to be the last. -/
theorem scr0_6_last' (c : Dev nD) (t : Fin cfg0.N) (h19 : t.val = 19) (q : Fin 64) :
    (scr0 V c t.val t.isLt).2 (ix2 (0 : Fin 1) q) = GinSpec.colSumSq (Z0 (arr0_0 V c) (arr0_1 V c) (arr0_2 V c) (arr0_3 V c)) q := by
  obtain ⟨n, hn⟩ := t
  obtain rfl : n = 19 := h19
  exact scr0_6_last V c hn q

/-- WHAT THE LAST POINT WRITES BACK into statistics output 1 is (the one block of) any array `G` that agrees, column by
    column, with what accumulator 1 then holds. -/
theorem flushed0_6_of (c : Dev nD) (t : Fin cfg0.N) (G : S1x64.Idx → EReal)
    (hG : ∀ q : Fin 64, (scr0 V c t.val t.isLt).2 (ix2 (0 : Fin 1) q) = G (ix2 (0 : Fin 1) q)) :
    (dat0 V c).flushed 6 t = ((cfg0.win 6).blk t).view.read (Elt Ideal) G := by
  obtain ⟨-, -, -, -, -, -, -, -, -, -, e50, e51, e60, e61⟩ := idx0_facts t
  show (cfg0.win 6).cut (grid0.coords t) ((dat0 V c).after 6 t) = _
  rw [after0_6]
  unfold cp0
  rw [View.canon_unit_zero hz2_0, View.ld_unit_zero (S := S1x64) hz2_0]
  funext j
  obtain ⟨u, q, rfl⟩ : ∃ (u : Fin 1) (q : Fin 64), j = ix2 u q := ⟨j 0, j 1, eq_ix2 j⟩
  obtain rfl : u = (0 : Fin 1) := Subsingleton.elim _ _
  refine (hG q).trans ?_
  rw [View.read_apply]
  show G (ix2 (0 : Fin 1) q) = G (((View.whole main_v15_2).slice ((win0 6).rect t)).emb (ix2 (0 : Fin 1) q))
  refine congrArg G (funext fun a => Fin.ext ?_)
  match a with
  | ⟨0, _⟩ => show (0 : ℕ) = win0_6.index t 0 * 1 + 1 * 0; rw [e60]
  | ⟨1, _⟩ => show q.val = win0_6.index t 1 * 64 + 1 * q.val; rw [e61]; omega

/-- So it is the one block of `G0_6` of the input arrays. -/
theorem flushed0_6_eq (c : Dev nD) (t : Fin cfg0.N) (hf : (cfg0.win 6).flush t = true) :
    (dat0 V c).flushed 6 t = ((cfg0.win 6).blk t).view.read (Elt Ideal) (G0_6 (arr0_0 V c) (arr0_1 V c) (arr0_2 V c) (arr0_3 V c)) := by
  have hN : cfg0.N = 20 := N_0
  have h19 : t.val = 19 := by have := (flush0_6 t).mp hf; have := t.isLt; omega
  exact flushed0_6_of V c t _ (fun q => scr0_6_last' V c t h19 q)

/-- Every index of statistics output 1 is in the last point's block (the whole array). -/
theorem cover0_6 (i : S1x64.Idx) : ∃ t : Fin cfg0.N, (cfg0.win 6).flush t = true ∧ i ∈ ((cfg0.win 6).blk t).view.set := by
  have hi0 : (i 0).val < 1 := (i 0).isLt
  have hi1 : (i 1).val < 64 := (i 1).isLt
  have hN : cfg0.N = 20 := N_0
  have ht : 19 < cfg0.N := by omega
  obtain ⟨-, -, -, -, -, -, -, -, -, -, e50, e51, e60, e61⟩ := idx0_facts ⟨19, ht⟩
  refine ⟨⟨19, ht⟩, (flush0_6 _).mpr rfl, ?_⟩
  show i ∈ ((View.whole main_v15_2).slice (win0_6.rect ⟨19, ht⟩)).set
  rw [View.set_slice_whole, Rect.mem_set_unit]
  intro a
  match a with
  | ⟨0, _⟩ => show win0_6.index ⟨19, ht⟩ 0 * 1 ≤ (i 0).val ∧ (i 0).val < win0_6.index ⟨19, ht⟩ 0 * 1 + 1; rw [e60]; omega
  | ⟨1, _⟩ => show win0_6.index ⟨19, ht⟩ 1 * 64 ≤ (i 1).val ∧ (i 1).val < win0_6.index ⟨19, ht⟩ 1 * 64 + 64; rw [e61]; omega

/-- STATISTICS OUTPUT 1 after the region, index by index. -/
theorem final0_6 (c : Dev nD) : (dat0 V c).arrAt 6 cfg0.N
    = fun i => GinSpec.colSumSq (GinSpec.relu (GinSpec.lin (GinSpec.onCoords (V c main_arg0)) (GinSpec.onCoords (V c main_v13)) (GinSpec.onCoords (V c main_arg2)) (GinSpec.rowVec (V c main_v14)))) (i 1) :=
  (dat0 V c).arrAt_eq_of_cover 6 (G0_6 (arr0_0 V c) (arr0_1 V c) (arr0_2 V c) (arr0_3 V c)) (flushed0_6_eq V c) (cover0_6)

end Cert.KernelIdeal.Hand
end
-- ==== Proof.KI.R2Stats.lean ====
import proofs.«128301_j8701603742430_2_alg».proof.Proof.KI.R2Value
import proofs.«128301_j8701603742430_2_alg».proof.Proof.LibPlainProduct
import proofs.«128301_j8701603742430_2_alg».proof.Proof.LibNarrowedProduct
import proofs.«128301_j8701603742430_2_alg».proof.Proof.LibBlockedSum
import proofs.«128301_j8701603742430_2_alg».proof.Proof.LibColumn
import proofs.«128301_j8701603742430_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! # The two column moments of region 2: what the statistics outputs end holding -/

/-- Term `k` of column `q` of the rectified linear stage, extended by zero past the last row: what the running total adds up. -/
def term2_5 (c : Dev nD) (q : Fin 64) (k : ℕ) : EReal :=
  if h : k < 100000 then Z2 (arr2_0 V c) (arr2_1 V c) (arr2_2 V c) (arr2_3 V c) ⟨k, h⟩ q else 0

/-- The body's contribution of point `t` to accumulator 0: the terms of rows `5000 t` to `5000 t + 4999`. -/
theorem block2_5_sum (c : Dev nD) (t : Fin cfg2.N) (q : Fin 64) :
    ∑ r : Fin 5000, k2_pay4 (iblk2 V c 0 t) (iblk2 V c 1 t) (iblk2 V c 2 t) (iblk2 V c 3 t) (ix2 r q)
      = ∑ j ∈ Finset.range 5000, term2_5 V c q (t.val * 5000 + j) := by
  have hN : t.val < 20 := lt_of_lt_of_eq t.isLt (show cfg2.N = 20 from N_2)
  rw [← Fin.sum_univ_eq_sum_range (fun j => term2_5 V c q (t.val * 5000 + j)) 5000]
  refine Finset.sum_congr rfl fun r _ => ?_
  have hr : t.val * 5000 + r.val < 100000 := by have := r.isLt; omega
  rw [blk2_at V c t r q hr]
  unfold term2_5
  rw [dif_pos hr]

/-- One step of accumulator 0 at column `q`. -/
theorem acc2_8_at (v : Vec Ideal S1x64 .f32) (x1 x2 : Vec Ideal S5000x64 .f32) (x3 : Vec Ideal S64x64 .f32) (x4 : Vec Ideal S1x64 .f32) (q : Fin 64) :
    acc2_8 v x1 x2 x3 x4 (ix2 (0 : Fin 1) q) = v (ix2 (0 : Fin 1) q) + ∑ r : Fin 5000, k2_pay4 x1 x2 x3 x4 (ix2 r q) := by
  unfold acc2_8
  rw [View.canon_unit_zero hz2_2]
  simp only [View.ld_unit_zero (S := S5000x64) hz2_2, View.ld_unit_zero (S := S64x64) hz2_2, View.ld_unit_zero (S := S1x64) hz2_2]
  exact pay2_5_at x1 x2 x3 x4 v q

/-- THE RUNNING TOTAL: after point `n` accumulator 0 holds, at column `q`, the terms of the first `n + 1` blocks of rows. -/
theorem scr2_5_at (c : Dev nD) : ∀ (n : ℕ) (h : n < cfg2.N) (q : Fin 64),
    (scr2 V c n h).1 (ix2 (0 : Fin 1) q) = ∑ b ∈ Finset.range (n + 1), ∑ j ∈ Finset.range 5000, term2_5 V c q (b * 5000 + j)
  | 0, h, q => by
    show acc2_8 (k2_pay2 (F := Ideal)) (iblk2 V c 0 ⟨0, h⟩) (iblk2 V c 1 ⟨0, h⟩) (iblk2 V c 2 ⟨0, h⟩) (iblk2 V c 3 ⟨0, h⟩) (ix2 (0 : Fin 1) q) = _
    rw [acc2_8_at, pay2_2_at (0 : Fin 1) q, zero_add, block2_5_sum V c ⟨0, h⟩ q, Finset.sum_range_one]
  | n + 1, h, q => by
    show acc2_8 (View.ld (scr2 V c n (Nat.lt_of_succ_lt h)).1 rB2) (iblk2 V c 0 ⟨n + 1, h⟩) (iblk2 V c 1 ⟨n + 1, h⟩) (iblk2 V c 2 ⟨n + 1, h⟩) (iblk2 V c 3 ⟨n + 1, h⟩) (ix2 (0 : Fin 1) q) = _
    rw [acc2_8_at, View.ld_unit_zero (S := S1x64) hz2_2, block2_5_sum V c ⟨n + 1, h⟩ q, Finset.sum_range_succ (fun b => ∑ j ∈ Finset.range 5000, term2_5 V c q (b * 5000 + j)) (n + 1)]
    exact congrArg (· + ∑ j ∈ Finset.range 5000, term2_5 V c q ((n + 1) * 5000 + j)) (scr2_5_at c n (Nat.lt_of_succ_lt h) q)

/-- After the last point it holds the whole column's total. -/
theorem scr2_5_last (c : Dev nD) (h : 19 < cfg2.N) (q : Fin 64) :
    (scr2 V c 19 h).1 (ix2 (0 : Fin 1) q) = GinSpec.colSum (Z2 (arr2_0 V c) (arr2_1 V c) (arr2_2 V c) (arr2_3 V c)) q := by
  rw [scr2_5_at V c 19 h q, ← BlockedSum.sum_range_mul (term2_5 V c q) 20 5000,
    ← Fin.sum_univ_eq_sum_range (term2_5 V c q) (20 * 5000)]
  show ∑ k : Fin 100000, term2_5 V c q k.val = ∑ i : Fin 100000, _
  refine Finset.sum_congr rfl fun k _ => ?_
  unfold term2_5
  rw [dif_pos k.isLt]

/-- The same at a point known to be the last. -/
theorem scr2_5_last' (c : Dev nD) (t : Fin cfg2.N) (h19 : t.val = 19) (q : Fin 64) :
    (scr2 V c t.val t.isLt).1 (ix2 (0 : Fin 1) q) = GinSpec.colSum (Z2 (arr2_0 V c) (arr2_1 V c) (arr2_2 V c) (arr2_3 V c)) q := by
  obtain ⟨n, hn⟩ := t
  obtain rfl : n = 19 := h19
  exact scr2_5_last V c hn q

/-- WHAT THE LAST POINT WRITES BACK into statistics output 0 is (the one block of) any array `G` that agrees, column by
    column, with what accumulator 0 then holds. -/
theorem flushed2_5_of (c : Dev nD) (t : Fin cfg2.N) (G : S1x64.Idx → EReal)
    (hG : ∀ q : Fin 64, (scr2 V c t.val t.isLt).1 (ix2 (0 : Fin 1) q) = G (ix2 (0 : Fin 1) q)) :
    (dat2 V c).flushed 5 t = ((cfg2.win 5).blk t).view.read (Elt Ideal) G := by
  obtain ⟨-, -, -, -, -, -, -, -, -, -, e50, e51, e60, e61⟩ := idx2_facts t
  show (cfg2.win 5).cut (grid2.coords t) ((dat2 V c).after 5 t) = _
  rw [after2_5]
  unfold cp2
  rw [View.canon_unit_zero hz2_2, View.ld_unit_zero (S := S1x64) hz2_2]
  funext j
  obtain ⟨u, q, rfl⟩ : ∃ (u : Fin 1) (q : Fin 64), j = ix2 u q := ⟨j 0, j 1, eq_ix2 j⟩
  obtain rfl : u = (0 : Fin 1) := Subsingleton.elim _ _
  refine (hG q).trans ?_
  rw [View.read_apply]
  show G (ix2 (0 : Fin 1) q) = G (((View.whole main_v38_1).slice ((win2 5).rect t)).emb (ix2 (0 : Fin 1) q))
  refine congrArg G (funext fun a => Fin.ext ?_)
  match a with
  | ⟨0, _⟩ => show (0 : ℕ) = win2_5.index t 0 * 1 + 1 * 0; rw [e50]
  | ⟨1, _⟩ => show q.val = win2_5.index t 1 * 64 + 1 * q.val; rw [e51]; omega

/-- So it is the one block of `G2_5` of the input arrays. -/
theorem flushed2_5_eq (c : Dev nD) (t : Fin cfg2.N) (hf : (cfg2.win 5).flush t = true) :
    (dat2 V c).flushed 5 t = ((cfg2.win 5).blk t).view.read (Elt Ideal) (G2_5 (arr2_0 V c) (arr2_1 V c) (arr2_2 V c) (arr2_3 V c)) := by
  have hN : cfg2.N = 20 := N_2
  have h19 : t.val = 19 := by have := (flush2_5 t).mp hf; have := t.isLt; omega
  exact flushed2_5_of V c t _ (fun q => scr2_5_last' V c t h19 q)

/-- Every index of statistics output 0 is in the last point's block (the whole array). -/
theorem cover2_5 (i : S1x64.Idx) : ∃ t : Fin cfg2.N, (cfg2.win 5).flush t = true ∧ i ∈ ((cfg2.win 5).blk t).view.set := by
  have hi0 : (i 0).val < 1 := (i 0).isLt
  have hi1 : (i 1).val < 64 := (i 1).isLt
  have hN : cfg2.N = 20 := N_2
  have ht : 19 < cfg2.N := by omega
  obtain ⟨-, -, -, -, -, -, -, -, -, -, e50, e51, e60, e61⟩ := idx2_facts ⟨19, ht⟩
  refine ⟨⟨19, ht⟩, (flush2_5 _).mpr rfl, ?_⟩
  show i ∈ ((View.whole main_v38_1).slice (win2_5.rect ⟨19, ht⟩)).set
  rw [View.set_slice_whole, Rect.mem_set_unit]
  intro a
  match a with
  | ⟨0, _⟩ => show win2_5.index ⟨19, ht⟩ 0 * 1 ≤ (i 0).val ∧ (i 0).val < win2_5.index ⟨19, ht⟩ 0 * 1 + 1; rw [e50]; omega
  | ⟨1, _⟩ => show win2_5.index ⟨19, ht⟩ 1 * 64 ≤ (i 1).val ∧ (i 1).val < win2_5.index ⟨19, ht⟩ 1 * 64 + 64; rw [e51]; omega

/-- STATISTICS OUTPUT 0 after the region, index by index. -/
theorem final2_5 (c : Dev nD) : (dat2 V c).arrAt 5 cfg2.N
    = fun i => GinSpec.colSum (GinSpec.relu (GinSpec.lin (GinSpec.onCoords (V c main_v22)) (GinSpec.onCoords (V c main_v32)) (GinSpec.onCoords (V c main_v34)) (GinSpec.rowVec (V c main_v37)))) (i 1) :=
  (dat2 V c).arrAt_eq_of_cover 5 (G2_5 (arr2_0 V c) (arr2_1 V c) (arr2_2 V c) (arr2_3 V c)) (flushed2_5_eq V c) (cover2_5)

/-- Term `k` of column `q` of the square of the rectified linear stage, extended by zero past the last row: what the running total adds up. -/
def term2_6 (c : Dev nD) (q : Fin 64) (k : ℕ) : EReal :=
  if h : k < 100000 then Z2 (arr2_0 V c) (arr2_1 V c) (arr2_2 V c) (arr2_3 V c) ⟨k, h⟩ q * Z2 (arr2_0 V c) (arr2_1 V c) (arr2_2 V c) (arr2_3 V c) ⟨k, h⟩ q else 0

/-- The body's contribution of point `t` to accumulator 1: the terms of rows `5000 t` to `5000 t + 4999`. -/
theorem block2_6_sum (c : Dev nD) (t : Fin cfg2.N) (q : Fin 64) :
    ∑ r : Fin 5000, k2_pay4 (iblk2 V c 0 t) (iblk2 V c 1 t) (iblk2 V c 2 t) (iblk2 V c 3 t) (ix2 r q) * k2_pay4 (iblk2 V c 0 t) (iblk2 V c 1 t) (iblk2 V c 2 t) (iblk2 V c 3 t) (ix2 r q)
      = ∑ j ∈ Finset.range 5000, term2_6 V c q (t.val * 5000 + j) := by
  have hN : t.val < 20 := lt_of_lt_of_eq t.isLt (show cfg2.N = 20 from N_2)
  rw [← Fin.sum_univ_eq_sum_range (fun j => term2_6 V c q (t.val * 5000 + j)) 5000]
  refine Finset.sum_congr rfl fun r _ => ?_
  have hr : t.val * 5000 + r.val < 100000 := by have := r.isLt; omega
  rw [blk2_at V c t r q hr]
  unfold term2_6
  rw [dif_pos hr]

/-- One step of accumulator 1 at column `q`. -/
theorem acc2_9_at (v : Vec Ideal S1x64 .f32) (x1 x2 : Vec Ideal S5000x64 .f32) (x3 : Vec Ideal S64x64 .f32) (x4 : Vec Ideal S1x64 .f32) (q : Fin 64) :
    acc2_9 v x1 x2 x3 x4 (ix2 (0 : Fin 1) q) = v (ix2 (0 : Fin 1) q) + ∑ r : Fin 5000, k2_pay4 x1 x2 x3 x4 (ix2 r q) * k2_pay4 x1 x2 x3 x4 (ix2 r q) := by
  unfold acc2_9
  rw [View.canon_unit_zero hz2_2]
  simp only [View.ld_unit_zero (S := S5000x64) hz2_2, View.ld_unit_zero (S := S64x64) hz2_2, View.ld_unit_zero (S := S1x64) hz2_2]
  exact pay2_6_at x1 x2 x3 x4 v q

/-- THE RUNNING TOTAL: after point `n` accumulator 1 holds, at column `q`, the terms of the first `n + 1` blocks of rows. -/
theorem scr2_6_at (c : Dev nD) : ∀ (n : ℕ) (h : n < cfg2.N) (q : Fin 64),
    (scr2 V c n h).2 (ix2 (0 : Fin 1) q) = ∑ b ∈ Finset.range (n + 1), ∑ j ∈ Finset.range 5000, term2_6 V c q (b * 5000 + j)
  | 0, h, q => by
    show acc2_9 (k2_pay3 (F := Ideal)) (iblk2 V c 0 ⟨0, h⟩) (iblk2 V c 1 ⟨0, h⟩) (iblk2 V c 2 ⟨0, h⟩) (iblk2 V c 3 ⟨0, h⟩) (ix2 (0 : Fin 1) q) = _
    rw [acc2_9_at, pay2_3_at (0 : Fin 1) q, zero_add, block2_6_sum V c ⟨0, h⟩ q, Finset.sum_range_one]
  | n + 1, h, q => by
    show acc2_9 (View.ld (scr2 V c n (Nat.lt_of_succ_lt h)).2 rB2) (iblk2 V c 0 ⟨n + 1, h⟩) (iblk2 V c 1 ⟨n + 1, h⟩) (iblk2 V c 2 ⟨n + 1, h⟩) (iblk2 V c 3 ⟨n + 1, h⟩) (ix2 (0 : Fin 1) q) = _
    rw [acc2_9_at, View.ld_unit_zero (S := S1x64) hz2_2, block2_6_sum V c ⟨n + 1, h⟩ q, Finset.sum_range_succ (fun b => ∑ j ∈ Finset.range 5000, term2_6 V c q (b * 5000 + j)) (n + 1)]
    exact congrArg (· + ∑ j ∈ Finset.range 5000, term2_6 V c q ((n + 1) * 5000 + j)) (scr2_6_at c n (Nat.lt_of_succ_lt h) q)

/-- After the last point it holds the whole column's total. -/
theorem scr2_6_last (c : Dev nD) (h : 19 < cfg2.N) (q : Fin 64) :
    (scr2 V c 19 h).2 (ix2 (0 : Fin 1) q) = GinSpec.colSumSq (Z2 (arr2_0 V c) (arr2_1 V c) (arr2_2 V c) (arr2_3 V c)) q := by
  rw [scr2_6_at V c 19 h q, ← BlockedSum.sum_range_mul (term2_6 V c q) 20 5000,
    ← Fin.sum_univ_eq_sum_range (term2_6 V c q) (20 * 5000)]
  show ∑ k : Fin 100000, term2_6 V c q k.val = ∑ i : Fin 100000, _
  refine Finset.sum_congr rfl fun k _ => ?_
  unfold term2_6
  rw [dif_pos k.isLt]

/-- The same at a point known to be the last. -/
theorem scr2_6_last' (c : Dev nD) (t : Fin cfg2.N) (h19 : t.val = 19) (q : Fin 64) :
    (scr2 V c t.val t.isLt).2 (ix2 (0 : Fin 1) q) = GinSpec.colSumSq (Z2 (arr2_0 V c) (arr2_1 V c) (arr2_2 V c) (arr2_3 V c)) q := by
  obtain ⟨n, hn⟩ := t
  obtain rfl : n = 19 := h19
  exact scr2_6_last V c hn q

/-- WHAT THE LAST POINT WRITES BACK into statistics output 1 is (the one block of) any array `G` that agrees, column by
    column, with what accumulator 1 then holds. -/
theorem flushed2_6_of (c : Dev nD) (t : Fin cfg2.N) (G : S1x64.Idx → EReal)
    (hG : ∀ q : Fin 64, (scr2 V c t.val t.isLt).2 (ix2 (0 : Fin 1) q) = G (ix2 (0 : Fin 1) q)) :
    (dat2 V c).flushed 6 t = ((cfg2.win 6).blk t).view.read (Elt Ideal) G := by
  obtain ⟨-, -, -, -, -, -, -, -, -, -, e50, e51, e60, e61⟩ := idx2_facts t
  show (cfg2.win 6).cut (grid2.coords t) ((dat2 V c).after 6 t) = _
  rw [after2_6]
  unfold cp2
  rw [View.canon_unit_zero hz2_2, View.ld_unit_zero (S := S1x64) hz2_2]
  funext j
  obtain ⟨u, q, rfl⟩ : ∃ (u : Fin 1) (q : Fin 64), j = ix2 u q := ⟨j 0, j 1, eq_ix2 j⟩
  obtain rfl : u = (0 : Fin 1) := Subsingleton.elim _ _
  refine (hG q).trans ?_
  rw [View.read_apply]
  show G (ix2 (0 : Fin 1) q) = G (((View.whole main_v38_2).slice ((win2 6).rect t)).emb (ix2 (0 : Fin 1) q))
  refine congrArg G (funext fun a => Fin.ext ?_)
  match a with
  | ⟨0, _⟩ => show (0 : ℕ) = win2_6.index t 0 * 1 + 1 * 0; rw [e60]
  | ⟨1, _⟩ => show q.val = win2_6.index t 1 * 64 + 1 * q.val; rw [e61]; omega

/-- So it is the one block of `G2_6` of the input arrays. -/
theorem flushed2_6_eq (c : Dev nD) (t : Fin cfg2.N) (hf : (cfg2.win 6).flush t = true) :
    (dat2 V c).flushed 6 t = ((cfg2.win 6).blk t).view.read (Elt Ideal) (G2_6 (arr2_0 V c) (arr2_1 V c) (arr2_2 V c) (arr2_3 V c)) := by
  have hN : cfg2.N = 20 := N_2
  have h19 : t.val = 19 := by have := (flush2_6 t).mp hf; have := t.isLt; omega
  exact flushed2_6_of V c t _ (fun q => scr2_6_last' V c t h19 q)

/-- Every index of statistics output 1 is in the last point's block (the whole array). -/
theorem cover2_6 (i : S1x64.Idx) : ∃ t : Fin cfg2.N, (cfg2.win 6).flush t = true ∧ i ∈ ((cfg2.win 6).blk t).view.set := by
  have hi0 : (i 0).val < 1 := (i 0).isLt
  have hi1 : (i 1).val < 64 := (i 1).isLt
  have hN : cfg2.N = 20 := N_2
  have ht : 19 < cfg2.N := by omega
  obtain ⟨-, -, -, -, -, -, -, -, -, -, e50, e51, e60, e61⟩ := idx2_facts ⟨19, ht⟩
  refine ⟨⟨19, ht⟩, (flush2_6 _).mpr rfl, ?_⟩
  show i ∈ ((View.whole main_v38_2).slice (win2_6.rect ⟨19, ht⟩)).set
  rw [View.set_slice_whole, Rect.mem_set_unit]
  intro a
  match a with
  | ⟨0, _⟩ => show win2_6.index ⟨19, ht⟩ 0 * 1 ≤ (i 0).val ∧ (i 0).val < win2_6.index ⟨19, ht⟩ 0 * 1 + 1; rw [e60]; omega
  | ⟨1, _⟩ => show win2_6.index ⟨19, ht⟩ 1 * 64 ≤ (i 1).val ∧ (i 1).val < win2_6.index ⟨19, ht⟩ 1 * 64 + 64; rw [e61]; omega

/-- STATISTICS OUTPUT 1 after the region, index by index. -/
theorem final2_6 (c : Dev nD) : (dat2 V c).arrAt 6 cfg2.N
    = fun i => GinSpec.colSumSq (GinSpec.relu (GinSpec.lin (GinSpec.onCoords (V c main_v22)) (GinSpec.onCoords (V c main_v32)) (GinSpec.onCoords (V c main_v34)) (GinSpec.rowVec (V c main_v37)))) (i 1) :=
  (dat2 V c).arrAt_eq_of_cover 6 (G2_6 (arr2_0 V c) (arr2_1 V c) (arr2_2 V c) (arr2_3 V c)) (flushed2_6_eq V c) (cover2_6)

end Cert.KernelIdeal.Hand
end
-- ==== Proof.KI.R4Stats.lean ====
import proofs.«128301_j8701603742430_2_alg».proof.Proof.KI.R4Value
import proofs.«128301_j8701603742430_2_alg».proof.Proof.LibPlainProduct
import proofs.«128301_j8701603742430_2_alg».proof.Proof.LibNarrowedProduct
import proofs.«128301_j8701603742430_2_alg».proof.Proof.LibBlockedSum
import proofs.«128301_j8701603742430_2_alg».proof.Proof.LibColumn
import proofs.«128301_j8701603742430_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! # The two column moments of region 4: what the statistics outputs end holding -/

/-- Term `k` of column `q` of the rectified linear stage, extended by zero past the last row: what the running total adds up. -/
def term4_5 (c : Dev nD) (q : Fin 64) (k : ℕ) : EReal :=
  if h : k < 100000 then Z4 (arr4_0 V c) (arr4_1 V c) (arr4_2 V c) (arr4_3 V c) ⟨k, h⟩ q else 0

/-- The body's contribution of point `t` to accumulator 0: the terms of rows `5000 t` to `5000 t + 4999`. -/
theorem block4_5_sum (c : Dev nD) (t : Fin cfg4.N) (q : Fin 64) :
    ∑ r : Fin 5000, k4_pay4 (iblk4 V c 0 t) (iblk4 V c 1 t) (iblk4 V c 2 t) (iblk4 V c 3 t) (ix2 r q)
      = ∑ j ∈ Finset.range 5000, term4_5 V c q (t.val * 5000 + j) := by
  have hN : t.val < 20 := lt_of_lt_of_eq t.isLt (show cfg4.N = 20 from N_4)
  rw [← Fin.sum_univ_eq_sum_range (fun j => term4_5 V c q (t.val * 5000 + j)) 5000]
  refine Finset.sum_congr rfl fun r _ => ?_
  have hr : t.val * 5000 + r.val < 100000 := by have := r.isLt; omega
  rw [blk4_at V c t r q hr]
  unfold term4_5
  rw [dif_pos hr]

/-- One step of accumulator 0 at column `q`. -/
theorem acc4_8_at (v : Vec Ideal S1x64 .f32) (x1 x2 : Vec Ideal S5000x64 .f32) (x3 : Vec Ideal S64x64 .f32) (x4 : Vec Ideal S1x64 .f32) (q : Fin 64) :
    acc4_8 v x1 x2 x3 x4 (ix2 (0 : Fin 1) q) = v (ix2 (0 : Fin 1) q) + ∑ r : Fin 5000, k4_pay4 x1 x2 x3 x4 (ix2 r q) := by
  unfold acc4_8
  rw [View.canon_unit_zero hz2_4]
  simp only [View.ld_unit_zero (S := S5000x64) hz2_4, View.ld_unit_zero (S := S64x64) hz2_4, View.ld_unit_zero (S := S1x64) hz2_4]
  exact pay4_5_at x1 x2 x3 x4 v q

/-- THE RUNNING TOTAL: after point `n` accumulator 0 holds, at column `q`, the terms of the first `n + 1` blocks of rows. -/
theorem scr4_5_at (c : Dev nD) : ∀ (n : ℕ) (h : n < cfg4.N) (q : Fin 64),
    (scr4 V c n h).1 (ix2 (0 : Fin 1) q) = ∑ b ∈ Finset.range (n + 1), ∑ j ∈ Finset.range 5000, term4_5 V c q (b * 5000 + j)
  | 0, h, q => by
    show acc4_8 (k4_pay2 (F := Ideal)) (iblk4 V c 0 ⟨0, h⟩) (iblk4 V c 1 ⟨0, h⟩) (iblk4 V c 2 ⟨0, h⟩) (iblk4 V c 3 ⟨0, h⟩) (ix2 (0 : Fin 1) q) = _
    rw [acc4_8_at, pay4_2_at (0 : Fin 1) q, zero_add, block4_5_sum V c ⟨0, h⟩ q, Finset.sum_range_one]
  | n + 1, h, q => by
    show acc4_8 (View.ld (scr4 V c n (Nat.lt_of_succ_lt h)).1 rB4) (iblk4 V c 0 ⟨n + 1, h⟩) (iblk4 V c 1 ⟨n + 1, h⟩) (iblk4 V c 2 ⟨n + 1, h⟩) (iblk4 V c 3 ⟨n + 1, h⟩) (ix2 (0 : Fin 1) q) = _
    rw [acc4_8_at, View.ld_unit_zero (S := S1x64) hz2_4, block4_5_sum V c ⟨n + 1, h⟩ q, Finset.sum_range_succ (fun b => ∑ j ∈ Finset.range 5000, term4_5 V c q (b * 5000 + j)) (n + 1)]
    exact congrArg (· + ∑ j ∈ Finset.range 5000, term4_5 V c q ((n + 1) * 5000 + j)) (scr4_5_at c n (Nat.lt_of_succ_lt h) q)

/-- After the last point it holds the whole column's total. -/
theorem scr4_5_last (c : Dev nD) (h : 19 < cfg4.N) (q : Fin 64) :
    (scr4 V c 19 h).1 (ix2 (0 : Fin 1) q) = GinSpec.colSum (Z4 (arr4_0 V c) (arr4_1 V c) (arr4_2 V c) (arr4_3 V c)) q := by
  rw [scr4_5_at V c 19 h q, ← BlockedSum.sum_range_mul (term4_5 V c q) 20 5000,
    ← Fin.sum_univ_eq_sum_range (term4_5 V c q) (20 * 5000)]
  show ∑ k : Fin 100000, term4_5 V c q k.val = ∑ i : Fin 100000, _
  refine Finset.sum_congr rfl fun k _ => ?_
  unfold term4_5
  rw [dif_pos k.isLt]

/-- The same at a point known to be the last. -/
theorem scr4_5_last' (c : Dev nD) (t : Fin cfg4.N) (h19 : t.val = 19) (q : Fin 64) :
    (scr4 V c t.val t.isLt).1 (ix2 (0 : Fin 1) q) = GinSpec.colSum (Z4 (arr4_0 V c) (arr4_1 V c) (arr4_2 V c) (arr4_3 V c)) q := by
  obtain ⟨n, hn⟩ := t
  obtain rfl : n = 19 := h19
  exact scr4_5_last V c hn q

/-- WHAT THE LAST POINT WRITES BACK into statistics output 0 is (the one block of) any array `G` that agrees, column by
    column, with what accumulator 0 then holds. -/
theorem flushed4_5_of (c : Dev nD) (t : Fin cfg4.N) (G : S1x64.Idx → EReal)
    (hG : ∀ q : Fin 64, (scr4 V c t.val t.isLt).1 (ix2 (0 : Fin 1) q) = G (ix2 (0 : Fin 1) q)) :
    (dat4 V c).flushed 5 t = ((cfg4.win 5).blk t).view.read (Elt Ideal) G := by
  obtain ⟨-, -, -, -, -, -, -, -, -, -, e50, e51, e60, e61⟩ := idx4_facts t
  show (cfg4.win 5).cut (grid4.coords t) ((dat4 V c).after 5 t) = _
  rw [after4_5]
  unfold cp4
  rw [View.canon_unit_zero hz2_4, View.ld_unit_zero (S := S1x64) hz2_4]
  funext j
  obtain ⟨u, q, rfl⟩ : ∃ (u : Fin 1) (q : Fin 64), j = ix2 u q := ⟨j 0, j 1, eq_ix2 j⟩
  obtain rfl : u = (0 : Fin 1) := Subsingleton.elim _ _
  refine (hG q).trans ?_
  rw [View.read_apply]
  show G (ix2 (0 : Fin 1) q) = G (((View.whole main_v61_1).slice ((win4 5).rect t)).emb (ix2 (0 : Fin 1) q))
  refine congrArg G (funext fun a => Fin.ext ?_)
  match a with
  | ⟨0, _⟩ => show (0 : ℕ) = win4_5.index t 0 * 1 + 1 * 0; rw [e50]
  | ⟨1, _⟩ => show q.val = win4_5.index t 1 * 64 + 1 * q.val; rw [e51]; omega

/-- So it is the one block of `G4_5` of the input arrays. -/
theorem flushed4_5_eq (c : Dev nD) (t : Fin cfg4.N) (hf : (cfg4.win 5).flush t = true) :
    (dat4 V c).flushed 5 t = ((cfg4.win 5).blk t).view.read (Elt Ideal) (G4_5 (arr4_0 V c) (arr4_1 V c) (arr4_2 V c) (arr4_3 V c)) := by
  have hN : cfg4.N = 20 := N_4
  have h19 : t.val = 19 := by have := (flush4_5 t).mp hf; have := t.isLt; omega
  exact flushed4_5_of V c t _ (fun q => scr4_5_last' V c t h19 q)

/-- Every index of statistics output 0 is in the last point's block (the whole array). -/
theorem cover4_5 (i : S1x64.Idx) : ∃ t : Fin cfg4.N, (cfg4.win 5).flush t = true ∧ i ∈ ((cfg4.win 5).blk t).view.set := by
  have hi0 : (i 0).val < 1 := (i 0).isLt
  have hi1 : (i 1).val < 64 := (i 1).isLt
  have hN : cfg4.N = 20 := N_4
  have ht : 19 < cfg4.N := by omega
  obtain ⟨-, -, -, -, -, -, -, -, -, -, e50, e51, e60, e61⟩ := idx4_facts ⟨19, ht⟩
  refine ⟨⟨19, ht⟩, (flush4_5 _).mpr rfl, ?_⟩
  show i ∈ ((View.whole main_v61_1).slice (win4_5.rect ⟨19, ht⟩)).set
  rw [View.set_slice_whole, Rect.mem_set_unit]
  intro a
  match a with
  | ⟨0, _⟩ => show win4_5.index ⟨19, ht⟩ 0 * 1 ≤ (i 0).val ∧ (i 0).val < win4_5.index ⟨19, ht⟩ 0 * 1 + 1; rw [e50]; omega
  | ⟨1, _⟩ => show win4_5.index ⟨19, ht⟩ 1 * 64 ≤ (i 1).val ∧ (i 1).val < win4_5.index ⟨19, ht⟩ 1 * 64 + 64; rw [e51]; omega

/-- STATISTICS OUTPUT 0 after the region, index by index. -/
theorem final4_5 (c : Dev nD) : (dat4 V c).arrAt 5 cfg4.N
    = fun i => GinSpec.colSum (GinSpec.relu (GinSpec.lin (GinSpec.onCoords (V c main_v45)) (GinSpec.onCoords (V c main_v55)) (GinSpec.onCoords (V c main_v57)) (GinSpec.rowVec (V c main_v60)))) (i 1) :=
  (dat4 V c).arrAt_eq_of_cover 5 (G4_5 (arr4_0 V c) (arr4_1 V c) (arr4_2 V c) (arr4_3 V c)) (flushed4_5_eq V c) (cover4_5)

/-- Term `k` of column `q` of the square of the rectified linear stage, extended by zero past the last row: what the running total adds up. -/
def term4_6 (c : Dev nD) (q : Fin 64) (k : ℕ) : EReal :=
  if h : k < 100000 then Z4 (arr4_0 V c) (arr4_1 V c) (arr4_2 V c) (arr4_3 V c) ⟨k, h⟩ q * Z4 (arr4_0 V c) (arr4_1 V c) (arr4_2 V c) (arr4_3 V c) ⟨k, h⟩ q else 0

/-- The body's contribution of point `t` to accumulator 1: the terms of rows `5000 t` to `5000 t + 4999`. -/
theorem block4_6_sum (c : Dev nD) (t : Fin cfg4.N) (q : Fin 64) :
    ∑ r : Fin 5000, k4_pay4 (iblk4 V c 0 t) (iblk4 V c 1 t) (iblk4 V c 2 t) (iblk4 V c 3 t) (ix2 r q) * k4_pay4 (iblk4 V c 0 t) (iblk4 V c 1 t) (iblk4 V c 2 t) (iblk4 V c 3 t) (ix2 r q)
      = ∑ j ∈ Finset.range 5000, term4_6 V c q (t.val * 5000 + j) := by
  have hN : t.val < 20 := lt_of_lt_of_eq t.isLt (show cfg4.N = 20 from N_4)
  rw [← Fin.sum_univ_eq_sum_range (fun j => term4_6 V c q (t.val * 5000 + j)) 5000]
  refine Finset.sum_congr rfl fun r _ => ?_
  have hr : t.val * 5000 + r.val < 100000 := by have := r.isLt; omega
  rw [blk4_at V c t r q hr]
  unfold term4_6
  rw [dif_pos hr]

/-- One step of accumulator 1 at column `q`. -/
theorem acc4_9_at (v : Vec Ideal S1x64 .f32) (x1 x2 : Vec Ideal S5000x64 .f32) (x3 : Vec Ideal S64x64 .f32) (x4 : Vec Ideal S1x64 .f32) (q : Fin 64) :
    acc4_9 v x1 x2 x3 x4 (ix2 (0 : Fin 1) q) = v (ix2 (0 : Fin 1) q) + ∑ r : Fin 5000, k4_pay4 x1 x2 x3 x4 (ix2 r q) * k4_pay4 x1 x2 x3 x4 (ix2 r q) := by
  unfold acc4_9
  rw [View.canon_unit_zero hz2_4]
  simp only [View.ld_unit_zero (S := S5000x64) hz2_4, View.ld_unit_zero (S := S64x64) hz2_4, View.ld_unit_zero (S := S1x64) hz2_4]
  exact pay4_6_at x1 x2 x3 x4 v q

/-- THE RUNNING TOTAL: after point `n` accumulator 1 holds, at column `q`, the terms of the first `n + 1` blocks of rows. -/
theorem scr4_6_at (c : Dev nD) : ∀ (n : ℕ) (h : n < cfg4.N) (q : Fin 64),
    (scr4 V c n h).2 (ix2 (0 : Fin 1) q) = ∑ b ∈ Finset.range (n + 1), ∑ j ∈ Finset.range 5000, term4_6 V c q (b * 5000 + j)
  | 0, h, q => by
    show acc4_9 (k4_pay3 (F := Ideal)) (iblk4 V c 0 ⟨0, h⟩) (iblk4 V c 1 ⟨0, h⟩) (iblk4 V c 2 ⟨0, h⟩) (iblk4 V c 3 ⟨0, h⟩) (ix2 (0 : Fin 1) q) = _
    rw [acc4_9_at, pay4_3_at (0 : Fin 1) q, zero_add, block4_6_sum V c ⟨0, h⟩ q, Finset.sum_range_one]
  | n + 1, h, q => by
    show acc4_9 (View.ld (scr4 V c n (Nat.lt_of_succ_lt h)).2 rB4) (iblk4 V c 0 ⟨n + 1, h⟩) (iblk4 V c 1 ⟨n + 1, h⟩) (iblk4 V c 2 ⟨n + 1, h⟩) (iblk4 V c 3 ⟨n + 1, h⟩) (ix2 (0 : Fin 1) q) = _
    rw [acc4_9_at, View.ld_unit_zero (S := S1x64) hz2_4, block4_6_sum V c ⟨n + 1, h⟩ q, Finset.sum_range_succ (fun b => ∑ j ∈ Finset.range 5000, term4_6 V c q (b * 5000 + j)) (n + 1)]
    exact congrArg (· + ∑ j ∈ Finset.range 5000, term4_6 V c q ((n + 1) * 5000 + j)) (scr4_6_at c n (Nat.lt_of_succ_lt h) q)

/-- After the last point it holds the whole column's total. -/
theorem scr4_6_last (c : Dev nD) (h : 19 < cfg4.N) (q : Fin 64) :
    (scr4 V c 19 h).2 (ix2 (0 : Fin 1) q) = GinSpec.colSumSq (Z4 (arr4_0 V c) (arr4_1 V c) (arr4_2 V c) (arr4_3 V c)) q := by
  rw [scr4_6_at V c 19 h q, ← BlockedSum.sum_range_mul (term4_6 V c q) 20 5000,
    ← Fin.sum_univ_eq_sum_range (term4_6 V c q) (20 * 5000)]
  show ∑ k : Fin 100000, term4_6 V c q k.val = ∑ i : Fin 100000, _
  refine Finset.sum_congr rfl fun k _ => ?_
  unfold term4_6
  rw [dif_pos k.isLt]

/-- The same at a point known to be the last. -/
theorem scr4_6_last' (c : Dev nD) (t : Fin cfg4.N) (h19 : t.val = 19) (q : Fin 64) :
    (scr4 V c t.val t.isLt).2 (ix2 (0 : Fin 1) q) = GinSpec.colSumSq (Z4 (arr4_0 V c) (arr4_1 V c) (arr4_2 V c) (arr4_3 V c)) q := by
  obtain ⟨n, hn⟩ := t
  obtain rfl : n = 19 := h19
  exact scr4_6_last V c hn q

/-- WHAT THE LAST POINT WRITES BACK into statistics output 1 is (the one block of) any array `G` that agrees, column by
    column, with what accumulator 1 then holds. -/
theorem flushed4_6_of (c : Dev nD) (t : Fin cfg4.N) (G : S1x64.Idx → EReal)
    (hG : ∀ q : Fin 64, (scr4 V c t.val t.isLt).2 (ix2 (0 : Fin 1) q) = G (ix2 (0 : Fin 1) q)) :
    (dat4 V c).flushed 6 t = ((cfg4.win 6).blk t).view.read (Elt Ideal) G := by
  obtain ⟨-, -, -, -, -, -, -, -, -, -, e50, e51, e60, e61⟩ := idx4_facts t
  show (cfg4.win 6).cut (grid4.coords t) ((dat4 V c).after 6 t) = _
  rw [after4_6]
  unfold cp4
  rw [View.canon_unit_zero hz2_4, View.ld_unit_zero (S := S1x64) hz2_4]
  funext j
  obtain ⟨u, q, rfl⟩ : ∃ (u : Fin 1) (q : Fin 64), j = ix2 u q := ⟨j 0, j 1, eq_ix2 j⟩
  obtain rfl : u = (0 : Fin 1) := Subsingleton.elim _ _
  refine (hG q).trans ?_
  rw [View.read_apply]
  show G (ix2 (0 : Fin 1) q) = G (((View.whole main_v61_2).slice ((win4 6).rect t)).emb (ix2 (0 : Fin 1) q))
  refine congrArg G (funext fun a => Fin.ext ?_)
  match a with
  | ⟨0, _⟩ => show (0 : ℕ) = win4_6.index t 0 * 1 + 1 * 0; rw [e60]
  | ⟨1, _⟩ => show q.val = win4_6.index t 1 * 64 + 1 * q.val; rw [e61]; omega

/-- So it is the one block of `G4_6` of the input arrays. -/
theorem flushed4_6_eq (c : Dev nD) (t : Fin cfg4.N) (hf : (cfg4.win 6).flush t = true) :
    (dat4 V c).flushed 6 t = ((cfg4.win 6).blk t).view.read (Elt Ideal) (G4_6 (arr4_0 V c) (arr4_1 V c) (arr4_2 V c) (arr4_3 V c)) := by
  have hN : cfg4.N = 20 := N_4
  have h19 : t.val = 19 := by have := (flush4_6 t).mp hf; have := t.isLt; omega
  exact flushed4_6_of V c t _ (fun q => scr4_6_last' V c t h19 q)

/-- Every index of statistics output 1 is in the last point's block (the whole array). -/
theorem cover4_6 (i : S1x64.Idx) : ∃ t : Fin cfg4.N, (cfg4.win 6).flush t = true ∧ i ∈ ((cfg4.win 6).blk t).view.set := by
  have hi0 : (i 0).val < 1 := (i 0).isLt
  have hi1 : (i 1).val < 64 := (i 1).isLt
  have hN : cfg4.N = 20 := N_4
  have ht : 19 < cfg4.N := by omega
  obtain ⟨-, -, -, -, -, -, -, -, -, -, e50, e51, e60, e61⟩ := idx4_facts ⟨19, ht⟩
  refine ⟨⟨19, ht⟩, (flush4_6 _).mpr rfl, ?_⟩
  show i ∈ ((View.whole main_v61_2).slice (win4_6.rect ⟨19, ht⟩)).set
  rw [View.set_slice_whole, Rect.mem_set_unit]
  intro a
  match a with
  | ⟨0, _⟩ => show win4_6.index ⟨19, ht⟩ 0 * 1 ≤ (i 0).val ∧ (i 0).val < win4_6.index ⟨19, ht⟩ 0 * 1 + 1; rw [e60]; omega
  | ⟨1, _⟩ => show win4_6.index ⟨19, ht⟩ 1 * 64 ≤ (i 1).val ∧ (i 1).val < win4_6.index ⟨19, ht⟩ 1 * 64 + 64; rw [e61]; omega

/-- STATISTICS OUTPUT 1 after the region, index by index. -/
theorem final4_6 (c : Dev nD) : (dat4 V c).arrAt 6 cfg4.N
    = fun i => GinSpec.colSumSq (GinSpec.relu (GinSpec.lin (GinSpec.onCoords (V c main_v45)) (GinSpec.onCoords (V c main_v55)) (GinSpec.onCoords (V c main_v57)) (GinSpec.rowVec (V c main_v60)))) (i 1) :=
  (dat4 V c).arrAt_eq_of_cover 6 (G4_6 (arr4_0 V c) (arr4_1 V c) (arr4_2 V c) (arr4_3 V c)) (flushed4_6_eq V c) (cover4_6)

end Cert.KernelIdeal.Hand
end
-- ==== Proof.KI.R6Stats.lean ====
import proofs.«128301_j8701603742430_2_alg».proof.Proof.KI.R6Value
import proofs.«128301_j8701603742430_2_alg».proof.Proof.LibPlainProduct
import proofs.«128301_j8701603742430_2_alg».proof.Proof.LibNarrowedProduct
import proofs.«128301_j8701603742430_2_alg».proof.Proof.LibBlockedSum
import proofs.«128301_j8701603742430_2_alg».proof.Proof.LibColumn
import proofs.«128301_j8701603742430_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! # The two column moments of region 6: what the statistics outputs end holding -/

/-- Term `k` of column `q` of the rectified linear stage, extended by zero past the last row: what the running total adds up. -/
def term6_5 (c : Dev nD) (q : Fin 64) (k : ℕ) : EReal :=
  if h : k < 100000 then Z6 (arr6_0 V c) (arr6_1 V c) (arr6_2 V c) (arr6_3 V c) ⟨k, h⟩ q else 0

/-- The body's contribution of point `t` to accumulator 0: the terms of rows `5000 t` to `5000 t + 4999`. -/
theorem block6_5_sum (c : Dev nD) (t : Fin cfg6.N) (q : Fin 64) :
    ∑ r : Fin 5000, k6_pay4 (iblk6 V c 0 t) (iblk6 V c 1 t) (iblk6 V c 2 t) (iblk6 V c 3 t) (ix2 r q)
      = ∑ j ∈ Finset.range 5000, term6_5 V c q (t.val * 5000 + j) := by
  have hN : t.val < 20 := lt_of_lt_of_eq t.isLt (show cfg6.N = 20 from N_6)
  rw [← Fin.sum_univ_eq_sum_range (fun j => term6_5 V c q (t.val * 5000 + j)) 5000]
  refine Finset.sum_congr rfl fun r _ => ?_
  have hr : t.val * 5000 + r.val < 100000 := by have := r.isLt; omega
  rw [blk6_at V c t r q hr]
  unfold term6_5
  rw [dif_pos hr]

/-- One step of accumulator 0 at column `q`. -/
theorem acc6_8_at (v : Vec Ideal S1x64 .f32) (x1 x2 : Vec Ideal S5000x64 .f32) (x3 : Vec Ideal S64x64 .f32) (x4 : Vec Ideal S1x64 .f32) (q : Fin 64) :
    acc6_8 v x1 x2 x3 x4 (ix2 (0 : Fin 1) q) = v (ix2 (0 : Fin 1) q) + ∑ r : Fin 5000, k6_pay4 x1 x2 x3 x4 (ix2 r q) := by
  unfold acc6_8
  rw [View.canon_unit_zero hz2_6]
  simp only [View.ld_unit_zero (S := S5000x64) hz2_6, View.ld_unit_zero (S := S64x64) hz2_6, View.ld_unit_zero (S := S1x64) hz2_6]
  exact pay6_5_at x1 x2 x3 x4 v q

/-- THE RUNNING TOTAL: after point `n` accumulator 0 holds, at column `q`, the terms of the first `n + 1` blocks of rows. -/
theorem scr6_5_at (c : Dev nD) : ∀ (n : ℕ) (h : n < cfg6.N) (q : Fin 64),
    (scr6 V c n h).1 (ix2 (0 : Fin 1) q) = ∑ b ∈ Finset.range (n + 1), ∑ j ∈ Finset.range 5000, term6_5 V c q (b * 5000 + j)
  | 0, h, q => by
    show acc6_8 (k6_pay2 (F := Ideal)) (iblk6 V c 0 ⟨0, h⟩) (iblk6 V c 1 ⟨0, h⟩) (iblk6 V c 2 ⟨0, h⟩) (iblk6 V c 3 ⟨0, h⟩) (ix2 (0 : Fin 1) q) = _
    rw [acc6_8_at, pay6_2_at (0 : Fin 1) q, zero_add, block6_5_sum V c ⟨0, h⟩ q, Finset.sum_range_one]
  | n + 1, h, q => by
    show acc6_8 (View.ld (scr6 V c n (Nat.lt_of_succ_lt h)).1 rB6) (iblk6 V c 0 ⟨n + 1, h⟩) (iblk6 V c 1 ⟨n + 1, h⟩) (iblk6 V c 2 ⟨n + 1, h⟩) (iblk6 V c 3 ⟨n + 1, h⟩) (ix2 (0 : Fin 1) q) = _
    rw [acc6_8_at, View.ld_unit_zero (S := S1x64) hz2_6, block6_5_sum V c ⟨n + 1, h⟩ q, Finset.sum_range_succ (fun b => ∑ j ∈ Finset.range 5000, term6_5 V c q (b * 5000 + j)) (n + 1)]
    exact congrArg (· + ∑ j ∈ Finset.range 5000, term6_5 V c q ((n + 1) * 5000 + j)) (scr6_5_at c n (Nat.lt_of_succ_lt h) q)

/-- After the last point it holds the whole column's total. -/
theorem scr6_5_last (c : Dev nD) (h : 19 < cfg6.N) (q : Fin 64) :
    (scr6 V c 19 h).1 (ix2 (0 : Fin 1) q) = GinSpec.colSum (Z6 (arr6_0 V c) (arr6_1 V c) (arr6_2 V c) (arr6_3 V c)) q := by
  rw [scr6_5_at V c 19 h q, ← BlockedSum.sum_range_mul (term6_5 V c q) 20 5000,
    ← Fin.sum_univ_eq_sum_range (term6_5 V c q) (20 * 5000)]
  show ∑ k : Fin 100000, term6_5 V c q k.val = ∑ i : Fin 100000, _
  refine Finset.sum_congr rfl fun k _ => ?_
  unfold term6_5
  rw [dif_pos k.isLt]

/-- The same at a point known to be the last. -/
theorem scr6_5_last' (c : Dev nD) (t : Fin cfg6.N) (h19 : t.val = 19) (q : Fin 64) :
    (scr6 V c t.val t.isLt).1 (ix2 (0 : Fin 1) q) = GinSpec.colSum (Z6 (arr6_0 V c) (arr6_1 V c) (arr6_2 V c) (arr6_3 V c)) q := by
  obtain ⟨n, hn⟩ := t
  obtain rfl : n = 19 := h19
  exact scr6_5_last V c hn q

/-- WHAT THE LAST POINT WRITES BACK into statistics output 0 is (the one block of) any array `G` that agrees, column by
    column, with what accumulator 0 then holds. -/
theorem flushed6_5_of (c : Dev nD) (t : Fin cfg6.N) (G : S1x64.Idx → EReal)
    (hG : ∀ q : Fin 64, (scr6 V c t.val t.isLt).1 (ix2 (0 : Fin 1) q) = G (ix2 (0 : Fin 1) q)) :
    (dat6 V c).flushed 5 t = ((cfg6.win 5).blk t).view.read (Elt Ideal) G := by
  obtain ⟨-, -, -, -, -, -, -, -, -, -, e50, e51, e60, e61⟩ := idx6_facts t
  show (cfg6.win 5).cut (grid6.coords t) ((dat6 V c).after 5 t) = _
  rw [after6_5]
  unfold cp6
  rw [View.canon_unit_zero hz2_6, View.ld_unit_zero (S := S1x64) hz2_6]
  funext j
  obtain ⟨u, q, rfl⟩ : ∃ (u : Fin 1) (q : Fin 64), j = ix2 u q := ⟨j 0, j 1, eq_ix2 j⟩
  obtain rfl : u = (0 : Fin 1) := Subsingleton.elim _ _
  refine (hG q).trans ?_
  rw [View.read_apply]
  show G (ix2 (0 : Fin 1) q) = G (((View.whole main_v84_1).slice ((win6 5).rect t)).emb (ix2 (0 : Fin 1) q))
  refine congrArg G (funext fun a => Fin.ext ?_)
  match a with
  | ⟨0, _⟩ => show (0 : ℕ) = win6_5.index t 0 * 1 + 1 * 0; rw [e50]
  | ⟨1, _⟩ => show q.val = win6_5.index t 1 * 64 + 1 * q.val; rw [e51]; omega

/-- So it is the one block of `G6_5` of the input arrays. -/
theorem flushed6_5_eq (c : Dev nD) (t : Fin cfg6.N) (hf : (cfg6.win 5).flush t = true) :
    (dat6 V c).flushed 5 t = ((cfg6.win 5).blk t).view.read (Elt Ideal) (G6_5 (arr6_0 V c) (arr6_1 V c) (arr6_2 V c) (arr6_3 V c)) := by
  have hN : cfg6.N = 20 := N_6
  have h19 : t.val = 19 := by have := (flush6_5 t).mp hf; have := t.isLt; omega
  exact flushed6_5_of V c t _ (fun q => scr6_5_last' V c t h19 q)

/-- Every index of statistics output 0 is in the last point's block (the whole array). -/
theorem cover6_5 (i : S1x64.Idx) : ∃ t : Fin cfg6.N, (cfg6.win 5).flush t = true ∧ i ∈ ((cfg6.win 5).blk t).view.set := by
  have hi0 : (i 0).val < 1 := (i 0).isLt
  have hi1 : (i 1).val < 64 := (i 1).isLt
  have hN : cfg6.N = 20 := N_6
  have ht : 19 < cfg6.N := by omega
  obtain ⟨-, -, -, -, -, -, -, -, -, -, e50, e51, e60, e61⟩ := idx6_facts ⟨19, ht⟩
  refine ⟨⟨19, ht⟩, (flush6_5 _).mpr rfl, ?_⟩
  show i ∈ ((View.whole main_v84_1).slice (win6_5.rect ⟨19, ht⟩)).set
  rw [View.set_slice_whole, Rect.mem_set_unit]
  intro a
  match a with
  | ⟨0, _⟩ => show win6_5.index ⟨19, ht⟩ 0 * 1 ≤ (i 0).val ∧ (i 0).val < win6_5.index ⟨19, ht⟩ 0 * 1 + 1; rw [e50]; omega
  | ⟨1, _⟩ => show win6_5.index ⟨19, ht⟩ 1 * 64 ≤ (i 1).val ∧ (i 1).val < win6_5.index ⟨19, ht⟩ 1 * 64 + 64; rw [e51]; omega

/-- STATISTICS OUTPUT 0 after the region, index by index. -/
theorem final6_5 (c : Dev nD) : (dat6 V c).arrAt 5 cfg6.N
    = fun i => GinSpec.colSum (GinSpec.relu (GinSpec.lin (GinSpec.onCoords (V c main_v68)) (GinSpec.onCoords (V c main_v78)) (GinSpec.onCoords (V c main_v80)) (GinSpec.rowVec (V c main_v83)))) (i 1) :=
  (dat6 V c).arrAt_eq_of_cover 5 (G6_5 (arr6_0 V c) (arr6_1 V c) (arr6_2 V c) (arr6_3 V c)) (flushed6_5_eq V c) (cover6_5)

/-- Term `k` of column `q` of the square of the rectified linear stage, extended by zero past the last row: what the running total adds up. -/
def term6_6 (c : Dev nD) (q : Fin 64) (k : ℕ) : EReal :=
  if h : k < 100000 then Z6 (arr6_0 V c) (arr6_1 V c) (arr6_2 V c) (arr6_3 V c) ⟨k, h⟩ q * Z6 (arr6_0 V c) (arr6_1 V c) (arr6_2 V c) (arr6_3 V c) ⟨k, h⟩ q else 0

/-- The body's contribution of point `t` to accumulator 1: the terms of rows `5000 t` to `5000 t + 4999`. -/
theorem block6_6_sum (c : Dev nD) (t : Fin cfg6.N) (q : Fin 64) :
    ∑ r : Fin 5000, k6_pay4 (iblk6 V c 0 t) (iblk6 V c 1 t) (iblk6 V c 2 t) (iblk6 V c 3 t) (ix2 r q) * k6_pay4 (iblk6 V c 0 t) (iblk6 V c 1 t) (iblk6 V c 2 t) (iblk6 V c 3 t) (ix2 r q)
      = ∑ j ∈ Finset.range 5000, term6_6 V c q (t.val * 5000 + j) := by
  have hN : t.val < 20 := lt_of_lt_of_eq t.isLt (show cfg6.N = 20 from N_6)
  rw [← Fin.sum_univ_eq_sum_range (fun j => term6_6 V c q (t.val * 5000 + j)) 5000]
  refine Finset.sum_congr rfl fun r _ => ?_
  have hr : t.val * 5000 + r.val < 100000 := by have := r.isLt; omega
  rw [blk6_at V c t r q hr]
  unfold term6_6
  rw [dif_pos hr]

/-- One step of accumulator 1 at column `q`. -/
theorem acc6_9_at (v : Vec Ideal S1x64 .f32) (x1 x2 : Vec Ideal S5000x64 .f32) (x3 : Vec Ideal S64x64 .f32) (x4 : Vec Ideal S1x64 .f32) (q : Fin 64) :
    acc6_9 v x1 x2 x3 x4 (ix2 (0 : Fin 1) q) = v (ix2 (0 : Fin 1) q) + ∑ r : Fin 5000, k6_pay4 x1 x2 x3 x4 (ix2 r q) * k6_pay4 x1 x2 x3 x4 (ix2 r q) := by
  unfold acc6_9
  rw [View.canon_unit_zero hz2_6]
  simp only [View.ld_unit_zero (S := S5000x64) hz2_6, View.ld_unit_zero (S := S64x64) hz2_6, View.ld_unit_zero (S := S1x64) hz2_6]
  exact pay6_6_at x1 x2 x3 x4 v q

/-- THE RUNNING TOTAL: after point `n` accumulator 1 holds, at column `q`, the terms of the first `n + 1` blocks of rows. -/
theorem scr6_6_at (c : Dev nD) : ∀ (n : ℕ) (h : n < cfg6.N) (q : Fin 64),
    (scr6 V c n h).2 (ix2 (0 : Fin 1) q) = ∑ b ∈ Finset.range (n + 1), ∑ j ∈ Finset.range 5000, term6_6 V c q (b * 5000 + j)
  | 0, h, q => by
    show acc6_9 (k6_pay3 (F := Ideal)) (iblk6 V c 0 ⟨0, h⟩) (iblk6 V c 1 ⟨0, h⟩) (iblk6 V c 2 ⟨0, h⟩) (iblk6 V c 3 ⟨0, h⟩) (ix2 (0 : Fin 1) q) = _
    rw [acc6_9_at, pay6_3_at (0 : Fin 1) q, zero_add, block6_6_sum V c ⟨0, h⟩ q, Finset.sum_range_one]
  | n + 1, h, q => by
    show acc6_9 (View.ld (scr6 V c n (Nat.lt_of_succ_lt h)).2 rB6) (iblk6 V c 0 ⟨n + 1, h⟩) (iblk6 V c 1 ⟨n + 1, h⟩) (iblk6 V c 2 ⟨n + 1, h⟩) (iblk6 V c 3 ⟨n + 1, h⟩) (ix2 (0 : Fin 1) q) = _
    rw [acc6_9_at, View.ld_unit_zero (S := S1x64) hz2_6, block6_6_sum V c ⟨n + 1, h⟩ q, Finset.sum_range_succ (fun b => ∑ j ∈ Finset.range 5000, term6_6 V c q (b * 5000 + j)) (n + 1)]
    exact congrArg (· + ∑ j ∈ Finset.range 5000, term6_6 V c q ((n + 1) * 5000 + j)) (scr6_6_at c n (Nat.lt_of_succ_lt h) q)

/-- After the last point it holds the whole column's total. -/
theorem scr6_6_last (c : Dev nD) (h : 19 < cfg6.N) (q : Fin 64) :
    (scr6 V c 19 h).2 (ix2 (0 : Fin 1) q) = GinSpec.colSumSq (Z6 (arr6_0 V c) (arr6_1 V c) (arr6_2 V c) (arr6_3 V c)) q := by
  rw [scr6_6_at V c 19 h q, ← BlockedSum.sum_range_mul (term6_6 V c q) 20 5000,
    ← Fin.sum_univ_eq_sum_range (term6_6 V c q) (20 * 5000)]
  show ∑ k : Fin 100000, term6_6 V c q k.val = ∑ i : Fin 100000, _
  refine Finset.sum_congr rfl fun k _ => ?_
  unfold term6_6
  rw [dif_pos k.isLt]

/-- The same at a point known to be the last. -/
theorem scr6_6_last' (c : Dev nD) (t : Fin cfg6.N) (h19 : t.val = 19) (q : Fin 64) :
    (scr6 V c t.val t.isLt).2 (ix2 (0 : Fin 1) q) = GinSpec.colSumSq (Z6 (arr6_0 V c) (arr6_1 V c) (arr6_2 V c) (arr6_3 V c)) q := by
  obtain ⟨n, hn⟩ := t
  obtain rfl : n = 19 := h19
  exact scr6_6_last V c hn q

/-- WHAT THE LAST POINT WRITES BACK into statistics output 1 is (the one block of) any array `G` that agrees, column by
    column, with what accumulator 1 then holds. -/
theorem flushed6_6_of (c : Dev nD) (t : Fin cfg6.N) (G : S1x64.Idx → EReal)
    (hG : ∀ q : Fin 64, (scr6 V c t.val t.isLt).2 (ix2 (0 : Fin 1) q) = G (ix2 (0 : Fin 1) q)) :
    (dat6 V c).flushed 6 t = ((cfg6.win 6).blk t).view.read (Elt Ideal) G := by
  obtain ⟨-, -, -, -, -, -, -, -, -, -, e50, e51, e60, e61⟩ := idx6_facts t
  show (cfg6.win 6).cut (grid6.coords t) ((dat6 V c).after 6 t) = _
  rw [after6_6]
  unfold cp6
  rw [View.canon_unit_zero hz2_6, View.ld_unit_zero (S := S1x64) hz2_6]
  funext j
  obtain ⟨u, q, rfl⟩ : ∃ (u : Fin 1) (q : Fin 64), j = ix2 u q := ⟨j 0, j 1, eq_ix2 j⟩
  obtain rfl : u = (0 : Fin 1) := Subsingleton.elim _ _
  refine (hG q).trans ?_
  rw [View.read_apply]
  show G (ix2 (0 : Fin 1) q) = G (((View.whole main_v84_2).slice ((win6 6).rect t)).emb (ix2 (0 : Fin 1) q))
  refine congrArg G (funext fun a => Fin.ext ?_)
  match a with
  | ⟨0, _⟩ => show (0 : ℕ) = win6_6.index t 0 * 1 + 1 * 0; rw [e60]
  | ⟨1, _⟩ => show q.val = win6_6.index t 1 * 64 + 1 * q.val; rw [e61]; omega

/-- So it is the one block of `G6_6` of the input arrays. -/
theorem flushed6_6_eq (c : Dev nD) (t : Fin cfg6.N) (hf : (cfg6.win 6).flush t = true) :
    (dat6 V c).flushed 6 t = ((cfg6.win 6).blk t).view.read (Elt Ideal) (G6_6 (arr6_0 V c) (arr6_1 V c) (arr6_2 V c) (arr6_3 V c)) := by
  have hN : cfg6.N = 20 := N_6
  have h19 : t.val = 19 := by have := (flush6_6 t).mp hf; have := t.isLt; omega
  exact flushed6_6_of V c t _ (fun q => scr6_6_last' V c t h19 q)

/-- Every index of statistics output 1 is in the last point's block (the whole array). -/
theorem cover6_6 (i : S1x64.Idx) : ∃ t : Fin cfg6.N, (cfg6.win 6).flush t = true ∧ i ∈ ((cfg6.win 6).blk t).view.set := by
  have hi0 : (i 0).val < 1 := (i 0).isLt
  have hi1 : (i 1).val < 64 := (i 1).isLt
  have hN : cfg6.N = 20 := N_6
  have ht : 19 < cfg6.N := by omega
  obtain ⟨-, -, -, -, -, -, -, -, -, -, e50, e51, e60, e61⟩ := idx6_facts ⟨19, ht⟩
  refine ⟨⟨19, ht⟩, (flush6_6 _).mpr rfl, ?_⟩
  show i ∈ ((View.whole main_v84_2).slice (win6_6.rect ⟨19, ht⟩)).set
  rw [View.set_slice_whole, Rect.mem_set_unit]
  intro a
  match a with
  | ⟨0, _⟩ => show win6_6.index ⟨19, ht⟩ 0 * 1 ≤ (i 0).val ∧ (i 0).val < win6_6.index ⟨19, ht⟩ 0 * 1 + 1; rw [e60]; omega
  | ⟨1, _⟩ => show win6_6.index ⟨19, ht⟩ 1 * 64 ≤ (i 1).val ∧ (i 1).val < win6_6.index ⟨19, ht⟩ 1 * 64 + 64; rw [e61]; omega

/-- STATISTICS OUTPUT 1 after the region, index by index. -/
theorem final6_6 (c : Dev nD) : (dat6 V c).arrAt 6 cfg6.N
    = fun i => GinSpec.colSumSq (GinSpec.relu (GinSpec.lin (GinSpec.onCoords (V c main_v68)) (GinSpec.onCoords (V c main_v78)) (GinSpec.onCoords (V c main_v80)) (GinSpec.rowVec (V c main_v83)))) (i 1) :=
  (dat6 V c).arrAt_eq_of_cover 6 (G6_6 (arr6_0 V c) (arr6_1 V c) (arr6_2 V c) (arr6_3 V c)) (flushed6_6_eq V c) (cover6_6)

end Cert.KernelIdeal.Hand
end
-- ==== Proof.KI.AggReal.lean ====
import proofs.«128301_j8701603742430_2_alg».proof.Proof.KI.Host
import proofs.«128301_j8701603742430_2_alg».proof.Proof.KI.HostIdx
import proofs.«128301_j8701603742430_2_alg».proof.Proof.SpecNet
import proofs.«128301_j8701603742430_2_alg».proof.Proof.SpecCoords

set_option maxRecDepth 16384

noncomputable section

namespace Cert.KernelIdeal.HandHost

open Cert.KernelIdeal Cert.KernelIdeal.Gen
open Idealize.ShloMosaic Idealize.ShloMosaic.TcCoe Idealize.SL.Sem RealValued GinSpec

/-- Neighbour aggregation keeps real entries real: each entry of the result is zero plus a finite sum of gathered
    entries of `h`. -/
theorem aggOf_isReal (src dst : IVec S1600000 32) {h : FVec Ideal S100000x64 .f32} (hh : IsReal h) :
    IsReal (aggOf (F := Ideal) src dst h) := by
  unfold aggOf
  exact IsReal.hostScatterAdd _ (isReal_broadcast_zero _ _) _ (IsReal.gather _ hh _)

/-- The same on coordinates. -/
theorem aggOf_coords_real (src dst : IVec S1600000 32) (H : Fin 100000 → Fin 64 → EReal) (hH : ∀ i k, RealNum (H i k)) :
    ∀ i k, RealNum (onCoords (aggOf (F := Ideal) src dst (ofCoords H)) i k) :=
  (isReal_iff_onCoords _).1 (aggOf_isReal src dst (fun a => hH (a 0) (a 1)))

end Cert.KernelIdeal.HandHost

end
-- ==== Proof.Ref.Stages.lean ====
/-
  The stages of the reference program as functions of array contents, for any float values: each is the composition of
  the host operations of one stretch of the program, operands in place of buffers. The edge list's two rows as index
  vectors; a round's neighbourhood aggregate (negative indices wrapped, rows gathered along the source vector,
  added up along the destination vector); a round's linear stage with its rectifier; the batch mean and variance of a
  column, and batch normalisation with row `o` of the scale and shift tables; member `o` of the weight and bias stacks;
  the last round's linear stage; the row-wise logarithm of the softmax. Then the whole program's result as their
  composition over four rounds.
-/
import proofs.«128301_j8701603742430_2_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Row 0 of the edge list, as a vector: the source node of each edge. -/
def srcOf (E : IVec S2x1600000 32) : IVec S1600000 32 :=
  (fun i => shapeCast S1600000 (extractStridedSlice S1x1600000 ![0, 0] E slices_S2x1600000_S1x1600000_0_0) shapeCasts_S1x1600000_S1600000 i)

/-- Row 1 of the edge list, as a vector: the destination node of each edge. -/
def dstOf (E : IVec S2x1600000 32) : IVec S1600000 32 :=
  (fun i => shapeCast S1600000 (extractStridedSlice S1x1600000 ![1, 0] E slices_S2x1600000_S1x1600000_1_0) shapeCasts_S1x1600000_S1600000 i)

/-- The neighbourhood aggregate of `h` along index vectors: a negative source index is taken from the end, the rows of
    `h` at the source indices are gathered, and added into a zero array at the destination indices. -/
def aggOf (src dst : IVec S1600000 32) (h : FVec F S100000x64 .f32) : FVec F S100000x64 .f32 :=
  (Host.scatterAdd scatter_S100000x64_S1600000x1_S1600000x64_1_0_0_1 (broadcastInDim S100000x64 ![] bcast_S_S100000x64 (constant (F := F) S_ .f32 0x00000000#32)) (broadcastInDim S1600000x1 ![0] bcast_S1600000_S1600000x1_0 dst) (Host.gather gather_S100000x64_S1600000x1_S1600000x64_1_0_n_n_0_1_164 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))

/-- The neighbourhood aggregate of `h` along an edge list. -/
def aggR (E : IVec S2x1600000 32) (h : FVec F S100000x64 .f32) : FVec F S100000x64 .f32 :=
  aggOf (srcOf E) (dstOf E) h

/-- A round's linear stage and rectifier: `max ((h + agg) · W + b) 0`. -/
def linReluOf (h agg : FVec F S100000x64 .f32) (W : FVec F S64x64 .f32) (b : FVec F S64 .f32) : FVec F S100000x64 .f32 :=
  (maximumf (addf (Host.dotGeneral dot_S100000x64_S64x64_S100000x64_1_0_0_1_n_n none (addf h agg) W) (broadcastInDim S100000x64 ![0, 1] bcast_S1x64_S100000x64_0_1 (broadcastInDim S1x64 ![1] bcast_S64_S1x64_1 b))) (broadcastInDim S100000x64 ![] bcast_S_S100000x64 (constant (F := F) S_ .f32 0x00000000#32)))

/-- The batch mean of each column: the column's sum over the row count. -/
def meanOf (r : FVec F S100000x64 .f32) : FVec F S64 .f32 :=
  (Host.divf (Host.reduceAdd r (constant (F := F) S_ .f32 0x00000000#32) reducesTo_S100000x64_S64_d0 h_S_) (broadcastInDim S64 ![] bcast_S_S64 (constant (F := F) S_ .f32 0x47C35000#32)))

/-- The batch variance of each column: the sum of squared deviations from the column's mean over the row count less a
    zero correction, kept where that divisor is positive. -/
def varOf (r : FVec F S100000x64 .f32) : FVec F S64 .f32 :=
  (select (broadcastInDim S64 ![] bcast_S_S64 (cmpf .ogt (subf (constant (F := F) S_ .f32 0x47C35000#32) (sitofp .f32 (constantI S_ 32 0#32))) (constant (F := F) S_ .f32 0x00000000#32))) (Host.divf (Host.reduceAdd (mulf (subf r (broadcastInDim S100000x64 ![0, 1] bcast_S1x64_S100000x64_0_1 (Host.divf (broadcastInDim S1x64 ![1] bcast_S64_S1x64_1 (Host.reduceAdd r (constant (F := F) S_ .f32 0x00000000#32) reducesTo_S100000x64_S64_d0 h_S_)) (broadcastInDim S1x64 ![] bcast_S_S1x64 (constant (F := F) S_ .f32 0x47C35000#32))))) (subf r (broadcastInDim S100000x64 ![0, 1] bcast_S1x64_S100000x64_0_1 (Host.divf (broadcastInDim S1x64 ![1] bcast_S64_S1x64_1 (Host.reduceAdd r (constant (F := F) S_ .f32 0x00000000#32) reducesTo_S100000x64_S64_d0 h_S_)) (broadcastInDim S1x64 ![] bcast_S_S1x64 (constant (F := F) S_ .f32 0x47C35000#32)))))) (constant (F := F) S_ .f32 0x00000000#32) reducesTo_S100000x64_S64_d0 h_S_) (broadcastInDim S64 ![] bcast_S_S64 (subf (constant (F := F) S_ .f32 0x47C35000#32) (sitofp .f32 (constantI S_ 32 0#32))))) (broadcastInDim S64 ![] bcast_S_S64 (id (constant (F := F) S_ .f32 0x7FC00000#32))))

/-- Row `o` of a four-row table, as a vector. -/
def rowOf (o : ℕ) (hs : S4x64.Slices ![o, 0] S1x64) (G : FVec F S4x64 .f32) : FVec F S64 .f32 :=
  (fun i => shapeCast S64 (extractStridedSlice S1x64 ![o, 0] G hs) shapeCasts_S1x64_S64 i)

/-- Batch normalisation of `r` with row `o` of the scale table `G` and of the shift table `Bt`. -/
def bnOf (o : ℕ) (hs : S4x64.Slices ![o, 0] S1x64) (r : FVec F S100000x64 .f32) (G Bt : FVec F S4x64 .f32) :
    FVec F S100000x64 .f32 :=
  (addf (mulf (mulf (subf r (broadcastInDim S100000x64 ![0, 1] bcast_S1x64_S100000x64_0_1 (broadcastInDim S1x64 ![1] bcast_S64_S1x64_1 (meanOf r)))) (broadcastInDim S100000x64 ![0, 1] bcast_S1x64_S100000x64_0_1 (broadcastInDim S1x64 ![1] bcast_S64_S1x64_1 (Host.rsqrt (addf (varOf r) (broadcastInDim S64 ![] bcast_S_S64 (constant (F := F) S_ .f32 0x3727C5AC#32))))))) (broadcastInDim S100000x64 ![0, 1] bcast_S1x64_S100000x64_0_1 (broadcastInDim S1x64 ![1] bcast_S64_S1x64_1 (rowOf o hs G)))) (broadcastInDim S100000x64 ![0, 1] bcast_S1x64_S100000x64_0_1 (broadcastInDim S1x64 ![1] bcast_S64_S1x64_1 (rowOf o hs Bt))))

/-- Member `o` of the weight stack. -/
def wOf (o : ℕ) (hs : S3x64x64.Slices ![o, 0, 0] S1x64x64) (Ws : FVec F S3x64x64 .f32) : FVec F S64x64 .f32 :=
  (fun i => shapeCast S64x64 (extractStridedSlice S1x64x64 ![o, 0, 0] Ws hs) shapeCasts_S1x64x64_S64x64 i)

/-- Member `o` of the bias stack. -/
def bOf (o : ℕ) (hs : S3x64.Slices ![o, 0] S1x64) (bs : FVec F S3x64 .f32) : FVec F S64 .f32 :=
  (fun i => shapeCast S64 (extractStridedSlice S1x64 ![o, 0] bs hs) shapeCasts_S1x64_S64 i)

/-- The last round's linear stage: `(h + agg) · W + b`. -/
def linFOf (h agg : FVec F S100000x64 .f32) (W : FVec F S64x40 .f32) (b : FVec F S40 .f32) : FVec F S100000x40 .f32 :=
  (addf (Host.dotGeneral dot_S100000x64_S64x40_S100000x40_1_0_0_1_n_n none (addf h agg) W) (broadcastInDim S100000x40 ![0, 1] bcast_S1x40_S100000x40_0_1 (broadcastInDim S1x40 ![1] bcast_S40_S1x40_1 b)))

/-- The largest entry of each row, from minus infinity. -/
def lsmMaxOf (z : FVec F S100000x40 .f32) : FVec F S100000 .f32 :=
  (maximumf (broadcastInDim S100000 ![] bcast_S_S100000 (constant (F := F) S_ .f32 0xFF800000#32)) (Host.reduce FloatOps.maximumf z (constant (F := F) S_ .f32 0xFF800000#32) reducesTo_S100000x40_S100000_d1 h_S_))

/-- The row-wise logarithm of the softmax: `(z - max) - log (∑ exp (z - max))`. -/
def lsmOf (z : FVec F S100000x40 .f32) : FVec F S100000x40 .f32 :=
  (subf (subf z (broadcastInDim S100000x40 ![0, 1] bcast_S100000x1_S100000x40_0_1 (broadcastInDim S100000x1 ![0] bcast_S100000_S100000x1_0 (lsmMaxOf z)))) (broadcastInDim S100000x40 ![0, 1] bcast_S100000x1_S100000x40_0_1 (Host.log (broadcastInDim S100000x1 ![0] bcast_S100000_S100000x1_0 (Host.reduceAdd (Host.exp (subf z (broadcastInDim S100000x40 ![0, 1] bcast_S100000x1_S100000x40_0_1 (broadcastInDim S100000x1 ![0] bcast_S100000_S100000x1_0 (lsmMaxOf z))))) (constant (F := F) S_ .f32 0x00000000#32) reducesTo_S100000x40_S100000_d1 h_S_)))))

/-- One round: aggregate, linear stage with rectifier, batch normalisation with row `o` of the tables. -/
def roundOf (o : ℕ) (hs : S4x64.Slices ![o, 0] S1x64) (E : IVec S2x1600000 32) (h : FVec F S100000x64 .f32)
    (W : FVec F S64x64 .f32) (b : FVec F S64 .f32) (G Bt : FVec F S4x64 .f32) : FVec F S100000x64 .f32 :=
  bnOf o hs (linReluOf h (aggR E h) W b) G Bt

/-- The activations after the first round. -/
def h1Of (x : FVec F S100000x64 .f32) (E : IVec S2x1600000 32) (Wp : FVec F S64x64 .f32) (bp : FVec F S64 .f32)
    (G Bt : FVec F S4x64 .f32) : FVec F S100000x64 .f32 :=
  roundOf 0 slices_S4x64_S1x64_0_0 E x Wp bp G Bt

/-- The activations after the second round. -/
def h2Of (x : FVec F S100000x64 .f32) (E : IVec S2x1600000 32) (Wp : FVec F S64x64 .f32) (bp : FVec F S64 .f32)
    (Ws : FVec F S3x64x64 .f32) (bs : FVec F S3x64 .f32) (G Bt : FVec F S4x64 .f32) : FVec F S100000x64 .f32 :=
  roundOf 1 slices_S4x64_S1x64_1_0 E (h1Of x E Wp bp G Bt) (wOf 0 slices_S3x64x64_S1x64x64_0_0_0 Ws)
    (bOf 0 slices_S3x64_S1x64_0_0 bs) G Bt

/-- The activations after the third round. -/
def h3Of (x : FVec F S100000x64 .f32) (E : IVec S2x1600000 32) (Wp : FVec F S64x64 .f32) (bp : FVec F S64 .f32)
    (Ws : FVec F S3x64x64 .f32) (bs : FVec F S3x64 .f32) (G Bt : FVec F S4x64 .f32) : FVec F S100000x64 .f32 :=
  roundOf 2 slices_S4x64_S1x64_2_0 E (h2Of x E Wp bp Ws bs G Bt) (wOf 1 slices_S3x64x64_S1x64x64_1_0_0 Ws)
    (bOf 1 slices_S3x64_S1x64_1_0 bs) G Bt

/-- The activations after the fourth round. -/
def h4Of (x : FVec F S100000x64 .f32) (E : IVec S2x1600000 32) (Wp : FVec F S64x64 .f32) (bp : FVec F S64 .f32)
    (Ws : FVec F S3x64x64 .f32) (bs : FVec F S3x64 .f32) (G Bt : FVec F S4x64 .f32) : FVec F S100000x64 .f32 :=
  roundOf 3 slices_S4x64_S1x64_3_0 E (h3Of x E Wp bp Ws bs G Bt) (wOf 2 slices_S3x64x64_S1x64x64_2_0_0 Ws)
    (bOf 2 slices_S3x64_S1x64_2_0 bs) G Bt

/-- The program's result as a function of its ten arguments, in their order. -/
def refOut (x : FVec F S100000x64 .f32) (E : IVec S2x1600000 32) (Wp : FVec F S64x64 .f32) (bp : FVec F S64 .f32)
    (Ws : FVec F S3x64x64 .f32) (bs : FVec F S3x64 .f32) (Wf : FVec F S64x40 .f32) (bf : FVec F S40 .f32)
    (G Bt : FVec F S4x64 .f32) : FVec F S100000x40 .f32 :=
  lsmOf (linFOf (h4Of x E Wp bp Ws bs G Bt) (aggR E (h4Of x E Wp bp Ws bs G Bt)) Wf bf)

end Cert.ReferenceIdeal.Hand

end
-- ==== Proof.Ref.Value.lean ====
/-
  The reference program's stage functions at the ideal instance, read on coordinates: the linear stage with its
  rectifier is `max ((h + agg) · W + b) 0`; batch normalisation is the normalisation by the column's mean and by its
  centred variance (the zero initial values of the host sums vanish, the divisor `count - 0` is the count, and the guard
  on that divisor holds because the count is positive); a member of a stack or a row of a table is read at its index;
  the last stage is the row-wise logarithm of the softmax with the row's largest entry taken from minus infinity. Then
  the program's result as the four rounds' composition of these functions.
-/
import proofs.«128301_j8701603742430_2_alg».proof.Proof.Ref.Stages
import proofs.«128301_j8701603742430_2_alg».proof.Proof.Spec
import proofs.«128301_j8701603742430_2_alg».proof.Proof.SpecCoords
import proofs.«128301_j8701603742430_2_alg».proof.Proof.LibHostLayout
import proofs.«128301_j8701603742430_2_alg».proof.Proof.LibPlainProduct
import proofs.«128301_j8701603742430_2_alg».proof.Proof.LibBatchLiterals
import proofs.«128301_j8701603742430_2_alg».proof.Proof.LibBatchMoments

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo Idealize.ShloMosaic.ValueIdx Idealize.ShloMosaic.HostLayout

variable {F : FTy → Type} [FloatOps F]

open scoped BigOperators

/-! ## Single host operations at an index -/

theorem hostRsqrt_apply {s : Shape} {φ : FTy} (x : FVec Ideal s φ) (i : s.Idx) : Host.rsqrt x i = Ideal.rsqrt (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- The host's sum down the columns, from the zero word, read at column `j`: the sum of the column. -/
theorem colSum0_apply {a b : ℕ} (x : FVec Ideal ⟨2, ![a, b]⟩ .f32)
    (h' : (⟨2, ![a, b]⟩ : Shape).ReducesTo [0] ⟨1, ![b]⟩) (hu : 0 < (⟨0, ![]⟩ : Shape).numel) (j : Fin b) :
    Host.reduceAdd x (constant (F := Ideal) ⟨0, ![]⟩ .f32 0x00000000#32) h' hu (ix1 j) = ∑ k : Fin a, x (ix2 k j) := by
  have h : (⟨2, ![a, b]⟩ : Shape).Reduces [0] ⟨1, ![b]⟩ := ⟨h'.1, Nat.one_pos, h'.2⟩
  show Ideal.hostReduceAdd h' x _ (ix1 j) = _
  rw [Ideal.hostReduceAdd_single h' h, constant_apply, Ideal.ofBits_zero_f32, zero_add]
  exact Finset.sum_congr rfl fun k _ => congrArg x (funext fun ax => Fin.ext (by
    match ax with
    | ⟨0, _⟩ => rfl
    | ⟨1, _⟩ => rfl))

/-- The host's sum along the rows, from the zero word, read at row `p`: the sum of the row. -/
theorem rowSum0_apply {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  hostRowSum_apply x _ h' hu (by rw [constant_apply]; exact Ideal.ofBits_zero_f32) p

/-! ## Coordinates and arrays -/

/-- Two arrays that agree at every pair of coordinates are equal. -/
theorem ext_ix2 {a b : ℕ} {x y : (⟨2, ![a, b]⟩ : Shape).Idx → EReal} (h : ∀ p j, x (ix2 p j) = y (ix2 p j)) : x = y :=
  funext fun i => by rw [eq_ix2 i]; exact h _ _

/-! ## The stages -/

/-- The linear stage with its rectifier. -/
theorem linReluOf_value (h agg : FVec Ideal S100000x64 .f32) (W : FVec Ideal S64x64 .f32) (b : FVec Ideal S64 .f32) :
    linReluOf h agg W b
      = GinSpec.ofCoords (GinSpec.relu (GinSpec.lin (GinSpec.onCoords h) (GinSpec.onCoords agg) (GinSpec.onCoords W) (fun j => b (ix1 j)))) := by
  refine ext_ix2 fun p j => ?_
  show linReluOf h agg W b (ix2 p j) = GinSpec.relu (GinSpec.lin (GinSpec.onCoords h) (GinSpec.onCoords agg) (GinSpec.onCoords W) (fun j => b (ix1 j))) p j
  unfold linReluOf
  rw [maximumf_apply, addf_apply, PlainProduct.dotGeneral_at dot_S100000x64_S64x64_S100000x64_1_0_0_1_n_n rfl none (addf h agg) W p j,
    bcast_1b_ab_apply, bcast_b_1b_apply, broadcastInDim_scalar_apply, constant_apply, Ideal.ofBits_zero_f32]
  simp only [addf_apply]
  rfl

/-- The last round's linear stage. -/
theorem linFOf_value (h agg : FVec Ideal S100000x64 .f32) (W : FVec Ideal S64x40 .f32) (b : FVec Ideal S40 .f32) :
    linFOf h agg W b
      = GinSpec.ofCoords (GinSpec.lin (GinSpec.onCoords h) (GinSpec.onCoords agg) (GinSpec.onCoords W) (fun j => b (ix1 j))) := by
  refine ext_ix2 fun p j => ?_
  show linFOf h agg W b (ix2 p j) = GinSpec.lin (GinSpec.onCoords h) (GinSpec.onCoords agg) (GinSpec.onCoords W) (fun j => b (ix1 j)) p j
  unfold linFOf
  rw [addf_apply, PlainProduct.dotGeneral_at dot_S100000x64_S64x40_S100000x40_1_0_0_1_n_n rfl none (addf h agg) W p j,
    bcast_1b_ab_apply, bcast_b_1b_apply]
  simp only [addf_apply]
  rfl

/-- Row `o` of a four-row table at column `j`. -/
theorem rowOf_apply (o : ℕ) (hs : S4x64.Slices ![o, 0] S1x64) (G : FVec Ideal S4x64 .f32) (k : Fin 4) (hk : k.val = o)
    (j : Fin 64) : rowOf o hs G (ix1 j) = G (ix2 k j) := by
  unfold rowOf
  rw [shapeCast_1a_a_apply, slice2_axis0_apply o G hs (0 : Fin 1) j k (by rw [hk]; rfl)]

/-- Member `o` of the bias stack at column `j`. -/
theorem bOf_apply (o : ℕ) (hs : S3x64.Slices ![o, 0] S1x64) (bs : FVec Ideal S3x64 .f32) (k : Fin 3) (hk : k.val = o)
    (j : Fin 64) : bOf o hs bs (ix1 j) = bs (ix2 k j) := by
  unfold bOf
  rw [shapeCast_1a_a_apply, slice2_axis0_apply o bs hs (0 : Fin 1) j k (by rw [hk]; rfl)]

/-- Member `o` of the weight stack on coordinates. -/
theorem wOf_value (o : ℕ) (hs : S3x64x64.Slices ![o, 0, 0] S1x64x64) (Ws : FVec Ideal S3x64x64 .f32) (k : Fin 3)
    (hk : k.val = o) : GinSpec.onCoords (wOf o hs Ws) = fun a b => Ws (ix3 k a b) := by
  funext a b
  show wOf o hs Ws (ix2 a b) = _
  unfold wOf
  rw [shapeCast_1ab_ab_apply, slice3_axis0_apply o Ws hs (0 : Fin 1) a b k hk]

/-- The count less the integer zero read as a float is the count. -/
theorem count_sub_zero :
    Ideal.ofBits .f32 0x47C35000#32 - FloatOps.sitofp (F := Ideal) .f32 (0#32 : BitVec 32) = Ideal.ofBits .f32 0x47C35000#32 := by
  rw [BatchLiterals.ofBits_count]
  show ((100000 : ℝ) : EReal) - ((((0#32 : BitVec 32).toInt : ℤ) : ℝ) : EReal) = _
  rw [show (0#32 : BitVec 32).toInt = 0 from by decide]
  exact BatchMoments.count_sub_zero 100000

/-- The count compares above zero. -/
theorem count_cmp_pos : Ideal.cmp .ogt (Ideal.ofBits .f32 0x47C35000#32) (Ideal.ofBits .f32 0x00000000#32) = 1#1 := by
  rw [BatchLiterals.ofBits_count, Ideal.ofBits_zero_f32]
  exact BatchMoments.count_cmp_pos (by norm_num)

/-- The batch mean of column `j`. -/
theorem meanOf_apply (r : FVec Ideal S100000x64 .f32) (j : Fin 64) :
    meanOf r (ix1 j) = Ideal.div (∑ p : Fin 100000, r (ix2 p j)) (Ideal.ofBits .f32 0x47C35000#32) := by
  unfold meanOf
  rw [hostDivf_apply, colSum0_apply, broadcastInDim_scalar_apply, constant_apply]

/-- The batch variance of column `j`: the guard on the divisor holds, and the divisor is the count. -/
theorem varOf_apply (r : FVec Ideal S100000x64 .f32) (j : Fin 64) :
    varOf r (ix1 j) = Ideal.div (∑ p : Fin 100000,
        (r (ix2 p j) - Ideal.div (∑ q : Fin 100000, r (ix2 q j)) (Ideal.ofBits .f32 0x47C35000#32))
          * (r (ix2 p j) - Ideal.div (∑ q : Fin 100000, r (ix2 q j)) (Ideal.ofBits .f32 0x47C35000#32))) (Ideal.ofBits .f32 0x47C35000#32) := by
  unfold varOf
  rw [select_apply, broadcastInDim_scalar_apply, cmpf_apply, subf_apply, sitofp_apply]
  simp only [constant_apply]
  show Scalar.select (Ideal.cmp .ogt (Ideal.ofBits .f32 0x47C35000#32 - FloatOps.sitofp (F := Ideal) .f32 (constantI S_ 32 0#32 ix0))
    (Ideal.ofBits .f32 0x00000000#32)) _ _ = _
  rw [show constantI S_ 32 0#32 ix0 = (0#32 : BitVec 32) from rfl, count_sub_zero, count_cmp_pos, select_one,
    hostDivf_apply, colSum0_apply, broadcastInDim_scalar_apply, subf_apply, sitofp_apply]
  simp only [constant_apply]
  rw [show constantI S_ 32 0#32 ix0 = (0#32 : BitVec 32) from rfl, count_sub_zero]
  have hd : ∀ p : Fin 100000, (mulf (subf r (broadcastInDim S100000x64 ![0, 1] bcast_S1x64_S100000x64_0_1 (Host.divf (broadcastInDim S1x64 ![1] bcast_S64_S1x64_1 (Host.reduceAdd r (constant (F := Ideal) S_ .f32 0x00000000#32) reducesTo_S100000x64_S64_d0 h_S_)) (broadcastInDim S1x64 ![] bcast_S_S1x64 (constant (F := Ideal) S_ .f32 0x47C35000#32))))) (subf r (broadcastInDim S100000x64 ![0, 1] bcast_S1x64_S100000x64_0_1 (Host.divf (broadcastInDim S1x64 ![1] bcast_S64_S1x64_1 (Host.reduceAdd r (constant (F := Ideal) S_ .f32 0x00000000#32) reducesTo_S100000x64_S64_d0 h_S_)) (broadcastInDim S1x64 ![] bcast_S_S1x64 (constant (F := Ideal) S_ .f32 0x47C35000#32)))))) (ix2 p j)
      = (r (ix2 p j) - Ideal.div (∑ q : Fin 100000, r (ix2 q j)) (Ideal.ofBits .f32 0x47C35000#32))
          * (r (ix2 p j) - Ideal.div (∑ q : Fin 100000, r (ix2 q j)) (Ideal.ofBits .f32 0x47C35000#32)) := by
    intro p
    rw [mulf_apply, subf_apply, bcast_1b_ab_apply, hostDivf_apply, bcast_b_1b_apply, colSum0_apply,
      broadcastInDim_scalar_apply, constant_apply]
  simp only [hd]

/-- Batch normalisation with row `o` of the tables. -/
theorem bnOf_value (o : ℕ) (hs : S4x64.Slices ![o, 0] S1x64) (k : Fin 4) (hk : k.val = o)
    (r : FVec Ideal S100000x64 .f32) (G Bt : FVec Ideal S4x64 .f32) :
    bnOf o hs r G Bt
      = GinSpec.ofCoords (GinSpec.bnCentred (Ideal.ofBits .f32 0x47C35000#32) (Ideal.ofBits .f32 0x3727C5AC#32) (GinSpec.onCoords r) (fun j => G (ix2 k j)) (fun j => Bt (ix2 k j))) := by
  refine ext_ix2 fun p j => ?_
  show bnOf o hs r G Bt (ix2 p j)
    = GinSpec.bnCentred (Ideal.ofBits .f32 0x47C35000#32) (Ideal.ofBits .f32 0x3727C5AC#32) (GinSpec.onCoords r) (fun j => G (ix2 k j)) (fun j => Bt (ix2 k j)) p j
  unfold bnOf
  rw [addf_apply, mulf_apply, mulf_apply, subf_apply]
  repeat rw [bcast_1b_ab_apply]
  repeat rw [bcast_b_1b_apply]
  rw [hostRsqrt_apply, addf_apply, broadcastInDim_scalar_apply, constant_apply, meanOf_apply, varOf_apply,
    rowOf_apply o hs G k hk, rowOf_apply o hs Bt k hk]
  rfl

end Cert.ReferenceIdeal.Hand

end
-- ==== Proof.Ref.ValueL.lean ====
/-
  The last stage of the reference program at the ideal instance, read on coordinates: the host's maximum along a row
  from minus infinity is the row's largest entry, and the stage is the row-wise logarithm of the softmax.
-/
import proofs.«128301_j8701603742430_2_alg».proof.Proof.Ref.Value

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo Idealize.ShloMosaic.ValueIdx Idealize.ShloMosaic.HostLayout

open scoped BigOperators

/-- The host's exponential and logarithm of an array, entry by entry. -/
private theorem hostExp_at {s : Shape} {φ : FTy} (x : FVec Ideal s φ) (i : s.Idx) : Host.exp x i = Ideal.exp (x i) := rfl
private theorem hostLog_at {s : Shape} {φ : FTy} (x : FVec Ideal s φ) (i : s.Idx) : Host.log x i = Ideal.log (x i) := rfl

/-- The host's sum along the rows, from the zero word, read at row `p`: the sum of the row. -/
private theorem rowSum0_at {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  hostRowSum_apply x _ h' hu (by rw [constant_apply]; exact Ideal.ofBits_zero_f32) p

/-- A fold of `max` from the least element is the supremum. -/
private theorem fold_max_bot_eq_sup {β : Type} (s : Finset β) (f : β → EReal) : s.fold max ⊥ f = s.sup f := rfl

/-- The host's maximum along the rows, from the word of minus infinity, read at row `p`: the largest entry of the row. -/
theorem rowMax_apply {a b : ℕ} (z : FVec Ideal ⟨2, ![a, b]⟩ .f32)
    (h' : (⟨2, ![a, b]⟩ : Shape).ReducesTo [1] ⟨1, ![a]⟩) (hu : 0 < (⟨0, ![]⟩ : Shape).numel) (p : Fin a) :
    Host.reduce FloatOps.maximumf z (constant (F := Ideal) ⟨0, ![]⟩ .f32 0xFF800000#32) h' hu (ix1 p)
      = Finset.univ.sup fun k : Fin b => z (ix2 p k) := by
  have h : (⟨2, ![a, b]⟩ : Shape).Reduces [1] ⟨1, ![a]⟩ := ⟨h'.1, Nat.one_pos, h'.2⟩
  refine (Host.reduce_eq_fold_single FloatOps.maximumf z _ h' h hu (ix1 p)).trans ?_
  rw [constant_apply, BatchLiterals.ofBits_negInf]
  have hf : (z ∘ h.lift (ix1 p)) = fun k : Fin b => z (ix2 p k) :=
    funext fun k => congrArg z (funext fun ax => Fin.ext (by
      match ax with
      | ⟨0, _⟩ => rfl
      | ⟨1, _⟩ => rfl))
  rw [hf]
  exact fold_max_bot_eq_sup _ _

/-- The largest entry of row `p`. -/
theorem lsmMaxOf_apply (z : FVec Ideal S100000x40 .f32) (p : Fin 100000) :
    lsmMaxOf z (ix1 p) = GinSpec.rowMax (GinSpec.onCoords z) p := by
  unfold lsmMaxOf
  rw [maximumf_apply, broadcastInDim_scalar_apply, constant_apply, BatchLiterals.ofBits_negInf, rowMax_apply]
  exact max_eq_right bot_le

/-- The row-wise logarithm of the softmax. -/
theorem lsmOf_value (z : FVec Ideal S100000x40 .f32) : lsmOf z = GinSpec.ofCoords (GinSpec.logSoftmax (GinSpec.onCoords z)) := by
  funext i
  obtain ⟨p, j, rfl⟩ : ∃ (p : Fin 100000) (j : Fin 40), i = ix2 p j := ⟨i 0, i 1, eq_ix2 i⟩
  show lsmOf z (ix2 p j) = GinSpec.logSoftmax (GinSpec.onCoords z) p j
  have hsub : ∀ (p' : Fin 100000) (k : Fin 40),
      subf z (broadcastInDim S100000x40 ![0, 1] bcast_S100000x1_S100000x40_0_1
        (broadcastInDim S100000x1 ![0] bcast_S100000_S100000x1_0 (lsmMaxOf z))) (ix2 p' k)
        = z (ix2 p' k) - GinSpec.rowMax (GinSpec.onCoords z) p' := fun p' k => by
    rw [subf_apply, bcast_a1_ab_apply, bcast_a_a1_apply, lsmMaxOf_apply]
  unfold lsmOf
  rw [subf_apply, hsub, bcast_a1_ab_apply, hostLog_at, bcast_a_a1_apply, rowSum0_at]
  simp only [hostExp_at, hsub]
  rfl

end Cert.ReferenceIdeal.Hand

end
-- ==== Proof.Ref.ValueNet.lean ====
/-
  The reference program's result at the ideal instance as the four rounds' composition, on coordinates: a round is the
  batch normalisation (centred form) of the rectified linear stage of the activations and their neighbourhood
  aggregate; the result is the row-wise logarithm of the softmax of the last linear stage. The aggregate stays one
  function of the edge list and the activations, read on coordinates.
-/
import proofs.«128301_j8701603742430_2_alg».proof.Proof.Ref.Value
import proofs.«128301_j8701603742430_2_alg».proof.Proof.Ref.ValueL
import proofs.«128301_j8701603742430_2_alg».proof.Proof.SpecNet

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo Idealize.ShloMosaic.ValueIdx Idealize.ShloMosaic.HostLayout

variable {F : FTy → Type} [FloatOps F]

/-- The neighbourhood aggregate along an edge list, on coordinates. -/
def aggRC (E : IVec S2x1600000 32) : (Fin 100000 → Fin 64 → EReal) → (Fin 100000 → Fin 64 → EReal) :=
  fun h => GinSpec.onCoords (aggOf (F := Ideal) (srcOf E) (dstOf E) (GinSpec.ofCoords h))

/-- A round of the program is a round on coordinates. -/
theorem roundOf_value (o : ℕ) (hs : S4x64.Slices ![o, 0] S1x64) (k : Fin 4) (hk : k.val = o) (E : IVec S2x1600000 32)
    (h : FVec Ideal S100000x64 .f32) (W : FVec Ideal S64x64 .f32) (b : FVec Ideal S64 .f32) (G Bt : FVec Ideal S4x64 .f32) :
    roundOf o hs E h W b G Bt
      = GinSpec.ofCoords (GinSpec.roundC (Ideal.ofBits .f32 0x47C35000#32) (Ideal.ofBits .f32 0x3727C5AC#32) (aggRC E)
          (GinSpec.onCoords h) (GinSpec.onCoords W) (fun j => b (ix1 j)) (fun j => G (ix2 k j)) (fun j => Bt (ix2 k j))) := by
  unfold roundOf GinSpec.roundC aggRC aggR
  rw [bnOf_value o hs k hk, linReluOf_value, GinSpec.ofCoords_onCoords h] <;> rfl

/-- The activations after round 1: one round on coordinates. -/
theorem h1Of_value (x : FVec Ideal S100000x64 .f32) (E : IVec S2x1600000 32) (Wp : FVec Ideal S64x64 .f32) (bp : FVec Ideal S64 .f32)
    (G Bt : FVec Ideal S4x64 .f32) :
    h1Of x E Wp bp G Bt = GinSpec.ofCoords (GinSpec.roundC (Ideal.ofBits .f32 0x47C35000#32) (Ideal.ofBits .f32 0x3727C5AC#32) (aggRC E) (GinSpec.onCoords x) (GinSpec.onCoords Wp) (fun j => bp (ix1 j)) (fun j => G (ix2 (0 : Fin 4) j)) (fun j => Bt (ix2 (0 : Fin 4) j))) := by
  unfold h1Of
  exact roundOf_value 0 _ 0 rfl E x Wp bp G Bt

/-- The activations after round 2: 2 rounds on coordinates. -/
theorem h2Of_value (x : FVec Ideal S100000x64 .f32) (E : IVec S2x1600000 32) (Wp : FVec Ideal S64x64 .f32) (bp : FVec Ideal S64 .f32)
    (Ws : FVec Ideal S3x64x64 .f32) (bs : FVec Ideal S3x64 .f32) (G Bt : FVec Ideal S4x64 .f32) :
    h2Of x E Wp bp Ws bs G Bt = GinSpec.ofCoords (GinSpec.roundC (Ideal.ofBits .f32 0x47C35000#32) (Ideal.ofBits .f32 0x3727C5AC#32) (aggRC E) (GinSpec.roundC (Ideal.ofBits .f32 0x47C35000#32) (Ideal.ofBits .f32 0x3727C5AC#32) (aggRC E) (GinSpec.onCoords x) (GinSpec.onCoords Wp) (fun j => bp (ix1 j)) (fun j => G (ix2 (0 : Fin 4) j)) (fun j => Bt (ix2 (0 : Fin 4) j))) (fun k j => Ws (ix3 (0 : Fin 3) k j)) (fun j => bs (ix2 (0 : Fin 3) j)) (fun j => G (ix2 (1 : Fin 4) j)) (fun j => Bt (ix2 (1 : Fin 4) j))) := by
  unfold h2Of
  rw [h1Of_value, roundOf_value 1 _ 1 rfl, wOf_value 0 _ Ws 0 rfl,
    show (fun j => bOf 0 slices_S3x64_S1x64_0_0 bs (ix1 j)) = (fun j => bs (ix2 (0 : Fin 3) j)) from
      funext fun j => bOf_apply 0 _ bs 0 rfl j] <;> rfl

/-- The activations after round 3: 3 rounds on coordinates. -/
theorem h3Of_value (x : FVec Ideal S100000x64 .f32) (E : IVec S2x1600000 32) (Wp : FVec Ideal S64x64 .f32) (bp : FVec Ideal S64 .f32)
    (Ws : FVec Ideal S3x64x64 .f32) (bs : FVec Ideal S3x64 .f32) (G Bt : FVec Ideal S4x64 .f32) :
    h3Of x E Wp bp Ws bs G Bt = GinSpec.ofCoords (GinSpec.roundC (Ideal.ofBits .f32 0x47C35000#32) (Ideal.ofBits .f32 0x3727C5AC#32) (aggRC E) (GinSpec.roundC (Ideal.ofBits .f32 0x47C35000#32) (Ideal.ofBits .f32 0x3727C5AC#32) (aggRC E) (GinSpec.roundC (Ideal.ofBits .f32 0x47C35000#32) (Ideal.ofBits .f32 0x3727C5AC#32) (aggRC E) (GinSpec.onCoords x) (GinSpec.onCoords Wp) (fun j => bp (ix1 j)) (fun j => G (ix2 (0 : Fin 4) j)) (fun j => Bt (ix2 (0 : Fin 4) j))) (fun k j => Ws (ix3 (0 : Fin 3) k j)) (fun j => bs (ix2 (0 : Fin 3) j)) (fun j => G (ix2 (1 : Fin 4) j)) (fun j => Bt (ix2 (1 : Fin 4) j))) (fun k j => Ws (ix3 (1 : Fin 3) k j)) (fun j => bs (ix2 (1 : Fin 3) j)) (fun j => G (ix2 (2 : Fin 4) j)) (fun j => Bt (ix2 (2 : Fin 4) j))) := by
  unfold h3Of
  rw [h2Of_value, roundOf_value 2 _ 2 rfl, wOf_value 1 _ Ws 1 rfl,
    show (fun j => bOf 1 slices_S3x64_S1x64_1_0 bs (ix1 j)) = (fun j => bs (ix2 (1 : Fin 3) j)) from
      funext fun j => bOf_apply 1 _ bs 1 rfl j] <;> rfl

/-- The activations after round 4: 4 rounds on coordinates. -/
theorem h4Of_value (x : FVec Ideal S100000x64 .f32) (E : IVec S2x1600000 32) (Wp : FVec Ideal S64x64 .f32) (bp : FVec Ideal S64 .f32)
    (Ws : FVec Ideal S3x64x64 .f32) (bs : FVec Ideal S3x64 .f32) (G Bt : FVec Ideal S4x64 .f32) :
    h4Of x E Wp bp Ws bs G Bt = GinSpec.ofCoords (GinSpec.roundC (Ideal.ofBits .f32 0x47C35000#32) (Ideal.ofBits .f32 0x3727C5AC#32) (aggRC E) (GinSpec.roundC (Ideal.ofBits .f32 0x47C35000#32) (Ideal.ofBits .f32 0x3727C5AC#32) (aggRC E) (GinSpec.roundC (Ideal.ofBits .f32 0x47C35000#32) (Ideal.ofBits .f32 0x3727C5AC#32) (aggRC E) (GinSpec.roundC (Ideal.ofBits .f32 0x47C35000#32) (Ideal.ofBits .f32 0x3727C5AC#32) (aggRC E) (GinSpec.onCoords x) (GinSpec.onCoords Wp) (fun j => bp (ix1 j)) (fun j => G (ix2 (0 : Fin 4) j)) (fun j => Bt (ix2 (0 : Fin 4) j))) (fun k j => Ws (ix3 (0 : Fin 3) k j)) (fun j => bs (ix2 (0 : Fin 3) j)) (fun j => G (ix2 (1 : Fin 4) j)) (fun j => Bt (ix2 (1 : Fin 4) j))) (fun k j => Ws (ix3 (1 : Fin 3) k j)) (fun j => bs (ix2 (1 : Fin 3) j)) (fun j => G (ix2 (2 : Fin 4) j)) (fun j => Bt (ix2 (2 : Fin 4) j))) (fun k j => Ws (ix3 (2 : Fin 3) k j)) (fun j => bs (ix2 (2 : Fin 3) j)) (fun j => G (ix2 (3 : Fin 4) j)) (fun j => Bt (ix2 (3 : Fin 4) j))) := by
  unfold h4Of
  rw [h3Of_value, roundOf_value 3 _ 3 rfl, wOf_value 2 _ Ws 2 rfl,
    show (fun j => bOf 2 slices_S3x64_S1x64_2_0 bs (ix1 j)) = (fun j => bs (ix2 (2 : Fin 3) j)) from
      funext fun j => bOf_apply 2 _ bs 2 rfl j] <;> rfl

/-- The program's result as a function of its arguments is the network on coordinates. -/
theorem refOut_eq (x : FVec Ideal S100000x64 .f32) (E : IVec S2x1600000 32) (Wp : FVec Ideal S64x64 .f32) (bp : FVec Ideal S64 .f32)
    (Ws : FVec Ideal S3x64x64 .f32) (bs : FVec Ideal S3x64 .f32) (Wf : FVec Ideal S64x40 .f32) (bf : FVec Ideal S40 .f32)
    (G Bt : FVec Ideal S4x64 .f32) :
    refOut (F := Ideal) x E Wp bp Ws bs Wf bf G Bt
      = GinSpec.ofCoords (GinSpec.netC (Ideal.ofBits .f32 0x47C35000#32) (Ideal.ofBits .f32 0x3727C5AC#32) (aggRC E)
          (GinSpec.onCoords x) (GinSpec.onCoords Wp) (fun j => bp (ix1 j)) (fun j => G (ix2 (0 : Fin 4) j)) (fun j => Bt (ix2 (0 : Fin 4) j)) (fun k j => Ws (ix3 (0 : Fin 3) k j)) (fun j => bs (ix2 (0 : Fin 3) j)) (fun j => G (ix2 (1 : Fin 4) j)) (fun j => Bt (ix2 (1 : Fin 4) j)) (fun k j => Ws (ix3 (1 : Fin 3) k j)) (fun j => bs (ix2 (1 : Fin 3) j)) (fun j => G (ix2 (2 : Fin 4) j)) (fun j => Bt (ix2 (2 : Fin 4) j)) (fun k j => Ws (ix3 (2 : Fin 3) k j)) (fun j => bs (ix2 (2 : Fin 3) j)) (fun j => G (ix2 (3 : Fin 4) j)) (fun j => Bt (ix2 (3 : Fin 4) j)) (GinSpec.onCoords Wf) (fun j => bf (ix1 j))) := by
  unfold refOut
  rw [h4Of_value, lsmOf_value, linFOf_value] <;> rfl

end Cert.ReferenceIdeal.Hand

end
-- ==== Proof.Ref.Seg0.lean ====
/-
  Stretches 0 to 3 of the reference program's line of host operations: for each stretch its operations, the buffers
  it writes, that every other buffer keeps its contents through it, and what it leaves in the buffers later stretches
  read, as a stage function (Stages.lean) of what it finds in the buffers it reads.
-/
import proofs.«128301_j8701603742430_2_alg».proof.Proof.Ref.Stages

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

private theorem w {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Stretch 0 of the program: operations 1 to 4 of its 325. -/
def seg0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The buffers stretch 0 writes: each operation's result, in order. -/
abbrev wrS0 : List (Ref sig .tc) :=
  [ main_v0, main_v1, main_v2, main_v3 ]

/-- Each operation of stretch 0 writes its own result buffer, a member of that list. -/
theorem seg0_writes : (seg0 : List (HloOp τ sig (Elt F))).Forall fun op =>
    op.writes ⊆ ((wrS0).map (Proc.devRef (τ := τ) .tc)).toFinset :=
  ⟨w (by decide), w (by decide), w (by decide), w (by decide)⟩

/-- A buffer stretch 0 does not write keeps its contents through it. -/
theorem seg0_keeps (V : Valuation τ sig (Elt F)) {r : Ref sig .tc} (hr : r ∉ wrS0) :
    after seg0 V (no_index (Proc.devRef .tc r)) = V (Proc.devRef .tc r) :=
  after_of_writes_sub seg0 V seg0_writes hr

set_option maxRecDepth 8192 in
set_option maxHeartbeats 1600000 in
/-- What stretch 0 leaves in `main_v1`, as a stage function of what it finds in the buffers it reads. -/
theorem seg0_v1 (W : Valuation τ sig (Elt F)) :
    after seg0 W (Proc.devRef .tc main_v1) = srcOf (W (Proc.devRef .tc main_arg1)) := by
  unfold seg0
  after_results_simp <;> rfl

set_option maxRecDepth 8192 in
set_option maxHeartbeats 1600000 in
/-- What stretch 0 leaves in `main_v3`, as a stage function of what it finds in the buffers it reads. -/
theorem seg0_v3 (W : Valuation τ sig (Elt F)) :
    after seg0 W (Proc.devRef .tc main_v3) = dstOf (W (Proc.devRef .tc main_arg1)) := by
  unfold seg0
  after_results_simp <;> rfl

/-- Stretch 1 of the program: operations 5 to 17 of its 325. -/
def seg1 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers stretch 1 writes: each operation's result, in order. -/
abbrev wrS1 : List (Ref sig .tc) :=
  [ main_c, main_v4, main_v5, main_c_0, main_v6, main_v7, main_v8, main_v9,
    main_v10, main_cst, main_v11, main_v12, main_v13 ]

/-- Each operation of stretch 1 writes its own result buffer, a member of that list. -/
theorem seg1_writes : (seg1 : List (HloOp τ sig (Elt F))).Forall fun op =>
    op.writes ⊆ ((wrS1).map (Proc.devRef (τ := τ) .tc)).toFinset :=
  ⟨w (by decide), w (by decide), w (by decide), w (by decide), w (by decide), w (by decide), w (by decide), w (by decide),
    w (by decide), w (by decide), w (by decide), w (by decide), w (by decide)⟩

/-- A buffer stretch 1 does not write keeps its contents through it. -/
theorem seg1_keeps (V : Valuation τ sig (Elt F)) {r : Ref sig .tc} (hr : r ∉ wrS1) :
    after seg1 V (no_index (Proc.devRef .tc r)) = V (Proc.devRef .tc r) :=
  after_of_writes_sub seg1 V seg1_writes hr

set_option maxRecDepth 8192 in
set_option maxHeartbeats 1600000 in
/-- What stretch 1 leaves in `main_v13`, as a stage function of what it finds in the buffers it reads. -/
theorem seg1_v13 (W : Valuation τ sig (Elt F)) :
    after seg1 W (Proc.devRef .tc main_v13) = aggOf (W (Proc.devRef .tc main_v1)) (W (Proc.devRef .tc main_v3)) (W (Proc.devRef .tc main_arg0)) := by
  unfold seg1
  after_results_simp <;> rfl

/-- Stretch 2 of the program: operations 18 to 25 of its 325. -/
def seg2 : List (HloOp τ sig (Elt F)) :=
  [ StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v18 : StableHlo.TRef sig ⟨S100000x64, .f32⟩) main_call0.v0 main_call0.v1 maximumf ]

/-- The buffers stretch 2 writes: each operation's result, in order. -/
abbrev wrS2 : List (Ref sig .tc) :=
  [ main_v14, main_v15, main_v16, main_v17, main_v18, main_call0.cst.ref, main_call0.v0.ref, main_call0.v1.ref ]

/-- Each operation of stretch 2 writes its own result buffer, a member of that list. -/
theorem seg2_writes : (seg2 : List (HloOp τ sig (Elt F))).Forall fun op =>
    op.writes ⊆ ((wrS2).map (Proc.devRef (τ := τ) .tc)).toFinset :=
  ⟨w (by decide), w (by decide), w (by decide), w (by decide), w (by decide), w (by decide), w (by decide), w (by decide)⟩

/-- A buffer stretch 2 does not write keeps its contents through it. -/
theorem seg2_keeps (V : Valuation τ sig (Elt F)) {r : Ref sig .tc} (hr : r ∉ wrS2) :
    after seg2 V (no_index (Proc.devRef .tc r)) = V (Proc.devRef .tc r) :=
  after_of_writes_sub seg2 V seg2_writes hr

set_option maxRecDepth 8192 in
set_option maxHeartbeats 1600000 in
/-- What stretch 2 leaves in `main_v19`, as a stage function of what it finds in the buffers it reads. -/
theorem seg2_v19 (W : Valuation τ sig (Elt F)) :
    after seg2 W (Proc.devRef .tc main_v19) = linReluOf (W (Proc.devRef .tc main_arg0)) (W (Proc.devRef .tc main_v13)) (W (Proc.devRef .tc main_arg2)) (W (Proc.devRef .tc main_arg3)) := by
  unfold seg2
  after_results_simp <;> rfl

/-- Stretch 3 of the program: operations 26 to 73 of its 325. -/
def seg3 : List (HloOp τ sig (Elt F)) :=
  [ StableHlo.unary main_arg8 main_v20 ((extractStridedSlice S1x64 ![0, 0] · slices_S4x64_S1x64_0_0) : (⟨S4x64, .f32⟩ : BufTy).Contents (Elt F) → (⟨S1x64, .f32⟩ : BufTy).Contents (Elt F)),
    StableHlo.reshape main_v20 main_v21 rfl shapeCasts_S1x64_S64,
    StableHlo.unary main_arg9 main_v22 ((extractStridedSlice S1x64 ![0, 0] · slices_S4x64_S1x64_0_0) : (⟨S4x64, .f32⟩ : BufTy).Contents (Elt F) → (⟨S1x64, .f32⟩ : BufTy).Contents (Elt F)),
    StableHlo.reshape main_v22 main_v23 rfl shapeCasts_S1x64_S64,
    StableHlo.nullary main_cst_1 (constant S_ .f32 0x00000000#32),
    StableHlo.binary main_v19 main_cst_1 main_v24 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v25 (broadcastInDim S64 ![] bcast_S_S64 : (⟨S_, .f32⟩ : BufTy).Contents (Elt F) → (⟨S64, .f32⟩ : BufTy).Contents (Elt F)),
    StableHlo.binary main_v24 main_v25 main_v26 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call1.cst (constant S_ .f32 0x00000000#32),
    StableHlo.TRef.binary (.of main_v19 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v19 : StableHlo.TRef sig ⟨S100000x64, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v26 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v29 main_v30 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v31 (broadcastInDim S64 ![] bcast_S_S64 : (⟨S_, .f32⟩ : BufTy).Contents (Elt F) → (⟨S64, .f32⟩ : BufTy).Contents (Elt F)),
    StableHlo.binary main_v27 main_v31 main_v32 (addf : (⟨S64, .f32⟩ : BufTy).Contents (Elt F) → (⟨S64, .f32⟩ : BufTy).Contents (Elt F) → (⟨S64, .f32⟩ : BufTy).Contents (Elt F)),
    StableHlo.unary main_v32 main_v33 (Host.rsqrt : (⟨S64, .f32⟩ : BufTy).Contents (Elt F) → (⟨S64, .f32⟩ : BufTy).Contents (Elt F)),
    StableHlo.unary main_v33 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v35 main_v36 (mulf : (⟨S100000x64, .f32⟩ : BufTy).Contents (Elt F) → (⟨S100000x64, .f32⟩ : BufTy).Contents (Elt F) → (⟨S100000x64, .f32⟩ : BufTy).Contents (Elt F)),
    StableHlo.unary main_v21 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (mulf : (⟨S100000x64, .f32⟩ : BufTy).Contents (Elt F) → (⟨S100000x64, .f32⟩ : BufTy).Contents (Elt F) → (⟨S100000x64, .f32⟩ : BufTy).Contents (Elt F)),
    StableHlo.unary main_v23 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S100000x64 ![0, 1] bcast_S1x64_S100000x64_0_1 : (⟨S1x64, .f32⟩ : BufTy).Contents (Elt F) → (⟨S100000x64, .f32⟩ : BufTy).Contents (Elt F)),
    StableHlo.binary main_v39 main_v41 main_v42 (addf : (⟨S100000x64, .f32⟩ : BufTy).Contents (Elt F) → (⟨S100000x64, .f32⟩ : BufTy).Contents (Elt F) → (⟨S100000x64, .f32⟩ : BufTy).Contents (Elt F)) ]

/-- The buffers stretch 3 writes: each operation's result, in order. -/
abbrev wrS3 : List (Ref sig .tc) :=
  [ main_v20, main_v21, main_v22, main_v23, main_cst_1, main_v24, main_cst_2, main_v25,
    main_v26, main_c_3, main_call1.cst.ref, main_call1.v0.ref, main_call1.v1.ref, main_call1.cst_0.ref, main_call1.v2.ref, main_call1.v3.ref,
    main_call1.v4.ref, main_call1.v5.ref, main_call1.v6.ref, main_call1.v7.ref, main_call1.cst_1.ref, main_call1.v8.ref, main_call1.cst_2.ref, main_call1.v9.ref,
    main_call1.v10.ref, main_call1.v11.ref, main_call1.cst_3.ref, main_call1.v12.ref, main_call1.cst_4.ref, main_call1.call0.v0.ref, main_call1.call0.v1.ref, main_call1.call0.v2.ref,
    main_v28, main_v29, main_v30, main_cst_4, main_v31, main_v32, main_v33, main_v34,
    main_v35, main_v36, main_v37, main_v38, main_v39, main_v40, main_v41, main_v42 ]

/-- Each operation of stretch 3 writes its own result buffer, a member of that list. -/
theorem seg3_writes : (seg3 : List (HloOp τ sig (Elt F))).Forall fun op =>
    op.writes ⊆ ((wrS3).map (Proc.devRef (τ := τ) .tc)).toFinset :=
  ⟨w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide)⟩

/-- A buffer stretch 3 does not write keeps its contents through it. -/
theorem seg3_keeps (V : Valuation τ sig (Elt F)) {r : Ref sig .tc} (hr : r ∉ wrS3) :
    after seg3 V (no_index (Proc.devRef .tc r)) = V (Proc.devRef .tc r) :=
  after_of_writes_sub seg3 V seg3_writes hr

set_option maxRecDepth 8192 in
set_option maxHeartbeats 1600000 in
/-- What stretch 3 leaves in `main_v42`, as a stage function of what it finds in the buffers it reads. -/
theorem seg3_v42 (W : Valuation τ sig (Elt F)) :
    after seg3 W (Proc.devRef .tc main_v42) = bnOf 0 slices_S4x64_S1x64_0_0 (W (Proc.devRef .tc main_v19)) (W (Proc.devRef .tc main_arg8)) (W (Proc.devRef .tc main_arg9)) := by
  unfold seg3
  after_results_simp <;> rfl

end Cert.ReferenceIdeal.Hand

end
-- ==== Proof.Ref.Seg1.lean ====
/-
  Stretches 4 to 7 of the reference program's line of host operations: for each stretch its operations, the buffers
  it writes, that every other buffer keeps its contents through it, and what it leaves in the buffers later stretches
  read, as a stage function (Stages.lean) of what it finds in the buffers it reads.
-/
import proofs.«128301_j8701603742430_2_alg».proof.Proof.Ref.Stages

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

private theorem w {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Stretch 4 of the program: operations 74 to 77 of its 325. -/
def seg4 : List (HloOp τ sig (Elt F)) :=
  [ StableHlo.unary main_arg4 main_v43 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v43 main_v44 rfl shapeCasts_S1x64x64_S64x64,
    StableHlo.unary main_arg5 main_v45 ((extractStridedSlice S1x64 ![0, 0] · slices_S3x64_S1x64_0_0) : (⟨S3x64, .f32⟩ : BufTy).Contents (Elt F) → (⟨S1x64, .f32⟩ : BufTy).Contents (Elt F)),
    StableHlo.reshape main_v45 main_v46 rfl shapeCasts_S1x64_S64 ]

/-- The buffers stretch 4 writes: each operation's result, in order. -/
abbrev wrS4 : List (Ref sig .tc) :=
  [ main_v43, main_v44, main_v45, main_v46 ]

/-- Each operation of stretch 4 writes its own result buffer, a member of that list. -/
theorem seg4_writes : (seg4 : List (HloOp τ sig (Elt F))).Forall fun op =>
    op.writes ⊆ ((wrS4).map (Proc.devRef (τ := τ) .tc)).toFinset :=
  ⟨w (by decide), w (by decide), w (by decide), w (by decide)⟩

/-- A buffer stretch 4 does not write keeps its contents through it. -/
theorem seg4_keeps (V : Valuation τ sig (Elt F)) {r : Ref sig .tc} (hr : r ∉ wrS4) :
    after seg4 V (no_index (Proc.devRef .tc r)) = V (Proc.devRef .tc r) :=
  after_of_writes_sub seg4 V seg4_writes hr

set_option maxRecDepth 8192 in
set_option maxHeartbeats 1600000 in
/-- What stretch 4 leaves in `main_v44`, as a stage function of what it finds in the buffers it reads. -/
theorem seg4_v44 (W : Valuation τ sig (Elt F)) :
    after seg4 W (Proc.devRef .tc main_v44) = wOf 0 slices_S3x64x64_S1x64x64_0_0_0 (W (Proc.devRef .tc main_arg4)) := by
  unfold seg4
  after_results_simp <;> rfl

set_option maxRecDepth 8192 in
set_option maxHeartbeats 1600000 in
/-- What stretch 4 leaves in `main_v46`, as a stage function of what it finds in the buffers it reads. -/
theorem seg4_v46 (W : Valuation τ sig (Elt F)) :
    after seg4 W (Proc.devRef .tc main_v46) = bOf 0 slices_S3x64_S1x64_0_0 (W (Proc.devRef .tc main_arg5)) := by
  unfold seg4
  after_results_simp <;> rfl

/-- Stretch 5 of the program: operations 78 to 90 of its 325. -/
def seg5 : List (HloOp τ sig (Elt F)) :=
  [ StableHlo.nullary main_c_5 (constantI S_ 32 0#32),
    StableHlo.unary main_c_5 main_v47 (broadcastInDim S1600000 ![] bcast_S_S1600000 : (⟨S_, .i32⟩ : BufTy).Contents (Elt F) → (⟨S1600000, .i32⟩ : BufTy).Contents (Elt F)),
    StableHlo.binary main_v1 main_v47 main_v48 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v49 (broadcastInDim S1600000 ![] bcast_S_S1600000 : (⟨S_, .i32⟩ : BufTy).Contents (Elt F) → (⟨S1600000, .i32⟩ : BufTy).Contents (Elt F)),
    StableHlo.binary main_v1 main_v49 main_v50 (addi : (⟨S1600000, .i32⟩ : BufTy).Contents (Elt F) → (⟨S1600000, .i32⟩ : BufTy).Contents (Elt F) → (⟨S1600000, .i32⟩ : BufTy).Contents (Elt F)),
    StableHlo.ternary main_v48 main_v50 main_v1 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v51 main_v52 (broadcastInDim S1600000x1 ![0] bcast_S1600000_S1600000x1_0 : (⟨S1600000, .i32⟩ : BufTy).Contents (Elt F) → (⟨S1600000x1, .i32⟩ : BufTy).Contents (Elt F)),
    StableHlo.binary main_v42 main_v52 main_v53 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_7 (constant S_ .f32 0x00000000#32),
    StableHlo.unary main_cst_7 main_v54 (broadcastInDim S100000x64 ![] bcast_S_S100000x64 : (⟨S_, .f32⟩ : BufTy).Contents (Elt F) → (⟨S100000x64, .f32⟩ : BufTy).Contents (Elt F)),
    StableHlo.unary main_v3 main_v55 (broadcastInDim S1600000x1 ![0] bcast_S1600000_S1600000x1_0 : (⟨S1600000, .i32⟩ : BufTy).Contents (Elt F) → (⟨S1600000x1, .i32⟩ : BufTy).Contents (Elt F)),
    StableHlo.ternary main_v54 main_v55 main_v53 main_v56 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers stretch 5 writes: each operation's result, in order. -/
abbrev wrS5 : List (Ref sig .tc) :=
  [ main_c_5, main_v47, main_v48, main_c_6, main_v49, main_v50, main_v51, main_v52,
    main_v53, main_cst_7, main_v54, main_v55, main_v56 ]

/-- Each operation of stretch 5 writes its own result buffer, a member of that list. -/
theorem seg5_writes : (seg5 : List (HloOp τ sig (Elt F))).Forall fun op =>
    op.writes ⊆ ((wrS5).map (Proc.devRef (τ := τ) .tc)).toFinset :=
  ⟨w (by decide), w (by decide), w (by decide), w (by decide), w (by decide), w (by decide), w (by decide), w (by decide),
    w (by decide), w (by decide), w (by decide), w (by decide), w (by decide)⟩

/-- A buffer stretch 5 does not write keeps its contents through it. -/
theorem seg5_keeps (V : Valuation τ sig (Elt F)) {r : Ref sig .tc} (hr : r ∉ wrS5) :
    after seg5 V (no_index (Proc.devRef .tc r)) = V (Proc.devRef .tc r) :=
  after_of_writes_sub seg5 V seg5_writes hr

set_option maxRecDepth 8192 in
set_option maxHeartbeats 1600000 in
/-- What stretch 5 leaves in `main_v56`, as a stage function of what it finds in the buffers it reads. -/
theorem seg5_v56 (W : Valuation τ sig (Elt F)) :
    after seg5 W (Proc.devRef .tc main_v56) = aggOf (W (Proc.devRef .tc main_v1)) (W (Proc.devRef .tc main_v3)) (W (Proc.devRef .tc main_v42)) := by
  unfold seg5
  after_results_simp <;> rfl

/-- Stretch 6 of the program: operations 91 to 98 of its 325. -/
def seg6 : List (HloOp τ sig (Elt F)) :=
  [ StableHlo.binary main_v42 main_v56 main_v57 (addf : (⟨S100000x64, .f32⟩ : BufTy).Contents (Elt F) → (⟨S100000x64, .f32⟩ : BufTy).Contents (Elt F) → (⟨S100000x64, .f32⟩ : BufTy).Contents (Elt F)),
    StableHlo.binary main_v57 main_v44 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v46 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v60 main_v61 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v61 : StableHlo.TRef sig ⟨S100000x64, .f32⟩) main_call2.v0 main_call2.v1 maximumf ]

/-- The buffers stretch 6 writes: each operation's result, in order. -/
abbrev wrS6 : List (Ref sig .tc) :=
  [ main_v57, main_v58, main_v59, main_v60, main_v61, main_call2.cst.ref, main_call2.v0.ref, main_call2.v1.ref ]

/-- Each operation of stretch 6 writes its own result buffer, a member of that list. -/
theorem seg6_writes : (seg6 : List (HloOp τ sig (Elt F))).Forall fun op =>
    op.writes ⊆ ((wrS6).map (Proc.devRef (τ := τ) .tc)).toFinset :=
  ⟨w (by decide), w (by decide), w (by decide), w (by decide), w (by decide), w (by decide), w (by decide), w (by decide)⟩

/-- A buffer stretch 6 does not write keeps its contents through it. -/
theorem seg6_keeps (V : Valuation τ sig (Elt F)) {r : Ref sig .tc} (hr : r ∉ wrS6) :
    after seg6 V (no_index (Proc.devRef .tc r)) = V (Proc.devRef .tc r) :=
  after_of_writes_sub seg6 V seg6_writes hr

set_option maxRecDepth 8192 in
set_option maxHeartbeats 1600000 in
/-- What stretch 6 leaves in `main_v62`, as a stage function of what it finds in the buffers it reads. -/
theorem seg6_v62 (W : Valuation τ sig (Elt F)) :
    after seg6 W (Proc.devRef .tc main_v62) = linReluOf (W (Proc.devRef .tc main_v42)) (W (Proc.devRef .tc main_v56)) (W (Proc.devRef .tc main_v44)) (W (Proc.devRef .tc main_v46)) := by
  unfold seg6
  after_results_simp <;> rfl

/-- Stretch 7 of the program: operations 99 to 146 of its 325. -/
def seg7 : List (HloOp τ sig (Elt F)) :=
  [ StableHlo.unary main_arg8 main_v63 ((extractStridedSlice S1x64 ![1, 0] · slices_S4x64_S1x64_1_0) : (⟨S4x64, .f32⟩ : BufTy).Contents (Elt F) → (⟨S1x64, .f32⟩ : BufTy).Contents (Elt F)),
    StableHlo.reshape main_v63 main_v64 rfl shapeCasts_S1x64_S64,
    StableHlo.unary main_arg9 main_v65 ((extractStridedSlice S1x64 ![1, 0] · slices_S4x64_S1x64_1_0) : (⟨S4x64, .f32⟩ : BufTy).Contents (Elt F) → (⟨S1x64, .f32⟩ : BufTy).Contents (Elt F)),
    StableHlo.reshape main_v65 main_v66 rfl shapeCasts_S1x64_S64,
    StableHlo.nullary main_cst_8 (constant S_ .f32 0x00000000#32),
    StableHlo.binary main_v62 main_cst_8 main_v67 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v68 (broadcastInDim S64 ![] bcast_S_S64 : (⟨S_, .f32⟩ : BufTy).Contents (Elt F) → (⟨S64, .f32⟩ : BufTy).Contents (Elt F)),
    StableHlo.binary main_v67 main_v68 main_v69 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call3.cst (constant S_ .f32 0x00000000#32),
    StableHlo.TRef.binary (.of main_v62 : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v62 : StableHlo.TRef sig ⟨S100000x64, .f32⟩) main_call3.v4 main_call3.v5 subf,
    StableHlo.TRef.binary main_call3.v5 main_call3.v5 main_call3.v6 mulf,
    StableHlo.TRef.unary (.of main_c_10 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v69 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v72 main_v73 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v74 (broadcastInDim S64 ![] bcast_S_S64 : (⟨S_, .f32⟩ : BufTy).Contents (Elt F) → (⟨S64, .f32⟩ : BufTy).Contents (Elt F)),
    StableHlo.binary main_v70 main_v74 main_v75 (addf : (⟨S64, .f32⟩ : BufTy).Contents (Elt F) → (⟨S64, .f32⟩ : BufTy).Contents (Elt F) → (⟨S64, .f32⟩ : BufTy).Contents (Elt F)),
    StableHlo.unary main_v75 main_v76 (Host.rsqrt : (⟨S64, .f32⟩ : BufTy).Contents (Elt F) → (⟨S64, .f32⟩ : BufTy).Contents (Elt F)),
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v78 main_v79 (mulf : (⟨S100000x64, .f32⟩ : BufTy).Contents (Elt F) → (⟨S100000x64, .f32⟩ : BufTy).Contents (Elt F) → (⟨S100000x64, .f32⟩ : BufTy).Contents (Elt F)),
    StableHlo.unary main_v64 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S100000x64 ![0, 1] bcast_S1x64_S100000x64_0_1 : (⟨S1x64, .f32⟩ : BufTy).Contents (Elt F) → (⟨S100000x64, .f32⟩ : BufTy).Contents (Elt F)),
    StableHlo.binary main_v79 main_v81 main_v82 (mulf : (⟨S100000x64, .f32⟩ : BufTy).Contents (Elt F) → (⟨S100000x64, .f32⟩ : BufTy).Contents (Elt F) → (⟨S100000x64, .f32⟩ : BufTy).Contents (Elt F)),
    StableHlo.unary main_v66 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)) ]

/-- The buffers stretch 7 writes: each operation's result, in order. -/
abbrev wrS7 : List (Ref sig .tc) :=
  [ main_v63, main_v64, main_v65, main_v66, main_cst_8, main_v67, main_cst_9, main_v68,
    main_v69, main_c_10, main_call3.cst.ref, main_call3.v0.ref, main_call3.v1.ref, main_call3.cst_0.ref, main_call3.v2.ref, main_call3.v3.ref,
    main_call3.v4.ref, main_call3.v5.ref, main_call3.v6.ref, main_call3.v7.ref, main_call3.cst_1.ref, main_call3.v8.ref, main_call3.cst_2.ref, main_call3.v9.ref,
    main_call3.v10.ref, main_call3.v11.ref, main_call3.cst_3.ref, main_call3.v12.ref, main_call3.cst_4.ref, main_call3.call0.v0.ref, main_call3.call0.v1.ref, main_call3.call0.v2.ref,
    main_v71, main_v72, main_v73, main_cst_11, main_v74, main_v75, main_v76, main_v77,
    main_v78, main_v79, main_v80, main_v81, main_v82, main_v83, main_v84, main_v85 ]

/-- Each operation of stretch 7 writes its own result buffer, a member of that list. -/
theorem seg7_writes : (seg7 : List (HloOp τ sig (Elt F))).Forall fun op =>
    op.writes ⊆ ((wrS7).map (Proc.devRef (τ := τ) .tc)).toFinset :=
  ⟨w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide)⟩

/-- A buffer stretch 7 does not write keeps its contents through it. -/
theorem seg7_keeps (V : Valuation τ sig (Elt F)) {r : Ref sig .tc} (hr : r ∉ wrS7) :
    after seg7 V (no_index (Proc.devRef .tc r)) = V (Proc.devRef .tc r) :=
  after_of_writes_sub seg7 V seg7_writes hr

set_option maxRecDepth 8192 in
set_option maxHeartbeats 1600000 in
/-- What stretch 7 leaves in `main_v85`, as a stage function of what it finds in the buffers it reads. -/
theorem seg7_v85 (W : Valuation τ sig (Elt F)) :
    after seg7 W (Proc.devRef .tc main_v85) = bnOf 1 slices_S4x64_S1x64_1_0 (W (Proc.devRef .tc main_v62)) (W (Proc.devRef .tc main_arg8)) (W (Proc.devRef .tc main_arg9)) := by
  unfold seg7
  after_results_simp <;> rfl

end Cert.ReferenceIdeal.Hand

end
-- ==== Proof.Ref.Seg2.lean ====
/-
  Stretches 8 to 11 of the reference program's line of host operations: for each stretch its operations, the buffers
  it writes, that every other buffer keeps its contents through it, and what it leaves in the buffers later stretches
  read, as a stage function (Stages.lean) of what it finds in the buffers it reads.
-/
import proofs.«128301_j8701603742430_2_alg».proof.Proof.Ref.Stages

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

private theorem w {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Stretch 8 of the program: operations 147 to 150 of its 325. -/
def seg8 : List (HloOp τ sig (Elt F)) :=
  [ StableHlo.unary main_arg4 main_v86 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v86 main_v87 rfl shapeCasts_S1x64x64_S64x64,
    StableHlo.unary main_arg5 main_v88 ((extractStridedSlice S1x64 ![1, 0] · slices_S3x64_S1x64_1_0) : (⟨S3x64, .f32⟩ : BufTy).Contents (Elt F) → (⟨S1x64, .f32⟩ : BufTy).Contents (Elt F)),
    StableHlo.reshape main_v88 main_v89 rfl shapeCasts_S1x64_S64 ]

/-- The buffers stretch 8 writes: each operation's result, in order. -/
abbrev wrS8 : List (Ref sig .tc) :=
  [ main_v86, main_v87, main_v88, main_v89 ]

/-- Each operation of stretch 8 writes its own result buffer, a member of that list. -/
theorem seg8_writes : (seg8 : List (HloOp τ sig (Elt F))).Forall fun op =>
    op.writes ⊆ ((wrS8).map (Proc.devRef (τ := τ) .tc)).toFinset :=
  ⟨w (by decide), w (by decide), w (by decide), w (by decide)⟩

/-- A buffer stretch 8 does not write keeps its contents through it. -/
theorem seg8_keeps (V : Valuation τ sig (Elt F)) {r : Ref sig .tc} (hr : r ∉ wrS8) :
    after seg8 V (no_index (Proc.devRef .tc r)) = V (Proc.devRef .tc r) :=
  after_of_writes_sub seg8 V seg8_writes hr

set_option maxRecDepth 8192 in
set_option maxHeartbeats 1600000 in
/-- What stretch 8 leaves in `main_v87`, as a stage function of what it finds in the buffers it reads. -/
theorem seg8_v87 (W : Valuation τ sig (Elt F)) :
    after seg8 W (Proc.devRef .tc main_v87) = wOf 1 slices_S3x64x64_S1x64x64_1_0_0 (W (Proc.devRef .tc main_arg4)) := by
  unfold seg8
  after_results_simp <;> rfl

set_option maxRecDepth 8192 in
set_option maxHeartbeats 1600000 in
/-- What stretch 8 leaves in `main_v89`, as a stage function of what it finds in the buffers it reads. -/
theorem seg8_v89 (W : Valuation τ sig (Elt F)) :
    after seg8 W (Proc.devRef .tc main_v89) = bOf 1 slices_S3x64_S1x64_1_0 (W (Proc.devRef .tc main_arg5)) := by
  unfold seg8
  after_results_simp <;> rfl

/-- Stretch 9 of the program: operations 151 to 163 of its 325. -/
def seg9 : List (HloOp τ sig (Elt F)) :=
  [ StableHlo.nullary main_c_12 (constantI S_ 32 0#32),
    StableHlo.unary main_c_12 main_v90 (broadcastInDim S1600000 ![] bcast_S_S1600000 : (⟨S_, .i32⟩ : BufTy).Contents (Elt F) → (⟨S1600000, .i32⟩ : BufTy).Contents (Elt F)),
    StableHlo.binary main_v1 main_v90 main_v91 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v92 (broadcastInDim S1600000 ![] bcast_S_S1600000 : (⟨S_, .i32⟩ : BufTy).Contents (Elt F) → (⟨S1600000, .i32⟩ : BufTy).Contents (Elt F)),
    StableHlo.binary main_v1 main_v92 main_v93 (addi : (⟨S1600000, .i32⟩ : BufTy).Contents (Elt F) → (⟨S1600000, .i32⟩ : BufTy).Contents (Elt F) → (⟨S1600000, .i32⟩ : BufTy).Contents (Elt F)),
    StableHlo.ternary main_v91 main_v93 main_v1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v94 main_v95 (broadcastInDim S1600000x1 ![0] bcast_S1600000_S1600000x1_0 : (⟨S1600000, .i32⟩ : BufTy).Contents (Elt F) → (⟨S1600000x1, .i32⟩ : BufTy).Contents (Elt F)),
    StableHlo.binary main_v85 main_v95 main_v96 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_14 (constant S_ .f32 0x00000000#32),
    StableHlo.unary main_cst_14 main_v97 (broadcastInDim S100000x64 ![] bcast_S_S100000x64 : (⟨S_, .f32⟩ : BufTy).Contents (Elt F) → (⟨S100000x64, .f32⟩ : BufTy).Contents (Elt F)),
    StableHlo.unary main_v3 main_v98 (broadcastInDim S1600000x1 ![0] bcast_S1600000_S1600000x1_0 : (⟨S1600000, .i32⟩ : BufTy).Contents (Elt F) → (⟨S1600000x1, .i32⟩ : BufTy).Contents (Elt F)),
    StableHlo.ternary main_v97 main_v98 main_v96 main_v99 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers stretch 9 writes: each operation's result, in order. -/
abbrev wrS9 : List (Ref sig .tc) :=
  [ main_c_12, main_v90, main_v91, main_c_13, main_v92, main_v93, main_v94, main_v95,
    main_v96, main_cst_14, main_v97, main_v98, main_v99 ]

/-- Each operation of stretch 9 writes its own result buffer, a member of that list. -/
theorem seg9_writes : (seg9 : List (HloOp τ sig (Elt F))).Forall fun op =>
    op.writes ⊆ ((wrS9).map (Proc.devRef (τ := τ) .tc)).toFinset :=
  ⟨w (by decide), w (by decide), w (by decide), w (by decide), w (by decide), w (by decide), w (by decide), w (by decide),
    w (by decide), w (by decide), w (by decide), w (by decide), w (by decide)⟩

/-- A buffer stretch 9 does not write keeps its contents through it. -/
theorem seg9_keeps (V : Valuation τ sig (Elt F)) {r : Ref sig .tc} (hr : r ∉ wrS9) :
    after seg9 V (no_index (Proc.devRef .tc r)) = V (Proc.devRef .tc r) :=
  after_of_writes_sub seg9 V seg9_writes hr

set_option maxRecDepth 8192 in
set_option maxHeartbeats 1600000 in
/-- What stretch 9 leaves in `main_v99`, as a stage function of what it finds in the buffers it reads. -/
theorem seg9_v99 (W : Valuation τ sig (Elt F)) :
    after seg9 W (Proc.devRef .tc main_v99) = aggOf (W (Proc.devRef .tc main_v1)) (W (Proc.devRef .tc main_v3)) (W (Proc.devRef .tc main_v85)) := by
  unfold seg9
  after_results_simp <;> rfl

/-- Stretch 10 of the program: operations 164 to 171 of its 325. -/
def seg10 : List (HloOp τ sig (Elt F)) :=
  [ StableHlo.binary main_v85 main_v99 main_v100 (addf : (⟨S100000x64, .f32⟩ : BufTy).Contents (Elt F) → (⟨S100000x64, .f32⟩ : BufTy).Contents (Elt F) → (⟨S100000x64, .f32⟩ : BufTy).Contents (Elt F)),
    StableHlo.binary main_v100 main_v87 main_v101 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v89 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v101 main_v103 main_v104 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v104 : StableHlo.TRef sig ⟨S100000x64, .f32⟩) main_call4.v0 main_call4.v1 maximumf ]

/-- The buffers stretch 10 writes: each operation's result, in order. -/
abbrev wrS10 : List (Ref sig .tc) :=
  [ main_v100, main_v101, main_v102, main_v103, main_v104, main_call4.cst.ref, main_call4.v0.ref, main_call4.v1.ref ]

/-- Each operation of stretch 10 writes its own result buffer, a member of that list. -/
theorem seg10_writes : (seg10 : List (HloOp τ sig (Elt F))).Forall fun op =>
    op.writes ⊆ ((wrS10).map (Proc.devRef (τ := τ) .tc)).toFinset :=
  ⟨w (by decide), w (by decide), w (by decide), w (by decide), w (by decide), w (by decide), w (by decide), w (by decide)⟩

/-- A buffer stretch 10 does not write keeps its contents through it. -/
theorem seg10_keeps (V : Valuation τ sig (Elt F)) {r : Ref sig .tc} (hr : r ∉ wrS10) :
    after seg10 V (no_index (Proc.devRef .tc r)) = V (Proc.devRef .tc r) :=
  after_of_writes_sub seg10 V seg10_writes hr

set_option maxRecDepth 8192 in
set_option maxHeartbeats 1600000 in
/-- What stretch 10 leaves in `main_v105`, as a stage function of what it finds in the buffers it reads. -/
theorem seg10_v105 (W : Valuation τ sig (Elt F)) :
    after seg10 W (Proc.devRef .tc main_v105) = linReluOf (W (Proc.devRef .tc main_v85)) (W (Proc.devRef .tc main_v99)) (W (Proc.devRef .tc main_v87)) (W (Proc.devRef .tc main_v89)) := by
  unfold seg10
  after_results_simp <;> rfl

/-- Stretch 11 of the program: operations 172 to 219 of its 325. -/
def seg11 : List (HloOp τ sig (Elt F)) :=
  [ StableHlo.unary main_arg8 main_v106 ((extractStridedSlice S1x64 ![2, 0] · slices_S4x64_S1x64_2_0) : (⟨S4x64, .f32⟩ : BufTy).Contents (Elt F) → (⟨S1x64, .f32⟩ : BufTy).Contents (Elt F)),
    StableHlo.reshape main_v106 main_v107 rfl shapeCasts_S1x64_S64,
    StableHlo.unary main_arg9 main_v108 ((extractStridedSlice S1x64 ![2, 0] · slices_S4x64_S1x64_2_0) : (⟨S4x64, .f32⟩ : BufTy).Contents (Elt F) → (⟨S1x64, .f32⟩ : BufTy).Contents (Elt F)),
    StableHlo.reshape main_v108 main_v109 rfl shapeCasts_S1x64_S64,
    StableHlo.nullary main_cst_15 (constant S_ .f32 0x00000000#32),
    StableHlo.binary main_v105 main_cst_15 main_v110 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v111 (broadcastInDim S64 ![] bcast_S_S64 : (⟨S_, .f32⟩ : BufTy).Contents (Elt F) → (⟨S64, .f32⟩ : BufTy).Contents (Elt F)),
    StableHlo.binary main_v110 main_v111 main_v112 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call5.cst (constant S_ .f32 0x00000000#32),
    StableHlo.TRef.binary (.of main_v105 : StableHlo.TRef sig ⟨S100000x64, .f32⟩) main_call5.cst main_call5.v0 (fun x v => Host.reduceAdd x v reducesTo_S100000x64_S64_d0 h_S_),
    StableHlo.TRef.unary main_call5.v0 main_call5.v1 (broadcastInDim S1x64 ![1] bcast_S64_S1x64_1),
    StableHlo.TRef.nullary main_call5.cst_0 (constant S_ .f32 0x47C35000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S100000x64 ![0, 1] bcast_S1x64_S100000x64_0_1),
    StableHlo.TRef.binary (.of main_v105 : StableHlo.TRef sig ⟨S100000x64, .f32⟩) main_call5.v4 main_call5.v5 subf,
    StableHlo.TRef.binary main_call5.v5 main_call5.v5 main_call5.v6 mulf,
    StableHlo.TRef.unary (.of main_c_17 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v112 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v105 main_v115 main_v116 (subf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v117 (broadcastInDim S64 ![] bcast_S_S64 : (⟨S_, .f32⟩ : BufTy).Contents (Elt F) → (⟨S64, .f32⟩ : BufTy).Contents (Elt F)),
    StableHlo.binary main_v113 main_v117 main_v118 (addf : (⟨S64, .f32⟩ : BufTy).Contents (Elt F) → (⟨S64, .f32⟩ : BufTy).Contents (Elt F) → (⟨S64, .f32⟩ : BufTy).Contents (Elt F)),
    StableHlo.unary main_v118 main_v119 (Host.rsqrt : (⟨S64, .f32⟩ : BufTy).Contents (Elt F) → (⟨S64, .f32⟩ : BufTy).Contents (Elt F)),
    StableHlo.unary main_v119 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S100000x64 ![0, 1] bcast_S1x64_S100000x64_0_1 : (⟨S1x64, .f32⟩ : BufTy).Contents (Elt F) → (⟨S100000x64, .f32⟩ : BufTy).Contents (Elt F)),
    StableHlo.binary main_v116 main_v121 main_v122 (mulf : (⟨S100000x64, .f32⟩ : BufTy).Contents (Elt F) → (⟨S100000x64, .f32⟩ : BufTy).Contents (Elt F) → (⟨S100000x64, .f32⟩ : BufTy).Contents (Elt F)),
    StableHlo.unary main_v107 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S100000x64 ![0, 1] bcast_S1x64_S100000x64_0_1 : (⟨S1x64, .f32⟩ : BufTy).Contents (Elt F) → (⟨S100000x64, .f32⟩ : BufTy).Contents (Elt F)),
    StableHlo.binary main_v122 main_v124 main_v125 (mulf : (⟨S100000x64, .f32⟩ : BufTy).Contents (Elt F) → (⟨S100000x64, .f32⟩ : BufTy).Contents (Elt F) → (⟨S100000x64, .f32⟩ : BufTy).Contents (Elt F)),
    StableHlo.unary main_v109 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v127 main_v128 (addf : (⟨S100000x64, .f32⟩ : BufTy).Contents (Elt F) → (⟨S100000x64, .f32⟩ : BufTy).Contents (Elt F) → (⟨S100000x64, .f32⟩ : BufTy).Contents (Elt F)) ]

/-- The buffers stretch 11 writes: each operation's result, in order. -/
abbrev wrS11 : List (Ref sig .tc) :=
  [ main_v106, main_v107, main_v108, main_v109, main_cst_15, main_v110, main_cst_16, main_v111,
    main_v112, main_c_17, main_call5.cst.ref, main_call5.v0.ref, main_call5.v1.ref, main_call5.cst_0.ref, main_call5.v2.ref, main_call5.v3.ref,
    main_call5.v4.ref, main_call5.v5.ref, main_call5.v6.ref, main_call5.v7.ref, main_call5.cst_1.ref, main_call5.v8.ref, main_call5.cst_2.ref, main_call5.v9.ref,
    main_call5.v10.ref, main_call5.v11.ref, main_call5.cst_3.ref, main_call5.v12.ref, main_call5.cst_4.ref, main_call5.call0.v0.ref, main_call5.call0.v1.ref, main_call5.call0.v2.ref,
    main_v114, main_v115, main_v116, main_cst_18, main_v117, main_v118, main_v119, main_v120,
    main_v121, main_v122, main_v123, main_v124, main_v125, main_v126, main_v127, main_v128 ]

/-- Each operation of stretch 11 writes its own result buffer, a member of that list. -/
theorem seg11_writes : (seg11 : List (HloOp τ sig (Elt F))).Forall fun op =>
    op.writes ⊆ ((wrS11).map (Proc.devRef (τ := τ) .tc)).toFinset :=
  ⟨w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide)⟩

/-- A buffer stretch 11 does not write keeps its contents through it. -/
theorem seg11_keeps (V : Valuation τ sig (Elt F)) {r : Ref sig .tc} (hr : r ∉ wrS11) :
    after seg11 V (no_index (Proc.devRef .tc r)) = V (Proc.devRef .tc r) :=
  after_of_writes_sub seg11 V seg11_writes hr

set_option maxRecDepth 8192 in
set_option maxHeartbeats 1600000 in
/-- What stretch 11 leaves in `main_v128`, as a stage function of what it finds in the buffers it reads. -/
theorem seg11_v128 (W : Valuation τ sig (Elt F)) :
    after seg11 W (Proc.devRef .tc main_v128) = bnOf 2 slices_S4x64_S1x64_2_0 (W (Proc.devRef .tc main_v105)) (W (Proc.devRef .tc main_arg8)) (W (Proc.devRef .tc main_arg9)) := by
  unfold seg11
  after_results_simp <;> rfl

end Cert.ReferenceIdeal.Hand

end
-- ==== Proof.Ref.Seg3.lean ====
/-
  Stretches 12 to 15 of the reference program's line of host operations: for each stretch its operations, the buffers
  it writes, that every other buffer keeps its contents through it, and what it leaves in the buffers later stretches
  read, as a stage function (Stages.lean) of what it finds in the buffers it reads.
-/
import proofs.«128301_j8701603742430_2_alg».proof.Proof.Ref.Stages

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

private theorem w {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Stretch 12 of the program: operations 220 to 223 of its 325. -/
def seg12 : List (HloOp τ sig (Elt F)) :=
  [ StableHlo.unary main_arg4 main_v129 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v129 main_v130 rfl shapeCasts_S1x64x64_S64x64,
    StableHlo.unary main_arg5 main_v131 ((extractStridedSlice S1x64 ![2, 0] · slices_S3x64_S1x64_2_0) : (⟨S3x64, .f32⟩ : BufTy).Contents (Elt F) → (⟨S1x64, .f32⟩ : BufTy).Contents (Elt F)),
    StableHlo.reshape main_v131 main_v132 rfl shapeCasts_S1x64_S64 ]

/-- The buffers stretch 12 writes: each operation's result, in order. -/
abbrev wrS12 : List (Ref sig .tc) :=
  [ main_v129, main_v130, main_v131, main_v132 ]

/-- Each operation of stretch 12 writes its own result buffer, a member of that list. -/
theorem seg12_writes : (seg12 : List (HloOp τ sig (Elt F))).Forall fun op =>
    op.writes ⊆ ((wrS12).map (Proc.devRef (τ := τ) .tc)).toFinset :=
  ⟨w (by decide), w (by decide), w (by decide), w (by decide)⟩

/-- A buffer stretch 12 does not write keeps its contents through it. -/
theorem seg12_keeps (V : Valuation τ sig (Elt F)) {r : Ref sig .tc} (hr : r ∉ wrS12) :
    after seg12 V (no_index (Proc.devRef .tc r)) = V (Proc.devRef .tc r) :=
  after_of_writes_sub seg12 V seg12_writes hr

set_option maxRecDepth 8192 in
set_option maxHeartbeats 1600000 in
/-- What stretch 12 leaves in `main_v130`, as a stage function of what it finds in the buffers it reads. -/
theorem seg12_v130 (W : Valuation τ sig (Elt F)) :
    after seg12 W (Proc.devRef .tc main_v130) = wOf 2 slices_S3x64x64_S1x64x64_2_0_0 (W (Proc.devRef .tc main_arg4)) := by
  unfold seg12
  after_results_simp <;> rfl

set_option maxRecDepth 8192 in
set_option maxHeartbeats 1600000 in
/-- What stretch 12 leaves in `main_v132`, as a stage function of what it finds in the buffers it reads. -/
theorem seg12_v132 (W : Valuation τ sig (Elt F)) :
    after seg12 W (Proc.devRef .tc main_v132) = bOf 2 slices_S3x64_S1x64_2_0 (W (Proc.devRef .tc main_arg5)) := by
  unfold seg12
  after_results_simp <;> rfl

/-- Stretch 13 of the program: operations 224 to 236 of its 325. -/
def seg13 : List (HloOp τ sig (Elt F)) :=
  [ StableHlo.nullary main_c_19 (constantI S_ 32 0#32),
    StableHlo.unary main_c_19 main_v133 (broadcastInDim S1600000 ![] bcast_S_S1600000 : (⟨S_, .i32⟩ : BufTy).Contents (Elt F) → (⟨S1600000, .i32⟩ : BufTy).Contents (Elt F)),
    StableHlo.binary main_v1 main_v133 main_v134 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v135 (broadcastInDim S1600000 ![] bcast_S_S1600000 : (⟨S_, .i32⟩ : BufTy).Contents (Elt F) → (⟨S1600000, .i32⟩ : BufTy).Contents (Elt F)),
    StableHlo.binary main_v1 main_v135 main_v136 (addi : (⟨S1600000, .i32⟩ : BufTy).Contents (Elt F) → (⟨S1600000, .i32⟩ : BufTy).Contents (Elt F) → (⟨S1600000, .i32⟩ : BufTy).Contents (Elt F)),
    StableHlo.ternary main_v134 main_v136 main_v1 main_v137 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v137 main_v138 (broadcastInDim S1600000x1 ![0] bcast_S1600000_S1600000x1_0 : (⟨S1600000, .i32⟩ : BufTy).Contents (Elt F) → (⟨S1600000x1, .i32⟩ : BufTy).Contents (Elt F)),
    StableHlo.binary main_v128 main_v138 main_v139 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_21 (constant S_ .f32 0x00000000#32),
    StableHlo.unary main_cst_21 main_v140 (broadcastInDim S100000x64 ![] bcast_S_S100000x64 : (⟨S_, .f32⟩ : BufTy).Contents (Elt F) → (⟨S100000x64, .f32⟩ : BufTy).Contents (Elt F)),
    StableHlo.unary main_v3 main_v141 (broadcastInDim S1600000x1 ![0] bcast_S1600000_S1600000x1_0 : (⟨S1600000, .i32⟩ : BufTy).Contents (Elt F) → (⟨S1600000x1, .i32⟩ : BufTy).Contents (Elt F)),
    StableHlo.ternary main_v140 main_v141 main_v139 main_v142 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers stretch 13 writes: each operation's result, in order. -/
abbrev wrS13 : List (Ref sig .tc) :=
  [ main_c_19, main_v133, main_v134, main_c_20, main_v135, main_v136, main_v137, main_v138,
    main_v139, main_cst_21, main_v140, main_v141, main_v142 ]

/-- Each operation of stretch 13 writes its own result buffer, a member of that list. -/
theorem seg13_writes : (seg13 : List (HloOp τ sig (Elt F))).Forall fun op =>
    op.writes ⊆ ((wrS13).map (Proc.devRef (τ := τ) .tc)).toFinset :=
  ⟨w (by decide), w (by decide), w (by decide), w (by decide), w (by decide), w (by decide), w (by decide), w (by decide),
    w (by decide), w (by decide), w (by decide), w (by decide), w (by decide)⟩

/-- A buffer stretch 13 does not write keeps its contents through it. -/
theorem seg13_keeps (V : Valuation τ sig (Elt F)) {r : Ref sig .tc} (hr : r ∉ wrS13) :
    after seg13 V (no_index (Proc.devRef .tc r)) = V (Proc.devRef .tc r) :=
  after_of_writes_sub seg13 V seg13_writes hr

set_option maxRecDepth 8192 in
set_option maxHeartbeats 1600000 in
/-- What stretch 13 leaves in `main_v142`, as a stage function of what it finds in the buffers it reads. -/
theorem seg13_v142 (W : Valuation τ sig (Elt F)) :
    after seg13 W (Proc.devRef .tc main_v142) = aggOf (W (Proc.devRef .tc main_v1)) (W (Proc.devRef .tc main_v3)) (W (Proc.devRef .tc main_v128)) := by
  unfold seg13
  after_results_simp <;> rfl

/-- Stretch 14 of the program: operations 237 to 244 of its 325. -/
def seg14 : List (HloOp τ sig (Elt F)) :=
  [ StableHlo.binary main_v128 main_v142 main_v143 (addf : (⟨S100000x64, .f32⟩ : BufTy).Contents (Elt F) → (⟨S100000x64, .f32⟩ : BufTy).Contents (Elt F) → (⟨S100000x64, .f32⟩ : BufTy).Contents (Elt F)),
    StableHlo.binary main_v143 main_v130 main_v144 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v132 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S100000x64 ![0, 1] bcast_S1x64_S100000x64_0_1 : (⟨S1x64, .f32⟩ : BufTy).Contents (Elt F) → (⟨S100000x64, .f32⟩ : BufTy).Contents (Elt F)),
    StableHlo.binary main_v144 main_v146 main_v147 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v147 : StableHlo.TRef sig ⟨S100000x64, .f32⟩) main_call6.v0 main_call6.v1 maximumf ]

/-- The buffers stretch 14 writes: each operation's result, in order. -/
abbrev wrS14 : List (Ref sig .tc) :=
  [ main_v143, main_v144, main_v145, main_v146, main_v147, main_call6.cst.ref, main_call6.v0.ref, main_call6.v1.ref ]

/-- Each operation of stretch 14 writes its own result buffer, a member of that list. -/
theorem seg14_writes : (seg14 : List (HloOp τ sig (Elt F))).Forall fun op =>
    op.writes ⊆ ((wrS14).map (Proc.devRef (τ := τ) .tc)).toFinset :=
  ⟨w (by decide), w (by decide), w (by decide), w (by decide), w (by decide), w (by decide), w (by decide), w (by decide)⟩

/-- A buffer stretch 14 does not write keeps its contents through it. -/
theorem seg14_keeps (V : Valuation τ sig (Elt F)) {r : Ref sig .tc} (hr : r ∉ wrS14) :
    after seg14 V (no_index (Proc.devRef .tc r)) = V (Proc.devRef .tc r) :=
  after_of_writes_sub seg14 V seg14_writes hr

set_option maxRecDepth 8192 in
set_option maxHeartbeats 1600000 in
/-- What stretch 14 leaves in `main_v148`, as a stage function of what it finds in the buffers it reads. -/
theorem seg14_v148 (W : Valuation τ sig (Elt F)) :
    after seg14 W (Proc.devRef .tc main_v148) = linReluOf (W (Proc.devRef .tc main_v128)) (W (Proc.devRef .tc main_v142)) (W (Proc.devRef .tc main_v130)) (W (Proc.devRef .tc main_v132)) := by
  unfold seg14
  after_results_simp <;> rfl

/-- Stretch 15 of the program: operations 245 to 292 of its 325. -/
def seg15 : List (HloOp τ sig (Elt F)) :=
  [ StableHlo.unary main_arg8 main_v149 ((extractStridedSlice S1x64 ![3, 0] · slices_S4x64_S1x64_3_0) : (⟨S4x64, .f32⟩ : BufTy).Contents (Elt F) → (⟨S1x64, .f32⟩ : BufTy).Contents (Elt F)),
    StableHlo.reshape main_v149 main_v150 rfl shapeCasts_S1x64_S64,
    StableHlo.unary main_arg9 main_v151 ((extractStridedSlice S1x64 ![3, 0] · slices_S4x64_S1x64_3_0) : (⟨S4x64, .f32⟩ : BufTy).Contents (Elt F) → (⟨S1x64, .f32⟩ : BufTy).Contents (Elt F)),
    StableHlo.reshape main_v151 main_v152 rfl shapeCasts_S1x64_S64,
    StableHlo.nullary main_cst_22 (constant S_ .f32 0x00000000#32),
    StableHlo.binary main_v148 main_cst_22 main_v153 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_23 (constant S_ .f32 0x47C35000#32),
    StableHlo.unary main_cst_23 main_v154 (broadcastInDim S64 ![] bcast_S_S64 : (⟨S_, .f32⟩ : BufTy).Contents (Elt F) → (⟨S64, .f32⟩ : BufTy).Contents (Elt F)),
    StableHlo.binary main_v153 main_v154 main_v155 (Host.divf : (⟨S64, .f32⟩ : BufTy).Contents (Elt F) → (⟨S64, .f32⟩ : BufTy).Contents (Elt F) → (⟨S64, .f32⟩ : BufTy).Contents (Elt F)),
    StableHlo.nullary main_c_24 (constantI S_ 32 0#32),
    StableHlo.TRef.nullary main_call7.cst (constant S_ .f32 0x00000000#32),
    StableHlo.TRef.binary (.of main_v148 : StableHlo.TRef sig ⟨S100000x64, .f32⟩) main_call7.cst main_call7.v0 (fun x v => Host.reduceAdd x v reducesTo_S100000x64_S64_d0 h_S_),
    StableHlo.TRef.unary main_call7.v0 main_call7.v1 (broadcastInDim S1x64 ![1] bcast_S64_S1x64_1),
    StableHlo.TRef.nullary main_call7.cst_0 (constant S_ .f32 0x47C35000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S100000x64 ![0, 1] bcast_S1x64_S100000x64_0_1),
    StableHlo.TRef.binary (.of main_v148 : StableHlo.TRef sig ⟨S100000x64, .f32⟩) main_call7.v4 main_call7.v5 subf,
    StableHlo.TRef.binary main_call7.v5 main_call7.v5 main_call7.v6 mulf,
    StableHlo.TRef.unary (.of main_c_24 : StableHlo.TRef sig ⟨S_, .i32⟩) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b),
    StableHlo.unary main_v155 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S100000x64 ![0, 1] bcast_S1x64_S100000x64_0_1 : (⟨S1x64, .f32⟩ : BufTy).Contents (Elt F) → (⟨S100000x64, .f32⟩ : BufTy).Contents (Elt F)),
    StableHlo.binary main_v148 main_v158 main_v159 (subf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x3727C5AC#32),
    StableHlo.unary main_cst_25 main_v160 (broadcastInDim S64 ![] bcast_S_S64 : (⟨S_, .f32⟩ : BufTy).Contents (Elt F) → (⟨S64, .f32⟩ : BufTy).Contents (Elt F)),
    StableHlo.binary main_v156 main_v160 main_v161 (addf : (⟨S64, .f32⟩ : BufTy).Contents (Elt F) → (⟨S64, .f32⟩ : BufTy).Contents (Elt F) → (⟨S64, .f32⟩ : BufTy).Contents (Elt F)),
    StableHlo.unary main_v161 main_v162 (Host.rsqrt : (⟨S64, .f32⟩ : BufTy).Contents (Elt F) → (⟨S64, .f32⟩ : BufTy).Contents (Elt F)),
    StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v159 main_v164 main_v165 (mulf : (⟨S100000x64, .f32⟩ : BufTy).Contents (Elt F) → (⟨S100000x64, .f32⟩ : BufTy).Contents (Elt F) → (⟨S100000x64, .f32⟩ : BufTy).Contents (Elt F)),
    StableHlo.unary main_v150 main_v166 (broadcastInDim S1x64 ![1] bcast_S64_S1x64_1 : (⟨S64, .f32⟩ : BufTy).Contents (Elt F) → (⟨S1x64, .f32⟩ : BufTy).Contents (Elt F)),
    StableHlo.unary main_v166 main_v167 (broadcastInDim S100000x64 ![0, 1] bcast_S1x64_S100000x64_0_1 : (⟨S1x64, .f32⟩ : BufTy).Contents (Elt F) → (⟨S100000x64, .f32⟩ : BufTy).Contents (Elt F)),
    StableHlo.binary main_v165 main_v167 main_v168 (mulf : (⟨S100000x64, .f32⟩ : BufTy).Contents (Elt F) → (⟨S100000x64, .f32⟩ : BufTy).Contents (Elt F) → (⟨S100000x64, .f32⟩ : BufTy).Contents (Elt F)),
    StableHlo.unary main_v152 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S100000x64 ![0, 1] bcast_S1x64_S100000x64_0_1 : (⟨S1x64, .f32⟩ : BufTy).Contents (Elt F) → (⟨S100000x64, .f32⟩ : BufTy).Contents (Elt F)),
    StableHlo.binary main_v168 main_v170 main_v171 (addf : (⟨S100000x64, .f32⟩ : BufTy).Contents (Elt F) → (⟨S100000x64, .f32⟩ : BufTy).Contents (Elt F) → (⟨S100000x64, .f32⟩ : BufTy).Contents (Elt F)) ]

/-- The buffers stretch 15 writes: each operation's result, in order. -/
abbrev wrS15 : List (Ref sig .tc) :=
  [ main_v149, main_v150, main_v151, main_v152, main_cst_22, main_v153, main_cst_23, main_v154,
    main_v155, main_c_24, main_call7.cst.ref, main_call7.v0.ref, main_call7.v1.ref, main_call7.cst_0.ref, main_call7.v2.ref, main_call7.v3.ref,
    main_call7.v4.ref, main_call7.v5.ref, main_call7.v6.ref, main_call7.v7.ref, main_call7.cst_1.ref, main_call7.v8.ref, main_call7.cst_2.ref, main_call7.v9.ref,
    main_call7.v10.ref, main_call7.v11.ref, main_call7.cst_3.ref, main_call7.v12.ref, main_call7.cst_4.ref, main_call7.call0.v0.ref, main_call7.call0.v1.ref, main_call7.call0.v2.ref,
    main_v157, main_v158, main_v159, main_cst_25, main_v160, main_v161, main_v162, main_v163,
    main_v164, main_v165, main_v166, main_v167, main_v168, main_v169, main_v170, main_v171 ]

/-- Each operation of stretch 15 writes its own result buffer, a member of that list. -/
theorem seg15_writes : (seg15 : List (HloOp τ sig (Elt F))).Forall fun op =>
    op.writes ⊆ ((wrS15).map (Proc.devRef (τ := τ) .tc)).toFinset :=
  ⟨w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide),
    w (by decide), w (by decide), w (by decide), w (by decide), w (by decide), w (by decide), w (by decide), w (by decide)⟩

/-- A buffer stretch 15 does not write keeps its contents through it. -/
theorem seg15_keeps (V : Valuation τ sig (Elt F)) {r : Ref sig .tc} (hr : r ∉ wrS15) :
    after seg15 V (no_index (Proc.devRef .tc r)) = V (Proc.devRef .tc r) :=
  after_of_writes_sub seg15 V seg15_writes hr

set_option maxRecDepth 8192 in
set_option maxHeartbeats 1600000 in
/-- What stretch 15 leaves in `main_v171`, as a stage function of what it finds in the buffers it reads. -/
theorem seg15_v171 (W : Valuation τ sig (Elt F)) :
    after seg15 W (Proc.devRef .tc main_v171) = bnOf 3 slices_S4x64_S1x64_3_0 (W (Proc.devRef .tc main_v148)) (W (Proc.devRef .tc main_arg8)) (W (Proc.devRef .tc main_arg9)) := by
  unfold seg15
  after_results_simp <;> rfl

end Cert.ReferenceIdeal.Hand

end
-- ==== Proof.Ref.StagesL.lean ====
/-
  The last stage of the reference program in three steps, for any float values: the largest entry of each row
  (Stages.lean's `lsmMaxOf`), the rows shifted by it, and the shifted rows less the logarithm of the sum of their
  exponentials. Their composition is the stage `lsmOf`.
-/
import proofs.«128301_j8701603742430_2_alg».proof.Proof.Ref.Stages

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The rows of `z` shifted by the vector `m`, one entry per row. -/
def lsmShiftOf (z : FVec F S100000x40 .f32) (m : FVec F S100000 .f32) : FVec F S100000x40 .f32 :=
  (subf z (broadcastInDim S100000x40 ![0, 1] bcast_S100000x1_S100000x40_0_1 (broadcastInDim S100000x1 ![0] bcast_S100000_S100000x1_0 m)))

/-- Shifted rows less the logarithm of the sum of their exponentials. -/
def lsmTailOf (c : FVec F S100000x40 .f32) : FVec F S100000x40 .f32 :=
  (subf c (broadcastInDim S100000x40 ![0, 1] bcast_S100000x1_S100000x40_0_1 (Host.log (broadcastInDim S100000x1 ![0] bcast_S100000_S100000x1_0 (Host.reduceAdd (Host.exp c) (constant (F := F) S_ .f32 0x00000000#32) reducesTo_S100000x40_S100000_d1 h_S_)))))

/-- The row-wise logarithm of the softmax is those three steps. -/
theorem lsmOf_eq (z : FVec F S100000x40 .f32) : lsmOf z = lsmTailOf (lsmShiftOf z (lsmMaxOf z)) := rfl

end Cert.ReferenceIdeal.Hand

end
-- ==== Proof.Ref.Seg4.lean ====
/-
  Stretches 16 to 20 of the reference program's line of host operations: for each stretch its operations, the buffers
  it writes, that every other buffer keeps its contents through it, and what it leaves in the buffers later stretches
  read, as a stage function (Stages.lean) of what it finds in the buffers it reads.
-/
import proofs.«128301_j8701603742430_2_alg».proof.Proof.Ref.StagesL

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Contents moved to a typed reference's buffer type and back are the contents. -/
theorem ofBuf_toBuf' {T : BufTy} (x : StableHlo.TRef sig T) (v : T.Contents (Elt F)) : x.ofBuf (x.toBuf v) = v := by
  obtain ⟨r, h, _, _⟩ := x; subst h; rfl

private theorem w {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Stretch 16 of the program: operations 293 to 305 of its 325. -/
def seg16 : List (HloOp τ sig (Elt F)) :=
  [ StableHlo.nullary main_c_26 (constantI S_ 32 0#32),
    StableHlo.unary main_c_26 main_v172 (broadcastInDim S1600000 ![] bcast_S_S1600000 : (⟨S_, .i32⟩ : BufTy).Contents (Elt F) → (⟨S1600000, .i32⟩ : BufTy).Contents (Elt F)),
    StableHlo.binary main_v1 main_v172 main_v173 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 100000#32),
    StableHlo.unary main_c_27 main_v174 (broadcastInDim S1600000 ![] bcast_S_S1600000 : (⟨S_, .i32⟩ : BufTy).Contents (Elt F) → (⟨S1600000, .i32⟩ : BufTy).Contents (Elt F)),
    StableHlo.binary main_v1 main_v174 main_v175 (addi : (⟨S1600000, .i32⟩ : BufTy).Contents (Elt F) → (⟨S1600000, .i32⟩ : BufTy).Contents (Elt F) → (⟨S1600000, .i32⟩ : BufTy).Contents (Elt F)),
    StableHlo.ternary main_v173 main_v175 main_v1 main_v176 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v176 main_v177 (broadcastInDim S1600000x1 ![0] bcast_S1600000_S1600000x1_0 : (⟨S1600000, .i32⟩ : BufTy).Contents (Elt F) → (⟨S1600000x1, .i32⟩ : BufTy).Contents (Elt F)),
    StableHlo.binary main_v171 main_v177 main_v178 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_28 (constant S_ .f32 0x00000000#32),
    StableHlo.unary main_cst_28 main_v179 (broadcastInDim S100000x64 ![] bcast_S_S100000x64 : (⟨S_, .f32⟩ : BufTy).Contents (Elt F) → (⟨S100000x64, .f32⟩ : BufTy).Contents (Elt F)),
    StableHlo.unary main_v3 main_v180 (broadcastInDim S1600000x1 ![0] bcast_S1600000_S1600000x1_0 : (⟨S1600000, .i32⟩ : BufTy).Contents (Elt F) → (⟨S1600000x1, .i32⟩ : BufTy).Contents (Elt F)),
    StableHlo.ternary main_v179 main_v180 main_v178 main_v181 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers stretch 16 writes: each operation's result, in order. -/
abbrev wrS16 : List (Ref sig .tc) :=
  [ main_c_26, main_v172, main_v173, main_c_27, main_v174, main_v175, main_v176, main_v177,
    main_v178, main_cst_28, main_v179, main_v180, main_v181 ]

/-- Each operation of stretch 16 writes its own result buffer, a member of that list. -/
theorem seg16_writes : (seg16 : List (HloOp τ sig (Elt F))).Forall fun op =>
    op.writes ⊆ ((wrS16).map (Proc.devRef (τ := τ) .tc)).toFinset :=
  ⟨w (by decide), w (by decide), w (by decide), w (by decide), w (by decide), w (by decide), w (by decide), w (by decide),
    w (by decide), w (by decide), w (by decide), w (by decide), w (by decide)⟩

/-- A buffer stretch 16 does not write keeps its contents through it. -/
theorem seg16_keeps (V : Valuation τ sig (Elt F)) {r : Ref sig .tc} (hr : r ∉ wrS16) :
    after seg16 V (no_index (Proc.devRef .tc r)) = V (Proc.devRef .tc r) :=
  after_of_writes_sub seg16 V seg16_writes hr

set_option maxRecDepth 8192 in
set_option maxHeartbeats 1600000 in
/-- What stretch 16 leaves in `main_v181`, as a stage function of what it finds in the buffers it reads. -/
theorem seg16_v181 (W : Valuation τ sig (Elt F)) :
    after seg16 W (Proc.devRef .tc main_v181) = aggOf (W (Proc.devRef .tc main_v1)) (W (Proc.devRef .tc main_v3)) (W (Proc.devRef .tc main_v171)) := by
  unfold seg16
  after_results_simp <;> (try simp only [ofBuf_toBuf']) <;> rfl

/-- Stretch 17 of the program: operations 306 to 310 of its 325. -/
def seg17 : List (HloOp τ sig (Elt F)) :=
  [ StableHlo.binary main_v171 main_v181 main_v182 (addf : (⟨S100000x64, .f32⟩ : BufTy).Contents (Elt F) → (⟨S100000x64, .f32⟩ : BufTy).Contents (Elt F) → (⟨S100000x64, .f32⟩ : BufTy).Contents (Elt F)),
    StableHlo.binary main_v182 main_arg6 main_v183 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg7 main_v184 (broadcastInDim S1x40 ![1] bcast_S40_S1x40_1 : (⟨S40, .f32⟩ : BufTy).Contents (Elt F) → (⟨S1x40, .f32⟩ : BufTy).Contents (Elt F)),
    StableHlo.unary main_v184 main_v185 (broadcastInDim S100000x40 ![0, 1] bcast_S1x40_S100000x40_0_1 : (⟨S1x40, .f32⟩ : BufTy).Contents (Elt F) → (⟨S100000x40, .f32⟩ : BufTy).Contents (Elt F)),
    StableHlo.binary main_v183 main_v185 main_v186 (addf : (⟨S100000x40, .f32⟩ : BufTy).Contents (Elt F) → (⟨S100000x40, .f32⟩ : BufTy).Contents (Elt F) → (⟨S100000x40, .f32⟩ : BufTy).Contents (Elt F)) ]

/-- The buffers stretch 17 writes: each operation's result, in order. -/
abbrev wrS17 : List (Ref sig .tc) :=
  [ main_v182, main_v183, main_v184, main_v185, main_v186 ]

/-- Each operation of stretch 17 writes its own result buffer, a member of that list. -/
theorem seg17_writes : (seg17 : List (HloOp τ sig (Elt F))).Forall fun op =>
    op.writes ⊆ ((wrS17).map (Proc.devRef (τ := τ) .tc)).toFinset :=
  ⟨w (by decide), w (by decide), w (by decide), w (by decide), w (by decide)⟩

/-- A buffer stretch 17 does not write keeps its contents through it. -/
theorem seg17_keeps (V : Valuation τ sig (Elt F)) {r : Ref sig .tc} (hr : r ∉ wrS17) :
    after seg17 V (no_index (Proc.devRef .tc r)) = V (Proc.devRef .tc r) :=
  after_of_writes_sub seg17 V seg17_writes hr

set_option maxRecDepth 8192 in
set_option maxHeartbeats 1600000 in
/-- What stretch 17 leaves in `main_v186`, as a stage function of what it finds in the buffers it reads. -/
theorem seg17_v186 (W : Valuation τ sig (Elt F)) :
    after seg17 W (Proc.devRef .tc main_v186) = linFOf (W (Proc.devRef .tc main_v171)) (W (Proc.devRef .tc main_v181)) (W (Proc.devRef .tc main_arg6)) (W (Proc.devRef .tc main_arg7)) := by
  unfold seg17
  after_results_simp <;> (try simp only [ofBuf_toBuf']) <;> rfl

/-- Stretch 18 of the program: operations 311 to 315 of its 325. -/
def seg18 : List (HloOp τ sig (Elt F)) :=
  [ StableHlo.TRef.nullary main_call8.cst (constant S_ .f32 0xFF800000#32),
    StableHlo.TRef.binary (.of main_v186 : StableHlo.TRef sig ⟨S100000x40, .f32⟩) main_call8.cst main_call8.v0 (fun x v => Host.reduce FloatOps.maximumf x v reducesTo_S100000x40_S100000_d1 h_S_),
    StableHlo.TRef.nullary main_call8.cst_0 (constant S_ .f32 0xFF800000#32),
    StableHlo.TRef.unary main_call8.cst_0 main_call8.v1 (broadcastInDim S100000 ![] bcast_S_S100000),
    StableHlo.TRef.binary main_call8.v1 main_call8.v0 main_call8.v2 maximumf ]

/-- The buffers stretch 18 writes: each operation's result, in order. -/
abbrev wrS18 : List (Ref sig .tc) :=
  [ main_call8.cst.ref, main_call8.v0.ref, main_call8.cst_0.ref, main_call8.v1.ref, main_call8.v2.ref ]

/-- Each operation of stretch 18 writes its own result buffer, a member of that list. -/
theorem seg18_writes : (seg18 : List (HloOp τ sig (Elt F))).Forall fun op =>
    op.writes ⊆ ((wrS18).map (Proc.devRef (τ := τ) .tc)).toFinset :=
  ⟨w (by decide), w (by decide), w (by decide), w (by decide), w (by decide)⟩

/-- A buffer stretch 18 does not write keeps its contents through it. -/
theorem seg18_keeps (V : Valuation τ sig (Elt F)) {r : Ref sig .tc} (hr : r ∉ wrS18) :
    after seg18 V (no_index (Proc.devRef .tc r)) = V (Proc.devRef .tc r) :=
  after_of_writes_sub seg18 V seg18_writes hr

set_option maxRecDepth 8192 in
set_option maxHeartbeats 1600000 in
/-- What stretch 18 leaves in `main_call8_v2`, as a stage function of what it finds in the buffers it reads. -/
theorem seg18_call8_v2 (W : Valuation τ sig (Elt F)) :
    after seg18 W (Proc.devRef .tc main_call8_v2) = lsmMaxOf (W (Proc.devRef .tc main_v186)) := by
  unfold seg18
  after_results_simp <;> (try simp only [ofBuf_toBuf']) <;> rfl

/-- Stretch 19 of the program: operations 316 to 318 of its 325. -/
def seg19 : List (HloOp τ sig (Elt F)) :=
  [ StableHlo.TRef.unary main_call8.v2 main_call8.v3 (broadcastInDim S100000x1 ![0] bcast_S100000_S100000x1_0),
    StableHlo.TRef.unary main_call8.v3 main_call8.v4 (broadcastInDim S100000x40 ![0, 1] bcast_S100000x1_S100000x40_0_1),
    StableHlo.TRef.binary (.of main_v186 : StableHlo.TRef sig ⟨S100000x40, .f32⟩) main_call8.v4 main_call8.v5 subf ]

/-- The buffers stretch 19 writes: each operation's result, in order. -/
abbrev wrS19 : List (Ref sig .tc) :=
  [ main_call8.v3.ref, main_call8.v4.ref, main_call8.v5.ref ]

/-- Each operation of stretch 19 writes its own result buffer, a member of that list. -/
theorem seg19_writes : (seg19 : List (HloOp τ sig (Elt F))).Forall fun op =>
    op.writes ⊆ ((wrS19).map (Proc.devRef (τ := τ) .tc)).toFinset :=
  ⟨w (by decide), w (by decide), w (by decide)⟩

/-- A buffer stretch 19 does not write keeps its contents through it. -/
theorem seg19_keeps (V : Valuation τ sig (Elt F)) {r : Ref sig .tc} (hr : r ∉ wrS19) :
    after seg19 V (no_index (Proc.devRef .tc r)) = V (Proc.devRef .tc r) :=
  after_of_writes_sub seg19 V seg19_writes hr

set_option maxRecDepth 8192 in
set_option maxHeartbeats 1600000 in
/-- What stretch 19 leaves in `main_call8_v5`, as a stage function of what it finds in the buffers it reads. -/
theorem seg19_call8_v5 (W : Valuation τ sig (Elt F)) :
    after seg19 W (Proc.devRef .tc main_call8_v5) = lsmShiftOf (W (Proc.devRef .tc main_v186)) (W (Proc.devRef .tc main_call8_v2)) := by
  unfold seg19
  after_results_simp <;> (try simp only [ofBuf_toBuf']) <;> rfl

/-- Stretch 20 of the program: operations 319 to 325 of its 325. -/
def seg20 : List (HloOp τ sig (Elt F)) :=
  [ StableHlo.TRef.unary main_call8.v5 main_call8.v6 Host.exp,
    StableHlo.TRef.nullary main_call8.cst_1 (constant S_ .f32 0x00000000#32),
    StableHlo.TRef.binary main_call8.v6 main_call8.cst_1 main_call8.v7 (fun x v => Host.reduceAdd x v reducesTo_S100000x40_S100000_d1 h_S_),
    StableHlo.TRef.unary main_call8.v7 main_call8.v8 (broadcastInDim S100000x1 ![0] bcast_S100000_S100000x1_0),
    StableHlo.TRef.unary main_call8.v8 main_call8.v9 Host.log,
    StableHlo.TRef.unary main_call8.v9 main_call8.v10 (broadcastInDim S100000x40 ![0, 1] bcast_S100000x1_S100000x40_0_1),
    StableHlo.TRef.binary main_call8.v5 main_call8.v10 main_call8.v11 subf ]

/-- The buffers stretch 20 writes: each operation's result, in order. -/
abbrev wrS20 : List (Ref sig .tc) :=
  [ main_call8.v6.ref, main_call8.cst_1.ref, main_call8.v7.ref, main_call8.v8.ref, main_call8.v9.ref, main_call8.v10.ref, main_call8.v11.ref ]

/-- Each operation of stretch 20 writes its own result buffer, a member of that list. -/
theorem seg20_writes : (seg20 : List (HloOp τ sig (Elt F))).Forall fun op =>
    op.writes ⊆ ((wrS20).map (Proc.devRef (τ := τ) .tc)).toFinset :=
  ⟨w (by decide), w (by decide), w (by decide), w (by decide), w (by decide), w (by decide), w (by decide)⟩

/-- A buffer stretch 20 does not write keeps its contents through it. -/
theorem seg20_keeps (V : Valuation τ sig (Elt F)) {r : Ref sig .tc} (hr : r ∉ wrS20) :
    after seg20 V (no_index (Proc.devRef .tc r)) = V (Proc.devRef .tc r) :=
  after_of_writes_sub seg20 V seg20_writes hr

set_option maxRecDepth 8192 in
set_option maxHeartbeats 1600000 in
/-- What stretch 20 leaves in `main_v187`, as a stage function of what it finds in the buffers it reads. -/
theorem seg20_v187 (W : Valuation τ sig (Elt F)) :
    after seg20 W (Proc.devRef .tc main_v187) = lsmTailOf (W (Proc.devRef .tc main_call8_v5)) := by
  unfold seg20
  after_results_simp <;> (try simp only [ofBuf_toBuf']) <;> rfl

end Cert.ReferenceIdeal.Hand

end
-- ==== Proof.Ref.Fold.lean ====
/-
  The reference program's result buffer, at the end of its line of host operations, as the composition of the stage
  functions (Stages.lean) over the arguments' launch contents, for any float values. The line is cut into 21
  stretches; every buffer is written by one operation only, so what a stretch leaves in a buffer is still there at the
  end of the line, and the buffers it reads hold at the end what they held when it ran: each stretch's stage function
  is an equation between buffers at the end of the line, and the equations chain from the arguments to the result.
-/
import proofs.«128301_j8701603742430_2_alg».proof.Proof.Ref.Ops
import proofs.«128301_j8701603742430_2_alg».proof.Proof.Ref.Seg0
import proofs.«128301_j8701603742430_2_alg».proof.Proof.Ref.Seg1
import proofs.«128301_j8701603742430_2_alg».proof.Proof.Ref.Seg2
import proofs.«128301_j8701603742430_2_alg».proof.Proof.Ref.Seg3
import proofs.«128301_j8701603742430_2_alg».proof.Proof.Ref.Seg4
import proofs.«128301_j8701603742430_2_alg».proof.Proof.LibFoldCuts

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

set_option maxRecDepth 65536 in
set_option maxHeartbeats 1000000 in
/-- The line is its stretches, appended. -/
theorem ops_segs : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20)))))))))))))))))))) := rfl

/-- What the line leaves is what the stretches leave, one after the other. -/
theorem after_segs (V : Valuation τ sig (Elt F)) :
    after ops V = (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V))))))))))))))))))))) := by
  rw [ops_segs]
  simp only [FoldCuts.after_app]

set_option maxRecDepth 8192 in
set_option maxHeartbeats 1600000 in
/-- `main_v1` at the end of the line: stretch 0's stage function of the buffers it reads, at the end of the line. -/
theorem fin_v1 (V : Valuation τ sig (Elt F)) :
    after ops V (Proc.devRef .tc main_v1) = srcOf (after ops V (Proc.devRef .tc main_arg1)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg0_v1]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v3` at the end of the line: stretch 0's stage function of the buffers it reads, at the end of the line. -/
theorem fin_v3 (V : Valuation τ sig (Elt F)) :
    after ops V (Proc.devRef .tc main_v3) = dstOf (after ops V (Proc.devRef .tc main_arg1)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg0_v3]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v13` at the end of the line: stretch 1's stage function of the buffers it reads, at the end of the line. -/
theorem fin_v13 (V : Valuation τ sig (Elt F)) :
    after ops V (Proc.devRef .tc main_v13) = aggOf (after ops V (Proc.devRef .tc main_v1)) (after ops V (Proc.devRef .tc main_v3)) (after ops V (Proc.devRef .tc main_arg0)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg1_v13]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v19` at the end of the line: stretch 2's stage function of the buffers it reads, at the end of the line. -/
theorem fin_v19 (V : Valuation τ sig (Elt F)) :
    after ops V (Proc.devRef .tc main_v19) = linReluOf (after ops V (Proc.devRef .tc main_arg0)) (after ops V (Proc.devRef .tc main_v13)) (after ops V (Proc.devRef .tc main_arg2)) (after ops V (Proc.devRef .tc main_arg3)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg2_v19]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v42` at the end of the line: stretch 3's stage function of the buffers it reads, at the end of the line. -/
theorem fin_v42 (V : Valuation τ sig (Elt F)) :
    after ops V (Proc.devRef .tc main_v42) = bnOf 0 slices_S4x64_S1x64_0_0 (after ops V (Proc.devRef .tc main_v19)) (after ops V (Proc.devRef .tc main_arg8)) (after ops V (Proc.devRef .tc main_arg9)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg3_v42]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v44` at the end of the line: stretch 4's stage function of the buffers it reads, at the end of the line. -/
theorem fin_v44 (V : Valuation τ sig (Elt F)) :
    after ops V (Proc.devRef .tc main_v44) = wOf 0 slices_S3x64x64_S1x64x64_0_0_0 (after ops V (Proc.devRef .tc main_arg4)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg4_v44]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v46` at the end of the line: stretch 4's stage function of the buffers it reads, at the end of the line. -/
theorem fin_v46 (V : Valuation τ sig (Elt F)) :
    after ops V (Proc.devRef .tc main_v46) = bOf 0 slices_S3x64_S1x64_0_0 (after ops V (Proc.devRef .tc main_arg5)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg4_v46]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v56` at the end of the line: stretch 5's stage function of the buffers it reads, at the end of the line. -/
theorem fin_v56 (V : Valuation τ sig (Elt F)) :
    after ops V (Proc.devRef .tc main_v56) = aggOf (after ops V (Proc.devRef .tc main_v1)) (after ops V (Proc.devRef .tc main_v3)) (after ops V (Proc.devRef .tc main_v42)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg5_v56]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v62` at the end of the line: stretch 6's stage function of the buffers it reads, at the end of the line. -/
theorem fin_v62 (V : Valuation τ sig (Elt F)) :
    after ops V (Proc.devRef .tc main_v62) = linReluOf (after ops V (Proc.devRef .tc main_v42)) (after ops V (Proc.devRef .tc main_v56)) (after ops V (Proc.devRef .tc main_v44)) (after ops V (Proc.devRef .tc main_v46)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg6_v62]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v85` at the end of the line: stretch 7's stage function of the buffers it reads, at the end of the line. -/
theorem fin_v85 (V : Valuation τ sig (Elt F)) :
    after ops V (Proc.devRef .tc main_v85) = bnOf 1 slices_S4x64_S1x64_1_0 (after ops V (Proc.devRef .tc main_v62)) (after ops V (Proc.devRef .tc main_arg8)) (after ops V (Proc.devRef .tc main_arg9)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg7_v85]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v87` at the end of the line: stretch 8's stage function of the buffers it reads, at the end of the line. -/
theorem fin_v87 (V : Valuation τ sig (Elt F)) :
    after ops V (Proc.devRef .tc main_v87) = wOf 1 slices_S3x64x64_S1x64x64_1_0_0 (after ops V (Proc.devRef .tc main_arg4)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg8_v87]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v89` at the end of the line: stretch 8's stage function of the buffers it reads, at the end of the line. -/
theorem fin_v89 (V : Valuation τ sig (Elt F)) :
    after ops V (Proc.devRef .tc main_v89) = bOf 1 slices_S3x64_S1x64_1_0 (after ops V (Proc.devRef .tc main_arg5)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg8_v89]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v99` at the end of the line: stretch 9's stage function of the buffers it reads, at the end of the line. -/
theorem fin_v99 (V : Valuation τ sig (Elt F)) :
    after ops V (Proc.devRef .tc main_v99) = aggOf (after ops V (Proc.devRef .tc main_v1)) (after ops V (Proc.devRef .tc main_v3)) (after ops V (Proc.devRef .tc main_v85)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg9_v99]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v105` at the end of the line: stretch 10's stage function of the buffers it reads, at the end of the line. -/
theorem fin_v105 (V : Valuation τ sig (Elt F)) :
    after ops V (Proc.devRef .tc main_v105) = linReluOf (after ops V (Proc.devRef .tc main_v85)) (after ops V (Proc.devRef .tc main_v99)) (after ops V (Proc.devRef .tc main_v87)) (after ops V (Proc.devRef .tc main_v89)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg10_v105]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v128` at the end of the line: stretch 11's stage function of the buffers it reads, at the end of the line. -/
theorem fin_v128 (V : Valuation τ sig (Elt F)) :
    after ops V (Proc.devRef .tc main_v128) = bnOf 2 slices_S4x64_S1x64_2_0 (after ops V (Proc.devRef .tc main_v105)) (after ops V (Proc.devRef .tc main_arg8)) (after ops V (Proc.devRef .tc main_arg9)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg11_v128]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v130` at the end of the line: stretch 12's stage function of the buffers it reads, at the end of the line. -/
theorem fin_v130 (V : Valuation τ sig (Elt F)) :
    after ops V (Proc.devRef .tc main_v130) = wOf 2 slices_S3x64x64_S1x64x64_2_0_0 (after ops V (Proc.devRef .tc main_arg4)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg12_v130]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v132` at the end of the line: stretch 12's stage function of the buffers it reads, at the end of the line. -/
theorem fin_v132 (V : Valuation τ sig (Elt F)) :
    after ops V (Proc.devRef .tc main_v132) = bOf 2 slices_S3x64_S1x64_2_0 (after ops V (Proc.devRef .tc main_arg5)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg12_v132]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v142` at the end of the line: stretch 13's stage function of the buffers it reads, at the end of the line. -/
theorem fin_v142 (V : Valuation τ sig (Elt F)) :
    after ops V (Proc.devRef .tc main_v142) = aggOf (after ops V (Proc.devRef .tc main_v1)) (after ops V (Proc.devRef .tc main_v3)) (after ops V (Proc.devRef .tc main_v128)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg13_v142]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v148` at the end of the line: stretch 14's stage function of the buffers it reads, at the end of the line. -/
theorem fin_v148 (V : Valuation τ sig (Elt F)) :
    after ops V (Proc.devRef .tc main_v148) = linReluOf (after ops V (Proc.devRef .tc main_v128)) (after ops V (Proc.devRef .tc main_v142)) (after ops V (Proc.devRef .tc main_v130)) (after ops V (Proc.devRef .tc main_v132)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg14_v148]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v171` at the end of the line: stretch 15's stage function of the buffers it reads, at the end of the line. -/
theorem fin_v171 (V : Valuation τ sig (Elt F)) :
    after ops V (Proc.devRef .tc main_v171) = bnOf 3 slices_S4x64_S1x64_3_0 (after ops V (Proc.devRef .tc main_v148)) (after ops V (Proc.devRef .tc main_arg8)) (after ops V (Proc.devRef .tc main_arg9)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg15_v171]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v181` at the end of the line: stretch 16's stage function of the buffers it reads, at the end of the line. -/
theorem fin_v181 (V : Valuation τ sig (Elt F)) :
    after ops V (Proc.devRef .tc main_v181) = aggOf (after ops V (Proc.devRef .tc main_v1)) (after ops V (Proc.devRef .tc main_v3)) (after ops V (Proc.devRef .tc main_v171)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg16_v181]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v186` at the end of the line: stretch 17's stage function of the buffers it reads, at the end of the line. -/
theorem fin_v186 (V : Valuation τ sig (Elt F)) :
    after ops V (Proc.devRef .tc main_v186) = linFOf (after ops V (Proc.devRef .tc main_v171)) (after ops V (Proc.devRef .tc main_v181)) (after ops V (Proc.devRef .tc main_arg6)) (after ops V (Proc.devRef .tc main_arg7)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg17_v186]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_call8_v2` at the end of the line: stretch 18's stage function of the buffers it reads, at the end of the line. -/
theorem fin_call8_v2 (V : Valuation τ sig (Elt F)) :
    after ops V (Proc.devRef .tc main_call8_v2) = lsmMaxOf (after ops V (Proc.devRef .tc main_v186)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg18_call8_v2]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_call8_v5` at the end of the line: stretch 19's stage function of the buffers it reads, at the end of the line. -/
theorem fin_call8_v5 (V : Valuation τ sig (Elt F)) :
    after ops V (Proc.devRef .tc main_call8_v5) = lsmShiftOf (after ops V (Proc.devRef .tc main_v186)) (after ops V (Proc.devRef .tc main_call8_v2)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg19_call8_v5]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- `main_v187` at the end of the line: stretch 20's stage function of the buffers it reads, at the end of the line. -/
theorem fin_v187 (V : Valuation τ sig (Elt F)) :
    after ops V (Proc.devRef .tc main_v187) = lsmTailOf (after ops V (Proc.devRef .tc main_call8_v5)) := by
  rw [after_segs]
  simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]
  rw [seg20_v187]
  try simp (disch := decide) only [seg0_keeps, seg1_keeps, seg2_keeps, seg3_keeps, seg4_keeps, seg5_keeps, seg6_keeps, seg7_keeps, seg8_keeps, seg9_keeps, seg10_keeps, seg11_keeps, seg12_keeps, seg13_keeps, seg14_keeps, seg15_keeps, seg16_keeps, seg17_keeps, seg18_keeps, seg19_keeps, seg20_keeps]

set_option maxRecDepth 8192 in
set_option maxHeartbeats 1600000 in
/-- The result buffer at the end of the line is the stage functions' composition over the arguments. -/
theorem out_fold (V : Valuation τ sig (Elt F)) :
    after ops V (Proc.devRef .tc main_v187)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  have e_v1 := fin_v1 V
  rw [arg1_keeps] at e_v1
  have e_v3 := fin_v3 V
  rw [arg1_keeps] at e_v3
  have e_v13 := fin_v13 V
  rw [e_v1, e_v3, arg0_keeps] at e_v13
  have e_v19 := fin_v19 V
  rw [arg0_keeps, e_v13, arg2_keeps, arg3_keeps] at e_v19
  have e_v42 := fin_v42 V
  rw [e_v19, arg8_keeps, arg9_keeps] at e_v42
  have e_v44 := fin_v44 V
  rw [arg4_keeps] at e_v44
  have e_v46 := fin_v46 V
  rw [arg5_keeps] at e_v46
  have e_v56 := fin_v56 V
  rw [e_v1, e_v3, e_v42] at e_v56
  have e_v62 := fin_v62 V
  rw [e_v42, e_v56, e_v44, e_v46] at e_v62
  have e_v85 := fin_v85 V
  rw [e_v62, arg8_keeps, arg9_keeps] at e_v85
  have e_v87 := fin_v87 V
  rw [arg4_keeps] at e_v87
  have e_v89 := fin_v89 V
  rw [arg5_keeps] at e_v89
  have e_v99 := fin_v99 V
  rw [e_v1, e_v3, e_v85] at e_v99
  have e_v105 := fin_v105 V
  rw [e_v85, e_v99, e_v87, e_v89] at e_v105
  have e_v128 := fin_v128 V
  rw [e_v105, arg8_keeps, arg9_keeps] at e_v128
  have e_v130 := fin_v130 V
  rw [arg4_keeps] at e_v130
  have e_v132 := fin_v132 V
  rw [arg5_keeps] at e_v132
  have e_v142 := fin_v142 V
  rw [e_v1, e_v3, e_v128] at e_v142
  have e_v148 := fin_v148 V
  rw [e_v128, e_v142, e_v130, e_v132] at e_v148
  have e_v171 := fin_v171 V
  rw [e_v148, arg8_keeps, arg9_keeps] at e_v171
  have e_v181 := fin_v181 V
  rw [e_v1, e_v3, e_v171] at e_v181
  have e_v186 := fin_v186 V
  rw [e_v171, e_v181, arg6_keeps, arg7_keeps] at e_v186
  have e_call8_v2 := fin_call8_v2 V
  rw [e_v186] at e_call8_v2
  have e_call8_v5 := fin_call8_v5 V
  rw [e_v186, e_call8_v2] at e_call8_v5
  have e_v187 := fin_v187 V
  rw [e_call8_v5] at e_v187
  rw [← lsmOf_eq] at e_v187
  exact e_v187

end Cert.ReferenceIdeal.Hand

end
-- ==== Proof.Ref.ValueOut.lean ====
/-
  The reference program's result buffer at the end of its line of host operations, at the ideal instance: the stage
  functions' composition over the arguments' contents (Fold.lean), which is the network on coordinates (ValueNet.lean).
-/
import proofs.«128301_j8701603742430_2_alg».proof.Proof.Ref.ValueNet
import proofs.«128301_j8701603742430_2_alg».proof.Proof.Ref.Fold

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo Idealize.ShloMosaic.ValueIdx

variable {F : FTy → Type} [FloatOps F]

/-- The result buffer at the end of the program's line of host operations, at the ideal instance. -/
theorem ref_value (V : Valuation τ sig (Elt Ideal)) :
    StableHlo.after ops V (Proc.devRef .tc main_v187) = refOut (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  out_fold V

end Cert.ReferenceIdeal.Hand

end
-- ==== Proof.LibFiniteReal.lean ====
/-
  From "every entry's absolute value compares below +∞" to "every entry is a real number", at the ideal instance.

  A printed finiteness precondition asks, array by array, `jnp.all(jnp.abs(x) < inf)`: a host `abs`, a comparison against the
  broadcast word of +∞, and an all-reduce by `and` into a scalar. `posInf`: that word denotes ⊤. `real_of_abs_lt`: an
  extended real whose absolute value `max x (-x)` compares below ⊤ is neither infinity, hence a real. `all_real`: if the
  and-reduce of the comparisons over the whole array is 1, every entry of the array is real — for any shape and any list
  of reduced axes, the result a scalar. A certificate opens its own precondition's conjunction (`IntOp.andi_eq_one`) and
  hands each conjunct to `all_real`.
-/
import Idealize.ShloMosaic.Lib.ReduceAll
import Idealize.ShloMosaic.Lib.Affine
import Idealize.ShloMosaic.Lib.ValueIdx
import Idealize.ShloMosaic.PureOps.Ideal.Laws

noncomputable section

namespace FiniteReal

open Idealize.ShloMosaic Idealize.ShloMosaic.ValueIdx

/-- A scalar has one index. -/
instance scalarIdx_subsingleton : Subsingleton (⟨0, ![]⟩ : Shape).Idx := ⟨fun _ _ => funext fun d => d.elim0⟩

/-- The word of +∞ denotes the top of the extended reals. -/
theorem posInf : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [posInf] at h
  have hlt : max x (-x) < ⊤ := by
    by_contra hn
    have : Ideal.cmp .olt (max x (-x)) ⊤ = 0#1 := by
      unfold Ideal.cmp
      simp [hn]
    rw [this] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- One array's answer: if all its entries' absolute values compare below +∞, every entry is real. -/
theorem all_real {s : Shape} {axes : List (Fin s.rank)} (x : FVec Ideal s .f32)
    (hb : (⟨0, ![]⟩ : Shape).BroadcastsInDim s (![] : Fin 0 → Fin s.rank))
    (h : s.ReducesTo axes (⟨0, ![]⟩ : Shape)) (hu : 0 < (⟨0, ![]⟩ : Shape).numel) (init : IVec (⟨0, ![]⟩ : Shape) 1)
    (e : Host.reduce IntOp.andi (cmpf .olt (Host.absf x)
      (broadcastInDim s ![] hb (constant (F := Ideal) (⟨0, ![]⟩ : Shape) .f32 0x7F800000#32))) init h hu ix0 = 1#1)
    (i : s.Idx) : ∃ r : ℝ, x i = (r : EReal) :=
  real_of_abs_lt (x i) (Host.reduce_andi_all _ init h hu ix0 e i)

end FiniteReal

end
-- ==== Proof.PreReal.lean ====
/-
  The precondition read: when the printed finiteness predicate of the ten arguments is all ones, every entry of each
  of the nine float arrays is a real number (the predicate is the conjunction, array by array, of "every entry's
  absolute value compares below +∞").
-/
import proofs.«128301_j8701603742430_2_alg».proof.Pre_finite_inputs
import proofs.«128301_j8701603742430_2_alg».proof.Proof.LibFiniteReal

set_option maxRecDepth 16384

noncomputable section

namespace Cert.PreReal

open Idealize.ShloMosaic Idealize.ShloMosaic.ValueIdx Cert.Pre_finite_inputs Cert.Pre_finite_inputs.Facts

variable [Cert.Pre_finite_inputs.Facts]

theorem reals (a0 : FVec Ideal S100000x64 .f32) (a1 : IVec S2x1600000 32) (a2 : FVec Ideal S64x64 .f32) (a3 : FVec Ideal S64 .f32)
    (a4 : FVec Ideal S3x64x64 .f32) (a5 : FVec Ideal S3x64 .f32) (a6 : FVec Ideal S64x40 .f32) (a7 : FVec Ideal S40 .f32)
    (a8 : FVec Ideal S4x64 .f32) (a9 : FVec Ideal S4x64 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal)) := by
  have h0 := congrFun h ix0
  dsimp only [Cert.Pre_finite_inputs.fn, Cert.Pre_finite_inputs.fn_part1, Cert.Pre_finite_inputs.fn_part2] at h0
  obtain ⟨h8, e9⟩ := IntOp.andi_eq_one.1 h0
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨FiniteReal.all_real a0 _ _ _ _ e0, FiniteReal.all_real a2 _ _ _ _ e2, FiniteReal.all_real a3 _ _ _ _ e3,
    FiniteReal.all_real a4 _ _ _ _ e4, FiniteReal.all_real a5 _ _ _ _ e5, FiniteReal.all_real a6 _ _ _ _ e6,
    FiniteReal.all_real a7 _ _ _ _ e7, FiniteReal.all_real a8 _ _ _ _ e8, FiniteReal.all_real a9 _ _ _ _ e9⟩

end Cert.PreReal

end
-- ==== Proof.Bridge.lean ====
/-
  The two idealised programs compute one function. The kernel program's result buffer holds the four-round network
  with each batch normalised from its column sum and sum of squares; the reference's holds the same network with each
  batch normalised from its centred squares. The two normalisations agree on real entries, and every entry stays real
  from round to round when the inputs are finite: the aggregation adds finitely many gathered entries, the linear
  stage and the rectifier are sums, products and maxima, and the variance plus a positive constant has a real
  reciprocal square root.
-/
import proofs.«128301_j8701603742430_2_alg».proof.Defs
import proofs.«128301_j8701603742430_2_alg».proof.Proof.KI.Run
import proofs.«128301_j8701603742430_2_alg».proof.Proof.KI.Args
import proofs.«128301_j8701603742430_2_alg».proof.Proof.KI.Chain
import proofs.«128301_j8701603742430_2_alg».proof.Proof.KI.R0Value
import proofs.«128301_j8701603742430_2_alg».proof.Proof.KI.R1Value
import proofs.«128301_j8701603742430_2_alg».proof.Proof.KI.R2Value
import proofs.«128301_j8701603742430_2_alg».proof.Proof.KI.R3Value
import proofs.«128301_j8701603742430_2_alg».proof.Proof.KI.R4Value
import proofs.«128301_j8701603742430_2_alg».proof.Proof.KI.R5Value
import proofs.«128301_j8701603742430_2_alg».proof.Proof.KI.R6Value
import proofs.«128301_j8701603742430_2_alg».proof.Proof.KI.R7Value
import proofs.«128301_j8701603742430_2_alg».proof.Proof.KI.R8Value
import proofs.«128301_j8701603742430_2_alg».proof.Proof.KI.R0Stats
import proofs.«128301_j8701603742430_2_alg».proof.Proof.KI.R2Stats
import proofs.«128301_j8701603742430_2_alg».proof.Proof.KI.R4Stats
import proofs.«128301_j8701603742430_2_alg».proof.Proof.KI.R6Stats
import proofs.«128301_j8701603742430_2_alg».proof.Proof.KI.AggReal
import proofs.«128301_j8701603742430_2_alg».proof.Proof.Ref.Run
import proofs.«128301_j8701603742430_2_alg».proof.Proof.Ref.ValueOut
import proofs.«128301_j8701603742430_2_alg».proof.Proof.SpecNet
import proofs.«128301_j8701603742430_2_alg».proof.Proof.SpecCoords
import proofs.«128301_j8701603742430_2_alg».proof.Proof.PreReal

set_option maxRecDepth 16384

noncomputable section

namespace Cert.Proof.Bridge

open Idealize.ShloMosaic Idealize.ShloMosaic.TcCoe Idealize.SL.Sem Idealize.ShloMosaic.ValueIdx RealValued GinSpec

abbrev cntW : EReal := Ideal.ofBits .f32 0x47C35000#32
abbrev epsW : EReal := Ideal.ofBits .f32 0x3727C5AC#32

section Kernel
open Cert.KernelIdeal Cert.KernelIdeal.Gen Cert.KernelIdeal.Hand Cert.KernelIdeal.HandHost Cert.KernelIdeal.HandRun

variable (m : (ℓ : Loc Cert.KernelIdeal.nD Cert.KernelIdeal.τ Cert.KernelIdeal.sig) → Buf (Elt Ideal) ℓ) (c : Dev Cert.KernelIdeal.nD)

set_option maxHeartbeats 4000000 in
/-- The kernel program's result buffer at the last boundary is the network normalised from the moments. -/
theorem kernel_value : Bd18 m c (Proc.devRef .tc main_v103)
    = ofCoords (netM cntW epsW (aggC m c) (pX m c) (pW0 m c) (pb0 m c) (pg m c 0) (pbe m c 0) (pW m c 0) (pb m c 0) (pg m c 1) (pbe m c 1)
        (pW m c 1) (pb m c 1) (pg m c 2) (pbe m c 2) (pW m c 2) (pb m c 2) (pg m c 3) (pbe m c 3) (pWf m c) (pbf m c)) :=
  by
  have h0_4 := final0_4 (Bv1 m) c
  have h0_5 := final0_5 (Bv1 m) c
  have h0_6 := final0_6 (Bv1 m) c
  have h1_5 := final1_5 (Bv3 m) c
  have h2_4 := final2_4 (Bv5 m) c
  have h2_5 := final2_5 (Bv5 m) c
  have h2_6 := final2_6 (Bv5 m) c
  have h3_5 := final3_5 (Bv7 m) c
  have h4_4 := final4_4 (Bv9 m) c
  have h4_5 := final4_5 (Bv9 m) c
  have h4_6 := final4_6 (Bv9 m) c
  have h5_5 := final5_5 (Bv11 m) c
  have h6_4 := final6_4 (Bv13 m) c
  have h6_5 := final6_5 (Bv13 m) c
  have h6_6 := final6_6 (Bv13 m) c
  have h7_5 := final7_5 (Bv15 m) c
  have h8_4 := final8_4 (Bv17 m) c
  exact kernel_value_of m c h0_4 h0_5 h0_6 h1_5 h2_4 h2_5 h2_6 h3_5 h4_4 h4_5 h4_6 h5_5 h6_4 h6_5 h6_6 h7_5 h8_4

/-- The aggregation keeps real entries real. -/
theorem aggC_real (h : Fin 100000 → Fin 64 → EReal) (hh : ∀ i k, RealNum (h i k)) : ∀ i k, RealNum (aggC m c h i k) :=
  aggOf_coords_real _ _ h hh

end Kernel

section Join
open Cert.KernelIdeal.HandRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Both programs aggregate with the same host operations: along one edge list the two aggregations are one function. -/
theorem agg_same : Cert.ReferenceIdeal.Hand.aggRC (m ((c.tc : Thread Cert.KernelIdeal.nD Cert.KernelIdeal.τ).loc Cert.KernelIdeal.main_arg1)) = aggC m c := rfl

/-- The reference's result on the kernel program's launch data is the network normalised from the centred squares. -/
theorem ref_on :
    Cert.ReferenceIdeal.Hand.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    = ofCoords (netC cntW epsW (aggC m c) (pX m c) (pW0 m c) (pb0 m c) (pg m c 0) (pbe m c 0) (pW m c 0) (pb m c 0) (pg m c 1) (pbe m c 1)
        (pW m c 1) (pb m c 1) (pg m c 2) (pbe m c 2) (pW m c 2) (pb m c 2) (pg m c 3) (pbe m c 3) (pWf m c) (pbf m c)) := by
  rw [Cert.ReferenceIdeal.Hand.refOut_eq, agg_same m c]
  rfl

variable [Cert.Pre_finite_inputs.Facts]

/-- Under the precondition the two normalisations agree round by round, so the two networks are one function. -/
theorem nets_eq (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1) :
    netM cntW epsW (aggC m c) (pX m c) (pW0 m c) (pb0 m c) (pg m c 0) (pbe m c 0) (pW m c 0) (pb m c 0) (pg m c 1) (pbe m c 1)
        (pW m c 1) (pb m c 1) (pg m c 2) (pbe m c 2) (pW m c 2) (pb m c 2) (pg m c 3) (pbe m c 3) (pWf m c) (pbf m c)
    = netC cntW epsW (aggC m c) (pX m c) (pW0 m c) (pb0 m c) (pg m c 0) (pbe m c 0) (pW m c 0) (pb m c 0) (pg m c 1) (pbe m c 1)
        (pW m c 1) (pb m c 1) (pg m c 2) (pbe m c 2) (pW m c 2) (pb m c 2) (pg m c 3) (pbe m c 3) (pWf m c) (pbf m c) := by
  obtain ⟨h0, h2, h3, h4, h5, h6, h7, h8, h9⟩ := Cert.PreReal.reals _ _ _ _ _ _ _ _ _ _ hpre
  exact netM_eq_netC_lit (aggC_real m c) (fun i k => h0 _) (fun k j => h2 _) (fun j => h3 _) (fun j => h8 _) (fun j => h9 _)
    (fun k j => h4 _) (fun j => h5 _) (fun j => h8 _) (fun j => h9 _)
    (fun k j => h4 _) (fun j => h5 _) (fun j => h8 _) (fun j => h9 _)
    (fun k j => h4 _) (fun j => h5 _) _ _ _ _

/-- The reference's result buffer, run from a memory agreeing with the kernel program's on the arguments, holds what the
    kernel program's result buffer holds. -/
theorem value_eq (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    StableHlo.after Cert.ReferenceIdeal.Hand.ops (fun b => m' (c, b)) (Proc.devRef .tc Cert.ReferenceIdeal.main_v187)
      = Bd18 m c (Proc.devRef .tc Cert.KernelIdeal.main_v103) := by
  obtain ⟨a0, a1, a2, a3, a4, a5, a6, a7, a8, a9⟩ := hag
  have e1 : StableHlo.after Cert.ReferenceIdeal.Hand.ops (fun b => m' (c, b)) (Proc.devRef .tc Cert.ReferenceIdeal.main_v187)
      = Cert.ReferenceIdeal.Hand.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) :=
    Cert.ReferenceIdeal.Hand.ref_value _
  rw [e1, a0, a1, a2, a3, a4, a5, a6, a7, a8, a9, ref_on m c, kernel_value m c, nets_eq m c hpre]

end Join

/-- The two idealised programs, run from memories agreeing on the arguments, both terminate, with equal results and
    unchanged arguments. -/
theorem algebraic : Cert.algebraic_KernelIdeal_ReferenceIdeal := by
  intro m ρ m' ρ' hpre hagree
  refine ⟨fun c => Cert.KernelIdeal.HandRun.Bd18 m c (Proc.devRef .tc Cert.KernelIdeal.main_v103), ?_, ?_⟩
  · exact (θ_run (Cert.KernelIdeal.defs (F := Ideal)) _ _).mono (fun r h c =>
      ⟨h c _ (Cert.KernelIdeal.HandRun.mem_uc Cert.KernelIdeal.main_v103 (by decide)),
       (h c _ (Cert.KernelIdeal.HandRun.mem_uc Cert.KernelIdeal.main_arg0 (by decide))).trans (Cert.KernelIdeal.HandRun.Bd18_main_arg0 m c),
       (h c _ (Cert.KernelIdeal.HandRun.mem_uc Cert.KernelIdeal.main_arg1 (by decide))).trans (Cert.KernelIdeal.HandRun.Bd18_main_arg1 m c),
       (h c _ (Cert.KernelIdeal.HandRun.mem_uc Cert.KernelIdeal.main_arg2 (by decide))).trans (Cert.KernelIdeal.HandRun.Bd18_main_arg2 m c),
       (h c _ (Cert.KernelIdeal.HandRun.mem_uc Cert.KernelIdeal.main_arg3 (by decide))).trans (Cert.KernelIdeal.HandRun.Bd18_main_arg3 m c),
       (h c _ (Cert.KernelIdeal.HandRun.mem_uc Cert.KernelIdeal.main_arg4 (by decide))).trans (Cert.KernelIdeal.HandRun.Bd18_main_arg4 m c),
       (h c _ (Cert.KernelIdeal.HandRun.mem_uc Cert.KernelIdeal.main_arg5 (by decide))).trans (Cert.KernelIdeal.HandRun.Bd18_main_arg5 m c),
       (h c _ (Cert.KernelIdeal.HandRun.mem_uc Cert.KernelIdeal.main_arg6 (by decide))).trans (Cert.KernelIdeal.HandRun.Bd18_main_arg6 m c),
       (h c _ (Cert.KernelIdeal.HandRun.mem_uc Cert.KernelIdeal.main_arg7 (by decide))).trans (Cert.KernelIdeal.HandRun.Bd18_main_arg7 m c),
       (h c _ (Cert.KernelIdeal.HandRun.mem_uc Cert.KernelIdeal.main_arg8 (by decide))).trans (Cert.KernelIdeal.HandRun.Bd18_main_arg8 m c),
       (h c _ (Cert.KernelIdeal.HandRun.mem_uc Cert.KernelIdeal.main_arg9 (by decide))).trans (Cert.KernelIdeal.HandRun.Bd18_main_arg9 m c)⟩)
      (Cert.KernelIdeal.HandRun.run (F := Ideal) m ρ)
  · exact (θ_run (Cert.ReferenceIdeal.defs (F := Ideal)) _ _).mono (fun r h c =>
      ⟨(h c).1.trans (value_eq m m' c (hpre c) (hagree c)), (h c).2⟩)
      (Cert.ReferenceIdeal.Hand.run (F := Ideal) m' ρ')

end Cert.Proof.Bridge

end
-- ==== Proof.lean ====
/-
  The certificate's claim, assembled. The kernel program is eighteen items — nine stretches of host operations, each
  followed by a kernel region over twenty blocks of five thousand rows — and its frame, at the word level and at the
  ideal instance alike, is the run over those items: every region's body is run symbolically at a generic block, the
  column accumulators of the four statistics regions are carried from block to block in the invariant, and no item
  writes an argument. The reference is a line of host operations, run as one. The idealisation rewrote nothing, so
  it preserves the program trivially. At the ideal instance both programs compute the same four-round network: they
  differ only in how a batch's variance is formed (from the sum of squares, clamped at zero, against the centred
  squares), and those agree on real entries, which finite inputs keep real through every round.
-/
import proofs.«128301_j8701603742430_2_alg».proof.Defs
import proofs.«128301_j8701603742430_2_alg».proof.Proof.Gen.Kernel
import proofs.«128301_j8701603742430_2_alg».proof.Proof.Gen.KernelIdeal
import proofs.«128301_j8701603742430_2_alg».proof.Proof.Gen.ReferenceIdeal
import proofs.«128301_j8701603742430_2_alg».proof.Proof.Gen.Pre_finite_inputs
import proofs.«128301_j8701603742430_2_alg».proof.Proof.K.Frame
import proofs.«128301_j8701603742430_2_alg».proof.Proof.KI.Frame
import proofs.«128301_j8701603742430_2_alg».proof.Proof.Ref.Run
import proofs.«128301_j8701603742430_2_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.HandRun.frame m ρ,
    fun m ρ _ => Cert.KernelIdeal.HandRun.frame m ρ,
    Cert.ReferenceIdeal.Hand.frame,
    trivial,
    Cert.Proof.Bridge.algebraic⟩

end Cert.Proof

end
